-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v50_0)) (v2 : (c : Dev Cert.KernelIdeal.nD) → Buf (Elt Ideal) ((c.tc : Thread Cert.KernelIdeal.nD Cert.KernelIdeal.τ).loc Cert.KernelIdeal.main_v50_1)) (v3 : (c : Dev Cert.KernelIdeal.nD) → Buf (Elt Ideal) ((c.tc : Thread Cert.KernelIdeal.nD Cert.KernelIdeal.τ).loc Cert.KernelIdeal.main_v50_2)) (v4 : (c : Dev Cert.KernelIdeal.nD) → Buf (Elt Ideal) ((c.tc : Thread Cert.KernelIdeal.nD Cert.KernelIdeal.τ).loc Cert.KernelIdeal.main_v50_3)) (v5 : (c : Dev Cert.KernelIdeal.nD) → Buf (Elt Ideal) ((c.tc : Thread Cert.KernelIdeal.nD Cert.KernelIdeal.τ).loc Cert.KernelIdeal.main_v50_4)) (v6 : (c : Dev Cert.KernelIdeal.nD) → Buf (Elt Ideal) ((c.tc : Thread Cert.KernelIdeal.nD Cert.KernelIdeal.τ).loc Cert.KernelIdeal.main_v50_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v50_0) = v1 c
          ∧ r.2.mem ((c.tc : Thread Cert.KernelIdeal.nD Cert.KernelIdeal.τ).loc Cert.KernelIdeal.main_v50_1) = v2 c
          ∧ r.2.mem ((c.tc : Thread Cert.KernelIdeal.nD Cert.KernelIdeal.τ).loc Cert.KernelIdeal.main_v50_2) = v3 c
          ∧ r.2.mem ((c.tc : Thread Cert.KernelIdeal.nD Cert.KernelIdeal.τ).loc Cert.KernelIdeal.main_v50_3) = v4 c
          ∧ r.2.mem ((c.tc : Thread Cert.KernelIdeal.nD Cert.KernelIdeal.τ).loc Cert.KernelIdeal.main_v50_4) = v5 c
          ∧ r.2.mem ((c.tc : Thread Cert.KernelIdeal.nD Cert.KernelIdeal.τ).loc Cert.KernelIdeal.main_v50_5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v226) = v0 c
          ∧ r.2.mem ((c.tc : Thread Cert.ReferenceIdeal.nD Cert.ReferenceIdeal.τ).loc Cert.ReferenceIdeal.main_v228) = v1 c
          ∧ r.2.mem ((c.tc : Thread Cert.ReferenceIdeal.nD Cert.ReferenceIdeal.τ).loc Cert.ReferenceIdeal.main_v230) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v145) = v4 c
          ∧ r.2.mem ((c.tc : Thread Cert.ReferenceIdeal.nD Cert.ReferenceIdeal.τ).loc Cert.ReferenceIdeal.main_v192) = v5 c
          ∧ r.2.mem ((c.tc : Thread Cert.ReferenceIdeal.nD Cert.ReferenceIdeal.τ).loc Cert.ReferenceIdeal.main_v36) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x80 : Shape := ⟨2, ![65536, 80]⟩
abbrev S65536x256 : Shape := ⟨2, ![65536, 256]⟩
abbrev S65536 : Shape := ⟨1, ![65536]⟩
abbrev S65536x160 : Shape := ⟨2, ![65536, 160]⟩
abbrev S65536x128 : Shape := ⟨2, ![65536, 128]⟩
abbrev S65536x164 : Shape := ⟨2, ![65536, 164]⟩
abbrev S1x80 : Shape := ⟨2, ![1, 80]⟩
abbrev S1 : Shape := ⟨1, ![1]⟩
abbrev S192x328 : Shape := ⟨2, ![192, 328]⟩
abbrev S192x192 : Shape := ⟨2, ![192, 192]⟩
abbrev S480x272 : Shape := ⟨2, ![480, 272]⟩
abbrev S480x160 : Shape := ⟨2, ![480, 160]⟩
abbrev S384x240 : Shape := ⟨2, ![384, 240]⟩
abbrev S384x128 : Shape := ⟨2, ![384, 128]⟩
abbrev S384x208 : Shape := ⟨2, ![384, 208]⟩
abbrev S160x160 : Shape := ⟨2, ![160, 160]⟩
abbrev S128x128 : Shape := ⟨2, ![128, 128]⟩
abbrev S128x688 : Shape := ⟨2, ![128, 688]⟩
abbrev S40x128 : Shape := ⟨2, ![40, 128]⟩
abbrev S4x192 : Shape := ⟨2, ![4, 192]⟩
abbrev S4 : Shape := ⟨1, ![4]⟩
abbrev S_ : Shape := ⟨0, ![]⟩

class Facts : Prop where
  bcast_S_S65536x80 : S_.BroadcastsInDim S65536x80 (![] : Fin 0 → Fin S65536x80.rank)
  reducesTo_S65536x80_S_d0_1 : S65536x80.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S65536x160 : S_.BroadcastsInDim S65536x160 (![] : Fin 0 → Fin S65536x160.rank)
  reducesTo_S65536x160_S_d0_1 : S65536x160.ReducesTo [0, 1] S_
  bcast_S_S65536x128 : S_.BroadcastsInDim S65536x128 (![] : Fin 0 → Fin S65536x128.rank)
  reducesTo_S65536x128_S_d0_1 : S65536x128.ReducesTo [0, 1] S_
  bcast_S_S65536x164 : S_.BroadcastsInDim S65536x164 (![] : Fin 0 → Fin S65536x164.rank)
  reducesTo_S65536x164_S_d0_1 : S65536x164.ReducesTo [0, 1] S_
  bcast_S_S1x80 : S_.BroadcastsInDim S1x80 (![] : Fin 0 → Fin S1x80.rank)
  reducesTo_S1x80_S_d0_1 : S1x80.ReducesTo [0, 1] S_
  bcast_S_S1 : S_.BroadcastsInDim S1 (![] : Fin 0 → Fin S1.rank)
  reducesTo_S1_S_d0 : S1.ReducesTo [0] S_
  bcast_S_S192x328 : S_.BroadcastsInDim S192x328 (![] : Fin 0 → Fin S192x328.rank)
  reducesTo_S192x328_S_d0_1 : S192x328.ReducesTo [0, 1] S_
  bcast_S_S192x192 : S_.BroadcastsInDim S192x192 (![] : Fin 0 → Fin S192x192.rank)
  reducesTo_S192x192_S_d0_1 : S192x192.ReducesTo [0, 1] S_
  bcast_S_S480x272 : S_.BroadcastsInDim S480x272 (![] : Fin 0 → Fin S480x272.rank)
  reducesTo_S480x272_S_d0_1 : S480x272.ReducesTo [0, 1] S_
  bcast_S_S480x160 : S_.BroadcastsInDim S480x160 (![] : Fin 0 → Fin S480x160.rank)
  reducesTo_S480x160_S_d0_1 : S480x160.ReducesTo [0, 1] S_
  bcast_S_S384x240 : S_.BroadcastsInDim S384x240 (![] : Fin 0 → Fin S384x240.rank)
  reducesTo_S384x240_S_d0_1 : S384x240.ReducesTo [0, 1] S_
  bcast_S_S384x128 : S_.BroadcastsInDim S384x128 (![] : Fin 0 → Fin S384x128.rank)
  reducesTo_S384x128_S_d0_1 : S384x128.ReducesTo [0, 1] S_
  bcast_S_S384x208 : S_.BroadcastsInDim S384x208 (![] : Fin 0 → Fin S384x208.rank)
  reducesTo_S384x208_S_d0_1 : S384x208.ReducesTo [0, 1] S_
  bcast_S_S160x160 : S_.BroadcastsInDim S160x160 (![] : Fin 0 → Fin S160x160.rank)
  reducesTo_S160x160_S_d0_1 : S160x160.ReducesTo [0, 1] S_
  bcast_S_S128x128 : S_.BroadcastsInDim S128x128 (![] : Fin 0 → Fin S128x128.rank)
  reducesTo_S128x128_S_d0_1 : S128x128.ReducesTo [0, 1] S_
  bcast_S_S128x688 : S_.BroadcastsInDim S128x688 (![] : Fin 0 → Fin S128x688.rank)
  reducesTo_S128x688_S_d0_1 : S128x688.ReducesTo [0, 1] S_
  bcast_S_S40x128 : S_.BroadcastsInDim S40x128 (![] : Fin 0 → Fin S40x128.rank)
  reducesTo_S40x128_S_d0_1 : S40x128.ReducesTo [0, 1] S_
  bcast_S_S4x192 : S_.BroadcastsInDim S4x192 (![] : Fin 0 → Fin S4x192.rank)
  reducesTo_S4x192_S_d0_1 : S4x192.ReducesTo [0, 1] S_
  bcast_S_S4 : S_.BroadcastsInDim S4 (![] : Fin 0 → Fin S4.rank)
  reducesTo_S4_S_d0 : S4.ReducesTo [0] S_

variable [Facts]

def fn_part7 {F : FTy → Type} [FloatOps F] (main_v118 : IVec S_ 1) (main_v119 : FVec F S4 .f32) : IVec S_ 1 :=
  let main_cst_46 : FVec F S_ .f32 := constant S_ .f32 0x7F800000#32
  let main_v120 : FVec F S4 .f32 := broadcastInDim S4 ![] bcast_S_S4 main_cst_46
  let main_v121 : IVec S4 1 := cmpf .olt main_v119 main_v120
  let main_c_47 : IVec S_ 1 := constantI S_ 1 1#1
  let main_v122 : IVec S_ 1 := (fun x v => Host.reduce IntOp.andi x v reducesTo_S4_S_d0 h_S_) main_v121 main_c_47
  let main_v123 : IVec S_ 1 := andi main_v118 main_v122
  main_v123

def fn_part6 {F : FTy → Type} [FloatOps F] (main_arg22 : FVec F S128x688 .f32) (main_arg23 : FVec F S40x128 .f32) (main_arg24 : FVec F S4x192 .f32) (main_arg25 : FVec F S4 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128x688 .f32 := Host.absf main_arg22
  let main_cst_40 : FVec F S_ .f32 := constant S_ .f32 0x7F800000#32
  let main_v105 : FVec F S128x688 .f32 := broadcastInDim S128x688 ![] bcast_S_S128x688 main_cst_40
  let main_v106 : IVec S128x688 1 := cmpf .olt main_v104 main_v105
  let main_c_41 : IVec S_ 1 := constantI S_ 1 1#1
  let main_v107 : IVec S_ 1 := (fun x v => Host.reduce IntOp.andi x v reducesTo_S128x688_S_d0_1 h_S_) main_v106 main_c_41
  let main_v108 : IVec S_ 1 := andi main_v103 main_v107
  let main_v109 : FVec F S40x128 .f32 := Host.absf main_arg23
  let main_cst_42 : FVec F S_ .f32 := constant S_ .f32 0x7F800000#32
  let main_v110 : FVec F S40x128 .f32 := broadcastInDim S40x128 ![] bcast_S_S40x128 main_cst_42
  let main_v111 : IVec S40x128 1 := cmpf .olt main_v109 main_v110
  let main_c_43 : IVec S_ 1 := constantI S_ 1 1#1
  let main_v112 : IVec S_ 1 := (fun x v => Host.reduce IntOp.andi x v reducesTo_S40x128_S_d0_1 h_S_) main_v111 main_c_43
  let main_v113 : IVec S_ 1 := andi main_v108 main_v112
  let main_v114 : FVec F S4x192 .f32 := Host.absf main_arg24
  let main_cst_44 : FVec F S_ .f32 := constant S_ .f32 0x7F800000#32
  let main_v115 : FVec F S4x192 .f32 := broadcastInDim S4x192 ![] bcast_S_S4x192 main_cst_44
  let main_v116 : IVec S4x192 1 := cmpf .olt main_v114 main_v115
  let main_c_45 : IVec S_ 1 := constantI S_ 1 1#1
  let main_v117 : IVec S_ 1 := (fun x v => Host.reduce IntOp.andi x v reducesTo_S4x192_S_d0_1 h_S_) main_v116 main_c_45
  let main_v118 : IVec S_ 1 := andi main_v113 main_v117
  let main_v119 : FVec F S4 .f32 := Host.absf main_arg25
  fn_part7 (F := F) main_v118 main_v119

def fn_part5 {F : FTy → Type} [FloatOps F] (main_arg19 : FVec F S128x128 .f32) (main_arg20 : FVec F S128x128 .f32) (main_arg21 : FVec F S128x128 .f32) (main_arg22 : FVec F S128x688 .f32) (main_arg23 : FVec F S40x128 .f32) (main_arg24 : FVec F S4x192 .f32) (main_arg25 : FVec F S4 .f32) (main_v83 : IVec S_ 1) (main_v84 : FVec F S160x160 .f32) (main_cst_32 : FVec F S_ .f32) : IVec S_ 1 :=
  let main_v85 : FVec F S160x160 .f32 := broadcastInDim S160x160 ![] bcast_S_S160x160 main_cst_32
  let main_v86 : IVec S160x160 1 := cmpf .olt main_v84 main_v85
  let main_c_33 : IVec S_ 1 := constantI S_ 1 1#1
  let main_v87 : IVec S_ 1 := (fun x v => Host.reduce IntOp.andi x v reducesTo_S160x160_S_d0_1 h_S_) main_v86 main_c_33
  let main_v88 : IVec S_ 1 := andi main_v83 main_v87
  let main_v89 : FVec F S128x128 .f32 := Host.absf main_arg19
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128x128 .f32 := Host.absf main_arg20
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128x128 .f32 := Host.absf main_arg21
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg22 main_arg23 main_arg24 main_arg25 main_v98 main_v101 main_c_39

def fn_part4 {F : FTy → Type} [FloatOps F] (main_arg15 : FVec F S384x128 .f32) (main_arg16 : FVec F S384x208 .f32) (main_arg17 : FVec F S384x128 .f32) (main_arg18 : FVec F S160x160 .f32) (main_arg19 : FVec F S128x128 .f32) (main_arg20 : FVec F S128x128 .f32) (main_arg21 : FVec F S128x128 .f32) (main_arg22 : FVec F S128x688 .f32) (main_arg23 : FVec F S40x128 .f32) (main_arg24 : FVec F S4x192 .f32) (main_arg25 : FVec F S4 .f32) (main_v63 : IVec S_ 1) (main_v67 : IVec S_ 1) : IVec S_ 1 :=
  let main_v68 : IVec S_ 1 := andi main_v63 main_v67
  let main_v69 : FVec F S384x128 .f32 := Host.absf main_arg15
  let main_cst_26 : FVec F S_ .f32 := constant S_ .f32 0x7F800000#32
  let main_v70 : FVec F S384x128 .f32 := broadcastInDim S384x128 ![] bcast_S_S384x128 main_cst_26
  let main_v71 : IVec S384x128 1 := cmpf .olt main_v69 main_v70
  let main_c_27 : IVec S_ 1 := constantI S_ 1 1#1
  let main_v72 : IVec S_ 1 := (fun x v => Host.reduce IntOp.andi x v reducesTo_S384x128_S_d0_1 h_S_) main_v71 main_c_27
  let main_v73 : IVec S_ 1 := andi main_v68 main_v72
  let main_v74 : FVec F S384x208 .f32 := Host.absf main_arg16
  let main_cst_28 : FVec F S_ .f32 := constant S_ .f32 0x7F800000#32
  let main_v75 : FVec F S384x208 .f32 := broadcastInDim S384x208 ![] bcast_S_S384x208 main_cst_28
  let main_v76 : IVec S384x208 1 := cmpf .olt main_v74 main_v75
  let main_c_29 : IVec S_ 1 := constantI S_ 1 1#1
  let main_v77 : IVec S_ 1 := (fun x v => Host.reduce IntOp.andi x v reducesTo_S384x208_S_d0_1 h_S_) main_v76 main_c_29
  let main_v78 : IVec S_ 1 := andi main_v73 main_v77
  let main_v79 : FVec F S384x128 .f32 := Host.absf main_arg17
  let main_cst_30 : FVec F S_ .f32 := constant S_ .f32 0x7F800000#32
  let main_v80 : FVec F S384x128 .f32 := broadcastInDim S384x128 ![] bcast_S_S384x128 main_cst_30
  let main_v81 : IVec S384x128 1 := cmpf .olt main_v79 main_v80
  let main_c_31 : IVec S_ 1 := constantI S_ 1 1#1
  let main_v82 : IVec S_ 1 := (fun x v => Host.reduce IntOp.andi x v reducesTo_S384x128_S_d0_1 h_S_) main_v81 main_c_31
  let main_v83 : IVec S_ 1 := andi main_v78 main_v82
  let main_v84 : FVec F S160x160 .f32 := Host.absf main_arg18
  let main_cst_32 : FVec F S_ .f32 := constant S_ .f32 0x7F800000#32
  fn_part5 (F := F) main_arg19 main_arg20 main_arg21 main_arg22 main_arg23 main_arg24 main_arg25 main_v83 main_v84 main_cst_32

def fn_part3 {F : FTy → Type} [FloatOps F] (main_arg12 : FVec F S480x272 .f32) (main_arg13 : FVec F S480x160 .f32) (main_arg14 : FVec F S384x240 .f32) (main_arg15 : FVec F S384x128 .f32) (main_arg16 : FVec F S384x208 .f32) (main_arg17 : FVec F S384x128 .f32) (main_arg18 : FVec F S160x160 .f32) (main_arg19 : FVec F S128x128 .f32) (main_arg20 : FVec F S128x128 .f32) (main_arg21 : FVec F S128x128 .f32) (main_arg22 : FVec F S128x688 .f32) (main_arg23 : FVec F S40x128 .f32) (main_arg24 : FVec F S4x192 .f32) (main_arg25 : FVec F S4 .f32) (main_v48 : IVec S_ 1) (main_v49 : FVec F S192x192 .f32) (main_v50 : FVec F S192x192 .f32) : IVec S_ 1 :=
  let main_v51 : IVec S192x192 1 := cmpf .olt main_v49 main_v50
  let main_c_19 : IVec S_ 1 := constantI S_ 1 1#1
  let main_v52 : IVec S_ 1 := (fun x v => Host.reduce IntOp.andi x v reducesTo_S192x192_S_d0_1 h_S_) main_v51 main_c_19
  let main_v53 : IVec S_ 1 := andi main_v48 main_v52
  let main_v54 : FVec F S480x272 .f32 := Host.absf main_arg12
  let main_cst_20 : FVec F S_ .f32 := constant S_ .f32 0x7F800000#32
  let main_v55 : FVec F S480x272 .f32 := broadcastInDim S480x272 ![] bcast_S_S480x272 main_cst_20
  let main_v56 : IVec S480x272 1 := cmpf .olt main_v54 main_v55
  let main_c_21 : IVec S_ 1 := constantI S_ 1 1#1
  let main_v57 : IVec S_ 1 := (fun x v => Host.reduce IntOp.andi x v reducesTo_S480x272_S_d0_1 h_S_) main_v56 main_c_21
  let main_v58 : IVec S_ 1 := andi main_v53 main_v57
  let main_v59 : FVec F S480x160 .f32 := Host.absf main_arg13
  let main_cst_22 : FVec F S_ .f32 := constant S_ .f32 0x7F800000#32
  let main_v60 : FVec F S480x160 .f32 := broadcastInDim S480x160 ![] bcast_S_S480x160 main_cst_22
  let main_v61 : IVec S480x160 1 := cmpf .olt main_v59 main_v60
  let main_c_23 : IVec S_ 1 := constantI S_ 1 1#1
  let main_v62 : IVec S_ 1 := (fun x v => Host.reduce IntOp.andi x v reducesTo_S480x160_S_d0_1 h_S_) main_v61 main_c_23
  let main_v63 : IVec S_ 1 := andi main_v58 main_v62
  let main_v64 : FVec F S384x240 .f32 := Host.absf main_arg14
  let main_cst_24 : FVec F S_ .f32 := constant S_ .f32 0x7F800000#32
  let main_v65 : FVec F S384x240 .f32 := broadcastInDim S384x240 ![] bcast_S_S384x240 main_cst_24
  let main_v66 : IVec S384x240 1 := cmpf .olt main_v64 main_v65
  let main_c_25 : IVec S_ 1 := constantI S_ 1 1#1
  let main_v67 : IVec S_ 1 := (fun x v => Host.reduce IntOp.andi x v reducesTo_S384x240_S_d0_1 h_S_) main_v66 main_c_25
  fn_part4 (F := F) main_arg15 main_arg16 main_arg17 main_arg18 main_arg19 main_arg20 main_arg21 main_arg22 main_arg23 main_arg24 main_arg25 main_v63 main_v67

def fn_part2 {F : FTy → Type} [FloatOps F] (main_arg8 : FVec F S1x80 .f32) (main_arg9 : FVec F S1 .f32) (main_arg10 : FVec F S192x328 .f32) (main_arg11 : FVec F S192x192 .f32) (main_arg12 : FVec F S480x272 .f32) (main_arg13 : FVec F S480x160 .f32) (main_arg14 : FVec F S384x240 .f32) (main_arg15 : FVec F S384x128 .f32) (main_arg16 : FVec F S384x208 .f32) (main_arg17 : FVec F S384x128 .f32) (main_arg18 : FVec F S160x160 .f32) (main_arg19 : FVec F S128x128 .f32) (main_arg20 : FVec F S128x128 .f32) (main_arg21 : FVec F S128x128 .f32) (main_arg22 : FVec F S128x688 .f32) (main_arg23 : FVec F S40x128 .f32) (main_arg24 : FVec F S4x192 .f32) (main_arg25 : FVec F S4 .f32) (main_v33 : IVec S_ 1) : IVec S_ 1 :=
  let main_v34 : FVec F S1x80 .f32 := Host.absf main_arg8
  let main_cst_12 : FVec F S_ .f32 := constant S_ .f32 0x7F800000#32
  let main_v35 : FVec F S1x80 .f32 := broadcastInDim S1x80 ![] bcast_S_S1x80 main_cst_12
  let main_v36 : IVec S1x80 1 := cmpf .olt main_v34 main_v35
  let main_c_13 : IVec S_ 1 := constantI S_ 1 1#1
  let main_v37 : IVec S_ 1 := (fun x v => Host.reduce IntOp.andi x v reducesTo_S1x80_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S192x328 .f32 := Host.absf main_arg10
  let main_cst_16 : FVec F S_ .f32 := constant S_ .f32 0x7F800000#32
  let main_v45 : FVec F S192x328 .f32 := broadcastInDim S192x328 ![] bcast_S_S192x328 main_cst_16
  let main_v46 : IVec S192x328 1 := cmpf .olt main_v44 main_v45
  let main_c_17 : IVec S_ 1 := constantI S_ 1 1#1
  let main_v47 : IVec S_ 1 := (fun x v => Host.reduce IntOp.andi x v reducesTo_S192x328_S_d0_1 h_S_) main_v46 main_c_17
  let main_v48 : IVec S_ 1 := andi main_v43 main_v47
  let main_v49 : FVec F S192x192 .f32 := Host.absf main_arg11
  let main_cst_18 : FVec F S_ .f32 := constant S_ .f32 0x7F800000#32
  let main_v50 : FVec F S192x192 .f32 := broadcastInDim S192x192 ![] bcast_S_S192x192 main_cst_18
  fn_part3 (F := F) main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg5 : FVec F S65536x128 .f32) (main_arg6 : FVec F S65536x128 .f32) (main_arg7 : FVec F S65536x164 .f32) (main_arg8 : FVec F S1x80 .f32) (main_arg9 : FVec F S1 .f32) (main_arg10 : FVec F S192x328 .f32) (main_arg11 : FVec F S192x192 .f32) (main_arg12 : FVec F S480x272 .f32) (main_arg13 : FVec F S480x160 .f32) (main_arg14 : FVec F S384x240 .f32) (main_arg15 : FVec F S384x128 .f32) (main_arg16 : FVec F S384x208 .f32) (main_arg17 : FVec F S384x128 .f32) (main_arg18 : FVec F S160x160 .f32) (main_arg19 : FVec F S128x128 .f32) (main_arg20 : FVec F S128x128 .f32) (main_arg21 : FVec F S128x128 .f32) (main_arg22 : FVec F S128x688 .f32) (main_arg23 : FVec F S40x128 .f32) (main_arg24 : FVec F S4x192 .f32) (main_arg25 : FVec F S4 .f32) (main_v13 : IVec S_ 1) (main_v16 : IVec S65536x160 1) : IVec S_ 1 :=
  let main_c_5 : IVec S_ 1 := constantI S_ 1 1#1
  let main_v17 : IVec S_ 1 := (fun x v => Host.reduce IntOp.andi x v reducesTo_S65536x160_S_d0_1 h_S_) main_v16 main_c_5
  let main_v18 : IVec S_ 1 := andi main_v13 main_v17
  let main_v19 : FVec F S65536x128 .f32 := Host.absf main_arg5
  let main_cst_6 : FVec F S_ .f32 := constant S_ .f32 0x7F800000#32
  let main_v20 : FVec F S65536x128 .f32 := broadcastInDim S65536x128 ![] bcast_S_S65536x128 main_cst_6
  let main_v21 : IVec S65536x128 1 := cmpf .olt main_v19 main_v20
  let main_c_7 : IVec S_ 1 := constantI S_ 1 1#1
  let main_v22 : IVec S_ 1 := (fun x v => Host.reduce IntOp.andi x v reducesTo_S65536x128_S_d0_1 h_S_) main_v21 main_c_7
  let main_v23 : IVec S_ 1 := andi main_v18 main_v22
  let main_v24 : FVec F S65536x128 .f32 := Host.absf main_arg6
  let main_cst_8 : FVec F S_ .f32 := constant S_ .f32 0x7F800000#32
  let main_v25 : FVec F S65536x128 .f32 := broadcastInDim S65536x128 ![] bcast_S_S65536x128 main_cst_8
  let main_v26 : IVec S65536x128 1 := cmpf .olt main_v24 main_v25
  let main_c_9 : IVec S_ 1 := constantI S_ 1 1#1
  let main_v27 : IVec S_ 1 := (fun x v => Host.reduce IntOp.andi x v reducesTo_S65536x128_S_d0_1 h_S_) main_v26 main_c_9
  let main_v28 : IVec S_ 1 := andi main_v23 main_v27
  let main_v29 : FVec F S65536x164 .f32 := Host.absf main_arg7
  let main_cst_10 : FVec F S_ .f32 := constant S_ .f32 0x7F800000#32
  let main_v30 : FVec F S65536x164 .f32 := broadcastInDim S65536x164 ![] bcast_S_S65536x164 main_cst_10
  let main_v31 : IVec S65536x164 1 := cmpf .olt main_v29 main_v30
  let main_c_11 : IVec S_ 1 := constantI S_ 1 1#1
  let main_v32 : IVec S_ 1 := (fun x v => Host.reduce IntOp.andi x v reducesTo_S65536x164_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S65536x80 .f32) (main_arg1 : FVec F S65536x256 .f32) (main_arg2 : FVec F S65536x256 .f32) (main_arg3 : IVec S65536 32) (main_arg4 : FVec F S65536x160 .f32) (main_arg5 : FVec F S65536x128 .f32) (main_arg6 : FVec F S65536x128 .f32) (main_arg7 : FVec F S65536x164 .f32) (main_arg8 : FVec F S1x80 .f32) (main_arg9 : FVec F S1 .f32) (main_arg10 : FVec F S192x328 .f32) (main_arg11 : FVec F S192x192 .f32) (main_arg12 : FVec F S480x272 .f32) (main_arg13 : FVec F S480x160 .f32) (main_arg14 : FVec F S384x240 .f32) (main_arg15 : FVec F S384x128 .f32) (main_arg16 : FVec F S384x208 .f32) (main_arg17 : FVec F S384x128 .f32) (main_arg18 : FVec F S160x160 .f32) (main_arg19 : FVec F S128x128 .f32) (main_arg20 : FVec F S128x128 .f32) (main_arg21 : FVec F S128x128 .f32) (main_arg22 : FVec F S128x688 .f32) (main_arg23 : FVec F S40x128 .f32) (main_arg24 : FVec F S4x192 .f32) (main_arg25 : FVec F S4 .f32) : IVec S_ 1 :=
  let main_v0 : FVec F S65536x80 .f32 := Host.absf main_arg0
  let main_cst : FVec F S_ .f32 := constant S_ .f32 0x7F800000#32
  let main_v1 : FVec F S65536x80 .f32 := broadcastInDim S65536x80 ![] bcast_S_S65536x80 main_cst
  let main_v2 : IVec S65536x80 1 := cmpf .olt main_v0 main_v1
  let main_c : IVec S_ 1 := constantI S_ 1 1#1
  let main_v3 : IVec S_ 1 := (fun x v => Host.reduce IntOp.andi x v reducesTo_S65536x80_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S65536x160 .f32 := Host.absf main_arg4
  let main_cst_4 : FVec F S_ .f32 := constant S_ .f32 0x7F800000#32
  let main_v15 : FVec F S65536x160 .f32 := broadcastInDim S65536x160 ![] bcast_S_S65536x160 main_cst_4
  let main_v16 : IVec S65536x160 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S65536x80 : Shape := ⟨2, ![65536, 80]⟩
abbrev S65536x256 : Shape := ⟨2, ![65536, 256]⟩
abbrev S65536 : Shape := ⟨1, ![65536]⟩
abbrev S65536x160 : Shape := ⟨2, ![65536, 160]⟩
abbrev S65536x128 : Shape := ⟨2, ![65536, 128]⟩
abbrev S65536x164 : Shape := ⟨2, ![65536, 164]⟩
abbrev S1x80 : Shape := ⟨2, ![1, 80]⟩
abbrev S1 : Shape := ⟨1, ![1]⟩
abbrev S192x328 : Shape := ⟨2, ![192, 328]⟩
abbrev S192x192 : Shape := ⟨2, ![192, 192]⟩
abbrev S480x272 : Shape := ⟨2, ![480, 272]⟩
abbrev S480x160 : Shape := ⟨2, ![480, 160]⟩
abbrev S384x240 : Shape := ⟨2, ![384, 240]⟩
abbrev S384x128 : Shape := ⟨2, ![384, 128]⟩
abbrev S384x208 : Shape := ⟨2, ![384, 208]⟩
abbrev S160x160 : Shape := ⟨2, ![160, 160]⟩
abbrev S128x128 : Shape := ⟨2, ![128, 128]⟩
abbrev S128x688 : Shape := ⟨2, ![128, 688]⟩
abbrev S40x128 : Shape := ⟨2, ![40, 128]⟩
abbrev S4x192 : Shape := ⟨2, ![4, 192]⟩
abbrev S4 : Shape := ⟨1, ![4]⟩
abbrev S_ : Shape := ⟨0, ![]⟩
abbrev S65536x1 : Shape := ⟨2, ![65536, 1]⟩
abbrev S44 : Shape := ⟨1, ![44]⟩
abbrev S1x44 : Shape := ⟨2, ![1, 44]⟩
abbrev S65536x44 : Shape := ⟨2, ![65536, 44]⟩
abbrev S65536x44x1 : Shape := ⟨3, ![65536, 44, 1]⟩
abbrev S1x1x1 : Shape := ⟨3, ![1, 1, 1]⟩
abbrev S328x192 : Shape := ⟨2, ![328, 192]⟩
abbrev S272x480 : Shape := ⟨2, ![272, 480]⟩
abbrev S160x480 : Shape := ⟨2, ![160, 480]⟩
abbrev S240x384 : Shape := ⟨2, ![240, 384]⟩
abbrev S128x384 : Shape := ⟨2, ![128, 384]⟩
abbrev S208x384 : Shape := ⟨2, ![208, 384]⟩
abbrev S688x128 : Shape := ⟨2, ![688, 128]⟩
abbrev S128x40 : Shape := ⟨2, ![128, 40]⟩
abbrev S192x4 : Shape := ⟨2, ![192, 4]⟩
abbrev S1x1 : Shape := ⟨2, ![1, 1]⟩
abbrev S1x4 : Shape := ⟨2, ![1, 4]⟩
abbrev S512x80 : Shape := ⟨2, ![512, 80]⟩
abbrev S512x44 : Shape := ⟨2, ![512, 44]⟩
abbrev S512x256 : Shape := ⟨2, ![512, 256]⟩
abbrev S512x160 : Shape := ⟨2, ![512, 160]⟩
abbrev S512x128 : Shape := ⟨2, ![512, 128]⟩
abbrev S512x164 : Shape := ⟨2, ![512, 164]⟩
abbrev S512 : Shape := ⟨1, ![512]⟩
abbrev S512x1 : Shape := ⟨2, ![512, 1]⟩
abbrev S512x40 : Shape := ⟨2, ![512, 40]⟩
abbrev S512x328 : Shape := ⟨2, ![512, 328]⟩
abbrev S512x192 : Shape := ⟨2, ![512, 192]⟩
abbrev S512x4 : Shape := ⟨2, ![512, 4]⟩
abbrev S512x272 : Shape := ⟨2, ![512, 272]⟩
abbrev S512x480 : Shape := ⟨2, ![512, 480]⟩
abbrev S512x240 : Shape := ⟨2, ![512, 240]⟩
abbrev S512x384 : Shape := ⟨2, ![512, 384]⟩
abbrev S512x208 : Shape := ⟨2, ![512, 208]⟩
abbrev S512x608 : Shape := ⟨2, ![512, 608]⟩
abbrev S512x688 : Shape := ⟨2, ![512, 688]⟩
abbrev S512x216 : Shape := ⟨2, ![512, 216]⟩
abbrev S65536x40 : Shape := ⟨2, ![65536, 40]⟩

abbrev nBuf : Space → Nat
  | .hbm => 107
  | .vmem => 46
  | .smem => 0
  | _ => 0

abbrev bufTy : (tb : Table) → Fin (tcTables nBuf tb) → BufTy
  | .hbm, ⟨0, _⟩ => ⟨S65536x80, .f32⟩
  | .hbm, ⟨1, _⟩ => ⟨S65536x256, .f32⟩
  | .hbm, ⟨2, _⟩ => ⟨S65536x256, .f32⟩
  | .hbm, ⟨3, _⟩ => ⟨S65536, .i32⟩
  | .hbm, ⟨4, _⟩ => ⟨S65536x160, .f32⟩
  | .hbm, ⟨5, _⟩ => ⟨S65536x128, .f32⟩
  | .hbm, ⟨6, _⟩ => ⟨S65536x128, .f32⟩
  | .hbm, ⟨7, _⟩ => ⟨S65536x164, .f32⟩
  | .hbm, ⟨8, _⟩ => ⟨S1x80, .f32⟩
  | .hbm, ⟨9, _⟩ => ⟨S1, .f32⟩
  | .hbm, ⟨10, _⟩ => ⟨S192x328, .f32⟩
  | .hbm, ⟨11, _⟩ => ⟨S192x192, .f32⟩
  | .hbm, ⟨12, _⟩ => ⟨S480x272, .f32⟩
  | .hbm, ⟨13, _⟩ => ⟨S480x160, .f32⟩
  | .hbm, ⟨14, _⟩ => ⟨S384x240, .f32⟩
  | .hbm, ⟨15, _⟩ => ⟨S384x128, .f32⟩
  | .hbm, ⟨16, _⟩ => ⟨S384x208, .f32⟩
  | .hbm, ⟨17, _⟩ => ⟨S384x128, .f32⟩
  | .hbm, ⟨18, _⟩ => ⟨S160x160, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x688, .f32⟩
  | .hbm, ⟨23, _⟩ => ⟨S40x128, .f32⟩
  | .hbm, ⟨24, _⟩ => ⟨S4x192, .f32⟩
  | .hbm, ⟨25, _⟩ => ⟨S4, .f32⟩
  | .hbm, ⟨26, _⟩ => ⟨S_, .i32⟩
  | .hbm, ⟨27, _⟩ => ⟨S65536, .i32⟩
  | .hbm, ⟨28, _⟩ => ⟨S65536, .i32⟩
  | .hbm, ⟨29, _⟩ => ⟨S65536x1, .i32⟩
  | .hbm, ⟨30, _⟩ => ⟨S44, .i32⟩
  | .hbm, ⟨31, _⟩ => ⟨S1x44, .i32⟩
  | .hbm, ⟨32, _⟩ => ⟨S65536x44, .i32⟩
  | .hbm, ⟨33, _⟩ => ⟨S65536x44, .i32⟩
  | .hbm, ⟨34, _⟩ => ⟨S65536x44, .i32⟩
  | .hbm, ⟨35, _⟩ => ⟨S_, .i32⟩
  | .hbm, ⟨36, _⟩ => ⟨S65536x44, .i32⟩
  | .hbm, ⟨37, _⟩ => ⟨S65536x44, .i32⟩
  | .hbm, ⟨38, _⟩ => ⟨S_, .i32⟩
  | .hbm, ⟨39, _⟩ => ⟨S65536x44, .i32⟩
  | .hbm, ⟨40, _⟩ => ⟨S65536x44, .i1⟩
  | .hbm, ⟨41, _⟩ => ⟨S65536x44, .i32⟩
  | .hbm, ⟨42, _⟩ => ⟨S65536x1, .i32⟩
  | .hbm, ⟨43, _⟩ => ⟨S65536x44, .i32⟩
  | .hbm, ⟨44, _⟩ => ⟨S65536x44, .i32⟩
  | .hbm, ⟨45, _⟩ => ⟨S65536x44, .i32⟩
  | .hbm, ⟨46, _⟩ => ⟨S_, .i32⟩
  | .hbm, ⟨47, _⟩ => ⟨S65536x44, .i32⟩
  | .hbm, ⟨48, _⟩ => ⟨S65536x44, .i1⟩
  | .hbm, ⟨49, _⟩ => ⟨S_, .i32⟩
  | .hbm, ⟨50, _⟩ => ⟨S65536x44, .i32⟩
  | .hbm, ⟨51, _⟩ => ⟨S65536x44, .i32⟩
  | .hbm, ⟨52, _⟩ => ⟨S65536x44, .i32⟩
  | .hbm, ⟨53, _⟩ => ⟨S65536x44x1, .i32⟩
  | .hbm, ⟨54, _⟩ => ⟨S1, .i32⟩
  | .hbm, ⟨55, _⟩ => ⟨S_, .i32⟩
  | .hbm, ⟨56, _⟩ => ⟨S65536x44x1, .i32⟩
  | .hbm, ⟨57, _⟩ => ⟨S65536x44x1, .i1⟩
  | .hbm, ⟨58, _⟩ => ⟨S1x1x1, .i32⟩
  | .hbm, ⟨59, _⟩ => ⟨S65536x44x1, .i32⟩
  | .hbm, ⟨60, _⟩ => ⟨S65536x44x1, .i1⟩
  | .hbm, ⟨61, _⟩ => ⟨S65536x44x1, .i1⟩
  | .hbm, ⟨62, _⟩ => ⟨S_, .i1⟩
  | .hbm, ⟨63, _⟩ => ⟨S65536x44, .i1⟩
  | .hbm, ⟨64, _⟩ => ⟨S65536x44, .f32⟩
  | .hbm, ⟨65, _⟩ => ⟨S_, .f32⟩
  | .hbm, ⟨66, _⟩ => ⟨S65536x44, .f32⟩
  | .hbm, ⟨67, _⟩ => ⟨S65536x44, .f32⟩
  | .hbm, ⟨68, _⟩ => ⟨S328x192, .f32⟩
  | .hbm, ⟨69, _⟩ => ⟨S328x192, .bf16⟩
  | .hbm, ⟨70, _⟩ => ⟨S192x192, .f32⟩
  | .hbm, ⟨71, _⟩ => ⟨S192x192, .bf16⟩
  | .hbm, ⟨72, _⟩ => ⟨S272x480, .f32⟩
  | .hbm, ⟨73, _⟩ => ⟨S272x480, .bf16⟩
  | .hbm, ⟨74, _⟩ => ⟨S160x480, .f32⟩
  | .hbm, ⟨75, _⟩ => ⟨S160x480, .bf16⟩
  | .hbm, ⟨76, _⟩ => ⟨S240x384, .f32⟩
  | .hbm, ⟨77, _⟩ => ⟨S240x384, .bf16⟩
  | .hbm, ⟨78, _⟩ => ⟨S128x384, .f32⟩
  | .hbm, ⟨79, _⟩ => ⟨S128x384, .bf16⟩
  | .hbm, ⟨80, _⟩ => ⟨S208x384, .f32⟩
  | .hbm, ⟨81, _⟩ => ⟨S208x384, .bf16⟩
  | .hbm, ⟨82, _⟩ => ⟨S128x384, .f32⟩
  | .hbm, ⟨83, _⟩ => ⟨S128x384, .bf16⟩
  | .hbm, ⟨84, _⟩ => ⟨S160x160, .f32⟩
  | .hbm, ⟨85, _⟩ => ⟨S160x160, .bf16⟩
  | .hbm, ⟨86, _⟩ => ⟨S128x128, .f32⟩
  | .hbm, ⟨87, _⟩ => ⟨S128x128, .bf16⟩
  | .hbm, ⟨88, _⟩ => ⟨S128x128, .f32⟩
  | .hbm, ⟨89, _⟩ => ⟨S128x128, .bf16⟩
  | .hbm, ⟨90, _⟩ => ⟨S128x128, .f32⟩
  | .hbm, ⟨91, _⟩ => ⟨S128x128, .bf16⟩
  | .hbm, ⟨92, _⟩ => ⟨S688x128, .f32⟩
  | .hbm, ⟨93, _⟩ => ⟨S688x128, .bf16⟩
  | .hbm, ⟨94, _⟩ => ⟨S128x40, .f32⟩
  | .hbm, ⟨95, _⟩ => ⟨S128x40, .bf16⟩
  | .hbm, ⟨96, _⟩ => ⟨S192x4, .f32⟩
  | .hbm, ⟨97, _⟩ => ⟨S192x4, .bf16⟩
  | .hbm, ⟨98, _⟩ => ⟨S1x1, .f32⟩
  | .hbm, ⟨99, _⟩ => ⟨S1x4, .f32⟩
  | .hbm, ⟨100, _⟩ => ⟨S65536x256, .f32⟩
  | .hbm, ⟨101, _⟩ => ⟨S65536x256, .f32⟩
  | .hbm, ⟨102, _⟩ => ⟨S65536x160, .f32⟩
  | .hbm, ⟨103, _⟩ => ⟨S65536x128, .f32⟩
  | .hbm, ⟨104, _⟩ => ⟨S65536x128, .f32⟩
  | .hbm, ⟨105, _⟩ => ⟨S65536x164, .f32⟩
  | .hbm, ⟨106, _⟩ => ⟨S65536x40, .f32⟩
  | .local _ .vmem, ⟨0, _⟩ => ⟨S512x80, .f32⟩
  | .local _ .vmem, ⟨1, _⟩ => ⟨S512x80, .f32⟩
  | .local _ .vmem, ⟨2, _⟩ => ⟨S512x44, .f32⟩
  | .local _ .vmem, ⟨3, _⟩ => ⟨S512x44, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x160, .f32⟩
  | .local _ .vmem, ⟨9, _⟩ => ⟨S512x160, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x164, .f32⟩
  | .local _ .vmem, ⟨15, _⟩ => ⟨S512x164, .f32⟩
  | .local _ .vmem, ⟨16, _⟩ => ⟨S1x80, .f32⟩
  | .local _ .vmem, ⟨17, _⟩ => ⟨S1x1, .f32⟩
  | .local _ .vmem, ⟨18, _⟩ => ⟨S328x192, .bf16⟩
  | .local _ .vmem, ⟨19, _⟩ => ⟨S192x192, .bf16⟩
  | .local _ .vmem, ⟨20, _⟩ => ⟨S272x480, .bf16⟩
  | .local _ .vmem, ⟨21, _⟩ => ⟨S160x480, .bf16⟩
  | .local _ .vmem, ⟨22, _⟩ => ⟨S240x384, .bf16⟩
  | .local _ .vmem, ⟨23, _⟩ => ⟨S128x384, .bf16⟩
  | .local _ .vmem, ⟨24, _⟩ => ⟨S208x384, .bf16⟩
  | .local _ .vmem, ⟨25, _⟩ => ⟨S128x384, .bf16⟩
  | .local _ .vmem, ⟨26, _⟩ => ⟨S160x160, .bf16⟩
  | .local _ .vmem, ⟨27, _⟩ => ⟨S128x128, .bf16⟩
  | .local _ .vmem, ⟨28, _⟩ => ⟨S128x128, .bf16⟩
  | .local _ .vmem, ⟨29, _⟩ => ⟨S128x128, .bf16⟩
  | .local _ .vmem, ⟨30, _⟩ => ⟨S688x128, .bf16⟩
  | .local _ .vmem, ⟨31, _⟩ => ⟨S128x40, .bf16⟩
  | .local _ .vmem, ⟨32, _⟩ => ⟨S192x4, .bf16⟩
  | .local _ .vmem, ⟨33, _⟩ => ⟨S1x4, .f32⟩
  | .local _ .vmem, ⟨34, _⟩ => ⟨S512x256, .f32⟩
  | .local _ .vmem, ⟨35, _⟩ => ⟨S512x256, .f32⟩
  | .local _ .vmem, ⟨36, _⟩ => ⟨S512x256, .f32⟩
  | .local _ .vmem, ⟨37, _⟩ => ⟨S512x256, .f32⟩
  | .local _ .vmem, ⟨38, _⟩ => ⟨S512x160, .f32⟩
  | .local _ .vmem, ⟨39, _⟩ => ⟨S512x160, .f32⟩
  | .local _ .vmem, ⟨40, _⟩ => ⟨S512x128, .f32⟩
  | .local _ .vmem, ⟨41, _⟩ => ⟨S512x128, .f32⟩
  | .local _ .vmem, ⟨42, _⟩ => ⟨S512x128, .f32⟩
  | .local _ .vmem, ⟨43, _⟩ => ⟨S512x128, .f32⟩
  | .local _ .vmem, ⟨44, _⟩ => ⟨S512x164, .f32⟩
  | .local _ .vmem, ⟨45, _⟩ => ⟨S512x164, .f32⟩
  | _, _ => ⟨S65536x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_c_0 : Ref sig .tc := ⟨.hbm, 35, rfl⟩
abbrev main_v8 : Ref sig .tc := ⟨.hbm, 36, rfl⟩
abbrev main_v9 : Ref sig .tc := ⟨.hbm, 37, rfl⟩
abbrev main_c_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_call0_c : Ref sig .tc := ⟨.hbm, 46, rfl⟩
abbrev main_call0_v0 : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_c_1 : Ref sig .tc := ⟨.hbm, 54, rfl⟩
abbrev main_call0_c_2 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_3 : Ref sig .tc := ⟨.hbm, 62, rfl⟩
abbrev main_call0_v12 : Ref sig .tc := ⟨.hbm, 63, rfl⟩
abbrev main_call0_v13 : Ref sig .tc := ⟨.hbm, 64, rfl⟩
abbrev main_call0_cst : Ref sig .tc := ⟨.hbm, 65, rfl⟩
abbrev main_call0_v14 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50_0 : Ref sig .tc := ⟨.hbm, 100, rfl⟩
abbrev main_v50_1 : Ref sig .tc := ⟨.hbm, 101, rfl⟩
abbrev main_v50_2 : Ref sig .tc := ⟨.hbm, 102, rfl⟩
abbrev main_v50_3 : Ref sig .tc := ⟨.hbm, 103, rfl⟩
abbrev main_v50_4 : Ref sig .tc := ⟨.hbm, 104, rfl⟩
abbrev main_v50_5 : Ref sig .tc := ⟨.hbm, 105, rfl⟩
abbrev main_v51 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg22_0 : Ref sig .tc := ⟨.vmem, 30, rfl⟩
abbrev cc0_stg23_0 : Ref sig .tc := ⟨.vmem, 31, rfl⟩
abbrev cc0_stg24_0 : Ref sig .tc := ⟨.vmem, 32, rfl⟩
abbrev cc0_stg25_0 : Ref sig .tc := ⟨.vmem, 33, rfl⟩
abbrev cc0_stg26_0 : Ref sig .tc := ⟨.vmem, 34, rfl⟩
abbrev cc0_stg26_1 : Ref sig .tc := ⟨.vmem, 35, rfl⟩
abbrev cc0_stg27_0 : Ref sig .tc := ⟨.vmem, 36, rfl⟩
abbrev cc0_stg27_1 : Ref sig .tc := ⟨.vmem, 37, rfl⟩
abbrev cc0_stg28_0 : Ref sig .tc := ⟨.vmem, 38, rfl⟩
abbrev cc0_stg28_1 : Ref sig .tc := ⟨.vmem, 39, rfl⟩
abbrev cc0_stg29_0 : Ref sig .tc := ⟨.vmem, 40, rfl⟩
abbrev cc0_stg29_1 : Ref sig .tc := ⟨.vmem, 41, rfl⟩
abbrev cc0_stg30_0 : Ref sig .tc := ⟨.vmem, 42, rfl⟩
abbrev cc0_stg30_1 : Ref sig .tc := ⟨.vmem, 43, rfl⟩
abbrev cc0_stg31_0 : Ref sig .tc := ⟨.vmem, 44, rfl⟩
abbrev cc0_stg31_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29
abbrev cc0_sem22_0 : DmaSem sig := 30
abbrev cc0_sem23_0 : DmaSem sig := 31
abbrev cc0_sem24_0 : DmaSem sig := 32
abbrev cc0_sem25_0 : DmaSem sig := 33
abbrev cc0_sem26_0 : DmaSem sig := 34
abbrev cc0_sem26_1 : DmaSem sig := 35
abbrev cc0_sem27_0 : DmaSem sig := 36
abbrev cc0_sem27_1 : DmaSem sig := 37
abbrev cc0_sem28_0 : DmaSem sig := 38
abbrev cc0_sem28_1 : DmaSem sig := 39
abbrev cc0_sem29_0 : DmaSem sig := 40
abbrev cc0_sem29_1 : DmaSem sig := 41
abbrev cc0_sem30_0 : DmaSem sig := 42
abbrev cc0_sem30_1 : DmaSem sig := 43
abbrev cc0_sem31_0 : DmaSem sig := 44
abbrev cc0_sem31_1 : DmaSem sig := 45

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x44 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x160 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x164 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x80 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S328x192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S192x192 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S272x480 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S160x480 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S240x384 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x384 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S208x384 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x384 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S160x160 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x128 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S688x128 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x40 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S192x4 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x4 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S512x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S512x160 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S512x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S512x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S512x164 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S44_S1x44_1 : S44.BroadcastsInDim S1x44 (![1] : Fin 1 → Fin S1x44.rank)
  bcast_S65536x1_S65536x44_0_1 : S65536x1.BroadcastsInDim S65536x44 (![0, 1] : Fin 2 → Fin S65536x44.rank)
  bcast_S1x44_S65536x44_0_1 : S1x44.BroadcastsInDim S65536x44 (![0, 1] : Fin 2 → Fin S65536x44.rank)
  bcast_S_S65536x44 : S_.BroadcastsInDim S65536x44 (![] : Fin 0 → Fin S65536x44.rank)
  natLt_1_32 : 1 < 32
  shapeCasts_S65536x44_S65536x44x1 : S65536x44.ShapeCasts S65536x44x1
  bcast_S_S65536x44x1 : S_.BroadcastsInDim S65536x44x1 (![] : Fin 0 → Fin S65536x44x1.rank)
  bcast_S1_S1x1x1_2 : S1.BroadcastsInDim S1x1x1 (![2] : Fin 1 → Fin S1x1x1.rank)
  bcast_S1x1x1_S65536x44x1_0_1_2 : S1x1x1.BroadcastsInDim S65536x44x1 (![0, 1, 2] : Fin 3 → Fin S65536x44x1.rank)
  reducesTo_S65536x44x1_S65536x44_d2 : S65536x44x1.ReducesTo [2] S65536x44
  h_S_ : 0 < S_.numel
  transposes_S192x328_S328x192_1_0 : S192x328.Transposes [1, 0] S328x192
  bitsLt_bf16_f32 : FTy.bits .bf16 < FTy.bits .f32
  transposes_S192x192_S192x192_1_0 : S192x192.Transposes [1, 0] S192x192
  transposes_S480x272_S272x480_1_0 : S480x272.Transposes [1, 0] S272x480
  transposes_S480x160_S160x480_1_0 : S480x160.Transposes [1, 0] S160x480
  transposes_S384x240_S240x384_1_0 : S384x240.Transposes [1, 0] S240x384
  transposes_S384x128_S128x384_1_0 : S384x128.Transposes [1, 0] S128x384
  transposes_S384x208_S208x384_1_0 : S384x208.Transposes [1, 0] S208x384
  transposes_S160x160_S160x160_1_0 : S160x160.Transposes [1, 0] S160x160
  transposes_S128x128_S128x128_1_0 : S128x128.Transposes [1, 0] S128x128
  transposes_S128x688_S688x128_1_0 : S128x688.Transposes [1, 0] S688x128
  transposes_S40x128_S128x40_1_0 : S40x128.Transposes [1, 0] S128x40
  transposes_S4x192_S192x4_1_0 : S4x192.Transposes [1, 0] S192x4
  shapeCasts_S1_S1x1 : S1.ShapeCasts S1x1
  shapeCasts_S4_S1x4 : S4.ShapeCasts S1x4
  inb_S512x80_S512x80_0_0 : ∀ a, (![0, 0] : Fin 2 → Nat) a + S512x80.size a ≤ S512x80.size a
  h_S512x80 : 0 < S512x80.numel
  inb_S1x80_S1x80_0_0 : ∀ a, (![0, 0] : Fin 2 → Nat) a + S1x80.size a ≤ S1x80.size a
  h_S1x80 : 0 < S1x80.numel
  broadcasts_S1x80_S512x80 : S1x80.Broadcasts S512x80
  reduces_S512x80_S512 : S512x80.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x44_S512x44_0_0 : ∀ a, (![0, 0] : Fin 2 → Nat) a + S512x44.size a ≤ S512x44.size a
  h_S512x44 : 0 < S512x44.numel
  shapeCasts_S512x44_S512x44 : S512x44.ShapeCasts S512x44
  broadcasts_S512x1_S512x44 : S512x1.Broadcasts S512x44
  inb_S512x256_S512x40_0_216 : ∀ a, (![0, 216] : Fin 2 → Nat) a + S512x40.size a ≤ S512x256.size a
  h_S512x40 : 0 < S512x40.numel
  broadcasts_S512x1_S512x40 : S512x1.Broadcasts S512x40
  concatenates_S512x80_S512x44_S512x40_S512x164_d1 : Shape.Concatenates [S512x80, S512x44, S512x40] S512x164 1
  slices_S512x44_o0_2_S512x40 : S512x44.Slices ![0, 2] S512x40
  inb_S512x164_S512x164_0_0 : ∀ a, (![0, 0] : Fin 2 → Nat) a + S512x164.size a ≤ S512x164.size a
  h_S512x164 : 0 < S512x164.numel
  concatenates_S512x164_S512x164_S512x328_d1 : Shape.Concatenates [S512x164, S512x164] S512x328 1
  inb_S328x192_S328x192_0_0 : ∀ a, (![0, 0] : Fin 2 → Nat) a + S328x192.size a ≤ S328x192.size a
  h_S328x192 : 0 < S328x192.numel
  shapeCasts_S328x192_S328x192 : S328x192.ShapeCasts S328x192
  inb_S192x192_S192x192_0_0 : ∀ a, (![0, 0] : Fin 2 → Nat) a + S192x192.size a ≤ S192x192.size a
  h_S192x192 : 0 < S192x192.numel
  shapeCasts_S192x192_S192x192 : S192x192.ShapeCasts S192x192
  inb_S192x4_S192x4_0_0 : ∀ a, (![0, 0] : Fin 2 → Nat) a + S192x4.size a ≤ S192x4.size a
  h_S192x4 : 0 < S192x4.numel
  shapeCasts_S192x4_S192x4 : S192x4.ShapeCasts S192x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S512x4 : S1x4.Broadcasts S512x4
  slices_S512x4_o0_0_S512x1 : S512x4.Slices ![0, 0] S512x1
  concatenates_S512x192_S512x40_S512x40_S512x272_d1 : Shape.Concatenates [S512x192, S512x40, S512x40] S512x272 1
  inb_S512x160_S512x160_0_0 : ∀ a, (![0, 0] : Fin 2 → Nat) a + S512x160.size a ≤ S512x160.size a
  h_S512x160 : 0 < S512x160.numel
  inb_S272x480_S272x480_0_0 : ∀ a, (![0, 0] : Fin 2 → Nat) a + S272x480.size a ≤ S272x480.size a
  h_S272x480 : 0 < S272x480.numel
  shapeCasts_S272x480_S272x480 : S272x480.ShapeCasts S272x480
  inb_S160x480_S160x480_0_0 : ∀ a, (![0, 0] : Fin 2 → Nat) a + S160x480.size a ≤ S160x480.size a
  h_S160x480 : 0 < S160x480.numel
  shapeCasts_S160x480_S160x480 : S160x480.ShapeCasts S160x480
  slices_S512x480_o0_0_S512x160 : S512x480.Slices ![0, 0] S512x160
  slices_S512x480_o0_160_S512x160 : S512x480.Slices ![0, 160] S512x160
  slices_S512x480_o0_320_S512x160 : S512x480.Slices ![0, 320] S512x160
  inb_S160x160_S160x160_0_0 : ∀ a, (![0, 0] : Fin 2 → Nat) a + S160x160.size a ≤ S160x160.size a
  h_S160x160 : 0 < S160x160.numel
  shapeCasts_S160x160_S160x160 : S160x160.ShapeCasts S160x160
  slices_S512x4_o0_1_S512x1 : S512x4.Slices ![0, 1] S512x1
  concatenates_S512x160_S512x40_S512x40_S512x240_d1 : Shape.Concatenates [S512x160, S512x40, S512x40] S512x240 1
  inb_S512x128_S512x128_0_0 : ∀ a, (![0, 0] : Fin 2 → Nat) a + S512x128.size a ≤ S512x128.size a
  h_S512x128 : 0 < S512x128.numel
  inb_S240x384_S240x384_0_0 : ∀ a, (![0, 0] : Fin 2 → Nat) a + S240x384.size a ≤ S240x384.size a
  h_S240x384 : 0 < S240x384.numel
  shapeCasts_S240x384_S240x384 : S240x384.ShapeCasts S240x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S512x384_o0_0_S512x128 : S512x384.Slices ![0, 0] S512x128
  slices_S512x384_o0_128_S512x128 : S512x384.Slices ![0, 128] S512x128
  slices_S512x384_o0_256_S512x128 : S512x384.Slices ![0, 256] S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S512x4_o0_2_S512x1 : S512x4.Slices ![0, 2] S512x1
  concatenates_S512x128_S512x40_S512x40_S512x208_d1 : Shape.Concatenates [S512x128, S512x40, S512x40] S512x208 1
  inb_S208x384_S208x384_0_0 : ∀ a, (![0, 0] : Fin 2 → Nat) a + S208x384.size a ≤ S208x384.size a
  h_S208x384 : 0 < S208x384.numel
  shapeCasts_S208x384_S208x384 : S208x384.ShapeCasts S208x384
  concatenates_S512x160_S512x128_S512x128_S512x192_S512x608_d1 : Shape.Concatenates [S512x160, S512x128, S512x128, S512x192] S512x608 1
  slices_S512x4_o0_3_S512x1 : S512x4.Slices ![0, 3] S512x1
  concatenates_S512x608_S512x40_S512x40_S512x688_d1 : Shape.Concatenates [S512x608, S512x40, S512x40] S512x688 1
  inb_S688x128_S688x128_0_0 : ∀ a, (![0, 0] : Fin 2 → Nat) a + S688x128.size a ≤ S688x128.size a
  h_S688x128 : 0 < S688x128.numel
  shapeCasts_S688x128_S688x128 : S688x128.ShapeCasts S688x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S512x256_S512x216_0_40 : ∀ a, (![0, 40] : Fin 2 → Nat) a + S512x216.size a ≤ S512x256.size a
  h_S512x216 : 0 < S512x216.numel
  concatenates_S512x216_S512x40_S512x256_d1 : Shape.Concatenates [S512x216, S512x40] S512x256 1
  inb_S512x256_S512x256_0_0 : ∀ a, (![0, 0] : Fin 2 → Nat) a + S512x256.size a ≤ S512x256.size a
  h_S512x256 : 0 < S512x256.numel
  slices_S65536x256_S65536x40_0_216 : S65536x256.Slices ![0, 216] S65536x40
  gather_S65536x256_S65536x44x1_S65536x44_n_1_0_0_1_2_11_wf : GatherDims.WF S65536x256 S65536x44x1 S65536x44 [] [1] [0] [1] [0] 2 ![1, 1]
  dot_S512x328_S328x192_S512x192_1_0_0_1_n_n_wf : DotDims.WF S512x328 S328x192 S512x192 [1] [0] [0] [1] [] []
  dot_S512x192_S192x192_S512x192_1_0_0_1_n_n_wf : DotDims.WF S512x192 S192x192 S512x192 [1] [0] [0] [1] [] []
  dot_S512x192_S192x4_S512x4_1_0_0_1_n_n_wf : DotDims.WF S512x192 S192x4 S512x4 [1] [0] [0] [1] [] []
  dot_S512x272_S272x480_S512x480_1_0_0_1_n_n_wf : DotDims.WF S512x272 S272x480 S512x480 [1] [0] [0] [1] [] []
  dot_S512x160_S160x480_S512x480_1_0_0_1_n_n_wf : DotDims.WF S512x160 S160x480 S512x480 [1] [0] [0] [1] [] []
  dot_S512x160_S160x160_S512x160_1_0_0_1_n_n_wf : DotDims.WF S512x160 S160x160 S512x160 [1] [0] [0] [1] [] []
  dot_S512x240_S240x384_S512x384_1_0_0_1_n_n_wf : DotDims.WF S512x240 S240x384 S512x384 [1] [0] [0] [1] [] []
  dot_S512x128_S128x384_S512x384_1_0_0_1_n_n_wf : DotDims.WF S512x128 S128x384 S512x384 [1] [0] [0] [1] [] []
  dot_S512x128_S128x128_S512x128_1_0_0_1_n_n_wf : DotDims.WF S512x128 S128x128 S512x128 [1] [0] [0] [1] [] []
  dot_S512x208_S208x384_S512x384_1_0_0_1_n_n_wf : DotDims.WF S512x208 S208x384 S512x384 [1] [0] [0] [1] [] []
  dot_S512x688_S688x128_S512x128_1_0_0_1_n_n_wf : DotDims.WF S512x688 S688x128 S512x128 [1] [0] [0] [1] [] []
  dot_S512x128_S128x40_S512x40_1_0_0_1_n_n_wf : DotDims.WF S512x128 S128x40 S512x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x80.size a ≤ S65536x80.size a
  hwx0_0 : ∀ i : grid0.Coords, EltTy.bits .f32 = 32 ∨ (Rect.block (s := S65536x80) S512x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x44.size a ≤ S65536x44.size a
  hwx0_1 : ∀ i : grid0.Coords, EltTy.bits .f32 = 32 ∨ (Rect.block (s := S65536x44) S512x44.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S65536x256.size a
  hwx0_2 : ∀ i : grid0.Coords, EltTy.bits .f32 = 32 ∨ (Rect.block (s := S65536x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S65536x256.size a
  hwx0_3 : ∀ i : grid0.Coords, EltTy.bits .f32 = 32 ∨ (Rect.block (s := S65536x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x160.size a ≤ S65536x160.size a
  hwx0_4 : ∀ i : grid0.Coords, EltTy.bits .f32 = 32 ∨ (Rect.block (s := S65536x160) S512x160.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S65536x128.size a
  hwx0_5 : ∀ i : grid0.Coords, EltTy.bits .f32 = 32 ∨ (Rect.block (s := S65536x128) S512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S65536x128.size a
  hwx0_6 : ∀ i : grid0.Coords, EltTy.bits .f32 = 32 ∨ (Rect.block (s := S65536x128) S512x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x164.size a ≤ S65536x164.size a
  hwx0_7 : ∀ i : grid0.Coords, EltTy.bits .f32 = 32 ∨ (Rect.block (s := S65536x164) S512x164.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x80.size a ≤ S1x80.size a
  hwx0_8 : ∀ i : grid0.Coords, EltTy.bits .f32 = 32 ∨ (Rect.block (s := S1x80) S1x80.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S328x192.size a ≤ S328x192.size a
  hwx0_10 : ∀ i : grid0.Coords, EltTy.bits .bf16 = 32 ∨ (Rect.block (s := S328x192) S328x192.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S192x192.size a ≤ S192x192.size a
  hwx0_11 : ∀ i : grid0.Coords, EltTy.bits .bf16 = 32 ∨ (Rect.block (s := S192x192) S192x192.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S272x480.size a ≤ S272x480.size a
  hwx0_12 : ∀ i : grid0.Coords, EltTy.bits .bf16 = 32 ∨ (Rect.block (s := S272x480) S272x480.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S160x480.size a ≤ S160x480.size a
  hwx0_13 : ∀ i : grid0.Coords, EltTy.bits .bf16 = 32 ∨ (Rect.block (s := S160x480) S160x480.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S240x384.size a ≤ S240x384.size a
  hwx0_14 : ∀ i : grid0.Coords, EltTy.bits .bf16 = 32 ∨ (Rect.block (s := S240x384) S240x384.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x384.size a ≤ S128x384.size a
  hwx0_15 : ∀ i : grid0.Coords, EltTy.bits .bf16 = 32 ∨ (Rect.block (s := S128x384) S128x384.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S208x384.size a ≤ S208x384.size a
  hwx0_16 : ∀ i : grid0.Coords, EltTy.bits .bf16 = 32 ∨ (Rect.block (s := S208x384) S208x384.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x384.size a ≤ S128x384.size a
  hwx0_17 : ∀ i : grid0.Coords, EltTy.bits .bf16 = 32 ∨ (Rect.block (s := S128x384) S128x384.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S160x160.size a ≤ S160x160.size a
  hwx0_18 : ∀ i : grid0.Coords, EltTy.bits .bf16 = 32 ∨ (Rect.block (s := S160x160) S160x160.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128x128.size a ≤ S128x128.size a
  hwx0_19 : ∀ i : grid0.Coords, EltTy.bits .bf16 = 32 ∨ (Rect.block (s := S128x128) S128x128.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x128.size a ≤ S128x128.size a
  hwx0_20 : ∀ i : grid0.Coords, EltTy.bits .bf16 = 32 ∨ (Rect.block (s := S128x128) S128x128.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128x128.size a ≤ S128x128.size a
  hwx0_21 : ∀ i : grid0.Coords, EltTy.bits .bf16 = 32 ∨ (Rect.block (s := S128x128) S128x128.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S688x128.size a ≤ S688x128.size a
  hwx0_22 : ∀ i : grid0.Coords, EltTy.bits .bf16 = 32 ∨ (Rect.block (s := S688x128) S688x128.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S128x40.size a ≤ S128x40.size a
  hwx0_23 : ∀ i : grid0.Coords, EltTy.bits .bf16 = 32 ∨ (Rect.block (s := S128x40) S128x40.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S192x4.size a ≤ S192x4.size a
  hwx0_24 : ∀ i : grid0.Coords, EltTy.bits .bf16 = 32 ∨ (Rect.block (s := S192x4) S192x4.size (cc0_transform_24 i) (hinb0_24 i)).WholeWords (EltTy.packing .bf16)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x4.size a ≤ S1x4.size a
  hwx0_25 : ∀ i : grid0.Coords, EltTy.bits .f32 = 32 ∨ (Rect.block (s := S1x4) S1x4.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S512x256.size a ≤ S65536x256.size a
  hwx0_26 : ∀ i : grid0.Coords, EltTy.bits .f32 = 32 ∨ (Rect.block (s := S65536x256) S512x256.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S512x256.size a ≤ S65536x256.size a
  hwx0_27 : ∀ i : grid0.Coords, EltTy.bits .f32 = 32 ∨ (Rect.block (s := S65536x256) S512x256.size (cc0_transform_27 i) (hinb0_27 i)).WholeWords (EltTy.packing .f32)
  hstage0_28 : ∀ j, (stage0_28 j).IsWhole
  nbuf0_28 : grid0.bufCount reads0_28 false = 2
  hreads0_28 : ∀ i i' : grid0.Coords, (∀ a, reads0_28 a = true → i a = i' a) → cc0_transform_28 i = cc0_transform_28 i'
  hinb0_28 : ∀ (i : grid0.Coords) a, (cc0_transform_28 i a + 1) * S512x160.size a ≤ S65536x160.size a
  hwx0_28 : ∀ i : grid0.Coords, EltTy.bits .f32 = 32 ∨ (Rect.block (s := S65536x160) S512x160.size (cc0_transform_28 i) (hinb0_28 i)).WholeWords (EltTy.packing .f32)
  hstage0_29 : ∀ j, (stage0_29 j).IsWhole
  nbuf0_29 : grid0.bufCount reads0_29 false = 2
  hreads0_29 : ∀ i i' : grid0.Coords, (∀ a, reads0_29 a = true → i a = i' a) → cc0_transform_29 i = cc0_transform_29 i'
  hinb0_29 : ∀ (i : grid0.Coords) a, (cc0_transform_29 i a + 1) * S512x128.size a ≤ S65536x128.size a
  hwx0_29 : ∀ i : grid0.Coords, EltTy.bits .f32 = 32 ∨ (Rect.block (s := S65536x128) S512x128.size (cc0_transform_29 i) (hinb0_29 i)).WholeWords (EltTy.packing .f32)
  hstage0_30 : ∀ j, (stage0_30 j).IsWhole
  nbuf0_30 : grid0.bufCount reads0_30 false = 2
  hreads0_30 : ∀ i i' : grid0.Coords, (∀ a, reads0_30 a = true → i a = i' a) → cc0_transform_30 i = cc0_transform_30 i'
  hinb0_30 : ∀ (i : grid0.Coords) a, (cc0_transform_30 i a + 1) * S512x128.size a ≤ S65536x128.size a
  hwx0_30 : ∀ i : grid0.Coords, EltTy.bits .f32 = 32 ∨ (Rect.block (s := S65536x128) S512x128.size (cc0_transform_30 i) (hinb0_30 i)).WholeWords (EltTy.packing .f32)
  hstage0_31 : ∀ j, (stage0_31 j).IsWhole
  nbuf0_31 : grid0.bufCount reads0_31 false = 2
  hreads0_31 : ∀ i i' : grid0.Coords, (∀ a, reads0_31 a = true → i a = i' a) → cc0_transform_31 i = cc0_transform_31 i'
  hinb0_31 : ∀ (i : grid0.Coords) a, (cc0_transform_31 i a + 1) * S512x164.size a ≤ S65536x164.size a
  hwx0_31 : ∀ i : grid0.Coords, EltTy.bits .f32 = 32 ∨ (Rect.block (s := S65536x164) S512x164.size (cc0_transform_31 i) (hinb0_31 i)).WholeWords (EltTy.packing .f32)

variable [Facts₀]

def gather_S65536x256_S65536x44x1_S65536x44_n_1_0_0_1_2_11 : GatherDims S65536x256 S65536x44x1 S65536x44 where
  offsetDims := []
  collapsedSliceDims := [1]
  operandBatchingDims := [0]
  startIndicesBatchingDims := [0]
  startIndexMap := [1]
  indexVectorDim := 2
  sliceSizes := ![1, 1]
  wf := gather_S65536x256_S65536x44x1_S65536x44_n_1_0_0_1_2_11_wf
def dot_S512x328_S328x192_S512x192_1_0_0_1_n_n : DotDims S512x328 S328x192 S512x192 where
  lhsContracting := [1]
  rhsContracting := [0]
  lhsNonContracting := [0]
  rhsNonContracting := [1]
  lhsBatch := []
  rhsBatch := []
  wf := dot_S512x328_S328x192_S512x192_1_0_0_1_n_n_wf
def dot_S512x192_S192x192_S512x192_1_0_0_1_n_n : DotDims S512x192 S192x192 S512x192 where
  lhsContracting := [1]
  rhsContracting := [0]
  lhsNonContracting := [0]
  rhsNonContracting := [1]
  lhsBatch := []
  rhsBatch := []
  wf := dot_S512x192_S192x192_S512x192_1_0_0_1_n_n_wf
def dot_S512x192_S192x4_S512x4_1_0_0_1_n_n : DotDims S512x192 S192x4 S512x4 where
  lhsContracting := [1]
  rhsContracting := [0]
  lhsNonContracting := [0]
  rhsNonContracting := [1]
  lhsBatch := []
  rhsBatch := []
  wf := dot_S512x192_S192x4_S512x4_1_0_0_1_n_n_wf
def dot_S512x272_S272x480_S512x480_1_0_0_1_n_n : DotDims S512x272 S272x480 S512x480 where
  lhsContracting := [1]
  rhsContracting := [0]
  lhsNonContracting := [0]
  rhsNonContracting := [1]
  lhsBatch := []
  rhsBatch := []
  wf := dot_S512x272_S272x480_S512x480_1_0_0_1_n_n_wf
def dot_S512x160_S160x480_S512x480_1_0_0_1_n_n : DotDims S512x160 S160x480 S512x480 where
  lhsContracting := [1]
  rhsContracting := [0]
  lhsNonContracting := [0]
  rhsNonContracting := [1]
  lhsBatch := []
  rhsBatch := []
  wf := dot_S512x160_S160x480_S512x480_1_0_0_1_n_n_wf
def dot_S512x160_S160x160_S512x160_1_0_0_1_n_n : DotDims S512x160 S160x160 S512x160 where
  lhsContracting := [1]
  rhsContracting := [0]
  lhsNonContracting := [0]
  rhsNonContracting := [1]
  lhsBatch := []
  rhsBatch := []
  wf := dot_S512x160_S160x160_S512x160_1_0_0_1_n_n_wf
def dot_S512x240_S240x384_S512x384_1_0_0_1_n_n : DotDims S512x240 S240x384 S512x384 where
  lhsContracting := [1]
  rhsContracting := [0]
  lhsNonContracting := [0]
  rhsNonContracting := [1]
  lhsBatch := []
  rhsBatch := []
  wf := dot_S512x240_S240x384_S512x384_1_0_0_1_n_n_wf
def dot_S512x128_S128x384_S512x384_1_0_0_1_n_n : DotDims S512x128 S128x384 S512x384 where
  lhsContracting := [1]
  rhsContracting := [0]
  lhsNonContracting := [0]
  rhsNonContracting := [1]
  lhsBatch := []
  rhsBatch := []
  wf := dot_S512x128_S128x384_S512x384_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x208_S208x384_S512x384_1_0_0_1_n_n : DotDims S512x208 S208x384 S512x384 where
  lhsContracting := [1]
  rhsContracting := [0]
  lhsNonContracting := [0]
  rhsNonContracting := [1]
  lhsBatch := []
  rhsBatch := []
  wf := dot_S512x208_S208x384_S512x384_1_0_0_1_n_n_wf
def dot_S512x688_S688x128_S512x128_1_0_0_1_n_n : DotDims S512x688 S688x128 S512x128 where
  lhsContracting := [1]
  rhsContracting := [0]
  lhsNonContracting := [0]
  rhsNonContracting := [1]
  lhsBatch := []
  rhsBatch := []
  wf := dot_S512x688_S688x128_S512x128_1_0_0_1_n_n_wf
def dot_S512x128_S128x40_S512x40_1_0_0_1_n_n : DotDims S512x128 S128x40 S512x40 where
  lhsContracting := [1]
  rhsContracting := [0]
  lhsNonContracting := [0]
  rhsNonContracting := [1]
  lhsBatch := []
  rhsBatch := []
  wf := dot_S512x128_S128x40_S512x40_1_0_0_1_n_n_wf

abbrev win0_0 : Pipeline.Window sig grid0 :=
  Pipeline.Window.ofSpec (Memref.whole main_arg0) S512x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S512x44.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x160.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x164.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x80.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v48) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S328x192.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S192x192.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v23) S272x480.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v25) S160x480.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v27) S240x384.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v29) S128x384.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v31) S208x384.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v33) S128x384.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v35) S160x160.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v37) S128x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v39) S128x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v41) S128x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v43) S688x128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v45) S128x40.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v47) S192x4.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v49) S1x4.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v50_0) S512x256.size cc0_transform_26 reads0_26 true false 2 stage0_26 sem0_26
    hrank0 hreads0_26 hinb0_26 nbuf0_26 (Memref.isWhole_whole _) hwx0_26 hstage0_26

abbrev win0_27 : Pipeline.Window sig grid0 :=
  Pipeline.Window.ofSpec (Memref.whole main_v50_1) S512x256.size cc0_transform_27 reads0_27 true false 2 stage0_27 sem0_27
    hrank0 hreads0_27 hinb0_27 nbuf0_27 (Memref.isWhole_whole _) hwx0_27 hstage0_27

abbrev win0_28 : Pipeline.Window sig grid0 :=
  Pipeline.Window.ofSpec (Memref.whole main_v50_2) S512x160.size cc0_transform_28 reads0_28 true false 2 stage0_28 sem0_28
    hrank0 hreads0_28 hinb0_28 nbuf0_28 (Memref.isWhole_whole _) hwx0_28 hstage0_28

abbrev win0_29 : Pipeline.Window sig grid0 :=
  Pipeline.Window.ofSpec (Memref.whole main_v50_3) S512x128.size cc0_transform_29 reads0_29 true false 2 stage0_29 sem0_29
    hrank0 hreads0_29 hinb0_29 nbuf0_29 (Memref.isWhole_whole _) hwx0_29 hstage0_29

abbrev win0_30 : Pipeline.Window sig grid0 :=
  Pipeline.Window.ofSpec (Memref.whole main_v50_4) S512x128.size cc0_transform_30 reads0_30 true false 2 stage0_30 sem0_30
    hrank0 hreads0_30 hinb0_30 nbuf0_30 (Memref.isWhole_whole _) hwx0_30 hstage0_30

abbrev win0_31 : Pipeline.Window sig grid0 :=
  Pipeline.Window.ofSpec (Memref.whole main_v50_5) S512x164.size cc0_transform_31 reads0_31 true false 2 stage0_31 sem0_31
    hrank0 hreads0_31 hinb0_31 nbuf0_31 (Memref.isWhole_whole _) hwx0_31 hstage0_31

abbrev win0 : Fin 32 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | ⟨_ + 32, h⟩ => absurd h (Nat.not_lt.2 (Nat.le_add_left _ _))
abbrev spec0 : Fin 32 → Pipeline.WinSpec sig grid0.rank := fun w => (win0 w).toWinSpec

class Facts : Prop extends Facts₀ where

variable [Facts]
-- ==== ReferenceIdeal.lean ====
abbrev S65536x80 : Shape := ⟨2, ![65536, 80]⟩
abbrev S65536x256 : Shape := ⟨2, ![65536, 256]⟩
abbrev S65536 : Shape := ⟨1, ![65536]⟩
abbrev S65536x160 : Shape := ⟨2, ![65536, 160]⟩
abbrev S65536x128 : Shape := ⟨2, ![65536, 128]⟩
abbrev S65536x164 : Shape := ⟨2, ![65536, 164]⟩
abbrev S1x80 : Shape := ⟨2, ![1, 80]⟩
abbrev S1 : Shape := ⟨1, ![1]⟩
abbrev S192x328 : Shape := ⟨2, ![192, 328]⟩
abbrev S192x192 : Shape := ⟨2, ![192, 192]⟩
abbrev S480x272 : Shape := ⟨2, ![480, 272]⟩
abbrev S480x160 : Shape := ⟨2, ![480, 160]⟩
abbrev S384x240 : Shape := ⟨2, ![384, 240]⟩
abbrev S384x128 : Shape := ⟨2, ![384, 128]⟩
abbrev S384x208 : Shape := ⟨2, ![384, 208]⟩
abbrev S160x160 : Shape := ⟨2, ![160, 160]⟩
abbrev S128x128 : Shape := ⟨2, ![128, 128]⟩
abbrev S128x688 : Shape := ⟨2, ![128, 688]⟩
abbrev S40x128 : Shape := ⟨2, ![40, 128]⟩
abbrev S4x192 : Shape := ⟨2, ![4, 192]⟩
abbrev S4 : Shape := ⟨1, ![4]⟩
abbrev S_ : Shape := ⟨0, ![]⟩
abbrev S80x1 : Shape := ⟨2, ![80, 1]⟩
abbrev S65536x1 : Shape := ⟨2, ![65536, 1]⟩
abbrev S1x1 : Shape := ⟨2, ![1, 1]⟩
abbrev S44 : Shape := ⟨1, ![44]⟩
abbrev S1x44 : Shape := ⟨2, ![1, 44]⟩
abbrev S65536x44 : Shape := ⟨2, ![65536, 44]⟩
abbrev S65536x44x1 : Shape := ⟨3, ![65536, 44, 1]⟩
abbrev S1x1x1 : Shape := ⟨3, ![1, 1, 1]⟩
abbrev S65536x40 : Shape := ⟨2, ![65536, 40]⟩
abbrev S65536x328 : Shape := ⟨2, ![65536, 328]⟩
abbrev S328x192 : Shape := ⟨2, ![328, 192]⟩
abbrev S65536x192 : Shape := ⟨2, ![65536, 192]⟩
abbrev S192x4 : Shape := ⟨2, ![192, 4]⟩
abbrev S65536x4 : Shape := ⟨2, ![65536, 4]⟩
abbrev S1x4 : Shape := ⟨2, ![1, 4]⟩
abbrev S65536x272 : Shape := ⟨2, ![65536, 272]⟩
abbrev S272x480 : Shape := ⟨2, ![272, 480]⟩
abbrev S65536x480 : Shape := ⟨2, ![65536, 480]⟩
abbrev S160x480 : Shape := ⟨2, ![160, 480]⟩
abbrev S65536x240 : Shape := ⟨2, ![65536, 240]⟩
abbrev S240x384 : Shape := ⟨2, ![240, 384]⟩
abbrev S65536x384 : Shape := ⟨2, ![65536, 384]⟩
abbrev S128x384 : Shape := ⟨2, ![128, 384]⟩
abbrev S65536x208 : Shape := ⟨2, ![65536, 208]⟩
abbrev S208x384 : Shape := ⟨2, ![208, 384]⟩
abbrev S65536x608 : Shape := ⟨2, ![65536, 608]⟩
abbrev S65536x688 : Shape := ⟨2, ![65536, 688]⟩
abbrev S688x128 : Shape := ⟨2, ![688, 128]⟩
abbrev S128x40 : Shape := ⟨2, ![128, 40]⟩
abbrev S65536x216 : Shape := ⟨2, ![65536, 216]⟩

abbrev nBuf : Space → Nat
  | .hbm => 387
  | .vmem => 0
  | .smem => 0
  | _ => 0

abbrev hbmTy0_0 (i : Nat) : BufTy := match i % 128 with
  | 0 => ⟨S65536x80, .f32⟩
  | 1 => ⟨S65536x256, .f32⟩
  | 2 => ⟨S65536x256, .f32⟩
  | 3 => ⟨S65536, .i32⟩
  | 4 => ⟨S65536x160, .f32⟩
  | 5 => ⟨S65536x128, .f32⟩
  | 6 => ⟨S65536x128, .f32⟩
  | 7 => ⟨S65536x164, .f32⟩
  | 8 => ⟨S1x80, .f32⟩
  | 9 => ⟨S1, .f32⟩
  | 10 => ⟨S192x328, .f32⟩
  | 11 => ⟨S192x192, .f32⟩
  | 12 => ⟨S480x272, .f32⟩
  | 13 => ⟨S480x160, .f32⟩
  | 14 => ⟨S384x240, .f32⟩
  | 15 => ⟨S384x128, .f32⟩
  | 16 => ⟨S384x208, .f32⟩
  | 17 => ⟨S384x128, .f32⟩
  | 18 => ⟨S160x160, .f32⟩
  | 19 => ⟨S128x128, .f32⟩
  | 20 => ⟨S128x128, .f32⟩
  | 21 => ⟨S128x128, .f32⟩
  | 22 => ⟨S128x688, .f32⟩
  | 23 => ⟨S40x128, .f32⟩
  | 24 => ⟨S4x192, .f32⟩
  | 25 => ⟨S4, .f32⟩
  | 26 => ⟨S_, .f32⟩
  | 27 => ⟨S_, .f32⟩
  | 28 => ⟨S_, .f32⟩
  | 29 => ⟨S65536x80, .f32⟩
  | 30 => ⟨S65536x80, .f32⟩
  | 31 => ⟨S_, .f32⟩
  | 32 => ⟨S65536x80, .f32⟩
  | 33 => ⟨S65536x80, .f32⟩
  | 34 => ⟨S80x1, .f32⟩
  | 35 => ⟨S65536x1, .f32⟩
  | 36 => ⟨S1x1, .f32⟩
  | 37 => ⟨S65536x1, .f32⟩
  | 38 => ⟨S65536x1, .f32⟩
  | 39 => ⟨S65536x1, .f32⟩
  | 40 => ⟨S_, .i32⟩
  | 41 => ⟨S65536, .i32⟩
  | 42 => ⟨S65536, .i32⟩
  | 43 => ⟨S65536x1, .i32⟩
  | 44 => ⟨S44, .i32⟩
  | 45 => ⟨S1x44, .i32⟩
  | 46 => ⟨S65536x44, .i32⟩
  | 47 => ⟨S65536x44, .i32⟩
  | 48 => ⟨S65536x44, .i32⟩
  | 49 => ⟨S_, .i32⟩
  | 50 => ⟨S65536x44, .i32⟩
  | 51 => ⟨S65536x44, .i32⟩
  | 52 => ⟨S_, .i32⟩
  | 53 => ⟨S65536x44, .i32⟩
  | 54 => ⟨S65536x44, .i1⟩
  | 55 => ⟨S65536x44, .i32⟩
  | 56 => ⟨S65536x1, .i32⟩
  | 57 => ⟨S65536x44, .i32⟩
  | 58 => ⟨S65536x44, .i32⟩
  | 59 => ⟨S65536x44, .i32⟩
  | 60 => ⟨S_, .i32⟩
  | 61 => ⟨S65536x44, .i32⟩
  | 62 => ⟨S65536x44, .i1⟩
  | 63 => ⟨S_, .i32⟩
  | 64 => ⟨S65536x44, .i32⟩
  | 65 => ⟨S65536x44, .i32⟩
  | 66 => ⟨S65536x44, .i32⟩
  | 67 => ⟨S65536x44x1, .i32⟩
  | 68 => ⟨S1, .i32⟩
  | 69 => ⟨S_, .i32⟩
  | 70 => ⟨S65536x44x1, .i32⟩
  | 71 => ⟨S65536x44x1, .i1⟩
  | 72 => ⟨S1x1x1, .i32⟩
  | 73 => ⟨S65536x44x1, .i32⟩
  | 74 => ⟨S65536x44x1, .i1⟩
  | 75 => ⟨S65536x44x1, .i1⟩
  | 76 => ⟨S_, .i1⟩
  | 77 => ⟨S65536x44, .i1⟩
  | 78 => ⟨S65536x44, .f32⟩
  | 79 => ⟨S_, .f32⟩
  | 80 => ⟨S65536x44, .f32⟩
  | 81 => ⟨S65536x44, .f32⟩
  | 82 => ⟨S_, .f32⟩
  | 83 => ⟨S65536x1, .f32⟩
  | 84 => ⟨S65536x1, .f32⟩
  | 85 => ⟨S65536x44, .f32⟩
  | 86 => ⟨S65536x44, .f32⟩
  | 87 => ⟨S_, .f32⟩
  | 88 => ⟨S_, .f32⟩
  | 89 => ⟨S_, .f32⟩
  | 90 => ⟨S65536x44, .f32⟩
  | 91 => ⟨S65536x44, .f32⟩
  | 92 => ⟨S_, .f32⟩
  | 93 => ⟨S65536x44, .f32⟩
  | 94 => ⟨S65536x44, .f32⟩
  | 95 => ⟨S65536x40, .f32⟩
  | 96 => ⟨S_, .f32⟩
  | 97 => ⟨S65536x1, .f32⟩
  | 98 => ⟨S65536x1, .f32⟩
  | 99 => ⟨S65536x40, .f32⟩
  | 100 => ⟨S65536x40, .f32⟩
  | 101 => ⟨S_, .f32⟩
  | 102 => ⟨S_, .f32⟩
  | 103 => ⟨S_, .f32⟩
  | 104 => ⟨S65536x40, .f32⟩
  | 105 => ⟨S65536x40, .f32⟩
  | 106 => ⟨S_, .f32⟩
  | 107 => ⟨S65536x40, .f32⟩
  | 108 => ⟨S65536x40, .f32⟩
  | 109 => ⟨S65536x164, .f32⟩
  | 110 => ⟨S65536x40, .f32⟩
  | 111 => ⟨S65536x328, .f32⟩
  | 112 => ⟨S328x192, .f32⟩
  | 113 => ⟨S65536x192, .f32⟩
  | 114 => ⟨S65536x192, .f32⟩
  | 115 => ⟨S192x192, .f32⟩
  | 116 => ⟨S65536x192, .f32⟩
  | 117 => ⟨S65536x192, .f32⟩
  | 118 => ⟨S65536x192, .f32⟩
  | 119 => ⟨S_, .f32⟩
  | 120 => ⟨S65536x192, .f32⟩
  | 121 => ⟨S65536x192, .f32⟩
  | 122 => ⟨S_, .f32⟩
  | 123 => ⟨S65536x192, .f32⟩
  | 124 => ⟨S65536x192, .f32⟩
  | 125 => ⟨S65536x192, .f32⟩
  | 126 => ⟨S_, .f32⟩
  | 127 => ⟨S_, .f32⟩
  | _ => ⟨S65536x80, .f32⟩

abbrev hbmTy0_1 (i : Nat) : BufTy := match i % 128 with
  | 0 => ⟨S_, .f32⟩
  | 1 => ⟨S65536x192, .f32⟩
  | 2 => ⟨S65536x192, .f32⟩
  | 3 => ⟨S_, .f32⟩
  | 4 => ⟨S65536x192, .f32⟩
  | 5 => ⟨S65536x192, .f32⟩
  | 6 => ⟨S192x4, .f32⟩
  | 7 => ⟨S65536x4, .f32⟩
  | 8 => ⟨S1x4, .f32⟩
  | 9 => ⟨S65536x4, .f32⟩
  | 10 => ⟨S65536x4, .f32⟩
  | 11 => ⟨S65536x4, .f32⟩
  | 12 => ⟨S65536x4, .f32⟩
  | 13 => ⟨S_, .f32⟩
  | 14 => ⟨S65536x4, .f32⟩
  | 15 => ⟨S65536x4, .f32⟩
  | 16 => ⟨S_, .f32⟩
  | 17 => ⟨S65536x4, .f32⟩
  | 18 => ⟨S65536x4, .f32⟩
  | 19 => ⟨S65536x1, .f32⟩
  | 20 => ⟨S65536x40, .f32⟩
  | 21 => ⟨S65536x40, .f32⟩
  | 22 => ⟨S65536x272, .f32⟩
  | 23 => ⟨S272x480, .f32⟩
  | 24 => ⟨S65536x480, .f32⟩
  | 25 => ⟨S160x480, .f32⟩
  | 26 => ⟨S65536x480, .f32⟩
  | 27 => ⟨S65536x160, .f32⟩
  | 28 => ⟨S65536x160, .f32⟩
  | 29 => ⟨S65536x160, .f32⟩
  | 30 => ⟨S65536x160, .f32⟩
  | 31 => ⟨S65536x160, .f32⟩
  | 32 => ⟨S_, .f32⟩
  | 33 => ⟨S65536x160, .f32⟩
  | 34 => ⟨S65536x160, .f32⟩
  | 35 => ⟨S_, .f32⟩
  | 36 => ⟨S65536x160, .f32⟩
  | 37 => ⟨S65536x160, .f32⟩
  | 38 => ⟨S65536x160, .f32⟩
  | 39 => ⟨S65536x160, .f32⟩
  | 40 => ⟨S65536x160, .f32⟩
  | 41 => ⟨S65536x160, .f32⟩
  | 42 => ⟨S65536x160, .f32⟩
  | 43 => ⟨S_, .f32⟩
  | 44 => ⟨S65536x160, .f32⟩
  | 45 => ⟨S65536x160, .f32⟩
  | 46 => ⟨S_, .f32⟩
  | 47 => ⟨S65536x160, .f32⟩
  | 48 => ⟨S65536x160, .f32⟩
  | 49 => ⟨S65536x160, .f32⟩
  | 50 => ⟨S65536x160, .f32⟩
  | 51 => ⟨S65536x160, .f32⟩
  | 52 => ⟨S65536x160, .f32⟩
  | 53 => ⟨S65536x160, .f32⟩
  | 54 => ⟨S_, .f32⟩
  | 55 => ⟨S65536x160, .f32⟩
  | 56 => ⟨S65536x160, .f32⟩
  | 57 => ⟨S65536x160, .f32⟩
  | 58 => ⟨S65536x160, .f32⟩
  | 59 => ⟨S65536x160, .f32⟩
  | 60 => ⟨S_, .f32⟩
  | 61 => ⟨S_, .f32⟩
  | 62 => ⟨S_, .f32⟩
  | 63 => ⟨S65536x160, .f32⟩
  | 64 => ⟨S65536x160, .f32⟩
  | 65 => ⟨S_, .f32⟩
  | 66 => ⟨S65536x160, .f32⟩
  | 67 => ⟨S65536x160, .f32⟩
  | 68 => ⟨S160x160, .f32⟩
  | 69 => ⟨S65536x160, .f32⟩
  | 70 => ⟨S65536x160, .f32⟩
  | 71 => ⟨S65536x160, .f32⟩
  | 72 => ⟨S_, .f32⟩
  | 73 => ⟨S65536x160, .f32⟩
  | 74 => ⟨S65536x160, .f32⟩
  | 75 => ⟨S_, .f32⟩
  | 76 => ⟨S65536x160, .f32⟩
  | 77 => ⟨S65536x160, .f32⟩
  | 78 => ⟨S65536x160, .f32⟩
  | 79 => ⟨S_, .f32⟩
  | 80 => ⟨S_, .f32⟩
  | 81 => ⟨S_, .f32⟩
  | 82 => ⟨S65536x160, .f32⟩
  | 83 => ⟨S65536x160, .f32⟩
  | 84 => ⟨S_, .f32⟩
  | 85 => ⟨S65536x160, .f32⟩
  | 86 => ⟨S65536x160, .f32⟩
  | 87 => ⟨S65536x1, .f32⟩
  | 88 => ⟨S65536x40, .f32⟩
  | 89 => ⟨S65536x40, .f32⟩
  | 90 => ⟨S65536x240, .f32⟩
  | 91 => ⟨S240x384, .f32⟩
  | 92 => ⟨S65536x384, .f32⟩
  | 93 => ⟨S128x384, .f32⟩
  | 94 => ⟨S65536x384, .f32⟩
  | 95 => ⟨S65536x128, .f32⟩
  | 96 => ⟨S65536x128, .f32⟩
  | 97 => ⟨S65536x128, .f32⟩
  | 98 => ⟨S65536x128, .f32⟩
  | 99 => ⟨S65536x128, .f32⟩
  | 100 => ⟨S_, .f32⟩
  | 101 => ⟨S65536x128, .f32⟩
  | 102 => ⟨S65536x128, .f32⟩
  | 103 => ⟨S_, .f32⟩
  | 104 => ⟨S65536x128, .f32⟩
  | 105 => ⟨S65536x128, .f32⟩
  | 106 => ⟨S65536x128, .f32⟩
  | 107 => ⟨S65536x128, .f32⟩
  | 108 => ⟨S65536x128, .f32⟩
  | 109 => ⟨S65536x128, .f32⟩
  | 110 => ⟨S65536x128, .f32⟩
  | 111 => ⟨S_, .f32⟩
  | 112 => ⟨S65536x128, .f32⟩
  | 113 => ⟨S65536x128, .f32⟩
  | 114 => ⟨S_, .f32⟩
  | 115 => ⟨S65536x128, .f32⟩
  | 116 => ⟨S65536x128, .f32⟩
  | 117 => ⟨S65536x128, .f32⟩
  | 118 => ⟨S65536x128, .f32⟩
  | 119 => ⟨S65536x128, .f32⟩
  | 120 => ⟨S65536x128, .f32⟩
  | 121 => ⟨S65536x128, .f32⟩
  | 122 => ⟨S_, .f32⟩
  | 123 => ⟨S65536x128, .f32⟩
  | 124 => ⟨S65536x128, .f32⟩
  | 125 => ⟨S65536x128, .f32⟩
  | 126 => ⟨S65536x128, .f32⟩
  | 127 => ⟨S65536x128, .f32⟩
  | _ => ⟨S65536x80, .f32⟩

abbrev hbmTy0_2 (i : Nat) : BufTy := match i % 128 with
  | 0 => ⟨S_, .f32⟩
  | 1 => ⟨S_, .f32⟩
  | 2 => ⟨S_, .f32⟩
  | 3 => ⟨S65536x128, .f32⟩
  | 4 => ⟨S65536x128, .f32⟩
  | 5 => ⟨S_, .f32⟩
  | 6 => ⟨S65536x128, .f32⟩
  | 7 => ⟨S65536x128, .f32⟩
  | 8 => ⟨S128x128, .f32⟩
  | 9 => ⟨S65536x128, .f32⟩
  | 10 => ⟨S65536x128, .f32⟩
  | 11 => ⟨S65536x128, .f32⟩
  | 12 => ⟨S_, .f32⟩
  | 13 => ⟨S65536x128, .f32⟩
  | 14 => ⟨S65536x128, .f32⟩
  | 15 => ⟨S_, .f32⟩
  | 16 => ⟨S65536x128, .f32⟩
  | 17 => ⟨S65536x128, .f32⟩
  | 18 => ⟨S65536x128, .f32⟩
  | 19 => ⟨S_, .f32⟩
  | 20 => ⟨S_, .f32⟩
  | 21 => ⟨S_, .f32⟩
  | 22 => ⟨S65536x128, .f32⟩
  | 23 => ⟨S65536x128, .f32⟩
  | 24 => ⟨S_, .f32⟩
  | 25 => ⟨S65536x128, .f32⟩
  | 26 => ⟨S65536x128, .f32⟩
  | 27 => ⟨S65536x1, .f32⟩
  | 28 => ⟨S65536x40, .f32⟩
  | 29 => ⟨S65536x40, .f32⟩
  | 30 => ⟨S65536x208, .f32⟩
  | 31 => ⟨S208x384, .f32⟩
  | 32 => ⟨S65536x384, .f32⟩
  | 33 => ⟨S128x384, .f32⟩
  | 34 => ⟨S65536x384, .f32⟩
  | 35 => ⟨S65536x128, .f32⟩
  | 36 => ⟨S65536x128, .f32⟩
  | 37 => ⟨S65536x128, .f32⟩
  | 38 => ⟨S65536x128, .f32⟩
  | 39 => ⟨S65536x128, .f32⟩
  | 40 => ⟨S_, .f32⟩
  | 41 => ⟨S65536x128, .f32⟩
  | 42 => ⟨S65536x128, .f32⟩
  | 43 => ⟨S_, .f32⟩
  | 44 => ⟨S65536x128, .f32⟩
  | 45 => ⟨S65536x128, .f32⟩
  | 46 => ⟨S65536x128, .f32⟩
  | 47 => ⟨S65536x128, .f32⟩
  | 48 => ⟨S65536x128, .f32⟩
  | 49 => ⟨S65536x128, .f32⟩
  | 50 => ⟨S65536x128, .f32⟩
  | 51 => ⟨S_, .f32⟩
  | 52 => ⟨S65536x128, .f32⟩
  | 53 => ⟨S65536x128, .f32⟩
  | 54 => ⟨S_, .f32⟩
  | 55 => ⟨S65536x128, .f32⟩
  | 56 => ⟨S65536x128, .f32⟩
  | 57 => ⟨S65536x128, .f32⟩
  | 58 => ⟨S65536x128, .f32⟩
  | 59 => ⟨S65536x128, .f32⟩
  | 60 => ⟨S65536x128, .f32⟩
  | 61 => ⟨S65536x128, .f32⟩
  | 62 => ⟨S_, .f32⟩
  | 63 => ⟨S65536x128, .f32⟩
  | 64 => ⟨S65536x128, .f32⟩
  | 65 => ⟨S65536x128, .f32⟩
  | 66 => ⟨S65536x128, .f32⟩
  | 67 => ⟨S65536x128, .f32⟩
  | 68 => ⟨S_, .f32⟩
  | 69 => ⟨S_, .f32⟩
  | 70 => ⟨S_, .f32⟩
  | 71 => ⟨S65536x128, .f32⟩
  | 72 => ⟨S65536x128, .f32⟩
  | 73 => ⟨S_, .f32⟩
  | 74 => ⟨S65536x128, .f32⟩
  | 75 => ⟨S65536x128, .f32⟩
  | 76 => ⟨S128x128, .f32⟩
  | 77 => ⟨S65536x128, .f32⟩
  | 78 => ⟨S65536x128, .f32⟩
  | 79 => ⟨S65536x128, .f32⟩
  | 80 => ⟨S_, .f32⟩
  | 81 => ⟨S65536x128, .f32⟩
  | 82 => ⟨S65536x128, .f32⟩
  | 83 => ⟨S_, .f32⟩
  | 84 => ⟨S65536x128, .f32⟩
  | 85 => ⟨S65536x128, .f32⟩
  | 86 => ⟨S65536x128, .f32⟩
  | 87 => ⟨S_, .f32⟩
  | 88 => ⟨S_, .f32⟩
  | 89 => ⟨S_, .f32⟩
  | 90 => ⟨S65536x128, .f32⟩
  | 91 => ⟨S65536x128, .f32⟩
  | 92 => ⟨S_, .f32⟩
  | 93 => ⟨S65536x128, .f32⟩
  | 94 => ⟨S65536x128, .f32⟩
  | 95 => ⟨S65536x608, .f32⟩
  | 96 => ⟨S65536x1, .f32⟩
  | 97 => ⟨S65536x40, .f32⟩
  | 98 => ⟨S65536x40, .f32⟩
  | 99 => ⟨S65536x688, .f32⟩
  | 100 => ⟨S688x128, .f32⟩
  | 101 => ⟨S65536x128, .f32⟩
  | 102 => ⟨S65536x128, .f32⟩
  | 103 => ⟨S_, .f32⟩
  | 104 => ⟨S_, .f32⟩
  | 105 => ⟨S_, .f32⟩
  | 106 => ⟨S65536x128, .f32⟩
  | 107 => ⟨S65536x128, .f32⟩
  | 108 => ⟨S_, .f32⟩
  | 109 => ⟨S65536x128, .f32⟩
  | 110 => ⟨S65536x128, .f32⟩
  | 111 => ⟨S128x128, .f32⟩
  | 112 => ⟨S65536x128, .f32⟩
  | 113 => ⟨S65536x128, .f32⟩
  | 114 => ⟨S65536x128, .f32⟩
  | 115 => ⟨S_, .f32⟩
  | 116 => ⟨S65536x128, .f32⟩
  | 117 => ⟨S65536x128, .f32⟩
  | 118 => ⟨S_, .f32⟩
  | 119 => ⟨S65536x128, .f32⟩
  | 120 => ⟨S65536x128, .f32⟩
  | 121 => ⟨S65536x128, .f32⟩
  | 122 => ⟨S128x40, .f32⟩
  | 123 => ⟨S65536x40, .f32⟩
  | 124 => ⟨S65536x40, .f32⟩
  | 125 => ⟨S65536x40, .f32⟩
  | 126 => ⟨S65536x40, .f32⟩
  | 127 => ⟨S65536x216, .f32⟩
  | _ => ⟨S65536x80, .f32⟩

abbrev hbmTy0_3 (i : Nat) : BufTy := match i % 128 with
  | 0 => ⟨S65536x256, .f32⟩
  | 1 => ⟨S65536x216, .f32⟩
  | 2 => ⟨S65536x256, .f32⟩
  | _ => ⟨S65536x80, .f32⟩

abbrev hbmTy (i : Nat) : BufTy := match i / 128 with
  | 0 => hbmTy0_0 i
  | 1 => hbmTy0_1 i
  | 2 => hbmTy0_2 i
  | 3 => hbmTy0_3 i
  | _ => ⟨S65536x80, .f32⟩

abbrev bufTy : (tb : Table) → Fin (tcTables nBuf tb) → BufTy
  | .hbm, ⟨i, _⟩ => hbmTy i
  | _, _ => ⟨S65536x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_c : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_c_1 : Ref sig .tc := ⟨.hbm, 49, rfl⟩
abbrev main_v15 : Ref sig .tc := ⟨.hbm, 50, rfl⟩
abbrev main_v16 : Ref sig .tc := ⟨.hbm, 51, rfl⟩
abbrev main_c_2 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_cst : Ref sig .tc := ⟨.hbm, 79, rfl⟩
abbrev main_call1_v14 : Ref sig .tc := ⟨.hbm, 80, rfl⟩
abbrev main_v24 : Ref sig .tc := ⟨.hbm, 81, rfl⟩
abbrev main_cst_3 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_cst_4 : Ref sig .tc := ⟨.hbm, 87, rfl⟩
abbrev main_cst_5 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_v29 : Ref sig .tc := ⟨.hbm, 94, rfl⟩
abbrev main_v30 : Ref sig .tc := ⟨.hbm, 95, rfl⟩
abbrev main_cst_6 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_cst_7 : Ref sig .tc := ⟨.hbm, 101, rfl⟩
abbrev main_cst_8 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_cst_9 : Ref sig .tc := ⟨.hbm, 119, rfl⟩
abbrev main_v46 : Ref sig .tc := ⟨.hbm, 120, rfl⟩
abbrev main_v47 : Ref sig .tc := ⟨.hbm, 121, rfl⟩
abbrev main_cst_10 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_cst_11 : Ref sig .tc := ⟨.hbm, 126, rfl⟩
abbrev main_cst_12 : Ref sig .tc := ⟨.hbm, 127, rfl⟩
abbrev main_call4_v0 : Ref sig .tc := ⟨.hbm, 128, rfl⟩
abbrev main_call4_v1 : Ref sig .tc := ⟨.hbm, 129, rfl⟩
abbrev main_call4_v2 : Ref sig .tc := ⟨.hbm, 130, rfl⟩
abbrev main_call4_v3 : Ref sig .tc := ⟨.hbm, 131, rfl⟩
abbrev main_call4_v4 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_cst_13 : Ref sig .tc := ⟨.hbm, 141, rfl⟩
abbrev main_v59 : Ref sig .tc := ⟨.hbm, 142, rfl⟩
abbrev main_v60 : Ref sig .tc := ⟨.hbm, 143, rfl⟩
abbrev main_cst_14 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_cst_15 : Ref sig .tc := ⟨.hbm, 160, rfl⟩
abbrev main_v76 : Ref sig .tc := ⟨.hbm, 161, rfl⟩
abbrev main_v77 : Ref sig .tc := ⟨.hbm, 162, rfl⟩
abbrev main_cst_16 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_cst_17 : Ref sig .tc := ⟨.hbm, 171, rfl⟩
abbrev main_v85 : Ref sig .tc := ⟨.hbm, 172, rfl⟩
abbrev main_v86 : Ref sig .tc := ⟨.hbm, 173, rfl⟩
abbrev main_cst_18 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_cst_19 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_cst_20 : Ref sig .tc := ⟨.hbm, 188, rfl⟩
abbrev main_cst_21 : Ref sig .tc := ⟨.hbm, 189, rfl⟩
abbrev main_call5_v0 : Ref sig .tc := ⟨.hbm, 190, rfl⟩
abbrev main_call5_v1 : Ref sig .tc := ⟨.hbm, 191, rfl⟩
abbrev main_call5_v2 : Ref sig .tc := ⟨.hbm, 192, rfl⟩
abbrev main_call5_v3 : Ref sig .tc := ⟨.hbm, 193, rfl⟩
abbrev main_call5_v4 : Ref sig .tc := ⟨.hbm, 194, rfl⟩
abbrev main_v99 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_cst_22 : Ref sig .tc := ⟨.hbm, 200, rfl⟩
abbrev main_v104 : Ref sig .tc := ⟨.hbm, 201, rfl⟩
abbrev main_v105 : Ref sig .tc := ⟨.hbm, 202, rfl⟩
abbrev main_cst_23 : Ref sig .tc := ⟨.hbm, 203, rfl⟩
abbrev main_v106 : Ref sig .tc := ⟨.hbm, 204, rfl⟩
abbrev main_v107 : Ref sig .tc := ⟨.hbm, 205, rfl⟩
abbrev main_v108 : Ref sig .tc := ⟨.hbm, 206, rfl⟩
abbrev main_cst_24 : Ref sig .tc := ⟨.hbm, 207, rfl⟩
abbrev main_cst_25 : Ref sig .tc := ⟨.hbm, 208, rfl⟩
abbrev main_call6_v0 : Ref sig .tc := ⟨.hbm, 209, rfl⟩
abbrev main_call6_v1 : Ref sig .tc := ⟨.hbm, 210, rfl⟩
abbrev main_call6_v2 : Ref sig .tc := ⟨.hbm, 211, rfl⟩
abbrev main_call6_v3 : Ref sig .tc := ⟨.hbm, 212, rfl⟩
abbrev main_call6_v4 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_cst_26 : Ref sig .tc := ⟨.hbm, 228, rfl⟩
abbrev main_v123 : Ref sig .tc := ⟨.hbm, 229, rfl⟩
abbrev main_v124 : Ref sig .tc := ⟨.hbm, 230, rfl⟩
abbrev main_cst_27 : Ref sig .tc := ⟨.hbm, 231, rfl⟩
abbrev main_v125 : Ref sig .tc := ⟨.hbm, 232, rfl⟩
abbrev main_v126 : Ref sig .tc := ⟨.hbm, 233, rfl⟩
abbrev main_v127 : Ref sig .tc := ⟨.hbm, 234, rfl⟩
abbrev main_v128 : Ref sig .tc := ⟨.hbm, 235, rfl⟩
abbrev main_v129 : Ref sig .tc := ⟨.hbm, 236, rfl⟩
abbrev main_v130 : Ref sig .tc := ⟨.hbm, 237, rfl⟩
abbrev main_v131 : Ref sig .tc := ⟨.hbm, 238, rfl⟩
abbrev main_cst_28 : Ref sig .tc := ⟨.hbm, 239, rfl⟩
abbrev main_v132 : Ref sig .tc := ⟨.hbm, 240, rfl⟩
abbrev main_v133 : Ref sig .tc := ⟨.hbm, 241, rfl⟩
abbrev main_cst_29 : Ref sig .tc := ⟨.hbm, 242, rfl⟩
abbrev main_v134 : Ref sig .tc := ⟨.hbm, 243, rfl⟩
abbrev main_v135 : Ref sig .tc := ⟨.hbm, 244, rfl⟩
abbrev main_v136 : Ref sig .tc := ⟨.hbm, 245, rfl⟩
abbrev main_v137 : Ref sig .tc := ⟨.hbm, 246, rfl⟩
abbrev main_v138 : Ref sig .tc := ⟨.hbm, 247, rfl⟩
abbrev main_v139 : Ref sig .tc := ⟨.hbm, 248, rfl⟩
abbrev main_v140 : Ref sig .tc := ⟨.hbm, 249, rfl⟩
abbrev main_cst_30 : Ref sig .tc := ⟨.hbm, 250, rfl⟩
abbrev main_v141 : Ref sig .tc := ⟨.hbm, 251, rfl⟩
abbrev main_v142 : Ref sig .tc := ⟨.hbm, 252, rfl⟩
abbrev main_v143 : Ref sig .tc := ⟨.hbm, 253, rfl⟩
abbrev main_v144 : Ref sig .tc := ⟨.hbm, 254, rfl⟩
abbrev main_v145 : Ref sig .tc := ⟨.hbm, 255, rfl⟩
abbrev main_cst_31 : Ref sig .tc := ⟨.hbm, 256, rfl⟩
abbrev main_cst_32 : Ref sig .tc := ⟨.hbm, 257, rfl⟩
abbrev main_call7_v0 : Ref sig .tc := ⟨.hbm, 258, rfl⟩
abbrev main_call7_v1 : Ref sig .tc := ⟨.hbm, 259, rfl⟩
abbrev main_call7_v2 : Ref sig .tc := ⟨.hbm, 260, rfl⟩
abbrev main_call7_v3 : Ref sig .tc := ⟨.hbm, 261, rfl⟩
abbrev main_call7_v4 : Ref sig .tc := ⟨.hbm, 262, rfl⟩
abbrev main_v146 : Ref sig .tc := ⟨.hbm, 263, rfl⟩
abbrev main_v147 : Ref sig .tc := ⟨.hbm, 264, rfl⟩
abbrev main_v148 : Ref sig .tc := ⟨.hbm, 265, rfl⟩
abbrev main_v149 : Ref sig .tc := ⟨.hbm, 266, rfl⟩
abbrev main_v150 : Ref sig .tc := ⟨.hbm, 267, rfl⟩
abbrev main_cst_33 : Ref sig .tc := ⟨.hbm, 268, rfl⟩
abbrev main_v151 : Ref sig .tc := ⟨.hbm, 269, rfl⟩
abbrev main_v152 : Ref sig .tc := ⟨.hbm, 270, rfl⟩
abbrev main_cst_34 : Ref sig .tc := ⟨.hbm, 271, rfl⟩
abbrev main_v153 : Ref sig .tc := ⟨.hbm, 272, rfl⟩
abbrev main_v154 : Ref sig .tc := ⟨.hbm, 273, rfl⟩
abbrev main_v155 : Ref sig .tc := ⟨.hbm, 274, rfl⟩
abbrev main_cst_35 : Ref sig .tc := ⟨.hbm, 275, rfl⟩
abbrev main_cst_36 : Ref sig .tc := ⟨.hbm, 276, rfl⟩
abbrev main_call8_v0 : Ref sig .tc := ⟨.hbm, 277, rfl⟩
abbrev main_call8_v1 : Ref sig .tc := ⟨.hbm, 278, rfl⟩
abbrev main_call8_v2 : Ref sig .tc := ⟨.hbm, 279, rfl⟩
abbrev main_call8_v3 : Ref sig .tc := ⟨.hbm, 280, rfl⟩
abbrev main_call8_v4 : Ref sig .tc := ⟨.hbm, 281, rfl⟩
abbrev main_v156 : Ref sig .tc := ⟨.hbm, 282, rfl⟩
abbrev main_v157 : Ref sig .tc := ⟨.hbm, 283, rfl⟩
abbrev main_v158 : Ref sig .tc := ⟨.hbm, 284, rfl⟩
abbrev main_v159 : Ref sig .tc := ⟨.hbm, 285, rfl⟩
abbrev main_v160 : Ref sig .tc := ⟨.hbm, 286, rfl⟩
abbrev main_v161 : Ref sig .tc := ⟨.hbm, 287, rfl⟩
abbrev main_v162 : Ref sig .tc := ⟨.hbm, 288, rfl⟩
abbrev main_v163 : Ref sig .tc := ⟨.hbm, 289, rfl⟩
abbrev main_v164 : Ref sig .tc := ⟨.hbm, 290, rfl⟩
abbrev main_v165 : Ref sig .tc := ⟨.hbm, 291, rfl⟩
abbrev main_v166 : Ref sig .tc := ⟨.hbm, 292, rfl⟩
abbrev main_v167 : Ref sig .tc := ⟨.hbm, 293, rfl⟩
abbrev main_v168 : Ref sig .tc := ⟨.hbm, 294, rfl⟩
abbrev main_v169 : Ref sig .tc := ⟨.hbm, 295, rfl⟩
abbrev main_cst_37 : Ref sig .tc := ⟨.hbm, 296, rfl⟩
abbrev main_v170 : Ref sig .tc := ⟨.hbm, 297, rfl⟩
abbrev main_v171 : Ref sig .tc := ⟨.hbm, 298, rfl⟩
abbrev main_cst_38 : Ref sig .tc := ⟨.hbm, 299, rfl⟩
abbrev main_v172 : Ref sig .tc := ⟨.hbm, 300, rfl⟩
abbrev main_v173 : Ref sig .tc := ⟨.hbm, 301, rfl⟩
abbrev main_v174 : Ref sig .tc := ⟨.hbm, 302, rfl⟩
abbrev main_v175 : Ref sig .tc := ⟨.hbm, 303, rfl⟩
abbrev main_v176 : Ref sig .tc := ⟨.hbm, 304, rfl⟩
abbrev main_v177 : Ref sig .tc := ⟨.hbm, 305, rfl⟩
abbrev main_v178 : Ref sig .tc := ⟨.hbm, 306, rfl⟩
abbrev main_cst_39 : Ref sig .tc := ⟨.hbm, 307, rfl⟩
abbrev main_v179 : Ref sig .tc := ⟨.hbm, 308, rfl⟩
abbrev main_v180 : Ref sig .tc := ⟨.hbm, 309, rfl⟩
abbrev main_cst_40 : Ref sig .tc := ⟨.hbm, 310, rfl⟩
abbrev main_v181 : Ref sig .tc := ⟨.hbm, 311, rfl⟩
abbrev main_v182 : Ref sig .tc := ⟨.hbm, 312, rfl⟩
abbrev main_v183 : Ref sig .tc := ⟨.hbm, 313, rfl⟩
abbrev main_v184 : Ref sig .tc := ⟨.hbm, 314, rfl⟩
abbrev main_v185 : Ref sig .tc := ⟨.hbm, 315, rfl⟩
abbrev main_v186 : Ref sig .tc := ⟨.hbm, 316, rfl⟩
abbrev main_v187 : Ref sig .tc := ⟨.hbm, 317, rfl⟩
abbrev main_cst_41 : Ref sig .tc := ⟨.hbm, 318, rfl⟩
abbrev main_v188 : Ref sig .tc := ⟨.hbm, 319, rfl⟩
abbrev main_v189 : Ref sig .tc := ⟨.hbm, 320, rfl⟩
abbrev main_v190 : Ref sig .tc := ⟨.hbm, 321, rfl⟩
abbrev main_v191 : Ref sig .tc := ⟨.hbm, 322, rfl⟩
abbrev main_v192 : Ref sig .tc := ⟨.hbm, 323, rfl⟩
abbrev main_cst_42 : Ref sig .tc := ⟨.hbm, 324, rfl⟩
abbrev main_cst_43 : Ref sig .tc := ⟨.hbm, 325, rfl⟩
abbrev main_call9_v0 : Ref sig .tc := ⟨.hbm, 326, rfl⟩
abbrev main_call9_v1 : Ref sig .tc := ⟨.hbm, 327, rfl⟩
abbrev main_call9_v2 : Ref sig .tc := ⟨.hbm, 328, rfl⟩
abbrev main_call9_v3 : Ref sig .tc := ⟨.hbm, 329, rfl⟩
abbrev main_call9_v4 : Ref sig .tc := ⟨.hbm, 330, rfl⟩
abbrev main_v193 : Ref sig .tc := ⟨.hbm, 331, rfl⟩
abbrev main_v194 : Ref sig .tc := ⟨.hbm, 332, rfl⟩
abbrev main_v195 : Ref sig .tc := ⟨.hbm, 333, rfl⟩
abbrev main_v196 : Ref sig .tc := ⟨.hbm, 334, rfl⟩
abbrev main_v197 : Ref sig .tc := ⟨.hbm, 335, rfl⟩
abbrev main_cst_44 : Ref sig .tc := ⟨.hbm, 336, rfl⟩
abbrev main_v198 : Ref sig .tc := ⟨.hbm, 337, rfl⟩
abbrev main_v199 : Ref sig .tc := ⟨.hbm, 338, rfl⟩
abbrev main_cst_45 : Ref sig .tc := ⟨.hbm, 339, rfl⟩
abbrev main_v200 : Ref sig .tc := ⟨.hbm, 340, rfl⟩
abbrev main_v201 : Ref sig .tc := ⟨.hbm, 341, rfl⟩
abbrev main_v202 : Ref sig .tc := ⟨.hbm, 342, rfl⟩
abbrev main_cst_46 : Ref sig .tc := ⟨.hbm, 343, rfl⟩
abbrev main_cst_47 : Ref sig .tc := ⟨.hbm, 344, rfl⟩
abbrev main_call10_v0 : Ref sig .tc := ⟨.hbm, 345, rfl⟩
abbrev main_call10_v1 : Ref sig .tc := ⟨.hbm, 346, rfl⟩
abbrev main_call10_v2 : Ref sig .tc := ⟨.hbm, 347, rfl⟩
abbrev main_call10_v3 : Ref sig .tc := ⟨.hbm, 348, rfl⟩
abbrev main_call10_v4 : Ref sig .tc := ⟨.hbm, 349, rfl⟩
abbrev main_v203 : Ref sig .tc := ⟨.hbm, 350, rfl⟩
abbrev main_v204 : Ref sig .tc := ⟨.hbm, 351, rfl⟩
abbrev main_v205 : Ref sig .tc := ⟨.hbm, 352, rfl⟩
abbrev main_v206 : Ref sig .tc := ⟨.hbm, 353, rfl⟩
abbrev main_v207 : Ref sig .tc := ⟨.hbm, 354, rfl⟩
abbrev main_v208 : Ref sig .tc := ⟨.hbm, 355, rfl⟩
abbrev main_v209 : Ref sig .tc := ⟨.hbm, 356, rfl⟩
abbrev main_v210 : Ref sig .tc := ⟨.hbm, 357, rfl⟩
abbrev main_v211 : Ref sig .tc := ⟨.hbm, 358, rfl⟩
abbrev main_cst_48 : Ref sig .tc := ⟨.hbm, 359, rfl⟩
abbrev main_cst_49 : Ref sig .tc := ⟨.hbm, 360, rfl⟩
abbrev main_call11_v0 : Ref sig .tc := ⟨.hbm, 361, rfl⟩
abbrev main_call11_v1 : Ref sig .tc := ⟨.hbm, 362, rfl⟩
abbrev main_call11_v2 : Ref sig .tc := ⟨.hbm, 363, rfl⟩
abbrev main_call11_v3 : Ref sig .tc := ⟨.hbm, 364, rfl⟩
abbrev main_call11_v4 : Ref sig .tc := ⟨.hbm, 365, rfl⟩
abbrev main_v212 : Ref sig .tc := ⟨.hbm, 366, rfl⟩
abbrev main_v213 : Ref sig .tc := ⟨.hbm, 367, rfl⟩
abbrev main_v214 : Ref sig .tc := ⟨.hbm, 368, rfl⟩
abbrev main_v215 : Ref sig .tc := ⟨.hbm, 369, rfl⟩
abbrev main_v216 : Ref sig .tc := ⟨.hbm, 370, rfl⟩
abbrev main_cst_50 : Ref sig .tc := ⟨.hbm, 371, rfl⟩
abbrev main_v217 : Ref sig .tc := ⟨.hbm, 372, rfl⟩
abbrev main_v218 : Ref sig .tc := ⟨.hbm, 373, rfl⟩
abbrev main_cst_51 : Ref sig .tc := ⟨.hbm, 374, rfl⟩
abbrev main_v219 : Ref sig .tc := ⟨.hbm, 375, rfl⟩
abbrev main_v220 : Ref sig .tc := ⟨.hbm, 376, rfl⟩
abbrev main_v221 : Ref sig .tc := ⟨.hbm, 377, rfl⟩
abbrev main_v222 : Ref sig .tc := ⟨.hbm, 378, rfl⟩
abbrev main_v223 : Ref sig .tc := ⟨.hbm, 379, rfl⟩
abbrev main_v224 : Ref sig .tc := ⟨.hbm, 380, rfl⟩
abbrev main_v225 : Ref sig .tc := ⟨.hbm, 381, rfl⟩
abbrev main_v226 : Ref sig .tc := ⟨.hbm, 382, rfl⟩
abbrev main_v227 : Ref sig .tc := ⟨.hbm, 383, rfl⟩
abbrev main_v228 : Ref sig .tc := ⟨.hbm, 384, rfl⟩
abbrev main_v229 : Ref sig .tc := ⟨.hbm, 385, rfl⟩
abbrev main_v230 : Ref sig .tc := ⟨.hbm, 386, rfl⟩

abbrev nD : Nat := 1
abbrev τ : Topo := Topo.v7x

variable {F : FTy → Type} [FloatOps F]

class Facts₀ : Prop where
  bcast_S_S65536x80 : S_.BroadcastsInDim S65536x80 (![] : Fin 0 → Fin S65536x80.rank)
  transposes_S1x80_S80x1_1_0 : S1x80.Transposes [1, 0] S80x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S_S65536 : S_.BroadcastsInDim S65536 (![] : Fin 0 → Fin S65536.rank)
  bcast_S65536_S65536x1_0 : S65536.BroadcastsInDim S65536x1 (![0] : Fin 1 → Fin S65536x1.rank)
  bcast_S44_S1x44_1 : S44.BroadcastsInDim S1x44 (![1] : Fin 1 → Fin S1x44.rank)
  bcast_S65536x1_S65536x44_0_1 : S65536x1.BroadcastsInDim S65536x44 (![0, 1] : Fin 2 → Fin S65536x44.rank)
  bcast_S1x44_S65536x44_0_1 : S1x44.BroadcastsInDim S65536x44 (![0, 1] : Fin 2 → Fin S65536x44.rank)
  bcast_S_S65536x44 : S_.BroadcastsInDim S65536x44 (![] : Fin 0 → Fin S65536x44.rank)
  natLt_1_32 : 1 < 32
  shapeCasts_S65536x44_S65536x44x1 : S65536x44.ShapeCasts S65536x44x1
  bcast_S_S65536x44x1 : S_.BroadcastsInDim S65536x44x1 (![] : Fin 0 → Fin S65536x44x1.rank)
  bcast_S1_S1x1x1_2 : S1.BroadcastsInDim S1x1x1 (![2] : Fin 1 → Fin S1x1x1.rank)
  bcast_S1x1x1_S65536x44x1_0_1_2 : S1x1x1.BroadcastsInDim S65536x44x1 (![0, 1, 2] : Fin 3 → Fin S65536x44x1.rank)
  reducesTo_S65536x44x1_S65536x44_d2 : S65536x44x1.ReducesTo [2] S65536x44
  h_S_ : 0 < S_.numel
  bcast_S_S65536x1 : S_.BroadcastsInDim S65536x1 (![] : Fin 0 → Fin S65536x1.rank)
  slices_S65536x256_S65536x40_0_216 : S65536x256.Slices ![0, 216] S65536x40
  bcast_S65536x1_S65536x40_0_1 : S65536x1.BroadcastsInDim S65536x40 (![0, 1] : Fin 2 → Fin S65536x40.rank)
  bcast_S_S65536x40 : S_.BroadcastsInDim S65536x40 (![] : Fin 0 → Fin S65536x40.rank)
  concatenates_S65536x80_S65536x44_S65536x40_S65536x164_d1 : Shape.Concatenates [S65536x80, S65536x44, S65536x40] S65536x164 1
  slices_S65536x44_S65536x40_0_2 : S65536x44.Slices ![0, 2] S65536x40
  concatenates_S65536x164_S65536x164_S65536x328_d1 : Shape.Concatenates [S65536x164, S65536x164] S65536x328 1
  transposes_S192x328_S328x192_1_0 : S192x328.Transposes [1, 0] S328x192
  transposes_S192x192_S192x192_1_0 : S192x192.Transposes [1, 0] S192x192
  bcast_S_S65536x192 : S_.BroadcastsInDim S65536x192 (![] : Fin 0 → Fin S65536x192.rank)
  transposes_S4x192_S192x4_1_0 : S4x192.Transposes [1, 0] S192x4
  bcast_S4_S1x4_1 : S4.BroadcastsInDim S1x4 (![1] : Fin 1 → Fin S1x4.rank)
  bcast_S1x4_S65536x4_0_1 : S1x4.BroadcastsInDim S65536x4 (![0, 1] : Fin 2 → Fin S65536x4.rank)
  bcast_S_S65536x4 : S_.BroadcastsInDim S65536x4 (![] : Fin 0 → Fin S65536x4.rank)
  slices_S65536x4_S65536x1_0_0 : S65536x4.Slices ![0, 0] S65536x1
  concatenates_S65536x192_S65536x40_S65536x40_S65536x272_d1 : Shape.Concatenates [S65536x192, S65536x40, S65536x40] S65536x272 1
  transposes_S480x272_S272x480_1_0 : S480x272.Transposes [1, 0] S272x480
  transposes_S480x160_S160x480_1_0 : S480x160.Transposes [1, 0] S160x480
  slices_S65536x480_S65536x160_0_0 : S65536x480.Slices ![0, 0] S65536x160
  bcast_S_S65536x160 : S_.BroadcastsInDim S65536x160 (![] : Fin 0 → Fin S65536x160.rank)
  slices_S65536x480_S65536x160_0_160 : S65536x480.Slices ![0, 160] S65536x160
  slices_S65536x480_S65536x160_0_320 : S65536x480.Slices ![0, 320] S65536x160
  transposes_S160x160_S160x160_1_0 : S160x160.Transposes [1, 0] S160x160
  slices_S65536x4_S65536x1_0_1 : S65536x4.Slices ![0, 1] S65536x1
  concatenates_S65536x160_S65536x40_S65536x40_S65536x240_d1 : Shape.Concatenates [S65536x160, S65536x40, S65536x40] S65536x240 1
  transposes_S384x240_S240x384_1_0 : S384x240.Transposes [1, 0] S240x384
  transposes_S384x128_S128x384_1_0 : S384x128.Transposes [1, 0] S128x384
  slices_S65536x384_S65536x128_0_0 : S65536x384.Slices ![0, 0] S65536x128
  bcast_S_S65536x128 : S_.BroadcastsInDim S65536x128 (![] : Fin 0 → Fin S65536x128.rank)
  slices_S65536x384_S65536x128_0_128 : S65536x384.Slices ![0, 128] S65536x128
  slices_S65536x384_S65536x128_0_256 : S65536x384.Slices ![0, 256] S65536x128
  transposes_S128x128_S128x128_1_0 : S128x128.Transposes [1, 0] S128x128
  slices_S65536x4_S65536x1_0_2 : S65536x4.Slices ![0, 2] S65536x1
  concatenates_S65536x128_S65536x40_S65536x40_S65536x208_d1 : Shape.Concatenates [S65536x128, S65536x40, S65536x40] S65536x208 1
  transposes_S384x208_S208x384_1_0 : S384x208.Transposes [1, 0] S208x384
  concatenates_S65536x160_S65536x128_S65536x128_S65536x192_S65536x608_d1 : Shape.Concatenates [S65536x160, S65536x128, S65536x128, S65536x192] S65536x608 1
  slices_S65536x4_S65536x1_0_3 : S65536x4.Slices ![0, 3] S65536x1
  concatenates_S65536x608_S65536x40_S65536x40_S65536x688_d1 : Shape.Concatenates [S65536x608, S65536x40, S65536x40] S65536x688 1
  transposes_S128x688_S688x128_1_0 : S128x688.Transposes [1, 0] S688x128
  transposes_S40x128_S128x40_1_0 : S40x128.Transposes [1, 0] S128x40
  slices_S65536x256_S65536x216_0_40 : S65536x256.Slices ![0, 40] S65536x216
  concatenates_S65536x216_S65536x40_S65536x256_d1 : Shape.Concatenates [S65536x216, S65536x40] S65536x256 1
  dot_S65536x80_S80x1_S65536x1_1_0_0_1_n_n_wf : DotDims.WF S65536x80 S80x1 S65536x1 [1] [0] [0] [1] [] []
  gather_S65536x256_S65536x44x1_S65536x44_n_1_0_0_1_2_11_wf : GatherDims.WF S65536x256 S65536x44x1 S65536x44 [] [1] [0] [1] [0] 2 ![1, 1]
  dot_S65536x328_S328x192_S65536x192_1_0_0_1_n_n_wf : DotDims.WF S65536x328 S328x192 S65536x192 [1] [0] [0] [1] [] []
  dot_S65536x192_S192x192_S65536x192_1_0_0_1_n_n_wf : DotDims.WF S65536x192 S192x192 S65536x192 [1] [0] [0] [1] [] []
  dot_S65536x192_S192x4_S65536x4_1_0_0_1_n_n_wf : DotDims.WF S65536x192 S192x4 S65536x4 [1] [0] [0] [1] [] []
  dot_S65536x272_S272x480_S65536x480_1_0_0_1_n_n_wf : DotDims.WF S65536x272 S272x480 S65536x480 [1] [0] [0] [1] [] []
  dot_S65536x160_S160x480_S65536x480_1_0_0_1_n_n_wf : DotDims.WF S65536x160 S160x480 S65536x480 [1] [0] [0] [1] [] []
  dot_S65536x160_S160x160_S65536x160_1_0_0_1_n_n_wf : DotDims.WF S65536x160 S160x160 S65536x160 [1] [0] [0] [1] [] []
  dot_S65536x240_S240x384_S65536x384_1_0_0_1_n_n_wf : DotDims.WF S65536x240 S240x384 S65536x384 [1] [0] [0] [1] [] []
  dot_S65536x128_S128x384_S65536x384_1_0_0_1_n_n_wf : DotDims.WF S65536x128 S128x384 S65536x384 [1] [0] [0] [1] [] []
  dot_S65536x128_S128x128_S65536x128_1_0_0_1_n_n_wf : DotDims.WF S65536x128 S128x128 S65536x128 [1] [0] [0] [1] [] []
  dot_S65536x208_S208x384_S65536x384_1_0_0_1_n_n_wf : DotDims.WF S65536x208 S208x384 S65536x384 [1] [0] [0] [1] [] []
  dot_S65536x688_S688x128_S65536x128_1_0_0_1_n_n_wf : DotDims.WF S65536x688 S688x128 S65536x128 [1] [0] [0] [1] [] []
  dot_S65536x128_S128x40_S65536x40_1_0_0_1_n_n_wf : DotDims.WF S65536x128 S128x40 S65536x40 [1] [0] [0] [1] [] []

variable [Facts₀]

def dot_S65536x80_S80x1_S65536x1_1_0_0_1_n_n : DotDims S65536x80 S80x1 S65536x1 where
  lhsContracting := [1]
  rhsContracting := [0]
  lhsNonContracting := [0]
  rhsNonContracting := [1]
  lhsBatch := []
  rhsBatch := []
  wf := dot_S65536x80_S80x1_S65536x1_1_0_0_1_n_n_wf
def gather_S65536x256_S65536x44x1_S65536x44_n_1_0_0_1_2_11 : GatherDims S65536x256 S65536x44x1 S65536x44 where
  offsetDims := []
  collapsedSliceDims := [1]
  operandBatchingDims := [0]
  startIndicesBatchingDims := [0]
  startIndexMap := [1]
  indexVectorDim := 2
  sliceSizes := ![1, 1]
  wf := gather_S65536x256_S65536x44x1_S65536x44_n_1_0_0_1_2_11_wf
def dot_S65536x328_S328x192_S65536x192_1_0_0_1_n_n : DotDims S65536x328 S328x192 S65536x192 where
  lhsContracting := [1]
  rhsContracting := [0]
  lhsNonContracting := [0]
  rhsNonContracting := [1]
  lhsBatch := []
  rhsBatch := []
  wf := dot_S65536x328_S328x192_S65536x192_1_0_0_1_n_n_wf
def dot_S65536x192_S192x192_S65536x192_1_0_0_1_n_n : DotDims S65536x192 S192x192 S65536x192 where
  lhsContracting := [1]
  rhsContracting := [0]
  lhsNonContracting := [0]
  rhsNonContracting := [1]
  lhsBatch := []
  rhsBatch := []
  wf := dot_S65536x192_S192x192_S65536x192_1_0_0_1_n_n_wf
def dot_S65536x192_S192x4_S65536x4_1_0_0_1_n_n : DotDims S65536x192 S192x4 S65536x4 where
  lhsContracting := [1]
  rhsContracting := [0]
  lhsNonContracting := [0]
  rhsNonContracting := [1]
  lhsBatch := []
  rhsBatch := []
  wf := dot_S65536x192_S192x4_S65536x4_1_0_0_1_n_n_wf
def dot_S65536x272_S272x480_S65536x480_1_0_0_1_n_n : DotDims S65536x272 S272x480 S65536x480 where
  lhsContracting := [1]
  rhsContracting := [0]
  lhsNonContracting := [0]
  rhsNonContracting := [1]
  lhsBatch := []
  rhsBatch := []
  wf := dot_S65536x272_S272x480_S65536x480_1_0_0_1_n_n_wf
def dot_S65536x160_S160x480_S65536x480_1_0_0_1_n_n : DotDims S65536x160 S160x480 S65536x480 where
  lhsContracting := [1]
  rhsContracting := [0]
  lhsNonContracting := [0]
  rhsNonContracting := [1]
  lhsBatch := []
  rhsBatch := []
  wf := dot_S65536x160_S160x480_S65536x480_1_0_0_1_n_n_wf
def dot_S65536x160_S160x160_S65536x160_1_0_0_1_n_n : DotDims S65536x160 S160x160 S65536x160 where
  lhsContracting := [1]
  rhsContracting := [0]
  lhsNonContracting := [0]
  rhsNonContracting := [1]
  lhsBatch := []
  rhsBatch := []
  wf := dot_S65536x160_S160x160_S65536x160_1_0_0_1_n_n_wf
def dot_S65536x240_S240x384_S65536x384_1_0_0_1_n_n : DotDims S65536x240 S240x384 S65536x384 where
  lhsContracting := [1]
  rhsContracting := [0]
  lhsNonContracting := [0]
  rhsNonContracting := [1]
  lhsBatch := []
  rhsBatch := []
  wf := dot_S65536x240_S240x384_S65536x384_1_0_0_1_n_n_wf
def dot_S65536x128_S128x384_S65536x384_1_0_0_1_n_n : DotDims S65536x128 S128x384 S65536x384 where
  lhsContracting := [1]
  rhsContracting := [0]
  lhsNonContracting := [0]
  rhsNonContracting := [1]
  lhsBatch := []
  rhsBatch := []
  wf := dot_S65536x128_S128x384_S65536x384_1_0_0_1_n_n_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def dot_S65536x208_S208x384_S65536x384_1_0_0_1_n_n : DotDims S65536x208 S208x384 S65536x384 where
  lhsContracting := [1]
  rhsContracting := [0]
  lhsNonContracting := [0]
  rhsNonContracting := [1]
  lhsBatch := []
  rhsBatch := []
  wf := dot_S65536x208_S208x384_S65536x384_1_0_0_1_n_n_wf
def dot_S65536x688_S688x128_S65536x128_1_0_0_1_n_n : DotDims S65536x688 S688x128 S65536x128 where
  lhsContracting := [1]
  rhsContracting := [0]
  lhsNonContracting := [0]
  rhsNonContracting := [1]
  lhsBatch := []
  rhsBatch := []
  wf := dot_S65536x688_S688x128_S65536x128_1_0_0_1_n_n_wf
def dot_S65536x128_S128x40_S65536x40_1_0_0_1_n_n : DotDims S65536x128 S128x40 S65536x40 where
  lhsContracting := [1]
  rhsContracting := [0]
  lhsNonContracting := [0]
  rhsNonContracting := [1]
  lhsBatch := []
  rhsBatch := []
  wf := dot_S65536x128_S128x40_S65536x40_1_0_0_1_n_n_wf

class Facts : Prop extends Facts₀ where

variable [Facts]
-- ==== Proof.KOut1.lean ====
/- The kernel's six pipelined result arrays after the run, each as ONE whole-array function of its index.
   The grid has 128 points; point `t` stores, in one store per result, the whole row block `[512 t, 512 t + 512)`.
   So row `R` of a result is row `R % 512` of what point `R / 512` stores (`G26 … G31`): per result, what a
   point writes back is its block of that function (`flushed_w`), the blocks cover the array (`cover_w`), and
   therefore the array ends holding the function (`final_w`). -/
import proofs.«180642_j50062138802934_2_alg».proof.Proof.FrameKernelIdealP
import Idealize.ShloMosaic.Lib.Pipeline.Value
import Idealize.ShloMosaic.Lib.ValueIdx

noncomputable section

namespace Cert.KernelIdeal.KOut

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-- The grid point whose block holds row `r`: the rows are stored 512 to a point. -/
def pt (r : Nat) (h : r < 65536) : Fin cfg0.N := ⟨r / 512, by rw [show cfg0.N = 128 from N_0]; omega⟩

/-! ## Result array 0 (output window 26) -/

/-- Result array 0 as one function of its index: row `R` is row `R % 512` of what the grid point `R / 512` stores. -/
def G26 (c : Dev nD) : S65536x256.Idx → Elt F .f32 := fun i =>
  GenP.out0_26 (GenP.iblk m c 0 (pt (i 0).val (i 0).isLt)) (GenP.iblk m c 1 (pt (i 0).val (i 0).isLt)) (GenP.iblk m c 2 (pt (i 0).val (i 0).isLt)) (GenP.iblk m c 3 (pt (i 0).val (i 0).isLt)) (GenP.iblk m c 4 (pt (i 0).val (i 0).isLt)) (GenP.iblk m c 5 (pt (i 0).val (i 0).isLt)) (GenP.iblk m c 6 (pt (i 0).val (i 0).isLt)) (GenP.iblk m c 7 (pt (i 0).val (i 0).isLt)) (GenP.iblk m c 8 (pt (i 0).val (i 0).isLt)) (GenP.iblk m c 9 (pt (i 0).val (i 0).isLt)) (GenP.iblk m c 10 (pt (i 0).val (i 0).isLt)) (GenP.iblk m c 11 (pt (i 0).val (i 0).isLt)) (GenP.iblk m c 12 (pt (i 0).val (i 0).isLt)) (GenP.iblk m c 13 (pt (i 0).val (i 0).isLt)) (GenP.iblk m c 14 (pt (i 0).val (i 0).isLt)) (GenP.iblk m c 15 (pt (i 0).val (i 0).isLt)) (GenP.iblk m c 16 (pt (i 0).val (i 0).isLt)) (GenP.iblk m c 17 (pt (i 0).val (i 0).isLt)) (GenP.iblk m c 18 (pt (i 0).val (i 0).isLt)) (GenP.iblk m c 19 (pt (i 0).val (i 0).isLt)) (GenP.iblk m c 20 (pt (i 0).val (i 0).isLt)) (GenP.iblk m c 21 (pt (i 0).val (i 0).isLt)) (GenP.iblk m c 22 (pt (i 0).val (i 0).isLt)) (GenP.iblk m c 23 (pt (i 0).val (i 0).isLt)) (GenP.iblk m c 24 (pt (i 0).val (i 0).isLt)) (GenP.iblk m c 25 (pt (i 0).val (i 0).isLt))
    (ix2 ⟨(i 0).val % 512, Nat.mod_lt _ (by decide)⟩ ⟨(i 1).val, (i 1).isLt⟩)

/-- At any point `t` with `R / 512 = t`, row `R` of `G26` is read off point `t`'s blocks. -/
theorem G26_at (c : Dev nD) (t : Fin cfg0.N) (i : S65536x256.Idx) (h : (i 0).val / 512 = t.val) :
    G26 m c i = GenP.out0_26 (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (GenP.iblk m c 15 t) (GenP.iblk m c 16 t) (GenP.iblk m c 17 t) (GenP.iblk m c 18 t) (GenP.iblk m c 19 t) (GenP.iblk m c 20 t) (GenP.iblk m c 21 t) (GenP.iblk m c 22 t) (GenP.iblk m c 23 t) (GenP.iblk m c 24 t) (GenP.iblk m c 25 t)
      (ix2 ⟨(i 0).val % 512, Nat.mod_lt _ (by decide)⟩ ⟨(i 1).val, (i 1).isLt⟩) := by
  obtain rfl : pt (i 0).val (i 0).isLt = t := Fin.ext h
  rfl

/-- The index map of output window 26, decided over the grid: point `t` writes row block `t`, column block 0. -/
theorem idx26 : ∀ t : Fin cfg0.N, win0_26.index t (0 : Fin 2) = t.val ∧ win0_26.index t (1 : Fin 2) = 0 :=
  (by decide +kernel : ∀ t : Fin grid0.N, _)

/-- What point `t` writes back is block `t` of `G26`: element `(r, k)` of the block sits at row `512 t + r`, whose
    quotient by 512 is `t` and whose remainder is `r`. -/
theorem flushed26 (c : Dev nD) (t : Fin cfg0.N) :
    (GenP.dats m 0 c).flushed 26 t = ((cfg0.win 26).blk t).view.read (Elt F) (G26 m c) := by
  show (cfg0.win 26).cut (grid0.coords t) ((GenP.dats m 0 c).after 26 t) = _
  rw [GenP.after0_26]
  obtain ⟨e0, e1⟩ := idx26 t
  funext j
  have hj0 : (j 0).val < 512 := (j 0).isLt
  have hj1 : (j 1).val < 256 := (j 1).isLt
  have h0 : ((((cfg0.win 26).blk t).view.emb j) 0).val = t.val * 512 + (j 0).val := by
    show win0_26.index t (0 : Fin 2) * 512 + 1 * (j 0).val = _
    rw [e0]; omega
  have h1 : ((((cfg0.win 26).blk t).view.emb j) 1).val = (j 1).val := by
    show win0_26.index t (1 : Fin 2) * 256 + 1 * (j 1).val = _
    rw [e1]; omega
  rw [View.read_apply, cast_eq]
  refine Eq.trans ?_ (G26_at m c t (((cfg0.win 26).blk t).view.emb j) (by rw [h0]; omega)).symm
  refine congrArg (GenP.out0_26 (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (GenP.iblk m c 15 t) (GenP.iblk m c 16 t) (GenP.iblk m c 17 t) (GenP.iblk m c 18 t) (GenP.iblk m c 19 t) (GenP.iblk m c 20 t) (GenP.iblk m c 21 t) (GenP.iblk m c 22 t) (GenP.iblk m c 23 t) (GenP.iblk m c 24 t) (GenP.iblk m c 25 t)) ?_
  funext a
  apply Fin.ext
  match a with
  | ⟨0, _⟩ => show (j 0).val = ((((cfg0.win 26).blk t).view.emb j) 0).val % 512; rw [h0]; omega
  | ⟨1, _⟩ => show (j 1).val = ((((cfg0.win 26).blk t).view.emb j) 1).val; rw [h1]

/-- An index of the array is in point `t`'s block iff each coordinate is in the block's range on its axis. -/
theorem mem_blk26 (t : Fin cfg0.N) (i : S65536x256.Idx) :
    i ∈ ((cfg0.win 26).blk t).view.set ↔ ∀ a : Fin 2, win0_26.index t a * S512x256.size a ≤ (i a).val ∧ (i a).val < win0_26.index t a * S512x256.size a + S512x256.size a := by
  show i ∈ ((View.whole main_v50_0).slice (win0_26.rect t)).set ↔ _
  rw [View.set_slice_whole, Rect.mem_set_unit]
  exact Iff.rfl

/-- Every index is covered: row `R` lies in the block of point `R / 512`. -/
theorem cover26 (i : S65536x256.Idx) : ∃ t : Fin cfg0.N, (cfg0.win 26).flush t = true ∧ i ∈ ((cfg0.win 26).blk t).view.set := by
  have hi0 : (i 0).val < 65536 := (i 0).isLt
  have hi1 : (i 1).val < 256 := (i 1).isLt
  refine ⟨pt (i 0).val hi0, flush0_26 _, ?_⟩
  rw [mem_blk26]
  obtain ⟨e0, e1⟩ := idx26 (pt (i 0).val hi0)
  have ep : (pt (i 0).val hi0).val = (i 0).val / 512 := rfl
  intro a
  match a with
  | ⟨0, _⟩ => show win0_26.index (pt (i 0).val hi0) (0 : Fin 2) * 512 ≤ (i 0).val ∧ (i 0).val < win0_26.index (pt (i 0).val hi0) (0 : Fin 2) * 512 + 512; rw [e0, ep]; omega
  | ⟨1, _⟩ => show win0_26.index (pt (i 0).val hi0) (1 : Fin 2) * 256 ≤ (i 1).val ∧ (i 1).val < win0_26.index (pt (i 0).val hi0) (1 : Fin 2) * 256 + 256; rw [e1]; omega

/-- The array after the run is `G26`. -/
theorem final26 (c : Dev nD) : (GenP.dats m 0 c).arrAt 26 cfg0.N = G26 m c :=
  (GenP.dats m 0 c).arrAt_eq_of_cover 26 (G26 m c) (fun t _ => flushed26 m c t) cover26

/-! ## Result array 1 (output window 27) -/

/-- Result array 1 as one function of its index: row `R` is row `R % 512` of what the grid point `R / 512` stores. -/
def G27 (c : Dev nD) : S65536x256.Idx → Elt F .f32 := fun i =>
  GenP.out0_27 (GenP.iblk m c 0 (pt (i 0).val (i 0).isLt)) (GenP.iblk m c 1 (pt (i 0).val (i 0).isLt)) (GenP.iblk m c 2 (pt (i 0).val (i 0).isLt)) (GenP.iblk m c 3 (pt (i 0).val (i 0).isLt)) (GenP.iblk m c 4 (pt (i 0).val (i 0).isLt)) (GenP.iblk m c 5 (pt (i 0).val (i 0).isLt)) (GenP.iblk m c 6 (pt (i 0).val (i 0).isLt)) (GenP.iblk m c 7 (pt (i 0).val (i 0).isLt)) (GenP.iblk m c 8 (pt (i 0).val (i 0).isLt)) (GenP.iblk m c 9 (pt (i 0).val (i 0).isLt)) (GenP.iblk m c 10 (pt (i 0).val (i 0).isLt)) (GenP.iblk m c 11 (pt (i 0).val (i 0).isLt)) (GenP.iblk m c 12 (pt (i 0).val (i 0).isLt)) (GenP.iblk m c 13 (pt (i 0).val (i 0).isLt)) (GenP.iblk m c 14 (pt (i 0).val (i 0).isLt)) (GenP.iblk m c 15 (pt (i 0).val (i 0).isLt)) (GenP.iblk m c 16 (pt (i 0).val (i 0).isLt)) (GenP.iblk m c 17 (pt (i 0).val (i 0).isLt)) (GenP.iblk m c 18 (pt (i 0).val (i 0).isLt)) (GenP.iblk m c 19 (pt (i 0).val (i 0).isLt)) (GenP.iblk m c 20 (pt (i 0).val (i 0).isLt)) (GenP.iblk m c 21 (pt (i 0).val (i 0).isLt)) (GenP.iblk m c 22 (pt (i 0).val (i 0).isLt)) (GenP.iblk m c 23 (pt (i 0).val (i 0).isLt)) (GenP.iblk m c 24 (pt (i 0).val (i 0).isLt)) (GenP.iblk m c 25 (pt (i 0).val (i 0).isLt))
    (ix2 ⟨(i 0).val % 512, Nat.mod_lt _ (by decide)⟩ ⟨(i 1).val, (i 1).isLt⟩)

/-- At any point `t` with `R / 512 = t`, row `R` of `G27` is read off point `t`'s blocks. -/
theorem G27_at (c : Dev nD) (t : Fin cfg0.N) (i : S65536x256.Idx) (h : (i 0).val / 512 = t.val) :
    G27 m c i = GenP.out0_27 (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (GenP.iblk m c 15 t) (GenP.iblk m c 16 t) (GenP.iblk m c 17 t) (GenP.iblk m c 18 t) (GenP.iblk m c 19 t) (GenP.iblk m c 20 t) (GenP.iblk m c 21 t) (GenP.iblk m c 22 t) (GenP.iblk m c 23 t) (GenP.iblk m c 24 t) (GenP.iblk m c 25 t)
      (ix2 ⟨(i 0).val % 512, Nat.mod_lt _ (by decide)⟩ ⟨(i 1).val, (i 1).isLt⟩) := by
  obtain rfl : pt (i 0).val (i 0).isLt = t := Fin.ext h
  rfl

/-- The index map of output window 27, decided over the grid: point `t` writes row block `t`, column block 0. -/
theorem idx27 : ∀ t : Fin cfg0.N, win0_27.index t (0 : Fin 2) = t.val ∧ win0_27.index t (1 : Fin 2) = 0 :=
  (by decide +kernel : ∀ t : Fin grid0.N, _)

/-- What point `t` writes back is block `t` of `G27`: element `(r, k)` of the block sits at row `512 t + r`, whose
    quotient by 512 is `t` and whose remainder is `r`. -/
theorem flushed27 (c : Dev nD) (t : Fin cfg0.N) :
    (GenP.dats m 0 c).flushed 27 t = ((cfg0.win 27).blk t).view.read (Elt F) (G27 m c) := by
  show (cfg0.win 27).cut (grid0.coords t) ((GenP.dats m 0 c).after 27 t) = _
  rw [GenP.after0_27]
  obtain ⟨e0, e1⟩ := idx27 t
  funext j
  have hj0 : (j 0).val < 512 := (j 0).isLt
  have hj1 : (j 1).val < 256 := (j 1).isLt
  have h0 : ((((cfg0.win 27).blk t).view.emb j) 0).val = t.val * 512 + (j 0).val := by
    show win0_27.index t (0 : Fin 2) * 512 + 1 * (j 0).val = _
    rw [e0]; omega
  have h1 : ((((cfg0.win 27).blk t).view.emb j) 1).val = (j 1).val := by
    show win0_27.index t (1 : Fin 2) * 256 + 1 * (j 1).val = _
    rw [e1]; omega
  rw [View.read_apply, cast_eq]
  refine Eq.trans ?_ (G27_at m c t (((cfg0.win 27).blk t).view.emb j) (by rw [h0]; omega)).symm
  refine congrArg (GenP.out0_27 (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (GenP.iblk m c 15 t) (GenP.iblk m c 16 t) (GenP.iblk m c 17 t) (GenP.iblk m c 18 t) (GenP.iblk m c 19 t) (GenP.iblk m c 20 t) (GenP.iblk m c 21 t) (GenP.iblk m c 22 t) (GenP.iblk m c 23 t) (GenP.iblk m c 24 t) (GenP.iblk m c 25 t)) ?_
  funext a
  apply Fin.ext
  match a with
  | ⟨0, _⟩ => show (j 0).val = ((((cfg0.win 27).blk t).view.emb j) 0).val % 512; rw [h0]; omega
  | ⟨1, _⟩ => show (j 1).val = ((((cfg0.win 27).blk t).view.emb j) 1).val; rw [h1]

/-- An index of the array is in point `t`'s block iff each coordinate is in the block's range on its axis. -/
theorem mem_blk27 (t : Fin cfg0.N) (i : S65536x256.Idx) :
    i ∈ ((cfg0.win 27).blk t).view.set ↔ ∀ a : Fin 2, win0_27.index t a * S512x256.size a ≤ (i a).val ∧ (i a).val < win0_27.index t a * S512x256.size a + S512x256.size a := by
  show i ∈ ((View.whole main_v50_1).slice (win0_27.rect t)).set ↔ _
  rw [View.set_slice_whole, Rect.mem_set_unit]
  exact Iff.rfl

/-- Every index is covered: row `R` lies in the block of point `R / 512`. -/
theorem cover27 (i : S65536x256.Idx) : ∃ t : Fin cfg0.N, (cfg0.win 27).flush t = true ∧ i ∈ ((cfg0.win 27).blk t).view.set := by
  have hi0 : (i 0).val < 65536 := (i 0).isLt
  have hi1 : (i 1).val < 256 := (i 1).isLt
  refine ⟨pt (i 0).val hi0, flush0_27 _, ?_⟩
  rw [mem_blk27]
  obtain ⟨e0, e1⟩ := idx27 (pt (i 0).val hi0)
  have ep : (pt (i 0).val hi0).val = (i 0).val / 512 := rfl
  intro a
  match a with
  | ⟨0, _⟩ => show win0_27.index (pt (i 0).val hi0) (0 : Fin 2) * 512 ≤ (i 0).val ∧ (i 0).val < win0_27.index (pt (i 0).val hi0) (0 : Fin 2) * 512 + 512; rw [e0, ep]; omega
  | ⟨1, _⟩ => show win0_27.index (pt (i 0).val hi0) (1 : Fin 2) * 256 ≤ (i 1).val ∧ (i 1).val < win0_27.index (pt (i 0).val hi0) (1 : Fin 2) * 256 + 256; rw [e1]; omega

/-- The array after the run is `G27`. -/
theorem final27 (c : Dev nD) : (GenP.dats m 0 c).arrAt 27 cfg0.N = G27 m c :=
  (GenP.dats m 0 c).arrAt_eq_of_cover 27 (G27 m c) (fun t _ => flushed27 m c t) cover27

/-! ## Result array 2 (output window 28) -/

/-- Result array 2 as one function of its index: row `R` is row `R % 512` of what the grid point `R / 512` stores. -/
def G28 (c : Dev nD) : S65536x160.Idx → Elt F .f32 := fun i =>
  GenP.out0_28 (GenP.iblk m c 0 (pt (i 0).val (i 0).isLt)) (GenP.iblk m c 1 (pt (i 0).val (i 0).isLt)) (GenP.iblk m c 2 (pt (i 0).val (i 0).isLt)) (GenP.iblk m c 3 (pt (i 0).val (i 0).isLt)) (GenP.iblk m c 4 (pt (i 0).val (i 0).isLt)) (GenP.iblk m c 5 (pt (i 0).val (i 0).isLt)) (GenP.iblk m c 6 (pt (i 0).val (i 0).isLt)) (GenP.iblk m c 7 (pt (i 0).val (i 0).isLt)) (GenP.iblk m c 8 (pt (i 0).val (i 0).isLt)) (GenP.iblk m c 9 (pt (i 0).val (i 0).isLt)) (GenP.iblk m c 10 (pt (i 0).val (i 0).isLt)) (GenP.iblk m c 11 (pt (i 0).val (i 0).isLt)) (GenP.iblk m c 12 (pt (i 0).val (i 0).isLt)) (GenP.iblk m c 13 (pt (i 0).val (i 0).isLt)) (GenP.iblk m c 14 (pt (i 0).val (i 0).isLt)) (GenP.iblk m c 15 (pt (i 0).val (i 0).isLt)) (GenP.iblk m c 16 (pt (i 0).val (i 0).isLt)) (GenP.iblk m c 17 (pt (i 0).val (i 0).isLt)) (GenP.iblk m c 18 (pt (i 0).val (i 0).isLt)) (GenP.iblk m c 19 (pt (i 0).val (i 0).isLt)) (GenP.iblk m c 20 (pt (i 0).val (i 0).isLt)) (GenP.iblk m c 21 (pt (i 0).val (i 0).isLt)) (GenP.iblk m c 22 (pt (i 0).val (i 0).isLt)) (GenP.iblk m c 23 (pt (i 0).val (i 0).isLt)) (GenP.iblk m c 24 (pt (i 0).val (i 0).isLt)) (GenP.iblk m c 25 (pt (i 0).val (i 0).isLt))
    (ix2 ⟨(i 0).val % 512, Nat.mod_lt _ (by decide)⟩ ⟨(i 1).val, (i 1).isLt⟩)

/-- At any point `t` with `R / 512 = t`, row `R` of `G28` is read off point `t`'s blocks. -/
theorem G28_at (c : Dev nD) (t : Fin cfg0.N) (i : S65536x160.Idx) (h : (i 0).val / 512 = t.val) :
    G28 m c i = GenP.out0_28 (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (GenP.iblk m c 15 t) (GenP.iblk m c 16 t) (GenP.iblk m c 17 t) (GenP.iblk m c 18 t) (GenP.iblk m c 19 t) (GenP.iblk m c 20 t) (GenP.iblk m c 21 t) (GenP.iblk m c 22 t) (GenP.iblk m c 23 t) (GenP.iblk m c 24 t) (GenP.iblk m c 25 t)
      (ix2 ⟨(i 0).val % 512, Nat.mod_lt _ (by decide)⟩ ⟨(i 1).val, (i 1).isLt⟩) := by
  obtain rfl : pt (i 0).val (i 0).isLt = t := Fin.ext h
  rfl

/-- The index map of output window 28, decided over the grid: point `t` writes row block `t`, column block 0. -/
theorem idx28 : ∀ t : Fin cfg0.N, win0_28.index t (0 : Fin 2) = t.val ∧ win0_28.index t (1 : Fin 2) = 0 :=
  (by decide +kernel : ∀ t : Fin grid0.N, _)

/-- What point `t` writes back is block `t` of `G28`: element `(r, k)` of the block sits at row `512 t + r`, whose
    quotient by 512 is `t` and whose remainder is `r`. -/
theorem flushed28 (c : Dev nD) (t : Fin cfg0.N) :
    (GenP.dats m 0 c).flushed 28 t = ((cfg0.win 28).blk t).view.read (Elt F) (G28 m c) := by
  show (cfg0.win 28).cut (grid0.coords t) ((GenP.dats m 0 c).after 28 t) = _
  rw [GenP.after0_28]
  obtain ⟨e0, e1⟩ := idx28 t
  funext j
  have hj0 : (j 0).val < 512 := (j 0).isLt
  have hj1 : (j 1).val < 160 := (j 1).isLt
  have h0 : ((((cfg0.win 28).blk t).view.emb j) 0).val = t.val * 512 + (j 0).val := by
    show win0_28.index t (0 : Fin 2) * 512 + 1 * (j 0).val = _
    rw [e0]; omega
  have h1 : ((((cfg0.win 28).blk t).view.emb j) 1).val = (j 1).val := by
    show win0_28.index t (1 : Fin 2) * 160 + 1 * (j 1).val = _
    rw [e1]; omega
  rw [View.read_apply, cast_eq]
  refine Eq.trans ?_ (G28_at m c t (((cfg0.win 28).blk t).view.emb j) (by rw [h0]; omega)).symm
  refine congrArg (GenP.out0_28 (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (GenP.iblk m c 15 t) (GenP.iblk m c 16 t) (GenP.iblk m c 17 t) (GenP.iblk m c 18 t) (GenP.iblk m c 19 t) (GenP.iblk m c 20 t) (GenP.iblk m c 21 t) (GenP.iblk m c 22 t) (GenP.iblk m c 23 t) (GenP.iblk m c 24 t) (GenP.iblk m c 25 t)) ?_
  funext a
  apply Fin.ext
  match a with
  | ⟨0, _⟩ => show (j 0).val = ((((cfg0.win 28).blk t).view.emb j) 0).val % 512; rw [h0]; omega
  | ⟨1, _⟩ => show (j 1).val = ((((cfg0.win 28).blk t).view.emb j) 1).val; rw [h1]

/-- An index of the array is in point `t`'s block iff each coordinate is in the block's range on its axis. -/
theorem mem_blk28 (t : Fin cfg0.N) (i : S65536x160.Idx) :
    i ∈ ((cfg0.win 28).blk t).view.set ↔ ∀ a : Fin 2, win0_28.index t a * S512x160.size a ≤ (i a).val ∧ (i a).val < win0_28.index t a * S512x160.size a + S512x160.size a := by
  show i ∈ ((View.whole main_v50_2).slice (win0_28.rect t)).set ↔ _
  rw [View.set_slice_whole, Rect.mem_set_unit]
  exact Iff.rfl

/-- Every index is covered: row `R` lies in the block of point `R / 512`. -/
theorem cover28 (i : S65536x160.Idx) : ∃ t : Fin cfg0.N, (cfg0.win 28).flush t = true ∧ i ∈ ((cfg0.win 28).blk t).view.set := by
  have hi0 : (i 0).val < 65536 := (i 0).isLt
  have hi1 : (i 1).val < 160 := (i 1).isLt
  refine ⟨pt (i 0).val hi0, flush0_28 _, ?_⟩
  rw [mem_blk28]
  obtain ⟨e0, e1⟩ := idx28 (pt (i 0).val hi0)
  have ep : (pt (i 0).val hi0).val = (i 0).val / 512 := rfl
  intro a
  match a with
  | ⟨0, _⟩ => show win0_28.index (pt (i 0).val hi0) (0 : Fin 2) * 512 ≤ (i 0).val ∧ (i 0).val < win0_28.index (pt (i 0).val hi0) (0 : Fin 2) * 512 + 512; rw [e0, ep]; omega
  | ⟨1, _⟩ => show win0_28.index (pt (i 0).val hi0) (1 : Fin 2) * 160 ≤ (i 1).val ∧ (i 1).val < win0_28.index (pt (i 0).val hi0) (1 : Fin 2) * 160 + 160; rw [e1]; omega

/-- The array after the run is `G28`. -/
theorem final28 (c : Dev nD) : (GenP.dats m 0 c).arrAt 28 cfg0.N = G28 m c :=
  (GenP.dats m 0 c).arrAt_eq_of_cover 28 (G28 m c) (fun t _ => flushed28 m c t) cover28

/-! ## Result array 3 (output window 29) -/

/-- Result array 3 as one function of its index: row `R` is row `R % 512` of what the grid point `R / 512` stores. -/
def G29 (c : Dev nD) : S65536x128.Idx → Elt F .f32 := fun i =>
  GenP.out0_29 (GenP.iblk m c 0 (pt (i 0).val (i 0).isLt)) (GenP.iblk m c 1 (pt (i 0).val (i 0).isLt)) (GenP.iblk m c 2 (pt (i 0).val (i 0).isLt)) (GenP.iblk m c 3 (pt (i 0).val (i 0).isLt)) (GenP.iblk m c 4 (pt (i 0).val (i 0).isLt)) (GenP.iblk m c 5 (pt (i 0).val (i 0).isLt)) (GenP.iblk m c 6 (pt (i 0).val (i 0).isLt)) (GenP.iblk m c 7 (pt (i 0).val (i 0).isLt)) (GenP.iblk m c 8 (pt (i 0).val (i 0).isLt)) (GenP.iblk m c 9 (pt (i 0).val (i 0).isLt)) (GenP.iblk m c 10 (pt (i 0).val (i 0).isLt)) (GenP.iblk m c 11 (pt (i 0).val (i 0).isLt)) (GenP.iblk m c 12 (pt (i 0).val (i 0).isLt)) (GenP.iblk m c 13 (pt (i 0).val (i 0).isLt)) (GenP.iblk m c 14 (pt (i 0).val (i 0).isLt)) (GenP.iblk m c 15 (pt (i 0).val (i 0).isLt)) (GenP.iblk m c 16 (pt (i 0).val (i 0).isLt)) (GenP.iblk m c 17 (pt (i 0).val (i 0).isLt)) (GenP.iblk m c 18 (pt (i 0).val (i 0).isLt)) (GenP.iblk m c 19 (pt (i 0).val (i 0).isLt)) (GenP.iblk m c 20 (pt (i 0).val (i 0).isLt)) (GenP.iblk m c 21 (pt (i 0).val (i 0).isLt)) (GenP.iblk m c 22 (pt (i 0).val (i 0).isLt)) (GenP.iblk m c 23 (pt (i 0).val (i 0).isLt)) (GenP.iblk m c 24 (pt (i 0).val (i 0).isLt)) (GenP.iblk m c 25 (pt (i 0).val (i 0).isLt))
    (ix2 ⟨(i 0).val % 512, Nat.mod_lt _ (by decide)⟩ ⟨(i 1).val, (i 1).isLt⟩)

/-- At any point `t` with `R / 512 = t`, row `R` of `G29` is read off point `t`'s blocks. -/
theorem G29_at (c : Dev nD) (t : Fin cfg0.N) (i : S65536x128.Idx) (h : (i 0).val / 512 = t.val) :
    G29 m c i = GenP.out0_29 (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (GenP.iblk m c 15 t) (GenP.iblk m c 16 t) (GenP.iblk m c 17 t) (GenP.iblk m c 18 t) (GenP.iblk m c 19 t) (GenP.iblk m c 20 t) (GenP.iblk m c 21 t) (GenP.iblk m c 22 t) (GenP.iblk m c 23 t) (GenP.iblk m c 24 t) (GenP.iblk m c 25 t)
      (ix2 ⟨(i 0).val % 512, Nat.mod_lt _ (by decide)⟩ ⟨(i 1).val, (i 1).isLt⟩) := by
  obtain rfl : pt (i 0).val (i 0).isLt = t := Fin.ext h
  rfl

/-- The index map of output window 29, decided over the grid: point `t` writes row block `t`, column block 0. -/
theorem idx29 : ∀ t : Fin cfg0.N, win0_29.index t (0 : Fin 2) = t.val ∧ win0_29.index t (1 : Fin 2) = 0 :=
  (by decide +kernel : ∀ t : Fin grid0.N, _)

/-- What point `t` writes back is block `t` of `G29`: element `(r, k)` of the block sits at row `512 t + r`, whose
    quotient by 512 is `t` and whose remainder is `r`. -/
theorem flushed29 (c : Dev nD) (t : Fin cfg0.N) :
    (GenP.dats m 0 c).flushed 29 t = ((cfg0.win 29).blk t).view.read (Elt F) (G29 m c) := by
  show (cfg0.win 29).cut (grid0.coords t) ((GenP.dats m 0 c).after 29 t) = _
  rw [GenP.after0_29]
  obtain ⟨e0, e1⟩ := idx29 t
  funext j
  have hj0 : (j 0).val < 512 := (j 0).isLt
  have hj1 : (j 1).val < 128 := (j 1).isLt
  have h0 : ((((cfg0.win 29).blk t).view.emb j) 0).val = t.val * 512 + (j 0).val := by
    show win0_29.index t (0 : Fin 2) * 512 + 1 * (j 0).val = _
    rw [e0]; omega
  have h1 : ((((cfg0.win 29).blk t).view.emb j) 1).val = (j 1).val := by
    show win0_29.index t (1 : Fin 2) * 128 + 1 * (j 1).val = _
    rw [e1]; omega
  rw [View.read_apply, cast_eq]
  refine Eq.trans ?_ (G29_at m c t (((cfg0.win 29).blk t).view.emb j) (by rw [h0]; omega)).symm
  refine congrArg (GenP.out0_29 (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (GenP.iblk m c 15 t) (GenP.iblk m c 16 t) (GenP.iblk m c 17 t) (GenP.iblk m c 18 t) (GenP.iblk m c 19 t) (GenP.iblk m c 20 t) (GenP.iblk m c 21 t) (GenP.iblk m c 22 t) (GenP.iblk m c 23 t) (GenP.iblk m c 24 t) (GenP.iblk m c 25 t)) ?_
  funext a
  apply Fin.ext
  match a with
  | ⟨0, _⟩ => show (j 0).val = ((((cfg0.win 29).blk t).view.emb j) 0).val % 512; rw [h0]; omega
  | ⟨1, _⟩ => show (j 1).val = ((((cfg0.win 29).blk t).view.emb j) 1).val; rw [h1]

/-- An index of the array is in point `t`'s block iff each coordinate is in the block's range on its axis. -/
theorem mem_blk29 (t : Fin cfg0.N) (i : S65536x128.Idx) :
    i ∈ ((cfg0.win 29).blk t).view.set ↔ ∀ a : Fin 2, win0_29.index t a * S512x128.size a ≤ (i a).val ∧ (i a).val < win0_29.index t a * S512x128.size a + S512x128.size a := by
  show i ∈ ((View.whole main_v50_3).slice (win0_29.rect t)).set ↔ _
  rw [View.set_slice_whole, Rect.mem_set_unit]
  exact Iff.rfl

/-- Every index is covered: row `R` lies in the block of point `R / 512`. -/
theorem cover29 (i : S65536x128.Idx) : ∃ t : Fin cfg0.N, (cfg0.win 29).flush t = true ∧ i ∈ ((cfg0.win 29).blk t).view.set := by
  have hi0 : (i 0).val < 65536 := (i 0).isLt
  have hi1 : (i 1).val < 128 := (i 1).isLt
  refine ⟨pt (i 0).val hi0, flush0_29 _, ?_⟩
  rw [mem_blk29]
  obtain ⟨e0, e1⟩ := idx29 (pt (i 0).val hi0)
  have ep : (pt (i 0).val hi0).val = (i 0).val / 512 := rfl
  intro a
  match a with
  | ⟨0, _⟩ => show win0_29.index (pt (i 0).val hi0) (0 : Fin 2) * 512 ≤ (i 0).val ∧ (i 0).val < win0_29.index (pt (i 0).val hi0) (0 : Fin 2) * 512 + 512; rw [e0, ep]; omega
  | ⟨1, _⟩ => show win0_29.index (pt (i 0).val hi0) (1 : Fin 2) * 128 ≤ (i 1).val ∧ (i 1).val < win0_29.index (pt (i 0).val hi0) (1 : Fin 2) * 128 + 128; rw [e1]; omega

/-- The array after the run is `G29`. -/
theorem final29 (c : Dev nD) : (GenP.dats m 0 c).arrAt 29 cfg0.N = G29 m c :=
  (GenP.dats m 0 c).arrAt_eq_of_cover 29 (G29 m c) (fun t _ => flushed29 m c t) cover29

/-! ## Result array 4 (output window 30) -/

/-- Result array 4 as one function of its index: row `R` is row `R % 512` of what the grid point `R / 512` stores. -/
def G30 (c : Dev nD) : S65536x128.Idx → Elt F .f32 := fun i =>
  GenP.out0_30 (GenP.iblk m c 0 (pt (i 0).val (i 0).isLt)) (GenP.iblk m c 1 (pt (i 0).val (i 0).isLt)) (GenP.iblk m c 2 (pt (i 0).val (i 0).isLt)) (GenP.iblk m c 3 (pt (i 0).val (i 0).isLt)) (GenP.iblk m c 4 (pt (i 0).val (i 0).isLt)) (GenP.iblk m c 5 (pt (i 0).val (i 0).isLt)) (GenP.iblk m c 6 (pt (i 0).val (i 0).isLt)) (GenP.iblk m c 7 (pt (i 0).val (i 0).isLt)) (GenP.iblk m c 8 (pt (i 0).val (i 0).isLt)) (GenP.iblk m c 9 (pt (i 0).val (i 0).isLt)) (GenP.iblk m c 10 (pt (i 0).val (i 0).isLt)) (GenP.iblk m c 11 (pt (i 0).val (i 0).isLt)) (GenP.iblk m c 12 (pt (i 0).val (i 0).isLt)) (GenP.iblk m c 13 (pt (i 0).val (i 0).isLt)) (GenP.iblk m c 14 (pt (i 0).val (i 0).isLt)) (GenP.iblk m c 15 (pt (i 0).val (i 0).isLt)) (GenP.iblk m c 16 (pt (i 0).val (i 0).isLt)) (GenP.iblk m c 17 (pt (i 0).val (i 0).isLt)) (GenP.iblk m c 18 (pt (i 0).val (i 0).isLt)) (GenP.iblk m c 19 (pt (i 0).val (i 0).isLt)) (GenP.iblk m c 20 (pt (i 0).val (i 0).isLt)) (GenP.iblk m c 21 (pt (i 0).val (i 0).isLt)) (GenP.iblk m c 22 (pt (i 0).val (i 0).isLt)) (GenP.iblk m c 23 (pt (i 0).val (i 0).isLt)) (GenP.iblk m c 24 (pt (i 0).val (i 0).isLt)) (GenP.iblk m c 25 (pt (i 0).val (i 0).isLt))
    (ix2 ⟨(i 0).val % 512, Nat.mod_lt _ (by decide)⟩ ⟨(i 1).val, (i 1).isLt⟩)

/-- At any point `t` with `R / 512 = t`, row `R` of `G30` is read off point `t`'s blocks. -/
theorem G30_at (c : Dev nD) (t : Fin cfg0.N) (i : S65536x128.Idx) (h : (i 0).val / 512 = t.val) :
    G30 m c i = GenP.out0_30 (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (GenP.iblk m c 15 t) (GenP.iblk m c 16 t) (GenP.iblk m c 17 t) (GenP.iblk m c 18 t) (GenP.iblk m c 19 t) (GenP.iblk m c 20 t) (GenP.iblk m c 21 t) (GenP.iblk m c 22 t) (GenP.iblk m c 23 t) (GenP.iblk m c 24 t) (GenP.iblk m c 25 t)
      (ix2 ⟨(i 0).val % 512, Nat.mod_lt _ (by decide)⟩ ⟨(i 1).val, (i 1).isLt⟩) := by
  obtain rfl : pt (i 0).val (i 0).isLt = t := Fin.ext h
  rfl

/-- The index map of output window 30, decided over the grid: point `t` writes row block `t`, column block 0. -/
theorem idx30 : ∀ t : Fin cfg0.N, win0_30.index t (0 : Fin 2) = t.val ∧ win0_30.index t (1 : Fin 2) = 0 :=
  (by decide +kernel : ∀ t : Fin grid0.N, _)

/-- What point `t` writes back is block `t` of `G30`: element `(r, k)` of the block sits at row `512 t + r`, whose
    quotient by 512 is `t` and whose remainder is `r`. -/
theorem flushed30 (c : Dev nD) (t : Fin cfg0.N) :
    (GenP.dats m 0 c).flushed 30 t = ((cfg0.win 30).blk t).view.read (Elt F) (G30 m c) := by
  show (cfg0.win 30).cut (grid0.coords t) ((GenP.dats m 0 c).after 30 t) = _
  rw [GenP.after0_30]
  obtain ⟨e0, e1⟩ := idx30 t
  funext j
  have hj0 : (j 0).val < 512 := (j 0).isLt
  have hj1 : (j 1).val < 128 := (j 1).isLt
  have h0 : ((((cfg0.win 30).blk t).view.emb j) 0).val = t.val * 512 + (j 0).val := by
    show win0_30.index t (0 : Fin 2) * 512 + 1 * (j 0).val = _
    rw [e0]; omega
  have h1 : ((((cfg0.win 30).blk t).view.emb j) 1).val = (j 1).val := by
    show win0_30.index t (1 : Fin 2) * 128 + 1 * (j 1).val = _
    rw [e1]; omega
  rw [View.read_apply, cast_eq]
  refine Eq.trans ?_ (G30_at m c t (((cfg0.win 30).blk t).view.emb j) (by rw [h0]; omega)).symm
  refine congrArg (GenP.out0_30 (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (GenP.iblk m c 15 t) (GenP.iblk m c 16 t) (GenP.iblk m c 17 t) (GenP.iblk m c 18 t) (GenP.iblk m c 19 t) (GenP.iblk m c 20 t) (GenP.iblk m c 21 t) (GenP.iblk m c 22 t) (GenP.iblk m c 23 t) (GenP.iblk m c 24 t) (GenP.iblk m c 25 t)) ?_
  funext a
  apply Fin.ext
  match a with
  | ⟨0, _⟩ => show (j 0).val = ((((cfg0.win 30).blk t).view.emb j) 0).val % 512; rw [h0]; omega
  | ⟨1, _⟩ => show (j 1).val = ((((cfg0.win 30).blk t).view.emb j) 1).val; rw [h1]

/-- An index of the array is in point `t`'s block iff each coordinate is in the block's range on its axis. -/
theorem mem_blk30 (t : Fin cfg0.N) (i : S65536x128.Idx) :
    i ∈ ((cfg0.win 30).blk t).view.set ↔ ∀ a : Fin 2, win0_30.index t a * S512x128.size a ≤ (i a).val ∧ (i a).val < win0_30.index t a * S512x128.size a + S512x128.size a := by
  show i ∈ ((View.whole main_v50_4).slice (win0_30.rect t)).set ↔ _
  rw [View.set_slice_whole, Rect.mem_set_unit]
  exact Iff.rfl

/-- Every index is covered: row `R` lies in the block of point `R / 512`. -/
theorem cover30 (i : S65536x128.Idx) : ∃ t : Fin cfg0.N, (cfg0.win 30).flush t = true ∧ i ∈ ((cfg0.win 30).blk t).view.set := by
  have hi0 : (i 0).val < 65536 := (i 0).isLt
  have hi1 : (i 1).val < 128 := (i 1).isLt
  refine ⟨pt (i 0).val hi0, flush0_30 _, ?_⟩
  rw [mem_blk30]
  obtain ⟨e0, e1⟩ := idx30 (pt (i 0).val hi0)
  have ep : (pt (i 0).val hi0).val = (i 0).val / 512 := rfl
  intro a
  match a with
  | ⟨0, _⟩ => show win0_30.index (pt (i 0).val hi0) (0 : Fin 2) * 512 ≤ (i 0).val ∧ (i 0).val < win0_30.index (pt (i 0).val hi0) (0 : Fin 2) * 512 + 512; rw [e0, ep]; omega
  | ⟨1, _⟩ => show win0_30.index (pt (i 0).val hi0) (1 : Fin 2) * 128 ≤ (i 1).val ∧ (i 1).val < win0_30.index (pt (i 0).val hi0) (1 : Fin 2) * 128 + 128; rw [e1]; omega

/-- The array after the run is `G30`. -/
theorem final30 (c : Dev nD) : (GenP.dats m 0 c).arrAt 30 cfg0.N = G30 m c :=
  (GenP.dats m 0 c).arrAt_eq_of_cover 30 (G30 m c) (fun t _ => flushed30 m c t) cover30

/-! ## Result array 5 (output window 31) -/

/-- Result array 5 as one function of its index: row `R` is row `R % 512` of what the grid point `R / 512` stores. -/
def G31 (c : Dev nD) : S65536x164.Idx → Elt F .f32 := fun i =>
  GenP.out0_31 (GenP.iblk m c 0 (pt (i 0).val (i 0).isLt)) (GenP.iblk m c 1 (pt (i 0).val (i 0).isLt)) (GenP.iblk m c 2 (pt (i 0).val (i 0).isLt)) (GenP.iblk m c 3 (pt (i 0).val (i 0).isLt)) (GenP.iblk m c 4 (pt (i 0).val (i 0).isLt)) (GenP.iblk m c 5 (pt (i 0).val (i 0).isLt)) (GenP.iblk m c 6 (pt (i 0).val (i 0).isLt)) (GenP.iblk m c 7 (pt (i 0).val (i 0).isLt)) (GenP.iblk m c 8 (pt (i 0).val (i 0).isLt)) (GenP.iblk m c 9 (pt (i 0).val (i 0).isLt)) (GenP.iblk m c 10 (pt (i 0).val (i 0).isLt)) (GenP.iblk m c 11 (pt (i 0).val (i 0).isLt)) (GenP.iblk m c 12 (pt (i 0).val (i 0).isLt)) (GenP.iblk m c 13 (pt (i 0).val (i 0).isLt)) (GenP.iblk m c 14 (pt (i 0).val (i 0).isLt)) (GenP.iblk m c 15 (pt (i 0).val (i 0).isLt)) (GenP.iblk m c 16 (pt (i 0).val (i 0).isLt)) (GenP.iblk m c 17 (pt (i 0).val (i 0).isLt)) (GenP.iblk m c 18 (pt (i 0).val (i 0).isLt)) (GenP.iblk m c 19 (pt (i 0).val (i 0).isLt)) (GenP.iblk m c 20 (pt (i 0).val (i 0).isLt)) (GenP.iblk m c 21 (pt (i 0).val (i 0).isLt)) (GenP.iblk m c 22 (pt (i 0).val (i 0).isLt)) (GenP.iblk m c 23 (pt (i 0).val (i 0).isLt)) (GenP.iblk m c 24 (pt (i 0).val (i 0).isLt)) (GenP.iblk m c 25 (pt (i 0).val (i 0).isLt))
    (ix2 ⟨(i 0).val % 512, Nat.mod_lt _ (by decide)⟩ ⟨(i 1).val, (i 1).isLt⟩)

/-- At any point `t` with `R / 512 = t`, row `R` of `G31` is read off point `t`'s blocks. -/
theorem G31_at (c : Dev nD) (t : Fin cfg0.N) (i : S65536x164.Idx) (h : (i 0).val / 512 = t.val) :
    G31 m c i = GenP.out0_31 (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (GenP.iblk m c 15 t) (GenP.iblk m c 16 t) (GenP.iblk m c 17 t) (GenP.iblk m c 18 t) (GenP.iblk m c 19 t) (GenP.iblk m c 20 t) (GenP.iblk m c 21 t) (GenP.iblk m c 22 t) (GenP.iblk m c 23 t) (GenP.iblk m c 24 t) (GenP.iblk m c 25 t)
      (ix2 ⟨(i 0).val % 512, Nat.mod_lt _ (by decide)⟩ ⟨(i 1).val, (i 1).isLt⟩) := by
  obtain rfl : pt (i 0).val (i 0).isLt = t := Fin.ext h
  rfl

/-- The index map of output window 31, decided over the grid: point `t` writes row block `t`, column block 0. -/
theorem idx31 : ∀ t : Fin cfg0.N, win0_31.index t (0 : Fin 2) = t.val ∧ win0_31.index t (1 : Fin 2) = 0 :=
  (by decide +kernel : ∀ t : Fin grid0.N, _)

/-- What point `t` writes back is block `t` of `G31`: element `(r, k)` of the block sits at row `512 t + r`, whose
    quotient by 512 is `t` and whose remainder is `r`. -/
theorem flushed31 (c : Dev nD) (t : Fin cfg0.N) :
    (GenP.dats m 0 c).flushed 31 t = ((cfg0.win 31).blk t).view.read (Elt F) (G31 m c) := by
  show (cfg0.win 31).cut (grid0.coords t) ((GenP.dats m 0 c).after 31 t) = _
  rw [GenP.after0_31]
  obtain ⟨e0, e1⟩ := idx31 t
  funext j
  have hj0 : (j 0).val < 512 := (j 0).isLt
  have hj1 : (j 1).val < 164 := (j 1).isLt
  have h0 : ((((cfg0.win 31).blk t).view.emb j) 0).val = t.val * 512 + (j 0).val := by
    show win0_31.index t (0 : Fin 2) * 512 + 1 * (j 0).val = _
    rw [e0]; omega
  have h1 : ((((cfg0.win 31).blk t).view.emb j) 1).val = (j 1).val := by
    show win0_31.index t (1 : Fin 2) * 164 + 1 * (j 1).val = _
    rw [e1]; omega
  rw [View.read_apply, cast_eq]
  refine Eq.trans ?_ (G31_at m c t (((cfg0.win 31).blk t).view.emb j) (by rw [h0]; omega)).symm
  refine congrArg (GenP.out0_31 (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (GenP.iblk m c 15 t) (GenP.iblk m c 16 t) (GenP.iblk m c 17 t) (GenP.iblk m c 18 t) (GenP.iblk m c 19 t) (GenP.iblk m c 20 t) (GenP.iblk m c 21 t) (GenP.iblk m c 22 t) (GenP.iblk m c 23 t) (GenP.iblk m c 24 t) (GenP.iblk m c 25 t)) ?_
  funext a
  apply Fin.ext
  match a with
  | ⟨0, _⟩ => show (j 0).val = ((((cfg0.win 31).blk t).view.emb j) 0).val % 512; rw [h0]; omega
  | ⟨1, _⟩ => show (j 1).val = ((((cfg0.win 31).blk t).view.emb j) 1).val; rw [h1]

/-- An index of the array is in point `t`'s block iff each coordinate is in the block's range on its axis. -/
theorem mem_blk31 (t : Fin cfg0.N) (i : S65536x164.Idx) :
    i ∈ ((cfg0.win 31).blk t).view.set ↔ ∀ a : Fin 2, win0_31.index t a * S512x164.size a ≤ (i a).val ∧ (i a).val < win0_31.index t a * S512x164.size a + S512x164.size a := by
  show i ∈ ((View.whole main_v50_5).slice (win0_31.rect t)).set ↔ _
  rw [View.set_slice_whole, Rect.mem_set_unit]
  exact Iff.rfl

/-- Every index is covered: row `R` lies in the block of point `R / 512`. -/
theorem cover31 (i : S65536x164.Idx) : ∃ t : Fin cfg0.N, (cfg0.win 31).flush t = true ∧ i ∈ ((cfg0.win 31).blk t).view.set := by
  have hi0 : (i 0).val < 65536 := (i 0).isLt
  have hi1 : (i 1).val < 164 := (i 1).isLt
  refine ⟨pt (i 0).val hi0, flush0_31 _, ?_⟩
  rw [mem_blk31]
  obtain ⟨e0, e1⟩ := idx31 (pt (i 0).val hi0)
  have ep : (pt (i 0).val hi0).val = (i 0).val / 512 := rfl
  intro a
  match a with
  | ⟨0, _⟩ => show win0_31.index (pt (i 0).val hi0) (0 : Fin 2) * 512 ≤ (i 0).val ∧ (i 0).val < win0_31.index (pt (i 0).val hi0) (0 : Fin 2) * 512 + 512; rw [e0, ep]; omega
  | ⟨1, _⟩ => show win0_31.index (pt (i 0).val hi0) (1 : Fin 2) * 164 ≤ (i 1).val ∧ (i 1).val < win0_31.index (pt (i 0).val hi0) (1 : Fin 2) * 164 + 164; rw [e1]; omega

/-- The array after the run is `G31`. -/
theorem final31 (c : Dev nD) : (GenP.dats m 0 c).arrAt 31 cfg0.N = G31 m c :=
  (GenP.dats m 0 c).arrAt_eq_of_cover 31 (G31 m c) (fun t _ => flushed31 m c t) cover31

end Cert.KernelIdeal.KOut

end
-- ==== Proof.KOut.lean ====
/- The kernel's run, read at its seven result arrays. The six pipelined results end at the whole-array functions
   `G26 … G31` (row `R` is row `R % 512` of what grid point `R / 512` stores); the seventh result is computed by the
   one host operation after the pipeline, the slice of columns 216 … 255 of result array 0; the 26 arguments are
   unchanged. -/
import proofs.«180642_j50062138802934_2_alg».proof.Proof.FrameKernelIdealP
import proofs.«180642_j50062138802934_2_alg».proof.Proof.KOut1
import Idealize.ShloMosaic.Lib.Pipeline.Value
import Idealize.ShloMosaic.Lib.ValueIdx

noncomputable section

namespace Cert.KernelIdeal.KOut

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-- The seventh result is the one host operation after the pipeline: columns 216 … 255 of result array 0. -/
theorem tail51 (c : Dev nD) :
    Pipeline.afterTail₀ cfgs (GenP.dats m) 0 (GenP.V0 m) [hostOps1] c main_v51
      = extractStridedSlice S65536x40 ![0, 216] (G26 m c) slices_S65536x256_S65536x40_0_216 := by
  unfold Pipeline.afterTail₀
  show StableHlo.after hostOps1 _ (Proc.devRef .tc main_v51) = _
  after_results
  exact congrArg (fun x => extractStridedSlice S65536x40 ![0, 216] x slices_S65536x256_S65536x40_0_216)
    ((Pipeline.withArrays_arr spec0 launch0.win.arr_inj c (GenP.V0 m c) (fun w => (GenP.dats m 0 c).arrAt w (cfgs 0).N) 26).trans (final26 m c))

/-- After the frame run, the host tail's result array holds what the tail computes from the pipeline's arrays. -/
theorem post51 (r : PUnit × MemSt nD τ sig (Elt F)) (h : Pipeline.FramePost cfgs (GenP.dats m) 0 (Pipeline.afterTail₀ cfgs (GenP.dats m) 0 (GenP.V0 m) [hostOps1]) r) (c : Dev nD) :
    r.2.mem ((c.tc : Thread nD τ).loc main_v51) = Pipeline.afterTail₀ cfgs (GenP.dats m) 0 (GenP.V0 m) [hostOps1] c main_v51 :=
  (h c).2 main_v51 (Pipeline.mem_restRefs_of main_v51 (by decide) (by decide))

/-- After the frame run, result array 0 is what the write-backs of output window 26 leave. -/
theorem post26 (r : PUnit × MemSt nD τ sig (Elt F)) (h : Pipeline.FramePost cfgs (GenP.dats m) 0 (Pipeline.afterTail₀ cfgs (GenP.dats m) 0 (GenP.V0 m) [hostOps1]) r) (c : Dev nD) :
    r.2.mem ((c.tc : Thread nD τ).loc main_v50_0) = (GenP.dats m 0 c).arrAt 26 cfg0.N :=
  (h c).1 26

/-- After the frame run, result array 1 is what the write-backs of output window 27 leave. -/
theorem post27 (r : PUnit × MemSt nD τ sig (Elt F)) (h : Pipeline.FramePost cfgs (GenP.dats m) 0 (Pipeline.afterTail₀ cfgs (GenP.dats m) 0 (GenP.V0 m) [hostOps1]) r) (c : Dev nD) :
    r.2.mem ((c.tc : Thread nD τ).loc main_v50_1) = (GenP.dats m 0 c).arrAt 27 cfg0.N :=
  (h c).1 27

/-- After the frame run, result array 2 is what the write-backs of output window 28 leave. -/
theorem post28 (r : PUnit × MemSt nD τ sig (Elt F)) (h : Pipeline.FramePost cfgs (GenP.dats m) 0 (Pipeline.afterTail₀ cfgs (GenP.dats m) 0 (GenP.V0 m) [hostOps1]) r) (c : Dev nD) :
    r.2.mem ((c.tc : Thread nD τ).loc main_v50_2) = (GenP.dats m 0 c).arrAt 28 cfg0.N :=
  (h c).1 28

/-- After the frame run, result array 3 is what the write-backs of output window 29 leave. -/
theorem post29 (r : PUnit × MemSt nD τ sig (Elt F)) (h : Pipeline.FramePost cfgs (GenP.dats m) 0 (Pipeline.afterTail₀ cfgs (GenP.dats m) 0 (GenP.V0 m) [hostOps1]) r) (c : Dev nD) :
    r.2.mem ((c.tc : Thread nD τ).loc main_v50_3) = (GenP.dats m 0 c).arrAt 29 cfg0.N :=
  (h c).1 29

/-- After the frame run, result array 4 is what the write-backs of output window 30 leave. -/
theorem post30 (r : PUnit × MemSt nD τ sig (Elt F)) (h : Pipeline.FramePost cfgs (GenP.dats m) 0 (Pipeline.afterTail₀ cfgs (GenP.dats m) 0 (GenP.V0 m) [hostOps1]) r) (c : Dev nD) :
    r.2.mem ((c.tc : Thread nD τ).loc main_v50_4) = (GenP.dats m 0 c).arrAt 30 cfg0.N :=
  (h c).1 30

/-- After the frame run, result array 5 is what the write-backs of output window 31 leave. -/
theorem post31 (r : PUnit × MemSt nD τ sig (Elt F)) (h : Pipeline.FramePost cfgs (GenP.dats m) 0 (Pipeline.afterTail₀ cfgs (GenP.dats m) 0 (GenP.V0 m) [hostOps1]) r) (c : Dev nD) :
    r.2.mem ((c.tc : Thread nD τ).loc main_v50_5) = (GenP.dats m 0 c).arrAt 31 cfg0.N :=
  (h c).1 31

/-- After the frame run the 26 argument arrays are as launched: a staged input is never written back, and no host
    operation after the pipeline writes an argument. -/
theorem kept (r : PUnit × MemSt nD τ sig (Elt F)) (h : Pipeline.FramePost cfgs (GenP.dats m) 0 (Pipeline.afterTail₀ cfgs (GenP.dats m) 0 (GenP.V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  ⟨((h c).1 0).trans (((GenP.dats m 0 c).arrAt_in 0 rfl _).trans ((GenP.A_eq m c 0).trans (GenP.V_main_arg0 m c))),
   ((h c).1 3).trans (((GenP.dats m 0 c).arrAt_in 3 rfl _).trans ((GenP.A_eq m c 3).trans (GenP.V_main_arg1 m c))),
   ((h c).1 2).trans (((GenP.dats m 0 c).arrAt_in 2 rfl _).trans ((GenP.A_eq m c 2).trans (GenP.V_main_arg2 m c))),
   ((h c).2 main_arg3 (Pipeline.mem_restRefs_of main_arg3 (by decide) (by decide))).trans (GenP.W_main_arg3 m (GenP.dats m) c),
   ((h c).1 4).trans (((GenP.dats m 0 c).arrAt_in 4 rfl _).trans ((GenP.A_eq m c 4).trans (GenP.V_main_arg4 m c))),
   ((h c).1 5).trans (((GenP.dats m 0 c).arrAt_in 5 rfl _).trans ((GenP.A_eq m c 5).trans (GenP.V_main_arg5 m c))),
   ((h c).1 6).trans (((GenP.dats m 0 c).arrAt_in 6 rfl _).trans ((GenP.A_eq m c 6).trans (GenP.V_main_arg6 m c))),
   ((h c).1 7).trans (((GenP.dats m 0 c).arrAt_in 7 rfl _).trans ((GenP.A_eq m c 7).trans (GenP.V_main_arg7 m c))),
   ((h c).1 8).trans (((GenP.dats m 0 c).arrAt_in 8 rfl _).trans ((GenP.A_eq m c 8).trans (GenP.V_main_arg8 m c))),
   ((h c).2 main_arg9 (Pipeline.mem_restRefs_of main_arg9 (by decide) (by decide))).trans (GenP.W_main_arg9 m (GenP.dats m) c),
   ((h c).2 main_arg10 (Pipeline.mem_restRefs_of main_arg10 (by decide) (by decide))).trans (GenP.W_main_arg10 m (GenP.dats m) c),
   ((h c).2 main_arg11 (Pipeline.mem_restRefs_of main_arg11 (by decide) (by decide))).trans (GenP.W_main_arg11 m (GenP.dats m) c),
   ((h c).2 main_arg12 (Pipeline.mem_restRefs_of main_arg12 (by decide) (by decide))).trans (GenP.W_main_arg12 m (GenP.dats m) c),
   ((h c).2 main_arg13 (Pipeline.mem_restRefs_of main_arg13 (by decide) (by decide))).trans (GenP.W_main_arg13 m (GenP.dats m) c),
   ((h c).2 main_arg14 (Pipeline.mem_restRefs_of main_arg14 (by decide) (by decide))).trans (GenP.W_main_arg14 m (GenP.dats m) c),
   ((h c).2 main_arg15 (Pipeline.mem_restRefs_of main_arg15 (by decide) (by decide))).trans (GenP.W_main_arg15 m (GenP.dats m) c),
   ((h c).2 main_arg16 (Pipeline.mem_restRefs_of main_arg16 (by decide) (by decide))).trans (GenP.W_main_arg16 m (GenP.dats m) c),
   ((h c).2 main_arg17 (Pipeline.mem_restRefs_of main_arg17 (by decide) (by decide))).trans (GenP.W_main_arg17 m (GenP.dats m) c),
   ((h c).2 main_arg18 (Pipeline.mem_restRefs_of main_arg18 (by decide) (by decide))).trans (GenP.W_main_arg18 m (GenP.dats m) c),
   ((h c).2 main_arg19 (Pipeline.mem_restRefs_of main_arg19 (by decide) (by decide))).trans (GenP.W_main_arg19 m (GenP.dats m) c),
   ((h c).2 main_arg20 (Pipeline.mem_restRefs_of main_arg20 (by decide) (by decide))).trans (GenP.W_main_arg20 m (GenP.dats m) c),
   ((h c).2 main_arg21 (Pipeline.mem_restRefs_of main_arg21 (by decide) (by decide))).trans (GenP.W_main_arg21 m (GenP.dats m) c),
   ((h c).2 main_arg22 (Pipeline.mem_restRefs_of main_arg22 (by decide) (by decide))).trans (GenP.W_main_arg22 m (GenP.dats m) c),
   ((h c).2 main_arg23 (Pipeline.mem_restRefs_of main_arg23 (by decide) (by decide))).trans (GenP.W_main_arg23 m (GenP.dats m) c),
   ((h c).2 main_arg24 (Pipeline.mem_restRefs_of main_arg24 (by decide) (by decide))).trans (GenP.W_main_arg24 m (GenP.dats m) c),
   ((h c).2 main_arg25 (Pipeline.mem_restRefs_of main_arg25 (by decide) (by decide))).trans (GenP.W_main_arg25 m (GenP.dats m) c)⟩

/-- THE RUN, READ: every weakly fair execution of the program terminates with the seven result arrays at their
    whole-array functions and the arguments as launched. -/
theorem run : θ_run defs (onTc (τ := τ) (main (F := F))) ⟨m, fun _ => 0, ρ⟩ (fun r => ∀ c : Dev nD,
      r.2.mem ((c.tc : Thread nD τ).loc main_v51) = extractStridedSlice S65536x40 ![0, 216] (G26 m c) slices_S65536x256_S65536x40_0_216
      ∧ r.2.mem ((c.tc : Thread nD τ).loc main_v50_0) = G26 m c
      ∧ r.2.mem ((c.tc : Thread nD τ).loc main_v50_1) = G27 m c
      ∧ r.2.mem ((c.tc : Thread nD τ).loc main_v50_2) = G28 m c
      ∧ r.2.mem ((c.tc : Thread nD τ).loc main_v50_3) = G29 m c
      ∧ r.2.mem ((c.tc : Thread nD τ).loc main_v50_4) = G30 m c
      ∧ r.2.mem ((c.tc : Thread nD τ).loc main_v50_5) = G31 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c =>
    ⟨(post51 m r h c).trans (tail51 m c),
     (post26 m r h c).trans (final26 m c),
     (post27 m r h c).trans (final27 m c),
     (post28 m r h c).trans (final28 m c),
     (post29 m r h c).trans (final29 m c),
     (post30 m r h c).trans (final30 m c),
     (post31 m r h c).trans (final31 m c),
     kept m r h c⟩)
    (GenP.run_main m ρ)

end Cert.KernelIdeal.KOut

end
-- ==== Proof.KIn1.lean ====
/- The kernel's row-block input windows (0, 2–7) and the whole-array window 8: what each window's block at a grid point holds, in terms of @main's argument arrays as launched. A block's coordinate in its array is block index × block size + the coordinate inside the block; the block indices are the printed index maps, decided over the 128 grid points. -/
import proofs.«180642_j50062138802934_2_alg».proof.Proof.FrameKernelIdealP
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.KIn

open Cert.KernelIdeal Cert.KernelIdeal.Gen Cert.KernelIdeal.GenP

variable (m : (ℓ : Loc nD τ sig) → Buf (Elt Ideal) ℓ)

/-- Row `r` of the block at grid point `t` is row `512 t + r` of the `65536`-row array: the grid has `128` points. -/
theorem row_lt (t : Fin cfg0.N) (r : Fin 512) : 512 * t.val + r.val < 65536 := by
  have h1 := t.isLt
  have hN : cfg0.N = 128 := N_0
  omega

/-- Window 0's printed index map, decided over the grid: the block at point `t` is block `(t, 0)`. -/
theorem idx_0 : ∀ t : Fin cfg0.N, win0_0.index t (0 : Fin 2) = t.val ∧ win0_0.index t (1 : Fin 2) = 0 :=
  (by decide +kernel : ∀ t : Fin grid0.N, _)

/-- Window 0's block at point `t` is rows `512 t … 512 t + 511` of argument `main_arg0` as launched. -/
theorem blk_0 (c : Dev nD) (t : Fin cfg0.N) (r : Fin 512) (k : Fin 80) :
    (GenP.iblk m c 0 t : Vec Ideal S512x80 .f32) (ix2 r k)
      = (m ((c : Thread nD τ).loc main_arg0) : S65536x80.Idx → Elt Ideal .f32) (ix2 ⟨512 * t.val + r.val, row_lt t r⟩ k) := by
  obtain ⟨e0, e1⟩ := idx_0 t
  unfold GenP.iblk
  rw [View.read_apply]
  show GenP.V m c main_arg0 _ = _
  rw [GenP.V_main_arg0]
  refine congrArg _ ?_
  funext a
  apply Fin.ext
  match a with
  | ⟨0, _⟩ => show win0_0.index t (0 : Fin 2) * 512 + 1 * r.val = 512 * t.val + r.val; omega
  | ⟨1, _⟩ => show win0_0.index t (1 : Fin 2) * 80 + 1 * k.val = k.val; omega

/-- Window 2's printed index map, decided over the grid: the block at point `t` is block `(t, 0)`. -/
theorem idx_2 : ∀ t : Fin cfg0.N, win0_2.index t (0 : Fin 2) = t.val ∧ win0_2.index t (1 : Fin 2) = 0 :=
  (by decide +kernel : ∀ t : Fin grid0.N, _)

/-- Window 2's block at point `t` is rows `512 t … 512 t + 511` of argument `main_arg2` as launched. -/
theorem blk_2 (c : Dev nD) (t : Fin cfg0.N) (r : Fin 512) (k : Fin 256) :
    (GenP.iblk m c 2 t : Vec Ideal S512x256 .f32) (ix2 r k)
      = (m ((c : Thread nD τ).loc main_arg2) : S65536x256.Idx → Elt Ideal .f32) (ix2 ⟨512 * t.val + r.val, row_lt t r⟩ k) := by
  obtain ⟨e0, e1⟩ := idx_2 t
  unfold GenP.iblk
  rw [View.read_apply]
  show GenP.V m c main_arg2 _ = _
  rw [GenP.V_main_arg2]
  refine congrArg _ ?_
  funext a
  apply Fin.ext
  match a with
  | ⟨0, _⟩ => show win0_2.index t (0 : Fin 2) * 512 + 1 * r.val = 512 * t.val + r.val; omega
  | ⟨1, _⟩ => show win0_2.index t (1 : Fin 2) * 256 + 1 * k.val = k.val; omega

/-- Window 3's printed index map, decided over the grid: the block at point `t` is block `(t, 0)`. -/
theorem idx_3 : ∀ t : Fin cfg0.N, win0_3.index t (0 : Fin 2) = t.val ∧ win0_3.index t (1 : Fin 2) = 0 :=
  (by decide +kernel : ∀ t : Fin grid0.N, _)

/-- Window 3's block at point `t` is rows `512 t … 512 t + 511` of argument `main_arg1` as launched. -/
theorem blk_3 (c : Dev nD) (t : Fin cfg0.N) (r : Fin 512) (k : Fin 256) :
    (GenP.iblk m c 3 t : Vec Ideal S512x256 .f32) (ix2 r k)
      = (m ((c : Thread nD τ).loc main_arg1) : S65536x256.Idx → Elt Ideal .f32) (ix2 ⟨512 * t.val + r.val, row_lt t r⟩ k) := by
  obtain ⟨e0, e1⟩ := idx_3 t
  unfold GenP.iblk
  rw [View.read_apply]
  show GenP.V m c main_arg1 _ = _
  rw [GenP.V_main_arg1]
  refine congrArg _ ?_
  funext a
  apply Fin.ext
  match a with
  | ⟨0, _⟩ => show win0_3.index t (0 : Fin 2) * 512 + 1 * r.val = 512 * t.val + r.val; omega
  | ⟨1, _⟩ => show win0_3.index t (1 : Fin 2) * 256 + 1 * k.val = k.val; omega

/-- Window 4's printed index map, decided over the grid: the block at point `t` is block `(t, 0)`. -/
theorem idx_4 : ∀ t : Fin cfg0.N, win0_4.index t (0 : Fin 2) = t.val ∧ win0_4.index t (1 : Fin 2) = 0 :=
  (by decide +kernel : ∀ t : Fin grid0.N, _)

/-- Window 4's block at point `t` is rows `512 t … 512 t + 511` of argument `main_arg4` as launched. -/
theorem blk_4 (c : Dev nD) (t : Fin cfg0.N) (r : Fin 512) (k : Fin 160) :
    (GenP.iblk m c 4 t : Vec Ideal S512x160 .f32) (ix2 r k)
      = (m ((c : Thread nD τ).loc main_arg4) : S65536x160.Idx → Elt Ideal .f32) (ix2 ⟨512 * t.val + r.val, row_lt t r⟩ k) := by
  obtain ⟨e0, e1⟩ := idx_4 t
  unfold GenP.iblk
  rw [View.read_apply]
  show GenP.V m c main_arg4 _ = _
  rw [GenP.V_main_arg4]
  refine congrArg _ ?_
  funext a
  apply Fin.ext
  match a with
  | ⟨0, _⟩ => show win0_4.index t (0 : Fin 2) * 512 + 1 * r.val = 512 * t.val + r.val; omega
  | ⟨1, _⟩ => show win0_4.index t (1 : Fin 2) * 160 + 1 * k.val = k.val; omega

/-- Window 5's printed index map, decided over the grid: the block at point `t` is block `(t, 0)`. -/
theorem idx_5 : ∀ t : Fin cfg0.N, win0_5.index t (0 : Fin 2) = t.val ∧ win0_5.index t (1 : Fin 2) = 0 :=
  (by decide +kernel : ∀ t : Fin grid0.N, _)

/-- Window 5's block at point `t` is rows `512 t … 512 t + 511` of argument `main_arg5` as launched. -/
theorem blk_5 (c : Dev nD) (t : Fin cfg0.N) (r : Fin 512) (k : Fin 128) :
    (GenP.iblk m c 5 t : Vec Ideal S512x128 .f32) (ix2 r k)
      = (m ((c : Thread nD τ).loc main_arg5) : S65536x128.Idx → Elt Ideal .f32) (ix2 ⟨512 * t.val + r.val, row_lt t r⟩ k) := by
  obtain ⟨e0, e1⟩ := idx_5 t
  unfold GenP.iblk
  rw [View.read_apply]
  show GenP.V m c main_arg5 _ = _
  rw [GenP.V_main_arg5]
  refine congrArg _ ?_
  funext a
  apply Fin.ext
  match a with
  | ⟨0, _⟩ => show win0_5.index t (0 : Fin 2) * 512 + 1 * r.val = 512 * t.val + r.val; omega
  | ⟨1, _⟩ => show win0_5.index t (1 : Fin 2) * 128 + 1 * k.val = k.val; omega

/-- Window 6's printed index map, decided over the grid: the block at point `t` is block `(t, 0)`. -/
theorem idx_6 : ∀ t : Fin cfg0.N, win0_6.index t (0 : Fin 2) = t.val ∧ win0_6.index t (1 : Fin 2) = 0 :=
  (by decide +kernel : ∀ t : Fin grid0.N, _)

/-- Window 6's block at point `t` is rows `512 t … 512 t + 511` of argument `main_arg6` as launched. -/
theorem blk_6 (c : Dev nD) (t : Fin cfg0.N) (r : Fin 512) (k : Fin 128) :
    (GenP.iblk m c 6 t : Vec Ideal S512x128 .f32) (ix2 r k)
      = (m ((c : Thread nD τ).loc main_arg6) : S65536x128.Idx → Elt Ideal .f32) (ix2 ⟨512 * t.val + r.val, row_lt t r⟩ k) := by
  obtain ⟨e0, e1⟩ := idx_6 t
  unfold GenP.iblk
  rw [View.read_apply]
  show GenP.V m c main_arg6 _ = _
  rw [GenP.V_main_arg6]
  refine congrArg _ ?_
  funext a
  apply Fin.ext
  match a with
  | ⟨0, _⟩ => show win0_6.index t (0 : Fin 2) * 512 + 1 * r.val = 512 * t.val + r.val; omega
  | ⟨1, _⟩ => show win0_6.index t (1 : Fin 2) * 128 + 1 * k.val = k.val; omega

/-- Window 7's printed index map, decided over the grid: the block at point `t` is block `(t, 0)`. -/
theorem idx_7 : ∀ t : Fin cfg0.N, win0_7.index t (0 : Fin 2) = t.val ∧ win0_7.index t (1 : Fin 2) = 0 :=
  (by decide +kernel : ∀ t : Fin grid0.N, _)

/-- Window 7's block at point `t` is rows `512 t … 512 t + 511` of argument `main_arg7` as launched. -/
theorem blk_7 (c : Dev nD) (t : Fin cfg0.N) (r : Fin 512) (k : Fin 164) :
    (GenP.iblk m c 7 t : Vec Ideal S512x164 .f32) (ix2 r k)
      = (m ((c : Thread nD τ).loc main_arg7) : S65536x164.Idx → Elt Ideal .f32) (ix2 ⟨512 * t.val + r.val, row_lt t r⟩ k) := by
  obtain ⟨e0, e1⟩ := idx_7 t
  unfold GenP.iblk
  rw [View.read_apply]
  show GenP.V m c main_arg7 _ = _
  rw [GenP.V_main_arg7]
  refine congrArg _ ?_
  funext a
  apply Fin.ext
  match a with
  | ⟨0, _⟩ => show win0_7.index t (0 : Fin 2) * 512 + 1 * r.val = 512 * t.val + r.val; omega
  | ⟨1, _⟩ => show win0_7.index t (1 : Fin 2) * 164 + 1 * k.val = k.val; omega

/-- Window 8's printed index map, decided over the grid: the block at every point is block `(0, 0)`, the whole array. -/
theorem idx_8 : ∀ t : Fin cfg0.N, win0_8.index t (0 : Fin 2) = 0 ∧ win0_8.index t (1 : Fin 2) = 0 :=
  (by decide +kernel : ∀ t : Fin grid0.N, _)

/-- Window 8's block (the whole `[1, 80]` array) is argument `main_arg8` as launched. -/
theorem blk_8 (c : Dev nD) (t : Fin cfg0.N) (k : Fin 80) :
    (GenP.iblk m c 8 t : Vec Ideal S1x80 .f32) (ix2 0 k)
      = (m ((c : Thread nD τ).loc main_arg8) : S1x80.Idx → Elt Ideal .f32) (ix2 0 k) := by
  obtain ⟨e0, e1⟩ := idx_8 t
  unfold GenP.iblk
  rw [View.read_apply]
  show GenP.V m c main_arg8 _ = _
  rw [GenP.V_main_arg8]
  refine congrArg _ ?_
  funext a
  apply Fin.ext
  match a with
  | ⟨0, _⟩ => show win0_8.index t (0 : Fin 2) * 1 + 1 * 0 = 0; omega
  | ⟨1, _⟩ => show win0_8.index t (1 : Fin 2) * 80 + 1 * k.val = k.val; omega

end Cert.KernelIdeal.KIn

end
-- ==== Proof.KIn2.lean ====
/- The kernel's whole-array input windows 9–25: each stages a host-computed array (a weight transposed and re-typed, or a vector reshaped to one row), read here at an index in terms of @main's argument arrays as launched. Over the extended reals a change of float format is the identity. -/
import proofs.«180642_j50062138802934_2_alg».proof.Proof.FrameKernelIdealP
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.KIn

open Cert.KernelIdeal Cert.KernelIdeal.Gen Cert.KernelIdeal.GenP

variable (m : (ℓ : Loc nD τ sig) → Buf (Elt Ideal) ℓ)

/-- Window 10's printed index map, decided over the grid: the block at every point is block `(0, 0)`, the whole array. -/
theorem idx_10 : ∀ t : Fin cfg0.N, win0_10.index t (0 : Fin 2) = 0 ∧ win0_10.index t (1 : Fin 2) = 0 :=
  (by decide +kernel : ∀ t : Fin grid0.N, _)

/-- The array window 10 stages, as the region finds it: argument `main_arg10` (`[192, 328]`) transposed, then re-typed. -/
theorem V_main_v19 (c : Dev nD) :
    @Eq (FVec Ideal S328x192 .bf16) (GenP.V m c main_v19)
      (truncf .bf16 (transpose S328x192 [1, 0] (m ((c : Thread nD τ).loc main_arg10) : FVec Ideal S192x328 .f32) transposes_S192x328_S328x192_1_0) bitsLt_bf16_f32) := by
  dsimp only [GenP.V, GenP.V0]
  simp only [Gen.hostOps0, Gen.hostOps0_1, Gen.hostOps0_2, List.flatten_cons, List.flatten_nil, List.append_nil, List.cons_append, List.nil_append]
  after_results

/-- Window 10's block (the whole `[328, 192]` array) at `(k, j)` is argument `main_arg10` at `(j, k)`: over the extended reals the
    change of float format is the identity. -/
theorem blk_10 (c : Dev nD) (t : Fin cfg0.N) (k : Fin 328) (j : Fin 192) :
    (GenP.iblk m c 10 t : Vec Ideal S328x192 .bf16) (ix2 k j)
      = (m ((c : Thread nD τ).loc main_arg10) : S192x328.Idx → Elt Ideal .f32) (ix2 j k) := by
  obtain ⟨e0, e1⟩ := idx_10 t
  unfold GenP.iblk
  rw [View.read_apply]
  show GenP.V m c main_v19 _ = _
  rw [V_main_v19]
  rw [ValueIdx.truncf_apply]
  refine Eq.trans (congrArg _ ?_) (ValueIdx.transpose_ix2_apply _ transposes_S192x328_S328x192_1_0 k j)
  funext a
  apply Fin.ext
  match a with
  | ⟨0, _⟩ => show win0_10.index t (0 : Fin 2) * 328 + 1 * k.val = k.val; omega
  | ⟨1, _⟩ => show win0_10.index t (1 : Fin 2) * 192 + 1 * j.val = j.val; omega

/-- Window 11's printed index map, decided over the grid: the block at every point is block `(0, 0)`, the whole array. -/
theorem idx_11 : ∀ t : Fin cfg0.N, win0_11.index t (0 : Fin 2) = 0 ∧ win0_11.index t (1 : Fin 2) = 0 :=
  (by decide +kernel : ∀ t : Fin grid0.N, _)

/-- The array window 11 stages, as the region finds it: argument `main_arg11` (`[192, 192]`) transposed, then re-typed. -/
theorem V_main_v21 (c : Dev nD) :
    @Eq (FVec Ideal S192x192 .bf16) (GenP.V m c main_v21)
      (truncf .bf16 (transpose S192x192 [1, 0] (m ((c : Thread nD τ).loc main_arg11) : FVec Ideal S192x192 .f32) transposes_S192x192_S192x192_1_0) bitsLt_bf16_f32) := by
  dsimp only [GenP.V, GenP.V0]
  simp only [Gen.hostOps0, Gen.hostOps0_1, Gen.hostOps0_2, List.flatten_cons, List.flatten_nil, List.append_nil, List.cons_append, List.nil_append]
  after_results

/-- Window 11's block (the whole `[192, 192]` array) at `(k, j)` is argument `main_arg11` at `(j, k)`: over the extended reals the
    change of float format is the identity. -/
theorem blk_11 (c : Dev nD) (t : Fin cfg0.N) (k : Fin 192) (j : Fin 192) :
    (GenP.iblk m c 11 t : Vec Ideal S192x192 .bf16) (ix2 k j)
      = (m ((c : Thread nD τ).loc main_arg11) : S192x192.Idx → Elt Ideal .f32) (ix2 j k) := by
  obtain ⟨e0, e1⟩ := idx_11 t
  unfold GenP.iblk
  rw [View.read_apply]
  show GenP.V m c main_v21 _ = _
  rw [V_main_v21]
  rw [ValueIdx.truncf_apply]
  refine Eq.trans (congrArg _ ?_) (ValueIdx.transpose_ix2_apply _ transposes_S192x192_S192x192_1_0 k j)
  funext a
  apply Fin.ext
  match a with
  | ⟨0, _⟩ => show win0_11.index t (0 : Fin 2) * 192 + 1 * k.val = k.val; omega
  | ⟨1, _⟩ => show win0_11.index t (1 : Fin 2) * 192 + 1 * j.val = j.val; omega

/-- Window 12's printed index map, decided over the grid: the block at every point is block `(0, 0)`, the whole array. -/
theorem idx_12 : ∀ t : Fin cfg0.N, win0_12.index t (0 : Fin 2) = 0 ∧ win0_12.index t (1 : Fin 2) = 0 :=
  (by decide +kernel : ∀ t : Fin grid0.N, _)

/-- The array window 12 stages, as the region finds it: argument `main_arg12` (`[480, 272]`) transposed, then re-typed. -/
theorem V_main_v23 (c : Dev nD) :
    @Eq (FVec Ideal S272x480 .bf16) (GenP.V m c main_v23)
      (truncf .bf16 (transpose S272x480 [1, 0] (m ((c : Thread nD τ).loc main_arg12) : FVec Ideal S480x272 .f32) transposes_S480x272_S272x480_1_0) bitsLt_bf16_f32) := by
  dsimp only [GenP.V, GenP.V0]
  simp only [Gen.hostOps0, Gen.hostOps0_1, Gen.hostOps0_2, List.flatten_cons, List.flatten_nil, List.append_nil, List.cons_append, List.nil_append]
  after_results

/-- Window 12's block (the whole `[272, 480]` array) at `(k, j)` is argument `main_arg12` at `(j, k)`: over the extended reals the
    change of float format is the identity. -/
theorem blk_12 (c : Dev nD) (t : Fin cfg0.N) (k : Fin 272) (j : Fin 480) :
    (GenP.iblk m c 12 t : Vec Ideal S272x480 .bf16) (ix2 k j)
      = (m ((c : Thread nD τ).loc main_arg12) : S480x272.Idx → Elt Ideal .f32) (ix2 j k) := by
  obtain ⟨e0, e1⟩ := idx_12 t
  unfold GenP.iblk
  rw [View.read_apply]
  show GenP.V m c main_v23 _ = _
  rw [V_main_v23]
  rw [ValueIdx.truncf_apply]
  refine Eq.trans (congrArg _ ?_) (ValueIdx.transpose_ix2_apply _ transposes_S480x272_S272x480_1_0 k j)
  funext a
  apply Fin.ext
  match a with
  | ⟨0, _⟩ => show win0_12.index t (0 : Fin 2) * 272 + 1 * k.val = k.val; omega
  | ⟨1, _⟩ => show win0_12.index t (1 : Fin 2) * 480 + 1 * j.val = j.val; omega

/-- Window 13's printed index map, decided over the grid: the block at every point is block `(0, 0)`, the whole array. -/
theorem idx_13 : ∀ t : Fin cfg0.N, win0_13.index t (0 : Fin 2) = 0 ∧ win0_13.index t (1 : Fin 2) = 0 :=
  (by decide +kernel : ∀ t : Fin grid0.N, _)

/-- The array window 13 stages, as the region finds it: argument `main_arg13` (`[480, 160]`) transposed, then re-typed. -/
theorem V_main_v25 (c : Dev nD) :
    @Eq (FVec Ideal S160x480 .bf16) (GenP.V m c main_v25)
      (truncf .bf16 (transpose S160x480 [1, 0] (m ((c : Thread nD τ).loc main_arg13) : FVec Ideal S480x160 .f32) transposes_S480x160_S160x480_1_0) bitsLt_bf16_f32) := by
  dsimp only [GenP.V, GenP.V0]
  simp only [Gen.hostOps0, Gen.hostOps0_1, Gen.hostOps0_2, List.flatten_cons, List.flatten_nil, List.append_nil, List.cons_append, List.nil_append]
  after_results

/-- Window 13's block (the whole `[160, 480]` array) at `(k, j)` is argument `main_arg13` at `(j, k)`: over the extended reals the
    change of float format is the identity. -/
theorem blk_13 (c : Dev nD) (t : Fin cfg0.N) (k : Fin 160) (j : Fin 480) :
    (GenP.iblk m c 13 t : Vec Ideal S160x480 .bf16) (ix2 k j)
      = (m ((c : Thread nD τ).loc main_arg13) : S480x160.Idx → Elt Ideal .f32) (ix2 j k) := by
  obtain ⟨e0, e1⟩ := idx_13 t
  unfold GenP.iblk
  rw [View.read_apply]
  show GenP.V m c main_v25 _ = _
  rw [V_main_v25]
  rw [ValueIdx.truncf_apply]
  refine Eq.trans (congrArg _ ?_) (ValueIdx.transpose_ix2_apply _ transposes_S480x160_S160x480_1_0 k j)
  funext a
  apply Fin.ext
  match a with
  | ⟨0, _⟩ => show win0_13.index t (0 : Fin 2) * 160 + 1 * k.val = k.val; omega
  | ⟨1, _⟩ => show win0_13.index t (1 : Fin 2) * 480 + 1 * j.val = j.val; omega

/-- Window 14's printed index map, decided over the grid: the block at every point is block `(0, 0)`, the whole array. -/
theorem idx_14 : ∀ t : Fin cfg0.N, win0_14.index t (0 : Fin 2) = 0 ∧ win0_14.index t (1 : Fin 2) = 0 :=
  (by decide +kernel : ∀ t : Fin grid0.N, _)

/-- The array window 14 stages, as the region finds it: argument `main_arg14` (`[384, 240]`) transposed, then re-typed. -/
theorem V_main_v27 (c : Dev nD) :
    @Eq (FVec Ideal S240x384 .bf16) (GenP.V m c main_v27)
      (truncf .bf16 (transpose S240x384 [1, 0] (m ((c : Thread nD τ).loc main_arg14) : FVec Ideal S384x240 .f32) transposes_S384x240_S240x384_1_0) bitsLt_bf16_f32) := by
  dsimp only [GenP.V, GenP.V0]
  simp only [Gen.hostOps0, Gen.hostOps0_1, Gen.hostOps0_2, List.flatten_cons, List.flatten_nil, List.append_nil, List.cons_append, List.nil_append]
  after_results

/-- Window 14's block (the whole `[240, 384]` array) at `(k, j)` is argument `main_arg14` at `(j, k)`: over the extended reals the
    change of float format is the identity. -/
theorem blk_14 (c : Dev nD) (t : Fin cfg0.N) (k : Fin 240) (j : Fin 384) :
    (GenP.iblk m c 14 t : Vec Ideal S240x384 .bf16) (ix2 k j)
      = (m ((c : Thread nD τ).loc main_arg14) : S384x240.Idx → Elt Ideal .f32) (ix2 j k) := by
  obtain ⟨e0, e1⟩ := idx_14 t
  unfold GenP.iblk
  rw [View.read_apply]
  show GenP.V m c main_v27 _ = _
  rw [V_main_v27]
  rw [ValueIdx.truncf_apply]
  refine Eq.trans (congrArg _ ?_) (ValueIdx.transpose_ix2_apply _ transposes_S384x240_S240x384_1_0 k j)
  funext a
  apply Fin.ext
  match a with
  | ⟨0, _⟩ => show win0_14.index t (0 : Fin 2) * 240 + 1 * k.val = k.val; omega
  | ⟨1, _⟩ => show win0_14.index t (1 : Fin 2) * 384 + 1 * j.val = j.val; omega

/-- Window 15's printed index map, decided over the grid: the block at every point is block `(0, 0)`, the whole array. -/
theorem idx_15 : ∀ t : Fin cfg0.N, win0_15.index t (0 : Fin 2) = 0 ∧ win0_15.index t (1 : Fin 2) = 0 :=
  (by decide +kernel : ∀ t : Fin grid0.N, _)

/-- The array window 15 stages, as the region finds it: argument `main_arg15` (`[384, 128]`) transposed, then re-typed. -/
theorem V_main_v29 (c : Dev nD) :
    @Eq (FVec Ideal S128x384 .bf16) (GenP.V m c main_v29)
      (truncf .bf16 (transpose S128x384 [1, 0] (m ((c : Thread nD τ).loc main_arg15) : FVec Ideal S384x128 .f32) transposes_S384x128_S128x384_1_0) bitsLt_bf16_f32) := by
  dsimp only [GenP.V, GenP.V0]
  simp only [Gen.hostOps0, Gen.hostOps0_1, Gen.hostOps0_2, List.flatten_cons, List.flatten_nil, List.append_nil, List.cons_append, List.nil_append]
  after_results

/-- Window 15's block (the whole `[128, 384]` array) at `(k, j)` is argument `main_arg15` at `(j, k)`: over the extended reals the
    change of float format is the identity. -/
theorem blk_15 (c : Dev nD) (t : Fin cfg0.N) (k : Fin 128) (j : Fin 384) :
    (GenP.iblk m c 15 t : Vec Ideal S128x384 .bf16) (ix2 k j)
      = (m ((c : Thread nD τ).loc main_arg15) : S384x128.Idx → Elt Ideal .f32) (ix2 j k) := by
  obtain ⟨e0, e1⟩ := idx_15 t
  unfold GenP.iblk
  rw [View.read_apply]
  show GenP.V m c main_v29 _ = _
  rw [V_main_v29]
  rw [ValueIdx.truncf_apply]
  refine Eq.trans (congrArg _ ?_) (ValueIdx.transpose_ix2_apply _ transposes_S384x128_S128x384_1_0 k j)
  funext a
  apply Fin.ext
  match a with
  | ⟨0, _⟩ => show win0_15.index t (0 : Fin 2) * 128 + 1 * k.val = k.val; omega
  | ⟨1, _⟩ => show win0_15.index t (1 : Fin 2) * 384 + 1 * j.val = j.val; omega

/-- Window 16's printed index map, decided over the grid: the block at every point is block `(0, 0)`, the whole array. -/
theorem idx_16 : ∀ t : Fin cfg0.N, win0_16.index t (0 : Fin 2) = 0 ∧ win0_16.index t (1 : Fin 2) = 0 :=
  (by decide +kernel : ∀ t : Fin grid0.N, _)

/-- The array window 16 stages, as the region finds it: argument `main_arg16` (`[384, 208]`) transposed, then re-typed. -/
theorem V_main_v31 (c : Dev nD) :
    @Eq (FVec Ideal S208x384 .bf16) (GenP.V m c main_v31)
      (truncf .bf16 (transpose S208x384 [1, 0] (m ((c : Thread nD τ).loc main_arg16) : FVec Ideal S384x208 .f32) transposes_S384x208_S208x384_1_0) bitsLt_bf16_f32) := by
  dsimp only [GenP.V, GenP.V0]
  simp only [Gen.hostOps0, Gen.hostOps0_1, Gen.hostOps0_2, List.flatten_cons, List.flatten_nil, List.append_nil, List.cons_append, List.nil_append]
  after_results

/-- Window 16's block (the whole `[208, 384]` array) at `(k, j)` is argument `main_arg16` at `(j, k)`: over the extended reals the
    change of float format is the identity. -/
theorem blk_16 (c : Dev nD) (t : Fin cfg0.N) (k : Fin 208) (j : Fin 384) :
    (GenP.iblk m c 16 t : Vec Ideal S208x384 .bf16) (ix2 k j)
      = (m ((c : Thread nD τ).loc main_arg16) : S384x208.Idx → Elt Ideal .f32) (ix2 j k) := by
  obtain ⟨e0, e1⟩ := idx_16 t
  unfold GenP.iblk
  rw [View.read_apply]
  show GenP.V m c main_v31 _ = _
  rw [V_main_v31]
  rw [ValueIdx.truncf_apply]
  refine Eq.trans (congrArg _ ?_) (ValueIdx.transpose_ix2_apply _ transposes_S384x208_S208x384_1_0 k j)
  funext a
  apply Fin.ext
  match a with
  | ⟨0, _⟩ => show win0_16.index t (0 : Fin 2) * 208 + 1 * k.val = k.val; omega
  | ⟨1, _⟩ => show win0_16.index t (1 : Fin 2) * 384 + 1 * j.val = j.val; omega

/-- Window 17's printed index map, decided over the grid: the block at every point is block `(0, 0)`, the whole array. -/
theorem idx_17 : ∀ t : Fin cfg0.N, win0_17.index t (0 : Fin 2) = 0 ∧ win0_17.index t (1 : Fin 2) = 0 :=
  (by decide +kernel : ∀ t : Fin grid0.N, _)

/-- The array window 17 stages, as the region finds it: argument `main_arg17` (`[384, 128]`) transposed, then re-typed. -/
theorem V_main_v33 (c : Dev nD) :
    @Eq (FVec Ideal S128x384 .bf16) (GenP.V m c main_v33)
      (truncf .bf16 (transpose S128x384 [1, 0] (m ((c : Thread nD τ).loc main_arg17) : FVec Ideal S384x128 .f32) transposes_S384x128_S128x384_1_0) bitsLt_bf16_f32) := by
  dsimp only [GenP.V, GenP.V0]
  simp only [Gen.hostOps0, Gen.hostOps0_1, Gen.hostOps0_2, List.flatten_cons, List.flatten_nil, List.append_nil, List.cons_append, List.nil_append]
  after_results

/-- Window 17's block (the whole `[128, 384]` array) at `(k, j)` is argument `main_arg17` at `(j, k)`: over the extended reals the
    change of float format is the identity. -/
theorem blk_17 (c : Dev nD) (t : Fin cfg0.N) (k : Fin 128) (j : Fin 384) :
    (GenP.iblk m c 17 t : Vec Ideal S128x384 .bf16) (ix2 k j)
      = (m ((c : Thread nD τ).loc main_arg17) : S384x128.Idx → Elt Ideal .f32) (ix2 j k) := by
  obtain ⟨e0, e1⟩ := idx_17 t
  unfold GenP.iblk
  rw [View.read_apply]
  show GenP.V m c main_v33 _ = _
  rw [V_main_v33]
  rw [ValueIdx.truncf_apply]
  refine Eq.trans (congrArg _ ?_) (ValueIdx.transpose_ix2_apply _ transposes_S384x128_S128x384_1_0 k j)
  funext a
  apply Fin.ext
  match a with
  | ⟨0, _⟩ => show win0_17.index t (0 : Fin 2) * 128 + 1 * k.val = k.val; omega
  | ⟨1, _⟩ => show win0_17.index t (1 : Fin 2) * 384 + 1 * j.val = j.val; omega

/-- Window 18's printed index map, decided over the grid: the block at every point is block `(0, 0)`, the whole array. -/
theorem idx_18 : ∀ t : Fin cfg0.N, win0_18.index t (0 : Fin 2) = 0 ∧ win0_18.index t (1 : Fin 2) = 0 :=
  (by decide +kernel : ∀ t : Fin grid0.N, _)

/-- The array window 18 stages, as the region finds it: argument `main_arg18` (`[160, 160]`) transposed, then re-typed. -/
theorem V_main_v35 (c : Dev nD) :
    @Eq (FVec Ideal S160x160 .bf16) (GenP.V m c main_v35)
      (truncf .bf16 (transpose S160x160 [1, 0] (m ((c : Thread nD τ).loc main_arg18) : FVec Ideal S160x160 .f32) transposes_S160x160_S160x160_1_0) bitsLt_bf16_f32) := by
  dsimp only [GenP.V, GenP.V0]
  simp only [Gen.hostOps0, Gen.hostOps0_1, Gen.hostOps0_2, List.flatten_cons, List.flatten_nil, List.append_nil, List.cons_append, List.nil_append]
  after_results

/-- Window 18's block (the whole `[160, 160]` array) at `(k, j)` is argument `main_arg18` at `(j, k)`: over the extended reals the
    change of float format is the identity. -/
theorem blk_18 (c : Dev nD) (t : Fin cfg0.N) (k : Fin 160) (j : Fin 160) :
    (GenP.iblk m c 18 t : Vec Ideal S160x160 .bf16) (ix2 k j)
      = (m ((c : Thread nD τ).loc main_arg18) : S160x160.Idx → Elt Ideal .f32) (ix2 j k) := by
  obtain ⟨e0, e1⟩ := idx_18 t
  unfold GenP.iblk
  rw [View.read_apply]
  show GenP.V m c main_v35 _ = _
  rw [V_main_v35]
  rw [ValueIdx.truncf_apply]
  refine Eq.trans (congrArg _ ?_) (ValueIdx.transpose_ix2_apply _ transposes_S160x160_S160x160_1_0 k j)
  funext a
  apply Fin.ext
  match a with
  | ⟨0, _⟩ => show win0_18.index t (0 : Fin 2) * 160 + 1 * k.val = k.val; omega
  | ⟨1, _⟩ => show win0_18.index t (1 : Fin 2) * 160 + 1 * j.val = j.val; omega

/-- Window 19's printed index map, decided over the grid: the block at every point is block `(0, 0)`, the whole array. -/
theorem idx_19 : ∀ t : Fin cfg0.N, win0_19.index t (0 : Fin 2) = 0 ∧ win0_19.index t (1 : Fin 2) = 0 :=
  (by decide +kernel : ∀ t : Fin grid0.N, _)

/-- The array window 19 stages, as the region finds it: argument `main_arg19` (`[128, 128]`) transposed, then re-typed. -/
theorem V_main_v37 (c : Dev nD) :
    @Eq (FVec Ideal S128x128 .bf16) (GenP.V m c main_v37)
      (truncf .bf16 (transpose S128x128 [1, 0] (m ((c : Thread nD τ).loc main_arg19) : FVec Ideal S128x128 .f32) transposes_S128x128_S128x128_1_0) bitsLt_bf16_f32) := by
  dsimp only [GenP.V, GenP.V0]
  simp only [Gen.hostOps0, Gen.hostOps0_1, Gen.hostOps0_2, List.flatten_cons, List.flatten_nil, List.append_nil, List.cons_append, List.nil_append]
  after_results

/-- Window 19's block (the whole `[128, 128]` array) at `(k, j)` is argument `main_arg19` at `(j, k)`: over the extended reals the
    change of float format is the identity. -/
theorem blk_19 (c : Dev nD) (t : Fin cfg0.N) (k : Fin 128) (j : Fin 128) :
    (GenP.iblk m c 19 t : Vec Ideal S128x128 .bf16) (ix2 k j)
      = (m ((c : Thread nD τ).loc main_arg19) : S128x128.Idx → Elt Ideal .f32) (ix2 j k) := by
  obtain ⟨e0, e1⟩ := idx_19 t
  unfold GenP.iblk
  rw [View.read_apply]
  show GenP.V m c main_v37 _ = _
  rw [V_main_v37]
  rw [ValueIdx.truncf_apply]
  refine Eq.trans (congrArg _ ?_) (ValueIdx.transpose_ix2_apply _ transposes_S128x128_S128x128_1_0 k j)
  funext a
  apply Fin.ext
  match a with
  | ⟨0, _⟩ => show win0_19.index t (0 : Fin 2) * 128 + 1 * k.val = k.val; omega
  | ⟨1, _⟩ => show win0_19.index t (1 : Fin 2) * 128 + 1 * j.val = j.val; omega

/-- Window 20's printed index map, decided over the grid: the block at every point is block `(0, 0)`, the whole array. -/
theorem idx_20 : ∀ t : Fin cfg0.N, win0_20.index t (0 : Fin 2) = 0 ∧ win0_20.index t (1 : Fin 2) = 0 :=
  (by decide +kernel : ∀ t : Fin grid0.N, _)

/-- The array window 20 stages, as the region finds it: argument `main_arg20` (`[128, 128]`) transposed, then re-typed. -/
theorem V_main_v39 (c : Dev nD) :
    @Eq (FVec Ideal S128x128 .bf16) (GenP.V m c main_v39)
      (truncf .bf16 (transpose S128x128 [1, 0] (m ((c : Thread nD τ).loc main_arg20) : FVec Ideal S128x128 .f32) transposes_S128x128_S128x128_1_0) bitsLt_bf16_f32) := by
  dsimp only [GenP.V, GenP.V0]
  simp only [Gen.hostOps0, Gen.hostOps0_1, Gen.hostOps0_2, List.flatten_cons, List.flatten_nil, List.append_nil, List.cons_append, List.nil_append]
  after_results

/-- Window 20's block (the whole `[128, 128]` array) at `(k, j)` is argument `main_arg20` at `(j, k)`: over the extended reals the
    change of float format is the identity. -/
theorem blk_20 (c : Dev nD) (t : Fin cfg0.N) (k : Fin 128) (j : Fin 128) :
    (GenP.iblk m c 20 t : Vec Ideal S128x128 .bf16) (ix2 k j)
      = (m ((c : Thread nD τ).loc main_arg20) : S128x128.Idx → Elt Ideal .f32) (ix2 j k) := by
  obtain ⟨e0, e1⟩ := idx_20 t
  unfold GenP.iblk
  rw [View.read_apply]
  show GenP.V m c main_v39 _ = _
  rw [V_main_v39]
  rw [ValueIdx.truncf_apply]
  refine Eq.trans (congrArg _ ?_) (ValueIdx.transpose_ix2_apply _ transposes_S128x128_S128x128_1_0 k j)
  funext a
  apply Fin.ext
  match a with
  | ⟨0, _⟩ => show win0_20.index t (0 : Fin 2) * 128 + 1 * k.val = k.val; omega
  | ⟨1, _⟩ => show win0_20.index t (1 : Fin 2) * 128 + 1 * j.val = j.val; omega

/-- Window 21's printed index map, decided over the grid: the block at every point is block `(0, 0)`, the whole array. -/
theorem idx_21 : ∀ t : Fin cfg0.N, win0_21.index t (0 : Fin 2) = 0 ∧ win0_21.index t (1 : Fin 2) = 0 :=
  (by decide +kernel : ∀ t : Fin grid0.N, _)

/-- The array window 21 stages, as the region finds it: argument `main_arg21` (`[128, 128]`) transposed, then re-typed. -/
theorem V_main_v41 (c : Dev nD) :
    @Eq (FVec Ideal S128x128 .bf16) (GenP.V m c main_v41)
      (truncf .bf16 (transpose S128x128 [1, 0] (m ((c : Thread nD τ).loc main_arg21) : FVec Ideal S128x128 .f32) transposes_S128x128_S128x128_1_0) bitsLt_bf16_f32) := by
  dsimp only [GenP.V, GenP.V0]
  simp only [Gen.hostOps0, Gen.hostOps0_1, Gen.hostOps0_2, List.flatten_cons, List.flatten_nil, List.append_nil, List.cons_append, List.nil_append]
  after_results

/-- Window 21's block (the whole `[128, 128]` array) at `(k, j)` is argument `main_arg21` at `(j, k)`: over the extended reals the
    change of float format is the identity. -/
theorem blk_21 (c : Dev nD) (t : Fin cfg0.N) (k : Fin 128) (j : Fin 128) :
    (GenP.iblk m c 21 t : Vec Ideal S128x128 .bf16) (ix2 k j)
      = (m ((c : Thread nD τ).loc main_arg21) : S128x128.Idx → Elt Ideal .f32) (ix2 j k) := by
  obtain ⟨e0, e1⟩ := idx_21 t
  unfold GenP.iblk
  rw [View.read_apply]
  show GenP.V m c main_v41 _ = _
  rw [V_main_v41]
  rw [ValueIdx.truncf_apply]
  refine Eq.trans (congrArg _ ?_) (ValueIdx.transpose_ix2_apply _ transposes_S128x128_S128x128_1_0 k j)
  funext a
  apply Fin.ext
  match a with
  | ⟨0, _⟩ => show win0_21.index t (0 : Fin 2) * 128 + 1 * k.val = k.val; omega
  | ⟨1, _⟩ => show win0_21.index t (1 : Fin 2) * 128 + 1 * j.val = j.val; omega

/-- Window 22's printed index map, decided over the grid: the block at every point is block `(0, 0)`, the whole array. -/
theorem idx_22 : ∀ t : Fin cfg0.N, win0_22.index t (0 : Fin 2) = 0 ∧ win0_22.index t (1 : Fin 2) = 0 :=
  (by decide +kernel : ∀ t : Fin grid0.N, _)

/-- The array window 22 stages, as the region finds it: argument `main_arg22` (`[128, 688]`) transposed, then re-typed. -/
theorem V_main_v43 (c : Dev nD) :
    @Eq (FVec Ideal S688x128 .bf16) (GenP.V m c main_v43)
      (truncf .bf16 (transpose S688x128 [1, 0] (m ((c : Thread nD τ).loc main_arg22) : FVec Ideal S128x688 .f32) transposes_S128x688_S688x128_1_0) bitsLt_bf16_f32) := by
  dsimp only [GenP.V, GenP.V0]
  simp only [Gen.hostOps0, Gen.hostOps0_1, Gen.hostOps0_2, List.flatten_cons, List.flatten_nil, List.append_nil, List.cons_append, List.nil_append]
  after_results

/-- Window 22's block (the whole `[688, 128]` array) at `(k, j)` is argument `main_arg22` at `(j, k)`: over the extended reals the
    change of float format is the identity. -/
theorem blk_22 (c : Dev nD) (t : Fin cfg0.N) (k : Fin 688) (j : Fin 128) :
    (GenP.iblk m c 22 t : Vec Ideal S688x128 .bf16) (ix2 k j)
      = (m ((c : Thread nD τ).loc main_arg22) : S128x688.Idx → Elt Ideal .f32) (ix2 j k) := by
  obtain ⟨e0, e1⟩ := idx_22 t
  unfold GenP.iblk
  rw [View.read_apply]
  show GenP.V m c main_v43 _ = _
  rw [V_main_v43]
  rw [ValueIdx.truncf_apply]
  refine Eq.trans (congrArg _ ?_) (ValueIdx.transpose_ix2_apply _ transposes_S128x688_S688x128_1_0 k j)
  funext a
  apply Fin.ext
  match a with
  | ⟨0, _⟩ => show win0_22.index t (0 : Fin 2) * 688 + 1 * k.val = k.val; omega
  | ⟨1, _⟩ => show win0_22.index t (1 : Fin 2) * 128 + 1 * j.val = j.val; omega

/-- Window 23's printed index map, decided over the grid: the block at every point is block `(0, 0)`, the whole array. -/
theorem idx_23 : ∀ t : Fin cfg0.N, win0_23.index t (0 : Fin 2) = 0 ∧ win0_23.index t (1 : Fin 2) = 0 :=
  (by decide +kernel : ∀ t : Fin grid0.N, _)

/-- The array window 23 stages, as the region finds it: argument `main_arg23` (`[40, 128]`) transposed, then re-typed. -/
theorem V_main_v45 (c : Dev nD) :
    @Eq (FVec Ideal S128x40 .bf16) (GenP.V m c main_v45)
      (truncf .bf16 (transpose S128x40 [1, 0] (m ((c : Thread nD τ).loc main_arg23) : FVec Ideal S40x128 .f32) transposes_S40x128_S128x40_1_0) bitsLt_bf16_f32) := by
  dsimp only [GenP.V, GenP.V0]
  simp only [Gen.hostOps0, Gen.hostOps0_1, Gen.hostOps0_2, List.flatten_cons, List.flatten_nil, List.append_nil, List.cons_append, List.nil_append]
  after_results

/-- Window 23's block (the whole `[128, 40]` array) at `(k, j)` is argument `main_arg23` at `(j, k)`: over the extended reals the
    change of float format is the identity. -/
theorem blk_23 (c : Dev nD) (t : Fin cfg0.N) (k : Fin 128) (j : Fin 40) :
    (GenP.iblk m c 23 t : Vec Ideal S128x40 .bf16) (ix2 k j)
      = (m ((c : Thread nD τ).loc main_arg23) : S40x128.Idx → Elt Ideal .f32) (ix2 j k) := by
  obtain ⟨e0, e1⟩ := idx_23 t
  unfold GenP.iblk
  rw [View.read_apply]
  show GenP.V m c main_v45 _ = _
  rw [V_main_v45]
  rw [ValueIdx.truncf_apply]
  refine Eq.trans (congrArg _ ?_) (ValueIdx.transpose_ix2_apply _ transposes_S40x128_S128x40_1_0 k j)
  funext a
  apply Fin.ext
  match a with
  | ⟨0, _⟩ => show win0_23.index t (0 : Fin 2) * 128 + 1 * k.val = k.val; omega
  | ⟨1, _⟩ => show win0_23.index t (1 : Fin 2) * 40 + 1 * j.val = j.val; omega

/-- Window 24's printed index map, decided over the grid: the block at every point is block `(0, 0)`, the whole array. -/
theorem idx_24 : ∀ t : Fin cfg0.N, win0_24.index t (0 : Fin 2) = 0 ∧ win0_24.index t (1 : Fin 2) = 0 :=
  (by decide +kernel : ∀ t : Fin grid0.N, _)

/-- The array window 24 stages, as the region finds it: argument `main_arg24` (`[4, 192]`) transposed, then re-typed. -/
theorem V_main_v47 (c : Dev nD) :
    @Eq (FVec Ideal S192x4 .bf16) (GenP.V m c main_v47)
      (truncf .bf16 (transpose S192x4 [1, 0] (m ((c : Thread nD τ).loc main_arg24) : FVec Ideal S4x192 .f32) transposes_S4x192_S192x4_1_0) bitsLt_bf16_f32) := by
  dsimp only [GenP.V, GenP.V0]
  simp only [Gen.hostOps0, Gen.hostOps0_1, Gen.hostOps0_2, List.flatten_cons, List.flatten_nil, List.append_nil, List.cons_append, List.nil_append]
  after_results

/-- Window 24's block (the whole `[192, 4]` array) at `(k, j)` is argument `main_arg24` at `(j, k)`: over the extended reals the
    change of float format is the identity. -/
theorem blk_24 (c : Dev nD) (t : Fin cfg0.N) (k : Fin 192) (j : Fin 4) :
    (GenP.iblk m c 24 t : Vec Ideal S192x4 .bf16) (ix2 k j)
      = (m ((c : Thread nD τ).loc main_arg24) : S4x192.Idx → Elt Ideal .f32) (ix2 j k) := by
  obtain ⟨e0, e1⟩ := idx_24 t
  unfold GenP.iblk
  rw [View.read_apply]
  show GenP.V m c main_v47 _ = _
  rw [V_main_v47]
  rw [ValueIdx.truncf_apply]
  refine Eq.trans (congrArg _ ?_) (ValueIdx.transpose_ix2_apply _ transposes_S4x192_S192x4_1_0 k j)
  funext a
  apply Fin.ext
  match a with
  | ⟨0, _⟩ => show win0_24.index t (0 : Fin 2) * 192 + 1 * k.val = k.val; omega
  | ⟨1, _⟩ => show win0_24.index t (1 : Fin 2) * 4 + 1 * j.val = j.val; omega

/-- Window 9's printed index map, decided over the grid: the block at every point is block `(0, 0)`, the whole array. -/
theorem idx_9 : ∀ t : Fin cfg0.N, win0_9.index t (0 : Fin 2) = 0 ∧ win0_9.index t (1 : Fin 2) = 0 :=
  (by decide +kernel : ∀ t : Fin grid0.N, _)

/-- The array window 9 stages, as the region finds it: argument `main_arg9` (`[1]`) reshaped to `[1, 1]`. -/
theorem V_main_v48 (c : Dev nD) :
    @Eq (FVec Ideal S1x1 .f32) (GenP.V m c main_v48)
      (shapeCast S1x1 (m ((c : Thread nD τ).loc main_arg9) : FVec Ideal S1 .f32) shapeCasts_S1_S1x1) := by
  dsimp only [GenP.V, GenP.V0]
  simp only [Gen.hostOps0, Gen.hostOps0_1, Gen.hostOps0_2, List.flatten_cons, List.flatten_nil, List.append_nil, List.cons_append, List.nil_append]
  after_results
  first | done | rfl

/-- Window 9's block (the whole `[1, 1]` array) holds argument `main_arg9`'s one entry. -/
theorem blk_9 (c : Dev nD) (t : Fin cfg0.N) :
    (GenP.iblk m c 9 t : Vec Ideal S1x1 .f32) (ix2 0 0)
      = (m ((c : Thread nD τ).loc main_arg9) : S1.Idx → Elt Ideal .f32) (ix1 0) := by
  obtain ⟨e0, e1⟩ := idx_9 t
  unfold GenP.iblk
  rw [View.read_apply]
  show GenP.V m c main_v48 _ = _
  rw [V_main_v48]
  refine Eq.trans (congrArg _ ?_) (ValueIdx.shapeCast_a_1a_apply _ shapeCasts_S1_S1x1 0 0)
  funext a
  apply Fin.ext
  match a with
  | ⟨0, _⟩ => show win0_9.index t (0 : Fin 2) * 1 + 1 * 0 = 0; omega
  | ⟨1, _⟩ => show win0_9.index t (1 : Fin 2) * 1 + 1 * 0 = 0; omega

/-- Window 25's printed index map, decided over the grid: the block at every point is block `(0, 0)`, the whole array. -/
theorem idx_25 : ∀ t : Fin cfg0.N, win0_25.index t (0 : Fin 2) = 0 ∧ win0_25.index t (1 : Fin 2) = 0 :=
  (by decide +kernel : ∀ t : Fin grid0.N, _)

/-- The array window 25 stages, as the region finds it: argument `main_arg25` (`[4]`) reshaped to `[1, 4]`. -/
theorem V_main_v49 (c : Dev nD) :
    @Eq (FVec Ideal S1x4 .f32) (GenP.V m c main_v49)
      (shapeCast S1x4 (m ((c : Thread nD τ).loc main_arg25) : FVec Ideal S4 .f32) shapeCasts_S4_S1x4) := by
  dsimp only [GenP.V, GenP.V0]
  simp only [Gen.hostOps0, Gen.hostOps0_1, Gen.hostOps0_2, List.flatten_cons, List.flatten_nil, List.append_nil, List.cons_append, List.nil_append]
  after_results
  first | done | rfl

/-- Window 25's block (the whole `[1, 4]` array) at `(0, j)` is argument `main_arg25` at `j`. -/
theorem blk_25 (c : Dev nD) (t : Fin cfg0.N) (j : Fin 4) :
    (GenP.iblk m c 25 t : Vec Ideal S1x4 .f32) (ix2 0 j)
      = (m ((c : Thread nD τ).loc main_arg25) : S4.Idx → Elt Ideal .f32) (ix1 j) := by
  obtain ⟨e0, e1⟩ := idx_25 t
  unfold GenP.iblk
  rw [View.read_apply]
  show GenP.V m c main_v49 _ = _
  rw [V_main_v49]
  refine Eq.trans (congrArg _ ?_) (ValueIdx.shapeCast_a_1a_apply _ shapeCasts_S4_S1x4 0 j)
  funext a
  apply Fin.ext
  match a with
  | ⟨0, _⟩ => show win0_25.index t (0 : Fin 2) * 1 + 1 * 0 = 0; omega
  | ⟨1, _⟩ => show win0_25.index t (1 : Fin 2) * 4 + 1 * j.val = j.val; omega

end Cert.KernelIdeal.KIn

end
-- ==== Proof.Rows.lean ====
/-
  Rows of two-dimensional arrays.  Every operation of this kernel acts on a row independently of the other rows: an
  entry (r, c) of a result depends on row r of the row-indexed operands only (and on all of a weight matrix).  So the
  kernel's value on a block of 512 rows and the reference's value on all 65536 rows are compared ROW BY ROW: `RowEq x r X R`
  says that row r of x and row R of X are the same list of extended reals, and each lemma below carries that relation
  through one operation, the kernel's spelling on the left, the host's spelling on the right.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Rows

open Idealize.ShloMosaic Idealize.ShloMosaic.ValueIdx

/-- The shape of an `n × a` array. -/
abbrev S2 (n a : Nat) : Shape := ⟨2, ![n, a]⟩

/-- Row `r` of `x` and row `R` of `X` are the same list of extended reals. -/
def RowEq {n N a : Nat} (x : (S2 n a).Idx → EReal) (r : Fin n) (X : (S2 N a).Idx → EReal) (R : Fin N) : Prop :=
  ∀ k : Fin a, x (ix2 r k) = X (ix2 R k)

theorem RowEq.refl {n a : Nat} (x : (S2 n a).Idx → EReal) (r : Fin n) : RowEq x r x r := fun _ => rfl

/-! ## Operations entry by entry -/

section Pointwise
variable {n N a : Nat} {x y : (S2 n a).Idx → EReal} {X Y : (S2 N a).Idx → EReal} {r : Fin n} {R : Fin N}

theorem mul_rel (hx : RowEq x r X R) (hy : RowEq y r Y R) :
    RowEq (mulf (F := Ideal) (φ := .f32) x y) r (mulf (F := Ideal) (φ := .f32) X Y) R :=
  fun k => congrArg₂ (· * ·) (hx k) (hy k)

theorem add_rel (hx : RowEq x r X R) (hy : RowEq y r Y R) :
    RowEq (addf (F := Ideal) (φ := .f32) x y) r (addf (F := Ideal) (φ := .f32) X Y) R :=
  fun k => congrArg₂ (· + ·) (hx k) (hy k)

theorem sub_rel (hx : RowEq x r X R) (hy : RowEq y r Y R) :
    RowEq (subf (F := Ideal) (φ := .f32) x y) r (subf (F := Ideal) (φ := .f32) X Y) R :=
  fun k => congrArg₂ (· - ·) (hx k) (hy k)

theorem max_rel (hx : RowEq x r X R) (hy : RowEq y r Y R) :
    RowEq (maximumf (F := Ideal) (φ := .f32) x y) r (maximumf (F := Ideal) (φ := .f32) X Y) R :=
  fun k => congrArg₂ max (hx k) (hy k)

theorem min_rel (hx : RowEq x r X R) (hy : RowEq y r Y R) :
    RowEq (minimumf (F := Ideal) (φ := .f32) x y) r (minimumf (F := Ideal) (φ := .f32) X Y) R :=
  fun k => congrArg₂ min (hx k) (hy k)

/-- The kernel's `tanh` and the host's are one function of an extended real. -/
theorem tanh_rel (hx : RowEq x r X R) :
    RowEq (tanh (F := Ideal) (φ := .f32) x) r (Host.tanh (F := Ideal) (φ := .f32) X) R :=
  fun k => congrArg Ideal.tanh (hx k)

/-- The kernel's `exp` and the host's are one function of an extended real. -/
theorem exp_rel (hx : RowEq x r X R) :
    RowEq (exp (F := Ideal) (φ := .f32) x) r (Host.exp (F := Ideal) (φ := .f32) X) R :=
  fun k => congrArg Ideal.exp (hx k)

/-- The kernel's logistic function is, by definition, `1 / (1 + exp (-x))` on the extended reals, which is how the host
    spells it: two arrays of ones, a negation, an exponential, a sum and a quotient. -/
theorem logistic_rel {O₁ O₂ : (S2 N a).Idx → EReal} (h₁ : ∀ i, O₁ i = 1) (h₂ : ∀ i, O₂ i = 1) (hx : RowEq x r X R) :
    RowEq (logistic (F := Ideal) (φ := .f32) x) r
      (Host.divf (F := Ideal) (φ := .f32) O₁ (addf (F := Ideal) (φ := .f32) O₂
        (Host.exp (F := Ideal) (φ := .f32) (Host.negf (F := Ideal) (φ := .f32) X)))) R := by
  intro k
  show Ideal.logistic (x (ix2 r k)) = Ideal.div (O₁ (ix2 R k)) (O₂ (ix2 R k) + Ideal.exp (-(X (ix2 R k))))
  rw [h₁, h₂, hx k]
  rfl

end Pointwise

/-! ## Constants -/

/-- A scalar constant spread over an array by the host reads as the constant everywhere. -/
theorem bcast_const_apply {S : Shape} (h : (⟨0, ![]⟩ : Shape).BroadcastsInDim S ![]) (b : BitVec 32) (i : S.Idx) :
    broadcastInDim S ![] h (constant (F := Ideal) ⟨0, ![]⟩ .f32 b) i = Ideal.ofBits .f32 b :=
  (broadcastInDim_apply ![] h (constant (F := Ideal) ⟨0, ![]⟩ .f32 b) i ix0 (fun a => a.elim0)).trans rfl

/-- The kernel's splat of a scalar literal and the host's broadcast of the same literal. -/
theorem const_rel {n N a : Nat} (h : (⟨0, ![]⟩ : Shape).BroadcastsInDim (S2 N a) ![]) (b : BitVec 32) (r : Fin n) (R : Fin N) :
    RowEq (broadcast (S2 n a) (FloatOps.ofBits (F := Ideal) .f32 b)) r
      (broadcastInDim (S2 N a) ![] h (constant (F := Ideal) ⟨0, ![]⟩ .f32 b)) R :=
  fun k => (bcast_const_apply h b (ix2 R k)).symm

/-! ## Layout operations along a row -/

section Layout
variable {n N : Nat} {r : Fin n} {R : Fin N}

/-- A slice of columns `o … o + b` of a row. -/
theorem slice_apply {α : Type} {n a b o : Nat} (x : (S2 n a).Idx → α) (h : (S2 n a).Slices ![0, o] (S2 n b)) (r : Fin n) (k : Fin b)
    (hk : o + k.val < a) :
    extractStridedSlice (S2 n b) ![0, o] x h (ix2 r k) = x (ix2 r ⟨o + k.val, hk⟩) :=
  extractStridedSlice_apply ![0, o] x h (ix2 r k) (ix2 r ⟨o + k.val, hk⟩) (fun c => by
    match c with
    | ⟨0, _⟩ => exact (Nat.zero_add _).symm
    | ⟨1, _⟩ => rfl)

theorem slice_bound {n a b o : Nat} (h : (S2 n a).Slices ![0, o] (S2 n b)) (k : Fin b) : o + k.val < a := by
  have := h.2 1
  have hk := k.isLt
  change o + b ≤ a at this
  omega

theorem slice_rel {a b o : Nat} {x : (S2 n a).Idx → EReal} {X : (S2 N a).Idx → EReal}
    (h : (S2 n a).Slices ![0, o] (S2 n b)) (H : (S2 N a).Slices ![0, o] (S2 N b)) (hx : RowEq x r X R) :
    RowEq (extractStridedSlice (S2 n b) ![0, o] x h) r (extractStridedSlice (S2 N b) ![0, o] X H) R := fun k => by
  rw [slice_apply x h r k (slice_bound h k), slice_apply X H R k (slice_bound h k)]
  exact hx _

/-- A column spread along the rows' entries: the kernel's `vector.broadcast` of an `n × 1` column against the host's
    `broadcast_in_dim` of one. -/
theorem bcol_apply {α : Type} {n b : Nat} (x : (S2 n 1).Idx → α) (h : (S2 n 1).Broadcasts (S2 n b)) (r : Fin n) (k : Fin b) :
    broadcastTo (S2 n b) x h (ix2 r k) = x (ix2 r 0) :=
  broadcastTo_apply x h (ix2 r k) (ix2 r 0) (fun c => by
    match c with
    | ⟨0, _⟩ =>
      show r.val = if n = 1 then 0 else r.val
      split
      · have := r.isLt; omega
      · rfl
    | ⟨1, _⟩ => rfl)

theorem hbcol_apply {α : Type} {N b : Nat} (X : (S2 N 1).Idx → α) (H : (S2 N 1).BroadcastsInDim (S2 N b) ![0, 1]) (R : Fin N) (k : Fin b) :
    broadcastInDim (S2 N b) ![0, 1] H X (ix2 R k) = X (ix2 R 0) :=
  broadcastInDim_apply ![0, 1] H X (ix2 R k) (ix2 R 0) (fun c => by
    match c with
    | ⟨0, _⟩ =>
      show R.val = if N = 1 then 0 else R.val
      split
      · have := R.isLt; omega
      · rfl
    | ⟨1, _⟩ => rfl)

theorem bcol_rel {b : Nat} {x : (S2 n 1).Idx → EReal} {X : (S2 N 1).Idx → EReal}
    (h : (S2 n 1).Broadcasts (S2 n b)) (H : (S2 N 1).BroadcastsInDim (S2 N b) ![0, 1]) (hx : RowEq x r X R) :
    RowEq (broadcastTo (S2 n b) x h) r (broadcastInDim (S2 N b) ![0, 1] H X) R := fun k => by
  rw [bcol_apply x h r k, hbcol_apply X H R k]
  exact hx 0

end Layout

end Cert.Rows

end
-- ==== Proof.Rows2.lean ====
/-
  Rows through the two operations that mix columns: a concatenation along the columns and a product with a weight
  matrix.  A concatenation's row is the concatenation of the pieces' rows, so rows that agree piece by piece agree after
  it.  A product `x · w` of an `n × K` array with a `K × M` matrix has at (r, j) the sum over k of `x (r, k) · w (k, j)`:
  it reads row r of x only, so the kernel's product on a block of rows and the host's product on all rows agree row by
  row when the operand rows agree and the two weight matrices are equal.
-/
import proofs.«180642_j50062138802934_2_alg».proof.Proof.Rows

noncomputable section

namespace Cert.Rows

open Idealize.ShloMosaic Idealize.ShloMosaic.ValueIdx

/-! ## Concatenation along the columns -/

/-- A concatenation along the columns, read at column `k` of row `r`: the piece `p` whose span `pre ≤ k < pre + c` holds the
    column, at column `k - pre` of its row `r`. -/
theorem cat_apply {α : Type} {n w : Nat} (xs : List ((s : Shape) × (s.Idx → α)))
    (h : Shape.Concatenates (xs.map (·.1)) (S2 n w) 1) (r : Fin n) (k : Fin w)
    (p : Nat) (hp : p < xs.length) (c : Nat) (x₁ : (S2 n c).Idx → α) (hxk : xs[p] = ⟨S2 n c, x₁⟩) (pre : Nat)
    (hpre : (((xs.take p).map (·.1)).map fun s => if h : s.rank = (S2 n w).rank then s.size ((1 : Fin (S2 n w).rank).cast h.symm) else 0).sum = pre)
    (hlo : pre ≤ k.val) (hhi : k.val - pre < c) :
    concatenate (S2 n w) 1 xs h (ix2 r k) = x₁ (ix2 r ⟨k.val - pre, hhi⟩) :=
  concatenate_apply_piece 1 xs h (ix2 r k) p hp (S2 n c) x₁ hxk rfl pre hpre (ix2 r ⟨k.val - pre, hhi⟩)
    (fun b hb => by
      match b with
      | ⟨0, _⟩ => rfl
      | ⟨1, _⟩ => exact absurd rfl hb)
    (show pre + (k.val - pre) = k.val by omega)

section Cat
variable {n N : Nat} {r : Fin n} {R : Fin N}

theorem cat2_rel {a b w : Nat} {x : (S2 n a).Idx → EReal} {y : (S2 n b).Idx → EReal} {X : (S2 N a).Idx → EReal} {Y : (S2 N b).Idx → EReal}
    (h : Shape.Concatenates [S2 n a, S2 n b] (S2 n w) 1) (H : Shape.Concatenates [S2 N a, S2 N b] (S2 N w) 1)
    (hx : RowEq x r X R) (hy : RowEq y r Y R) :
    RowEq (concatenate (S2 n w) 1 [⟨S2 n a, x⟩, ⟨S2 n b, y⟩] h) r (concatenate (S2 N w) 1 [⟨S2 N a, X⟩, ⟨S2 N b, Y⟩] H) R := fun k => by
  have hw : a + (b + 0) = w := h.2.2
  let L : List ((s : Shape) × (s.Idx → EReal)) := [⟨S2 n a, x⟩, ⟨S2 n b, y⟩]
  let L' : List ((s : Shape) × (s.Idx → EReal)) := [⟨S2 N a, X⟩, ⟨S2 N b, Y⟩]
  show concatenate (S2 n w) 1 L h (ix2 r k) = concatenate (S2 N w) 1 L' H (ix2 R k)
  by_cases h1 : k.val < a
  · rw [cat_apply L h r k 0 (by simp [L]) a x rfl 0 rfl (Nat.zero_le _) (by omega),
      cat_apply L' H R k 0 (by simp [L']) a X rfl 0 rfl (Nat.zero_le _) (by omega)]
    exact hx _
  · rw [cat_apply L h r k 1 (by simp [L]) b y rfl a rfl (by omega) (by omega),
      cat_apply L' H R k 1 (by simp [L']) b Y rfl a rfl (by omega) (by omega)]
    exact hy _

theorem cat3_rel {a b c w : Nat} {x : (S2 n a).Idx → EReal} {y : (S2 n b).Idx → EReal} {z : (S2 n c).Idx → EReal}
    {X : (S2 N a).Idx → EReal} {Y : (S2 N b).Idx → EReal} {Z : (S2 N c).Idx → EReal}
    (h : Shape.Concatenates [S2 n a, S2 n b, S2 n c] (S2 n w) 1) (H : Shape.Concatenates [S2 N a, S2 N b, S2 N c] (S2 N w) 1)
    (hx : RowEq x r X R) (hy : RowEq y r Y R) (hz : RowEq z r Z R) :
    RowEq (concatenate (S2 n w) 1 [⟨S2 n a, x⟩, ⟨S2 n b, y⟩, ⟨S2 n c, z⟩] h) r
      (concatenate (S2 N w) 1 [⟨S2 N a, X⟩, ⟨S2 N b, Y⟩, ⟨S2 N c, Z⟩] H) R := fun k => by
  have hw : a + (b + (c + 0)) = w := h.2.2
  let L : List ((s : Shape) × (s.Idx → EReal)) := [⟨S2 n a, x⟩, ⟨S2 n b, y⟩, ⟨S2 n c, z⟩]
  let L' : List ((s : Shape) × (s.Idx → EReal)) := [⟨S2 N a, X⟩, ⟨S2 N b, Y⟩, ⟨S2 N c, Z⟩]
  show concatenate (S2 n w) 1 L h (ix2 r k) = concatenate (S2 N w) 1 L' H (ix2 R k)
  by_cases h1 : k.val < a
  · rw [cat_apply L h r k 0 (by simp [L]) a x rfl 0 rfl (Nat.zero_le _) (by omega),
      cat_apply L' H R k 0 (by simp [L']) a X rfl 0 rfl (Nat.zero_le _) (by omega)]
    exact hx _
  · by_cases h2 : k.val < a + b
    · rw [cat_apply L h r k 1 (by simp [L]) b y rfl a rfl (by omega) (by omega),
        cat_apply L' H R k 1 (by simp [L']) b Y rfl a rfl (by omega) (by omega)]
      exact hy _
    · rw [cat_apply L h r k 2 (by simp [L]) c z rfl (a + b) rfl (by omega) (by omega),
        cat_apply L' H R k 2 (by simp [L']) c Z rfl (a + b) rfl (by omega) (by omega)]
      exact hz _

theorem cat4_rel {a b c d w : Nat} {x : (S2 n a).Idx → EReal} {y : (S2 n b).Idx → EReal} {z : (S2 n c).Idx → EReal} {u : (S2 n d).Idx → EReal}
    {X : (S2 N a).Idx → EReal} {Y : (S2 N b).Idx → EReal} {Z : (S2 N c).Idx → EReal} {U : (S2 N d).Idx → EReal}
    (h : Shape.Concatenates [S2 n a, S2 n b, S2 n c, S2 n d] (S2 n w) 1) (H : Shape.Concatenates [S2 N a, S2 N b, S2 N c, S2 N d] (S2 N w) 1)
    (hx : RowEq x r X R) (hy : RowEq y r Y R) (hz : RowEq z r Z R) (hu : RowEq u r U R) :
    RowEq (concatenate (S2 n w) 1 [⟨S2 n a, x⟩, ⟨S2 n b, y⟩, ⟨S2 n c, z⟩, ⟨S2 n d, u⟩] h) r
      (concatenate (S2 N w) 1 [⟨S2 N a, X⟩, ⟨S2 N b, Y⟩, ⟨S2 N c, Z⟩, ⟨S2 N d, U⟩] H) R := fun k => by
  have hw : a + (b + (c + (d + 0))) = w := h.2.2
  let L : List ((s : Shape) × (s.Idx → EReal)) := [⟨S2 n a, x⟩, ⟨S2 n b, y⟩, ⟨S2 n c, z⟩, ⟨S2 n d, u⟩]
  let L' : List ((s : Shape) × (s.Idx → EReal)) := [⟨S2 N a, X⟩, ⟨S2 N b, Y⟩, ⟨S2 N c, Z⟩, ⟨S2 N d, U⟩]
  show concatenate (S2 n w) 1 L h (ix2 r k) = concatenate (S2 N w) 1 L' H (ix2 R k)
  by_cases h1 : k.val < a
  · rw [cat_apply L h r k 0 (by simp [L]) a x rfl 0 rfl (Nat.zero_le _) (by omega),
      cat_apply L' H R k 0 (by simp [L']) a X rfl 0 rfl (Nat.zero_le _) (by omega)]
    exact hx _
  · by_cases h2 : k.val < a + b
    · rw [cat_apply L h r k 1 (by simp [L]) b y rfl a rfl (by omega) (by omega),
        cat_apply L' H R k 1 (by simp [L']) b Y rfl a rfl (by omega) (by omega)]
      exact hy _
    · by_cases h3 : k.val < a + b + c
      · rw [cat_apply L h r k 2 (by simp [L]) c z rfl (a + b) rfl (by omega) (by omega),
          cat_apply L' H R k 2 (by simp [L']) c Z rfl (a + b) rfl (by omega) (by omega)]
        exact hz _
      · rw [cat_apply L h r k 3 (by simp [L]) d u rfl (a + (b + c)) rfl (by omega) (by omega),
          cat_apply L' H R k 3 (by simp [L']) d U rfl (a + (b + c)) rfl (by omega) (by omega)]
        exact hu _

end Cat

/-! ## Products with a weight matrix -/

/-- The sum a plain `M × K` by `K × N` product takes at `j`, over the contracted column `k`. -/
theorem plain_sum {M K N : Nat} (lhs : (S2 M K).Idx → EReal) (rhs : (S2 K N).Idx → EReal) (j : (S2 M N).Idx) :
    ∑ q : (DotDims.plain M K N).contr.Idx, lhs ((DotDims.plain M K N).lhsIdx j q) * rhs ((DotDims.plain M K N).rhsIdx j q)
      = ∑ k : Fin K, lhs (ix2 (j 0) k) * rhs (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun c => Fin.ext (by
      match c with
      | ⟨0, _⟩ => rfl
      | ⟨1, _⟩ => exact hk)
  have er : (DotDims.plain M K N).rhsIdx j ((contrEquiv1 (DotDims.plain M K N) K rfl rfl).symm k) = ix2 k (j 1) :=
    funext fun c => Fin.ext (by
      match c with
      | ⟨0, _⟩ => exact hk
      | ⟨1, _⟩ => rfl)
  rw [el, er]
  rfl

section MatMul
variable {n N K M : Nat} {φ₁ φ₂ φ₃ φ₄ : FTy} {r : Fin n} {R : Fin N}

/-- The kernel's product of a block of rows with a weight matrix, into a zero accumulator, against the host's
    `dot_general` of all rows with an equal matrix: the same sums, row by row. -/
theorem mm_rel {D : DotDims (S2 n K) (S2 K M) (S2 n M)} {D' : DotDims (S2 N K) (S2 K M) (S2 N M)}
    (hD : D = DotDims.plain n K M) (hD' : D' = DotDims.plain N K M)
    {x : FVec Ideal (S2 n K) φ₁} {X : FVec Ideal (S2 N K) φ₃} {w : FVec Ideal (S2 K M) φ₂} {W : FVec Ideal (S2 K M) φ₄}
    (hx : RowEq x r X R) (hw : ∀ (k : Fin K) (j : Fin M), w (ix2 k j) = W (ix2 k j)) :
    RowEq (matmul (F := Ideal) D none x w (constant (S2 n M) .f32 0x00000000#32)) r
      (Host.dotGeneral (F := Ideal) D' none X W) R := by
  subst hD hD'
  intro j
  show FloatOps.matmul (DotDims.plain n K M) none x w (constant (S2 n M) .f32 0x00000000#32) (ix2 r j)
    = FloatOps.dotGeneral (DotDims.plain N K M) none .single X W (ix2 R j)
  rw [Ideal.matmul_constant_zero_apply, Ideal.dotGeneral_apply, plain_sum, plain_sum]
  exact Finset.sum_congr rfl fun k _ => by
    show x (ix2 r k) * w (ix2 k j) = X (ix2 R k) * W (ix2 k j)
    rw [hx k, hw k j]

/-- A change of float format is the identity on the extended reals. -/
theorem truncf_rel {a : Nat} {ψ φ : FTy} {x : FVec Ideal (S2 n a) φ} {X : (S2 N a).Idx → EReal} (h : ψ.bits < φ.bits)
    (hx : RowEq x r X R) : RowEq (truncf (F := Ideal) ψ x h) r X R := hx

/-- The kernel holds a weight already transposed (and re-cast to its own shape); the host transposes it: the same matrix. -/
theorem wt_rel {w : FVec Ideal (S2 K M) φ₂} {W : (S2 M K).Idx → EReal} (h : (S2 K M).ShapeCasts (S2 K M))
    (H : (S2 M K).Transposes [1, 0] (S2 K M)) (hw : ∀ (k : Fin K) (j : Fin M), w (ix2 k j) = W (ix2 j k)) :
    ∀ (k : Fin K) (j : Fin M), shapeCast (S2 K M) w h (ix2 k j) = transpose (S2 K M) [1, 0] W H (ix2 k j) := fun k j => by
  rw [shapeCast_self, transpose_ix2_apply]
  exact hw k j

end MatMul

end Cert.Rows

end
-- ==== Proof.Rows3.lean ====
/-
  The few places where the kernel and the reference spell one function differently.
  * The kernel scales by the reciprocal, `x · (1 / (ε + g))`, where the reference divides, `x / (ε + g)`, with `g = exp …`
    and `ε` the positive literal both programs share.  Since `exp` is never negative on the extended reals, `ε + g` is
    positive, in particular not zero, and there the quotient `x / y` IS `x · y⁻¹` and `1 / y` is `y⁻¹`.
  * The kernel takes the gain's logit as a lane sum `∑ₖ c (r, k) · w (0, k)` of a product with the weight ROW spread over
    the rows; the reference as a product of all rows with the transposed weight COLUMN: the same sum.
  * The two biases are reshaped by the kernel's wrapper and broadcast by the host: the same entries.
  * A load through a rectangle of columns is the host's slice of those columns.
-/
import proofs.«180642_j50062138802934_2_alg».proof.Proof.Rows2
import Idealize.ShloMosaic.Lib.Pipeline.FrameBody

noncomputable section

namespace Cert.Rows

open Idealize.ShloMosaic Idealize.ShloMosaic.ValueIdx

/-! ## Literals -/

/-- The pattern of `1.0` denotes `1`. -/
theorem ofBits_one : Ideal.ofBits .f32 0x3F800000#32 = 1 := by
  simp [Ideal.ofBits, Ideal.ieee, -EReal.coe_mul]; norm_num

/-- The shared literal `ε` (about `1e-5`) denotes a positive real. -/
theorem ofBits_eps_pos : (0 : EReal) < Ideal.ofBits .f32 0x3727C5AC#32 := by
  simp [Ideal.ofBits, Ideal.ieee, -EReal.coe_mul]

theorem bcast_one {S : Shape} (h : (⟨0, ![]⟩ : Shape).BroadcastsInDim S ![]) (i : S.Idx) :
    broadcastInDim S ![] h (constant (F := Ideal) ⟨0, ![]⟩ .f32 0x3F800000#32) i = 1 :=
  (bcast_const_apply h _ i).trans ofBits_one

/-- `exp` is never negative on the extended reals (`exp ⊥ = 0`, `exp ⊤ = ⊤`). -/
theorem exp_nonneg (x : EReal) : 0 ≤ Ideal.exp x := by
  induction x using EReal.rec with
  | bot => simp
  | top => simp
  | coe r => rw [Ideal.exp_coe]; exact_mod_cast (Real.exp_pos r).le

/-! ## Scaling by the reciprocal against dividing -/

section Scale
variable {n N b : Nat} {r : Fin n} {R : Fin N}

theorem scast_rel {a : Nat} {x : (S2 n a).Idx → EReal} {X : (S2 N a).Idx → EReal} (h : (S2 n a).ShapeCasts (S2 n a))
    (hx : RowEq x r X R) : RowEq (shapeCast (S2 n a) x h) r X R := fun k => by
  rw [shapeCast_self]; exact hx k

theorem scale_rel {v : (S2 n b).Idx → EReal} {V : (S2 N b).Idx → EReal} {g : (S2 n 1).Idx → EReal} {G : (S2 N 1).Idx → EReal}
    (h : (S2 n 1).Broadcasts (S2 n b)) (H : (S2 N 1).BroadcastsInDim (S2 N b) ![0, 1])
    (H' : (⟨0, ![]⟩ : Shape).BroadcastsInDim (S2 N 1) ![])
    (hv : RowEq v r V R) (hg : RowEq g r G R) (hpos : 0 ≤ G (ix2 R 0)) :
    RowEq (mulf (F := Ideal) (φ := .f32) v (broadcastTo (S2 n b)
        (divf (F := Ideal) (φ := .f32) (broadcast (S2 n 1) (FloatOps.ofBits (F := Ideal) .f32 0x3F800000#32))
          (addf (F := Ideal) (φ := .f32) (broadcast (S2 n 1) (FloatOps.ofBits (F := Ideal) .f32 0x3727C5AC#32)) g)) h)) r
      (Host.divf (F := Ideal) (φ := .f32) V (broadcastInDim (S2 N b) ![0, 1] H
        (addf (F := Ideal) (φ := .f32) (broadcastInDim (S2 N 1) ![] H' (constant (F := Ideal) ⟨0, ![]⟩ .f32 0x3727C5AC#32)) G))) R := by
  intro k
  show v (ix2 r k) * _ = Ideal.div (V (ix2 R k)) _
  rw [bcol_apply, hbcol_apply]
  show v (ix2 r k) * Ideal.div (Ideal.ofBits .f32 0x3F800000#32) (Ideal.ofBits .f32 0x3727C5AC#32 + g (ix2 r 0))
    = Ideal.div (V (ix2 R k)) (broadcastInDim (S2 N 1) ![] H' (constant (F := Ideal) ⟨0, ![]⟩ .f32 0x3727C5AC#32) (ix2 R 0) + G (ix2 R 0))
  rw [bcast_const_apply, hv k, hg 0, ofBits_one]
  have hy : Ideal.ofBits .f32 0x3727C5AC#32 + G (ix2 R 0) ≠ 0 :=
    (lt_of_lt_of_le ofBits_eps_pos (le_add_of_nonneg_right hpos)).ne'
  rw [Ideal.div, if_neg hy, Ideal.div, if_neg hy, one_mul]

end Scale

/-! ## A row spread over the rows, and the biases -/

section Bias
variable {n N b : Nat} {r : Fin n} {R : Fin N}

theorem hbrow_apply {α : Type} (V : (S2 1 b).Idx → α) (H : (S2 1 b).BroadcastsInDim (S2 N b) ![0, 1]) (R : Fin N) (k : Fin b) :
    broadcastInDim (S2 N b) ![0, 1] H V (ix2 R k) = V (ix2 0 k) :=
  broadcastInDim_apply ![0, 1] H V (ix2 R k) (ix2 0 k) (fun c => by
    match c with
    | ⟨0, _⟩ => rfl
    | ⟨1, _⟩ =>
      show k.val = if b = 1 then 0 else k.val
      split
      · have := k.isLt; omega
      · rfl)

/-- One row spread over all rows: the kernel's `vector.broadcast` against the host's `broadcast_in_dim`. -/
theorem brow_rel {v V : (S2 1 b).Idx → EReal} (h : (S2 1 b).Broadcasts (S2 n b)) (H : (S2 1 b).BroadcastsInDim (S2 N b) ![0, 1])
    (hv : ∀ k : Fin b, v (ix2 0 k) = V (ix2 0 k)) :
    RowEq (broadcastTo (S2 n b) v h) r (broadcastInDim (S2 N b) ![0, 1] H V) R := fun k => by
  rw [broadcastTo_1b_ab_apply, hbrow_apply]
  exact hv k

/-- A vector of `b` entries made a `1 × b` row by the host's `broadcast_in_dim`. -/
theorem b1_apply {α : Type} (A : (⟨1, ![b]⟩ : Shape).Idx → α) (H : (⟨1, ![b]⟩ : Shape).BroadcastsInDim (S2 1 b) ![1]) (k : Fin b) :
    broadcastInDim (S2 1 b) ![1] H A (ix2 0 k) = A (ix1 k) :=
  broadcastInDim_apply ![1] H A (ix2 0 k) (ix1 k) (fun c => by
    match c with
    | ⟨0, _⟩ =>
      show k.val = if b = 1 then 0 else k.val
      split
      · have := k.isLt; omega
      · rfl)

/-- The kernel's bias row (re-cast to its own shape) against the host's: equal entries. -/
theorem b1_rel {w : (S2 1 b).Idx → EReal} {A : (⟨1, ![b]⟩ : Shape).Idx → EReal} (h : (S2 1 b).ShapeCasts (S2 1 b))
    (H : (⟨1, ![b]⟩ : Shape).BroadcastsInDim (S2 1 b) ![1]) (hw : ∀ k : Fin b, w (ix2 0 k) = A (ix1 k)) :
    ∀ k : Fin b, shapeCast (S2 1 b) w h (ix2 0 k) = broadcastInDim (S2 1 b) ![1] H A (ix2 0 k) := fun k => by
  rw [shapeCast_self, b1_apply]; exact hw k

end Bias

/-! ## The lane sum against the product with a column -/

section Gain
variable {n N K : Nat} {r : Fin n} {R : Fin N}

/-- A vector of `n` entries made an `n × 1` column. -/
theorem scol_apply {α : Type} (v : (⟨1, ![n]⟩ : Shape).Idx → α) (h : (⟨1, ![n]⟩ : Shape).ShapeCasts (S2 n 1)) (r : Fin n) (k : Fin 1) :
    shapeCast (S2 n 1) v h (ix2 r k) = v (ix1 r) :=
  shapeCast_apply v h (ix2 r k) (ix1 r) (by
    rw [Shape.rowMajor_val_one, Shape.rowMajor_val_two]
    show r.val = r.val * 1 + k.val
    have := k.isLt; omega)

theorem lift_row (h : (S2 n K).Reduces [1] ⟨1, ![n]⟩) (r : Fin n) (k : Fin K) :
    h.lift (ix1 r) k = ix2 r k := funext fun c => Fin.ext (by
  match c with
  | ⟨0, _⟩ => simp [Shape.Reduces.lift, Shape.Reduces.liftVal]
  | ⟨1, _⟩ => simp [Shape.Reduces.lift, Shape.Reduces.liftVal])

theorem gain_dot_rel {c : FVec Ideal (S2 n K) .f32} {C : FVec Ideal (S2 N K) .f32} {w W : FVec Ideal (S2 1 K) .f32}
    {D' : DotDims (S2 N K) (S2 K 1) (S2 N 1)} (hD' : D' = DotDims.plain N K 1)
    (hb : (S2 1 K).Broadcasts (S2 n K)) (hr : (S2 n K).Reduces [1] ⟨1, ![n]⟩) (hφ : FKind.Formats .f32)
    (hacc : (0x00000000#32 : BitVec 32) = FKind.add.neutral .f32 hφ) (hs : (⟨1, ![n]⟩ : Shape).ShapeCasts (S2 n 1))
    (HT : (S2 1 K).Transposes [1, 0] (S2 K 1))
    (hc : RowEq c r C R) (hw : ∀ k : Fin K, w (ix2 0 k) = W (ix2 0 k)) :
    RowEq (shapeCast (S2 n 1) (multiReduction (F := Ideal) (φ := .f32) .add [1] ⟨1, ![n]⟩
        (mulf (F := Ideal) (φ := .f32) c (broadcastTo (S2 n K) w hb)) 0x00000000#32 hr hφ hacc) hs) r
      (Host.dotGeneral (F := Ideal) (φ₁ := .f32) (φ₂ := .f32) D' none C (transpose (S2 K 1) [1, 0] W HT : FVec Ideal (S2 K 1) .f32)) R := by
  subst hD'
  intro k
  rw [scol_apply]
  refine (Ideal.multiReduction_add_single _ 0x00000000#32 hr hφ hacc (ix1 r)).trans ?_
  show _ = FloatOps.dotGeneral (DotDims.plain N K 1) none .single C (transpose (S2 K 1) [1, 0] W HT) (ix2 R k)
  rw [Ideal.dotGeneral_apply, plain_sum]
  show ∑ j : Fin K, (mulf (F := Ideal) (φ := .f32) c (broadcastTo (S2 n K) w hb)) (hr.lift (ix1 r) j) = _
  refine Finset.sum_congr rfl fun j _ => ?_
  rw [lift_row]
  show c (ix2 r j) * broadcastTo (S2 n K) w hb (ix2 r j) = C (ix2 R j) * transpose (S2 K 1) [1, 0] W HT (ix2 j k)
  have hk : k = 0 := Fin.ext (by have := k.isLt; omega)
  subst hk
  rw [broadcastTo_1b_ab_apply, transpose_ix2_apply, hc j, hw j]

end Gain

/-! ## Loads through a rectangle of columns -/

section Load
variable {n N : Nat} {r : Fin n} {R : Fin N}

theorem ld_apply {e : EltTy} {Val : EltTy → Type} {a b o : Nat} (x : (S2 n a).Idx → Val e)
    (inb : ∀ c, (![0, o] : Fin 2 → Nat) c + (S2 n b).size c ≤ (S2 n a).size c) (r : Fin n) (k : Fin b) (hk : o + k.val < a) :
    View.ld x (Rect.unit (s := S2 n a) ![0, o] (S2 n b).size inb) (ix2 r k) = x (ix2 r ⟨o + k.val, hk⟩) := by
  show x _ = x _
  refine congrArg x (funext fun c => Fin.ext ?_)
  match c with
  | ⟨0, _⟩ => show (0 + 1 * r.val : Nat) = r.val; omega
  | ⟨1, _⟩ => show (o + 1 * k.val : Nat) = o + k.val; omega

theorem ld_slice_rel {a b o : Nat} {x : (S2 n a).Idx → Elt Ideal .f32} {X : (S2 N a).Idx → EReal}
    (inb : ∀ c, (![0, o] : Fin 2 → Nat) c + (S2 n b).size c ≤ (S2 n a).size c) (H : (S2 N a).Slices ![0, o] (S2 N b))
    (hx : RowEq x r X R) :
    RowEq (View.ld (Val := Elt Ideal) (e' := .f32) x (Rect.unit (s := S2 n a) ![0, o] (S2 n b).size inb)) r
      (extractStridedSlice (S2 N b) ![0, o] X H) R := fun k => by
  rw [ld_apply x inb r k (slice_bound H k), slice_apply X H R k (slice_bound H k)]
  exact hx _

/-- The offsets of a load of a whole buffer. -/
theorem off_zero : (![0, 0] : Fin 2 → Nat) = fun _ => 0 := funext fun c => by
  match c with
  | ⟨0, _⟩ => rfl
  | ⟨1, _⟩ => rfl

/-- A load of a whole buffer is the buffer. -/
theorem ld_whole {e : EltTy} {Val : EltTy → Type} {a : Nat} (x : (S2 n a).Idx → Val e)
    (inb : ∀ c, (![0, 0] : Fin 2 → Nat) c + (S2 n a).size c ≤ (S2 n a).size c) :
    View.ld x (Rect.unit (s := S2 n a) ![0, 0] (S2 n a).size inb) = x :=
  View.ld_unit_zero off_zero inb x

end Load

end Cert.Rows

end
-- ==== Proof.RowTac.lean ====
/-
  The bookkeeping tactic of the row-by-row comparison: it walks the kernel's term and the reference's term together,
  operation by operation, applying at each node the lemma of module Rows / Rows2 / Rows3 that carries "row r of the
  kernel's block equals row R of the reference's array" through that operation, until it reaches operands for which
  the relation is a hypothesis.
-/
import proofs.«180642_j50062138802934_2_alg».proof.Proof.Rows3

namespace Cert.Rows

open Idealize.ShloMosaic Idealize.ShloMosaic.ValueIdx

macro "rowauto" : tactic => `(tactic| repeat' (first
  | assumption
  | with_reducible apply mul_rel | with_reducible apply add_rel | with_reducible apply sub_rel | with_reducible apply max_rel | with_reducible apply min_rel
  | with_reducible apply tanh_rel | with_reducible apply exp_rel
  | with_reducible apply logistic_rel (bcast_one _) (bcast_one _)
  | with_reducible apply const_rel
  | with_reducible apply slice_rel | with_reducible apply bcol_rel | with_reducible apply brow_rel | with_reducible apply b1_rel
  | with_reducible apply cat2_rel | with_reducible apply cat3_rel | with_reducible apply cat4_rel
  | with_reducible apply mm_rel
  | apply gain_dot_rel
  | rfl
  | with_reducible apply wt_rel
  | with_reducible apply scale_rel
  | exact exp_nonneg _
  | with_reducible apply scast_rel
  | with_reducible apply truncf_rel))

end Cert.Rows
-- ==== Proof.Bridge1.lean ====
/-
  Row by row, the kernel's first values are the reference's: the clipped conditioning vector, the gain `exp (c · w + b)`,
  the gain-normalised pitch prediction and previous excitation (the kernel multiplies by `1 / (ε + gain)` where the
  reference divides by `ε + gain`), their concatenation, the frame-wise convolution's gated output and the four pitch
  gates.  Each lemma takes "row r of the kernel's operand block is row R of the reference's operand" for every operand and
  gives the same for the value.
-/
import proofs.«180642_j50062138802934_2_alg».proof.Proof.RowTac
import proofs.«180642_j50062138802934_2_alg».proof.Proof.ReadP
import proofs.«180642_j50062138802934_2_alg».proof.Proof.Gen.KernelIdeal.Skeleton

set_option maxHeartbeats 1000000

noncomputable section

namespace Cert.Bridge

open Idealize.ShloMosaic Idealize.ShloMosaic.ValueIdx Cert.Rows Cert.KernelIdeal Cert.KernelIdeal.Gen Cert.ReferenceIdeal.ReadP

variable
  {a0 : (⟨Cert.ReferenceIdeal.S65536x80, .f32⟩ : BufTy).Contents (Elt Ideal)}
  {a1 : (⟨Cert.ReferenceIdeal.S65536x256, .f32⟩ : BufTy).Contents (Elt Ideal)}
  {a2 : (⟨Cert.ReferenceIdeal.S65536x256, .f32⟩ : BufTy).Contents (Elt Ideal)}
  {a3 : (⟨Cert.ReferenceIdeal.S65536, .i32⟩ : BufTy).Contents (Elt Ideal)}
  {a4 : (⟨Cert.ReferenceIdeal.S65536x160, .f32⟩ : BufTy).Contents (Elt Ideal)}
  {a5 : (⟨Cert.ReferenceIdeal.S65536x128, .f32⟩ : BufTy).Contents (Elt Ideal)}
  {a6 : (⟨Cert.ReferenceIdeal.S65536x128, .f32⟩ : BufTy).Contents (Elt Ideal)}
  {a7 : (⟨Cert.ReferenceIdeal.S65536x164, .f32⟩ : BufTy).Contents (Elt Ideal)}
  {a8 : (⟨Cert.ReferenceIdeal.S1x80, .f32⟩ : BufTy).Contents (Elt Ideal)}
  {a9 : (⟨Cert.ReferenceIdeal.S1, .f32⟩ : BufTy).Contents (Elt Ideal)}
  {a10 : (⟨Cert.ReferenceIdeal.S192x328, .f32⟩ : BufTy).Contents (Elt Ideal)}
  {a11 : (⟨Cert.ReferenceIdeal.S192x192, .f32⟩ : BufTy).Contents (Elt Ideal)}
  {a12 : (⟨Cert.ReferenceIdeal.S480x272, .f32⟩ : BufTy).Contents (Elt Ideal)}
  {a13 : (⟨Cert.ReferenceIdeal.S480x160, .f32⟩ : BufTy).Contents (Elt Ideal)}
  {a14 : (⟨Cert.ReferenceIdeal.S384x240, .f32⟩ : BufTy).Contents (Elt Ideal)}
  {a15 : (⟨Cert.ReferenceIdeal.S384x128, .f32⟩ : BufTy).Contents (Elt Ideal)}
  {a16 : (⟨Cert.ReferenceIdeal.S384x208, .f32⟩ : BufTy).Contents (Elt Ideal)}
  {a17 : (⟨Cert.ReferenceIdeal.S384x128, .f32⟩ : BufTy).Contents (Elt Ideal)}
  {a18 : (⟨Cert.ReferenceIdeal.S160x160, .f32⟩ : BufTy).Contents (Elt Ideal)}
  {a19 : (⟨Cert.ReferenceIdeal.S128x128, .f32⟩ : BufTy).Contents (Elt Ideal)}
  {a20 : (⟨Cert.ReferenceIdeal.S128x128, .f32⟩ : BufTy).Contents (Elt Ideal)}
  {a21 : (⟨Cert.ReferenceIdeal.S128x128, .f32⟩ : BufTy).Contents (Elt Ideal)}
  {a22 : (⟨Cert.ReferenceIdeal.S128x688, .f32⟩ : BufTy).Contents (Elt Ideal)}
  {a23 : (⟨Cert.ReferenceIdeal.S40x128, .f32⟩ : BufTy).Contents (Elt Ideal)}
  {a24 : (⟨Cert.ReferenceIdeal.S4x192, .f32⟩ : BufTy).Contents (Elt Ideal)}
  {a25 : (⟨Cert.ReferenceIdeal.S4, .f32⟩ : BufTy).Contents (Elt Ideal)}

theorem pay3_rel {r : Fin 512} {R : Fin 65536} {v0 : Vec Ideal S512x80 .f32}
    (h0 : RowEq v0 r a0 R) :
    RowEq (k0_pay3 (F := Ideal) v0) r (val_main_v0 (F := Ideal) a0) R := by
  unfold k0_pay3
  unfold val_main_v0 val_main_call0_v4 val_main_call0_v3 val_main_call0_v2 val_main_call0_v1 val_main_call0_v0 val_main_cst_0 val_main_cst
  dsimp only
  try simp only [id_eq]
  rowauto

theorem pay4_rel {r : Fin 512} {R : Fin 65536} {v0 : Vec Ideal S512x80 .f32} {v5 : Vec Ideal S1x80 .f32} {v10 : Vec Ideal S1x1 .f32}
    (h0 : RowEq v0 r a0 R)
    (h5 : ∀ k : Fin 80, v5 (ix2 0 k) = a8 (ix2 0 k))
    (h10 : ∀ k : Fin 1, v10 (ix2 0 k) = a9 (ix1 k)) :
    RowEq (k0_pay4 (F := Ideal) v0 v5 v10) r (val_main_v6 (F := Ideal) a0 a8 a9) R := by
  have p3 := pay3_rel (r := r) (R := R) h0
  unfold k0_pay4
  unfold val_main_v6 val_main_v5 val_main_v4 val_main_v3 val_main_v2 val_main_v1
  dsimp only
  try simp only [id_eq]
  rowauto

theorem pay6_rel {r : Fin 512} {R : Fin 65536} {v0 : Vec Ideal S512x80 .f32} {v5 : Vec Ideal S1x80 .f32} {v10 : Vec Ideal S1x1 .f32} {v19 : Vec Ideal S512x44 .f32}
    (h0 : RowEq v0 r a0 R)
    (h5 : ∀ k : Fin 80, v5 (ix2 0 k) = a8 (ix2 0 k))
    (h10 : ∀ k : Fin 1, v10 (ix2 0 k) = a9 (ix1 k))
    (h19 : RowEq v19 r (val_main_v24 (F := Ideal) a2 a3) R) :
    RowEq (k0_pay6 (F := Ideal) v0 v5 v10 v19) r (val_main_v29 (F := Ideal) a0 a2 a3 a8 a9) R := by
  have p4 := pay4_rel (r := r) (R := R) h0 h5 h10
  unfold k0_pay6 k0_pay5
  unfold val_main_v29 val_main_call2_v4 val_main_call2_v3 val_main_call2_v2 val_main_call2_v1 val_main_call2_v0 val_main_cst_5 val_main_cst_4 val_main_v28 val_main_v27 val_main_v26 val_main_v25 val_main_cst_3
  dsimp only
  try simp only [id_eq]
  rowauto

theorem pay7_rel {r : Fin 512} {R : Fin 65536} {v0 : Vec Ideal S512x80 .f32} {v5 : Vec Ideal S1x80 .f32} {v10 : Vec Ideal S1x1 .f32} {v27 : Vec Ideal S512x40 .f32}
    (h0 : RowEq v0 r a0 R)
    (h5 : ∀ k : Fin 80, v5 (ix2 0 k) = a8 (ix2 0 k))
    (h10 : ∀ k : Fin 1, v10 (ix2 0 k) = a9 (ix1 k))
    (h27 : RowEq v27 r (val_main_v30 (F := Ideal) a2) R) :
    RowEq (k0_pay7 (F := Ideal) v0 v5 v10 v27) r (val_main_v35 (F := Ideal) a0 a2 a8 a9) R := by
  have p4 := pay4_rel (r := r) (R := R) h0 h5 h10
  unfold k0_pay7 k0_pay5
  unfold val_main_v35 val_main_call3_v4 val_main_call3_v3 val_main_call3_v2 val_main_call3_v1 val_main_call3_v0 val_main_cst_8 val_main_cst_7 val_main_v34 val_main_v33 val_main_v32 val_main_v31 val_main_cst_6
  dsimp only
  try simp only [id_eq]
  rowauto

theorem pay8_rel {r : Fin 512} {R : Fin 65536} {v0 : Vec Ideal S512x80 .f32} {v5 : Vec Ideal S1x80 .f32} {v10 : Vec Ideal S1x1 .f32} {v19 : Vec Ideal S512x44 .f32} {v27 : Vec Ideal S512x40 .f32}
    (h0 : RowEq v0 r a0 R)
    (h5 : ∀ k : Fin 80, v5 (ix2 0 k) = a8 (ix2 0 k))
    (h10 : ∀ k : Fin 1, v10 (ix2 0 k) = a9 (ix1 k))
    (h19 : RowEq v19 r (val_main_v24 (F := Ideal) a2 a3) R)
    (h27 : RowEq v27 r (val_main_v30 (F := Ideal) a2) R) :
    RowEq (k0_pay8 (F := Ideal) v0 v5 v10 v19 v27) r (val_main_v36 (F := Ideal) a0 a2 a3 a8 a9) R := by
  have p3 := pay3_rel (r := r) (R := R) h0
  have p6 := pay6_rel (r := r) (R := R) h0 h5 h10 h19
  have p7 := pay7_rel (r := r) (R := R) h0 h5 h10 h27
  unfold k0_pay8
  unfold val_main_v36
  dsimp only
  try simp only [id_eq]
  rowauto

theorem pay9_rel {r : Fin 512} {R : Fin 65536} {v0 : Vec Ideal S512x80 .f32} {v5 : Vec Ideal S1x80 .f32} {v10 : Vec Ideal S1x1 .f32} {v19 : Vec Ideal S512x44 .f32}
    (h0 : RowEq v0 r a0 R)
    (h5 : ∀ k : Fin 80, v5 (ix2 0 k) = a8 (ix2 0 k))
    (h10 : ∀ k : Fin 1, v10 (ix2 0 k) = a9 (ix1 k))
    (h19 : RowEq v19 r (val_main_v24 (F := Ideal) a2 a3) R) :
    RowEq (k0_pay9 (F := Ideal) v0 v5 v10 v19) r (val_main_v37 (F := Ideal) a0 a2 a3 a8 a9) R := by
  have p6 := pay6_rel (r := r) (R := R) h0 h5 h10 h19
  unfold k0_pay9
  unfold val_main_v37
  dsimp only
  try simp only [id_eq]
  rowauto

theorem pay10_rel {r : Fin 512} {R : Fin 65536} {v0 : Vec Ideal S512x80 .f32} {v5 : Vec Ideal S1x80 .f32} {v10 : Vec Ideal S1x1 .f32} {v19 : Vec Ideal S512x44 .f32} {v27 : Vec Ideal S512x40 .f32} {v36 : Vec Ideal S512x164 .f32}
    (h0 : RowEq v0 r a0 R)
    (h5 : ∀ k : Fin 80, v5 (ix2 0 k) = a8 (ix2 0 k))
    (h10 : ∀ k : Fin 1, v10 (ix2 0 k) = a9 (ix1 k))
    (h19 : RowEq v19 r (val_main_v24 (F := Ideal) a2 a3) R)
    (h27 : RowEq v27 r (val_main_v30 (F := Ideal) a2) R)
    (h36 : RowEq v36 r a7 R) :
    RowEq (k0_pay10 (F := Ideal) v0 v5 v10 v19 v27 v36) r (val_main_v38 (F := Ideal) a0 a2 a3 a7 a8 a9) R := by
  have p8 := pay8_rel (r := r) (R := R) h0 h5 h10 h19 h27
  unfold k0_pay10
  unfold val_main_v38
  dsimp only
  try simp only [id_eq]
  rowauto

theorem pay11_rel {r : Fin 512} {R : Fin 65536} {v37 : FVec Ideal S512x328 .f32} {v39 : Vec Ideal S328x192 .bf16} {v44 : Vec Ideal S192x192 .bf16}
    (h37 : RowEq v37 r (val_main_v38 (F := Ideal) a0 a2 a3 a7 a8 a9) R)
    (h39 : ∀ (k : Fin 328) (j : Fin 192), v39 (ix2 k j) = a10 (ix2 j k))
    (h44 : ∀ (k : Fin 192) (j : Fin 192), v44 (ix2 k j) = a11 (ix2 j k)) :
    RowEq (k0_pay11 (F := Ideal) v37 v39 v44) r (val_main_v51 (F := Ideal) a0 a2 a3 a7 a8 a9 a10 a11) R := by
  unfold k0_pay11
  unfold val_main_v51 val_main_call4_v4 val_main_call4_v3 val_main_call4_v2 val_main_call4_v1 val_main_call4_v0 val_main_cst_12 val_main_cst_11 val_main_v50 val_main_v49 val_main_v48 val_main_cst_10 val_main_v47 val_main_v46 val_main_cst_9 val_main_v45 val_main_v44 val_main_v43 val_main_v42 val_main_v41 val_main_v40 val_main_v39
  dsimp only
  try simp only [id_eq]
  rowauto

theorem pay12_rel {r : Fin 512} {R : Fin 65536} {v37 : FVec Ideal S512x328 .f32} {v39 : Vec Ideal S328x192 .bf16} {v44 : Vec Ideal S192x192 .bf16} {v54 : Vec Ideal S192x4 .bf16} {v57 : Vec Ideal S1x4 .f32}
    (h37 : RowEq v37 r (val_main_v38 (F := Ideal) a0 a2 a3 a7 a8 a9) R)
    (h39 : ∀ (k : Fin 328) (j : Fin 192), v39 (ix2 k j) = a10 (ix2 j k))
    (h44 : ∀ (k : Fin 192) (j : Fin 192), v44 (ix2 k j) = a11 (ix2 j k))
    (h54 : ∀ (k : Fin 192) (j : Fin 4), v54 (ix2 k j) = a24 (ix2 j k))
    (h57 : ∀ k : Fin 4, v57 (ix2 0 k) = a25 (ix1 k)) :
    RowEq (k0_pay12 (F := Ideal) v37 v39 v44 v54 v57) r (val_main_v62 (F := Ideal) a0 a2 a3 a7 a8 a9 a10 a11 a24 a25) R := by
  have p11 := pay11_rel (r := r) (R := R) h37 h39 h44
  unfold k0_pay12
  unfold val_main_v62 val_main_v61 val_main_cst_14 val_main_v60 val_main_v59 val_main_cst_13 val_main_v58 val_main_v57 val_main_v56 val_main_v55 val_main_v54 val_main_v53 val_main_v52
  dsimp only
  try simp only [id_eq]
  rowauto

end Cert.Bridge

end
-- ==== Proof.Bridge2.lean ====
/-
  Row by row, the first recurrent cell: its input and hidden products, the new state
  `(1 - z) · c + z · h` with `r, z` logistic gates and `c = tanh (gi + r · gh)`, and its clipped gated output.
-/
import proofs.«180642_j50062138802934_2_alg».proof.Proof.Bridge1

set_option maxHeartbeats 1000000

noncomputable section

namespace Cert.Bridge

open Idealize.ShloMosaic Idealize.ShloMosaic.ValueIdx Cert.Rows Cert.KernelIdeal Cert.KernelIdeal.Gen Cert.ReferenceIdeal.ReadP

variable
  {a0 : (⟨Cert.ReferenceIdeal.S65536x80, .f32⟩ : BufTy).Contents (Elt Ideal)}
  {a1 : (⟨Cert.ReferenceIdeal.S65536x256, .f32⟩ : BufTy).Contents (Elt Ideal)}
  {a2 : (⟨Cert.ReferenceIdeal.S65536x256, .f32⟩ : BufTy).Contents (Elt Ideal)}
  {a3 : (⟨Cert.ReferenceIdeal.S65536, .i32⟩ : BufTy).Contents (Elt Ideal)}
  {a4 : (⟨Cert.ReferenceIdeal.S65536x160, .f32⟩ : BufTy).Contents (Elt Ideal)}
  {a5 : (⟨Cert.ReferenceIdeal.S65536x128, .f32⟩ : BufTy).Contents (Elt Ideal)}
  {a6 : (⟨Cert.ReferenceIdeal.S65536x128, .f32⟩ : BufTy).Contents (Elt Ideal)}
  {a7 : (⟨Cert.ReferenceIdeal.S65536x164, .f32⟩ : BufTy).Contents (Elt Ideal)}
  {a8 : (⟨Cert.ReferenceIdeal.S1x80, .f32⟩ : BufTy).Contents (Elt Ideal)}
  {a9 : (⟨Cert.ReferenceIdeal.S1, .f32⟩ : BufTy).Contents (Elt Ideal)}
  {a10 : (⟨Cert.ReferenceIdeal.S192x328, .f32⟩ : BufTy).Contents (Elt Ideal)}
  {a11 : (⟨Cert.ReferenceIdeal.S192x192, .f32⟩ : BufTy).Contents (Elt Ideal)}
  {a12 : (⟨Cert.ReferenceIdeal.S480x272, .f32⟩ : BufTy).Contents (Elt Ideal)}
  {a13 : (⟨Cert.ReferenceIdeal.S480x160, .f32⟩ : BufTy).Contents (Elt Ideal)}
  {a14 : (⟨Cert.ReferenceIdeal.S384x240, .f32⟩ : BufTy).Contents (Elt Ideal)}
  {a15 : (⟨Cert.ReferenceIdeal.S384x128, .f32⟩ : BufTy).Contents (Elt Ideal)}
  {a16 : (⟨Cert.ReferenceIdeal.S384x208, .f32⟩ : BufTy).Contents (Elt Ideal)}
  {a17 : (⟨Cert.ReferenceIdeal.S384x128, .f32⟩ : BufTy).Contents (Elt Ideal)}
  {a18 : (⟨Cert.ReferenceIdeal.S160x160, .f32⟩ : BufTy).Contents (Elt Ideal)}
  {a19 : (⟨Cert.ReferenceIdeal.S128x128, .f32⟩ : BufTy).Contents (Elt Ideal)}
  {a20 : (⟨Cert.ReferenceIdeal.S128x128, .f32⟩ : BufTy).Contents (Elt Ideal)}
  {a21 : (⟨Cert.ReferenceIdeal.S128x128, .f32⟩ : BufTy).Contents (Elt Ideal)}
  {a22 : (⟨Cert.ReferenceIdeal.S128x688, .f32⟩ : BufTy).Contents (Elt Ideal)}
  {a23 : (⟨Cert.ReferenceIdeal.S40x128, .f32⟩ : BufTy).Contents (Elt Ideal)}
  {a24 : (⟨Cert.ReferenceIdeal.S4x192, .f32⟩ : BufTy).Contents (Elt Ideal)}
  {a25 : (⟨Cert.ReferenceIdeal.S4, .f32⟩ : BufTy).Contents (Elt Ideal)}

theorem pay13_rel {r : Fin 512} {R : Fin 65536} {v33 : FVec Ideal S512x40 .f32} {v35 : FVec Ideal S512x40 .f32} {v37 : FVec Ideal S512x328 .f32} {v39 : Vec Ideal S328x192 .bf16} {v44 : Vec Ideal S192x192 .bf16} {v54 : Vec Ideal S192x4 .bf16} {v57 : Vec Ideal S1x4 .f32} {v68 : Vec Ideal S272x480 .bf16}
    (h33 : RowEq v33 r (val_main_v35 (F := Ideal) a0 a2 a8 a9) R)
    (h35 : RowEq v35 r (val_main_v37 (F := Ideal) a0 a2 a3 a8 a9) R)
    (h37 : RowEq v37 r (val_main_v38 (F := Ideal) a0 a2 a3 a7 a8 a9) R)
    (h39 : ∀ (k : Fin 328) (j : Fin 192), v39 (ix2 k j) = a10 (ix2 j k))
    (h44 : ∀ (k : Fin 192) (j : Fin 192), v44 (ix2 k j) = a11 (ix2 j k))
    (h54 : ∀ (k : Fin 192) (j : Fin 4), v54 (ix2 k j) = a24 (ix2 j k))
    (h57 : ∀ k : Fin 4, v57 (ix2 0 k) = a25 (ix1 k))
    (h68 : ∀ (k : Fin 272) (j : Fin 480), v68 (ix2 k j) = a12 (ix2 j k)) :
    RowEq (k0_pay13 (F := Ideal) v33 v35 v37 v39 v44 v54 v57 v68) r (val_main_v68 (F := Ideal) a0 a2 a3 a7 a8 a9 a10 a11 a12 a24 a25) R := by
  have p12 := pay12_rel (r := r) (R := R) h37 h39 h44 h54 h57
  have p11 := pay11_rel (r := r) (R := R) h37 h39 h44
  unfold k0_pay13
  unfold val_main_v68 val_main_v67 val_main_v66 val_main_v65 val_main_v64 val_main_v63
  dsimp only
  try simp only [id_eq]
  rowauto

theorem pay14_rel {r : Fin 512} {R : Fin 65536} {v66 : Vec Ideal S512x160 .f32} {v72 : Vec Ideal S160x480 .bf16}
    (h66 : RowEq v66 r a4 R)
    (h72 : ∀ (k : Fin 160) (j : Fin 480), v72 (ix2 k j) = a13 (ix2 j k)) :
    RowEq (k0_pay14 (F := Ideal) v66 v72) r (val_main_v70 (F := Ideal) a4 a13) R := by
  unfold k0_pay14
  unfold val_main_v70 val_main_v69
  dsimp only
  try simp only [id_eq]
  rowauto

theorem pay15_rel {r : Fin 512} {R : Fin 65536} {v33 : FVec Ideal S512x40 .f32} {v35 : FVec Ideal S512x40 .f32} {v37 : FVec Ideal S512x328 .f32} {v39 : Vec Ideal S328x192 .bf16} {v44 : Vec Ideal S192x192 .bf16} {v54 : Vec Ideal S192x4 .bf16} {v57 : Vec Ideal S1x4 .f32} {v68 : Vec Ideal S272x480 .bf16}
    (h33 : RowEq v33 r (val_main_v35 (F := Ideal) a0 a2 a8 a9) R)
    (h35 : RowEq v35 r (val_main_v37 (F := Ideal) a0 a2 a3 a8 a9) R)
    (h37 : RowEq v37 r (val_main_v38 (F := Ideal) a0 a2 a3 a7 a8 a9) R)
    (h39 : ∀ (k : Fin 328) (j : Fin 192), v39 (ix2 k j) = a10 (ix2 j k))
    (h44 : ∀ (k : Fin 192) (j : Fin 192), v44 (ix2 k j) = a11 (ix2 j k))
    (h54 : ∀ (k : Fin 192) (j : Fin 4), v54 (ix2 k j) = a24 (ix2 j k))
    (h57 : ∀ k : Fin 4, v57 (ix2 0 k) = a25 (ix1 k))
    (h68 : ∀ (k : Fin 272) (j : Fin 480), v68 (ix2 k j) = a12 (ix2 j k)) :
    RowEq (k0_pay15 (F := Ideal) v33 v35 v37 v39 v44 v54 v57 v68) r (val_main_v71 (F := Ideal) a0 a2 a3 a7 a8 a9 a10 a11 a12 a24 a25) R := by
  have p13 := pay13_rel (r := r) (R := R) h33 h35 h37 h39 h44 h54 h57 h68
  unfold k0_pay15
  unfold val_main_v71
  dsimp only
  try simp only [id_eq]
  rowauto

theorem pay16_rel {r : Fin 512} {R : Fin 65536} {v66 : Vec Ideal S512x160 .f32} {v72 : Vec Ideal S160x480 .bf16}
    (h66 : RowEq v66 r a4 R)
    (h72 : ∀ (k : Fin 160) (j : Fin 480), v72 (ix2 k j) = a13 (ix2 j k)) :
    RowEq (k0_pay16 (F := Ideal) v66 v72) r (val_main_v72 (F := Ideal) a4 a13) R := by
  have p14 := pay14_rel (r := r) (R := R) h66 h72
  unfold k0_pay16
  unfold val_main_v72
  dsimp only
  try simp only [id_eq]
  rowauto

theorem pay17_rel {r : Fin 512} {R : Fin 65536} {v66 : Vec Ideal S512x160 .f32} {v70 : FVec Ideal S512x480 .f32} {v74 : FVec Ideal S512x480 .f32} {v75 : FVec Ideal S512x160 .f32} {v76 : FVec Ideal S512x160 .f32}
    (h66 : RowEq v66 r a4 R)
    (h70 : RowEq v70 r (val_main_v68 (F := Ideal) a0 a2 a3 a7 a8 a9 a10 a11 a12 a24 a25) R)
    (h74 : RowEq v74 r (val_main_v70 (F := Ideal) a4 a13) R)
    (h75 : RowEq v75 r (val_main_v71 (F := Ideal) a0 a2 a3 a7 a8 a9 a10 a11 a12 a24 a25) R)
    (h76 : RowEq v76 r (val_main_v72 (F := Ideal) a4 a13) R) :
    RowEq (k0_pay17 (F := Ideal) v66 v70 v74 v75 v76) r (val_main_v98 (F := Ideal) a0 a2 a3 a4 a7 a8 a9 a10 a11 a12 a13 a24 a25) R := by
  unfold k0_pay17
  unfold val_main_v98 val_main_v97 val_main_v96 val_main_v95 val_main_v94 val_main_cst_19 val_main_v93 val_main_v92 val_main_v91 val_main_v90 val_main_v89 val_main_v88 val_main_v87 val_main_cst_18 val_main_v86 val_main_v85 val_main_cst_17 val_main_v84 val_main_v83 val_main_v82 val_main_v81 val_main_v80 val_main_v79 val_main_v78 val_main_cst_16 val_main_v77 val_main_v76 val_main_cst_15 val_main_v75 val_main_v74 val_main_v73
  dsimp only
  try simp only [id_eq]
  rowauto

theorem pay18_rel {r : Fin 512} {R : Fin 65536} {v66 : Vec Ideal S512x160 .f32} {v70 : FVec Ideal S512x480 .f32} {v74 : FVec Ideal S512x480 .f32} {v75 : FVec Ideal S512x160 .f32} {v76 : FVec Ideal S512x160 .f32} {v98 : Vec Ideal S160x160 .bf16}
    (h66 : RowEq v66 r a4 R)
    (h70 : RowEq v70 r (val_main_v68 (F := Ideal) a0 a2 a3 a7 a8 a9 a10 a11 a12 a24 a25) R)
    (h74 : RowEq v74 r (val_main_v70 (F := Ideal) a4 a13) R)
    (h75 : RowEq v75 r (val_main_v71 (F := Ideal) a0 a2 a3 a7 a8 a9 a10 a11 a12 a24 a25) R)
    (h76 : RowEq v76 r (val_main_v72 (F := Ideal) a4 a13) R)
    (h98 : ∀ (k : Fin 160) (j : Fin 160), v98 (ix2 k j) = a18 (ix2 j k)) :
    RowEq (k0_pay18 (F := Ideal) v66 v70 v74 v75 v76 v98) r (val_main_v109 (F := Ideal) a0 a2 a3 a4 a7 a8 a9 a10 a11 a12 a13 a18 a24 a25) R := by
  have p17 := pay17_rel (r := r) (R := R) h66 h70 h74 h75 h76
  unfold k0_pay18
  unfold val_main_v109 val_main_call6_v4 val_main_call6_v3 val_main_call6_v2 val_main_call6_v1 val_main_call6_v0 val_main_cst_25 val_main_cst_24 val_main_v108 val_main_v107 val_main_v106 val_main_cst_23 val_main_v105 val_main_v104 val_main_cst_22 val_main_v103 val_main_v102 val_main_v101 val_main_v100 val_main_v99 val_main_call5_v4 val_main_call5_v3 val_main_call5_v2 val_main_call5_v1 val_main_call5_v0 val_main_cst_21 val_main_cst_20
  dsimp only
  try simp only [id_eq]
  rowauto

end Cert.Bridge

end
-- ==== Proof.Bridge3.lean ====
/-
  Row by row, the second recurrent cell: products, new state and clipped gated output.
-/
import proofs.«180642_j50062138802934_2_alg».proof.Proof.Bridge2

set_option maxHeartbeats 1000000

noncomputable section

namespace Cert.Bridge

open Idealize.ShloMosaic Idealize.ShloMosaic.ValueIdx Cert.Rows Cert.KernelIdeal Cert.KernelIdeal.Gen Cert.ReferenceIdeal.ReadP

variable
  {a0 : (⟨Cert.ReferenceIdeal.S65536x80, .f32⟩ : BufTy).Contents (Elt Ideal)}
  {a1 : (⟨Cert.ReferenceIdeal.S65536x256, .f32⟩ : BufTy).Contents (Elt Ideal)}
  {a2 : (⟨Cert.ReferenceIdeal.S65536x256, .f32⟩ : BufTy).Contents (Elt Ideal)}
  {a3 : (⟨Cert.ReferenceIdeal.S65536, .i32⟩ : BufTy).Contents (Elt Ideal)}
  {a4 : (⟨Cert.ReferenceIdeal.S65536x160, .f32⟩ : BufTy).Contents (Elt Ideal)}
  {a5 : (⟨Cert.ReferenceIdeal.S65536x128, .f32⟩ : BufTy).Contents (Elt Ideal)}
  {a6 : (⟨Cert.ReferenceIdeal.S65536x128, .f32⟩ : BufTy).Contents (Elt Ideal)}
  {a7 : (⟨Cert.ReferenceIdeal.S65536x164, .f32⟩ : BufTy).Contents (Elt Ideal)}
  {a8 : (⟨Cert.ReferenceIdeal.S1x80, .f32⟩ : BufTy).Contents (Elt Ideal)}
  {a9 : (⟨Cert.ReferenceIdeal.S1, .f32⟩ : BufTy).Contents (Elt Ideal)}
  {a10 : (⟨Cert.ReferenceIdeal.S192x328, .f32⟩ : BufTy).Contents (Elt Ideal)}
  {a11 : (⟨Cert.ReferenceIdeal.S192x192, .f32⟩ : BufTy).Contents (Elt Ideal)}
  {a12 : (⟨Cert.ReferenceIdeal.S480x272, .f32⟩ : BufTy).Contents (Elt Ideal)}
  {a13 : (⟨Cert.ReferenceIdeal.S480x160, .f32⟩ : BufTy).Contents (Elt Ideal)}
  {a14 : (⟨Cert.ReferenceIdeal.S384x240, .f32⟩ : BufTy).Contents (Elt Ideal)}
  {a15 : (⟨Cert.ReferenceIdeal.S384x128, .f32⟩ : BufTy).Contents (Elt Ideal)}
  {a16 : (⟨Cert.ReferenceIdeal.S384x208, .f32⟩ : BufTy).Contents (Elt Ideal)}
  {a17 : (⟨Cert.ReferenceIdeal.S384x128, .f32⟩ : BufTy).Contents (Elt Ideal)}
  {a18 : (⟨Cert.ReferenceIdeal.S160x160, .f32⟩ : BufTy).Contents (Elt Ideal)}
  {a19 : (⟨Cert.ReferenceIdeal.S128x128, .f32⟩ : BufTy).Contents (Elt Ideal)}
  {a20 : (⟨Cert.ReferenceIdeal.S128x128, .f32⟩ : BufTy).Contents (Elt Ideal)}
  {a21 : (⟨Cert.ReferenceIdeal.S128x128, .f32⟩ : BufTy).Contents (Elt Ideal)}
  {a22 : (⟨Cert.ReferenceIdeal.S128x688, .f32⟩ : BufTy).Contents (Elt Ideal)}
  {a23 : (⟨Cert.ReferenceIdeal.S40x128, .f32⟩ : BufTy).Contents (Elt Ideal)}
  {a24 : (⟨Cert.ReferenceIdeal.S4x192, .f32⟩ : BufTy).Contents (Elt Ideal)}
  {a25 : (⟨Cert.ReferenceIdeal.S4, .f32⟩ : BufTy).Contents (Elt Ideal)}

theorem pay19_rel {r : Fin 512} {R : Fin 65536} {v33 : FVec Ideal S512x40 .f32} {v35 : FVec Ideal S512x40 .f32} {v61 : FVec Ideal S512x4 .f32} {v66 : Vec Ideal S512x160 .f32} {v70 : FVec Ideal S512x480 .f32} {v74 : FVec Ideal S512x480 .f32} {v75 : FVec Ideal S512x160 .f32} {v76 : FVec Ideal S512x160 .f32} {v98 : Vec Ideal S160x160 .bf16} {v113 : Vec Ideal S240x384 .bf16}
    (h33 : RowEq v33 r (val_main_v35 (F := Ideal) a0 a2 a8 a9) R)
    (h35 : RowEq v35 r (val_main_v37 (F := Ideal) a0 a2 a3 a8 a9) R)
    (h61 : RowEq v61 r (val_main_v62 (F := Ideal) a0 a2 a3 a7 a8 a9 a10 a11 a24 a25) R)
    (h66 : RowEq v66 r a4 R)
    (h70 : RowEq v70 r (val_main_v68 (F := Ideal) a0 a2 a3 a7 a8 a9 a10 a11 a12 a24 a25) R)
    (h74 : RowEq v74 r (val_main_v70 (F := Ideal) a4 a13) R)
    (h75 : RowEq v75 r (val_main_v71 (F := Ideal) a0 a2 a3 a7 a8 a9 a10 a11 a12 a24 a25) R)
    (h76 : RowEq v76 r (val_main_v72 (F := Ideal) a4 a13) R)
    (h98 : ∀ (k : Fin 160) (j : Fin 160), v98 (ix2 k j) = a18 (ix2 j k))
    (h113 : ∀ (k : Fin 240) (j : Fin 384), v113 (ix2 k j) = a14 (ix2 j k)) :
    RowEq (k0_pay19 (F := Ideal) v33 v35 v61 v66 v70 v74 v75 v76 v98 v113) r (val_main_v115 (F := Ideal) a0 a2 a3 a4 a7 a8 a9 a10 a11 a12 a13 a14 a18 a24 a25) R := by
  have p18 := pay18_rel (r := r) (R := R) h66 h70 h74 h75 h76 h98
  unfold k0_pay19
  unfold val_main_v115 val_main_v114 val_main_v113 val_main_v112 val_main_v111 val_main_v110
  dsimp only
  try simp only [id_eq]
  rowauto

theorem pay20_rel {r : Fin 512} {R : Fin 65536} {v111 : Vec Ideal S512x128 .f32} {v117 : Vec Ideal S128x384 .bf16}
    (h111 : RowEq v111 r a5 R)
    (h117 : ∀ (k : Fin 128) (j : Fin 384), v117 (ix2 k j) = a15 (ix2 j k)) :
    RowEq (k0_pay20 (F := Ideal) v111 v117) r (val_main_v117 (F := Ideal) a5 a15) R := by
  unfold k0_pay20
  unfold val_main_v117 val_main_v116
  dsimp only
  try simp only [id_eq]
  rowauto

theorem pay21_rel {r : Fin 512} {R : Fin 65536} {v33 : FVec Ideal S512x40 .f32} {v35 : FVec Ideal S512x40 .f32} {v61 : FVec Ideal S512x4 .f32} {v66 : Vec Ideal S512x160 .f32} {v70 : FVec Ideal S512x480 .f32} {v74 : FVec Ideal S512x480 .f32} {v75 : FVec Ideal S512x160 .f32} {v76 : FVec Ideal S512x160 .f32} {v98 : Vec Ideal S160x160 .bf16} {v113 : Vec Ideal S240x384 .bf16}
    (h33 : RowEq v33 r (val_main_v35 (F := Ideal) a0 a2 a8 a9) R)
    (h35 : RowEq v35 r (val_main_v37 (F := Ideal) a0 a2 a3 a8 a9) R)
    (h61 : RowEq v61 r (val_main_v62 (F := Ideal) a0 a2 a3 a7 a8 a9 a10 a11 a24 a25) R)
    (h66 : RowEq v66 r a4 R)
    (h70 : RowEq v70 r (val_main_v68 (F := Ideal) a0 a2 a3 a7 a8 a9 a10 a11 a12 a24 a25) R)
    (h74 : RowEq v74 r (val_main_v70 (F := Ideal) a4 a13) R)
    (h75 : RowEq v75 r (val_main_v71 (F := Ideal) a0 a2 a3 a7 a8 a9 a10 a11 a12 a24 a25) R)
    (h76 : RowEq v76 r (val_main_v72 (F := Ideal) a4 a13) R)
    (h98 : ∀ (k : Fin 160) (j : Fin 160), v98 (ix2 k j) = a18 (ix2 j k))
    (h113 : ∀ (k : Fin 240) (j : Fin 384), v113 (ix2 k j) = a14 (ix2 j k)) :
    RowEq (k0_pay21 (F := Ideal) v33 v35 v61 v66 v70 v74 v75 v76 v98 v113) r (val_main_v118 (F := Ideal) a0 a2 a3 a4 a7 a8 a9 a10 a11 a12 a13 a14 a18 a24 a25) R := by
  have p19 := pay19_rel (r := r) (R := R) h33 h35 h61 h66 h70 h74 h75 h76 h98 h113
  unfold k0_pay21
  unfold val_main_v118
  dsimp only
  try simp only [id_eq]
  rowauto

theorem pay22_rel {r : Fin 512} {R : Fin 65536} {v111 : Vec Ideal S512x128 .f32} {v115 : FVec Ideal S512x384 .f32} {v119 : FVec Ideal S512x384 .f32} {v120 : FVec Ideal S512x128 .f32}
    (h111 : RowEq v111 r a5 R)
    (h115 : RowEq v115 r (val_main_v115 (F := Ideal) a0 a2 a3 a4 a7 a8 a9 a10 a11 a12 a13 a14 a18 a24 a25) R)
    (h119 : RowEq v119 r (val_main_v117 (F := Ideal) a5 a15) R)
    (h120 : RowEq v120 r (val_main_v118 (F := Ideal) a0 a2 a3 a4 a7 a8 a9 a10 a11 a12 a13 a14 a18 a24 a25) R) :
    RowEq (k0_pay22 (F := Ideal) v111 v115 v119 v120) r (val_main_v145 (F := Ideal) a0 a2 a3 a4 a5 a7 a8 a9 a10 a11 a12 a13 a14 a15 a18 a24 a25) R := by
  unfold k0_pay22
  unfold val_main_v145 val_main_v144 val_main_v143 val_main_v142 val_main_v141 val_main_cst_30 val_main_v140 val_main_v139 val_main_v138 val_main_v137 val_main_v136 val_main_v135 val_main_v134 val_main_cst_29 val_main_v133 val_main_v132 val_main_cst_28 val_main_v131 val_main_v130 val_main_v129 val_main_v128 val_main_v127 val_main_v126 val_main_v125 val_main_cst_27 val_main_v124 val_main_v123 val_main_cst_26 val_main_v122 val_main_v121 val_main_v120 val_main_v119
  dsimp only
  try simp only [id_eq]
  rowauto

theorem pay23_rel {r : Fin 512} {R : Fin 65536} {v111 : Vec Ideal S512x128 .f32} {v115 : FVec Ideal S512x384 .f32} {v119 : FVec Ideal S512x384 .f32} {v120 : FVec Ideal S512x128 .f32} {v143 : Vec Ideal S128x128 .bf16}
    (h111 : RowEq v111 r a5 R)
    (h115 : RowEq v115 r (val_main_v115 (F := Ideal) a0 a2 a3 a4 a7 a8 a9 a10 a11 a12 a13 a14 a18 a24 a25) R)
    (h119 : RowEq v119 r (val_main_v117 (F := Ideal) a5 a15) R)
    (h120 : RowEq v120 r (val_main_v118 (F := Ideal) a0 a2 a3 a4 a7 a8 a9 a10 a11 a12 a13 a14 a18 a24 a25) R)
    (h143 : ∀ (k : Fin 128) (j : Fin 128), v143 (ix2 k j) = a19 (ix2 j k)) :
    RowEq (k0_pay23 (F := Ideal) v111 v115 v119 v120 v143) r (val_main_v156 (F := Ideal) a0 a2 a3 a4 a5 a7 a8 a9 a10 a11 a12 a13 a14 a15 a18 a19 a24 a25) R := by
  have p22 := pay22_rel (r := r) (R := R) h111 h115 h119 h120
  unfold k0_pay23
  unfold val_main_v156 val_main_call8_v4 val_main_call8_v3 val_main_call8_v2 val_main_call8_v1 val_main_call8_v0 val_main_cst_36 val_main_cst_35 val_main_v155 val_main_v154 val_main_v153 val_main_cst_34 val_main_v152 val_main_v151 val_main_cst_33 val_main_v150 val_main_v149 val_main_v148 val_main_v147 val_main_v146 val_main_call7_v4 val_main_call7_v3 val_main_call7_v2 val_main_call7_v1 val_main_call7_v0 val_main_cst_32 val_main_cst_31
  dsimp only
  try simp only [id_eq]
  rowauto

end Cert.Bridge

end
-- ==== Proof.Bridge4.lean ====
/-
  Row by row, the third recurrent cell, the skip layer over the concatenated outputs, the output signal
  `tanh (skip · W) · gain`, and the two shifted memories (the old memory's last 216 columns followed by 40 new ones).
-/
import proofs.«180642_j50062138802934_2_alg».proof.Proof.Bridge3

set_option maxHeartbeats 1000000

noncomputable section

namespace Cert.Bridge

open Idealize.ShloMosaic Idealize.ShloMosaic.ValueIdx Cert.Rows Cert.KernelIdeal Cert.KernelIdeal.Gen Cert.ReferenceIdeal.ReadP

variable
  {a0 : (⟨Cert.ReferenceIdeal.S65536x80, .f32⟩ : BufTy).Contents (Elt Ideal)}
  {a1 : (⟨Cert.ReferenceIdeal.S65536x256, .f32⟩ : BufTy).Contents (Elt Ideal)}
  {a2 : (⟨Cert.ReferenceIdeal.S65536x256, .f32⟩ : BufTy).Contents (Elt Ideal)}
  {a3 : (⟨Cert.ReferenceIdeal.S65536, .i32⟩ : BufTy).Contents (Elt Ideal)}
  {a4 : (⟨Cert.ReferenceIdeal.S65536x160, .f32⟩ : BufTy).Contents (Elt Ideal)}
  {a5 : (⟨Cert.ReferenceIdeal.S65536x128, .f32⟩ : BufTy).Contents (Elt Ideal)}
  {a6 : (⟨Cert.ReferenceIdeal.S65536x128, .f32⟩ : BufTy).Contents (Elt Ideal)}
  {a7 : (⟨Cert.ReferenceIdeal.S65536x164, .f32⟩ : BufTy).Contents (Elt Ideal)}
  {a8 : (⟨Cert.ReferenceIdeal.S1x80, .f32⟩ : BufTy).Contents (Elt Ideal)}
  {a9 : (⟨Cert.ReferenceIdeal.S1, .f32⟩ : BufTy).Contents (Elt Ideal)}
  {a10 : (⟨Cert.ReferenceIdeal.S192x328, .f32⟩ : BufTy).Contents (Elt Ideal)}
  {a11 : (⟨Cert.ReferenceIdeal.S192x192, .f32⟩ : BufTy).Contents (Elt Ideal)}
  {a12 : (⟨Cert.ReferenceIdeal.S480x272, .f32⟩ : BufTy).Contents (Elt Ideal)}
  {a13 : (⟨Cert.ReferenceIdeal.S480x160, .f32⟩ : BufTy).Contents (Elt Ideal)}
  {a14 : (⟨Cert.ReferenceIdeal.S384x240, .f32⟩ : BufTy).Contents (Elt Ideal)}
  {a15 : (⟨Cert.ReferenceIdeal.S384x128, .f32⟩ : BufTy).Contents (Elt Ideal)}
  {a16 : (⟨Cert.ReferenceIdeal.S384x208, .f32⟩ : BufTy).Contents (Elt Ideal)}
  {a17 : (⟨Cert.ReferenceIdeal.S384x128, .f32⟩ : BufTy).Contents (Elt Ideal)}
  {a18 : (⟨Cert.ReferenceIdeal.S160x160, .f32⟩ : BufTy).Contents (Elt Ideal)}
  {a19 : (⟨Cert.ReferenceIdeal.S128x128, .f32⟩ : BufTy).Contents (Elt Ideal)}
  {a20 : (⟨Cert.ReferenceIdeal.S128x128, .f32⟩ : BufTy).Contents (Elt Ideal)}
  {a21 : (⟨Cert.ReferenceIdeal.S128x128, .f32⟩ : BufTy).Contents (Elt Ideal)}
  {a22 : (⟨Cert.ReferenceIdeal.S128x688, .f32⟩ : BufTy).Contents (Elt Ideal)}
  {a23 : (⟨Cert.ReferenceIdeal.S40x128, .f32⟩ : BufTy).Contents (Elt Ideal)}
  {a24 : (⟨Cert.ReferenceIdeal.S4x192, .f32⟩ : BufTy).Contents (Elt Ideal)}
  {a25 : (⟨Cert.ReferenceIdeal.S4, .f32⟩ : BufTy).Contents (Elt Ideal)}

theorem pay24_rel {r : Fin 512} {R : Fin 65536} {v33 : FVec Ideal S512x40 .f32} {v35 : FVec Ideal S512x40 .f32} {v61 : FVec Ideal S512x4 .f32} {v111 : Vec Ideal S512x128 .f32} {v115 : FVec Ideal S512x384 .f32} {v119 : FVec Ideal S512x384 .f32} {v120 : FVec Ideal S512x128 .f32} {v143 : Vec Ideal S128x128 .bf16} {v158 : Vec Ideal S208x384 .bf16}
    (h33 : RowEq v33 r (val_main_v35 (F := Ideal) a0 a2 a8 a9) R)
    (h35 : RowEq v35 r (val_main_v37 (F := Ideal) a0 a2 a3 a8 a9) R)
    (h61 : RowEq v61 r (val_main_v62 (F := Ideal) a0 a2 a3 a7 a8 a9 a10 a11 a24 a25) R)
    (h111 : RowEq v111 r a5 R)
    (h115 : RowEq v115 r (val_main_v115 (F := Ideal) a0 a2 a3 a4 a7 a8 a9 a10 a11 a12 a13 a14 a18 a24 a25) R)
    (h119 : RowEq v119 r (val_main_v117 (F := Ideal) a5 a15) R)
    (h120 : RowEq v120 r (val_main_v118 (F := Ideal) a0 a2 a3 a4 a7 a8 a9 a10 a11 a12 a13 a14 a18 a24 a25) R)
    (h143 : ∀ (k : Fin 128) (j : Fin 128), v143 (ix2 k j) = a19 (ix2 j k))
    (h158 : ∀ (k : Fin 208) (j : Fin 384), v158 (ix2 k j) = a16 (ix2 j k)) :
    RowEq (k0_pay24 (F := Ideal) v33 v35 v61 v111 v115 v119 v120 v143 v158) r (val_main_v162 (F := Ideal) a0 a2 a3 a4 a5 a7 a8 a9 a10 a11 a12 a13 a14 a15 a16 a18 a19 a24 a25) R := by
  have p23 := pay23_rel (r := r) (R := R) h111 h115 h119 h120 h143
  unfold k0_pay24
  unfold val_main_v162 val_main_v161 val_main_v160 val_main_v159 val_main_v158 val_main_v157
  dsimp only
  try simp only [id_eq]
  rowauto

theorem pay25_rel {r : Fin 512} {R : Fin 65536} {v156 : Vec Ideal S512x128 .f32} {v162 : Vec Ideal S128x384 .bf16}
    (h156 : RowEq v156 r a6 R)
    (h162 : ∀ (k : Fin 128) (j : Fin 384), v162 (ix2 k j) = a17 (ix2 j k)) :
    RowEq (k0_pay25 (F := Ideal) v156 v162) r (val_main_v164 (F := Ideal) a6 a17) R := by
  unfold k0_pay25
  unfold val_main_v164 val_main_v163
  dsimp only
  try simp only [id_eq]
  rowauto

theorem pay26_rel {r : Fin 512} {R : Fin 65536} {v156 : Vec Ideal S512x128 .f32} {v160 : FVec Ideal S512x384 .f32} {v164 : FVec Ideal S512x384 .f32}
    (h156 : RowEq v156 r a6 R)
    (h160 : RowEq v160 r (val_main_v162 (F := Ideal) a0 a2 a3 a4 a5 a7 a8 a9 a10 a11 a12 a13 a14 a15 a16 a18 a19 a24 a25) R)
    (h164 : RowEq v164 r (val_main_v164 (F := Ideal) a6 a17) R) :
    RowEq (k0_pay26 (F := Ideal) v156 v160 v164) r (val_main_v192 (F := Ideal) a0 a2 a3 a4 a5 a6 a7 a8 a9 a10 a11 a12 a13 a14 a15 a16 a17 a18 a19 a24 a25) R := by
  unfold k0_pay26
  unfold val_main_v192 val_main_v191 val_main_v190 val_main_v189 val_main_v188 val_main_cst_41 val_main_v187 val_main_v186 val_main_v185 val_main_v184 val_main_v183 val_main_v182 val_main_v181 val_main_cst_40 val_main_v180 val_main_v179 val_main_cst_39 val_main_v178 val_main_v177 val_main_v176 val_main_v175 val_main_v174 val_main_v173 val_main_v172 val_main_cst_38 val_main_v171 val_main_v170 val_main_cst_37 val_main_v169 val_main_v168 val_main_v167 val_main_v166 val_main_v165
  dsimp only
  try simp only [id_eq]
  rowauto

theorem pay27_rel {r : Fin 512} {R : Fin 65536} {v33 : FVec Ideal S512x40 .f32} {v35 : FVec Ideal S512x40 .f32} {v52 : FVec Ideal S512x192 .f32} {v61 : FVec Ideal S512x4 .f32} {v106 : FVec Ideal S512x160 .f32} {v151 : FVec Ideal S512x128 .f32} {v156 : Vec Ideal S512x128 .f32} {v160 : FVec Ideal S512x384 .f32} {v164 : FVec Ideal S512x384 .f32} {v188 : Vec Ideal S128x128 .bf16} {v203 : Vec Ideal S688x128 .bf16}
    (h33 : RowEq v33 r (val_main_v35 (F := Ideal) a0 a2 a8 a9) R)
    (h35 : RowEq v35 r (val_main_v37 (F := Ideal) a0 a2 a3 a8 a9) R)
    (h52 : RowEq v52 r (val_main_v51 (F := Ideal) a0 a2 a3 a7 a8 a9 a10 a11) R)
    (h61 : RowEq v61 r (val_main_v62 (F := Ideal) a0 a2 a3 a7 a8 a9 a10 a11 a24 a25) R)
    (h106 : RowEq v106 r (val_main_v109 (F := Ideal) a0 a2 a3 a4 a7 a8 a9 a10 a11 a12 a13 a18 a24 a25) R)
    (h151 : RowEq v151 r (val_main_v156 (F := Ideal) a0 a2 a3 a4 a5 a7 a8 a9 a10 a11 a12 a13 a14 a15 a18 a19 a24 a25) R)
    (h156 : RowEq v156 r a6 R)
    (h160 : RowEq v160 r (val_main_v162 (F := Ideal) a0 a2 a3 a4 a5 a7 a8 a9 a10 a11 a12 a13 a14 a15 a16 a18 a19 a24 a25) R)
    (h164 : RowEq v164 r (val_main_v164 (F := Ideal) a6 a17) R)
    (h188 : ∀ (k : Fin 128) (j : Fin 128), v188 (ix2 k j) = a20 (ix2 j k))
    (h203 : ∀ (k : Fin 688) (j : Fin 128), v203 (ix2 k j) = a22 (ix2 j k)) :
    RowEq (k0_pay27 (F := Ideal) v33 v35 v52 v61 v106 v151 v156 v160 v164 v188 v203) r (val_main_v212 (F := Ideal) a0 a2 a3 a4 a5 a6 a7 a8 a9 a10 a11 a12 a13 a14 a15 a16 a17 a18 a19 a20 a22 a24 a25) R := by
  have p26 := pay26_rel (r := r) (R := R) h156 h160 h164
  unfold k0_pay27
  unfold val_main_v212 val_main_call11_v4 val_main_call11_v3 val_main_call11_v2 val_main_call11_v1 val_main_call11_v0 val_main_cst_49 val_main_cst_48 val_main_v211 val_main_v210 val_main_v209 val_main_v208 val_main_v207 val_main_v206 val_main_v205 val_main_v204 val_main_v203 val_main_call10_v4 val_main_call10_v3 val_main_call10_v2 val_main_call10_v1 val_main_call10_v0 val_main_cst_47 val_main_cst_46 val_main_v202 val_main_v201 val_main_v200 val_main_cst_45 val_main_v199 val_main_v198 val_main_cst_44 val_main_v197 val_main_v196 val_main_v195 val_main_v194 val_main_v193 val_main_call9_v4 val_main_call9_v3 val_main_call9_v2 val_main_call9_v1 val_main_call9_v0 val_main_cst_43 val_main_cst_42
  dsimp only
  try simp only [id_eq]
  rowauto

theorem pay28_rel {r : Fin 512} {R : Fin 65536} {v33 : FVec Ideal S512x40 .f32} {v35 : FVec Ideal S512x40 .f32} {v52 : FVec Ideal S512x192 .f32} {v61 : FVec Ideal S512x4 .f32} {v106 : FVec Ideal S512x160 .f32} {v151 : FVec Ideal S512x128 .f32} {v156 : Vec Ideal S512x128 .f32} {v160 : FVec Ideal S512x384 .f32} {v164 : FVec Ideal S512x384 .f32} {v188 : Vec Ideal S128x128 .bf16} {v203 : Vec Ideal S688x128 .bf16}
    (h33 : RowEq v33 r (val_main_v35 (F := Ideal) a0 a2 a8 a9) R)
    (h35 : RowEq v35 r (val_main_v37 (F := Ideal) a0 a2 a3 a8 a9) R)
    (h52 : RowEq v52 r (val_main_v51 (F := Ideal) a0 a2 a3 a7 a8 a9 a10 a11) R)
    (h61 : RowEq v61 r (val_main_v62 (F := Ideal) a0 a2 a3 a7 a8 a9 a10 a11 a24 a25) R)
    (h106 : RowEq v106 r (val_main_v109 (F := Ideal) a0 a2 a3 a4 a7 a8 a9 a10 a11 a12 a13 a18 a24 a25) R)
    (h151 : RowEq v151 r (val_main_v156 (F := Ideal) a0 a2 a3 a4 a5 a7 a8 a9 a10 a11 a12 a13 a14 a15 a18 a19 a24 a25) R)
    (h156 : RowEq v156 r a6 R)
    (h160 : RowEq v160 r (val_main_v162 (F := Ideal) a0 a2 a3 a4 a5 a7 a8 a9 a10 a11 a12 a13 a14 a15 a16 a18 a19 a24 a25) R)
    (h164 : RowEq v164 r (val_main_v164 (F := Ideal) a6 a17) R)
    (h188 : ∀ (k : Fin 128) (j : Fin 128), v188 (ix2 k j) = a20 (ix2 j k))
    (h203 : ∀ (k : Fin 688) (j : Fin 128), v203 (ix2 k j) = a22 (ix2 j k)) :
    RowEq (k0_pay28 (F := Ideal) v33 v35 v52 v61 v106 v151 v156 v160 v164 v188 v203) r (val_main_v212 (F := Ideal) a0 a2 a3 a4 a5 a6 a7 a8 a9 a10 a11 a12 a13 a14 a15 a16 a17 a18 a19 a20 a22 a24 a25) R := by
  have p27 := pay27_rel (r := r) (R := R) h33 h35 h52 h61 h106 h151 h156 h160 h164 h188 h203
  unfold k0_pay28
  dsimp only
  try simp only [id_eq]
  rowauto

theorem pay1_rel {r : Fin 512} {R : Fin 65536} {v14 : FVec Ideal S512x1 .f32} {v210 : FVec Ideal S512x128 .f32} {v211 : FVec Ideal S512x128 .bf16} {v212 : Vec Ideal S128x128 .bf16} {v218 : Vec Ideal S128x40 .bf16} {v224 : Vec Ideal S512x216 .f32}
    (h14 : RowEq v14 r (val_main_v6 (F := Ideal) a0 a8 a9) R)
    (h210 : RowEq v210 r (val_main_v212 (F := Ideal) a0 a2 a3 a4 a5 a6 a7 a8 a9 a10 a11 a12 a13 a14 a15 a16 a17 a18 a19 a20 a22 a24 a25) R)
    (h211 : RowEq v211 r (val_main_v212 (F := Ideal) a0 a2 a3 a4 a5 a6 a7 a8 a9 a10 a11 a12 a13 a14 a15 a16 a17 a18 a19 a20 a22 a24 a25) R)
    (h212 : ∀ (k : Fin 128) (j : Fin 128), v212 (ix2 k j) = a21 (ix2 j k))
    (h218 : ∀ (k : Fin 128) (j : Fin 40), v218 (ix2 k j) = a23 (ix2 j k))
    (h224 : RowEq v224 r (val_main_v227 (F := Ideal) a2) R) :
    RowEq (k0_pay1 (F := Ideal) v14 v210 v211 v212 v218 v224) r (val_main_v228 (F := Ideal) a0 a2 a3 a4 a5 a6 a7 a8 a9 a10 a11 a12 a13 a14 a15 a16 a17 a18 a19 a20 a21 a22 a23 a24 a25) R := by
  unfold k0_pay1
  unfold val_main_v228 val_main_v226 val_main_v225 val_main_v224 val_main_v223 val_main_v222 val_main_v221 val_main_v220 val_main_v219 val_main_cst_51 val_main_v218 val_main_v217 val_main_cst_50 val_main_v216 val_main_v215 val_main_v214 val_main_v213
  dsimp only
  try simp only [id_eq]
  rowauto

theorem pay2_rel {r : Fin 512} {R : Fin 65536} {v35 : FVec Ideal S512x40 .f32} {v226 : Vec Ideal S512x216 .f32}
    (h35 : RowEq v35 r (val_main_v37 (F := Ideal) a0 a2 a3 a8 a9) R)
    (h226 : RowEq v226 r (val_main_v229 (F := Ideal) a1) R) :
    RowEq (k0_pay2 (F := Ideal) v35 v226) r (val_main_v230 (F := Ideal) a0 a1 a2 a3 a8 a9) R := by
  unfold k0_pay2
  unfold val_main_v230
  dsimp only
  try simp only [id_eq]
  rowauto

end Cert.Bridge

end
-- ==== Proof.OutRel.lean ====
/-
  Row by row, what the kernel's body leaves in each of its six output blocks at a grid point is the reference's result:
  the body stores each output block whole, in one store, so the block is that store's value; the values it is computed
  from are the input blocks as loaded (whole, or a rectangle of columns of the excitation memories).
-/
import proofs.«180642_j50062138802934_2_alg».proof.Proof.Bridge4
import proofs.«180642_j50062138802934_2_alg».proof.Proof.FrameKernelIdealP

set_option maxHeartbeats 1000000

noncomputable section

namespace Cert.Bridge

open Idealize.ShloMosaic Idealize.ShloMosaic.ValueIdx Cert.Rows Cert.KernelIdeal Cert.KernelIdeal.Gen Cert.KernelIdeal.GenP Cert.ReferenceIdeal.ReadP

variable
  {a0 : (⟨Cert.ReferenceIdeal.S65536x80, .f32⟩ : BufTy).Contents (Elt Ideal)}
  {a1 : (⟨Cert.ReferenceIdeal.S65536x256, .f32⟩ : BufTy).Contents (Elt Ideal)}
  {a2 : (⟨Cert.ReferenceIdeal.S65536x256, .f32⟩ : BufTy).Contents (Elt Ideal)}
  {a3 : (⟨Cert.ReferenceIdeal.S65536, .i32⟩ : BufTy).Contents (Elt Ideal)}
  {a4 : (⟨Cert.ReferenceIdeal.S65536x160, .f32⟩ : BufTy).Contents (Elt Ideal)}
  {a5 : (⟨Cert.ReferenceIdeal.S65536x128, .f32⟩ : BufTy).Contents (Elt Ideal)}
  {a6 : (⟨Cert.ReferenceIdeal.S65536x128, .f32⟩ : BufTy).Contents (Elt Ideal)}
  {a7 : (⟨Cert.ReferenceIdeal.S65536x164, .f32⟩ : BufTy).Contents (Elt Ideal)}
  {a8 : (⟨Cert.ReferenceIdeal.S1x80, .f32⟩ : BufTy).Contents (Elt Ideal)}
  {a9 : (⟨Cert.ReferenceIdeal.S1, .f32⟩ : BufTy).Contents (Elt Ideal)}
  {a10 : (⟨Cert.ReferenceIdeal.S192x328, .f32⟩ : BufTy).Contents (Elt Ideal)}
  {a11 : (⟨Cert.ReferenceIdeal.S192x192, .f32⟩ : BufTy).Contents (Elt Ideal)}
  {a12 : (⟨Cert.ReferenceIdeal.S480x272, .f32⟩ : BufTy).Contents (Elt Ideal)}
  {a13 : (⟨Cert.ReferenceIdeal.S480x160, .f32⟩ : BufTy).Contents (Elt Ideal)}
  {a14 : (⟨Cert.ReferenceIdeal.S384x240, .f32⟩ : BufTy).Contents (Elt Ideal)}
  {a15 : (⟨Cert.ReferenceIdeal.S384x128, .f32⟩ : BufTy).Contents (Elt Ideal)}
  {a16 : (⟨Cert.ReferenceIdeal.S384x208, .f32⟩ : BufTy).Contents (Elt Ideal)}
  {a17 : (⟨Cert.ReferenceIdeal.S384x128, .f32⟩ : BufTy).Contents (Elt Ideal)}
  {a18 : (⟨Cert.ReferenceIdeal.S160x160, .f32⟩ : BufTy).Contents (Elt Ideal)}
  {a19 : (⟨Cert.ReferenceIdeal.S128x128, .f32⟩ : BufTy).Contents (Elt Ideal)}
  {a20 : (⟨Cert.ReferenceIdeal.S128x128, .f32⟩ : BufTy).Contents (Elt Ideal)}
  {a21 : (⟨Cert.ReferenceIdeal.S128x128, .f32⟩ : BufTy).Contents (Elt Ideal)}
  {a22 : (⟨Cert.ReferenceIdeal.S128x688, .f32⟩ : BufTy).Contents (Elt Ideal)}
  {a23 : (⟨Cert.ReferenceIdeal.S40x128, .f32⟩ : BufTy).Contents (Elt Ideal)}
  {a24 : (⟨Cert.ReferenceIdeal.S4x192, .f32⟩ : BufTy).Contents (Elt Ideal)}
  {a25 : (⟨Cert.ReferenceIdeal.S4, .f32⟩ : BufTy).Contents (Elt Ideal)}

theorem out31_rel {r : Fin 512} {R : Fin 65536} {x0 : Vec Ideal S512x80 .f32} {x1 : Vec Ideal S512x44 .f32} {x2 : Vec Ideal S512x256 .f32} {x3 : Vec Ideal S512x256 .f32} {x4 : Vec Ideal S512x160 .f32} {x5 : Vec Ideal S512x128 .f32} {x6 : Vec Ideal S512x128 .f32} {x7 : Vec Ideal S512x164 .f32} {x8 : Vec Ideal S1x80 .f32} {x9 : Vec Ideal S1x1 .f32} {x10 : Vec Ideal S328x192 .bf16} {x11 : Vec Ideal S192x192 .bf16} {x12 : Vec Ideal S272x480 .bf16} {x13 : Vec Ideal S160x480 .bf16} {x14 : Vec Ideal S240x384 .bf16} {x15 : Vec Ideal S128x384 .bf16} {x16 : Vec Ideal S208x384 .bf16} {x17 : Vec Ideal S128x384 .bf16} {x18 : Vec Ideal S160x160 .bf16} {x19 : Vec Ideal S128x128 .bf16} {x20 : Vec Ideal S128x128 .bf16} {x21 : Vec Ideal S128x128 .bf16} {x22 : Vec Ideal S688x128 .bf16} {x23 : Vec Ideal S128x40 .bf16} {x24 : Vec Ideal S192x4 .bf16} {x25 : Vec Ideal S1x4 .f32}
    (H0 : RowEq x0 r a0 R)
    (H1 : RowEq x1 r (val_main_v24 (F := Ideal) a2 a3) R)
    (H2 : RowEq x2 r a2 R)
    (H3 : RowEq x3 r a1 R)
    (H4 : RowEq x4 r a4 R)
    (H5 : RowEq x5 r a5 R)
    (H6 : RowEq x6 r a6 R)
    (H7 : RowEq x7 r a7 R)
    (H8 : ∀ k : Fin 80, x8 (ix2 0 k) = a8 (ix2 0 k))
    (H9 : ∀ k : Fin 1, x9 (ix2 0 k) = a9 (ix1 k))
    (H10 : ∀ (k : Fin 328) (j : Fin 192), x10 (ix2 k j) = a10 (ix2 j k))
    (H11 : ∀ (k : Fin 192) (j : Fin 192), x11 (ix2 k j) = a11 (ix2 j k))
    (H12 : ∀ (k : Fin 272) (j : Fin 480), x12 (ix2 k j) = a12 (ix2 j k))
    (H13 : ∀ (k : Fin 160) (j : Fin 480), x13 (ix2 k j) = a13 (ix2 j k))
    (H14 : ∀ (k : Fin 240) (j : Fin 384), x14 (ix2 k j) = a14 (ix2 j k))
    (H15 : ∀ (k : Fin 128) (j : Fin 384), x15 (ix2 k j) = a15 (ix2 j k))
    (H16 : ∀ (k : Fin 208) (j : Fin 384), x16 (ix2 k j) = a16 (ix2 j k))
    (H17 : ∀ (k : Fin 128) (j : Fin 384), x17 (ix2 k j) = a17 (ix2 j k))
    (H18 : ∀ (k : Fin 160) (j : Fin 160), x18 (ix2 k j) = a18 (ix2 j k))
    (H19 : ∀ (k : Fin 128) (j : Fin 128), x19 (ix2 k j) = a19 (ix2 j k))
    (H20 : ∀ (k : Fin 128) (j : Fin 128), x20 (ix2 k j) = a20 (ix2 j k))
    (H21 : ∀ (k : Fin 128) (j : Fin 128), x21 (ix2 k j) = a21 (ix2 j k))
    (H22 : ∀ (k : Fin 688) (j : Fin 128), x22 (ix2 k j) = a22 (ix2 j k))
    (H23 : ∀ (k : Fin 128) (j : Fin 40), x23 (ix2 k j) = a23 (ix2 j k))
    (H24 : ∀ (k : Fin 192) (j : Fin 4), x24 (ix2 k j) = a24 (ix2 j k))
    (H25 : ∀ k : Fin 4, x25 (ix2 0 k) = a25 (ix1 k)) :
    RowEq (GenP.out0_31 (F := Ideal) x0 x1 x2 x3 x4 x5 x6 x7 x8 x9 x10 x11 x12 x13 x14 x15 x16 x17 x18 x19 x20 x21 x22 x23 x24 x25) r (val_main_v36 (F := Ideal) a0 a2 a3 a8 a9) R := by
  unfold GenP.out0_31
  rw [View.canon_unit_zero off_zero]
  simp only [ld_whole]
  have l4 : RowEq (View.ld x2 r0_4) r (val_main_v30 (F := Ideal) a2) R := by
    unfold val_main_v30; exact ld_slice_rel _ _ H2
  have p8 := pay8_rel (r := r) (R := R) H0 H8 H9 H1 l4
  exact p8

theorem out27_rel {r : Fin 512} {R : Fin 65536} {x0 : Vec Ideal S512x80 .f32} {x1 : Vec Ideal S512x44 .f32} {x2 : Vec Ideal S512x256 .f32} {x3 : Vec Ideal S512x256 .f32} {x4 : Vec Ideal S512x160 .f32} {x5 : Vec Ideal S512x128 .f32} {x6 : Vec Ideal S512x128 .f32} {x7 : Vec Ideal S512x164 .f32} {x8 : Vec Ideal S1x80 .f32} {x9 : Vec Ideal S1x1 .f32} {x10 : Vec Ideal S328x192 .bf16} {x11 : Vec Ideal S192x192 .bf16} {x12 : Vec Ideal S272x480 .bf16} {x13 : Vec Ideal S160x480 .bf16} {x14 : Vec Ideal S240x384 .bf16} {x15 : Vec Ideal S128x384 .bf16} {x16 : Vec Ideal S208x384 .bf16} {x17 : Vec Ideal S128x384 .bf16} {x18 : Vec Ideal S160x160 .bf16} {x19 : Vec Ideal S128x128 .bf16} {x20 : Vec Ideal S128x128 .bf16} {x21 : Vec Ideal S128x128 .bf16} {x22 : Vec Ideal S688x128 .bf16} {x23 : Vec Ideal S128x40 .bf16} {x24 : Vec Ideal S192x4 .bf16} {x25 : Vec Ideal S1x4 .f32}
    (H0 : RowEq x0 r a0 R)
    (H1 : RowEq x1 r (val_main_v24 (F := Ideal) a2 a3) R)
    (H2 : RowEq x2 r a2 R)
    (H3 : RowEq x3 r a1 R)
    (H4 : RowEq x4 r a4 R)
    (H5 : RowEq x5 r a5 R)
    (H6 : RowEq x6 r a6 R)
    (H7 : RowEq x7 r a7 R)
    (H8 : ∀ k : Fin 80, x8 (ix2 0 k) = a8 (ix2 0 k))
    (H9 : ∀ k : Fin 1, x9 (ix2 0 k) = a9 (ix1 k))
    (H10 : ∀ (k : Fin 328) (j : Fin 192), x10 (ix2 k j) = a10 (ix2 j k))
    (H11 : ∀ (k : Fin 192) (j : Fin 192), x11 (ix2 k j) = a11 (ix2 j k))
    (H12 : ∀ (k : Fin 272) (j : Fin 480), x12 (ix2 k j) = a12 (ix2 j k))
    (H13 : ∀ (k : Fin 160) (j : Fin 480), x13 (ix2 k j) = a13 (ix2 j k))
    (H14 : ∀ (k : Fin 240) (j : Fin 384), x14 (ix2 k j) = a14 (ix2 j k))
    (H15 : ∀ (k : Fin 128) (j : Fin 384), x15 (ix2 k j) = a15 (ix2 j k))
    (H16 : ∀ (k : Fin 208) (j : Fin 384), x16 (ix2 k j) = a16 (ix2 j k))
    (H17 : ∀ (k : Fin 128) (j : Fin 384), x17 (ix2 k j) = a17 (ix2 j k))
    (H18 : ∀ (k : Fin 160) (j : Fin 160), x18 (ix2 k j) = a18 (ix2 j k))
    (H19 : ∀ (k : Fin 128) (j : Fin 128), x19 (ix2 k j) = a19 (ix2 j k))
    (H20 : ∀ (k : Fin 128) (j : Fin 128), x20 (ix2 k j) = a20 (ix2 j k))
    (H21 : ∀ (k : Fin 128) (j : Fin 128), x21 (ix2 k j) = a21 (ix2 j k))
    (H22 : ∀ (k : Fin 688) (j : Fin 128), x22 (ix2 k j) = a22 (ix2 j k))
    (H23 : ∀ (k : Fin 128) (j : Fin 40), x23 (ix2 k j) = a23 (ix2 j k))
    (H24 : ∀ (k : Fin 192) (j : Fin 4), x24 (ix2 k j) = a24 (ix2 j k))
    (H25 : ∀ k : Fin 4, x25 (ix2 0 k) = a25 (ix1 k)) :
    RowEq (GenP.out0_27 (F := Ideal) x0 x1 x2 x3 x4 x5 x6 x7 x8 x9 x10 x11 x12 x13 x14 x15 x16 x17 x18 x19 x20 x21 x22 x23 x24 x25) r (val_main_v230 (F := Ideal) a0 a1 a2 a3 a8 a9) R := by
  unfold GenP.out0_27
  rw [View.canon_unit_zero off_zero]
  simp only [ld_whole]
  have l21b : RowEq (View.ld x3 r0_21) r (val_main_v229 (F := Ideal) a1) R := by
    unfold val_main_v229; exact ld_slice_rel _ _ H3
  have p9 := pay9_rel (r := r) (R := R) H0 H8 H9 H1
  have p2 := pay2_rel (r := r) (R := R) p9 l21b
  exact p2

theorem out28_rel {r : Fin 512} {R : Fin 65536} {x0 : Vec Ideal S512x80 .f32} {x1 : Vec Ideal S512x44 .f32} {x2 : Vec Ideal S512x256 .f32} {x3 : Vec Ideal S512x256 .f32} {x4 : Vec Ideal S512x160 .f32} {x5 : Vec Ideal S512x128 .f32} {x6 : Vec Ideal S512x128 .f32} {x7 : Vec Ideal S512x164 .f32} {x8 : Vec Ideal S1x80 .f32} {x9 : Vec Ideal S1x1 .f32} {x10 : Vec Ideal S328x192 .bf16} {x11 : Vec Ideal S192x192 .bf16} {x12 : Vec Ideal S272x480 .bf16} {x13 : Vec Ideal S160x480 .bf16} {x14 : Vec Ideal S240x384 .bf16} {x15 : Vec Ideal S128x384 .bf16} {x16 : Vec Ideal S208x384 .bf16} {x17 : Vec Ideal S128x384 .bf16} {x18 : Vec Ideal S160x160 .bf16} {x19 : Vec Ideal S128x128 .bf16} {x20 : Vec Ideal S128x128 .bf16} {x21 : Vec Ideal S128x128 .bf16} {x22 : Vec Ideal S688x128 .bf16} {x23 : Vec Ideal S128x40 .bf16} {x24 : Vec Ideal S192x4 .bf16} {x25 : Vec Ideal S1x4 .f32}
    (H0 : RowEq x0 r a0 R)
    (H1 : RowEq x1 r (val_main_v24 (F := Ideal) a2 a3) R)
    (H2 : RowEq x2 r a2 R)
    (H3 : RowEq x3 r a1 R)
    (H4 : RowEq x4 r a4 R)
    (H5 : RowEq x5 r a5 R)
    (H6 : RowEq x6 r a6 R)
    (H7 : RowEq x7 r a7 R)
    (H8 : ∀ k : Fin 80, x8 (ix2 0 k) = a8 (ix2 0 k))
    (H9 : ∀ k : Fin 1, x9 (ix2 0 k) = a9 (ix1 k))
    (H10 : ∀ (k : Fin 328) (j : Fin 192), x10 (ix2 k j) = a10 (ix2 j k))
    (H11 : ∀ (k : Fin 192) (j : Fin 192), x11 (ix2 k j) = a11 (ix2 j k))
    (H12 : ∀ (k : Fin 272) (j : Fin 480), x12 (ix2 k j) = a12 (ix2 j k))
    (H13 : ∀ (k : Fin 160) (j : Fin 480), x13 (ix2 k j) = a13 (ix2 j k))
    (H14 : ∀ (k : Fin 240) (j : Fin 384), x14 (ix2 k j) = a14 (ix2 j k))
    (H15 : ∀ (k : Fin 128) (j : Fin 384), x15 (ix2 k j) = a15 (ix2 j k))
    (H16 : ∀ (k : Fin 208) (j : Fin 384), x16 (ix2 k j) = a16 (ix2 j k))
    (H17 : ∀ (k : Fin 128) (j : Fin 384), x17 (ix2 k j) = a17 (ix2 j k))
    (H18 : ∀ (k : Fin 160) (j : Fin 160), x18 (ix2 k j) = a18 (ix2 j k))
    (H19 : ∀ (k : Fin 128) (j : Fin 128), x19 (ix2 k j) = a19 (ix2 j k))
    (H20 : ∀ (k : Fin 128) (j : Fin 128), x20 (ix2 k j) = a20 (ix2 j k))
    (H21 : ∀ (k : Fin 128) (j : Fin 128), x21 (ix2 k j) = a21 (ix2 j k))
    (H22 : ∀ (k : Fin 688) (j : Fin 128), x22 (ix2 k j) = a22 (ix2 j k))
    (H23 : ∀ (k : Fin 128) (j : Fin 40), x23 (ix2 k j) = a23 (ix2 j k))
    (H24 : ∀ (k : Fin 192) (j : Fin 4), x24 (ix2 k j) = a24 (ix2 j k))
    (H25 : ∀ k : Fin 4, x25 (ix2 0 k) = a25 (ix1 k)) :
    RowEq (GenP.out0_28 (F := Ideal) x0 x1 x2 x3 x4 x5 x6 x7 x8 x9 x10 x11 x12 x13 x14 x15 x16 x17 x18 x19 x20 x21 x22 x23 x24 x25) r (val_main_v98 (F := Ideal) a0 a2 a3 a4 a7 a8 a9 a10 a11 a12 a13 a24 a25) R := by
  unfold GenP.out0_28
  rw [View.canon_unit_zero off_zero]
  simp only [ld_whole]
  have l4 : RowEq (View.ld x2 r0_4) r (val_main_v30 (F := Ideal) a2) R := by
    unfold val_main_v30; exact ld_slice_rel _ _ H2
  have p7 := pay7_rel (r := r) (R := R) H0 H8 H9 l4
  have p9 := pay9_rel (r := r) (R := R) H0 H8 H9 H1
  have p10 := pay10_rel (r := r) (R := R) H0 H8 H9 H1 l4 H7
  have p13 := pay13_rel (r := r) (R := R) p7 p9 p10 H10 H11 H24 H25 H12
  have p14 := pay14_rel (r := r) (R := R) H4 H13
  have p15 := pay15_rel (r := r) (R := R) p7 p9 p10 H10 H11 H24 H25 H12
  have p16 := pay16_rel (r := r) (R := R) H4 H13
  have p17 := pay17_rel (r := r) (R := R) H4 p13 p14 p15 p16
  exact p17

theorem out29_rel {r : Fin 512} {R : Fin 65536} {x0 : Vec Ideal S512x80 .f32} {x1 : Vec Ideal S512x44 .f32} {x2 : Vec Ideal S512x256 .f32} {x3 : Vec Ideal S512x256 .f32} {x4 : Vec Ideal S512x160 .f32} {x5 : Vec Ideal S512x128 .f32} {x6 : Vec Ideal S512x128 .f32} {x7 : Vec Ideal S512x164 .f32} {x8 : Vec Ideal S1x80 .f32} {x9 : Vec Ideal S1x1 .f32} {x10 : Vec Ideal S328x192 .bf16} {x11 : Vec Ideal S192x192 .bf16} {x12 : Vec Ideal S272x480 .bf16} {x13 : Vec Ideal S160x480 .bf16} {x14 : Vec Ideal S240x384 .bf16} {x15 : Vec Ideal S128x384 .bf16} {x16 : Vec Ideal S208x384 .bf16} {x17 : Vec Ideal S128x384 .bf16} {x18 : Vec Ideal S160x160 .bf16} {x19 : Vec Ideal S128x128 .bf16} {x20 : Vec Ideal S128x128 .bf16} {x21 : Vec Ideal S128x128 .bf16} {x22 : Vec Ideal S688x128 .bf16} {x23 : Vec Ideal S128x40 .bf16} {x24 : Vec Ideal S192x4 .bf16} {x25 : Vec Ideal S1x4 .f32}
    (H0 : RowEq x0 r a0 R)
    (H1 : RowEq x1 r (val_main_v24 (F := Ideal) a2 a3) R)
    (H2 : RowEq x2 r a2 R)
    (H3 : RowEq x3 r a1 R)
    (H4 : RowEq x4 r a4 R)
    (H5 : RowEq x5 r a5 R)
    (H6 : RowEq x6 r a6 R)
    (H7 : RowEq x7 r a7 R)
    (H8 : ∀ k : Fin 80, x8 (ix2 0 k) = a8 (ix2 0 k))
    (H9 : ∀ k : Fin 1, x9 (ix2 0 k) = a9 (ix1 k))
    (H10 : ∀ (k : Fin 328) (j : Fin 192), x10 (ix2 k j) = a10 (ix2 j k))
    (H11 : ∀ (k : Fin 192) (j : Fin 192), x11 (ix2 k j) = a11 (ix2 j k))
    (H12 : ∀ (k : Fin 272) (j : Fin 480), x12 (ix2 k j) = a12 (ix2 j k))
    (H13 : ∀ (k : Fin 160) (j : Fin 480), x13 (ix2 k j) = a13 (ix2 j k))
    (H14 : ∀ (k : Fin 240) (j : Fin 384), x14 (ix2 k j) = a14 (ix2 j k))
    (H15 : ∀ (k : Fin 128) (j : Fin 384), x15 (ix2 k j) = a15 (ix2 j k))
    (H16 : ∀ (k : Fin 208) (j : Fin 384), x16 (ix2 k j) = a16 (ix2 j k))
    (H17 : ∀ (k : Fin 128) (j : Fin 384), x17 (ix2 k j) = a17 (ix2 j k))
    (H18 : ∀ (k : Fin 160) (j : Fin 160), x18 (ix2 k j) = a18 (ix2 j k))
    (H19 : ∀ (k : Fin 128) (j : Fin 128), x19 (ix2 k j) = a19 (ix2 j k))
    (H20 : ∀ (k : Fin 128) (j : Fin 128), x20 (ix2 k j) = a20 (ix2 j k))
    (H21 : ∀ (k : Fin 128) (j : Fin 128), x21 (ix2 k j) = a21 (ix2 j k))
    (H22 : ∀ (k : Fin 688) (j : Fin 128), x22 (ix2 k j) = a22 (ix2 j k))
    (H23 : ∀ (k : Fin 128) (j : Fin 40), x23 (ix2 k j) = a23 (ix2 j k))
    (H24 : ∀ (k : Fin 192) (j : Fin 4), x24 (ix2 k j) = a24 (ix2 j k))
    (H25 : ∀ k : Fin 4, x25 (ix2 0 k) = a25 (ix1 k)) :
    RowEq (GenP.out0_29 (F := Ideal) x0 x1 x2 x3 x4 x5 x6 x7 x8 x9 x10 x11 x12 x13 x14 x15 x16 x17 x18 x19 x20 x21 x22 x23 x24 x25) r (val_main_v145 (F := Ideal) a0 a2 a3 a4 a5 a7 a8 a9 a10 a11 a12 a13 a14 a15 a18 a24 a25) R := by
  unfold GenP.out0_29
  rw [View.canon_unit_zero off_zero]
  simp only [ld_whole]
  have l4 : RowEq (View.ld x2 r0_4) r (val_main_v30 (F := Ideal) a2) R := by
    unfold val_main_v30; exact ld_slice_rel _ _ H2
  have p7 := pay7_rel (r := r) (R := R) H0 H8 H9 l4
  have p9 := pay9_rel (r := r) (R := R) H0 H8 H9 H1
  have p10 := pay10_rel (r := r) (R := R) H0 H8 H9 H1 l4 H7
  have p12 := pay12_rel (r := r) (R := R) p10 H10 H11 H24 H25
  have p13 := pay13_rel (r := r) (R := R) p7 p9 p10 H10 H11 H24 H25 H12
  have p14 := pay14_rel (r := r) (R := R) H4 H13
  have p15 := pay15_rel (r := r) (R := R) p7 p9 p10 H10 H11 H24 H25 H12
  have p16 := pay16_rel (r := r) (R := R) H4 H13
  have p19 := pay19_rel (r := r) (R := R) p7 p9 p12 H4 p13 p14 p15 p16 H18 H14
  have p20 := pay20_rel (r := r) (R := R) H5 H15
  have p21 := pay21_rel (r := r) (R := R) p7 p9 p12 H4 p13 p14 p15 p16 H18 H14
  have p22 := pay22_rel (r := r) (R := R) H5 p19 p20 p21
  exact p22

theorem out30_rel {r : Fin 512} {R : Fin 65536} {x0 : Vec Ideal S512x80 .f32} {x1 : Vec Ideal S512x44 .f32} {x2 : Vec Ideal S512x256 .f32} {x3 : Vec Ideal S512x256 .f32} {x4 : Vec Ideal S512x160 .f32} {x5 : Vec Ideal S512x128 .f32} {x6 : Vec Ideal S512x128 .f32} {x7 : Vec Ideal S512x164 .f32} {x8 : Vec Ideal S1x80 .f32} {x9 : Vec Ideal S1x1 .f32} {x10 : Vec Ideal S328x192 .bf16} {x11 : Vec Ideal S192x192 .bf16} {x12 : Vec Ideal S272x480 .bf16} {x13 : Vec Ideal S160x480 .bf16} {x14 : Vec Ideal S240x384 .bf16} {x15 : Vec Ideal S128x384 .bf16} {x16 : Vec Ideal S208x384 .bf16} {x17 : Vec Ideal S128x384 .bf16} {x18 : Vec Ideal S160x160 .bf16} {x19 : Vec Ideal S128x128 .bf16} {x20 : Vec Ideal S128x128 .bf16} {x21 : Vec Ideal S128x128 .bf16} {x22 : Vec Ideal S688x128 .bf16} {x23 : Vec Ideal S128x40 .bf16} {x24 : Vec Ideal S192x4 .bf16} {x25 : Vec Ideal S1x4 .f32}
    (H0 : RowEq x0 r a0 R)
    (H1 : RowEq x1 r (val_main_v24 (F := Ideal) a2 a3) R)
    (H2 : RowEq x2 r a2 R)
    (H3 : RowEq x3 r a1 R)
    (H4 : RowEq x4 r a4 R)
    (H5 : RowEq x5 r a5 R)
    (H6 : RowEq x6 r a6 R)
    (H7 : RowEq x7 r a7 R)
    (H8 : ∀ k : Fin 80, x8 (ix2 0 k) = a8 (ix2 0 k))
    (H9 : ∀ k : Fin 1, x9 (ix2 0 k) = a9 (ix1 k))
    (H10 : ∀ (k : Fin 328) (j : Fin 192), x10 (ix2 k j) = a10 (ix2 j k))
    (H11 : ∀ (k : Fin 192) (j : Fin 192), x11 (ix2 k j) = a11 (ix2 j k))
    (H12 : ∀ (k : Fin 272) (j : Fin 480), x12 (ix2 k j) = a12 (ix2 j k))
    (H13 : ∀ (k : Fin 160) (j : Fin 480), x13 (ix2 k j) = a13 (ix2 j k))
    (H14 : ∀ (k : Fin 240) (j : Fin 384), x14 (ix2 k j) = a14 (ix2 j k))
    (H15 : ∀ (k : Fin 128) (j : Fin 384), x15 (ix2 k j) = a15 (ix2 j k))
    (H16 : ∀ (k : Fin 208) (j : Fin 384), x16 (ix2 k j) = a16 (ix2 j k))
    (H17 : ∀ (k : Fin 128) (j : Fin 384), x17 (ix2 k j) = a17 (ix2 j k))
    (H18 : ∀ (k : Fin 160) (j : Fin 160), x18 (ix2 k j) = a18 (ix2 j k))
    (H19 : ∀ (k : Fin 128) (j : Fin 128), x19 (ix2 k j) = a19 (ix2 j k))
    (H20 : ∀ (k : Fin 128) (j : Fin 128), x20 (ix2 k j) = a20 (ix2 j k))
    (H21 : ∀ (k : Fin 128) (j : Fin 128), x21 (ix2 k j) = a21 (ix2 j k))
    (H22 : ∀ (k : Fin 688) (j : Fin 128), x22 (ix2 k j) = a22 (ix2 j k))
    (H23 : ∀ (k : Fin 128) (j : Fin 40), x23 (ix2 k j) = a23 (ix2 j k))
    (H24 : ∀ (k : Fin 192) (j : Fin 4), x24 (ix2 k j) = a24 (ix2 j k))
    (H25 : ∀ k : Fin 4, x25 (ix2 0 k) = a25 (ix1 k)) :
    RowEq (GenP.out0_30 (F := Ideal) x0 x1 x2 x3 x4 x5 x6 x7 x8 x9 x10 x11 x12 x13 x14 x15 x16 x17 x18 x19 x20 x21 x22 x23 x24 x25) r (val_main_v192 (F := Ideal) a0 a2 a3 a4 a5 a6 a7 a8 a9 a10 a11 a12 a13 a14 a15 a16 a17 a18 a19 a24 a25) R := by
  unfold GenP.out0_30
  rw [View.canon_unit_zero off_zero]
  simp only [ld_whole]
  have l4 : RowEq (View.ld x2 r0_4) r (val_main_v30 (F := Ideal) a2) R := by
    unfold val_main_v30; exact ld_slice_rel _ _ H2
  have p7 := pay7_rel (r := r) (R := R) H0 H8 H9 l4
  have p9 := pay9_rel (r := r) (R := R) H0 H8 H9 H1
  have p10 := pay10_rel (r := r) (R := R) H0 H8 H9 H1 l4 H7
  have p12 := pay12_rel (r := r) (R := R) p10 H10 H11 H24 H25
  have p13 := pay13_rel (r := r) (R := R) p7 p9 p10 H10 H11 H24 H25 H12
  have p14 := pay14_rel (r := r) (R := R) H4 H13
  have p15 := pay15_rel (r := r) (R := R) p7 p9 p10 H10 H11 H24 H25 H12
  have p16 := pay16_rel (r := r) (R := R) H4 H13
  have p19 := pay19_rel (r := r) (R := R) p7 p9 p12 H4 p13 p14 p15 p16 H18 H14
  have p20 := pay20_rel (r := r) (R := R) H5 H15
  have p21 := pay21_rel (r := r) (R := R) p7 p9 p12 H4 p13 p14 p15 p16 H18 H14
  have p24 := pay24_rel (r := r) (R := R) p7 p9 p12 H5 p19 p20 p21 H19 H16
  have p25 := pay25_rel (r := r) (R := R) H6 H17
  have p26 := pay26_rel (r := r) (R := R) H6 p24 p25
  exact p26

theorem out26_rel {r : Fin 512} {R : Fin 65536} {x0 : Vec Ideal S512x80 .f32} {x1 : Vec Ideal S512x44 .f32} {x2 : Vec Ideal S512x256 .f32} {x3 : Vec Ideal S512x256 .f32} {x4 : Vec Ideal S512x160 .f32} {x5 : Vec Ideal S512x128 .f32} {x6 : Vec Ideal S512x128 .f32} {x7 : Vec Ideal S512x164 .f32} {x8 : Vec Ideal S1x80 .f32} {x9 : Vec Ideal S1x1 .f32} {x10 : Vec Ideal S328x192 .bf16} {x11 : Vec Ideal S192x192 .bf16} {x12 : Vec Ideal S272x480 .bf16} {x13 : Vec Ideal S160x480 .bf16} {x14 : Vec Ideal S240x384 .bf16} {x15 : Vec Ideal S128x384 .bf16} {x16 : Vec Ideal S208x384 .bf16} {x17 : Vec Ideal S128x384 .bf16} {x18 : Vec Ideal S160x160 .bf16} {x19 : Vec Ideal S128x128 .bf16} {x20 : Vec Ideal S128x128 .bf16} {x21 : Vec Ideal S128x128 .bf16} {x22 : Vec Ideal S688x128 .bf16} {x23 : Vec Ideal S128x40 .bf16} {x24 : Vec Ideal S192x4 .bf16} {x25 : Vec Ideal S1x4 .f32}
    (H0 : RowEq x0 r a0 R)
    (H1 : RowEq x1 r (val_main_v24 (F := Ideal) a2 a3) R)
    (H2 : RowEq x2 r a2 R)
    (H3 : RowEq x3 r a1 R)
    (H4 : RowEq x4 r a4 R)
    (H5 : RowEq x5 r a5 R)
    (H6 : RowEq x6 r a6 R)
    (H7 : RowEq x7 r a7 R)
    (H8 : ∀ k : Fin 80, x8 (ix2 0 k) = a8 (ix2 0 k))
    (H9 : ∀ k : Fin 1, x9 (ix2 0 k) = a9 (ix1 k))
    (H10 : ∀ (k : Fin 328) (j : Fin 192), x10 (ix2 k j) = a10 (ix2 j k))
    (H11 : ∀ (k : Fin 192) (j : Fin 192), x11 (ix2 k j) = a11 (ix2 j k))
    (H12 : ∀ (k : Fin 272) (j : Fin 480), x12 (ix2 k j) = a12 (ix2 j k))
    (H13 : ∀ (k : Fin 160) (j : Fin 480), x13 (ix2 k j) = a13 (ix2 j k))
    (H14 : ∀ (k : Fin 240) (j : Fin 384), x14 (ix2 k j) = a14 (ix2 j k))
    (H15 : ∀ (k : Fin 128) (j : Fin 384), x15 (ix2 k j) = a15 (ix2 j k))
    (H16 : ∀ (k : Fin 208) (j : Fin 384), x16 (ix2 k j) = a16 (ix2 j k))
    (H17 : ∀ (k : Fin 128) (j : Fin 384), x17 (ix2 k j) = a17 (ix2 j k))
    (H18 : ∀ (k : Fin 160) (j : Fin 160), x18 (ix2 k j) = a18 (ix2 j k))
    (H19 : ∀ (k : Fin 128) (j : Fin 128), x19 (ix2 k j) = a19 (ix2 j k))
    (H20 : ∀ (k : Fin 128) (j : Fin 128), x20 (ix2 k j) = a20 (ix2 j k))
    (H21 : ∀ (k : Fin 128) (j : Fin 128), x21 (ix2 k j) = a21 (ix2 j k))
    (H22 : ∀ (k : Fin 688) (j : Fin 128), x22 (ix2 k j) = a22 (ix2 j k))
    (H23 : ∀ (k : Fin 128) (j : Fin 40), x23 (ix2 k j) = a23 (ix2 j k))
    (H24 : ∀ (k : Fin 192) (j : Fin 4), x24 (ix2 k j) = a24 (ix2 j k))
    (H25 : ∀ k : Fin 4, x25 (ix2 0 k) = a25 (ix1 k)) :
    RowEq (GenP.out0_26 (F := Ideal) x0 x1 x2 x3 x4 x5 x6 x7 x8 x9 x10 x11 x12 x13 x14 x15 x16 x17 x18 x19 x20 x21 x22 x23 x24 x25) r (val_main_v228 (F := Ideal) a0 a2 a3 a4 a5 a6 a7 a8 a9 a10 a11 a12 a13 a14 a15 a16 a17 a18 a19 a20 a21 a22 a23 a24 a25) R := by
  unfold GenP.out0_26
  rw [View.canon_unit_zero off_zero]
  simp only [ld_whole]
  have l4 : RowEq (View.ld x2 r0_4) r (val_main_v30 (F := Ideal) a2) R := by
    unfold val_main_v30; exact ld_slice_rel _ _ H2
  have l21a : RowEq (View.ld x2 r0_21) r (val_main_v227 (F := Ideal) a2) R := by
    unfold val_main_v227; exact ld_slice_rel _ _ H2
  have p4 := pay4_rel (r := r) (R := R) H0 H8 H9
  have p7 := pay7_rel (r := r) (R := R) H0 H8 H9 l4
  have p9 := pay9_rel (r := r) (R := R) H0 H8 H9 H1
  have p10 := pay10_rel (r := r) (R := R) H0 H8 H9 H1 l4 H7
  have p11 := pay11_rel (r := r) (R := R) p10 H10 H11
  have p12 := pay12_rel (r := r) (R := R) p10 H10 H11 H24 H25
  have p13 := pay13_rel (r := r) (R := R) p7 p9 p10 H10 H11 H24 H25 H12
  have p14 := pay14_rel (r := r) (R := R) H4 H13
  have p15 := pay15_rel (r := r) (R := R) p7 p9 p10 H10 H11 H24 H25 H12
  have p16 := pay16_rel (r := r) (R := R) H4 H13
  have p18 := pay18_rel (r := r) (R := R) H4 p13 p14 p15 p16 H18
  have p19 := pay19_rel (r := r) (R := R) p7 p9 p12 H4 p13 p14 p15 p16 H18 H14
  have p20 := pay20_rel (r := r) (R := R) H5 H15
  have p21 := pay21_rel (r := r) (R := R) p7 p9 p12 H4 p13 p14 p15 p16 H18 H14
  have p23 := pay23_rel (r := r) (R := R) H5 p19 p20 p21 H19
  have p24 := pay24_rel (r := r) (R := R) p7 p9 p12 H5 p19 p20 p21 H19 H16
  have p25 := pay25_rel (r := r) (R := R) H6 H17
  have p27 := pay27_rel (r := r) (R := R) p7 p9 p11 p12 p18 p23 H6 p24 p25 H20 H22
  have p28 := pay28_rel (r := r) (R := R) p7 p9 p11 p12 p18 p23 H6 p24 p25 H20 H22
  have p1 := pay1_rel (r := r) (R := R) p4 p27 p28 H21 H23 l21a
  exact p1

end Cert.Bridge

end
-- ==== Proof.Assemble.lean ====
/- The kernel's results are the reference's stages. Each of the six pipelined result arrays of the kernel is a whole-array
   function `G26 … G31` (module KOut1): row `R` is row `R % 512` of what grid point `R / 512` stores. The block of every
   input window at that point holds rows `512 (R / 512) … + 511` of the corresponding argument (module KIn1), or the whole
   (transposed) weight (module KIn2); so row `R % 512` of each row-indexed block is row `R` of its argument, and the row
   relations of module OutRel give, entry by entry along row `R`, the reference's stage. The seventh result is the slice
   of the last 40 columns of result array 0, which on the reference's side is the second piece of a concatenation. -/
import proofs.«180642_j50062138802934_2_alg».proof.Proof.KOut
import proofs.«180642_j50062138802934_2_alg».proof.Proof.KIn1
import proofs.«180642_j50062138802934_2_alg».proof.Proof.KIn2
import proofs.«180642_j50062138802934_2_alg».proof.Proof.OutRel

noncomputable section

namespace Cert.Assemble

open Idealize.ShloMosaic Idealize.ShloMosaic.TcCoe Idealize.SL.Sem Idealize.ShloMosaic.ValueIdx
open Cert.Rows Cert.KernelIdeal Cert.KernelIdeal.Gen Cert.KernelIdeal.GenP Cert.ReferenceIdeal.ReadP

variable (m : (ℓ : Loc nD τ sig) → Buf (Elt Ideal) ℓ)

/-! ## The argument arrays as launched, and the row of a block -/

/-- Argument 0 of the program on core `c`, as launched. -/
abbrev A0 (c : Dev nD) : S65536x80.Idx → Elt Ideal .f32 := m ((c.tc : Thread nD τ).loc main_arg0)
/-- Argument 1 of the program on core `c`, as launched. -/
abbrev A1 (c : Dev nD) : S65536x256.Idx → Elt Ideal .f32 := m ((c.tc : Thread nD τ).loc main_arg1)
/-- Argument 2 of the program on core `c`, as launched. -/
abbrev A2 (c : Dev nD) : S65536x256.Idx → Elt Ideal .f32 := m ((c.tc : Thread nD τ).loc main_arg2)
/-- Argument 3 of the program on core `c`, as launched. -/
abbrev A3 (c : Dev nD) : S65536.Idx → Elt Ideal .i32 := m ((c.tc : Thread nD τ).loc main_arg3)
/-- Argument 4 of the program on core `c`, as launched. -/
abbrev A4 (c : Dev nD) : S65536x160.Idx → Elt Ideal .f32 := m ((c.tc : Thread nD τ).loc main_arg4)
/-- Argument 5 of the program on core `c`, as launched. -/
abbrev A5 (c : Dev nD) : S65536x128.Idx → Elt Ideal .f32 := m ((c.tc : Thread nD τ).loc main_arg5)
/-- Argument 6 of the program on core `c`, as launched. -/
abbrev A6 (c : Dev nD) : S65536x128.Idx → Elt Ideal .f32 := m ((c.tc : Thread nD τ).loc main_arg6)
/-- Argument 7 of the program on core `c`, as launched. -/
abbrev A7 (c : Dev nD) : S65536x164.Idx → Elt Ideal .f32 := m ((c.tc : Thread nD τ).loc main_arg7)
/-- Argument 8 of the program on core `c`, as launched. -/
abbrev A8 (c : Dev nD) : S1x80.Idx → Elt Ideal .f32 := m ((c.tc : Thread nD τ).loc main_arg8)
/-- Argument 9 of the program on core `c`, as launched. -/
abbrev A9 (c : Dev nD) : S1.Idx → Elt Ideal .f32 := m ((c.tc : Thread nD τ).loc main_arg9)
/-- Argument 10 of the program on core `c`, as launched. -/
abbrev A10 (c : Dev nD) : S192x328.Idx → Elt Ideal .f32 := m ((c.tc : Thread nD τ).loc main_arg10)
/-- Argument 11 of the program on core `c`, as launched. -/
abbrev A11 (c : Dev nD) : S192x192.Idx → Elt Ideal .f32 := m ((c.tc : Thread nD τ).loc main_arg11)
/-- Argument 12 of the program on core `c`, as launched. -/
abbrev A12 (c : Dev nD) : S480x272.Idx → Elt Ideal .f32 := m ((c.tc : Thread nD τ).loc main_arg12)
/-- Argument 13 of the program on core `c`, as launched. -/
abbrev A13 (c : Dev nD) : S480x160.Idx → Elt Ideal .f32 := m ((c.tc : Thread nD τ).loc main_arg13)
/-- Argument 14 of the program on core `c`, as launched. -/
abbrev A14 (c : Dev nD) : S384x240.Idx → Elt Ideal .f32 := m ((c.tc : Thread nD τ).loc main_arg14)
/-- Argument 15 of the program on core `c`, as launched. -/
abbrev A15 (c : Dev nD) : S384x128.Idx → Elt Ideal .f32 := m ((c.tc : Thread nD τ).loc main_arg15)
/-- Argument 16 of the program on core `c`, as launched. -/
abbrev A16 (c : Dev nD) : S384x208.Idx → Elt Ideal .f32 := m ((c.tc : Thread nD τ).loc main_arg16)
/-- Argument 17 of the program on core `c`, as launched. -/
abbrev A17 (c : Dev nD) : S384x128.Idx → Elt Ideal .f32 := m ((c.tc : Thread nD τ).loc main_arg17)
/-- Argument 18 of the program on core `c`, as launched. -/
abbrev A18 (c : Dev nD) : S160x160.Idx → Elt Ideal .f32 := m ((c.tc : Thread nD τ).loc main_arg18)
/-- Argument 19 of the program on core `c`, as launched. -/
abbrev A19 (c : Dev nD) : S128x128.Idx → Elt Ideal .f32 := m ((c.tc : Thread nD τ).loc main_arg19)
/-- Argument 20 of the program on core `c`, as launched. -/
abbrev A20 (c : Dev nD) : S128x128.Idx → Elt Ideal .f32 := m ((c.tc : Thread nD τ).loc main_arg20)
/-- Argument 21 of the program on core `c`, as launched. -/
abbrev A21 (c : Dev nD) : S128x128.Idx → Elt Ideal .f32 := m ((c.tc : Thread nD τ).loc main_arg21)
/-- Argument 22 of the program on core `c`, as launched. -/
abbrev A22 (c : Dev nD) : S128x688.Idx → Elt Ideal .f32 := m ((c.tc : Thread nD τ).loc main_arg22)
/-- Argument 23 of the program on core `c`, as launched. -/
abbrev A23 (c : Dev nD) : S40x128.Idx → Elt Ideal .f32 := m ((c.tc : Thread nD τ).loc main_arg23)
/-- Argument 24 of the program on core `c`, as launched. -/
abbrev A24 (c : Dev nD) : S4x192.Idx → Elt Ideal .f32 := m ((c.tc : Thread nD τ).loc main_arg24)
/-- Argument 25 of the program on core `c`, as launched. -/
abbrev A25 (c : Dev nD) : S4.Idx → Elt Ideal .f32 := m ((c.tc : Thread nD τ).loc main_arg25)

/-- Row `R` of a 65536-row array is row `R % 512` of the block of grid point `R / 512`. -/
def rr (R : Fin 65536) : Fin 512 := ⟨R.val % 512, Nat.mod_lt _ (by decide)⟩

/-- The grid point whose block holds row `R`. -/
abbrev tt (R : Fin 65536) : Fin cfg0.N := KOut.pt R.val R.isLt

theorem row_eq (R : Fin 65536) :
    (⟨512 * (tt R).val + (rr R).val, KIn.row_lt (tt R) (rr R)⟩ : Fin 65536) = R :=
  Fin.ext (Nat.div_add_mod R.val 512)

/-- A block's row read entry by entry at the array's row `R'`, with `R' = R`, is the row relation at `R`. -/
theorem rowEq_of {n N a : Nat} {x : (S2 n a).Idx → EReal} {X : (S2 N a).Idx → EReal} {r : Fin n} {R R' : Fin N}
    (h : ∀ k : Fin a, x (ix2 r k) = X (ix2 R' k)) (e : R' = R) : RowEq x r X R := by
  subst e; exact h

/-! ## The input blocks of the point that holds row `R`, against the arguments -/

theorem row0 (c : Dev nD) (R : Fin 65536) :
    RowEq (GenP.iblk m c 0 (tt R) : Vec Ideal S512x80 .f32) (rr R) (A0 m c) R :=
  rowEq_of (fun k => KIn.blk_0 m c (tt R) (rr R) k) (row_eq R)

theorem row2 (c : Dev nD) (R : Fin 65536) :
    RowEq (GenP.iblk m c 2 (tt R) : Vec Ideal S512x256 .f32) (rr R) (A2 m c) R :=
  rowEq_of (fun k => KIn.blk_2 m c (tt R) (rr R) k) (row_eq R)

theorem row3 (c : Dev nD) (R : Fin 65536) :
    RowEq (GenP.iblk m c 3 (tt R) : Vec Ideal S512x256 .f32) (rr R) (A1 m c) R :=
  rowEq_of (fun k => KIn.blk_3 m c (tt R) (rr R) k) (row_eq R)

theorem row4 (c : Dev nD) (R : Fin 65536) :
    RowEq (GenP.iblk m c 4 (tt R) : Vec Ideal S512x160 .f32) (rr R) (A4 m c) R :=
  rowEq_of (fun k => KIn.blk_4 m c (tt R) (rr R) k) (row_eq R)

theorem row5 (c : Dev nD) (R : Fin 65536) :
    RowEq (GenP.iblk m c 5 (tt R) : Vec Ideal S512x128 .f32) (rr R) (A5 m c) R :=
  rowEq_of (fun k => KIn.blk_5 m c (tt R) (rr R) k) (row_eq R)

theorem row6 (c : Dev nD) (R : Fin 65536) :
    RowEq (GenP.iblk m c 6 (tt R) : Vec Ideal S512x128 .f32) (rr R) (A6 m c) R :=
  rowEq_of (fun k => KIn.blk_6 m c (tt R) (rr R) k) (row_eq R)

theorem row7 (c : Dev nD) (R : Fin 65536) :
    RowEq (GenP.iblk m c 7 (tt R) : Vec Ideal S512x164 .f32) (rr R) (A7 m c) R :=
  rowEq_of (fun k => KIn.blk_7 m c (tt R) (rr R) k) (row_eq R)

/-- The gathered operand (window 1), given that its block rows are the reference's gather stage's rows. -/
theorem row1 (c : Dev nD)
    (hg : ∀ (t : Fin cfg0.N) (r : Fin 512) (k : Fin 44), (GenP.iblk m c 1 t : Vec Ideal S512x44 .f32) (ix2 r k)
      = val_main_v24 (F := Ideal) (A2 m c) (A3 m c) (ix2 ⟨512 * t.val + r.val, KIn.row_lt t r⟩ k))
    (R : Fin 65536) :
    RowEq (GenP.iblk m c 1 (tt R) : Vec Ideal S512x44 .f32) (rr R) (val_main_v24 (F := Ideal) (A2 m c) (A3 m c)) R :=
  rowEq_of (fun k => hg (tt R) (rr R) k) (row_eq R)

/-- Result array 5 of the kernel is the reference's stage `val_main_v36` of the arguments: row `R` of both is computed
    from row `R` of the row-indexed arguments and from the whole weights. -/
theorem G31_eq (c : Dev nD) (hg : ∀ (t : Fin cfg0.N) (r : Fin 512) (k : Fin 44), (GenP.iblk m c 1 t : Vec Ideal S512x44 .f32) (ix2 r k)
      = val_main_v24 (F := Ideal) (A2 m c) (A3 m c) (ix2 ⟨512 * t.val + r.val, KIn.row_lt t r⟩ k)) :
    KOut.G31 m c = val_main_v36 (F := Ideal) (A0 m c) (A2 m c) (A3 m c) (A8 m c) (A9 m c) := by
  funext i
  obtain ⟨R, col, rfl⟩ : ∃ (R : Fin 65536) (col : Fin 164), i = ix2 R col := ⟨i 0, i 1, eq_ix2 i⟩
  rw [KOut.G31_at m c (tt R) (ix2 R col) rfl]
  exact Cert.Bridge.out31_rel
    (row0 m c R)
    (row1 m c hg R)
    (row2 m c R)
    (row3 m c R)
    (row4 m c R)
    (row5 m c R)
    (row6 m c R)
    (row7 m c R)
    (fun k => KIn.blk_8 m c (tt R) k)
    (fun k => by obtain rfl : k = 0 := Subsingleton.elim _ _; exact KIn.blk_9 m c (tt R))
    (fun k j => KIn.blk_10 m c (tt R) k j)
    (fun k j => KIn.blk_11 m c (tt R) k j)
    (fun k j => KIn.blk_12 m c (tt R) k j)
    (fun k j => KIn.blk_13 m c (tt R) k j)
    (fun k j => KIn.blk_14 m c (tt R) k j)
    (fun k j => KIn.blk_15 m c (tt R) k j)
    (fun k j => KIn.blk_16 m c (tt R) k j)
    (fun k j => KIn.blk_17 m c (tt R) k j)
    (fun k j => KIn.blk_18 m c (tt R) k j)
    (fun k j => KIn.blk_19 m c (tt R) k j)
    (fun k j => KIn.blk_20 m c (tt R) k j)
    (fun k j => KIn.blk_21 m c (tt R) k j)
    (fun k j => KIn.blk_22 m c (tt R) k j)
    (fun k j => KIn.blk_23 m c (tt R) k j)
    (fun k j => KIn.blk_24 m c (tt R) k j)
    (fun k => KIn.blk_25 m c (tt R) k)
    col

/-- Result array 1 of the kernel is the reference's stage `val_main_v230` of the arguments: row `R` of both is computed
    from row `R` of the row-indexed arguments and from the whole weights. -/
theorem G27_eq (c : Dev nD) (hg : ∀ (t : Fin cfg0.N) (r : Fin 512) (k : Fin 44), (GenP.iblk m c 1 t : Vec Ideal S512x44 .f32) (ix2 r k)
      = val_main_v24 (F := Ideal) (A2 m c) (A3 m c) (ix2 ⟨512 * t.val + r.val, KIn.row_lt t r⟩ k)) :
    KOut.G27 m c = val_main_v230 (F := Ideal) (A0 m c) (A1 m c) (A2 m c) (A3 m c) (A8 m c) (A9 m c) := by
  funext i
  obtain ⟨R, col, rfl⟩ : ∃ (R : Fin 65536) (col : Fin 256), i = ix2 R col := ⟨i 0, i 1, eq_ix2 i⟩
  rw [KOut.G27_at m c (tt R) (ix2 R col) rfl]
  exact Cert.Bridge.out27_rel
    (row0 m c R)
    (row1 m c hg R)
    (row2 m c R)
    (row3 m c R)
    (row4 m c R)
    (row5 m c R)
    (row6 m c R)
    (row7 m c R)
    (fun k => KIn.blk_8 m c (tt R) k)
    (fun k => by obtain rfl : k = 0 := Subsingleton.elim _ _; exact KIn.blk_9 m c (tt R))
    (fun k j => KIn.blk_10 m c (tt R) k j)
    (fun k j => KIn.blk_11 m c (tt R) k j)
    (fun k j => KIn.blk_12 m c (tt R) k j)
    (fun k j => KIn.blk_13 m c (tt R) k j)
    (fun k j => KIn.blk_14 m c (tt R) k j)
    (fun k j => KIn.blk_15 m c (tt R) k j)
    (fun k j => KIn.blk_16 m c (tt R) k j)
    (fun k j => KIn.blk_17 m c (tt R) k j)
    (fun k j => KIn.blk_18 m c (tt R) k j)
    (fun k j => KIn.blk_19 m c (tt R) k j)
    (fun k j => KIn.blk_20 m c (tt R) k j)
    (fun k j => KIn.blk_21 m c (tt R) k j)
    (fun k j => KIn.blk_22 m c (tt R) k j)
    (fun k j => KIn.blk_23 m c (tt R) k j)
    (fun k j => KIn.blk_24 m c (tt R) k j)
    (fun k => KIn.blk_25 m c (tt R) k)
    col

/-- Result array 2 of the kernel is the reference's stage `val_main_v98` of the arguments: row `R` of both is computed
    from row `R` of the row-indexed arguments and from the whole weights. -/
theorem G28_eq (c : Dev nD) (hg : ∀ (t : Fin cfg0.N) (r : Fin 512) (k : Fin 44), (GenP.iblk m c 1 t : Vec Ideal S512x44 .f32) (ix2 r k)
      = val_main_v24 (F := Ideal) (A2 m c) (A3 m c) (ix2 ⟨512 * t.val + r.val, KIn.row_lt t r⟩ k)) :
    KOut.G28 m c = val_main_v98 (F := Ideal) (A0 m c) (A2 m c) (A3 m c) (A4 m c) (A7 m c) (A8 m c) (A9 m c) (A10 m c) (A11 m c) (A12 m c) (A13 m c) (A24 m c) (A25 m c) := by
  funext i
  obtain ⟨R, col, rfl⟩ : ∃ (R : Fin 65536) (col : Fin 160), i = ix2 R col := ⟨i 0, i 1, eq_ix2 i⟩
  rw [KOut.G28_at m c (tt R) (ix2 R col) rfl]
  exact Cert.Bridge.out28_rel
    (row0 m c R)
    (row1 m c hg R)
    (row2 m c R)
    (row3 m c R)
    (row4 m c R)
    (row5 m c R)
    (row6 m c R)
    (row7 m c R)
    (fun k => KIn.blk_8 m c (tt R) k)
    (fun k => by obtain rfl : k = 0 := Subsingleton.elim _ _; exact KIn.blk_9 m c (tt R))
    (fun k j => KIn.blk_10 m c (tt R) k j)
    (fun k j => KIn.blk_11 m c (tt R) k j)
    (fun k j => KIn.blk_12 m c (tt R) k j)
    (fun k j => KIn.blk_13 m c (tt R) k j)
    (fun k j => KIn.blk_14 m c (tt R) k j)
    (fun k j => KIn.blk_15 m c (tt R) k j)
    (fun k j => KIn.blk_16 m c (tt R) k j)
    (fun k j => KIn.blk_17 m c (tt R) k j)
    (fun k j => KIn.blk_18 m c (tt R) k j)
    (fun k j => KIn.blk_19 m c (tt R) k j)
    (fun k j => KIn.blk_20 m c (tt R) k j)
    (fun k j => KIn.blk_21 m c (tt R) k j)
    (fun k j => KIn.blk_22 m c (tt R) k j)
    (fun k j => KIn.blk_23 m c (tt R) k j)
    (fun k j => KIn.blk_24 m c (tt R) k j)
    (fun k => KIn.blk_25 m c (tt R) k)
    col

/-- Result array 3 of the kernel is the reference's stage `val_main_v145` of the arguments: row `R` of both is computed
    from row `R` of the row-indexed arguments and from the whole weights. -/
theorem G29_eq (c : Dev nD) (hg : ∀ (t : Fin cfg0.N) (r : Fin 512) (k : Fin 44), (GenP.iblk m c 1 t : Vec Ideal S512x44 .f32) (ix2 r k)
      = val_main_v24 (F := Ideal) (A2 m c) (A3 m c) (ix2 ⟨512 * t.val + r.val, KIn.row_lt t r⟩ k)) :
    KOut.G29 m c = val_main_v145 (F := Ideal) (A0 m c) (A2 m c) (A3 m c) (A4 m c) (A5 m c) (A7 m c) (A8 m c) (A9 m c) (A10 m c) (A11 m c) (A12 m c) (A13 m c) (A14 m c) (A15 m c) (A18 m c) (A24 m c) (A25 m c) := by
  funext i
  obtain ⟨R, col, rfl⟩ : ∃ (R : Fin 65536) (col : Fin 128), i = ix2 R col := ⟨i 0, i 1, eq_ix2 i⟩
  rw [KOut.G29_at m c (tt R) (ix2 R col) rfl]
  exact Cert.Bridge.out29_rel
    (row0 m c R)
    (row1 m c hg R)
    (row2 m c R)
    (row3 m c R)
    (row4 m c R)
    (row5 m c R)
    (row6 m c R)
    (row7 m c R)
    (fun k => KIn.blk_8 m c (tt R) k)
    (fun k => by obtain rfl : k = 0 := Subsingleton.elim _ _; exact KIn.blk_9 m c (tt R))
    (fun k j => KIn.blk_10 m c (tt R) k j)
    (fun k j => KIn.blk_11 m c (tt R) k j)
    (fun k j => KIn.blk_12 m c (tt R) k j)
    (fun k j => KIn.blk_13 m c (tt R) k j)
    (fun k j => KIn.blk_14 m c (tt R) k j)
    (fun k j => KIn.blk_15 m c (tt R) k j)
    (fun k j => KIn.blk_16 m c (tt R) k j)
    (fun k j => KIn.blk_17 m c (tt R) k j)
    (fun k j => KIn.blk_18 m c (tt R) k j)
    (fun k j => KIn.blk_19 m c (tt R) k j)
    (fun k j => KIn.blk_20 m c (tt R) k j)
    (fun k j => KIn.blk_21 m c (tt R) k j)
    (fun k j => KIn.blk_22 m c (tt R) k j)
    (fun k j => KIn.blk_23 m c (tt R) k j)
    (fun k j => KIn.blk_24 m c (tt R) k j)
    (fun k => KIn.blk_25 m c (tt R) k)
    col

/-- Result array 4 of the kernel is the reference's stage `val_main_v192` of the arguments: row `R` of both is computed
    from row `R` of the row-indexed arguments and from the whole weights. -/
theorem G30_eq (c : Dev nD) (hg : ∀ (t : Fin cfg0.N) (r : Fin 512) (k : Fin 44), (GenP.iblk m c 1 t : Vec Ideal S512x44 .f32) (ix2 r k)
      = val_main_v24 (F := Ideal) (A2 m c) (A3 m c) (ix2 ⟨512 * t.val + r.val, KIn.row_lt t r⟩ k)) :
    KOut.G30 m c = val_main_v192 (F := Ideal) (A0 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A24 m c) (A25 m c) := by
  funext i
  obtain ⟨R, col, rfl⟩ : ∃ (R : Fin 65536) (col : Fin 128), i = ix2 R col := ⟨i 0, i 1, eq_ix2 i⟩
  rw [KOut.G30_at m c (tt R) (ix2 R col) rfl]
  exact Cert.Bridge.out30_rel
    (row0 m c R)
    (row1 m c hg R)
    (row2 m c R)
    (row3 m c R)
    (row4 m c R)
    (row5 m c R)
    (row6 m c R)
    (row7 m c R)
    (fun k => KIn.blk_8 m c (tt R) k)
    (fun k => by obtain rfl : k = 0 := Subsingleton.elim _ _; exact KIn.blk_9 m c (tt R))
    (fun k j => KIn.blk_10 m c (tt R) k j)
    (fun k j => KIn.blk_11 m c (tt R) k j)
    (fun k j => KIn.blk_12 m c (tt R) k j)
    (fun k j => KIn.blk_13 m c (tt R) k j)
    (fun k j => KIn.blk_14 m c (tt R) k j)
    (fun k j => KIn.blk_15 m c (tt R) k j)
    (fun k j => KIn.blk_16 m c (tt R) k j)
    (fun k j => KIn.blk_17 m c (tt R) k j)
    (fun k j => KIn.blk_18 m c (tt R) k j)
    (fun k j => KIn.blk_19 m c (tt R) k j)
    (fun k j => KIn.blk_20 m c (tt R) k j)
    (fun k j => KIn.blk_21 m c (tt R) k j)
    (fun k j => KIn.blk_22 m c (tt R) k j)
    (fun k j => KIn.blk_23 m c (tt R) k j)
    (fun k j => KIn.blk_24 m c (tt R) k j)
    (fun k => KIn.blk_25 m c (tt R) k)
    col

/-- Result array 0 of the kernel is the reference's stage `val_main_v228` of the arguments: row `R` of both is computed
    from row `R` of the row-indexed arguments and from the whole weights. -/
theorem G26_eq (c : Dev nD) (hg : ∀ (t : Fin cfg0.N) (r : Fin 512) (k : Fin 44), (GenP.iblk m c 1 t : Vec Ideal S512x44 .f32) (ix2 r k)
      = val_main_v24 (F := Ideal) (A2 m c) (A3 m c) (ix2 ⟨512 * t.val + r.val, KIn.row_lt t r⟩ k)) :
    KOut.G26 m c = val_main_v228 (F := Ideal) (A0 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c) := by
  funext i
  obtain ⟨R, col, rfl⟩ : ∃ (R : Fin 65536) (col : Fin 256), i = ix2 R col := ⟨i 0, i 1, eq_ix2 i⟩
  rw [KOut.G26_at m c (tt R) (ix2 R col) rfl]
  exact Cert.Bridge.out26_rel
    (row0 m c R)
    (row1 m c hg R)
    (row2 m c R)
    (row3 m c R)
    (row4 m c R)
    (row5 m c R)
    (row6 m c R)
    (row7 m c R)
    (fun k => KIn.blk_8 m c (tt R) k)
    (fun k => by obtain rfl : k = 0 := Subsingleton.elim _ _; exact KIn.blk_9 m c (tt R))
    (fun k j => KIn.blk_10 m c (tt R) k j)
    (fun k j => KIn.blk_11 m c (tt R) k j)
    (fun k j => KIn.blk_12 m c (tt R) k j)
    (fun k j => KIn.blk_13 m c (tt R) k j)
    (fun k j => KIn.blk_14 m c (tt R) k j)
    (fun k j => KIn.blk_15 m c (tt R) k j)
    (fun k j => KIn.blk_16 m c (tt R) k j)
    (fun k j => KIn.blk_17 m c (tt R) k j)
    (fun k j => KIn.blk_18 m c (tt R) k j)
    (fun k j => KIn.blk_19 m c (tt R) k j)
    (fun k j => KIn.blk_20 m c (tt R) k j)
    (fun k j => KIn.blk_21 m c (tt R) k j)
    (fun k j => KIn.blk_22 m c (tt R) k j)
    (fun k j => KIn.blk_23 m c (tt R) k j)
    (fun k j => KIn.blk_24 m c (tt R) k j)
    (fun k => KIn.blk_25 m c (tt R) k)
    col

/-! ## The seventh result: the last 40 columns of result array 0 -/

/-- The last 40 columns of the reference's concatenation `val_main_v228` (216 columns of argument 2, then the 40 columns of
    `val_main_v226`) are `val_main_v226`. -/
theorem v228_slice (c : Dev nD) :
    extractStridedSlice S65536x40 ![0, 216] (val_main_v228 (F := Ideal) (A0 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c))
        Cert.KernelIdeal.Facts₀.slices_S65536x256_S65536x40_0_216
      = val_main_v226 (F := Ideal) (A0 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c) := by
  funext i
  obtain ⟨R, k, rfl⟩ : ∃ (R : Fin 65536) (k : Fin 40), i = ix2 R k := ⟨i 0, i 1, eq_ix2 i⟩
  have hk := k.isLt
  refine (slice_apply (n := 65536) (a := 256) (b := 40) (o := 216) _ _ R k (by omega)).trans ?_
  unfold val_main_v228
  refine (cat_apply (n := 65536) (w := 256) _ _ R ⟨216 + k.val, by omega⟩ 1 (by simp) 40
    (val_main_v226 (F := Ideal) (A0 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c)) rfl 216 rfl
    (by show 216 ≤ 216 + k.val; omega) (by show 216 + k.val - 216 < 40; omega)).trans ?_
  refine congrArg _ ?_
  funext a
  apply Fin.ext
  match a with
  | ⟨0, _⟩ => rfl
  | ⟨1, _⟩ => show 216 + k.val - 216 = k.val; omega

/-- So the kernel's seventh result, the slice of its result array 0, is the reference's stage `val_main_v226`. -/
theorem G51_eq (c : Dev nD) (hg : ∀ (t : Fin cfg0.N) (r : Fin 512) (k : Fin 44), (GenP.iblk m c 1 t : Vec Ideal S512x44 .f32) (ix2 r k)
      = val_main_v24 (F := Ideal) (A2 m c) (A3 m c) (ix2 ⟨512 * t.val + r.val, KIn.row_lt t r⟩ k)) :
    extractStridedSlice S65536x40 ![0, 216] (KOut.G26 m c) Cert.KernelIdeal.Facts₀.slices_S65536x256_S65536x40_0_216
      = val_main_v226 (F := Ideal) (A0 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c) := by
  rw [G26_eq m c hg]
  exact v228_slice m c

/-! ## The kernel's run, read at the reference's stages -/

/-- THE KERNEL'S RUN AT THE REFERENCE'S STAGES: every weakly fair execution of the kernel program terminates with each of
    its seven results at the reference's stage of the launched arguments, the arguments unchanged — given that the gathered
    operand's blocks are rows of the reference's gather stage (`hg`). -/
theorem run (ρ : Dev nD → PrngReg)
    (hg : ∀ (c : Dev nD) (t : Fin cfg0.N) (r : Fin 512) (k : Fin 44), (GenP.iblk m c 1 t : Vec Ideal S512x44 .f32) (ix2 r k)
      = val_main_v24 (F := Ideal) (A2 m c) (A3 m c) (ix2 ⟨512 * t.val + r.val, KIn.row_lt t r⟩ k)) :
    θ_run defs (onTc (τ := τ) (main (F := Ideal))) ⟨m, fun _ => 0, ρ⟩ (fun r => ∀ c : Dev nD,
      r.2.mem ((c.tc : Thread nD τ).loc main_v51) = val_main_v226 (F := Ideal) (A0 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c)
      ∧ r.2.mem ((c.tc : Thread nD τ).loc main_v50_0) = val_main_v228 (F := Ideal) (A0 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c)
      ∧ r.2.mem ((c.tc : Thread nD τ).loc main_v50_1) = val_main_v230 (F := Ideal) (A0 m c) (A1 m c) (A2 m c) (A3 m c) (A8 m c) (A9 m c)
      ∧ r.2.mem ((c.tc : Thread nD τ).loc main_v50_2) = val_main_v98 (F := Ideal) (A0 m c) (A2 m c) (A3 m c) (A4 m c) (A7 m c) (A8 m c) (A9 m c) (A10 m c) (A11 m c) (A12 m c) (A13 m c) (A24 m c) (A25 m c)
      ∧ r.2.mem ((c.tc : Thread nD τ).loc main_v50_3) = val_main_v145 (F := Ideal) (A0 m c) (A2 m c) (A3 m c) (A4 m c) (A5 m c) (A7 m c) (A8 m c) (A9 m c) (A10 m c) (A11 m c) (A12 m c) (A13 m c) (A14 m c) (A15 m c) (A18 m c) (A24 m c) (A25 m c)
      ∧ r.2.mem ((c.tc : Thread nD τ).loc main_v50_4) = val_main_v192 (F := Ideal) (A0 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A24 m c) (A25 m c)
      ∧ r.2.mem ((c.tc : Thread nD τ).loc main_v50_5) = val_main_v36 (F := Ideal) (A0 m c) (A2 m c) (A3 m c) (A8 m c) (A9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c =>
    ⟨(h c).1.trans (G51_eq m c (hg c)),
     (h c).2.1.trans (G26_eq m c (hg c)),
     (h c).2.2.1.trans (G27_eq m c (hg c)),
     (h c).2.2.2.1.trans (G28_eq m c (hg c)),
     (h c).2.2.2.2.1.trans (G29_eq m c (hg c)),
     (h c).2.2.2.2.2.1.trans (G30_eq m c (hg c)),
     (h c).2.2.2.2.2.2.1.trans (G31_eq m c (hg c)),
     (h c).2.2.2.2.2.2.2⟩)
    (KOut.run m ρ)

end Cert.Assemble

end
-- ==== Proof.RefRun0.lean ====
/- General facts about the contents of a device's buffers after a straight line of host operations each of
   which writes one buffer of its own (a program in single-assignment form): the buffer an operation writes
   holds, at the end of the line, what that operation wrote; an operation's operands, written earlier or never,
   hold at the moment it runs what they hold at the end. With them the contents at the end of the line satisfy
   one equation per operation — result = function of the operands' final contents — which is what lets a long
   line be read back one operation at a time, each intermediate value named once. -/
import Idealize.ShloMosaic.Lib.StableHlo.Run

noncomputable section

namespace Cert.ReferenceIdeal.RefRun

open Idealize.ShloMosaic Idealize.ShloMosaic.StableHlo

variable {τ : Topo} {sig : RefSig} {Val : EltTy → Type}

/-- Operation number `k` of the line writes exactly the buffer of reference number `k` of the list. -/
def WritesAt : List (HloOp τ sig Val) → List (Ref sig .tc) → Prop
  | [], [] => True
  | op :: ops, r :: rs => op.writes = {Proc.devRef (τ := τ) .tc r} ∧ WritesAt ops rs
  | _, _ => False

theorem result_of_ne {op : HloOp τ sig Val} {w r : Ref sig .tc} (hw : op.writes = {Proc.devRef (τ := τ) .tc w})
    (h : r ≠ w) (V : Valuation τ sig Val) : op.result V (Proc.devRef .tc r) = V (Proc.devRef .tc r) :=
  op.result_of_not_mem V (by rw [hw, Finset.mem_singleton]; exact devRef_ne_of_ne h)

/-- A reference no operation of (a prefix of) the line writes keeps its contents. -/
theorem after_take_of_not_mem : ∀ (ops : List (HloOp τ sig Val)) (wr : List (Ref sig .tc)), WritesAt ops wr →
    ∀ (V : Valuation τ sig Val) (k : Nat) {r : Ref sig .tc}, r ∉ wr →
      after (ops.take k) V (Proc.devRef .tc r) = V (Proc.devRef .tc r)
  | [], _, _, _, _, _, _ => by rw [List.take_nil]; rfl
  | _ :: _, [], h, _, _, _, _ => h.elim
  | op :: ops, w :: wr, h, V, 0, _, _ => rfl
  | op :: ops, w :: wr, h, V, k + 1, r, hr => by
    rw [List.take_succ_cons, after_cons, after_take_of_not_mem ops wr h.2 _ k (fun hm => hr (List.mem_cons_of_mem _ hm)),
      result_of_ne h.1 (fun e => hr (e ▸ List.mem_cons_self)) V]

theorem after_of_not_mem (ops : List (HloOp τ sig Val)) (wr : List (Ref sig .tc)) (h : WritesAt ops wr)
    (V : Valuation τ sig Val) {r : Ref sig .tc} (hr : r ∉ wr) :
    after ops V (Proc.devRef .tc r) = V (Proc.devRef .tc r) := by
  have := after_take_of_not_mem ops wr h V ops.length hr
  rwa [List.take_length] at this

/-- The contents at the end of the line, at the buffer operation `k` writes and at the buffers written before it,
    through the contents `W` at the moment operation `k` runs. -/
theorem after_at : ∀ (ops : List (HloOp τ sig Val)) (wr : List (Ref sig .tc)), WritesAt ops wr → wr.Nodup →
    ∀ (V : Valuation τ sig Val) (k : Nat) (op : HloOp τ sig Val) (y : Ref sig .tc), ops[k]? = some op → wr[k]? = some y →
      ∃ W : Valuation τ sig Val, after ops V (Proc.devRef .tc y) = op.result W (Proc.devRef .tc y)
        ∧ (∀ (j : Nat) (x : Ref sig .tc), j < k → wr[j]? = some x → W (Proc.devRef .tc x) = after ops V (Proc.devRef .tc x))
        ∧ (∀ r : Ref sig .tc, r ∉ wr → W (Proc.devRef .tc r) = V (Proc.devRef .tc r))
  | [], _, _, _, _, _, _, _, hop, _ => by simp at hop
  | _ :: _, [], h, _, _, _, _, _, _, _ => h.elim
  | o :: ops, w :: wr, h, hnd, V, 0, op, y, hop, hy => by
    obtain rfl : o = op := by simpa using hop
    obtain rfl : w = y := by simpa using hy
    refine ⟨V, ?_, fun j x hj => absurd hj (Nat.not_lt_zero j), fun r _ => rfl⟩
    rw [after_cons, after_of_not_mem ops wr h.2 _ (List.nodup_cons.mp hnd).1]
  | o :: ops, w :: wr, h, hnd, V, k + 1, op, y, hop, hy => by
    have hnd' := List.nodup_cons.mp hnd
    obtain ⟨W, h1, h2, h3⟩ := after_at ops wr h.2 hnd'.2 (o.result V) k op y (by simpa using hop) (by simpa using hy)
    refine ⟨W, by rw [after_cons]; exact h1, ?_, ?_⟩
    · intro j x hj hx
      cases j with
      | zero =>
        obtain rfl : w = x := by simpa using hx
        rw [after_cons, after_of_not_mem ops wr h.2 _ hnd'.1, h3 w hnd'.1]
      | succ j => rw [after_cons]; exact h2 j x (Nat.lt_of_succ_lt_succ hj) (by simpa using hx)
    · intro r hr
      rw [h3 r (fun hm => hr (List.mem_cons_of_mem _ hm)), result_of_ne h.1 (fun e => hr (e ▸ List.mem_cons_self)) V]

end Cert.ReferenceIdeal.RefRun

end
-- ==== Proof.KInV.lean ====
/- The kernel program's host operations before its region, read back one operation at a time against the reference
   program's stages. The 74 operations are in single-assignment form; the first 42 of them — the index arithmetic on
   argument 3 and the inlined take-along-axis gather of argument 2 — are, position by position, the same operations as
   the reference program's operations 14 … 55 (the same functions of the same operands, the two programs' copies of each
   shape and side condition being equal by computation). So at the end of the line each of these buffers holds the
   reference's stage function at the same position, of the arguments' launch contents; the last of them is the buffer
   the kernel reads its gathered rows from. -/
import proofs.«180642_j50062138802934_2_alg».proof.Proof.FrameKernelIdealP
import proofs.«180642_j50062138802934_2_alg».proof.Proof.RefRun0
import proofs.«180642_j50062138802934_2_alg».proof.Proof.ReadP

noncomputable section

namespace Cert.KernelIdeal.KIn

open Cert.KernelIdeal Cert.KernelIdeal.Gen Idealize.ShloMosaic Idealize.ShloMosaic.TcCoe Idealize.SL.Sem Idealize.ShloMosaic.StableHlo
open Cert.ReferenceIdeal.RefRun (WritesAt after_at after_of_not_mem)

variable {F : FTy → Type} [FloatOps F]

/-- The host operations before the region, as one line. -/
abbrev hostL : List (HloOp τ sig (Elt F)) := List.flatten [hostOps0, hostOps0_1, hostOps0_2]

/-- The buffer each of them writes, in order. -/
abbrev hostWr : List (Ref sig .tc) :=
  [main_c, main_v0, main_v1, main_v2, main_v3, main_v4, main_v5, main_v6, main_v7, main_c_0, main_v8, main_v9, main_c_1, main_v10, main_v11, main_v12, main_v13, main_v14, main_v15, main_v16, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_cst, main_call0_v14, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49]

set_option maxRecDepth 8192 in
theorem hostWr_writes : WritesAt (hostL (F := F)) hostWr :=
  And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (trivial))))))))))))))))))))))))))))))))))))))))))))))))))))))))))))))))))))))))))

theorem hostWr_nodup : hostWr.Nodup := by decide

theorem hostWr_not_main_arg2 : main_arg2 ∉ hostWr := by decide
theorem hostWr_not_main_arg3 : main_arg3 ∉ hostWr := by decide

theorem stage_main_c (V : Valuation τ sig (Elt F)) :
    after (hostL (F := F)) V (Proc.devRef .tc main_c) = Cert.ReferenceIdeal.ReadP.val_main_c (F := F) := by
  obtain ⟨W, h1, h2, h3⟩ := after_at (hostL (F := F)) hostWr hostWr_writes hostWr_nodup V 0 _ main_c rfl rfl
  unfold Cert.ReferenceIdeal.ReadP.val_main_c
  rw [h1]; clear h1 h2 h3
  (rw [nullary_result]) <;> rfl

theorem stage_main_v0 (V : Valuation τ sig (Elt F)) :
    after (hostL (F := F)) V (Proc.devRef .tc main_v0) = Cert.ReferenceIdeal.ReadP.val_main_v7 (F := F) := by
  obtain ⟨W, h1, h2, h3⟩ := after_at (hostL (F := F)) hostWr hostWr_writes hostWr_nodup V 1 _ main_v0 rfl rfl
  have e0 := (h2 0 main_c (by decide) rfl).trans (stage_main_c V)
  unfold Cert.ReferenceIdeal.ReadP.val_main_v7
  rw [h1]; clear h1 h2 h3
  generalize Cert.ReferenceIdeal.ReadP.val_main_c (F := F) = a0 at e0 ⊢
  (rw [unary_result, e0]) <;> rfl

theorem stage_main_v1 (V : Valuation τ sig (Elt F)) :
    after (hostL (F := F)) V (Proc.devRef .tc main_v1) = Cert.ReferenceIdeal.ReadP.val_main_v8 (F := F) (V (Proc.devRef .tc main_arg3)) := by
  obtain ⟨W, h1, h2, h3⟩ := after_at (hostL (F := F)) hostWr hostWr_writes hostWr_nodup V 2 _ main_v1 rfl rfl
  have e0 := (h2 1 main_v0 (by decide) rfl).trans (stage_main_v0 V)
  have e1 := h3 main_arg3 hostWr_not_main_arg3
  unfold Cert.ReferenceIdeal.ReadP.val_main_v8
  rw [h1]; clear h1 h2 h3
  generalize Cert.ReferenceIdeal.ReadP.val_main_v7 (F := F) = a0 at e0 ⊢
  generalize V (Proc.devRef .tc main_arg3) = a1 at e1 ⊢
  (rw [binary_result, e0, e1]) <;> rfl

theorem stage_main_v2 (V : Valuation τ sig (Elt F)) :
    after (hostL (F := F)) V (Proc.devRef .tc main_v2) = Cert.ReferenceIdeal.ReadP.val_main_v9 (F := F) (V (Proc.devRef .tc main_arg3)) := by
  obtain ⟨W, h1, h2, h3⟩ := after_at (hostL (F := F)) hostWr hostWr_writes hostWr_nodup V 3 _ main_v2 rfl rfl
  have e0 := (h2 2 main_v1 (by decide) rfl).trans (stage_main_v1 V)
  unfold Cert.ReferenceIdeal.ReadP.val_main_v9
  rw [h1]; clear h1 h2 h3
  generalize Cert.ReferenceIdeal.ReadP.val_main_v8 (F := F) (V (Proc.devRef .tc main_arg3)) = a0 at e0 ⊢
  (rw [unary_result, e0]) <;> rfl

theorem stage_main_v3 (V : Valuation τ sig (Elt F)) :
    after (hostL (F := F)) V (Proc.devRef .tc main_v3) = Cert.ReferenceIdeal.ReadP.val_main_v10 (F := F) := by
  obtain ⟨W, h1, h2, h3⟩ := after_at (hostL (F := F)) hostWr hostWr_writes hostWr_nodup V 4 _ main_v3 rfl rfl
  unfold Cert.ReferenceIdeal.ReadP.val_main_v10
  rw [h1]; clear h1 h2 h3
  (rw [nullary_result]) <;> rfl

theorem stage_main_v4 (V : Valuation τ sig (Elt F)) :
    after (hostL (F := F)) V (Proc.devRef .tc main_v4) = Cert.ReferenceIdeal.ReadP.val_main_v11 (F := F) := by
  obtain ⟨W, h1, h2, h3⟩ := after_at (hostL (F := F)) hostWr hostWr_writes hostWr_nodup V 5 _ main_v4 rfl rfl
  have e0 := (h2 4 main_v3 (by decide) rfl).trans (stage_main_v3 V)
  unfold Cert.ReferenceIdeal.ReadP.val_main_v11
  rw [h1]; clear h1 h2 h3
  generalize Cert.ReferenceIdeal.ReadP.val_main_v10 (F := F) = a0 at e0 ⊢
  (rw [unary_result, e0]) <;> rfl

theorem stage_main_v5 (V : Valuation τ sig (Elt F)) :
    after (hostL (F := F)) V (Proc.devRef .tc main_v5) = Cert.ReferenceIdeal.ReadP.val_main_v12 (F := F) (V (Proc.devRef .tc main_arg3)) := by
  obtain ⟨W, h1, h2, h3⟩ := after_at (hostL (F := F)) hostWr hostWr_writes hostWr_nodup V 6 _ main_v5 rfl rfl
  have e0 := (h2 3 main_v2 (by decide) rfl).trans (stage_main_v2 V)
  unfold Cert.ReferenceIdeal.ReadP.val_main_v12
  rw [h1]; clear h1 h2 h3
  generalize Cert.ReferenceIdeal.ReadP.val_main_v9 (F := F) (V (Proc.devRef .tc main_arg3)) = a0 at e0 ⊢
  (rw [unary_result, e0]) <;> rfl

theorem stage_main_v6 (V : Valuation τ sig (Elt F)) :
    after (hostL (F := F)) V (Proc.devRef .tc main_v6) = Cert.ReferenceIdeal.ReadP.val_main_v13 (F := F) := by
  obtain ⟨W, h1, h2, h3⟩ := after_at (hostL (F := F)) hostWr hostWr_writes hostWr_nodup V 7 _ main_v6 rfl rfl
  have e0 := (h2 5 main_v4 (by decide) rfl).trans (stage_main_v4 V)
  unfold Cert.ReferenceIdeal.ReadP.val_main_v13
  rw [h1]; clear h1 h2 h3
  generalize Cert.ReferenceIdeal.ReadP.val_main_v11 (F := F) = a0 at e0 ⊢
  (rw [unary_result, e0]) <;> rfl

theorem stage_main_v7 (V : Valuation τ sig (Elt F)) :
    after (hostL (F := F)) V (Proc.devRef .tc main_v7) = Cert.ReferenceIdeal.ReadP.val_main_v14 (F := F) (V (Proc.devRef .tc main_arg3)) := by
  obtain ⟨W, h1, h2, h3⟩ := after_at (hostL (F := F)) hostWr hostWr_writes hostWr_nodup V 8 _ main_v7 rfl rfl
  have e0 := (h2 6 main_v5 (by decide) rfl).trans (stage_main_v5 V)
  have e1 := (h2 7 main_v6 (by decide) rfl).trans (stage_main_v6 V)
  unfold Cert.ReferenceIdeal.ReadP.val_main_v14
  rw [h1]; clear h1 h2 h3
  generalize Cert.ReferenceIdeal.ReadP.val_main_v12 (F := F) (V (Proc.devRef .tc main_arg3)) = a0 at e0 ⊢
  generalize Cert.ReferenceIdeal.ReadP.val_main_v13 (F := F) = a1 at e1 ⊢
  (rw [binary_result, e0, e1]) <;> rfl

theorem stage_main_c_0 (V : Valuation τ sig (Elt F)) :
    after (hostL (F := F)) V (Proc.devRef .tc main_c_0) = Cert.ReferenceIdeal.ReadP.val_main_c_1 (F := F) := by
  obtain ⟨W, h1, h2, h3⟩ := after_at (hostL (F := F)) hostWr hostWr_writes hostWr_nodup V 9 _ main_c_0 rfl rfl
  unfold Cert.ReferenceIdeal.ReadP.val_main_c_1
  rw [h1]; clear h1 h2 h3
  (rw [nullary_result]) <;> rfl

theorem stage_main_v8 (V : Valuation τ sig (Elt F)) :
    after (hostL (F := F)) V (Proc.devRef .tc main_v8) = Cert.ReferenceIdeal.ReadP.val_main_v15 (F := F) := by
  obtain ⟨W, h1, h2, h3⟩ := after_at (hostL (F := F)) hostWr hostWr_writes hostWr_nodup V 10 _ main_v8 rfl rfl
  have e0 := (h2 9 main_c_0 (by decide) rfl).trans (stage_main_c_0 V)
  unfold Cert.ReferenceIdeal.ReadP.val_main_v15
  rw [h1]; clear h1 h2 h3
  generalize Cert.ReferenceIdeal.ReadP.val_main_c_1 (F := F) = a0 at e0 ⊢
  (rw [unary_result, e0]) <;> rfl

theorem stage_main_v9 (V : Valuation τ sig (Elt F)) :
    after (hostL (F := F)) V (Proc.devRef .tc main_v9) = Cert.ReferenceIdeal.ReadP.val_main_v16 (F := F) (V (Proc.devRef .tc main_arg3)) := by
  obtain ⟨W, h1, h2, h3⟩ := after_at (hostL (F := F)) hostWr hostWr_writes hostWr_nodup V 11 _ main_v9 rfl rfl
  have e0 := (h2 8 main_v7 (by decide) rfl).trans (stage_main_v7 V)
  have e1 := (h2 10 main_v8 (by decide) rfl).trans (stage_main_v8 V)
  unfold Cert.ReferenceIdeal.ReadP.val_main_v16
  rw [h1]; clear h1 h2 h3
  generalize Cert.ReferenceIdeal.ReadP.val_main_v14 (F := F) (V (Proc.devRef .tc main_arg3)) = a0 at e0 ⊢
  generalize Cert.ReferenceIdeal.ReadP.val_main_v15 (F := F) = a1 at e1 ⊢
  (rw [binary_result, e0, e1]) <;> rfl

theorem stage_main_c_1 (V : Valuation τ sig (Elt F)) :
    after (hostL (F := F)) V (Proc.devRef .tc main_c_1) = Cert.ReferenceIdeal.ReadP.val_main_c_2 (F := F) := by
  obtain ⟨W, h1, h2, h3⟩ := after_at (hostL (F := F)) hostWr hostWr_writes hostWr_nodup V 12 _ main_c_1 rfl rfl
  unfold Cert.ReferenceIdeal.ReadP.val_main_c_2
  rw [h1]; clear h1 h2 h3
  (rw [nullary_result]) <;> rfl

theorem stage_main_v10 (V : Valuation τ sig (Elt F)) :
    after (hostL (F := F)) V (Proc.devRef .tc main_v10) = Cert.ReferenceIdeal.ReadP.val_main_v17 (F := F) := by
  obtain ⟨W, h1, h2, h3⟩ := after_at (hostL (F := F)) hostWr hostWr_writes hostWr_nodup V 13 _ main_v10 rfl rfl
  have e0 := (h2 12 main_c_1 (by decide) rfl).trans (stage_main_c_1 V)
  unfold Cert.ReferenceIdeal.ReadP.val_main_v17
  rw [h1]; clear h1 h2 h3
  generalize Cert.ReferenceIdeal.ReadP.val_main_c_2 (F := F) = a0 at e0 ⊢
  (rw [unary_result, e0]) <;> rfl

theorem stage_main_v11 (V : Valuation τ sig (Elt F)) :
    after (hostL (F := F)) V (Proc.devRef .tc main_v11) = Cert.ReferenceIdeal.ReadP.val_main_v18 (F := F) (V (Proc.devRef .tc main_arg3)) := by
  obtain ⟨W, h1, h2, h3⟩ := after_at (hostL (F := F)) hostWr hostWr_writes hostWr_nodup V 14 _ main_v11 rfl rfl
  have e0 := (h2 11 main_v9 (by decide) rfl).trans (stage_main_v9 V)
  have e1 := (h2 13 main_v10 (by decide) rfl).trans (stage_main_v10 V)
  unfold Cert.ReferenceIdeal.ReadP.val_main_v18
  rw [h1]; clear h1 h2 h3
  generalize Cert.ReferenceIdeal.ReadP.val_main_v16 (F := F) (V (Proc.devRef .tc main_arg3)) = a0 at e0 ⊢
  generalize Cert.ReferenceIdeal.ReadP.val_main_v17 (F := F) = a1 at e1 ⊢
  (rw [binary_result, e0, e1]) <;> rfl

theorem stage_main_v12 (V : Valuation τ sig (Elt F)) :
    after (hostL (F := F)) V (Proc.devRef .tc main_v12) = Cert.ReferenceIdeal.ReadP.val_main_v19 (F := F) (V (Proc.devRef .tc main_arg3)) := by
  obtain ⟨W, h1, h2, h3⟩ := after_at (hostL (F := F)) hostWr hostWr_writes hostWr_nodup V 15 _ main_v12 rfl rfl
  have e0 := (h2 14 main_v11 (by decide) rfl).trans (stage_main_v11 V)
  unfold Cert.ReferenceIdeal.ReadP.val_main_v19
  rw [h1]; clear h1 h2 h3
  generalize Cert.ReferenceIdeal.ReadP.val_main_v18 (F := F) (V (Proc.devRef .tc main_arg3)) = a0 at e0 ⊢
  (rw [unary_result, e0]) <;> rfl

theorem stage_main_v13 (V : Valuation τ sig (Elt F)) :
    after (hostL (F := F)) V (Proc.devRef .tc main_v13) = Cert.ReferenceIdeal.ReadP.val_main_v20 (F := F) (V (Proc.devRef .tc main_arg3)) := by
  obtain ⟨W, h1, h2, h3⟩ := after_at (hostL (F := F)) hostWr hostWr_writes hostWr_nodup V 16 _ main_v13 rfl rfl
  have e0 := h3 main_arg3 hostWr_not_main_arg3
  unfold Cert.ReferenceIdeal.ReadP.val_main_v20
  rw [h1]; clear h1 h2 h3
  generalize V (Proc.devRef .tc main_arg3) = a0 at e0 ⊢
  (rw [unary_result, e0]) <;> rfl

theorem stage_main_v14 (V : Valuation τ sig (Elt F)) :
    after (hostL (F := F)) V (Proc.devRef .tc main_v14) = Cert.ReferenceIdeal.ReadP.val_main_v21 (F := F) (V (Proc.devRef .tc main_arg3)) := by
  obtain ⟨W, h1, h2, h3⟩ := after_at (hostL (F := F)) hostWr hostWr_writes hostWr_nodup V 17 _ main_v14 rfl rfl
  have e0 := (h2 16 main_v13 (by decide) rfl).trans (stage_main_v13 V)
  unfold Cert.ReferenceIdeal.ReadP.val_main_v21
  rw [h1]; clear h1 h2 h3
  generalize Cert.ReferenceIdeal.ReadP.val_main_v20 (F := F) (V (Proc.devRef .tc main_arg3)) = a0 at e0 ⊢
  (rw [unary_result, e0]) <;> rfl

theorem stage_main_v15 (V : Valuation τ sig (Elt F)) :
    after (hostL (F := F)) V (Proc.devRef .tc main_v15) = Cert.ReferenceIdeal.ReadP.val_main_v22 (F := F) (V (Proc.devRef .tc main_arg3)) := by
  obtain ⟨W, h1, h2, h3⟩ := after_at (hostL (F := F)) hostWr hostWr_writes hostWr_nodup V 18 _ main_v15 rfl rfl
  have e0 := (h2 15 main_v12 (by decide) rfl).trans (stage_main_v12 V)
  have e1 := (h2 17 main_v14 (by decide) rfl).trans (stage_main_v14 V)
  unfold Cert.ReferenceIdeal.ReadP.val_main_v22
  rw [h1]; clear h1 h2 h3
  generalize Cert.ReferenceIdeal.ReadP.val_main_v19 (F := F) (V (Proc.devRef .tc main_arg3)) = a0 at e0 ⊢
  generalize Cert.ReferenceIdeal.ReadP.val_main_v21 (F := F) (V (Proc.devRef .tc main_arg3)) = a1 at e1 ⊢
  (rw [binary_result, e0, e1]) <;> rfl

theorem stage_main_v16 (V : Valuation τ sig (Elt F)) :
    after (hostL (F := F)) V (Proc.devRef .tc main_v16) = Cert.ReferenceIdeal.ReadP.val_main_v23 (F := F) (V (Proc.devRef .tc main_arg3)) := by
  obtain ⟨W, h1, h2, h3⟩ := after_at (hostL (F := F)) hostWr hostWr_writes hostWr_nodup V 19 _ main_v16 rfl rfl
  have e0 := (h2 11 main_v9 (by decide) rfl).trans (stage_main_v9 V)
  have e1 := (h2 18 main_v15 (by decide) rfl).trans (stage_main_v15 V)
  unfold Cert.ReferenceIdeal.ReadP.val_main_v23
  rw [h1]; clear h1 h2 h3
  generalize Cert.ReferenceIdeal.ReadP.val_main_v16 (F := F) (V (Proc.devRef .tc main_arg3)) = a0 at e0 ⊢
  generalize Cert.ReferenceIdeal.ReadP.val_main_v22 (F := F) (V (Proc.devRef .tc main_arg3)) = a1 at e1 ⊢
  (rw [binary_result, e0, e1]) <;> rfl

theorem stage_main_call0_c (V : Valuation τ sig (Elt F)) :
    after (hostL (F := F)) V (Proc.devRef .tc main_call0_c) = Cert.ReferenceIdeal.ReadP.val_main_call1_c (F := F) := by
  obtain ⟨W, h1, h2, h3⟩ := after_at (hostL (F := F)) hostWr hostWr_writes hostWr_nodup V 20 _ main_call0_c rfl rfl
  have cy : ∀ v : (⟨S_, .i32⟩ : BufTy).Contents (Elt F), (TRef.of main_call0_c : TRef sig ⟨S_, .i32⟩).toBuf v = v := fun _ => rfl
  unfold Cert.ReferenceIdeal.ReadP.val_main_call1_c
  rw [h1]; clear h1 h2 h3
  (rw [nullary_result, cy]) <;> rfl

theorem stage_main_call0_v0 (V : Valuation τ sig (Elt F)) :
    after (hostL (F := F)) V (Proc.devRef .tc main_call0_v0) = Cert.ReferenceIdeal.ReadP.val_main_call1_v0 (F := F) := by
  obtain ⟨W, h1, h2, h3⟩ := after_at (hostL (F := F)) hostWr hostWr_writes hostWr_nodup V 21 _ main_call0_v0 rfl rfl
  have e0 := (h2 20 main_call0_c (by decide) rfl).trans (stage_main_call0_c V)
  have cy : ∀ v : (⟨S65536x44, .i32⟩ : BufTy).Contents (Elt F), (TRef.of main_call0_v0 : TRef sig ⟨S65536x44, .i32⟩).toBuf v = v := fun _ => rfl
  have cx0 : ∀ u, (TRef.of main_call0_c : TRef sig ⟨S_, .i32⟩).ofBuf (Val := Elt F) u = u := fun _ => rfl
  unfold Cert.ReferenceIdeal.ReadP.val_main_call1_v0
  rw [h1]; clear h1 h2 h3
  generalize Cert.ReferenceIdeal.ReadP.val_main_call1_c (F := F) = a0 at e0 ⊢
  (rw [unary_result, cy, cx0, e0]) <;> rfl

theorem stage_main_call0_v1 (V : Valuation τ sig (Elt F)) :
    after (hostL (F := F)) V (Proc.devRef .tc main_call0_v1) = Cert.ReferenceIdeal.ReadP.val_main_call1_v1 (F := F) (V (Proc.devRef .tc main_arg3)) := by
  obtain ⟨W, h1, h2, h3⟩ := after_at (hostL (F := F)) hostWr hostWr_writes hostWr_nodup V 22 _ main_call0_v1 rfl rfl
  have e0 := (h2 19 main_v16 (by decide) rfl).trans (stage_main_v16 V)
  have e1 := (h2 21 main_call0_v0 (by decide) rfl).trans (stage_main_call0_v0 V)
  have cy : ∀ v : (⟨S65536x44, .i1⟩ : BufTy).Contents (Elt F), (TRef.of main_call0_v1 : TRef sig ⟨S65536x44, .i1⟩).toBuf v = v := fun _ => rfl
  have cx0 : ∀ u, (TRef.of main_v16 : TRef sig ⟨S65536x44, .i32⟩).ofBuf (Val := Elt F) u = u := fun _ => rfl
  have cx1 : ∀ u, (TRef.of main_call0_v0 : TRef sig ⟨S65536x44, .i32⟩).ofBuf (Val := Elt F) u = u := fun _ => rfl
  unfold Cert.ReferenceIdeal.ReadP.val_main_call1_v1
  rw [h1]; clear h1 h2 h3
  generalize Cert.ReferenceIdeal.ReadP.val_main_v23 (F := F) (V (Proc.devRef .tc main_arg3)) = a0 at e0 ⊢
  generalize Cert.ReferenceIdeal.ReadP.val_main_call1_v0 (F := F) = a1 at e1 ⊢
  (rw [binary_result, cy, cx0, cx1, e0, e1]) <;> rfl

theorem stage_main_call0_c_0 (V : Valuation τ sig (Elt F)) :
    after (hostL (F := F)) V (Proc.devRef .tc main_call0_c_0) = Cert.ReferenceIdeal.ReadP.val_main_call1_c_0 (F := F) := by
  obtain ⟨W, h1, h2, h3⟩ := after_at (hostL (F := F)) hostWr hostWr_writes hostWr_nodup V 23 _ main_call0_c_0 rfl rfl
  have cy : ∀ v : (⟨S_, .i32⟩ : BufTy).Contents (Elt F), (TRef.of main_call0_c_0 : TRef sig ⟨S_, .i32⟩).toBuf v = v := fun _ => rfl
  unfold Cert.ReferenceIdeal.ReadP.val_main_call1_c_0
  rw [h1]; clear h1 h2 h3
  (rw [nullary_result, cy]) <;> rfl

theorem stage_main_call0_v2 (V : Valuation τ sig (Elt F)) :
    after (hostL (F := F)) V (Proc.devRef .tc main_call0_v2) = Cert.ReferenceIdeal.ReadP.val_main_call1_v2 (F := F) := by
  obtain ⟨W, h1, h2, h3⟩ := after_at (hostL (F := F)) hostWr hostWr_writes hostWr_nodup V 24 _ main_call0_v2 rfl rfl
  have e0 := (h2 23 main_call0_c_0 (by decide) rfl).trans (stage_main_call0_c_0 V)
  have cy : ∀ v : (⟨S65536x44, .i32⟩ : BufTy).Contents (Elt F), (TRef.of main_call0_v2 : TRef sig ⟨S65536x44, .i32⟩).toBuf v = v := fun _ => rfl
  have cx0 : ∀ u, (TRef.of main_call0_c_0 : TRef sig ⟨S_, .i32⟩).ofBuf (Val := Elt F) u = u := fun _ => rfl
  unfold Cert.ReferenceIdeal.ReadP.val_main_call1_v2
  rw [h1]; clear h1 h2 h3
  generalize Cert.ReferenceIdeal.ReadP.val_main_call1_c_0 (F := F) = a0 at e0 ⊢
  (rw [unary_result, cy, cx0, e0]) <;> rfl

theorem stage_main_call0_v3 (V : Valuation τ sig (Elt F)) :
    after (hostL (F := F)) V (Proc.devRef .tc main_call0_v3) = Cert.ReferenceIdeal.ReadP.val_main_call1_v3 (F := F) (V (Proc.devRef .tc main_arg3)) := by
  obtain ⟨W, h1, h2, h3⟩ := after_at (hostL (F := F)) hostWr hostWr_writes hostWr_nodup V 25 _ main_call0_v3 rfl rfl
  have e0 := (h2 19 main_v16 (by decide) rfl).trans (stage_main_v16 V)
  have e1 := (h2 24 main_call0_v2 (by decide) rfl).trans (stage_main_call0_v2 V)
  have cy : ∀ v : (⟨S65536x44, .i32⟩ : BufTy).Contents (Elt F), (TRef.of main_call0_v3 : TRef sig ⟨S65536x44, .i32⟩).toBuf v = v := fun _ => rfl
  have cx0 : ∀ u, (TRef.of main_v16 : TRef sig ⟨S65536x44, .i32⟩).ofBuf (Val := Elt F) u = u := fun _ => rfl
  have cx1 : ∀ u, (TRef.of main_call0_v2 : TRef sig ⟨S65536x44, .i32⟩).ofBuf (Val := Elt F) u = u := fun _ => rfl
  unfold Cert.ReferenceIdeal.ReadP.val_main_call1_v3
  rw [h1]; clear h1 h2 h3
  generalize Cert.ReferenceIdeal.ReadP.val_main_v23 (F := F) (V (Proc.devRef .tc main_arg3)) = a0 at e0 ⊢
  generalize Cert.ReferenceIdeal.ReadP.val_main_call1_v2 (F := F) = a1 at e1 ⊢
  (rw [binary_result, cy, cx0, cx1, e0, e1]) <;> rfl

theorem stage_main_call0_v4 (V : Valuation τ sig (Elt F)) :
    after (hostL (F := F)) V (Proc.devRef .tc main_call0_v4) = Cert.ReferenceIdeal.ReadP.val_main_call1_v4 (F := F) (V (Proc.devRef .tc main_arg3)) := by
  obtain ⟨W, h1, h2, h3⟩ := after_at (hostL (F := F)) hostWr hostWr_writes hostWr_nodup V 26 _ main_call0_v4 rfl rfl
  have e0 := (h2 22 main_call0_v1 (by decide) rfl).trans (stage_main_call0_v1 V)
  have e1 := (h2 25 main_call0_v3 (by decide) rfl).trans (stage_main_call0_v3 V)
  have e2 := (h2 19 main_v16 (by decide) rfl).trans (stage_main_v16 V)
  have cy : ∀ v : (⟨S65536x44, .i32⟩ : BufTy).Contents (Elt F), (TRef.of main_call0_v4 : TRef sig ⟨S65536x44, .i32⟩).toBuf v = v := fun _ => rfl
  have cx0 : ∀ u, (TRef.of main_call0_v1 : TRef sig ⟨S65536x44, .i1⟩).ofBuf (Val := Elt F) u = u := fun _ => rfl
  have cx1 : ∀ u, (TRef.of main_call0_v3 : TRef sig ⟨S65536x44, .i32⟩).ofBuf (Val := Elt F) u = u := fun _ => rfl
  have cx2 : ∀ u, (TRef.of main_v16 : TRef sig ⟨S65536x44, .i32⟩).ofBuf (Val := Elt F) u = u := fun _ => rfl
  unfold Cert.ReferenceIdeal.ReadP.val_main_call1_v4
  rw [h1]; clear h1 h2 h3
  generalize Cert.ReferenceIdeal.ReadP.val_main_call1_v1 (F := F) (V (Proc.devRef .tc main_arg3)) = a0 at e0 ⊢
  generalize Cert.ReferenceIdeal.ReadP.val_main_call1_v3 (F := F) (V (Proc.devRef .tc main_arg3)) = a1 at e1 ⊢
  generalize Cert.ReferenceIdeal.ReadP.val_main_v23 (F := F) (V (Proc.devRef .tc main_arg3)) = a2 at e2 ⊢
  (rw [ternary_result, cy, cx0, cx1, cx2, e0, e1, e2]) <;> rfl

theorem stage_main_call0_v5 (V : Valuation τ sig (Elt F)) :
    after (hostL (F := F)) V (Proc.devRef .tc main_call0_v5) = Cert.ReferenceIdeal.ReadP.val_main_call1_v5 (F := F) (V (Proc.devRef .tc main_arg3)) := by
  obtain ⟨W, h1, h2, h3⟩ := after_at (hostL (F := F)) hostWr hostWr_writes hostWr_nodup V 27 _ main_call0_v5 rfl rfl
  have e0 := (h2 26 main_call0_v4 (by decide) rfl).trans (stage_main_call0_v4 V)
  unfold Cert.ReferenceIdeal.ReadP.val_main_call1_v5
  rw [h1]; clear h1 h2 h3
  generalize Cert.ReferenceIdeal.ReadP.val_main_call1_v4 (F := F) (V (Proc.devRef .tc main_arg3)) = a0 at e0 ⊢
  (rw [reshape_result, e0]) <;> rfl

theorem stage_main_call0_c_1 (V : Valuation τ sig (Elt F)) :
    after (hostL (F := F)) V (Proc.devRef .tc main_call0_c_1) = Cert.ReferenceIdeal.ReadP.val_main_call1_c_1 (F := F) := by
  obtain ⟨W, h1, h2, h3⟩ := after_at (hostL (F := F)) hostWr hostWr_writes hostWr_nodup V 28 _ main_call0_c_1 rfl rfl
  have cy : ∀ v : (⟨S1, .i32⟩ : BufTy).Contents (Elt F), (TRef.of main_call0_c_1 : TRef sig ⟨S1, .i32⟩).toBuf v = v := fun _ => rfl
  unfold Cert.ReferenceIdeal.ReadP.val_main_call1_c_1
  rw [h1]; clear h1 h2 h3
  (rw [nullary_result, cy]) <;> rfl

theorem stage_main_call0_c_2 (V : Valuation τ sig (Elt F)) :
    after (hostL (F := F)) V (Proc.devRef .tc main_call0_c_2) = Cert.ReferenceIdeal.ReadP.val_main_call1_c_2 (F := F) := by
  obtain ⟨W, h1, h2, h3⟩ := after_at (hostL (F := F)) hostWr hostWr_writes hostWr_nodup V 29 _ main_call0_c_2 rfl rfl
  have cy : ∀ v : (⟨S_, .i32⟩ : BufTy).Contents (Elt F), (TRef.of main_call0_c_2 : TRef sig ⟨S_, .i32⟩).toBuf v = v := fun _ => rfl
  unfold Cert.ReferenceIdeal.ReadP.val_main_call1_c_2
  rw [h1]; clear h1 h2 h3
  (rw [nullary_result, cy]) <;> rfl

theorem stage_main_call0_v6 (V : Valuation τ sig (Elt F)) :
    after (hostL (F := F)) V (Proc.devRef .tc main_call0_v6) = Cert.ReferenceIdeal.ReadP.val_main_call1_v6 (F := F) := by
  obtain ⟨W, h1, h2, h3⟩ := after_at (hostL (F := F)) hostWr hostWr_writes hostWr_nodup V 30 _ main_call0_v6 rfl rfl
  have e0 := (h2 29 main_call0_c_2 (by decide) rfl).trans (stage_main_call0_c_2 V)
  have cy : ∀ v : (⟨S65536x44x1, .i32⟩ : BufTy).Contents (Elt F), (TRef.of main_call0_v6 : TRef sig ⟨S65536x44x1, .i32⟩).toBuf v = v := fun _ => rfl
  have cx0 : ∀ u, (TRef.of main_call0_c_2 : TRef sig ⟨S_, .i32⟩).ofBuf (Val := Elt F) u = u := fun _ => rfl
  unfold Cert.ReferenceIdeal.ReadP.val_main_call1_v6
  rw [h1]; clear h1 h2 h3
  generalize Cert.ReferenceIdeal.ReadP.val_main_call1_c_2 (F := F) = a0 at e0 ⊢
  (rw [unary_result, cy, cx0, e0]) <;> rfl

theorem stage_main_call0_v7 (V : Valuation τ sig (Elt F)) :
    after (hostL (F := F)) V (Proc.devRef .tc main_call0_v7) = Cert.ReferenceIdeal.ReadP.val_main_call1_v7 (F := F) (V (Proc.devRef .tc main_arg3)) := by
  obtain ⟨W, h1, h2, h3⟩ := after_at (hostL (F := F)) hostWr hostWr_writes hostWr_nodup V 31 _ main_call0_v7 rfl rfl
  have e0 := (h2 27 main_call0_v5 (by decide) rfl).trans (stage_main_call0_v5 V)
  have e1 := (h2 30 main_call0_v6 (by decide) rfl).trans (stage_main_call0_v6 V)
  have cy : ∀ v : (⟨S65536x44x1, .i1⟩ : BufTy).Contents (Elt F), (TRef.of main_call0_v7 : TRef sig ⟨S65536x44x1, .i1⟩).toBuf v = v := fun _ => rfl
  have cx0 : ∀ u, (TRef.of main_call0_v5 : TRef sig ⟨S65536x44x1, .i32⟩).ofBuf (Val := Elt F) u = u := fun _ => rfl
  have cx1 : ∀ u, (TRef.of main_call0_v6 : TRef sig ⟨S65536x44x1, .i32⟩).ofBuf (Val := Elt F) u = u := fun _ => rfl
  unfold Cert.ReferenceIdeal.ReadP.val_main_call1_v7
  rw [h1]; clear h1 h2 h3
  generalize Cert.ReferenceIdeal.ReadP.val_main_call1_v5 (F := F) (V (Proc.devRef .tc main_arg3)) = a0 at e0 ⊢
  generalize Cert.ReferenceIdeal.ReadP.val_main_call1_v6 (F := F) = a1 at e1 ⊢
  (rw [binary_result, cy, cx0, cx1, e0, e1]) <;> rfl

theorem stage_main_call0_v8 (V : Valuation τ sig (Elt F)) :
    after (hostL (F := F)) V (Proc.devRef .tc main_call0_v8) = Cert.ReferenceIdeal.ReadP.val_main_call1_v8 (F := F) := by
  obtain ⟨W, h1, h2, h3⟩ := after_at (hostL (F := F)) hostWr hostWr_writes hostWr_nodup V 32 _ main_call0_v8 rfl rfl
  have e0 := (h2 28 main_call0_c_1 (by decide) rfl).trans (stage_main_call0_c_1 V)
  have cy : ∀ v : (⟨S1x1x1, .i32⟩ : BufTy).Contents (Elt F), (TRef.of main_call0_v8 : TRef sig ⟨S1x1x1, .i32⟩).toBuf v = v := fun _ => rfl
  have cx0 : ∀ u, (TRef.of main_call0_c_1 : TRef sig ⟨S1, .i32⟩).ofBuf (Val := Elt F) u = u := fun _ => rfl
  unfold Cert.ReferenceIdeal.ReadP.val_main_call1_v8
  rw [h1]; clear h1 h2 h3
  generalize Cert.ReferenceIdeal.ReadP.val_main_call1_c_1 (F := F) = a0 at e0 ⊢
  (rw [unary_result, cy, cx0, e0]) <;> rfl

theorem stage_main_call0_v9 (V : Valuation τ sig (Elt F)) :
    after (hostL (F := F)) V (Proc.devRef .tc main_call0_v9) = Cert.ReferenceIdeal.ReadP.val_main_call1_v9 (F := F) := by
  obtain ⟨W, h1, h2, h3⟩ := after_at (hostL (F := F)) hostWr hostWr_writes hostWr_nodup V 33 _ main_call0_v9 rfl rfl
  have e0 := (h2 32 main_call0_v8 (by decide) rfl).trans (stage_main_call0_v8 V)
  have cy : ∀ v : (⟨S65536x44x1, .i32⟩ : BufTy).Contents (Elt F), (TRef.of main_call0_v9 : TRef sig ⟨S65536x44x1, .i32⟩).toBuf v = v := fun _ => rfl
  have cx0 : ∀ u, (TRef.of main_call0_v8 : TRef sig ⟨S1x1x1, .i32⟩).ofBuf (Val := Elt F) u = u := fun _ => rfl
  unfold Cert.ReferenceIdeal.ReadP.val_main_call1_v9
  rw [h1]; clear h1 h2 h3
  generalize Cert.ReferenceIdeal.ReadP.val_main_call1_v8 (F := F) = a0 at e0 ⊢
  (rw [unary_result, cy, cx0, e0]) <;> rfl

theorem stage_main_call0_v10 (V : Valuation τ sig (Elt F)) :
    after (hostL (F := F)) V (Proc.devRef .tc main_call0_v10) = Cert.ReferenceIdeal.ReadP.val_main_call1_v10 (F := F) (V (Proc.devRef .tc main_arg3)) := by
  obtain ⟨W, h1, h2, h3⟩ := after_at (hostL (F := F)) hostWr hostWr_writes hostWr_nodup V 34 _ main_call0_v10 rfl rfl
  have e0 := (h2 27 main_call0_v5 (by decide) rfl).trans (stage_main_call0_v5 V)
  have e1 := (h2 33 main_call0_v9 (by decide) rfl).trans (stage_main_call0_v9 V)
  have cy : ∀ v : (⟨S65536x44x1, .i1⟩ : BufTy).Contents (Elt F), (TRef.of main_call0_v10 : TRef sig ⟨S65536x44x1, .i1⟩).toBuf v = v := fun _ => rfl
  have cx0 : ∀ u, (TRef.of main_call0_v5 : TRef sig ⟨S65536x44x1, .i32⟩).ofBuf (Val := Elt F) u = u := fun _ => rfl
  have cx1 : ∀ u, (TRef.of main_call0_v9 : TRef sig ⟨S65536x44x1, .i32⟩).ofBuf (Val := Elt F) u = u := fun _ => rfl
  unfold Cert.ReferenceIdeal.ReadP.val_main_call1_v10
  rw [h1]; clear h1 h2 h3
  generalize Cert.ReferenceIdeal.ReadP.val_main_call1_v5 (F := F) (V (Proc.devRef .tc main_arg3)) = a0 at e0 ⊢
  generalize Cert.ReferenceIdeal.ReadP.val_main_call1_v9 (F := F) = a1 at e1 ⊢
  (rw [binary_result, cy, cx0, cx1, e0, e1]) <;> rfl

theorem stage_main_call0_v11 (V : Valuation τ sig (Elt F)) :
    after (hostL (F := F)) V (Proc.devRef .tc main_call0_v11) = Cert.ReferenceIdeal.ReadP.val_main_call1_v11 (F := F) (V (Proc.devRef .tc main_arg3)) := by
  obtain ⟨W, h1, h2, h3⟩ := after_at (hostL (F := F)) hostWr hostWr_writes hostWr_nodup V 35 _ main_call0_v11 rfl rfl
  have e0 := (h2 31 main_call0_v7 (by decide) rfl).trans (stage_main_call0_v7 V)
  have e1 := (h2 34 main_call0_v10 (by decide) rfl).trans (stage_main_call0_v10 V)
  have cy : ∀ v : (⟨S65536x44x1, .i1⟩ : BufTy).Contents (Elt F), (TRef.of main_call0_v11 : TRef sig ⟨S65536x44x1, .i1⟩).toBuf v = v := fun _ => rfl
  have cx0 : ∀ u, (TRef.of main_call0_v7 : TRef sig ⟨S65536x44x1, .i1⟩).ofBuf (Val := Elt F) u = u := fun _ => rfl
  have cx1 : ∀ u, (TRef.of main_call0_v10 : TRef sig ⟨S65536x44x1, .i1⟩).ofBuf (Val := Elt F) u = u := fun _ => rfl
  unfold Cert.ReferenceIdeal.ReadP.val_main_call1_v11
  rw [h1]; clear h1 h2 h3
  generalize Cert.ReferenceIdeal.ReadP.val_main_call1_v7 (F := F) (V (Proc.devRef .tc main_arg3)) = a0 at e0 ⊢
  generalize Cert.ReferenceIdeal.ReadP.val_main_call1_v10 (F := F) (V (Proc.devRef .tc main_arg3)) = a1 at e1 ⊢
  (rw [binary_result, cy, cx0, cx1, e0, e1]) <;> rfl

theorem stage_main_call0_c_3 (V : Valuation τ sig (Elt F)) :
    after (hostL (F := F)) V (Proc.devRef .tc main_call0_c_3) = Cert.ReferenceIdeal.ReadP.val_main_call1_c_3 (F := F) := by
  obtain ⟨W, h1, h2, h3⟩ := after_at (hostL (F := F)) hostWr hostWr_writes hostWr_nodup V 36 _ main_call0_c_3 rfl rfl
  have cy : ∀ v : (⟨S_, .i1⟩ : BufTy).Contents (Elt F), (TRef.of main_call0_c_3 : TRef sig ⟨S_, .i1⟩).toBuf v = v := fun _ => rfl
  unfold Cert.ReferenceIdeal.ReadP.val_main_call1_c_3
  rw [h1]; clear h1 h2 h3
  (rw [nullary_result, cy]) <;> rfl

theorem stage_main_call0_v12 (V : Valuation τ sig (Elt F)) :
    after (hostL (F := F)) V (Proc.devRef .tc main_call0_v12) = Cert.ReferenceIdeal.ReadP.val_main_call1_v12 (F := F) (V (Proc.devRef .tc main_arg3)) := by
  obtain ⟨W, h1, h2, h3⟩ := after_at (hostL (F := F)) hostWr hostWr_writes hostWr_nodup V 37 _ main_call0_v12 rfl rfl
  have e0 := (h2 35 main_call0_v11 (by decide) rfl).trans (stage_main_call0_v11 V)
  have e1 := (h2 36 main_call0_c_3 (by decide) rfl).trans (stage_main_call0_c_3 V)
  have cy : ∀ v : (⟨S65536x44, .i1⟩ : BufTy).Contents (Elt F), (TRef.of main_call0_v12 : TRef sig ⟨S65536x44, .i1⟩).toBuf v = v := fun _ => rfl
  have cx0 : ∀ u, (TRef.of main_call0_v11 : TRef sig ⟨S65536x44x1, .i1⟩).ofBuf (Val := Elt F) u = u := fun _ => rfl
  have cx1 : ∀ u, (TRef.of main_call0_c_3 : TRef sig ⟨S_, .i1⟩).ofBuf (Val := Elt F) u = u := fun _ => rfl
  unfold Cert.ReferenceIdeal.ReadP.val_main_call1_v12
  rw [h1]; clear h1 h2 h3
  generalize Cert.ReferenceIdeal.ReadP.val_main_call1_v11 (F := F) (V (Proc.devRef .tc main_arg3)) = a0 at e0 ⊢
  generalize Cert.ReferenceIdeal.ReadP.val_main_call1_c_3 (F := F) = a1 at e1 ⊢
  (rw [binary_result, cy, cx0, cx1, e0, e1]) <;> rfl

theorem stage_main_call0_v13 (V : Valuation τ sig (Elt F)) :
    after (hostL (F := F)) V (Proc.devRef .tc main_call0_v13) = Cert.ReferenceIdeal.ReadP.val_main_call1_v13 (F := F) (V (Proc.devRef .tc main_arg2)) (V (Proc.devRef .tc main_arg3)) := by
  obtain ⟨W, h1, h2, h3⟩ := after_at (hostL (F := F)) hostWr hostWr_writes hostWr_nodup V 38 _ main_call0_v13 rfl rfl
  have e0 := (h2 27 main_call0_v5 (by decide) rfl).trans (stage_main_call0_v5 V)
  have e1 := h3 main_arg2 hostWr_not_main_arg2
  have cy : ∀ v : (⟨S65536x44, .f32⟩ : BufTy).Contents (Elt F), (TRef.of main_call0_v13 : TRef sig ⟨S65536x44, .f32⟩).toBuf v = v := fun _ => rfl
  have cx0 : ∀ u, (TRef.of main_arg2 : TRef sig ⟨S65536x256, .f32⟩).ofBuf (Val := Elt F) u = u := fun _ => rfl
  have cx1 : ∀ u, (TRef.of main_call0_v5 : TRef sig ⟨S65536x44x1, .i32⟩).ofBuf (Val := Elt F) u = u := fun _ => rfl
  unfold Cert.ReferenceIdeal.ReadP.val_main_call1_v13
  rw [h1]; clear h1 h2 h3
  generalize Cert.ReferenceIdeal.ReadP.val_main_call1_v5 (F := F) (V (Proc.devRef .tc main_arg3)) = a0 at e0 ⊢
  generalize V (Proc.devRef .tc main_arg2) = a1 at e1 ⊢
  (rw [binary_result, cy, cx0, cx1, e0, e1]) <;> rfl

theorem stage_main_call0_cst (V : Valuation τ sig (Elt F)) :
    after (hostL (F := F)) V (Proc.devRef .tc main_call0_cst) = Cert.ReferenceIdeal.ReadP.val_main_call1_cst (F := F) := by
  obtain ⟨W, h1, h2, h3⟩ := after_at (hostL (F := F)) hostWr hostWr_writes hostWr_nodup V 39 _ main_call0_cst rfl rfl
  have cy : ∀ v : (⟨S_, .f32⟩ : BufTy).Contents (Elt F), (TRef.of main_call0_cst : TRef sig ⟨S_, .f32⟩).toBuf v = v := fun _ => rfl
  unfold Cert.ReferenceIdeal.ReadP.val_main_call1_cst
  rw [h1]; clear h1 h2 h3
  (rw [nullary_result, cy]) <;> rfl

theorem stage_main_call0_v14 (V : Valuation τ sig (Elt F)) :
    after (hostL (F := F)) V (Proc.devRef .tc main_call0_v14) = Cert.ReferenceIdeal.ReadP.val_main_call1_v14 (F := F) := by
  obtain ⟨W, h1, h2, h3⟩ := after_at (hostL (F := F)) hostWr hostWr_writes hostWr_nodup V 40 _ main_call0_v14 rfl rfl
  have e0 := (h2 39 main_call0_cst (by decide) rfl).trans (stage_main_call0_cst V)
  have cy : ∀ v : (⟨S65536x44, .f32⟩ : BufTy).Contents (Elt F), (TRef.of main_call0_v14 : TRef sig ⟨S65536x44, .f32⟩).toBuf v = v := fun _ => rfl
  have cx0 : ∀ u, (TRef.of main_call0_cst : TRef sig ⟨S_, .f32⟩).ofBuf (Val := Elt F) u = u := fun _ => rfl
  unfold Cert.ReferenceIdeal.ReadP.val_main_call1_v14
  rw [h1]; clear h1 h2 h3
  generalize Cert.ReferenceIdeal.ReadP.val_main_call1_cst (F := F) = a0 at e0 ⊢
  (rw [unary_result, cy, cx0, e0]) <;> rfl

theorem stage_main_v17 (V : Valuation τ sig (Elt F)) :
    after (hostL (F := F)) V (Proc.devRef .tc main_v17) = Cert.ReferenceIdeal.ReadP.val_main_v24 (F := F) (V (Proc.devRef .tc main_arg2)) (V (Proc.devRef .tc main_arg3)) := by
  obtain ⟨W, h1, h2, h3⟩ := after_at (hostL (F := F)) hostWr hostWr_writes hostWr_nodup V 41 _ main_v17 rfl rfl
  have e0 := (h2 37 main_call0_v12 (by decide) rfl).trans (stage_main_call0_v12 V)
  have e1 := (h2 38 main_call0_v13 (by decide) rfl).trans (stage_main_call0_v13 V)
  have e2 := (h2 40 main_call0_v14 (by decide) rfl).trans (stage_main_call0_v14 V)
  have cy : ∀ v : (⟨S65536x44, .f32⟩ : BufTy).Contents (Elt F), (TRef.of main_v17 : TRef sig ⟨S65536x44, .f32⟩).toBuf v = v := fun _ => rfl
  have cx0 : ∀ u, (TRef.of main_call0_v12 : TRef sig ⟨S65536x44, .i1⟩).ofBuf (Val := Elt F) u = u := fun _ => rfl
  have cx1 : ∀ u, (TRef.of main_call0_v13 : TRef sig ⟨S65536x44, .f32⟩).ofBuf (Val := Elt F) u = u := fun _ => rfl
  have cx2 : ∀ u, (TRef.of main_call0_v14 : TRef sig ⟨S65536x44, .f32⟩).ofBuf (Val := Elt F) u = u := fun _ => rfl
  unfold Cert.ReferenceIdeal.ReadP.val_main_v24
  rw [h1]; clear h1 h2 h3
  generalize Cert.ReferenceIdeal.ReadP.val_main_call1_v12 (F := F) (V (Proc.devRef .tc main_arg3)) = a0 at e0 ⊢
  generalize Cert.ReferenceIdeal.ReadP.val_main_call1_v13 (F := F) (V (Proc.devRef .tc main_arg2)) (V (Proc.devRef .tc main_arg3)) = a1 at e1 ⊢
  generalize Cert.ReferenceIdeal.ReadP.val_main_call1_v14 (F := F) = a2 at e2 ⊢
  (rw [ternary_result, cy, cx0, cx1, cx2, e0, e1, e2]) <;> rfl

/-- What the region's gathered-rows input holds at launch: the reference's stage of arguments 2 and 3. -/
theorem V_main_v17_stage (m : (ℓ : Loc nD τ sig) → Buf (Elt Ideal) ℓ) (c : Dev nD) :
    (GenP.V m c main_v17 : S65536x44.Idx → Elt Ideal .f32)
      = Cert.ReferenceIdeal.ReadP.val_main_v24 (F := Ideal) (m ((c.tc : Thread nD τ).loc main_arg2)) (m ((c.tc : Thread nD τ).loc main_arg3)) :=
  stage_main_v17 (F := Ideal) (fun b => m (c, b))

end Cert.KernelIdeal.KIn

end
-- ==== Proof.KIn4.lean ====
/- Input window 1: its block at a grid point is rows of the array the host gathers before the region, which is the
   reference's gathered array of arguments 2 and 3. -/
import proofs.«180642_j50062138802934_2_alg».proof.Proof.KIn1
import proofs.«180642_j50062138802934_2_alg».proof.Proof.KInV
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx

namespace Cert.KernelIdeal.KIn

open Cert.KernelIdeal Cert.KernelIdeal.Gen Cert.KernelIdeal.GenP

variable (m : (ℓ : Loc nD τ sig) → Buf (Elt Ideal) ℓ)

/-- Window 1's printed index map, decided over the grid: the block at point `t` is block `(t, 0)`. -/
theorem idx_1 : ∀ t : Fin cfg0.N, win0_1.index t (0 : Fin 2) = t.val ∧ win0_1.index t (1 : Fin 2) = 0 :=
  (by decide +kernel : ∀ t : Fin grid0.N, _)

/-- Window 1's block at point `t` is rows `512 t … 512 t + 511` of whatever array `P` the region finds in the window's
    buffer. -/
theorem blk_1_of (c : Dev nD) (P : FVec Ideal S65536x44 .f32)
    (hV : @Eq (FVec Ideal S65536x44 .f32) (GenP.V m c (Pipeline.arrRef spec0 (1 : Fin cfg0.W))) P)
    (t : Fin cfg0.N) (r : Fin 512) (k : Fin 44) :
    (GenP.iblk m c 1 t : Vec Ideal S512x44 .f32) (ix2 r k) = P (ix2 ⟨512 * t.val + r.val, row_lt t r⟩ k) := by
  obtain ⟨e0, e1⟩ := idx_1 t
  unfold GenP.iblk
  rw [View.read_apply, hV]
  refine congrArg P ?_
  funext a
  apply Fin.ext
  match a with
  | ⟨0, _⟩ => show win0_1.index t (0 : Fin 2) * 512 + 1 * r.val = 512 * t.val + r.val; omega
  | ⟨1, _⟩ => show win0_1.index t (1 : Fin 2) * 44 + 1 * k.val = k.val; omega

/-- Window 1's block at point `t` is rows `512 t … 512 t + 511` of the reference's gathered array of arguments 2 and 3
    as launched. -/
theorem blk_1 (c : Dev nD) (t : Fin cfg0.N) (r : Fin 512) (k : Fin 44) :
    (GenP.iblk m c 1 t : Vec Ideal S512x44 .f32) (ix2 r k)
      = Cert.ReferenceIdeal.ReadP.val_main_v24 (F := Ideal) (m ((c.tc : Thread nD τ).loc main_arg2)) (m ((c.tc : Thread nD τ).loc main_arg3))
          (ix2 ⟨512 * t.val + r.val, row_lt t r⟩ k) :=
  blk_1_of m c _ (V_main_v17_stage m c) t r k

end Cert.KernelIdeal.KIn

end
-- ==== Proof.RefRun1.lean ====
/- The reference program's line of 361 host operations is in single-assignment form: operation number k writes
   exactly the buffer of reference number k of the list `wr` (the 361 references numbered 26 … 386, in program
   order, after the 26 arguments 0 … 25), so no buffer is written twice and no argument is written at all; and no
   operation leaves a result undetermined. These are the side conditions of the general read-back lemmas. -/
import proofs.«180642_j50062138802934_2_alg».proof.Proof.RunP
import proofs.«180642_j50062138802934_2_alg».proof.Proof.RefRun0

noncomputable section

namespace Cert.ReferenceIdeal.RefRun

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

/-- The buffer each operation writes, in program order. -/
abbrev wr : List (Ref sig .tc) :=
  [main_cst, main_cst_0, main_call0_v0, main_call0_v1, main_call0_v2, main_call0_v3, main_call0_v4, main_v0, main_v1, main_v2, main_v3, main_v4, main_v5, main_v6, main_c, main_v7, main_v8, main_v9, main_v10, main_v11, main_v12, main_v13, main_v14, main_c_1, main_v15, main_v16, main_c_2, main_v17, main_v18, main_v19, main_v20, main_v21, main_v22, main_v23, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v24, main_cst_3, main_v25, main_v26, main_v27, main_v28, main_cst_4, main_cst_5, main_call2_v0, main_call2_v1, main_call2_v2, main_call2_v3, main_call2_v4, main_v29, main_v30, main_cst_6, main_v31, main_v32, main_v33, main_v34, main_cst_7, main_cst_8, main_call3_v0, main_call3_v1, main_call3_v2, main_call3_v3, main_call3_v4, main_v35, main_v36, main_v37, main_v38, main_v39, main_v40, main_v41, main_v42, main_v43, main_v44, main_v45, main_cst_9, main_v46, main_v47, main_cst_10, main_v48, main_v49, main_v50, main_cst_11, main_cst_12, main_call4_v0, main_call4_v1, main_call4_v2, main_call4_v3, main_call4_v4, main_v51, main_v52, main_v53, main_v54, main_v55, main_v56, main_v57, main_v58, main_cst_13, main_v59, main_v60, main_cst_14, main_v61, main_v62, main_v63, main_v64, main_v65, main_v66, main_v67, main_v68, main_v69, main_v70, main_v71, main_v72, main_v73, main_v74, main_v75, main_cst_15, main_v76, main_v77, main_cst_16, main_v78, main_v79, main_v80, main_v81, main_v82, main_v83, main_v84, main_cst_17, main_v85, main_v86, main_cst_18, main_v87, main_v88, main_v89, main_v90, main_v91, main_v92, main_v93, main_cst_19, main_v94, main_v95, main_v96, main_v97, main_v98, main_cst_20, main_cst_21, main_call5_v0, main_call5_v1, main_call5_v2, main_call5_v3, main_call5_v4, main_v99, main_v100, main_v101, main_v102, main_v103, main_cst_22, main_v104, main_v105, main_cst_23, main_v106, main_v107, main_v108, main_cst_24, main_cst_25, main_call6_v0, main_call6_v1, main_call6_v2, main_call6_v3, main_call6_v4, main_v109, main_v110, main_v111, main_v112, main_v113, main_v114, main_v115, main_v116, main_v117, main_v118, main_v119, main_v120, main_v121, main_v122, main_cst_26, main_v123, main_v124, main_cst_27, main_v125, main_v126, main_v127, main_v128, main_v129, main_v130, main_v131, main_cst_28, main_v132, main_v133, main_cst_29, main_v134, main_v135, main_v136, main_v137, main_v138, main_v139, main_v140, main_cst_30, main_v141, main_v142, main_v143, main_v144, main_v145, main_cst_31, main_cst_32, main_call7_v0, main_call7_v1, main_call7_v2, main_call7_v3, main_call7_v4, main_v146, main_v147, main_v148, main_v149, main_v150, main_cst_33, main_v151, main_v152, main_cst_34, main_v153, main_v154, main_v155, main_cst_35, main_cst_36, main_call8_v0, main_call8_v1, main_call8_v2, main_call8_v3, main_call8_v4, main_v156, main_v157, main_v158, main_v159, main_v160, main_v161, main_v162, main_v163, main_v164, main_v165, main_v166, main_v167, main_v168, main_v169, main_cst_37, main_v170, main_v171, main_cst_38, main_v172, main_v173, main_v174, main_v175, main_v176, main_v177, main_v178, main_cst_39, main_v179, main_v180, main_cst_40, main_v181, main_v182, main_v183, main_v184, main_v185, main_v186, main_v187, main_cst_41, main_v188, main_v189, main_v190, main_v191, main_v192, main_cst_42, main_cst_43, main_call9_v0, main_call9_v1, main_call9_v2, main_call9_v3, main_call9_v4, main_v193, main_v194, main_v195, main_v196, main_v197, main_cst_44, main_v198, main_v199, main_cst_45, main_v200, main_v201, main_v202, main_cst_46, main_cst_47, main_call10_v0, main_call10_v1, main_call10_v2, main_call10_v3, main_call10_v4, main_v203, main_v204, main_v205, main_v206, main_v207, main_v208, main_v209, main_v210, main_v211, main_cst_48, main_cst_49, main_call11_v0, main_call11_v1, main_call11_v2, main_call11_v3, main_call11_v4, main_v212, main_v213, main_v214, main_v215, main_v216, main_cst_50, main_v217, main_v218, main_cst_51, main_v219, main_v220, main_v221, main_v222, main_v223, main_v224, main_v225, main_v226, main_v227, main_v228, main_v229, main_v230]

set_option maxRecDepth 8192 in
theorem hwr : WritesAt (ops (F := F)) wr :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

set_option maxRecDepth 8192 in
/-- Every operation determines its result. -/
theorem hfresh : (ops (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The written references are numbered 26, 27, …, 386. -/
theorem wr_idx : wr.map (fun r : Ref sig .tc => r.idx.val) = List.range' 26 361 := by rfl

theorem hnd : wr.Nodup :=
  List.Nodup.of_map (fun r : Ref sig .tc => r.idx.val) (by rw [wr_idx]; first | exact List.nodup_range' .. | simp [List.nodup_range'])

/-- A reference numbered below 26 (an argument) is not written. -/
theorem not_mem_wr_of_lt {r : Ref sig .tc} (h : r.idx.val < 26) : r ∉ wr := fun hm => by
  have h1 : r.idx.val ∈ wr.map (fun r : Ref sig .tc => r.idx.val) := List.mem_map_of_mem hm
  rw [wr_idx, List.mem_range'_1] at h1
  omega

theorem nm_main_arg0 : main_arg0 ∉ wr := not_mem_wr_of_lt (by decide)
theorem nm_main_arg1 : main_arg1 ∉ wr := not_mem_wr_of_lt (by decide)
theorem nm_main_arg2 : main_arg2 ∉ wr := not_mem_wr_of_lt (by decide)
theorem nm_main_arg3 : main_arg3 ∉ wr := not_mem_wr_of_lt (by decide)
theorem nm_main_arg4 : main_arg4 ∉ wr := not_mem_wr_of_lt (by decide)
theorem nm_main_arg5 : main_arg5 ∉ wr := not_mem_wr_of_lt (by decide)
theorem nm_main_arg6 : main_arg6 ∉ wr := not_mem_wr_of_lt (by decide)
theorem nm_main_arg7 : main_arg7 ∉ wr := not_mem_wr_of_lt (by decide)
theorem nm_main_arg8 : main_arg8 ∉ wr := not_mem_wr_of_lt (by decide)
theorem nm_main_arg9 : main_arg9 ∉ wr := not_mem_wr_of_lt (by decide)
theorem nm_main_arg10 : main_arg10 ∉ wr := not_mem_wr_of_lt (by decide)
theorem nm_main_arg11 : main_arg11 ∉ wr := not_mem_wr_of_lt (by decide)
theorem nm_main_arg12 : main_arg12 ∉ wr := not_mem_wr_of_lt (by decide)
theorem nm_main_arg13 : main_arg13 ∉ wr := not_mem_wr_of_lt (by decide)
theorem nm_main_arg14 : main_arg14 ∉ wr := not_mem_wr_of_lt (by decide)
theorem nm_main_arg15 : main_arg15 ∉ wr := not_mem_wr_of_lt (by decide)
theorem nm_main_arg16 : main_arg16 ∉ wr := not_mem_wr_of_lt (by decide)
theorem nm_main_arg17 : main_arg17 ∉ wr := not_mem_wr_of_lt (by decide)
theorem nm_main_arg18 : main_arg18 ∉ wr := not_mem_wr_of_lt (by decide)
theorem nm_main_arg19 : main_arg19 ∉ wr := not_mem_wr_of_lt (by decide)
theorem nm_main_arg20 : main_arg20 ∉ wr := not_mem_wr_of_lt (by decide)
theorem nm_main_arg21 : main_arg21 ∉ wr := not_mem_wr_of_lt (by decide)
theorem nm_main_arg22 : main_arg22 ∉ wr := not_mem_wr_of_lt (by decide)
theorem nm_main_arg23 : main_arg23 ∉ wr := not_mem_wr_of_lt (by decide)
theorem nm_main_arg24 : main_arg24 ∉ wr := not_mem_wr_of_lt (by decide)
theorem nm_main_arg25 : main_arg25 ∉ wr := not_mem_wr_of_lt (by decide)

end Cert.ReferenceIdeal.RefRun

end
-- ==== Proof.RefRun2.lean ====
/- The reference program read back one operation at a time, operations 0 … 89 of the line: at the end of the line the
   buffer an operation writes holds the operation's function of its operands' final contents, and those are, by the
   lemmas of the earlier operations, the operands' stage functions of @main's arguments — so the buffer holds its own
   stage function `ReadP.val_<buffer>` of the arguments (its definition is that function of the operands' stages). -/
import proofs.«180642_j50062138802934_2_alg».proof.Proof.RefRun1
import proofs.«180642_j50062138802934_2_alg».proof.Proof.ReadP

noncomputable section

namespace Cert.ReferenceIdeal.RefRun

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

theorem L_main_cst (V : Valuation τ sig (Elt F)) :
    after (ops (F := F)) V (Proc.devRef .tc main_cst) = ReadP.val_main_cst (F := F) := by
  obtain ⟨W, h1, h2, h3⟩ := after_at (ops (F := F)) wr hwr hnd V 0 _ main_cst rfl rfl
  unfold ReadP.val_main_cst
  rw [h1]; clear h1 h2 h3
  (rw [nullary_result]) <;> rfl

theorem L_main_cst_0 (V : Valuation τ sig (Elt F)) :
    after (ops (F := F)) V (Proc.devRef .tc main_cst_0) = ReadP.val_main_cst_0 (F := F) := by
  obtain ⟨W, h1, h2, h3⟩ := after_at (ops (F := F)) wr hwr hnd V 1 _ main_cst_0 rfl rfl
  unfold ReadP.val_main_cst_0
  rw [h1]; clear h1 h2 h3
  (rw [nullary_result]) <;> rfl

theorem L_main_call0_v0 (V : Valuation τ sig (Elt F)) :
    after (ops (F := F)) V (Proc.devRef .tc main_call0_v0) = ReadP.val_main_call0_v0 (F := F) := by
  obtain ⟨W, h1, h2, h3⟩ := after_at (ops (F := F)) wr hwr hnd V 2 _ main_call0_v0 rfl rfl
  have e0 := (h2 0 main_cst (by decide) rfl).trans (L_main_cst V)
  have cy : ∀ v : (⟨S_, .f32⟩ : BufTy).Contents (Elt F), ((TRef.of (T := ⟨S_, .f32⟩) main_call0_v0) : TRef sig _).toBuf v = v := fun _ => rfl
  have cx0 : ∀ u, ((TRef.of (T := ⟨S_, .f32⟩) main_cst) : TRef sig _).ofBuf (Val := Elt F) u = u := fun _ => rfl
  unfold ReadP.val_main_call0_v0
  rw [h1]; clear h1 h2 h3
  generalize ReadP.val_main_cst (F := F) = a0 at e0 ⊢
  (rw [unary_result, cy, cx0, e0]) <;> rfl

theorem L_main_call0_v1 (V : Valuation τ sig (Elt F)) :
    after (ops (F := F)) V (Proc.devRef .tc main_call0_v1) = ReadP.val_main_call0_v1 (F := F) := by
  obtain ⟨W, h1, h2, h3⟩ := after_at (ops (F := F)) wr hwr hnd V 3 _ main_call0_v1 rfl rfl
  have e0 := (h2 2 main_call0_v0 (by decide) rfl).trans (L_main_call0_v0 V)
  have cy : ∀ v : (⟨S65536x80, .f32⟩ : BufTy).Contents (Elt F), ((TRef.of (T := ⟨S65536x80, .f32⟩) main_call0_v1) : TRef sig _).toBuf v = v := fun _ => rfl
  have cx0 : ∀ u, ((TRef.of (T := ⟨S_, .f32⟩) main_call0_v0) : TRef sig _).ofBuf (Val := Elt F) u = u := fun _ => rfl
  unfold ReadP.val_main_call0_v1
  rw [h1]; clear h1 h2 h3
  generalize ReadP.val_main_call0_v0 (F := F) = a0 at e0 ⊢
  (rw [unary_result, cy, cx0, e0]) <;> rfl

theorem L_main_call0_v2 (V : Valuation τ sig (Elt F)) :
    after (ops (F := F)) V (Proc.devRef .tc main_call0_v2) = ReadP.val_main_call0_v2 (F := F) (V (Proc.devRef .tc main_arg0)) := by
  obtain ⟨W, h1, h2, h3⟩ := after_at (ops (F := F)) wr hwr hnd V 4 _ main_call0_v2 rfl rfl
  have e0 := (h2 3 main_call0_v1 (by decide) rfl).trans (L_main_call0_v1 V)
  have e1 := h3 main_arg0 nm_main_arg0
  have cy : ∀ v : (⟨S65536x80, .f32⟩ : BufTy).Contents (Elt F), ((TRef.of (T := ⟨S65536x80, .f32⟩) main_call0_v2) : TRef sig _).toBuf v = v := fun _ => rfl
  have cx0 : ∀ u, ((TRef.of (T := ⟨S65536x80, .f32⟩) main_call0_v1) : TRef sig _).ofBuf (Val := Elt F) u = u := fun _ => rfl
  have cx1 : ∀ u, ((TRef.of (T := ⟨S65536x80, .f32⟩) main_arg0) : TRef sig _).ofBuf (Val := Elt F) u = u := fun _ => rfl
  unfold ReadP.val_main_call0_v2
  rw [h1]; clear h1 h2 h3
  generalize ReadP.val_main_call0_v1 (F := F) = a0 at e0 ⊢
  generalize V (Proc.devRef .tc main_arg0) = a1 at e1 ⊢
  (rw [binary_result, cy, cx0, cx1, e0, e1]) <;> rfl

theorem L_main_call0_v3 (V : Valuation τ sig (Elt F)) :
    after (ops (F := F)) V (Proc.devRef .tc main_call0_v3) = ReadP.val_main_call0_v3 (F := F) := by
  obtain ⟨W, h1, h2, h3⟩ := after_at (ops (F := F)) wr hwr hnd V 5 _ main_call0_v3 rfl rfl
  have e0 := (h2 1 main_cst_0 (by decide) rfl).trans (L_main_cst_0 V)
  have cy : ∀ v : (⟨S_, .f32⟩ : BufTy).Contents (Elt F), ((TRef.of (T := ⟨S_, .f32⟩) main_call0_v3) : TRef sig _).toBuf v = v := fun _ => rfl
  have cx0 : ∀ u, ((TRef.of (T := ⟨S_, .f32⟩) main_cst_0) : TRef sig _).ofBuf (Val := Elt F) u = u := fun _ => rfl
  unfold ReadP.val_main_call0_v3
  rw [h1]; clear h1 h2 h3
  generalize ReadP.val_main_cst_0 (F := F) = a0 at e0 ⊢
  (rw [unary_result, cy, cx0, e0]) <;> rfl

theorem L_main_call0_v4 (V : Valuation τ sig (Elt F)) :
    after (ops (F := F)) V (Proc.devRef .tc main_call0_v4) = ReadP.val_main_call0_v4 (F := F) := by
  obtain ⟨W, h1, h2, h3⟩ := after_at (ops (F := F)) wr hwr hnd V 6 _ main_call0_v4 rfl rfl
  have e0 := (h2 5 main_call0_v3 (by decide) rfl).trans (L_main_call0_v3 V)
  have cy : ∀ v : (⟨S65536x80, .f32⟩ : BufTy).Contents (Elt F), ((TRef.of (T := ⟨S65536x80, .f32⟩) main_call0_v4) : TRef sig _).toBuf v = v := fun _ => rfl
  have cx0 : ∀ u, ((TRef.of (T := ⟨S_, .f32⟩) main_call0_v3) : TRef sig _).ofBuf (Val := Elt F) u = u := fun _ => rfl
  unfold ReadP.val_main_call0_v4
  rw [h1]; clear h1 h2 h3
  generalize ReadP.val_main_call0_v3 (F := F) = a0 at e0 ⊢
  (rw [unary_result, cy, cx0, e0]) <;> rfl

theorem L_main_v0 (V : Valuation τ sig (Elt F)) :
    after (ops (F := F)) V (Proc.devRef .tc main_v0) = ReadP.val_main_v0 (F := F) (V (Proc.devRef .tc main_arg0)) := by
  obtain ⟨W, h1, h2, h3⟩ := after_at (ops (F := F)) wr hwr hnd V 7 _ main_v0 rfl rfl
  have e0 := (h2 6 main_call0_v4 (by decide) rfl).trans (L_main_call0_v4 V)
  have e1 := (h2 4 main_call0_v2 (by decide) rfl).trans (L_main_call0_v2 V)
  have cy : ∀ v : (⟨S65536x80, .f32⟩ : BufTy).Contents (Elt F), ((TRef.of (T := ⟨S65536x80, .f32⟩) main_v0) : TRef sig _).toBuf v = v := fun _ => rfl
  have cx0 : ∀ u, ((TRef.of (T := ⟨S65536x80, .f32⟩) main_call0_v4) : TRef sig _).ofBuf (Val := Elt F) u = u := fun _ => rfl
  have cx1 : ∀ u, ((TRef.of (T := ⟨S65536x80, .f32⟩) main_call0_v2) : TRef sig _).ofBuf (Val := Elt F) u = u := fun _ => rfl
  unfold ReadP.val_main_v0
  rw [h1]; clear h1 h2 h3
  generalize ReadP.val_main_call0_v4 (F := F) = a0 at e0 ⊢
  generalize ReadP.val_main_call0_v2 (F := F) (V (Proc.devRef .tc main_arg0)) = a1 at e1 ⊢
  (rw [binary_result, cy, cx0, cx1, e0, e1]) <;> rfl

theorem L_main_v1 (V : Valuation τ sig (Elt F)) :
    after (ops (F := F)) V (Proc.devRef .tc main_v1) = ReadP.val_main_v1 (F := F) (V (Proc.devRef .tc main_arg8)) := by
  obtain ⟨W, h1, h2, h3⟩ := after_at (ops (F := F)) wr hwr hnd V 8 _ main_v1 rfl rfl
  have e0 := h3 main_arg8 nm_main_arg8
  unfold ReadP.val_main_v1
  rw [h1]; clear h1 h2 h3
  generalize V (Proc.devRef .tc main_arg8) = a0 at e0 ⊢
  (rw [unary_result, e0]) <;> rfl

theorem L_main_v2 (V : Valuation τ sig (Elt F)) :
    after (ops (F := F)) V (Proc.devRef .tc main_v2) = ReadP.val_main_v2 (F := F) (V (Proc.devRef .tc main_arg0)) (V (Proc.devRef .tc main_arg8)) := by
  obtain ⟨W, h1, h2, h3⟩ := after_at (ops (F := F)) wr hwr hnd V 9 _ main_v2 rfl rfl
  have e0 := (h2 7 main_v0 (by decide) rfl).trans (L_main_v0 V)
  have e1 := (h2 8 main_v1 (by decide) rfl).trans (L_main_v1 V)
  unfold ReadP.val_main_v2
  rw [h1]; clear h1 h2 h3
  generalize ReadP.val_main_v0 (F := F) (V (Proc.devRef .tc main_arg0)) = a0 at e0 ⊢
  generalize ReadP.val_main_v1 (F := F) (V (Proc.devRef .tc main_arg8)) = a1 at e1 ⊢
  (rw [binary_result, e0, e1]) <;> rfl

theorem L_main_v3 (V : Valuation τ sig (Elt F)) :
    after (ops (F := F)) V (Proc.devRef .tc main_v3) = ReadP.val_main_v3 (F := F) (V (Proc.devRef .tc main_arg9)) := by
  obtain ⟨W, h1, h2, h3⟩ := after_at (ops (F := F)) wr hwr hnd V 10 _ main_v3 rfl rfl
  have e0 := h3 main_arg9 nm_main_arg9
  unfold ReadP.val_main_v3
  rw [h1]; clear h1 h2 h3
  generalize V (Proc.devRef .tc main_arg9) = a0 at e0 ⊢
  (rw [unary_result, e0]) <;> rfl

theorem L_main_v4 (V : Valuation τ sig (Elt F)) :
    after (ops (F := F)) V (Proc.devRef .tc main_v4) = ReadP.val_main_v4 (F := F) (V (Proc.devRef .tc main_arg9)) := by
  obtain ⟨W, h1, h2, h3⟩ := after_at (ops (F := F)) wr hwr hnd V 11 _ main_v4 rfl rfl
  have e0 := (h2 10 main_v3 (by decide) rfl).trans (L_main_v3 V)
  unfold ReadP.val_main_v4
  rw [h1]; clear h1 h2 h3
  generalize ReadP.val_main_v3 (F := F) (V (Proc.devRef .tc main_arg9)) = a0 at e0 ⊢
  (rw [unary_result, e0]) <;> rfl

theorem L_main_v5 (V : Valuation τ sig (Elt F)) :
    after (ops (F := F)) V (Proc.devRef .tc main_v5) = ReadP.val_main_v5 (F := F) (V (Proc.devRef .tc main_arg0)) (V (Proc.devRef .tc main_arg8)) (V (Proc.devRef .tc main_arg9)) := by
  obtain ⟨W, h1, h2, h3⟩ := after_at (ops (F := F)) wr hwr hnd V 12 _ main_v5 rfl rfl
  have e0 := (h2 9 main_v2 (by decide) rfl).trans (L_main_v2 V)
  have e1 := (h2 11 main_v4 (by decide) rfl).trans (L_main_v4 V)
  unfold ReadP.val_main_v5
  rw [h1]; clear h1 h2 h3
  generalize ReadP.val_main_v2 (F := F) (V (Proc.devRef .tc main_arg0)) (V (Proc.devRef .tc main_arg8)) = a0 at e0 ⊢
  generalize ReadP.val_main_v4 (F := F) (V (Proc.devRef .tc main_arg9)) = a1 at e1 ⊢
  (rw [binary_result, e0, e1]) <;> rfl

theorem L_main_v6 (V : Valuation τ sig (Elt F)) :
    after (ops (F := F)) V (Proc.devRef .tc main_v6) = ReadP.val_main_v6 (F := F) (V (Proc.devRef .tc main_arg0)) (V (Proc.devRef .tc main_arg8)) (V (Proc.devRef .tc main_arg9)) := by
  obtain ⟨W, h1, h2, h3⟩ := after_at (ops (F := F)) wr hwr hnd V 13 _ main_v6 rfl rfl
  have e0 := (h2 12 main_v5 (by decide) rfl).trans (L_main_v5 V)
  unfold ReadP.val_main_v6
  rw [h1]; clear h1 h2 h3
  generalize ReadP.val_main_v5 (F := F) (V (Proc.devRef .tc main_arg0)) (V (Proc.devRef .tc main_arg8)) (V (Proc.devRef .tc main_arg9)) = a0 at e0 ⊢
  (rw [unary_result, e0]) <;> rfl

theorem L_main_c (V : Valuation τ sig (Elt F)) :
    after (ops (F := F)) V (Proc.devRef .tc main_c) = ReadP.val_main_c (F := F) := by
  obtain ⟨W, h1, h2, h3⟩ := after_at (ops (F := F)) wr hwr hnd V 14 _ main_c rfl rfl
  unfold ReadP.val_main_c
  rw [h1]; clear h1 h2 h3
  (rw [nullary_result]) <;> rfl

theorem L_main_v7 (V : Valuation τ sig (Elt F)) :
    after (ops (F := F)) V (Proc.devRef .tc main_v7) = ReadP.val_main_v7 (F := F) := by
  obtain ⟨W, h1, h2, h3⟩ := after_at (ops (F := F)) wr hwr hnd V 15 _ main_v7 rfl rfl
  have e0 := (h2 14 main_c (by decide) rfl).trans (L_main_c V)
  unfold ReadP.val_main_v7
  rw [h1]; clear h1 h2 h3
  generalize ReadP.val_main_c (F := F) = a0 at e0 ⊢
  (rw [unary_result, e0]) <;> rfl

theorem L_main_v8 (V : Valuation τ sig (Elt F)) :
    after (ops (F := F)) V (Proc.devRef .tc main_v8) = ReadP.val_main_v8 (F := F) (V (Proc.devRef .tc main_arg3)) := by
  obtain ⟨W, h1, h2, h3⟩ := after_at (ops (F := F)) wr hwr hnd V 16 _ main_v8 rfl rfl
  have e0 := (h2 15 main_v7 (by decide) rfl).trans (L_main_v7 V)
  have e1 := h3 main_arg3 nm_main_arg3
  unfold ReadP.val_main_v8
  rw [h1]; clear h1 h2 h3
  generalize ReadP.val_main_v7 (F := F) = a0 at e0 ⊢
  generalize V (Proc.devRef .tc main_arg3) = a1 at e1 ⊢
  (rw [binary_result, e0, e1]) <;> rfl

theorem L_main_v9 (V : Valuation τ sig (Elt F)) :
    after (ops (F := F)) V (Proc.devRef .tc main_v9) = ReadP.val_main_v9 (F := F) (V (Proc.devRef .tc main_arg3)) := by
  obtain ⟨W, h1, h2, h3⟩ := after_at (ops (F := F)) wr hwr hnd V 17 _ main_v9 rfl rfl
  have e0 := (h2 16 main_v8 (by decide) rfl).trans (L_main_v8 V)
  unfold ReadP.val_main_v9
  rw [h1]; clear h1 h2 h3
  generalize ReadP.val_main_v8 (F := F) (V (Proc.devRef .tc main_arg3)) = a0 at e0 ⊢
  (rw [unary_result, e0]) <;> rfl

theorem L_main_v10 (V : Valuation τ sig (Elt F)) :
    after (ops (F := F)) V (Proc.devRef .tc main_v10) = ReadP.val_main_v10 (F := F) := by
  obtain ⟨W, h1, h2, h3⟩ := after_at (ops (F := F)) wr hwr hnd V 18 _ main_v10 rfl rfl
  unfold ReadP.val_main_v10
  rw [h1]; clear h1 h2 h3
  (rw [nullary_result]) <;> rfl

theorem L_main_v11 (V : Valuation τ sig (Elt F)) :
    after (ops (F := F)) V (Proc.devRef .tc main_v11) = ReadP.val_main_v11 (F := F) := by
  obtain ⟨W, h1, h2, h3⟩ := after_at (ops (F := F)) wr hwr hnd V 19 _ main_v11 rfl rfl
  have e0 := (h2 18 main_v10 (by decide) rfl).trans (L_main_v10 V)
  unfold ReadP.val_main_v11
  rw [h1]; clear h1 h2 h3
  generalize ReadP.val_main_v10 (F := F) = a0 at e0 ⊢
  (rw [unary_result, e0]) <;> rfl

theorem L_main_v12 (V : Valuation τ sig (Elt F)) :
    after (ops (F := F)) V (Proc.devRef .tc main_v12) = ReadP.val_main_v12 (F := F) (V (Proc.devRef .tc main_arg3)) := by
  obtain ⟨W, h1, h2, h3⟩ := after_at (ops (F := F)) wr hwr hnd V 20 _ main_v12 rfl rfl
  have e0 := (h2 17 main_v9 (by decide) rfl).trans (L_main_v9 V)
  unfold ReadP.val_main_v12
  rw [h1]; clear h1 h2 h3
  generalize ReadP.val_main_v9 (F := F) (V (Proc.devRef .tc main_arg3)) = a0 at e0 ⊢
  (rw [unary_result, e0]) <;> rfl

theorem L_main_v13 (V : Valuation τ sig (Elt F)) :
    after (ops (F := F)) V (Proc.devRef .tc main_v13) = ReadP.val_main_v13 (F := F) := by
  obtain ⟨W, h1, h2, h3⟩ := after_at (ops (F := F)) wr hwr hnd V 21 _ main_v13 rfl rfl
  have e0 := (h2 19 main_v11 (by decide) rfl).trans (L_main_v11 V)
  unfold ReadP.val_main_v13
  rw [h1]; clear h1 h2 h3
  generalize ReadP.val_main_v11 (F := F) = a0 at e0 ⊢
  (rw [unary_result, e0]) <;> rfl

theorem L_main_v14 (V : Valuation τ sig (Elt F)) :
    after (ops (F := F)) V (Proc.devRef .tc main_v14) = ReadP.val_main_v14 (F := F) (V (Proc.devRef .tc main_arg3)) := by
  obtain ⟨W, h1, h2, h3⟩ := after_at (ops (F := F)) wr hwr hnd V 22 _ main_v14 rfl rfl
  have e0 := (h2 20 main_v12 (by decide) rfl).trans (L_main_v12 V)
  have e1 := (h2 21 main_v13 (by decide) rfl).trans (L_main_v13 V)
  unfold ReadP.val_main_v14
  rw [h1]; clear h1 h2 h3
  generalize ReadP.val_main_v12 (F := F) (V (Proc.devRef .tc main_arg3)) = a0 at e0 ⊢
  generalize ReadP.val_main_v13 (F := F) = a1 at e1 ⊢
  (rw [binary_result, e0, e1]) <;> rfl

theorem L_main_c_1 (V : Valuation τ sig (Elt F)) :
    after (ops (F := F)) V (Proc.devRef .tc main_c_1) = ReadP.val_main_c_1 (F := F) := by
  obtain ⟨W, h1, h2, h3⟩ := after_at (ops (F := F)) wr hwr hnd V 23 _ main_c_1 rfl rfl
  unfold ReadP.val_main_c_1
  rw [h1]; clear h1 h2 h3
  (rw [nullary_result]) <;> rfl

theorem L_main_v15 (V : Valuation τ sig (Elt F)) :
    after (ops (F := F)) V (Proc.devRef .tc main_v15) = ReadP.val_main_v15 (F := F) := by
  obtain ⟨W, h1, h2, h3⟩ := after_at (ops (F := F)) wr hwr hnd V 24 _ main_v15 rfl rfl
  have e0 := (h2 23 main_c_1 (by decide) rfl).trans (L_main_c_1 V)
  unfold ReadP.val_main_v15
  rw [h1]; clear h1 h2 h3
  generalize ReadP.val_main_c_1 (F := F) = a0 at e0 ⊢
  (rw [unary_result, e0]) <;> rfl

theorem L_main_v16 (V : Valuation τ sig (Elt F)) :
    after (ops (F := F)) V (Proc.devRef .tc main_v16) = ReadP.val_main_v16 (F := F) (V (Proc.devRef .tc main_arg3)) := by
  obtain ⟨W, h1, h2, h3⟩ := after_at (ops (F := F)) wr hwr hnd V 25 _ main_v16 rfl rfl
  have e0 := (h2 22 main_v14 (by decide) rfl).trans (L_main_v14 V)
  have e1 := (h2 24 main_v15 (by decide) rfl).trans (L_main_v15 V)
  unfold ReadP.val_main_v16
  rw [h1]; clear h1 h2 h3
  generalize ReadP.val_main_v14 (F := F) (V (Proc.devRef .tc main_arg3)) = a0 at e0 ⊢
  generalize ReadP.val_main_v15 (F := F) = a1 at e1 ⊢
  (rw [binary_result, e0, e1]) <;> rfl

theorem L_main_c_2 (V : Valuation τ sig (Elt F)) :
    after (ops (F := F)) V (Proc.devRef .tc main_c_2) = ReadP.val_main_c_2 (F := F) := by
  obtain ⟨W, h1, h2, h3⟩ := after_at (ops (F := F)) wr hwr hnd V 26 _ main_c_2 rfl rfl
  unfold ReadP.val_main_c_2
  rw [h1]; clear h1 h2 h3
  (rw [nullary_result]) <;> rfl

theorem L_main_v17 (V : Valuation τ sig (Elt F)) :
    after (ops (F := F)) V (Proc.devRef .tc main_v17) = ReadP.val_main_v17 (F := F) := by
  obtain ⟨W, h1, h2, h3⟩ := after_at (ops (F := F)) wr hwr hnd V 27 _ main_v17 rfl rfl
  have e0 := (h2 26 main_c_2 (by decide) rfl).trans (L_main_c_2 V)
  unfold ReadP.val_main_v17
  rw [h1]; clear h1 h2 h3
  generalize ReadP.val_main_c_2 (F := F) = a0 at e0 ⊢
  (rw [unary_result, e0]) <;> rfl

theorem L_main_v18 (V : Valuation τ sig (Elt F)) :
    after (ops (F := F)) V (Proc.devRef .tc main_v18) = ReadP.val_main_v18 (F := F) (V (Proc.devRef .tc main_arg3)) := by
  obtain ⟨W, h1, h2, h3⟩ := after_at (ops (F := F)) wr hwr hnd V 28 _ main_v18 rfl rfl
  have e0 := (h2 25 main_v16 (by decide) rfl).trans (L_main_v16 V)
  have e1 := (h2 27 main_v17 (by decide) rfl).trans (L_main_v17 V)
  unfold ReadP.val_main_v18
  rw [h1]; clear h1 h2 h3
  generalize ReadP.val_main_v16 (F := F) (V (Proc.devRef .tc main_arg3)) = a0 at e0 ⊢
  generalize ReadP.val_main_v17 (F := F) = a1 at e1 ⊢
  (rw [binary_result, e0, e1]) <;> rfl

theorem L_main_v19 (V : Valuation τ sig (Elt F)) :
    after (ops (F := F)) V (Proc.devRef .tc main_v19) = ReadP.val_main_v19 (F := F) (V (Proc.devRef .tc main_arg3)) := by
  obtain ⟨W, h1, h2, h3⟩ := after_at (ops (F := F)) wr hwr hnd V 29 _ main_v19 rfl rfl
  have e0 := (h2 28 main_v18 (by decide) rfl).trans (L_main_v18 V)
  unfold ReadP.val_main_v19
  rw [h1]; clear h1 h2 h3
  generalize ReadP.val_main_v18 (F := F) (V (Proc.devRef .tc main_arg3)) = a0 at e0 ⊢
  (rw [unary_result, e0]) <;> rfl

theorem L_main_v20 (V : Valuation τ sig (Elt F)) :
    after (ops (F := F)) V (Proc.devRef .tc main_v20) = ReadP.val_main_v20 (F := F) (V (Proc.devRef .tc main_arg3)) := by
  obtain ⟨W, h1, h2, h3⟩ := after_at (ops (F := F)) wr hwr hnd V 30 _ main_v20 rfl rfl
  have e0 := h3 main_arg3 nm_main_arg3
  unfold ReadP.val_main_v20
  rw [h1]; clear h1 h2 h3
  generalize V (Proc.devRef .tc main_arg3) = a0 at e0 ⊢
  (rw [unary_result, e0]) <;> rfl

theorem L_main_v21 (V : Valuation τ sig (Elt F)) :
    after (ops (F := F)) V (Proc.devRef .tc main_v21) = ReadP.val_main_v21 (F := F) (V (Proc.devRef .tc main_arg3)) := by
  obtain ⟨W, h1, h2, h3⟩ := after_at (ops (F := F)) wr hwr hnd V 31 _ main_v21 rfl rfl
  have e0 := (h2 30 main_v20 (by decide) rfl).trans (L_main_v20 V)
  unfold ReadP.val_main_v21
  rw [h1]; clear h1 h2 h3
  generalize ReadP.val_main_v20 (F := F) (V (Proc.devRef .tc main_arg3)) = a0 at e0 ⊢
  (rw [unary_result, e0]) <;> rfl

theorem L_main_v22 (V : Valuation τ sig (Elt F)) :
    after (ops (F := F)) V (Proc.devRef .tc main_v22) = ReadP.val_main_v22 (F := F) (V (Proc.devRef .tc main_arg3)) := by
  obtain ⟨W, h1, h2, h3⟩ := after_at (ops (F := F)) wr hwr hnd V 32 _ main_v22 rfl rfl
  have e0 := (h2 29 main_v19 (by decide) rfl).trans (L_main_v19 V)
  have e1 := (h2 31 main_v21 (by decide) rfl).trans (L_main_v21 V)
  unfold ReadP.val_main_v22
  rw [h1]; clear h1 h2 h3
  generalize ReadP.val_main_v19 (F := F) (V (Proc.devRef .tc main_arg3)) = a0 at e0 ⊢
  generalize ReadP.val_main_v21 (F := F) (V (Proc.devRef .tc main_arg3)) = a1 at e1 ⊢
  (rw [binary_result, e0, e1]) <;> rfl

theorem L_main_v23 (V : Valuation τ sig (Elt F)) :
    after (ops (F := F)) V (Proc.devRef .tc main_v23) = ReadP.val_main_v23 (F := F) (V (Proc.devRef .tc main_arg3)) := by
  obtain ⟨W, h1, h2, h3⟩ := after_at (ops (F := F)) wr hwr hnd V 33 _ main_v23 rfl rfl
  have e0 := (h2 25 main_v16 (by decide) rfl).trans (L_main_v16 V)
  have e1 := (h2 32 main_v22 (by decide) rfl).trans (L_main_v22 V)
  unfold ReadP.val_main_v23
  rw [h1]; clear h1 h2 h3
  generalize ReadP.val_main_v16 (F := F) (V (Proc.devRef .tc main_arg3)) = a0 at e0 ⊢
  generalize ReadP.val_main_v22 (F := F) (V (Proc.devRef .tc main_arg3)) = a1 at e1 ⊢
  (rw [binary_result, e0, e1]) <;> rfl

theorem L_main_call1_c (V : Valuation τ sig (Elt F)) :
    after (ops (F := F)) V (Proc.devRef .tc main_call1_c) = ReadP.val_main_call1_c (F := F) := by
  obtain ⟨W, h1, h2, h3⟩ := after_at (ops (F := F)) wr hwr hnd V 34 _ main_call1_c rfl rfl
  have cy : ∀ v : (⟨S_, .i32⟩ : BufTy).Contents (Elt F), ((TRef.of (T := ⟨S_, .i32⟩) main_call1_c) : TRef sig _).toBuf v = v := fun _ => rfl
  unfold ReadP.val_main_call1_c
  rw [h1]; clear h1 h2 h3
  (rw [nullary_result, cy]) <;> rfl

theorem L_main_call1_v0 (V : Valuation τ sig (Elt F)) :
    after (ops (F := F)) V (Proc.devRef .tc main_call1_v0) = ReadP.val_main_call1_v0 (F := F) := by
  obtain ⟨W, h1, h2, h3⟩ := after_at (ops (F := F)) wr hwr hnd V 35 _ main_call1_v0 rfl rfl
  have e0 := (h2 34 main_call1_c (by decide) rfl).trans (L_main_call1_c V)
  have cy : ∀ v : (⟨S65536x44, .i32⟩ : BufTy).Contents (Elt F), ((TRef.of (T := ⟨S65536x44, .i32⟩) main_call1_v0) : TRef sig _).toBuf v = v := fun _ => rfl
  have cx0 : ∀ u, ((TRef.of (T := ⟨S_, .i32⟩) main_call1_c) : TRef sig _).ofBuf (Val := Elt F) u = u := fun _ => rfl
  unfold ReadP.val_main_call1_v0
  rw [h1]; clear h1 h2 h3
  generalize ReadP.val_main_call1_c (F := F) = a0 at e0 ⊢
  (rw [unary_result, cy, cx0, e0]) <;> rfl

theorem L_main_call1_v1 (V : Valuation τ sig (Elt F)) :
    after (ops (F := F)) V (Proc.devRef .tc main_call1_v1) = ReadP.val_main_call1_v1 (F := F) (V (Proc.devRef .tc main_arg3)) := by
  obtain ⟨W, h1, h2, h3⟩ := after_at (ops (F := F)) wr hwr hnd V 36 _ main_call1_v1 rfl rfl
  have e0 := (h2 33 main_v23 (by decide) rfl).trans (L_main_v23 V)
  have e1 := (h2 35 main_call1_v0 (by decide) rfl).trans (L_main_call1_v0 V)
  have cy : ∀ v : (⟨S65536x44, .i1⟩ : BufTy).Contents (Elt F), ((TRef.of (T := ⟨S65536x44, .i1⟩) main_call1_v1) : TRef sig _).toBuf v = v := fun _ => rfl
  have cx0 : ∀ u, ((TRef.of (T := ⟨S65536x44, .i32⟩) main_v23) : TRef sig _).ofBuf (Val := Elt F) u = u := fun _ => rfl
  have cx1 : ∀ u, ((TRef.of (T := ⟨S65536x44, .i32⟩) main_call1_v0) : TRef sig _).ofBuf (Val := Elt F) u = u := fun _ => rfl
  unfold ReadP.val_main_call1_v1
  rw [h1]; clear h1 h2 h3
  generalize ReadP.val_main_v23 (F := F) (V (Proc.devRef .tc main_arg3)) = a0 at e0 ⊢
  generalize ReadP.val_main_call1_v0 (F := F) = a1 at e1 ⊢
  (rw [binary_result, cy, cx0, cx1, e0, e1]) <;> rfl

theorem L_main_call1_c_0 (V : Valuation τ sig (Elt F)) :
    after (ops (F := F)) V (Proc.devRef .tc main_call1_c_0) = ReadP.val_main_call1_c_0 (F := F) := by
  obtain ⟨W, h1, h2, h3⟩ := after_at (ops (F := F)) wr hwr hnd V 37 _ main_call1_c_0 rfl rfl
  have cy : ∀ v : (⟨S_, .i32⟩ : BufTy).Contents (Elt F), ((TRef.of (T := ⟨S_, .i32⟩) main_call1_c_0) : TRef sig _).toBuf v = v := fun _ => rfl
  unfold ReadP.val_main_call1_c_0
  rw [h1]; clear h1 h2 h3
  (rw [nullary_result, cy]) <;> rfl

theorem L_main_call1_v2 (V : Valuation τ sig (Elt F)) :
    after (ops (F := F)) V (Proc.devRef .tc main_call1_v2) = ReadP.val_main_call1_v2 (F := F) := by
  obtain ⟨W, h1, h2, h3⟩ := after_at (ops (F := F)) wr hwr hnd V 38 _ main_call1_v2 rfl rfl
  have e0 := (h2 37 main_call1_c_0 (by decide) rfl).trans (L_main_call1_c_0 V)
  have cy : ∀ v : (⟨S65536x44, .i32⟩ : BufTy).Contents (Elt F), ((TRef.of (T := ⟨S65536x44, .i32⟩) main_call1_v2) : TRef sig _).toBuf v = v := fun _ => rfl
  have cx0 : ∀ u, ((TRef.of (T := ⟨S_, .i32⟩) main_call1_c_0) : TRef sig _).ofBuf (Val := Elt F) u = u := fun _ => rfl
  unfold ReadP.val_main_call1_v2
  rw [h1]; clear h1 h2 h3
  generalize ReadP.val_main_call1_c_0 (F := F) = a0 at e0 ⊢
  (rw [unary_result, cy, cx0, e0]) <;> rfl

theorem L_main_call1_v3 (V : Valuation τ sig (Elt F)) :
    after (ops (F := F)) V (Proc.devRef .tc main_call1_v3) = ReadP.val_main_call1_v3 (F := F) (V (Proc.devRef .tc main_arg3)) := by
  obtain ⟨W, h1, h2, h3⟩ := after_at (ops (F := F)) wr hwr hnd V 39 _ main_call1_v3 rfl rfl
  have e0 := (h2 33 main_v23 (by decide) rfl).trans (L_main_v23 V)
  have e1 := (h2 38 main_call1_v2 (by decide) rfl).trans (L_main_call1_v2 V)
  have cy : ∀ v : (⟨S65536x44, .i32⟩ : BufTy).Contents (Elt F), ((TRef.of (T := ⟨S65536x44, .i32⟩) main_call1_v3) : TRef sig _).toBuf v = v := fun _ => rfl
  have cx0 : ∀ u, ((TRef.of (T := ⟨S65536x44, .i32⟩) main_v23) : TRef sig _).ofBuf (Val := Elt F) u = u := fun _ => rfl
  have cx1 : ∀ u, ((TRef.of (T := ⟨S65536x44, .i32⟩) main_call1_v2) : TRef sig _).ofBuf (Val := Elt F) u = u := fun _ => rfl
  unfold ReadP.val_main_call1_v3
  rw [h1]; clear h1 h2 h3
  generalize ReadP.val_main_v23 (F := F) (V (Proc.devRef .tc main_arg3)) = a0 at e0 ⊢
  generalize ReadP.val_main_call1_v2 (F := F) = a1 at e1 ⊢
  (rw [binary_result, cy, cx0, cx1, e0, e1]) <;> rfl

theorem L_main_call1_v4 (V : Valuation τ sig (Elt F)) :
    after (ops (F := F)) V (Proc.devRef .tc main_call1_v4) = ReadP.val_main_call1_v4 (F := F) (V (Proc.devRef .tc main_arg3)) := by
  obtain ⟨W, h1, h2, h3⟩ := after_at (ops (F := F)) wr hwr hnd V 40 _ main_call1_v4 rfl rfl
  have e0 := (h2 36 main_call1_v1 (by decide) rfl).trans (L_main_call1_v1 V)
  have e1 := (h2 39 main_call1_v3 (by decide) rfl).trans (L_main_call1_v3 V)
  have e2 := (h2 33 main_v23 (by decide) rfl).trans (L_main_v23 V)
  have cy : ∀ v : (⟨S65536x44, .i32⟩ : BufTy).Contents (Elt F), ((TRef.of (T := ⟨S65536x44, .i32⟩) main_call1_v4) : TRef sig _).toBuf v = v := fun _ => rfl
  have cx0 : ∀ u, ((TRef.of (T := ⟨S65536x44, .i1⟩) main_call1_v1) : TRef sig _).ofBuf (Val := Elt F) u = u := fun _ => rfl
  have cx1 : ∀ u, ((TRef.of (T := ⟨S65536x44, .i32⟩) main_call1_v3) : TRef sig _).ofBuf (Val := Elt F) u = u := fun _ => rfl
  have cx2 : ∀ u, ((TRef.of (T := ⟨S65536x44, .i32⟩) main_v23) : TRef sig _).ofBuf (Val := Elt F) u = u := fun _ => rfl
  unfold ReadP.val_main_call1_v4
  rw [h1]; clear h1 h2 h3
  generalize ReadP.val_main_call1_v1 (F := F) (V (Proc.devRef .tc main_arg3)) = a0 at e0 ⊢
  generalize ReadP.val_main_call1_v3 (F := F) (V (Proc.devRef .tc main_arg3)) = a1 at e1 ⊢
  generalize ReadP.val_main_v23 (F := F) (V (Proc.devRef .tc main_arg3)) = a2 at e2 ⊢
  (rw [ternary_result, cy, cx0, cx1, cx2, e0, e1, e2]) <;> rfl

theorem L_main_call1_v5 (V : Valuation τ sig (Elt F)) :
    after (ops (F := F)) V (Proc.devRef .tc main_call1_v5) = ReadP.val_main_call1_v5 (F := F) (V (Proc.devRef .tc main_arg3)) := by
  obtain ⟨W, h1, h2, h3⟩ := after_at (ops (F := F)) wr hwr hnd V 41 _ main_call1_v5 rfl rfl
  have e0 := (h2 40 main_call1_v4 (by decide) rfl).trans (L_main_call1_v4 V)
  unfold ReadP.val_main_call1_v5
  rw [h1]; clear h1 h2 h3
  generalize ReadP.val_main_call1_v4 (F := F) (V (Proc.devRef .tc main_arg3)) = a0 at e0 ⊢
  (rw [reshape_result, e0]) <;> rfl

theorem L_main_call1_c_1 (V : Valuation τ sig (Elt F)) :
    after (ops (F := F)) V (Proc.devRef .tc main_call1_c_1) = ReadP.val_main_call1_c_1 (F := F) := by
  obtain ⟨W, h1, h2, h3⟩ := after_at (ops (F := F)) wr hwr hnd V 42 _ main_call1_c_1 rfl rfl
  have cy : ∀ v : (⟨S1, .i32⟩ : BufTy).Contents (Elt F), ((TRef.of (T := ⟨S1, .i32⟩) main_call1_c_1) : TRef sig _).toBuf v = v := fun _ => rfl
  unfold ReadP.val_main_call1_c_1
  rw [h1]; clear h1 h2 h3
  (rw [nullary_result, cy]) <;> rfl

theorem L_main_call1_c_2 (V : Valuation τ sig (Elt F)) :
    after (ops (F := F)) V (Proc.devRef .tc main_call1_c_2) = ReadP.val_main_call1_c_2 (F := F) := by
  obtain ⟨W, h1, h2, h3⟩ := after_at (ops (F := F)) wr hwr hnd V 43 _ main_call1_c_2 rfl rfl
  have cy : ∀ v : (⟨S_, .i32⟩ : BufTy).Contents (Elt F), ((TRef.of (T := ⟨S_, .i32⟩) main_call1_c_2) : TRef sig _).toBuf v = v := fun _ => rfl
  unfold ReadP.val_main_call1_c_2
  rw [h1]; clear h1 h2 h3
  (rw [nullary_result, cy]) <;> rfl

theorem L_main_call1_v6 (V : Valuation τ sig (Elt F)) :
    after (ops (F := F)) V (Proc.devRef .tc main_call1_v6) = ReadP.val_main_call1_v6 (F := F) := by
  obtain ⟨W, h1, h2, h3⟩ := after_at (ops (F := F)) wr hwr hnd V 44 _ main_call1_v6 rfl rfl
  have e0 := (h2 43 main_call1_c_2 (by decide) rfl).trans (L_main_call1_c_2 V)
  have cy : ∀ v : (⟨S65536x44x1, .i32⟩ : BufTy).Contents (Elt F), ((TRef.of (T := ⟨S65536x44x1, .i32⟩) main_call1_v6) : TRef sig _).toBuf v = v := fun _ => rfl
  have cx0 : ∀ u, ((TRef.of (T := ⟨S_, .i32⟩) main_call1_c_2) : TRef sig _).ofBuf (Val := Elt F) u = u := fun _ => rfl
  unfold ReadP.val_main_call1_v6
  rw [h1]; clear h1 h2 h3
  generalize ReadP.val_main_call1_c_2 (F := F) = a0 at e0 ⊢
  (rw [unary_result, cy, cx0, e0]) <;> rfl

theorem L_main_call1_v7 (V : Valuation τ sig (Elt F)) :
    after (ops (F := F)) V (Proc.devRef .tc main_call1_v7) = ReadP.val_main_call1_v7 (F := F) (V (Proc.devRef .tc main_arg3)) := by
  obtain ⟨W, h1, h2, h3⟩ := after_at (ops (F := F)) wr hwr hnd V 45 _ main_call1_v7 rfl rfl
  have e0 := (h2 41 main_call1_v5 (by decide) rfl).trans (L_main_call1_v5 V)
  have e1 := (h2 44 main_call1_v6 (by decide) rfl).trans (L_main_call1_v6 V)
  have cy : ∀ v : (⟨S65536x44x1, .i1⟩ : BufTy).Contents (Elt F), ((TRef.of (T := ⟨S65536x44x1, .i1⟩) main_call1_v7) : TRef sig _).toBuf v = v := fun _ => rfl
  have cx0 : ∀ u, ((TRef.of (T := ⟨S65536x44x1, .i32⟩) main_call1_v5) : TRef sig _).ofBuf (Val := Elt F) u = u := fun _ => rfl
  have cx1 : ∀ u, ((TRef.of (T := ⟨S65536x44x1, .i32⟩) main_call1_v6) : TRef sig _).ofBuf (Val := Elt F) u = u := fun _ => rfl
  unfold ReadP.val_main_call1_v7
  rw [h1]; clear h1 h2 h3
  generalize ReadP.val_main_call1_v5 (F := F) (V (Proc.devRef .tc main_arg3)) = a0 at e0 ⊢
  generalize ReadP.val_main_call1_v6 (F := F) = a1 at e1 ⊢
  (rw [binary_result, cy, cx0, cx1, e0, e1]) <;> rfl

theorem L_main_call1_v8 (V : Valuation τ sig (Elt F)) :
    after (ops (F := F)) V (Proc.devRef .tc main_call1_v8) = ReadP.val_main_call1_v8 (F := F) := by
  obtain ⟨W, h1, h2, h3⟩ := after_at (ops (F := F)) wr hwr hnd V 46 _ main_call1_v8 rfl rfl
  have e0 := (h2 42 main_call1_c_1 (by decide) rfl).trans (L_main_call1_c_1 V)
  have cy : ∀ v : (⟨S1x1x1, .i32⟩ : BufTy).Contents (Elt F), ((TRef.of (T := ⟨S1x1x1, .i32⟩) main_call1_v8) : TRef sig _).toBuf v = v := fun _ => rfl
  have cx0 : ∀ u, ((TRef.of (T := ⟨S1, .i32⟩) main_call1_c_1) : TRef sig _).ofBuf (Val := Elt F) u = u := fun _ => rfl
  unfold ReadP.val_main_call1_v8
  rw [h1]; clear h1 h2 h3
  generalize ReadP.val_main_call1_c_1 (F := F) = a0 at e0 ⊢
  (rw [unary_result, cy, cx0, e0]) <;> rfl

theorem L_main_call1_v9 (V : Valuation τ sig (Elt F)) :
    after (ops (F := F)) V (Proc.devRef .tc main_call1_v9) = ReadP.val_main_call1_v9 (F := F) := by
  obtain ⟨W, h1, h2, h3⟩ := after_at (ops (F := F)) wr hwr hnd V 47 _ main_call1_v9 rfl rfl
  have e0 := (h2 46 main_call1_v8 (by decide) rfl).trans (L_main_call1_v8 V)
  have cy : ∀ v : (⟨S65536x44x1, .i32⟩ : BufTy).Contents (Elt F), ((TRef.of (T := ⟨S65536x44x1, .i32⟩) main_call1_v9) : TRef sig _).toBuf v = v := fun _ => rfl
  have cx0 : ∀ u, ((TRef.of (T := ⟨S1x1x1, .i32⟩) main_call1_v8) : TRef sig _).ofBuf (Val := Elt F) u = u := fun _ => rfl
  unfold ReadP.val_main_call1_v9
  rw [h1]; clear h1 h2 h3
  generalize ReadP.val_main_call1_v8 (F := F) = a0 at e0 ⊢
  (rw [unary_result, cy, cx0, e0]) <;> rfl

theorem L_main_call1_v10 (V : Valuation τ sig (Elt F)) :
    after (ops (F := F)) V (Proc.devRef .tc main_call1_v10) = ReadP.val_main_call1_v10 (F := F) (V (Proc.devRef .tc main_arg3)) := by
  obtain ⟨W, h1, h2, h3⟩ := after_at (ops (F := F)) wr hwr hnd V 48 _ main_call1_v10 rfl rfl
  have e0 := (h2 41 main_call1_v5 (by decide) rfl).trans (L_main_call1_v5 V)
  have e1 := (h2 47 main_call1_v9 (by decide) rfl).trans (L_main_call1_v9 V)
  have cy : ∀ v : (⟨S65536x44x1, .i1⟩ : BufTy).Contents (Elt F), ((TRef.of (T := ⟨S65536x44x1, .i1⟩) main_call1_v10) : TRef sig _).toBuf v = v := fun _ => rfl
  have cx0 : ∀ u, ((TRef.of (T := ⟨S65536x44x1, .i32⟩) main_call1_v5) : TRef sig _).ofBuf (Val := Elt F) u = u := fun _ => rfl
  have cx1 : ∀ u, ((TRef.of (T := ⟨S65536x44x1, .i32⟩) main_call1_v9) : TRef sig _).ofBuf (Val := Elt F) u = u := fun _ => rfl
  unfold ReadP.val_main_call1_v10
  rw [h1]; clear h1 h2 h3
  generalize ReadP.val_main_call1_v5 (F := F) (V (Proc.devRef .tc main_arg3)) = a0 at e0 ⊢
  generalize ReadP.val_main_call1_v9 (F := F) = a1 at e1 ⊢
  (rw [binary_result, cy, cx0, cx1, e0, e1]) <;> rfl

theorem L_main_call1_v11 (V : Valuation τ sig (Elt F)) :
    after (ops (F := F)) V (Proc.devRef .tc main_call1_v11) = ReadP.val_main_call1_v11 (F := F) (V (Proc.devRef .tc main_arg3)) := by
  obtain ⟨W, h1, h2, h3⟩ := after_at (ops (F := F)) wr hwr hnd V 49 _ main_call1_v11 rfl rfl
  have e0 := (h2 45 main_call1_v7 (by decide) rfl).trans (L_main_call1_v7 V)
  have e1 := (h2 48 main_call1_v10 (by decide) rfl).trans (L_main_call1_v10 V)
  have cy : ∀ v : (⟨S65536x44x1, .i1⟩ : BufTy).Contents (Elt F), ((TRef.of (T := ⟨S65536x44x1, .i1⟩) main_call1_v11) : TRef sig _).toBuf v = v := fun _ => rfl
  have cx0 : ∀ u, ((TRef.of (T := ⟨S65536x44x1, .i1⟩) main_call1_v7) : TRef sig _).ofBuf (Val := Elt F) u = u := fun _ => rfl
  have cx1 : ∀ u, ((TRef.of (T := ⟨S65536x44x1, .i1⟩) main_call1_v10) : TRef sig _).ofBuf (Val := Elt F) u = u := fun _ => rfl
  unfold ReadP.val_main_call1_v11
  rw [h1]; clear h1 h2 h3
  generalize ReadP.val_main_call1_v7 (F := F) (V (Proc.devRef .tc main_arg3)) = a0 at e0 ⊢
  generalize ReadP.val_main_call1_v10 (F := F) (V (Proc.devRef .tc main_arg3)) = a1 at e1 ⊢
  (rw [binary_result, cy, cx0, cx1, e0, e1]) <;> rfl

theorem L_main_call1_c_3 (V : Valuation τ sig (Elt F)) :
    after (ops (F := F)) V (Proc.devRef .tc main_call1_c_3) = ReadP.val_main_call1_c_3 (F := F) := by
  obtain ⟨W, h1, h2, h3⟩ := after_at (ops (F := F)) wr hwr hnd V 50 _ main_call1_c_3 rfl rfl
  have cy : ∀ v : (⟨S_, .i1⟩ : BufTy).Contents (Elt F), ((TRef.of (T := ⟨S_, .i1⟩) main_call1_c_3) : TRef sig _).toBuf v = v := fun _ => rfl
  unfold ReadP.val_main_call1_c_3
  rw [h1]; clear h1 h2 h3
  (rw [nullary_result, cy]) <;> rfl

theorem L_main_call1_v12 (V : Valuation τ sig (Elt F)) :
    after (ops (F := F)) V (Proc.devRef .tc main_call1_v12) = ReadP.val_main_call1_v12 (F := F) (V (Proc.devRef .tc main_arg3)) := by
  obtain ⟨W, h1, h2, h3⟩ := after_at (ops (F := F)) wr hwr hnd V 51 _ main_call1_v12 rfl rfl
  have e0 := (h2 49 main_call1_v11 (by decide) rfl).trans (L_main_call1_v11 V)
  have e1 := (h2 50 main_call1_c_3 (by decide) rfl).trans (L_main_call1_c_3 V)
  have cy : ∀ v : (⟨S65536x44, .i1⟩ : BufTy).Contents (Elt F), ((TRef.of (T := ⟨S65536x44, .i1⟩) main_call1_v12) : TRef sig _).toBuf v = v := fun _ => rfl
  have cx0 : ∀ u, ((TRef.of (T := ⟨S65536x44x1, .i1⟩) main_call1_v11) : TRef sig _).ofBuf (Val := Elt F) u = u := fun _ => rfl
  have cx1 : ∀ u, ((TRef.of (T := ⟨S_, .i1⟩) main_call1_c_3) : TRef sig _).ofBuf (Val := Elt F) u = u := fun _ => rfl
  unfold ReadP.val_main_call1_v12
  rw [h1]; clear h1 h2 h3
  generalize ReadP.val_main_call1_v11 (F := F) (V (Proc.devRef .tc main_arg3)) = a0 at e0 ⊢
  generalize ReadP.val_main_call1_c_3 (F := F) = a1 at e1 ⊢
  (rw [binary_result, cy, cx0, cx1, e0, e1]) <;> rfl

theorem L_main_call1_v13 (V : Valuation τ sig (Elt F)) :
    after (ops (F := F)) V (Proc.devRef .tc main_call1_v13) = ReadP.val_main_call1_v13 (F := F) (V (Proc.devRef .tc main_arg2)) (V (Proc.devRef .tc main_arg3)) := by
  obtain ⟨W, h1, h2, h3⟩ := after_at (ops (F := F)) wr hwr hnd V 52 _ main_call1_v13 rfl rfl
  have e0 := (h2 41 main_call1_v5 (by decide) rfl).trans (L_main_call1_v5 V)
  have e1 := h3 main_arg2 nm_main_arg2
  have cy : ∀ v : (⟨S65536x44, .f32⟩ : BufTy).Contents (Elt F), ((TRef.of (T := ⟨S65536x44, .f32⟩) main_call1_v13) : TRef sig _).toBuf v = v := fun _ => rfl
  have cx0 : ∀ u, ((TRef.of (T := ⟨S65536x256, .f32⟩) main_arg2) : TRef sig _).ofBuf (Val := Elt F) u = u := fun _ => rfl
  have cx1 : ∀ u, ((TRef.of (T := ⟨S65536x44x1, .i32⟩) main_call1_v5) : TRef sig _).ofBuf (Val := Elt F) u = u := fun _ => rfl
  unfold ReadP.val_main_call1_v13
  rw [h1]; clear h1 h2 h3
  generalize ReadP.val_main_call1_v5 (F := F) (V (Proc.devRef .tc main_arg3)) = a0 at e0 ⊢
  generalize V (Proc.devRef .tc main_arg2) = a1 at e1 ⊢
  (rw [binary_result, cy, cx0, cx1, e0, e1]) <;> rfl

theorem L_main_call1_cst (V : Valuation τ sig (Elt F)) :
    after (ops (F := F)) V (Proc.devRef .tc main_call1_cst) = ReadP.val_main_call1_cst (F := F) := by
  obtain ⟨W, h1, h2, h3⟩ := after_at (ops (F := F)) wr hwr hnd V 53 _ main_call1_cst rfl rfl
  have cy : ∀ v : (⟨S_, .f32⟩ : BufTy).Contents (Elt F), ((TRef.of (T := ⟨S_, .f32⟩) main_call1_cst) : TRef sig _).toBuf v = v := fun _ => rfl
  unfold ReadP.val_main_call1_cst
  rw [h1]; clear h1 h2 h3
  (rw [nullary_result, cy]) <;> rfl

theorem L_main_call1_v14 (V : Valuation τ sig (Elt F)) :
    after (ops (F := F)) V (Proc.devRef .tc main_call1_v14) = ReadP.val_main_call1_v14 (F := F) := by
  obtain ⟨W, h1, h2, h3⟩ := after_at (ops (F := F)) wr hwr hnd V 54 _ main_call1_v14 rfl rfl
  have e0 := (h2 53 main_call1_cst (by decide) rfl).trans (L_main_call1_cst V)
  have cy : ∀ v : (⟨S65536x44, .f32⟩ : BufTy).Contents (Elt F), ((TRef.of (T := ⟨S65536x44, .f32⟩) main_call1_v14) : TRef sig _).toBuf v = v := fun _ => rfl
  have cx0 : ∀ u, ((TRef.of (T := ⟨S_, .f32⟩) main_call1_cst) : TRef sig _).ofBuf (Val := Elt F) u = u := fun _ => rfl
  unfold ReadP.val_main_call1_v14
  rw [h1]; clear h1 h2 h3
  generalize ReadP.val_main_call1_cst (F := F) = a0 at e0 ⊢
  (rw [unary_result, cy, cx0, e0]) <;> rfl

theorem L_main_v24 (V : Valuation τ sig (Elt F)) :
    after (ops (F := F)) V (Proc.devRef .tc main_v24) = ReadP.val_main_v24 (F := F) (V (Proc.devRef .tc main_arg2)) (V (Proc.devRef .tc main_arg3)) := by
  obtain ⟨W, h1, h2, h3⟩ := after_at (ops (F := F)) wr hwr hnd V 55 _ main_v24 rfl rfl
  have e0 := (h2 51 main_call1_v12 (by decide) rfl).trans (L_main_call1_v12 V)
  have e1 := (h2 52 main_call1_v13 (by decide) rfl).trans (L_main_call1_v13 V)
  have e2 := (h2 54 main_call1_v14 (by decide) rfl).trans (L_main_call1_v14 V)
  have cy : ∀ v : (⟨S65536x44, .f32⟩ : BufTy).Contents (Elt F), ((TRef.of (T := ⟨S65536x44, .f32⟩) main_v24) : TRef sig _).toBuf v = v := fun _ => rfl
  have cx0 : ∀ u, ((TRef.of (T := ⟨S65536x44, .i1⟩) main_call1_v12) : TRef sig _).ofBuf (Val := Elt F) u = u := fun _ => rfl
  have cx1 : ∀ u, ((TRef.of (T := ⟨S65536x44, .f32⟩) main_call1_v13) : TRef sig _).ofBuf (Val := Elt F) u = u := fun _ => rfl
  have cx2 : ∀ u, ((TRef.of (T := ⟨S65536x44, .f32⟩) main_call1_v14) : TRef sig _).ofBuf (Val := Elt F) u = u := fun _ => rfl
  unfold ReadP.val_main_v24
  rw [h1]; clear h1 h2 h3
  generalize ReadP.val_main_call1_v12 (F := F) (V (Proc.devRef .tc main_arg3)) = a0 at e0 ⊢
  generalize ReadP.val_main_call1_v13 (F := F) (V (Proc.devRef .tc main_arg2)) (V (Proc.devRef .tc main_arg3)) = a1 at e1 ⊢
  generalize ReadP.val_main_call1_v14 (F := F) = a2 at e2 ⊢
  (rw [ternary_result, cy, cx0, cx1, cx2, e0, e1, e2]) <;> rfl

theorem L_main_cst_3 (V : Valuation τ sig (Elt F)) :
    after (ops (F := F)) V (Proc.devRef .tc main_cst_3) = ReadP.val_main_cst_3 (F := F) := by
  obtain ⟨W, h1, h2, h3⟩ := after_at (ops (F := F)) wr hwr hnd V 56 _ main_cst_3 rfl rfl
  unfold ReadP.val_main_cst_3
  rw [h1]; clear h1 h2 h3
  (rw [nullary_result]) <;> rfl

theorem L_main_v25 (V : Valuation τ sig (Elt F)) :
    after (ops (F := F)) V (Proc.devRef .tc main_v25) = ReadP.val_main_v25 (F := F) := by
  obtain ⟨W, h1, h2, h3⟩ := after_at (ops (F := F)) wr hwr hnd V 57 _ main_v25 rfl rfl
  have e0 := (h2 56 main_cst_3 (by decide) rfl).trans (L_main_cst_3 V)
  unfold ReadP.val_main_v25
  rw [h1]; clear h1 h2 h3
  generalize ReadP.val_main_cst_3 (F := F) = a0 at e0 ⊢
  (rw [unary_result, e0]) <;> rfl

theorem L_main_v26 (V : Valuation τ sig (Elt F)) :
    after (ops (F := F)) V (Proc.devRef .tc main_v26) = ReadP.val_main_v26 (F := F) (V (Proc.devRef .tc main_arg0)) (V (Proc.devRef .tc main_arg8)) (V (Proc.devRef .tc main_arg9)) := by
  obtain ⟨W, h1, h2, h3⟩ := after_at (ops (F := F)) wr hwr hnd V 58 _ main_v26 rfl rfl
  have e0 := (h2 57 main_v25 (by decide) rfl).trans (L_main_v25 V)
  have e1 := (h2 13 main_v6 (by decide) rfl).trans (L_main_v6 V)
  unfold ReadP.val_main_v26
  rw [h1]; clear h1 h2 h3
  generalize ReadP.val_main_v25 (F := F) = a0 at e0 ⊢
  generalize ReadP.val_main_v6 (F := F) (V (Proc.devRef .tc main_arg0)) (V (Proc.devRef .tc main_arg8)) (V (Proc.devRef .tc main_arg9)) = a1 at e1 ⊢
  (rw [binary_result, e0, e1]) <;> rfl

theorem L_main_v27 (V : Valuation τ sig (Elt F)) :
    after (ops (F := F)) V (Proc.devRef .tc main_v27) = ReadP.val_main_v27 (F := F) (V (Proc.devRef .tc main_arg0)) (V (Proc.devRef .tc main_arg8)) (V (Proc.devRef .tc main_arg9)) := by
  obtain ⟨W, h1, h2, h3⟩ := after_at (ops (F := F)) wr hwr hnd V 59 _ main_v27 rfl rfl
  have e0 := (h2 58 main_v26 (by decide) rfl).trans (L_main_v26 V)
  unfold ReadP.val_main_v27
  rw [h1]; clear h1 h2 h3
  generalize ReadP.val_main_v26 (F := F) (V (Proc.devRef .tc main_arg0)) (V (Proc.devRef .tc main_arg8)) (V (Proc.devRef .tc main_arg9)) = a0 at e0 ⊢
  (rw [unary_result, e0]) <;> rfl

theorem L_main_v28 (V : Valuation τ sig (Elt F)) :
    after (ops (F := F)) V (Proc.devRef .tc main_v28) = ReadP.val_main_v28 (F := F) (V (Proc.devRef .tc main_arg0)) (V (Proc.devRef .tc main_arg2)) (V (Proc.devRef .tc main_arg3)) (V (Proc.devRef .tc main_arg8)) (V (Proc.devRef .tc main_arg9)) := by
  obtain ⟨W, h1, h2, h3⟩ := after_at (ops (F := F)) wr hwr hnd V 60 _ main_v28 rfl rfl
  have e0 := (h2 55 main_v24 (by decide) rfl).trans (L_main_v24 V)
  have e1 := (h2 59 main_v27 (by decide) rfl).trans (L_main_v27 V)
  unfold ReadP.val_main_v28
  rw [h1]; clear h1 h2 h3
  generalize ReadP.val_main_v24 (F := F) (V (Proc.devRef .tc main_arg2)) (V (Proc.devRef .tc main_arg3)) = a0 at e0 ⊢
  generalize ReadP.val_main_v27 (F := F) (V (Proc.devRef .tc main_arg0)) (V (Proc.devRef .tc main_arg8)) (V (Proc.devRef .tc main_arg9)) = a1 at e1 ⊢
  (rw [binary_result, e0, e1]) <;> rfl

theorem L_main_cst_4 (V : Valuation τ sig (Elt F)) :
    after (ops (F := F)) V (Proc.devRef .tc main_cst_4) = ReadP.val_main_cst_4 (F := F) := by
  obtain ⟨W, h1, h2, h3⟩ := after_at (ops (F := F)) wr hwr hnd V 61 _ main_cst_4 rfl rfl
  unfold ReadP.val_main_cst_4
  rw [h1]; clear h1 h2 h3
  (rw [nullary_result]) <;> rfl

theorem L_main_cst_5 (V : Valuation τ sig (Elt F)) :
    after (ops (F := F)) V (Proc.devRef .tc main_cst_5) = ReadP.val_main_cst_5 (F := F) := by
  obtain ⟨W, h1, h2, h3⟩ := after_at (ops (F := F)) wr hwr hnd V 62 _ main_cst_5 rfl rfl
  unfold ReadP.val_main_cst_5
  rw [h1]; clear h1 h2 h3
  (rw [nullary_result]) <;> rfl

theorem L_main_call2_v0 (V : Valuation τ sig (Elt F)) :
    after (ops (F := F)) V (Proc.devRef .tc main_call2_v0) = ReadP.val_main_call2_v0 (F := F) := by
  obtain ⟨W, h1, h2, h3⟩ := after_at (ops (F := F)) wr hwr hnd V 63 _ main_call2_v0 rfl rfl
  have e0 := (h2 61 main_cst_4 (by decide) rfl).trans (L_main_cst_4 V)
  have cy : ∀ v : (⟨S_, .f32⟩ : BufTy).Contents (Elt F), ((TRef.of (T := ⟨S_, .f32⟩) main_call2_v0) : TRef sig _).toBuf v = v := fun _ => rfl
  have cx0 : ∀ u, ((TRef.of (T := ⟨S_, .f32⟩) main_cst_4) : TRef sig _).ofBuf (Val := Elt F) u = u := fun _ => rfl
  unfold ReadP.val_main_call2_v0
  rw [h1]; clear h1 h2 h3
  generalize ReadP.val_main_cst_4 (F := F) = a0 at e0 ⊢
  (rw [unary_result, cy, cx0, e0]) <;> rfl

theorem L_main_call2_v1 (V : Valuation τ sig (Elt F)) :
    after (ops (F := F)) V (Proc.devRef .tc main_call2_v1) = ReadP.val_main_call2_v1 (F := F) := by
  obtain ⟨W, h1, h2, h3⟩ := after_at (ops (F := F)) wr hwr hnd V 64 _ main_call2_v1 rfl rfl
  have e0 := (h2 63 main_call2_v0 (by decide) rfl).trans (L_main_call2_v0 V)
  have cy : ∀ v : (⟨S65536x44, .f32⟩ : BufTy).Contents (Elt F), ((TRef.of (T := ⟨S65536x44, .f32⟩) main_call2_v1) : TRef sig _).toBuf v = v := fun _ => rfl
  have cx0 : ∀ u, ((TRef.of (T := ⟨S_, .f32⟩) main_call2_v0) : TRef sig _).ofBuf (Val := Elt F) u = u := fun _ => rfl
  unfold ReadP.val_main_call2_v1
  rw [h1]; clear h1 h2 h3
  generalize ReadP.val_main_call2_v0 (F := F) = a0 at e0 ⊢
  (rw [unary_result, cy, cx0, e0]) <;> rfl

theorem L_main_call2_v2 (V : Valuation τ sig (Elt F)) :
    after (ops (F := F)) V (Proc.devRef .tc main_call2_v2) = ReadP.val_main_call2_v2 (F := F) (V (Proc.devRef .tc main_arg0)) (V (Proc.devRef .tc main_arg2)) (V (Proc.devRef .tc main_arg3)) (V (Proc.devRef .tc main_arg8)) (V (Proc.devRef .tc main_arg9)) := by
  obtain ⟨W, h1, h2, h3⟩ := after_at (ops (F := F)) wr hwr hnd V 65 _ main_call2_v2 rfl rfl
  have e0 := (h2 64 main_call2_v1 (by decide) rfl).trans (L_main_call2_v1 V)
  have e1 := (h2 60 main_v28 (by decide) rfl).trans (L_main_v28 V)
  have cy : ∀ v : (⟨S65536x44, .f32⟩ : BufTy).Contents (Elt F), ((TRef.of (T := ⟨S65536x44, .f32⟩) main_call2_v2) : TRef sig _).toBuf v = v := fun _ => rfl
  have cx0 : ∀ u, ((TRef.of (T := ⟨S65536x44, .f32⟩) main_call2_v1) : TRef sig _).ofBuf (Val := Elt F) u = u := fun _ => rfl
  have cx1 : ∀ u, ((TRef.of (T := ⟨S65536x44, .f32⟩) main_v28) : TRef sig _).ofBuf (Val := Elt F) u = u := fun _ => rfl
  unfold ReadP.val_main_call2_v2
  rw [h1]; clear h1 h2 h3
  generalize ReadP.val_main_call2_v1 (F := F) = a0 at e0 ⊢
  generalize ReadP.val_main_v28 (F := F) (V (Proc.devRef .tc main_arg0)) (V (Proc.devRef .tc main_arg2)) (V (Proc.devRef .tc main_arg3)) (V (Proc.devRef .tc main_arg8)) (V (Proc.devRef .tc main_arg9)) = a1 at e1 ⊢
  (rw [binary_result, cy, cx0, cx1, e0, e1]) <;> rfl

theorem L_main_call2_v3 (V : Valuation τ sig (Elt F)) :
    after (ops (F := F)) V (Proc.devRef .tc main_call2_v3) = ReadP.val_main_call2_v3 (F := F) := by
  obtain ⟨W, h1, h2, h3⟩ := after_at (ops (F := F)) wr hwr hnd V 66 _ main_call2_v3 rfl rfl
  have e0 := (h2 62 main_cst_5 (by decide) rfl).trans (L_main_cst_5 V)
  have cy : ∀ v : (⟨S_, .f32⟩ : BufTy).Contents (Elt F), ((TRef.of (T := ⟨S_, .f32⟩) main_call2_v3) : TRef sig _).toBuf v = v := fun _ => rfl
  have cx0 : ∀ u, ((TRef.of (T := ⟨S_, .f32⟩) main_cst_5) : TRef sig _).ofBuf (Val := Elt F) u = u := fun _ => rfl
  unfold ReadP.val_main_call2_v3
  rw [h1]; clear h1 h2 h3
  generalize ReadP.val_main_cst_5 (F := F) = a0 at e0 ⊢
  (rw [unary_result, cy, cx0, e0]) <;> rfl

theorem L_main_call2_v4 (V : Valuation τ sig (Elt F)) :
    after (ops (F := F)) V (Proc.devRef .tc main_call2_v4) = ReadP.val_main_call2_v4 (F := F) := by
  obtain ⟨W, h1, h2, h3⟩ := after_at (ops (F := F)) wr hwr hnd V 67 _ main_call2_v4 rfl rfl
  have e0 := (h2 66 main_call2_v3 (by decide) rfl).trans (L_main_call2_v3 V)
  have cy : ∀ v : (⟨S65536x44, .f32⟩ : BufTy).Contents (Elt F), ((TRef.of (T := ⟨S65536x44, .f32⟩) main_call2_v4) : TRef sig _).toBuf v = v := fun _ => rfl
  have cx0 : ∀ u, ((TRef.of (T := ⟨S_, .f32⟩) main_call2_v3) : TRef sig _).ofBuf (Val := Elt F) u = u := fun _ => rfl
  unfold ReadP.val_main_call2_v4
  rw [h1]; clear h1 h2 h3
  generalize ReadP.val_main_call2_v3 (F := F) = a0 at e0 ⊢
  (rw [unary_result, cy, cx0, e0]) <;> rfl

theorem L_main_v29 (V : Valuation τ sig (Elt F)) :
    after (ops (F := F)) V (Proc.devRef .tc main_v29) = ReadP.val_main_v29 (F := F) (V (Proc.devRef .tc main_arg0)) (V (Proc.devRef .tc main_arg2)) (V (Proc.devRef .tc main_arg3)) (V (Proc.devRef .tc main_arg8)) (V (Proc.devRef .tc main_arg9)) := by
  obtain ⟨W, h1, h2, h3⟩ := after_at (ops (F := F)) wr hwr hnd V 68 _ main_v29 rfl rfl
  have e0 := (h2 67 main_call2_v4 (by decide) rfl).trans (L_main_call2_v4 V)
  have e1 := (h2 65 main_call2_v2 (by decide) rfl).trans (L_main_call2_v2 V)
  have cy : ∀ v : (⟨S65536x44, .f32⟩ : BufTy).Contents (Elt F), ((TRef.of (T := ⟨S65536x44, .f32⟩) main_v29) : TRef sig _).toBuf v = v := fun _ => rfl
  have cx0 : ∀ u, ((TRef.of (T := ⟨S65536x44, .f32⟩) main_call2_v4) : TRef sig _).ofBuf (Val := Elt F) u = u := fun _ => rfl
  have cx1 : ∀ u, ((TRef.of (T := ⟨S65536x44, .f32⟩) main_call2_v2) : TRef sig _).ofBuf (Val := Elt F) u = u := fun _ => rfl
  unfold ReadP.val_main_v29
  rw [h1]; clear h1 h2 h3
  generalize ReadP.val_main_call2_v4 (F := F) = a0 at e0 ⊢
  generalize ReadP.val_main_call2_v2 (F := F) (V (Proc.devRef .tc main_arg0)) (V (Proc.devRef .tc main_arg2)) (V (Proc.devRef .tc main_arg3)) (V (Proc.devRef .tc main_arg8)) (V (Proc.devRef .tc main_arg9)) = a1 at e1 ⊢
  (rw [binary_result, cy, cx0, cx1, e0, e1]) <;> rfl

theorem L_main_v30 (V : Valuation τ sig (Elt F)) :
    after (ops (F := F)) V (Proc.devRef .tc main_v30) = ReadP.val_main_v30 (F := F) (V (Proc.devRef .tc main_arg2)) := by
  obtain ⟨W, h1, h2, h3⟩ := after_at (ops (F := F)) wr hwr hnd V 69 _ main_v30 rfl rfl
  have e0 := h3 main_arg2 nm_main_arg2
  unfold ReadP.val_main_v30
  rw [h1]; clear h1 h2 h3
  generalize V (Proc.devRef .tc main_arg2) = a0 at e0 ⊢
  (rw [unary_result, e0]) <;> rfl

theorem L_main_cst_6 (V : Valuation τ sig (Elt F)) :
    after (ops (F := F)) V (Proc.devRef .tc main_cst_6) = ReadP.val_main_cst_6 (F := F) := by
  obtain ⟨W, h1, h2, h3⟩ := after_at (ops (F := F)) wr hwr hnd V 70 _ main_cst_6 rfl rfl
  unfold ReadP.val_main_cst_6
  rw [h1]; clear h1 h2 h3
  (rw [nullary_result]) <;> rfl

theorem L_main_v31 (V : Valuation τ sig (Elt F)) :
    after (ops (F := F)) V (Proc.devRef .tc main_v31) = ReadP.val_main_v31 (F := F) := by
  obtain ⟨W, h1, h2, h3⟩ := after_at (ops (F := F)) wr hwr hnd V 71 _ main_v31 rfl rfl
  have e0 := (h2 70 main_cst_6 (by decide) rfl).trans (L_main_cst_6 V)
  unfold ReadP.val_main_v31
  rw [h1]; clear h1 h2 h3
  generalize ReadP.val_main_cst_6 (F := F) = a0 at e0 ⊢
  (rw [unary_result, e0]) <;> rfl

theorem L_main_v32 (V : Valuation τ sig (Elt F)) :
    after (ops (F := F)) V (Proc.devRef .tc main_v32) = ReadP.val_main_v32 (F := F) (V (Proc.devRef .tc main_arg0)) (V (Proc.devRef .tc main_arg8)) (V (Proc.devRef .tc main_arg9)) := by
  obtain ⟨W, h1, h2, h3⟩ := after_at (ops (F := F)) wr hwr hnd V 72 _ main_v32 rfl rfl
  have e0 := (h2 71 main_v31 (by decide) rfl).trans (L_main_v31 V)
  have e1 := (h2 13 main_v6 (by decide) rfl).trans (L_main_v6 V)
  unfold ReadP.val_main_v32
  rw [h1]; clear h1 h2 h3
  generalize ReadP.val_main_v31 (F := F) = a0 at e0 ⊢
  generalize ReadP.val_main_v6 (F := F) (V (Proc.devRef .tc main_arg0)) (V (Proc.devRef .tc main_arg8)) (V (Proc.devRef .tc main_arg9)) = a1 at e1 ⊢
  (rw [binary_result, e0, e1]) <;> rfl

theorem L_main_v33 (V : Valuation τ sig (Elt F)) :
    after (ops (F := F)) V (Proc.devRef .tc main_v33) = ReadP.val_main_v33 (F := F) (V (Proc.devRef .tc main_arg0)) (V (Proc.devRef .tc main_arg8)) (V (Proc.devRef .tc main_arg9)) := by
  obtain ⟨W, h1, h2, h3⟩ := after_at (ops (F := F)) wr hwr hnd V 73 _ main_v33 rfl rfl
  have e0 := (h2 72 main_v32 (by decide) rfl).trans (L_main_v32 V)
  unfold ReadP.val_main_v33
  rw [h1]; clear h1 h2 h3
  generalize ReadP.val_main_v32 (F := F) (V (Proc.devRef .tc main_arg0)) (V (Proc.devRef .tc main_arg8)) (V (Proc.devRef .tc main_arg9)) = a0 at e0 ⊢
  (rw [unary_result, e0]) <;> rfl

theorem L_main_v34 (V : Valuation τ sig (Elt F)) :
    after (ops (F := F)) V (Proc.devRef .tc main_v34) = ReadP.val_main_v34 (F := F) (V (Proc.devRef .tc main_arg0)) (V (Proc.devRef .tc main_arg2)) (V (Proc.devRef .tc main_arg8)) (V (Proc.devRef .tc main_arg9)) := by
  obtain ⟨W, h1, h2, h3⟩ := after_at (ops (F := F)) wr hwr hnd V 74 _ main_v34 rfl rfl
  have e0 := (h2 69 main_v30 (by decide) rfl).trans (L_main_v30 V)
  have e1 := (h2 73 main_v33 (by decide) rfl).trans (L_main_v33 V)
  unfold ReadP.val_main_v34
  rw [h1]; clear h1 h2 h3
  generalize ReadP.val_main_v30 (F := F) (V (Proc.devRef .tc main_arg2)) = a0 at e0 ⊢
  generalize ReadP.val_main_v33 (F := F) (V (Proc.devRef .tc main_arg0)) (V (Proc.devRef .tc main_arg8)) (V (Proc.devRef .tc main_arg9)) = a1 at e1 ⊢
  (rw [binary_result, e0, e1]) <;> rfl

theorem L_main_cst_7 (V : Valuation τ sig (Elt F)) :
    after (ops (F := F)) V (Proc.devRef .tc main_cst_7) = ReadP.val_main_cst_7 (F := F) := by
  obtain ⟨W, h1, h2, h3⟩ := after_at (ops (F := F)) wr hwr hnd V 75 _ main_cst_7 rfl rfl
  unfold ReadP.val_main_cst_7
  rw [h1]; clear h1 h2 h3
  (rw [nullary_result]) <;> rfl

theorem L_main_cst_8 (V : Valuation τ sig (Elt F)) :
    after (ops (F := F)) V (Proc.devRef .tc main_cst_8) = ReadP.val_main_cst_8 (F := F) := by
  obtain ⟨W, h1, h2, h3⟩ := after_at (ops (F := F)) wr hwr hnd V 76 _ main_cst_8 rfl rfl
  unfold ReadP.val_main_cst_8
  rw [h1]; clear h1 h2 h3
  (rw [nullary_result]) <;> rfl

theorem L_main_call3_v0 (V : Valuation τ sig (Elt F)) :
    after (ops (F := F)) V (Proc.devRef .tc main_call3_v0) = ReadP.val_main_call3_v0 (F := F) := by
  obtain ⟨W, h1, h2, h3⟩ := after_at (ops (F := F)) wr hwr hnd V 77 _ main_call3_v0 rfl rfl
  have e0 := (h2 75 main_cst_7 (by decide) rfl).trans (L_main_cst_7 V)
  have cy : ∀ v : (⟨S_, .f32⟩ : BufTy).Contents (Elt F), ((TRef.of (T := ⟨S_, .f32⟩) main_call3_v0) : TRef sig _).toBuf v = v := fun _ => rfl
  have cx0 : ∀ u, ((TRef.of (T := ⟨S_, .f32⟩) main_cst_7) : TRef sig _).ofBuf (Val := Elt F) u = u := fun _ => rfl
  unfold ReadP.val_main_call3_v0
  rw [h1]; clear h1 h2 h3
  generalize ReadP.val_main_cst_7 (F := F) = a0 at e0 ⊢
  (rw [unary_result, cy, cx0, e0]) <;> rfl

theorem L_main_call3_v1 (V : Valuation τ sig (Elt F)) :
    after (ops (F := F)) V (Proc.devRef .tc main_call3_v1) = ReadP.val_main_call3_v1 (F := F) := by
  obtain ⟨W, h1, h2, h3⟩ := after_at (ops (F := F)) wr hwr hnd V 78 _ main_call3_v1 rfl rfl
  have e0 := (h2 77 main_call3_v0 (by decide) rfl).trans (L_main_call3_v0 V)
  have cy : ∀ v : (⟨S65536x40, .f32⟩ : BufTy).Contents (Elt F), ((TRef.of (T := ⟨S65536x40, .f32⟩) main_call3_v1) : TRef sig _).toBuf v = v := fun _ => rfl
  have cx0 : ∀ u, ((TRef.of (T := ⟨S_, .f32⟩) main_call3_v0) : TRef sig _).ofBuf (Val := Elt F) u = u := fun _ => rfl
  unfold ReadP.val_main_call3_v1
  rw [h1]; clear h1 h2 h3
  generalize ReadP.val_main_call3_v0 (F := F) = a0 at e0 ⊢
  (rw [unary_result, cy, cx0, e0]) <;> rfl

theorem L_main_call3_v2 (V : Valuation τ sig (Elt F)) :
    after (ops (F := F)) V (Proc.devRef .tc main_call3_v2) = ReadP.val_main_call3_v2 (F := F) (V (Proc.devRef .tc main_arg0)) (V (Proc.devRef .tc main_arg2)) (V (Proc.devRef .tc main_arg8)) (V (Proc.devRef .tc main_arg9)) := by
  obtain ⟨W, h1, h2, h3⟩ := after_at (ops (F := F)) wr hwr hnd V 79 _ main_call3_v2 rfl rfl
  have e0 := (h2 78 main_call3_v1 (by decide) rfl).trans (L_main_call3_v1 V)
  have e1 := (h2 74 main_v34 (by decide) rfl).trans (L_main_v34 V)
  have cy : ∀ v : (⟨S65536x40, .f32⟩ : BufTy).Contents (Elt F), ((TRef.of (T := ⟨S65536x40, .f32⟩) main_call3_v2) : TRef sig _).toBuf v = v := fun _ => rfl
  have cx0 : ∀ u, ((TRef.of (T := ⟨S65536x40, .f32⟩) main_call3_v1) : TRef sig _).ofBuf (Val := Elt F) u = u := fun _ => rfl
  have cx1 : ∀ u, ((TRef.of (T := ⟨S65536x40, .f32⟩) main_v34) : TRef sig _).ofBuf (Val := Elt F) u = u := fun _ => rfl
  unfold ReadP.val_main_call3_v2
  rw [h1]; clear h1 h2 h3
  generalize ReadP.val_main_call3_v1 (F := F) = a0 at e0 ⊢
  generalize ReadP.val_main_v34 (F := F) (V (Proc.devRef .tc main_arg0)) (V (Proc.devRef .tc main_arg2)) (V (Proc.devRef .tc main_arg8)) (V (Proc.devRef .tc main_arg9)) = a1 at e1 ⊢
  (rw [binary_result, cy, cx0, cx1, e0, e1]) <;> rfl

theorem L_main_call3_v3 (V : Valuation τ sig (Elt F)) :
    after (ops (F := F)) V (Proc.devRef .tc main_call3_v3) = ReadP.val_main_call3_v3 (F := F) := by
  obtain ⟨W, h1, h2, h3⟩ := after_at (ops (F := F)) wr hwr hnd V 80 _ main_call3_v3 rfl rfl
  have e0 := (h2 76 main_cst_8 (by decide) rfl).trans (L_main_cst_8 V)
  have cy : ∀ v : (⟨S_, .f32⟩ : BufTy).Contents (Elt F), ((TRef.of (T := ⟨S_, .f32⟩) main_call3_v3) : TRef sig _).toBuf v = v := fun _ => rfl
  have cx0 : ∀ u, ((TRef.of (T := ⟨S_, .f32⟩) main_cst_8) : TRef sig _).ofBuf (Val := Elt F) u = u := fun _ => rfl
  unfold ReadP.val_main_call3_v3
  rw [h1]; clear h1 h2 h3
  generalize ReadP.val_main_cst_8 (F := F) = a0 at e0 ⊢
  (rw [unary_result, cy, cx0, e0]) <;> rfl

theorem L_main_call3_v4 (V : Valuation τ sig (Elt F)) :
    after (ops (F := F)) V (Proc.devRef .tc main_call3_v4) = ReadP.val_main_call3_v4 (F := F) := by
  obtain ⟨W, h1, h2, h3⟩ := after_at (ops (F := F)) wr hwr hnd V 81 _ main_call3_v4 rfl rfl
  have e0 := (h2 80 main_call3_v3 (by decide) rfl).trans (L_main_call3_v3 V)
  have cy : ∀ v : (⟨S65536x40, .f32⟩ : BufTy).Contents (Elt F), ((TRef.of (T := ⟨S65536x40, .f32⟩) main_call3_v4) : TRef sig _).toBuf v = v := fun _ => rfl
  have cx0 : ∀ u, ((TRef.of (T := ⟨S_, .f32⟩) main_call3_v3) : TRef sig _).ofBuf (Val := Elt F) u = u := fun _ => rfl
  unfold ReadP.val_main_call3_v4
  rw [h1]; clear h1 h2 h3
  generalize ReadP.val_main_call3_v3 (F := F) = a0 at e0 ⊢
  (rw [unary_result, cy, cx0, e0]) <;> rfl

theorem L_main_v35 (V : Valuation τ sig (Elt F)) :
    after (ops (F := F)) V (Proc.devRef .tc main_v35) = ReadP.val_main_v35 (F := F) (V (Proc.devRef .tc main_arg0)) (V (Proc.devRef .tc main_arg2)) (V (Proc.devRef .tc main_arg8)) (V (Proc.devRef .tc main_arg9)) := by
  obtain ⟨W, h1, h2, h3⟩ := after_at (ops (F := F)) wr hwr hnd V 82 _ main_v35 rfl rfl
  have e0 := (h2 81 main_call3_v4 (by decide) rfl).trans (L_main_call3_v4 V)
  have e1 := (h2 79 main_call3_v2 (by decide) rfl).trans (L_main_call3_v2 V)
  have cy : ∀ v : (⟨S65536x40, .f32⟩ : BufTy).Contents (Elt F), ((TRef.of (T := ⟨S65536x40, .f32⟩) main_v35) : TRef sig _).toBuf v = v := fun _ => rfl
  have cx0 : ∀ u, ((TRef.of (T := ⟨S65536x40, .f32⟩) main_call3_v4) : TRef sig _).ofBuf (Val := Elt F) u = u := fun _ => rfl
  have cx1 : ∀ u, ((TRef.of (T := ⟨S65536x40, .f32⟩) main_call3_v2) : TRef sig _).ofBuf (Val := Elt F) u = u := fun _ => rfl
  unfold ReadP.val_main_v35
  rw [h1]; clear h1 h2 h3
  generalize ReadP.val_main_call3_v4 (F := F) = a0 at e0 ⊢
  generalize ReadP.val_main_call3_v2 (F := F) (V (Proc.devRef .tc main_arg0)) (V (Proc.devRef .tc main_arg2)) (V (Proc.devRef .tc main_arg8)) (V (Proc.devRef .tc main_arg9)) = a1 at e1 ⊢
  (rw [binary_result, cy, cx0, cx1, e0, e1]) <;> rfl

theorem L_main_v36 (V : Valuation τ sig (Elt F)) :
    after (ops (F := F)) V (Proc.devRef .tc main_v36) = ReadP.val_main_v36 (F := F) (V (Proc.devRef .tc main_arg0)) (V (Proc.devRef .tc main_arg2)) (V (Proc.devRef .tc main_arg3)) (V (Proc.devRef .tc main_arg8)) (V (Proc.devRef .tc main_arg9)) := by
  obtain ⟨W, h1, h2, h3⟩ := after_at (ops (F := F)) wr hwr hnd V 83 _ main_v36 rfl rfl
  have e0 := (h2 7 main_v0 (by decide) rfl).trans (L_main_v0 V)
  have e1 := (h2 68 main_v29 (by decide) rfl).trans (L_main_v29 V)
  have e2 := (h2 82 main_v35 (by decide) rfl).trans (L_main_v35 V)
  unfold ReadP.val_main_v36
  rw [h1]; clear h1 h2 h3
  generalize ReadP.val_main_v0 (F := F) (V (Proc.devRef .tc main_arg0)) = a0 at e0 ⊢
  generalize ReadP.val_main_v29 (F := F) (V (Proc.devRef .tc main_arg0)) (V (Proc.devRef .tc main_arg2)) (V (Proc.devRef .tc main_arg3)) (V (Proc.devRef .tc main_arg8)) (V (Proc.devRef .tc main_arg9)) = a1 at e1 ⊢
  generalize ReadP.val_main_v35 (F := F) (V (Proc.devRef .tc main_arg0)) (V (Proc.devRef .tc main_arg2)) (V (Proc.devRef .tc main_arg8)) (V (Proc.devRef .tc main_arg9)) = a2 at e2 ⊢
  rw [nary_result]
  show concatenate S65536x164 1 [⟨S65536x80, W (Proc.devRef .tc main_v0)⟩, ⟨S65536x44, W (Proc.devRef .tc main_v29)⟩, ⟨S65536x40, W (Proc.devRef .tc main_v35)⟩] concatenates_S65536x80_S65536x44_S65536x40_S65536x164_d1 = _
  (rw [e0, e1, e2]) <;> rfl

theorem L_main_v37 (V : Valuation τ sig (Elt F)) :
    after (ops (F := F)) V (Proc.devRef .tc main_v37) = ReadP.val_main_v37 (F := F) (V (Proc.devRef .tc main_arg0)) (V (Proc.devRef .tc main_arg2)) (V (Proc.devRef .tc main_arg3)) (V (Proc.devRef .tc main_arg8)) (V (Proc.devRef .tc main_arg9)) := by
  obtain ⟨W, h1, h2, h3⟩ := after_at (ops (F := F)) wr hwr hnd V 84 _ main_v37 rfl rfl
  have e0 := (h2 68 main_v29 (by decide) rfl).trans (L_main_v29 V)
  unfold ReadP.val_main_v37
  rw [h1]; clear h1 h2 h3
  generalize ReadP.val_main_v29 (F := F) (V (Proc.devRef .tc main_arg0)) (V (Proc.devRef .tc main_arg2)) (V (Proc.devRef .tc main_arg3)) (V (Proc.devRef .tc main_arg8)) (V (Proc.devRef .tc main_arg9)) = a0 at e0 ⊢
  (rw [unary_result, e0]) <;> rfl

theorem L_main_v38 (V : Valuation τ sig (Elt F)) :
    after (ops (F := F)) V (Proc.devRef .tc main_v38) = ReadP.val_main_v38 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) := by
  obtain ⟨W, h1, h2, h3⟩ := after_at (ops (F := F)) wr hwr hnd V 85 _ main_v38 rfl rfl
  have e0 := (h2 83 main_v36 (by decide) rfl).trans (L_main_v36 V)
  have e1 := h3 main_arg7 nm_main_arg7
  unfold ReadP.val_main_v38
  rw [h1]; clear h1 h2 h3
  generalize ReadP.val_main_v36 (F := F) (V (Proc.devRef .tc main_arg0)) (V (Proc.devRef .tc main_arg2)) (V (Proc.devRef .tc main_arg3)) (V (Proc.devRef .tc main_arg8)) (V (Proc.devRef .tc main_arg9)) = a0 at e0 ⊢
  generalize V (Proc.devRef .tc main_arg7) = a1 at e1 ⊢
  (rw [binary_result, e0, e1]) <;> rfl

theorem L_main_v39 (V : Valuation τ sig (Elt F)) :
    after (ops (F := F)) V (Proc.devRef .tc main_v39) = ReadP.val_main_v39 (F := F) (V (Proc.devRef .tc main_arg10)) := by
  obtain ⟨W, h1, h2, h3⟩ := after_at (ops (F := F)) wr hwr hnd V 86 _ main_v39 rfl rfl
  have e0 := h3 main_arg10 nm_main_arg10
  unfold ReadP.val_main_v39
  rw [h1]; clear h1 h2 h3
  generalize V (Proc.devRef .tc main_arg10) = a0 at e0 ⊢
  (rw [unary_result, e0]) <;> rfl

theorem L_main_v40 (V : Valuation τ sig (Elt F)) :
    after (ops (F := F)) V (Proc.devRef .tc main_v40) = ReadP.val_main_v40 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) := by
  obtain ⟨W, h1, h2, h3⟩ := after_at (ops (F := F)) wr hwr hnd V 87 _ main_v40 rfl rfl
  have e0 := (h2 85 main_v38 (by decide) rfl).trans (L_main_v38 V)
  have e1 := (h2 86 main_v39 (by decide) rfl).trans (L_main_v39 V)
  unfold ReadP.val_main_v40
  rw [h1]; clear h1 h2 h3
  generalize ReadP.val_main_v38 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) = a0 at e0 ⊢
  generalize ReadP.val_main_v39 (F := F) (V (Proc.devRef .tc main_arg10)) = a1 at e1 ⊢
  (rw [binary_result, e0, e1]) <;> rfl

theorem L_main_v41 (V : Valuation τ sig (Elt F)) :
    after (ops (F := F)) V (Proc.devRef .tc main_v41) = ReadP.val_main_v41 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) := by
  obtain ⟨W, h1, h2, h3⟩ := after_at (ops (F := F)) wr hwr hnd V 88 _ main_v41 rfl rfl
  have e0 := (h2 87 main_v40 (by decide) rfl).trans (L_main_v40 V)
  unfold ReadP.val_main_v41
  rw [h1]; clear h1 h2 h3
  generalize ReadP.val_main_v40 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) = a0 at e0 ⊢
  (rw [unary_result, e0]) <;> rfl

theorem L_main_v42 (V : Valuation τ sig (Elt F)) :
    after (ops (F := F)) V (Proc.devRef .tc main_v42) = ReadP.val_main_v42 (F := F) (V (Proc.devRef .tc main_arg11)) := by
  obtain ⟨W, h1, h2, h3⟩ := after_at (ops (F := F)) wr hwr hnd V 89 _ main_v42 rfl rfl
  have e0 := h3 main_arg11 nm_main_arg11
  unfold ReadP.val_main_v42
  rw [h1]; clear h1 h2 h3
  generalize V (Proc.devRef .tc main_arg11) = a0 at e0 ⊢
  (rw [unary_result, e0]) <;> rfl

end Cert.ReferenceIdeal.RefRun

end
-- ==== Proof.RefRun3.lean ====
/- The reference program read back one operation at a time, operations 90 … 179 of the line: at the end of the line the
   buffer an operation writes holds the operation's function of its operands' final contents, and those are, by the
   lemmas of the earlier operations, the operands' stage functions of @main's arguments — so the buffer holds its own
   stage function `ReadP.val_<buffer>` of the arguments (its definition is that function of the operands' stages). -/
import proofs.«180642_j50062138802934_2_alg».proof.Proof.RefRun2

noncomputable section

namespace Cert.ReferenceIdeal.RefRun

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

theorem L_main_v43 (V : Valuation τ sig (Elt F)) :
    after (ops (F := F)) V (Proc.devRef .tc main_v43) = ReadP.val_main_v43 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) := by
  obtain ⟨W, h1, h2, h3⟩ := after_at (ops (F := F)) wr hwr hnd V 90 _ main_v43 rfl rfl
  have e0 := (h2 88 main_v41 (by decide) rfl).trans (L_main_v41 V)
  have e1 := (h2 89 main_v42 (by decide) rfl).trans (L_main_v42 V)
  unfold ReadP.val_main_v43
  rw [h1]; clear h1 h2 h3
  generalize ReadP.val_main_v41 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) = a0 at e0 ⊢
  generalize ReadP.val_main_v42 (F := F) (V (Proc.devRef .tc main_arg11)) = a1 at e1 ⊢
  (rw [binary_result, e0, e1]) <;> rfl

theorem L_main_v44 (V : Valuation τ sig (Elt F)) :
    after (ops (F := F)) V (Proc.devRef .tc main_v44) = ReadP.val_main_v44 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) := by
  obtain ⟨W, h1, h2, h3⟩ := after_at (ops (F := F)) wr hwr hnd V 91 _ main_v44 rfl rfl
  have e0 := (h2 90 main_v43 (by decide) rfl).trans (L_main_v43 V)
  unfold ReadP.val_main_v44
  rw [h1]; clear h1 h2 h3
  generalize ReadP.val_main_v43 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) = a0 at e0 ⊢
  (rw [unary_result, e0]) <;> rfl

theorem L_main_v45 (V : Valuation τ sig (Elt F)) :
    after (ops (F := F)) V (Proc.devRef .tc main_v45) = ReadP.val_main_v45 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) := by
  obtain ⟨W, h1, h2, h3⟩ := after_at (ops (F := F)) wr hwr hnd V 92 _ main_v45 rfl rfl
  have e0 := (h2 91 main_v44 (by decide) rfl).trans (L_main_v44 V)
  unfold ReadP.val_main_v45
  rw [h1]; clear h1 h2 h3
  generalize ReadP.val_main_v44 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) = a0 at e0 ⊢
  (rw [unary_result, e0]) <;> rfl

theorem L_main_cst_9 (V : Valuation τ sig (Elt F)) :
    after (ops (F := F)) V (Proc.devRef .tc main_cst_9) = ReadP.val_main_cst_9 (F := F) := by
  obtain ⟨W, h1, h2, h3⟩ := after_at (ops (F := F)) wr hwr hnd V 93 _ main_cst_9 rfl rfl
  unfold ReadP.val_main_cst_9
  rw [h1]; clear h1 h2 h3
  (rw [nullary_result]) <;> rfl

theorem L_main_v46 (V : Valuation τ sig (Elt F)) :
    after (ops (F := F)) V (Proc.devRef .tc main_v46) = ReadP.val_main_v46 (F := F) := by
  obtain ⟨W, h1, h2, h3⟩ := after_at (ops (F := F)) wr hwr hnd V 94 _ main_v46 rfl rfl
  have e0 := (h2 93 main_cst_9 (by decide) rfl).trans (L_main_cst_9 V)
  unfold ReadP.val_main_v46
  rw [h1]; clear h1 h2 h3
  generalize ReadP.val_main_cst_9 (F := F) = a0 at e0 ⊢
  (rw [unary_result, e0]) <;> rfl

theorem L_main_v47 (V : Valuation τ sig (Elt F)) :
    after (ops (F := F)) V (Proc.devRef .tc main_v47) = ReadP.val_main_v47 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) := by
  obtain ⟨W, h1, h2, h3⟩ := after_at (ops (F := F)) wr hwr hnd V 95 _ main_v47 rfl rfl
  have e0 := (h2 94 main_v46 (by decide) rfl).trans (L_main_v46 V)
  have e1 := (h2 92 main_v45 (by decide) rfl).trans (L_main_v45 V)
  unfold ReadP.val_main_v47
  rw [h1]; clear h1 h2 h3
  generalize ReadP.val_main_v46 (F := F) = a0 at e0 ⊢
  generalize ReadP.val_main_v45 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) = a1 at e1 ⊢
  (rw [binary_result, e0, e1]) <;> rfl

theorem L_main_cst_10 (V : Valuation τ sig (Elt F)) :
    after (ops (F := F)) V (Proc.devRef .tc main_cst_10) = ReadP.val_main_cst_10 (F := F) := by
  obtain ⟨W, h1, h2, h3⟩ := after_at (ops (F := F)) wr hwr hnd V 96 _ main_cst_10 rfl rfl
  unfold ReadP.val_main_cst_10
  rw [h1]; clear h1 h2 h3
  (rw [nullary_result]) <;> rfl

theorem L_main_v48 (V : Valuation τ sig (Elt F)) :
    after (ops (F := F)) V (Proc.devRef .tc main_v48) = ReadP.val_main_v48 (F := F) := by
  obtain ⟨W, h1, h2, h3⟩ := after_at (ops (F := F)) wr hwr hnd V 97 _ main_v48 rfl rfl
  have e0 := (h2 96 main_cst_10 (by decide) rfl).trans (L_main_cst_10 V)
  unfold ReadP.val_main_v48
  rw [h1]; clear h1 h2 h3
  generalize ReadP.val_main_cst_10 (F := F) = a0 at e0 ⊢
  (rw [unary_result, e0]) <;> rfl

theorem L_main_v49 (V : Valuation τ sig (Elt F)) :
    after (ops (F := F)) V (Proc.devRef .tc main_v49) = ReadP.val_main_v49 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) := by
  obtain ⟨W, h1, h2, h3⟩ := after_at (ops (F := F)) wr hwr hnd V 98 _ main_v49 rfl rfl
  have e0 := (h2 97 main_v48 (by decide) rfl).trans (L_main_v48 V)
  have e1 := (h2 95 main_v47 (by decide) rfl).trans (L_main_v47 V)
  unfold ReadP.val_main_v49
  rw [h1]; clear h1 h2 h3
  generalize ReadP.val_main_v48 (F := F) = a0 at e0 ⊢
  generalize ReadP.val_main_v47 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) = a1 at e1 ⊢
  (rw [binary_result, e0, e1]) <;> rfl

theorem L_main_v50 (V : Valuation τ sig (Elt F)) :
    after (ops (F := F)) V (Proc.devRef .tc main_v50) = ReadP.val_main_v50 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) := by
  obtain ⟨W, h1, h2, h3⟩ := after_at (ops (F := F)) wr hwr hnd V 99 _ main_v50 rfl rfl
  have e0 := (h2 88 main_v41 (by decide) rfl).trans (L_main_v41 V)
  have e1 := (h2 98 main_v49 (by decide) rfl).trans (L_main_v49 V)
  unfold ReadP.val_main_v50
  rw [h1]; clear h1 h2 h3
  generalize ReadP.val_main_v41 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) = a0 at e0 ⊢
  generalize ReadP.val_main_v49 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) = a1 at e1 ⊢
  (rw [binary_result, e0, e1]) <;> rfl

theorem L_main_cst_11 (V : Valuation τ sig (Elt F)) :
    after (ops (F := F)) V (Proc.devRef .tc main_cst_11) = ReadP.val_main_cst_11 (F := F) := by
  obtain ⟨W, h1, h2, h3⟩ := after_at (ops (F := F)) wr hwr hnd V 100 _ main_cst_11 rfl rfl
  unfold ReadP.val_main_cst_11
  rw [h1]; clear h1 h2 h3
  (rw [nullary_result]) <;> rfl

theorem L_main_cst_12 (V : Valuation τ sig (Elt F)) :
    after (ops (F := F)) V (Proc.devRef .tc main_cst_12) = ReadP.val_main_cst_12 (F := F) := by
  obtain ⟨W, h1, h2, h3⟩ := after_at (ops (F := F)) wr hwr hnd V 101 _ main_cst_12 rfl rfl
  unfold ReadP.val_main_cst_12
  rw [h1]; clear h1 h2 h3
  (rw [nullary_result]) <;> rfl

theorem L_main_call4_v0 (V : Valuation τ sig (Elt F)) :
    after (ops (F := F)) V (Proc.devRef .tc main_call4_v0) = ReadP.val_main_call4_v0 (F := F) := by
  obtain ⟨W, h1, h2, h3⟩ := after_at (ops (F := F)) wr hwr hnd V 102 _ main_call4_v0 rfl rfl
  have e0 := (h2 100 main_cst_11 (by decide) rfl).trans (L_main_cst_11 V)
  have cy : ∀ v : (⟨S_, .f32⟩ : BufTy).Contents (Elt F), ((TRef.of (T := ⟨S_, .f32⟩) main_call4_v0) : TRef sig _).toBuf v = v := fun _ => rfl
  have cx0 : ∀ u, ((TRef.of (T := ⟨S_, .f32⟩) main_cst_11) : TRef sig _).ofBuf (Val := Elt F) u = u := fun _ => rfl
  unfold ReadP.val_main_call4_v0
  rw [h1]; clear h1 h2 h3
  generalize ReadP.val_main_cst_11 (F := F) = a0 at e0 ⊢
  (rw [unary_result, cy, cx0, e0]) <;> rfl

theorem L_main_call4_v1 (V : Valuation τ sig (Elt F)) :
    after (ops (F := F)) V (Proc.devRef .tc main_call4_v1) = ReadP.val_main_call4_v1 (F := F) := by
  obtain ⟨W, h1, h2, h3⟩ := after_at (ops (F := F)) wr hwr hnd V 103 _ main_call4_v1 rfl rfl
  have e0 := (h2 102 main_call4_v0 (by decide) rfl).trans (L_main_call4_v0 V)
  have cy : ∀ v : (⟨S65536x192, .f32⟩ : BufTy).Contents (Elt F), ((TRef.of (T := ⟨S65536x192, .f32⟩) main_call4_v1) : TRef sig _).toBuf v = v := fun _ => rfl
  have cx0 : ∀ u, ((TRef.of (T := ⟨S_, .f32⟩) main_call4_v0) : TRef sig _).ofBuf (Val := Elt F) u = u := fun _ => rfl
  unfold ReadP.val_main_call4_v1
  rw [h1]; clear h1 h2 h3
  generalize ReadP.val_main_call4_v0 (F := F) = a0 at e0 ⊢
  (rw [unary_result, cy, cx0, e0]) <;> rfl

theorem L_main_call4_v2 (V : Valuation τ sig (Elt F)) :
    after (ops (F := F)) V (Proc.devRef .tc main_call4_v2) = ReadP.val_main_call4_v2 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) := by
  obtain ⟨W, h1, h2, h3⟩ := after_at (ops (F := F)) wr hwr hnd V 104 _ main_call4_v2 rfl rfl
  have e0 := (h2 103 main_call4_v1 (by decide) rfl).trans (L_main_call4_v1 V)
  have e1 := (h2 99 main_v50 (by decide) rfl).trans (L_main_v50 V)
  have cy : ∀ v : (⟨S65536x192, .f32⟩ : BufTy).Contents (Elt F), ((TRef.of (T := ⟨S65536x192, .f32⟩) main_call4_v2) : TRef sig _).toBuf v = v := fun _ => rfl
  have cx0 : ∀ u, ((TRef.of (T := ⟨S65536x192, .f32⟩) main_call4_v1) : TRef sig _).ofBuf (Val := Elt F) u = u := fun _ => rfl
  have cx1 : ∀ u, ((TRef.of (T := ⟨S65536x192, .f32⟩) main_v50) : TRef sig _).ofBuf (Val := Elt F) u = u := fun _ => rfl
  unfold ReadP.val_main_call4_v2
  rw [h1]; clear h1 h2 h3
  generalize ReadP.val_main_call4_v1 (F := F) = a0 at e0 ⊢
  generalize ReadP.val_main_v50 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) = a1 at e1 ⊢
  (rw [binary_result, cy, cx0, cx1, e0, e1]) <;> rfl

theorem L_main_call4_v3 (V : Valuation τ sig (Elt F)) :
    after (ops (F := F)) V (Proc.devRef .tc main_call4_v3) = ReadP.val_main_call4_v3 (F := F) := by
  obtain ⟨W, h1, h2, h3⟩ := after_at (ops (F := F)) wr hwr hnd V 105 _ main_call4_v3 rfl rfl
  have e0 := (h2 101 main_cst_12 (by decide) rfl).trans (L_main_cst_12 V)
  have cy : ∀ v : (⟨S_, .f32⟩ : BufTy).Contents (Elt F), ((TRef.of (T := ⟨S_, .f32⟩) main_call4_v3) : TRef sig _).toBuf v = v := fun _ => rfl
  have cx0 : ∀ u, ((TRef.of (T := ⟨S_, .f32⟩) main_cst_12) : TRef sig _).ofBuf (Val := Elt F) u = u := fun _ => rfl
  unfold ReadP.val_main_call4_v3
  rw [h1]; clear h1 h2 h3
  generalize ReadP.val_main_cst_12 (F := F) = a0 at e0 ⊢
  (rw [unary_result, cy, cx0, e0]) <;> rfl

theorem L_main_call4_v4 (V : Valuation τ sig (Elt F)) :
    after (ops (F := F)) V (Proc.devRef .tc main_call4_v4) = ReadP.val_main_call4_v4 (F := F) := by
  obtain ⟨W, h1, h2, h3⟩ := after_at (ops (F := F)) wr hwr hnd V 106 _ main_call4_v4 rfl rfl
  have e0 := (h2 105 main_call4_v3 (by decide) rfl).trans (L_main_call4_v3 V)
  have cy : ∀ v : (⟨S65536x192, .f32⟩ : BufTy).Contents (Elt F), ((TRef.of (T := ⟨S65536x192, .f32⟩) main_call4_v4) : TRef sig _).toBuf v = v := fun _ => rfl
  have cx0 : ∀ u, ((TRef.of (T := ⟨S_, .f32⟩) main_call4_v3) : TRef sig _).ofBuf (Val := Elt F) u = u := fun _ => rfl
  unfold ReadP.val_main_call4_v4
  rw [h1]; clear h1 h2 h3
  generalize ReadP.val_main_call4_v3 (F := F) = a0 at e0 ⊢
  (rw [unary_result, cy, cx0, e0]) <;> rfl

theorem L_main_v51 (V : Valuation τ sig (Elt F)) :
    after (ops (F := F)) V (Proc.devRef .tc main_v51) = ReadP.val_main_v51 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) := by
  obtain ⟨W, h1, h2, h3⟩ := after_at (ops (F := F)) wr hwr hnd V 107 _ main_v51 rfl rfl
  have e0 := (h2 106 main_call4_v4 (by decide) rfl).trans (L_main_call4_v4 V)
  have e1 := (h2 104 main_call4_v2 (by decide) rfl).trans (L_main_call4_v2 V)
  have cy : ∀ v : (⟨S65536x192, .f32⟩ : BufTy).Contents (Elt F), ((TRef.of (T := ⟨S65536x192, .f32⟩) main_v51) : TRef sig _).toBuf v = v := fun _ => rfl
  have cx0 : ∀ u, ((TRef.of (T := ⟨S65536x192, .f32⟩) main_call4_v4) : TRef sig _).ofBuf (Val := Elt F) u = u := fun _ => rfl
  have cx1 : ∀ u, ((TRef.of (T := ⟨S65536x192, .f32⟩) main_call4_v2) : TRef sig _).ofBuf (Val := Elt F) u = u := fun _ => rfl
  unfold ReadP.val_main_v51
  rw [h1]; clear h1 h2 h3
  generalize ReadP.val_main_call4_v4 (F := F) = a0 at e0 ⊢
  generalize ReadP.val_main_call4_v2 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) = a1 at e1 ⊢
  (rw [binary_result, cy, cx0, cx1, e0, e1]) <;> rfl

theorem L_main_v52 (V : Valuation τ sig (Elt F)) :
    after (ops (F := F)) V (Proc.devRef .tc main_v52) = ReadP.val_main_v52 (F := F) (V (Proc.devRef .tc main_arg24)) := by
  obtain ⟨W, h1, h2, h3⟩ := after_at (ops (F := F)) wr hwr hnd V 108 _ main_v52 rfl rfl
  have e0 := h3 main_arg24 nm_main_arg24
  unfold ReadP.val_main_v52
  rw [h1]; clear h1 h2 h3
  generalize V (Proc.devRef .tc main_arg24) = a0 at e0 ⊢
  (rw [unary_result, e0]) <;> rfl

theorem L_main_v53 (V : Valuation τ sig (Elt F)) :
    after (ops (F := F)) V (Proc.devRef .tc main_v53) = ReadP.val_main_v53 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) := by
  obtain ⟨W, h1, h2, h3⟩ := after_at (ops (F := F)) wr hwr hnd V 109 _ main_v53 rfl rfl
  have e0 := (h2 107 main_v51 (by decide) rfl).trans (L_main_v51 V)
  have e1 := (h2 108 main_v52 (by decide) rfl).trans (L_main_v52 V)
  unfold ReadP.val_main_v53
  rw [h1]; clear h1 h2 h3
  generalize ReadP.val_main_v51 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) = a0 at e0 ⊢
  generalize ReadP.val_main_v52 (F := F) (V (Proc.devRef .tc main_arg24)) = a1 at e1 ⊢
  (rw [binary_result, e0, e1]) <;> rfl

theorem L_main_v54 (V : Valuation τ sig (Elt F)) :
    after (ops (F := F)) V (Proc.devRef .tc main_v54) = ReadP.val_main_v54 (F := F) (V (Proc.devRef .tc main_arg25)) := by
  obtain ⟨W, h1, h2, h3⟩ := after_at (ops (F := F)) wr hwr hnd V 110 _ main_v54 rfl rfl
  have e0 := h3 main_arg25 nm_main_arg25
  unfold ReadP.val_main_v54
  rw [h1]; clear h1 h2 h3
  generalize V (Proc.devRef .tc main_arg25) = a0 at e0 ⊢
  (rw [unary_result, e0]) <;> rfl

theorem L_main_v55 (V : Valuation τ sig (Elt F)) :
    after (ops (F := F)) V (Proc.devRef .tc main_v55) = ReadP.val_main_v55 (F := F) (V (Proc.devRef .tc main_arg25)) := by
  obtain ⟨W, h1, h2, h3⟩ := after_at (ops (F := F)) wr hwr hnd V 111 _ main_v55 rfl rfl
  have e0 := (h2 110 main_v54 (by decide) rfl).trans (L_main_v54 V)
  unfold ReadP.val_main_v55
  rw [h1]; clear h1 h2 h3
  generalize ReadP.val_main_v54 (F := F) (V (Proc.devRef .tc main_arg25)) = a0 at e0 ⊢
  (rw [unary_result, e0]) <;> rfl

theorem L_main_v56 (V : Valuation τ sig (Elt F)) :
    after (ops (F := F)) V (Proc.devRef .tc main_v56) = ReadP.val_main_v56 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) := by
  obtain ⟨W, h1, h2, h3⟩ := after_at (ops (F := F)) wr hwr hnd V 112 _ main_v56 rfl rfl
  have e0 := (h2 109 main_v53 (by decide) rfl).trans (L_main_v53 V)
  have e1 := (h2 111 main_v55 (by decide) rfl).trans (L_main_v55 V)
  unfold ReadP.val_main_v56
  rw [h1]; clear h1 h2 h3
  generalize ReadP.val_main_v53 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) = a0 at e0 ⊢
  generalize ReadP.val_main_v55 (F := F) (V (Proc.devRef .tc main_arg25)) = a1 at e1 ⊢
  (rw [binary_result, e0, e1]) <;> rfl

theorem L_main_v57 (V : Valuation τ sig (Elt F)) :
    after (ops (F := F)) V (Proc.devRef .tc main_v57) = ReadP.val_main_v57 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) := by
  obtain ⟨W, h1, h2, h3⟩ := after_at (ops (F := F)) wr hwr hnd V 113 _ main_v57 rfl rfl
  have e0 := (h2 112 main_v56 (by decide) rfl).trans (L_main_v56 V)
  unfold ReadP.val_main_v57
  rw [h1]; clear h1 h2 h3
  generalize ReadP.val_main_v56 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) = a0 at e0 ⊢
  (rw [unary_result, e0]) <;> rfl

theorem L_main_v58 (V : Valuation τ sig (Elt F)) :
    after (ops (F := F)) V (Proc.devRef .tc main_v58) = ReadP.val_main_v58 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) := by
  obtain ⟨W, h1, h2, h3⟩ := after_at (ops (F := F)) wr hwr hnd V 114 _ main_v58 rfl rfl
  have e0 := (h2 113 main_v57 (by decide) rfl).trans (L_main_v57 V)
  unfold ReadP.val_main_v58
  rw [h1]; clear h1 h2 h3
  generalize ReadP.val_main_v57 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) = a0 at e0 ⊢
  (rw [unary_result, e0]) <;> rfl

theorem L_main_cst_13 (V : Valuation τ sig (Elt F)) :
    after (ops (F := F)) V (Proc.devRef .tc main_cst_13) = ReadP.val_main_cst_13 (F := F) := by
  obtain ⟨W, h1, h2, h3⟩ := after_at (ops (F := F)) wr hwr hnd V 115 _ main_cst_13 rfl rfl
  unfold ReadP.val_main_cst_13
  rw [h1]; clear h1 h2 h3
  (rw [nullary_result]) <;> rfl

theorem L_main_v59 (V : Valuation τ sig (Elt F)) :
    after (ops (F := F)) V (Proc.devRef .tc main_v59) = ReadP.val_main_v59 (F := F) := by
  obtain ⟨W, h1, h2, h3⟩ := after_at (ops (F := F)) wr hwr hnd V 116 _ main_v59 rfl rfl
  have e0 := (h2 115 main_cst_13 (by decide) rfl).trans (L_main_cst_13 V)
  unfold ReadP.val_main_v59
  rw [h1]; clear h1 h2 h3
  generalize ReadP.val_main_cst_13 (F := F) = a0 at e0 ⊢
  (rw [unary_result, e0]) <;> rfl

theorem L_main_v60 (V : Valuation τ sig (Elt F)) :
    after (ops (F := F)) V (Proc.devRef .tc main_v60) = ReadP.val_main_v60 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) := by
  obtain ⟨W, h1, h2, h3⟩ := after_at (ops (F := F)) wr hwr hnd V 117 _ main_v60 rfl rfl
  have e0 := (h2 116 main_v59 (by decide) rfl).trans (L_main_v59 V)
  have e1 := (h2 114 main_v58 (by decide) rfl).trans (L_main_v58 V)
  unfold ReadP.val_main_v60
  rw [h1]; clear h1 h2 h3
  generalize ReadP.val_main_v59 (F := F) = a0 at e0 ⊢
  generalize ReadP.val_main_v58 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) = a1 at e1 ⊢
  (rw [binary_result, e0, e1]) <;> rfl

theorem L_main_cst_14 (V : Valuation τ sig (Elt F)) :
    after (ops (F := F)) V (Proc.devRef .tc main_cst_14) = ReadP.val_main_cst_14 (F := F) := by
  obtain ⟨W, h1, h2, h3⟩ := after_at (ops (F := F)) wr hwr hnd V 118 _ main_cst_14 rfl rfl
  unfold ReadP.val_main_cst_14
  rw [h1]; clear h1 h2 h3
  (rw [nullary_result]) <;> rfl

theorem L_main_v61 (V : Valuation τ sig (Elt F)) :
    after (ops (F := F)) V (Proc.devRef .tc main_v61) = ReadP.val_main_v61 (F := F) := by
  obtain ⟨W, h1, h2, h3⟩ := after_at (ops (F := F)) wr hwr hnd V 119 _ main_v61 rfl rfl
  have e0 := (h2 118 main_cst_14 (by decide) rfl).trans (L_main_cst_14 V)
  unfold ReadP.val_main_v61
  rw [h1]; clear h1 h2 h3
  generalize ReadP.val_main_cst_14 (F := F) = a0 at e0 ⊢
  (rw [unary_result, e0]) <;> rfl

theorem L_main_v62 (V : Valuation τ sig (Elt F)) :
    after (ops (F := F)) V (Proc.devRef .tc main_v62) = ReadP.val_main_v62 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) := by
  obtain ⟨W, h1, h2, h3⟩ := after_at (ops (F := F)) wr hwr hnd V 120 _ main_v62 rfl rfl
  have e0 := (h2 119 main_v61 (by decide) rfl).trans (L_main_v61 V)
  have e1 := (h2 117 main_v60 (by decide) rfl).trans (L_main_v60 V)
  unfold ReadP.val_main_v62
  rw [h1]; clear h1 h2 h3
  generalize ReadP.val_main_v61 (F := F) = a0 at e0 ⊢
  generalize ReadP.val_main_v60 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) = a1 at e1 ⊢
  (rw [binary_result, e0, e1]) <;> rfl

theorem L_main_v63 (V : Valuation τ sig (Elt F)) :
    after (ops (F := F)) V (Proc.devRef .tc main_v63) = ReadP.val_main_v63 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) := by
  obtain ⟨W, h1, h2, h3⟩ := after_at (ops (F := F)) wr hwr hnd V 121 _ main_v63 rfl rfl
  have e0 := (h2 120 main_v62 (by decide) rfl).trans (L_main_v62 V)
  unfold ReadP.val_main_v63
  rw [h1]; clear h1 h2 h3
  generalize ReadP.val_main_v62 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) = a0 at e0 ⊢
  (rw [unary_result, e0]) <;> rfl

theorem L_main_v64 (V : Valuation τ sig (Elt F)) :
    after (ops (F := F)) V (Proc.devRef .tc main_v64) = ReadP.val_main_v64 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) := by
  obtain ⟨W, h1, h2, h3⟩ := after_at (ops (F := F)) wr hwr hnd V 122 _ main_v64 rfl rfl
  have e0 := (h2 121 main_v63 (by decide) rfl).trans (L_main_v63 V)
  unfold ReadP.val_main_v64
  rw [h1]; clear h1 h2 h3
  generalize ReadP.val_main_v63 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) = a0 at e0 ⊢
  (rw [unary_result, e0]) <;> rfl

theorem L_main_v65 (V : Valuation τ sig (Elt F)) :
    after (ops (F := F)) V (Proc.devRef .tc main_v65) = ReadP.val_main_v65 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) := by
  obtain ⟨W, h1, h2, h3⟩ := after_at (ops (F := F)) wr hwr hnd V 123 _ main_v65 rfl rfl
  have e0 := (h2 122 main_v64 (by decide) rfl).trans (L_main_v64 V)
  have e1 := (h2 84 main_v37 (by decide) rfl).trans (L_main_v37 V)
  unfold ReadP.val_main_v65
  rw [h1]; clear h1 h2 h3
  generalize ReadP.val_main_v64 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) = a0 at e0 ⊢
  generalize ReadP.val_main_v37 (F := F) (V (Proc.devRef .tc main_arg0)) (V (Proc.devRef .tc main_arg2)) (V (Proc.devRef .tc main_arg3)) (V (Proc.devRef .tc main_arg8)) (V (Proc.devRef .tc main_arg9)) = a1 at e1 ⊢
  (rw [binary_result, e0, e1]) <;> rfl

theorem L_main_v66 (V : Valuation τ sig (Elt F)) :
    after (ops (F := F)) V (Proc.devRef .tc main_v66) = ReadP.val_main_v66 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) := by
  obtain ⟨W, h1, h2, h3⟩ := after_at (ops (F := F)) wr hwr hnd V 124 _ main_v66 rfl rfl
  have e0 := (h2 107 main_v51 (by decide) rfl).trans (L_main_v51 V)
  have e1 := (h2 123 main_v65 (by decide) rfl).trans (L_main_v65 V)
  have e2 := (h2 82 main_v35 (by decide) rfl).trans (L_main_v35 V)
  unfold ReadP.val_main_v66
  rw [h1]; clear h1 h2 h3
  generalize ReadP.val_main_v51 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) = a0 at e0 ⊢
  generalize ReadP.val_main_v65 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) = a1 at e1 ⊢
  generalize ReadP.val_main_v35 (F := F) (V (Proc.devRef .tc main_arg0)) (V (Proc.devRef .tc main_arg2)) (V (Proc.devRef .tc main_arg8)) (V (Proc.devRef .tc main_arg9)) = a2 at e2 ⊢
  rw [nary_result]
  show concatenate S65536x272 1 [⟨S65536x192, W (Proc.devRef .tc main_v51)⟩, ⟨S65536x40, W (Proc.devRef .tc main_v65)⟩, ⟨S65536x40, W (Proc.devRef .tc main_v35)⟩] concatenates_S65536x192_S65536x40_S65536x40_S65536x272_d1 = _
  (rw [e0, e1, e2]) <;> rfl

theorem L_main_v67 (V : Valuation τ sig (Elt F)) :
    after (ops (F := F)) V (Proc.devRef .tc main_v67) = ReadP.val_main_v67 (F := F) (V (Proc.devRef .tc main_arg12)) := by
  obtain ⟨W, h1, h2, h3⟩ := after_at (ops (F := F)) wr hwr hnd V 125 _ main_v67 rfl rfl
  have e0 := h3 main_arg12 nm_main_arg12
  unfold ReadP.val_main_v67
  rw [h1]; clear h1 h2 h3
  generalize V (Proc.devRef .tc main_arg12) = a0 at e0 ⊢
  (rw [unary_result, e0]) <;> rfl

theorem L_main_v68 (V : Valuation τ sig (Elt F)) :
    after (ops (F := F)) V (Proc.devRef .tc main_v68) = ReadP.val_main_v68 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg24)) (V (Proc.devRef .tc main_arg25)) := by
  obtain ⟨W, h1, h2, h3⟩ := after_at (ops (F := F)) wr hwr hnd V 126 _ main_v68 rfl rfl
  have e0 := (h2 124 main_v66 (by decide) rfl).trans (L_main_v66 V)
  have e1 := (h2 125 main_v67 (by decide) rfl).trans (L_main_v67 V)
  unfold ReadP.val_main_v68
  rw [h1]; clear h1 h2 h3
  generalize ReadP.val_main_v66 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) = a0 at e0 ⊢
  generalize ReadP.val_main_v67 (F := F) (V (Proc.devRef .tc main_arg12)) = a1 at e1 ⊢
  (rw [binary_result, e0, e1]) <;> rfl

theorem L_main_v69 (V : Valuation τ sig (Elt F)) :
    after (ops (F := F)) V (Proc.devRef .tc main_v69) = ReadP.val_main_v69 (F := F) (V (Proc.devRef .tc main_arg13)) := by
  obtain ⟨W, h1, h2, h3⟩ := after_at (ops (F := F)) wr hwr hnd V 127 _ main_v69 rfl rfl
  have e0 := h3 main_arg13 nm_main_arg13
  unfold ReadP.val_main_v69
  rw [h1]; clear h1 h2 h3
  generalize V (Proc.devRef .tc main_arg13) = a0 at e0 ⊢
  (rw [unary_result, e0]) <;> rfl

theorem L_main_v70 (V : Valuation τ sig (Elt F)) :
    after (ops (F := F)) V (Proc.devRef .tc main_v70) = ReadP.val_main_v70 (F := F) (V (Proc.devRef .tc main_arg4)) (V (Proc.devRef .tc main_arg13)) := by
  obtain ⟨W, h1, h2, h3⟩ := after_at (ops (F := F)) wr hwr hnd V 128 _ main_v70 rfl rfl
  have e0 := (h2 127 main_v69 (by decide) rfl).trans (L_main_v69 V)
  have e1 := h3 main_arg4 nm_main_arg4
  unfold ReadP.val_main_v70
  rw [h1]; clear h1 h2 h3
  generalize ReadP.val_main_v69 (F := F) (V (Proc.devRef .tc main_arg13)) = a0 at e0 ⊢
  generalize V (Proc.devRef .tc main_arg4) = a1 at e1 ⊢
  (rw [binary_result, e0, e1]) <;> rfl

theorem L_main_v71 (V : Valuation τ sig (Elt F)) :
    after (ops (F := F)) V (Proc.devRef .tc main_v71) = ReadP.val_main_v71 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg24)) (V (Proc.devRef .tc main_arg25)) := by
  obtain ⟨W, h1, h2, h3⟩ := after_at (ops (F := F)) wr hwr hnd V 129 _ main_v71 rfl rfl
  have e0 := (h2 126 main_v68 (by decide) rfl).trans (L_main_v68 V)
  unfold ReadP.val_main_v71
  rw [h1]; clear h1 h2 h3
  generalize ReadP.val_main_v68 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg24)) (V (Proc.devRef .tc main_arg25)) = a0 at e0 ⊢
  (rw [unary_result, e0]) <;> rfl

theorem L_main_v72 (V : Valuation τ sig (Elt F)) :
    after (ops (F := F)) V (Proc.devRef .tc main_v72) = ReadP.val_main_v72 (F := F) (V (Proc.devRef .tc main_arg4)) (V (Proc.devRef .tc main_arg13)) := by
  obtain ⟨W, h1, h2, h3⟩ := after_at (ops (F := F)) wr hwr hnd V 130 _ main_v72 rfl rfl
  have e0 := (h2 128 main_v70 (by decide) rfl).trans (L_main_v70 V)
  unfold ReadP.val_main_v72
  rw [h1]; clear h1 h2 h3
  generalize ReadP.val_main_v70 (F := F) (V (Proc.devRef .tc main_arg4)) (V (Proc.devRef .tc main_arg13)) = a0 at e0 ⊢
  (rw [unary_result, e0]) <;> rfl

theorem L_main_v73 (V : Valuation τ sig (Elt F)) :
    after (ops (F := F)) V (Proc.devRef .tc main_v73) = ReadP.val_main_v73 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) := by
  obtain ⟨W, h1, h2, h3⟩ := after_at (ops (F := F)) wr hwr hnd V 131 _ main_v73 rfl rfl
  have e0 := (h2 129 main_v71 (by decide) rfl).trans (L_main_v71 V)
  have e1 := (h2 130 main_v72 (by decide) rfl).trans (L_main_v72 V)
  unfold ReadP.val_main_v73
  rw [h1]; clear h1 h2 h3
  generalize ReadP.val_main_v71 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg24)) (V (Proc.devRef .tc main_arg25)) = a0 at e0 ⊢
  generalize ReadP.val_main_v72 (F := F) (V (Proc.devRef .tc main_arg4)) (V (Proc.devRef .tc main_arg13)) = a1 at e1 ⊢
  (rw [binary_result, e0, e1]) <;> rfl

theorem L_main_v74 (V : Valuation τ sig (Elt F)) :
    after (ops (F := F)) V (Proc.devRef .tc main_v74) = ReadP.val_main_v74 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) := by
  obtain ⟨W, h1, h2, h3⟩ := after_at (ops (F := F)) wr hwr hnd V 132 _ main_v74 rfl rfl
  have e0 := (h2 131 main_v73 (by decide) rfl).trans (L_main_v73 V)
  unfold ReadP.val_main_v74
  rw [h1]; clear h1 h2 h3
  generalize ReadP.val_main_v73 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) = a0 at e0 ⊢
  (rw [unary_result, e0]) <;> rfl

theorem L_main_v75 (V : Valuation τ sig (Elt F)) :
    after (ops (F := F)) V (Proc.devRef .tc main_v75) = ReadP.val_main_v75 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) := by
  obtain ⟨W, h1, h2, h3⟩ := after_at (ops (F := F)) wr hwr hnd V 133 _ main_v75 rfl rfl
  have e0 := (h2 132 main_v74 (by decide) rfl).trans (L_main_v74 V)
  unfold ReadP.val_main_v75
  rw [h1]; clear h1 h2 h3
  generalize ReadP.val_main_v74 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) = a0 at e0 ⊢
  (rw [unary_result, e0]) <;> rfl

theorem L_main_cst_15 (V : Valuation τ sig (Elt F)) :
    after (ops (F := F)) V (Proc.devRef .tc main_cst_15) = ReadP.val_main_cst_15 (F := F) := by
  obtain ⟨W, h1, h2, h3⟩ := after_at (ops (F := F)) wr hwr hnd V 134 _ main_cst_15 rfl rfl
  unfold ReadP.val_main_cst_15
  rw [h1]; clear h1 h2 h3
  (rw [nullary_result]) <;> rfl

theorem L_main_v76 (V : Valuation τ sig (Elt F)) :
    after (ops (F := F)) V (Proc.devRef .tc main_v76) = ReadP.val_main_v76 (F := F) := by
  obtain ⟨W, h1, h2, h3⟩ := after_at (ops (F := F)) wr hwr hnd V 135 _ main_v76 rfl rfl
  have e0 := (h2 134 main_cst_15 (by decide) rfl).trans (L_main_cst_15 V)
  unfold ReadP.val_main_v76
  rw [h1]; clear h1 h2 h3
  generalize ReadP.val_main_cst_15 (F := F) = a0 at e0 ⊢
  (rw [unary_result, e0]) <;> rfl

theorem L_main_v77 (V : Valuation τ sig (Elt F)) :
    after (ops (F := F)) V (Proc.devRef .tc main_v77) = ReadP.val_main_v77 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) := by
  obtain ⟨W, h1, h2, h3⟩ := after_at (ops (F := F)) wr hwr hnd V 136 _ main_v77 rfl rfl
  have e0 := (h2 135 main_v76 (by decide) rfl).trans (L_main_v76 V)
  have e1 := (h2 133 main_v75 (by decide) rfl).trans (L_main_v75 V)
  unfold ReadP.val_main_v77
  rw [h1]; clear h1 h2 h3
  generalize ReadP.val_main_v76 (F := F) = a0 at e0 ⊢
  generalize ReadP.val_main_v75 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) = a1 at e1 ⊢
  (rw [binary_result, e0, e1]) <;> rfl

theorem L_main_cst_16 (V : Valuation τ sig (Elt F)) :
    after (ops (F := F)) V (Proc.devRef .tc main_cst_16) = ReadP.val_main_cst_16 (F := F) := by
  obtain ⟨W, h1, h2, h3⟩ := after_at (ops (F := F)) wr hwr hnd V 137 _ main_cst_16 rfl rfl
  unfold ReadP.val_main_cst_16
  rw [h1]; clear h1 h2 h3
  (rw [nullary_result]) <;> rfl

theorem L_main_v78 (V : Valuation τ sig (Elt F)) :
    after (ops (F := F)) V (Proc.devRef .tc main_v78) = ReadP.val_main_v78 (F := F) := by
  obtain ⟨W, h1, h2, h3⟩ := after_at (ops (F := F)) wr hwr hnd V 138 _ main_v78 rfl rfl
  have e0 := (h2 137 main_cst_16 (by decide) rfl).trans (L_main_cst_16 V)
  unfold ReadP.val_main_v78
  rw [h1]; clear h1 h2 h3
  generalize ReadP.val_main_cst_16 (F := F) = a0 at e0 ⊢
  (rw [unary_result, e0]) <;> rfl

theorem L_main_v79 (V : Valuation τ sig (Elt F)) :
    after (ops (F := F)) V (Proc.devRef .tc main_v79) = ReadP.val_main_v79 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) := by
  obtain ⟨W, h1, h2, h3⟩ := after_at (ops (F := F)) wr hwr hnd V 139 _ main_v79 rfl rfl
  have e0 := (h2 138 main_v78 (by decide) rfl).trans (L_main_v78 V)
  have e1 := (h2 136 main_v77 (by decide) rfl).trans (L_main_v77 V)
  unfold ReadP.val_main_v79
  rw [h1]; clear h1 h2 h3
  generalize ReadP.val_main_v78 (F := F) = a0 at e0 ⊢
  generalize ReadP.val_main_v77 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) = a1 at e1 ⊢
  (rw [binary_result, e0, e1]) <;> rfl

theorem L_main_v80 (V : Valuation τ sig (Elt F)) :
    after (ops (F := F)) V (Proc.devRef .tc main_v80) = ReadP.val_main_v80 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg24)) (V (Proc.devRef .tc main_arg25)) := by
  obtain ⟨W, h1, h2, h3⟩ := after_at (ops (F := F)) wr hwr hnd V 140 _ main_v80 rfl rfl
  have e0 := (h2 126 main_v68 (by decide) rfl).trans (L_main_v68 V)
  unfold ReadP.val_main_v80
  rw [h1]; clear h1 h2 h3
  generalize ReadP.val_main_v68 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg24)) (V (Proc.devRef .tc main_arg25)) = a0 at e0 ⊢
  (rw [unary_result, e0]) <;> rfl

theorem L_main_v81 (V : Valuation τ sig (Elt F)) :
    after (ops (F := F)) V (Proc.devRef .tc main_v81) = ReadP.val_main_v81 (F := F) (V (Proc.devRef .tc main_arg4)) (V (Proc.devRef .tc main_arg13)) := by
  obtain ⟨W, h1, h2, h3⟩ := after_at (ops (F := F)) wr hwr hnd V 141 _ main_v81 rfl rfl
  have e0 := (h2 128 main_v70 (by decide) rfl).trans (L_main_v70 V)
  unfold ReadP.val_main_v81
  rw [h1]; clear h1 h2 h3
  generalize ReadP.val_main_v70 (F := F) (V (Proc.devRef .tc main_arg4)) (V (Proc.devRef .tc main_arg13)) = a0 at e0 ⊢
  (rw [unary_result, e0]) <;> rfl

theorem L_main_v82 (V : Valuation τ sig (Elt F)) :
    after (ops (F := F)) V (Proc.devRef .tc main_v82) = ReadP.val_main_v82 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) := by
  obtain ⟨W, h1, h2, h3⟩ := after_at (ops (F := F)) wr hwr hnd V 142 _ main_v82 rfl rfl
  have e0 := (h2 140 main_v80 (by decide) rfl).trans (L_main_v80 V)
  have e1 := (h2 141 main_v81 (by decide) rfl).trans (L_main_v81 V)
  unfold ReadP.val_main_v82
  rw [h1]; clear h1 h2 h3
  generalize ReadP.val_main_v80 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg24)) (V (Proc.devRef .tc main_arg25)) = a0 at e0 ⊢
  generalize ReadP.val_main_v81 (F := F) (V (Proc.devRef .tc main_arg4)) (V (Proc.devRef .tc main_arg13)) = a1 at e1 ⊢
  (rw [binary_result, e0, e1]) <;> rfl

theorem L_main_v83 (V : Valuation τ sig (Elt F)) :
    after (ops (F := F)) V (Proc.devRef .tc main_v83) = ReadP.val_main_v83 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) := by
  obtain ⟨W, h1, h2, h3⟩ := after_at (ops (F := F)) wr hwr hnd V 143 _ main_v83 rfl rfl
  have e0 := (h2 142 main_v82 (by decide) rfl).trans (L_main_v82 V)
  unfold ReadP.val_main_v83
  rw [h1]; clear h1 h2 h3
  generalize ReadP.val_main_v82 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) = a0 at e0 ⊢
  (rw [unary_result, e0]) <;> rfl

theorem L_main_v84 (V : Valuation τ sig (Elt F)) :
    after (ops (F := F)) V (Proc.devRef .tc main_v84) = ReadP.val_main_v84 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) := by
  obtain ⟨W, h1, h2, h3⟩ := after_at (ops (F := F)) wr hwr hnd V 144 _ main_v84 rfl rfl
  have e0 := (h2 143 main_v83 (by decide) rfl).trans (L_main_v83 V)
  unfold ReadP.val_main_v84
  rw [h1]; clear h1 h2 h3
  generalize ReadP.val_main_v83 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) = a0 at e0 ⊢
  (rw [unary_result, e0]) <;> rfl

theorem L_main_cst_17 (V : Valuation τ sig (Elt F)) :
    after (ops (F := F)) V (Proc.devRef .tc main_cst_17) = ReadP.val_main_cst_17 (F := F) := by
  obtain ⟨W, h1, h2, h3⟩ := after_at (ops (F := F)) wr hwr hnd V 145 _ main_cst_17 rfl rfl
  unfold ReadP.val_main_cst_17
  rw [h1]; clear h1 h2 h3
  (rw [nullary_result]) <;> rfl

theorem L_main_v85 (V : Valuation τ sig (Elt F)) :
    after (ops (F := F)) V (Proc.devRef .tc main_v85) = ReadP.val_main_v85 (F := F) := by
  obtain ⟨W, h1, h2, h3⟩ := after_at (ops (F := F)) wr hwr hnd V 146 _ main_v85 rfl rfl
  have e0 := (h2 145 main_cst_17 (by decide) rfl).trans (L_main_cst_17 V)
  unfold ReadP.val_main_v85
  rw [h1]; clear h1 h2 h3
  generalize ReadP.val_main_cst_17 (F := F) = a0 at e0 ⊢
  (rw [unary_result, e0]) <;> rfl

theorem L_main_v86 (V : Valuation τ sig (Elt F)) :
    after (ops (F := F)) V (Proc.devRef .tc main_v86) = ReadP.val_main_v86 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) := by
  obtain ⟨W, h1, h2, h3⟩ := after_at (ops (F := F)) wr hwr hnd V 147 _ main_v86 rfl rfl
  have e0 := (h2 146 main_v85 (by decide) rfl).trans (L_main_v85 V)
  have e1 := (h2 144 main_v84 (by decide) rfl).trans (L_main_v84 V)
  unfold ReadP.val_main_v86
  rw [h1]; clear h1 h2 h3
  generalize ReadP.val_main_v85 (F := F) = a0 at e0 ⊢
  generalize ReadP.val_main_v84 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) = a1 at e1 ⊢
  (rw [binary_result, e0, e1]) <;> rfl

theorem L_main_cst_18 (V : Valuation τ sig (Elt F)) :
    after (ops (F := F)) V (Proc.devRef .tc main_cst_18) = ReadP.val_main_cst_18 (F := F) := by
  obtain ⟨W, h1, h2, h3⟩ := after_at (ops (F := F)) wr hwr hnd V 148 _ main_cst_18 rfl rfl
  unfold ReadP.val_main_cst_18
  rw [h1]; clear h1 h2 h3
  (rw [nullary_result]) <;> rfl

theorem L_main_v87 (V : Valuation τ sig (Elt F)) :
    after (ops (F := F)) V (Proc.devRef .tc main_v87) = ReadP.val_main_v87 (F := F) := by
  obtain ⟨W, h1, h2, h3⟩ := after_at (ops (F := F)) wr hwr hnd V 149 _ main_v87 rfl rfl
  have e0 := (h2 148 main_cst_18 (by decide) rfl).trans (L_main_cst_18 V)
  unfold ReadP.val_main_v87
  rw [h1]; clear h1 h2 h3
  generalize ReadP.val_main_cst_18 (F := F) = a0 at e0 ⊢
  (rw [unary_result, e0]) <;> rfl

theorem L_main_v88 (V : Valuation τ sig (Elt F)) :
    after (ops (F := F)) V (Proc.devRef .tc main_v88) = ReadP.val_main_v88 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) := by
  obtain ⟨W, h1, h2, h3⟩ := after_at (ops (F := F)) wr hwr hnd V 150 _ main_v88 rfl rfl
  have e0 := (h2 149 main_v87 (by decide) rfl).trans (L_main_v87 V)
  have e1 := (h2 147 main_v86 (by decide) rfl).trans (L_main_v86 V)
  unfold ReadP.val_main_v88
  rw [h1]; clear h1 h2 h3
  generalize ReadP.val_main_v87 (F := F) = a0 at e0 ⊢
  generalize ReadP.val_main_v86 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) = a1 at e1 ⊢
  (rw [binary_result, e0, e1]) <;> rfl

theorem L_main_v89 (V : Valuation τ sig (Elt F)) :
    after (ops (F := F)) V (Proc.devRef .tc main_v89) = ReadP.val_main_v89 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg24)) (V (Proc.devRef .tc main_arg25)) := by
  obtain ⟨W, h1, h2, h3⟩ := after_at (ops (F := F)) wr hwr hnd V 151 _ main_v89 rfl rfl
  have e0 := (h2 126 main_v68 (by decide) rfl).trans (L_main_v68 V)
  unfold ReadP.val_main_v89
  rw [h1]; clear h1 h2 h3
  generalize ReadP.val_main_v68 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg24)) (V (Proc.devRef .tc main_arg25)) = a0 at e0 ⊢
  (rw [unary_result, e0]) <;> rfl

theorem L_main_v90 (V : Valuation τ sig (Elt F)) :
    after (ops (F := F)) V (Proc.devRef .tc main_v90) = ReadP.val_main_v90 (F := F) (V (Proc.devRef .tc main_arg4)) (V (Proc.devRef .tc main_arg13)) := by
  obtain ⟨W, h1, h2, h3⟩ := after_at (ops (F := F)) wr hwr hnd V 152 _ main_v90 rfl rfl
  have e0 := (h2 128 main_v70 (by decide) rfl).trans (L_main_v70 V)
  unfold ReadP.val_main_v90
  rw [h1]; clear h1 h2 h3
  generalize ReadP.val_main_v70 (F := F) (V (Proc.devRef .tc main_arg4)) (V (Proc.devRef .tc main_arg13)) = a0 at e0 ⊢
  (rw [unary_result, e0]) <;> rfl

theorem L_main_v91 (V : Valuation τ sig (Elt F)) :
    after (ops (F := F)) V (Proc.devRef .tc main_v91) = ReadP.val_main_v91 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) := by
  obtain ⟨W, h1, h2, h3⟩ := after_at (ops (F := F)) wr hwr hnd V 153 _ main_v91 rfl rfl
  have e0 := (h2 139 main_v79 (by decide) rfl).trans (L_main_v79 V)
  have e1 := (h2 152 main_v90 (by decide) rfl).trans (L_main_v90 V)
  unfold ReadP.val_main_v91
  rw [h1]; clear h1 h2 h3
  generalize ReadP.val_main_v79 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) = a0 at e0 ⊢
  generalize ReadP.val_main_v90 (F := F) (V (Proc.devRef .tc main_arg4)) (V (Proc.devRef .tc main_arg13)) = a1 at e1 ⊢
  (rw [binary_result, e0, e1]) <;> rfl

theorem L_main_v92 (V : Valuation τ sig (Elt F)) :
    after (ops (F := F)) V (Proc.devRef .tc main_v92) = ReadP.val_main_v92 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) := by
  obtain ⟨W, h1, h2, h3⟩ := after_at (ops (F := F)) wr hwr hnd V 154 _ main_v92 rfl rfl
  have e0 := (h2 151 main_v89 (by decide) rfl).trans (L_main_v89 V)
  have e1 := (h2 153 main_v91 (by decide) rfl).trans (L_main_v91 V)
  unfold ReadP.val_main_v92
  rw [h1]; clear h1 h2 h3
  generalize ReadP.val_main_v89 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg24)) (V (Proc.devRef .tc main_arg25)) = a0 at e0 ⊢
  generalize ReadP.val_main_v91 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) = a1 at e1 ⊢
  (rw [binary_result, e0, e1]) <;> rfl

theorem L_main_v93 (V : Valuation τ sig (Elt F)) :
    after (ops (F := F)) V (Proc.devRef .tc main_v93) = ReadP.val_main_v93 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) := by
  obtain ⟨W, h1, h2, h3⟩ := after_at (ops (F := F)) wr hwr hnd V 155 _ main_v93 rfl rfl
  have e0 := (h2 154 main_v92 (by decide) rfl).trans (L_main_v92 V)
  unfold ReadP.val_main_v93
  rw [h1]; clear h1 h2 h3
  generalize ReadP.val_main_v92 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) = a0 at e0 ⊢
  (rw [unary_result, e0]) <;> rfl

theorem L_main_cst_19 (V : Valuation τ sig (Elt F)) :
    after (ops (F := F)) V (Proc.devRef .tc main_cst_19) = ReadP.val_main_cst_19 (F := F) := by
  obtain ⟨W, h1, h2, h3⟩ := after_at (ops (F := F)) wr hwr hnd V 156 _ main_cst_19 rfl rfl
  unfold ReadP.val_main_cst_19
  rw [h1]; clear h1 h2 h3
  (rw [nullary_result]) <;> rfl

theorem L_main_v94 (V : Valuation τ sig (Elt F)) :
    after (ops (F := F)) V (Proc.devRef .tc main_v94) = ReadP.val_main_v94 (F := F) := by
  obtain ⟨W, h1, h2, h3⟩ := after_at (ops (F := F)) wr hwr hnd V 157 _ main_v94 rfl rfl
  have e0 := (h2 156 main_cst_19 (by decide) rfl).trans (L_main_cst_19 V)
  unfold ReadP.val_main_v94
  rw [h1]; clear h1 h2 h3
  generalize ReadP.val_main_cst_19 (F := F) = a0 at e0 ⊢
  (rw [unary_result, e0]) <;> rfl

theorem L_main_v95 (V : Valuation τ sig (Elt F)) :
    after (ops (F := F)) V (Proc.devRef .tc main_v95) = ReadP.val_main_v95 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) := by
  obtain ⟨W, h1, h2, h3⟩ := after_at (ops (F := F)) wr hwr hnd V 158 _ main_v95 rfl rfl
  have e0 := (h2 157 main_v94 (by decide) rfl).trans (L_main_v94 V)
  have e1 := (h2 150 main_v88 (by decide) rfl).trans (L_main_v88 V)
  unfold ReadP.val_main_v95
  rw [h1]; clear h1 h2 h3
  generalize ReadP.val_main_v94 (F := F) = a0 at e0 ⊢
  generalize ReadP.val_main_v88 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) = a1 at e1 ⊢
  (rw [binary_result, e0, e1]) <;> rfl

theorem L_main_v96 (V : Valuation τ sig (Elt F)) :
    after (ops (F := F)) V (Proc.devRef .tc main_v96) = ReadP.val_main_v96 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) := by
  obtain ⟨W, h1, h2, h3⟩ := after_at (ops (F := F)) wr hwr hnd V 159 _ main_v96 rfl rfl
  have e0 := (h2 158 main_v95 (by decide) rfl).trans (L_main_v95 V)
  have e1 := (h2 155 main_v93 (by decide) rfl).trans (L_main_v93 V)
  unfold ReadP.val_main_v96
  rw [h1]; clear h1 h2 h3
  generalize ReadP.val_main_v95 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) = a0 at e0 ⊢
  generalize ReadP.val_main_v93 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) = a1 at e1 ⊢
  (rw [binary_result, e0, e1]) <;> rfl

theorem L_main_v97 (V : Valuation τ sig (Elt F)) :
    after (ops (F := F)) V (Proc.devRef .tc main_v97) = ReadP.val_main_v97 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) := by
  obtain ⟨W, h1, h2, h3⟩ := after_at (ops (F := F)) wr hwr hnd V 160 _ main_v97 rfl rfl
  have e0 := (h2 150 main_v88 (by decide) rfl).trans (L_main_v88 V)
  have e1 := h3 main_arg4 nm_main_arg4
  unfold ReadP.val_main_v97
  rw [h1]; clear h1 h2 h3
  generalize ReadP.val_main_v88 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) = a0 at e0 ⊢
  generalize V (Proc.devRef .tc main_arg4) = a1 at e1 ⊢
  (rw [binary_result, e0, e1]) <;> rfl

theorem L_main_v98 (V : Valuation τ sig (Elt F)) :
    after (ops (F := F)) V (Proc.devRef .tc main_v98) = ReadP.val_main_v98 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) := by
  obtain ⟨W, h1, h2, h3⟩ := after_at (ops (F := F)) wr hwr hnd V 161 _ main_v98 rfl rfl
  have e0 := (h2 159 main_v96 (by decide) rfl).trans (L_main_v96 V)
  have e1 := (h2 160 main_v97 (by decide) rfl).trans (L_main_v97 V)
  unfold ReadP.val_main_v98
  rw [h1]; clear h1 h2 h3
  generalize ReadP.val_main_v96 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) = a0 at e0 ⊢
  generalize ReadP.val_main_v97 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) = a1 at e1 ⊢
  (rw [binary_result, e0, e1]) <;> rfl

theorem L_main_cst_20 (V : Valuation τ sig (Elt F)) :
    after (ops (F := F)) V (Proc.devRef .tc main_cst_20) = ReadP.val_main_cst_20 (F := F) := by
  obtain ⟨W, h1, h2, h3⟩ := after_at (ops (F := F)) wr hwr hnd V 162 _ main_cst_20 rfl rfl
  unfold ReadP.val_main_cst_20
  rw [h1]; clear h1 h2 h3
  (rw [nullary_result]) <;> rfl

theorem L_main_cst_21 (V : Valuation τ sig (Elt F)) :
    after (ops (F := F)) V (Proc.devRef .tc main_cst_21) = ReadP.val_main_cst_21 (F := F) := by
  obtain ⟨W, h1, h2, h3⟩ := after_at (ops (F := F)) wr hwr hnd V 163 _ main_cst_21 rfl rfl
  unfold ReadP.val_main_cst_21
  rw [h1]; clear h1 h2 h3
  (rw [nullary_result]) <;> rfl

theorem L_main_call5_v0 (V : Valuation τ sig (Elt F)) :
    after (ops (F := F)) V (Proc.devRef .tc main_call5_v0) = ReadP.val_main_call5_v0 (F := F) := by
  obtain ⟨W, h1, h2, h3⟩ := after_at (ops (F := F)) wr hwr hnd V 164 _ main_call5_v0 rfl rfl
  have e0 := (h2 162 main_cst_20 (by decide) rfl).trans (L_main_cst_20 V)
  have cy : ∀ v : (⟨S_, .f32⟩ : BufTy).Contents (Elt F), ((TRef.of (T := ⟨S_, .f32⟩) main_call5_v0) : TRef sig _).toBuf v = v := fun _ => rfl
  have cx0 : ∀ u, ((TRef.of (T := ⟨S_, .f32⟩) main_cst_20) : TRef sig _).ofBuf (Val := Elt F) u = u := fun _ => rfl
  unfold ReadP.val_main_call5_v0
  rw [h1]; clear h1 h2 h3
  generalize ReadP.val_main_cst_20 (F := F) = a0 at e0 ⊢
  (rw [unary_result, cy, cx0, e0]) <;> rfl

theorem L_main_call5_v1 (V : Valuation τ sig (Elt F)) :
    after (ops (F := F)) V (Proc.devRef .tc main_call5_v1) = ReadP.val_main_call5_v1 (F := F) := by
  obtain ⟨W, h1, h2, h3⟩ := after_at (ops (F := F)) wr hwr hnd V 165 _ main_call5_v1 rfl rfl
  have e0 := (h2 164 main_call5_v0 (by decide) rfl).trans (L_main_call5_v0 V)
  have cy : ∀ v : (⟨S65536x160, .f32⟩ : BufTy).Contents (Elt F), ((TRef.of (T := ⟨S65536x160, .f32⟩) main_call5_v1) : TRef sig _).toBuf v = v := fun _ => rfl
  have cx0 : ∀ u, ((TRef.of (T := ⟨S_, .f32⟩) main_call5_v0) : TRef sig _).ofBuf (Val := Elt F) u = u := fun _ => rfl
  unfold ReadP.val_main_call5_v1
  rw [h1]; clear h1 h2 h3
  generalize ReadP.val_main_call5_v0 (F := F) = a0 at e0 ⊢
  (rw [unary_result, cy, cx0, e0]) <;> rfl

theorem L_main_call5_v2 (V : Valuation τ sig (Elt F)) :
    after (ops (F := F)) V (Proc.devRef .tc main_call5_v2) = ReadP.val_main_call5_v2 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) := by
  obtain ⟨W, h1, h2, h3⟩ := after_at (ops (F := F)) wr hwr hnd V 166 _ main_call5_v2 rfl rfl
  have e0 := (h2 165 main_call5_v1 (by decide) rfl).trans (L_main_call5_v1 V)
  have e1 := (h2 161 main_v98 (by decide) rfl).trans (L_main_v98 V)
  have cy : ∀ v : (⟨S65536x160, .f32⟩ : BufTy).Contents (Elt F), ((TRef.of (T := ⟨S65536x160, .f32⟩) main_call5_v2) : TRef sig _).toBuf v = v := fun _ => rfl
  have cx0 : ∀ u, ((TRef.of (T := ⟨S65536x160, .f32⟩) main_call5_v1) : TRef sig _).ofBuf (Val := Elt F) u = u := fun _ => rfl
  have cx1 : ∀ u, ((TRef.of (T := ⟨S65536x160, .f32⟩) main_v98) : TRef sig _).ofBuf (Val := Elt F) u = u := fun _ => rfl
  unfold ReadP.val_main_call5_v2
  rw [h1]; clear h1 h2 h3
  generalize ReadP.val_main_call5_v1 (F := F) = a0 at e0 ⊢
  generalize ReadP.val_main_v98 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) = a1 at e1 ⊢
  (rw [binary_result, cy, cx0, cx1, e0, e1]) <;> rfl

theorem L_main_call5_v3 (V : Valuation τ sig (Elt F)) :
    after (ops (F := F)) V (Proc.devRef .tc main_call5_v3) = ReadP.val_main_call5_v3 (F := F) := by
  obtain ⟨W, h1, h2, h3⟩ := after_at (ops (F := F)) wr hwr hnd V 167 _ main_call5_v3 rfl rfl
  have e0 := (h2 163 main_cst_21 (by decide) rfl).trans (L_main_cst_21 V)
  have cy : ∀ v : (⟨S_, .f32⟩ : BufTy).Contents (Elt F), ((TRef.of (T := ⟨S_, .f32⟩) main_call5_v3) : TRef sig _).toBuf v = v := fun _ => rfl
  have cx0 : ∀ u, ((TRef.of (T := ⟨S_, .f32⟩) main_cst_21) : TRef sig _).ofBuf (Val := Elt F) u = u := fun _ => rfl
  unfold ReadP.val_main_call5_v3
  rw [h1]; clear h1 h2 h3
  generalize ReadP.val_main_cst_21 (F := F) = a0 at e0 ⊢
  (rw [unary_result, cy, cx0, e0]) <;> rfl

theorem L_main_call5_v4 (V : Valuation τ sig (Elt F)) :
    after (ops (F := F)) V (Proc.devRef .tc main_call5_v4) = ReadP.val_main_call5_v4 (F := F) := by
  obtain ⟨W, h1, h2, h3⟩ := after_at (ops (F := F)) wr hwr hnd V 168 _ main_call5_v4 rfl rfl
  have e0 := (h2 167 main_call5_v3 (by decide) rfl).trans (L_main_call5_v3 V)
  have cy : ∀ v : (⟨S65536x160, .f32⟩ : BufTy).Contents (Elt F), ((TRef.of (T := ⟨S65536x160, .f32⟩) main_call5_v4) : TRef sig _).toBuf v = v := fun _ => rfl
  have cx0 : ∀ u, ((TRef.of (T := ⟨S_, .f32⟩) main_call5_v3) : TRef sig _).ofBuf (Val := Elt F) u = u := fun _ => rfl
  unfold ReadP.val_main_call5_v4
  rw [h1]; clear h1 h2 h3
  generalize ReadP.val_main_call5_v3 (F := F) = a0 at e0 ⊢
  (rw [unary_result, cy, cx0, e0]) <;> rfl

theorem L_main_v99 (V : Valuation τ sig (Elt F)) :
    after (ops (F := F)) V (Proc.devRef .tc main_v99) = ReadP.val_main_v99 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) := by
  obtain ⟨W, h1, h2, h3⟩ := after_at (ops (F := F)) wr hwr hnd V 169 _ main_v99 rfl rfl
  have e0 := (h2 168 main_call5_v4 (by decide) rfl).trans (L_main_call5_v4 V)
  have e1 := (h2 166 main_call5_v2 (by decide) rfl).trans (L_main_call5_v2 V)
  have cy : ∀ v : (⟨S65536x160, .f32⟩ : BufTy).Contents (Elt F), ((TRef.of (T := ⟨S65536x160, .f32⟩) main_v99) : TRef sig _).toBuf v = v := fun _ => rfl
  have cx0 : ∀ u, ((TRef.of (T := ⟨S65536x160, .f32⟩) main_call5_v4) : TRef sig _).ofBuf (Val := Elt F) u = u := fun _ => rfl
  have cx1 : ∀ u, ((TRef.of (T := ⟨S65536x160, .f32⟩) main_call5_v2) : TRef sig _).ofBuf (Val := Elt F) u = u := fun _ => rfl
  unfold ReadP.val_main_v99
  rw [h1]; clear h1 h2 h3
  generalize ReadP.val_main_call5_v4 (F := F) = a0 at e0 ⊢
  generalize ReadP.val_main_call5_v2 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) = a1 at e1 ⊢
  (rw [binary_result, cy, cx0, cx1, e0, e1]) <;> rfl

theorem L_main_v100 (V : Valuation τ sig (Elt F)) :
    after (ops (F := F)) V (Proc.devRef .tc main_v100) = ReadP.val_main_v100 (F := F) (V (Proc.devRef .tc main_arg18)) := by
  obtain ⟨W, h1, h2, h3⟩ := after_at (ops (F := F)) wr hwr hnd V 170 _ main_v100 rfl rfl
  have e0 := h3 main_arg18 nm_main_arg18
  unfold ReadP.val_main_v100
  rw [h1]; clear h1 h2 h3
  generalize V (Proc.devRef .tc main_arg18) = a0 at e0 ⊢
  (rw [unary_result, e0]) <;> rfl

theorem L_main_v101 (V : Valuation τ sig (Elt F)) :
    after (ops (F := F)) V (Proc.devRef .tc main_v101) = ReadP.val_main_v101 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg24)) (V (Proc.devRef .tc main_arg25)) := by
  obtain ⟨W, h1, h2, h3⟩ := after_at (ops (F := F)) wr hwr hnd V 171 _ main_v101 rfl rfl
  have e0 := (h2 169 main_v99 (by decide) rfl).trans (L_main_v99 V)
  have e1 := (h2 170 main_v100 (by decide) rfl).trans (L_main_v100 V)
  unfold ReadP.val_main_v101
  rw [h1]; clear h1 h2 h3
  generalize ReadP.val_main_v99 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) = a0 at e0 ⊢
  generalize ReadP.val_main_v100 (F := F) (V (Proc.devRef .tc main_arg18)) = a1 at e1 ⊢
  (rw [binary_result, e0, e1]) <;> rfl

theorem L_main_v102 (V : Valuation τ sig (Elt F)) :
    after (ops (F := F)) V (Proc.devRef .tc main_v102) = ReadP.val_main_v102 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg24)) (V (Proc.devRef .tc main_arg25)) := by
  obtain ⟨W, h1, h2, h3⟩ := after_at (ops (F := F)) wr hwr hnd V 172 _ main_v102 rfl rfl
  have e0 := (h2 171 main_v101 (by decide) rfl).trans (L_main_v101 V)
  unfold ReadP.val_main_v102
  rw [h1]; clear h1 h2 h3
  generalize ReadP.val_main_v101 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg24)) (V (Proc.devRef .tc main_arg25)) = a0 at e0 ⊢
  (rw [unary_result, e0]) <;> rfl

theorem L_main_v103 (V : Valuation τ sig (Elt F)) :
    after (ops (F := F)) V (Proc.devRef .tc main_v103) = ReadP.val_main_v103 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg24)) (V (Proc.devRef .tc main_arg25)) := by
  obtain ⟨W, h1, h2, h3⟩ := after_at (ops (F := F)) wr hwr hnd V 173 _ main_v103 rfl rfl
  have e0 := (h2 172 main_v102 (by decide) rfl).trans (L_main_v102 V)
  unfold ReadP.val_main_v103
  rw [h1]; clear h1 h2 h3
  generalize ReadP.val_main_v102 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg24)) (V (Proc.devRef .tc main_arg25)) = a0 at e0 ⊢
  (rw [unary_result, e0]) <;> rfl

theorem L_main_cst_22 (V : Valuation τ sig (Elt F)) :
    after (ops (F := F)) V (Proc.devRef .tc main_cst_22) = ReadP.val_main_cst_22 (F := F) := by
  obtain ⟨W, h1, h2, h3⟩ := after_at (ops (F := F)) wr hwr hnd V 174 _ main_cst_22 rfl rfl
  unfold ReadP.val_main_cst_22
  rw [h1]; clear h1 h2 h3
  (rw [nullary_result]) <;> rfl

theorem L_main_v104 (V : Valuation τ sig (Elt F)) :
    after (ops (F := F)) V (Proc.devRef .tc main_v104) = ReadP.val_main_v104 (F := F) := by
  obtain ⟨W, h1, h2, h3⟩ := after_at (ops (F := F)) wr hwr hnd V 175 _ main_v104 rfl rfl
  have e0 := (h2 174 main_cst_22 (by decide) rfl).trans (L_main_cst_22 V)
  unfold ReadP.val_main_v104
  rw [h1]; clear h1 h2 h3
  generalize ReadP.val_main_cst_22 (F := F) = a0 at e0 ⊢
  (rw [unary_result, e0]) <;> rfl

theorem L_main_v105 (V : Valuation τ sig (Elt F)) :
    after (ops (F := F)) V (Proc.devRef .tc main_v105) = ReadP.val_main_v105 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg24)) (V (Proc.devRef .tc main_arg25)) := by
  obtain ⟨W, h1, h2, h3⟩ := after_at (ops (F := F)) wr hwr hnd V 176 _ main_v105 rfl rfl
  have e0 := (h2 175 main_v104 (by decide) rfl).trans (L_main_v104 V)
  have e1 := (h2 173 main_v103 (by decide) rfl).trans (L_main_v103 V)
  unfold ReadP.val_main_v105
  rw [h1]; clear h1 h2 h3
  generalize ReadP.val_main_v104 (F := F) = a0 at e0 ⊢
  generalize ReadP.val_main_v103 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg24)) (V (Proc.devRef .tc main_arg25)) = a1 at e1 ⊢
  (rw [binary_result, e0, e1]) <;> rfl

theorem L_main_cst_23 (V : Valuation τ sig (Elt F)) :
    after (ops (F := F)) V (Proc.devRef .tc main_cst_23) = ReadP.val_main_cst_23 (F := F) := by
  obtain ⟨W, h1, h2, h3⟩ := after_at (ops (F := F)) wr hwr hnd V 177 _ main_cst_23 rfl rfl
  unfold ReadP.val_main_cst_23
  rw [h1]; clear h1 h2 h3
  (rw [nullary_result]) <;> rfl

theorem L_main_v106 (V : Valuation τ sig (Elt F)) :
    after (ops (F := F)) V (Proc.devRef .tc main_v106) = ReadP.val_main_v106 (F := F) := by
  obtain ⟨W, h1, h2, h3⟩ := after_at (ops (F := F)) wr hwr hnd V 178 _ main_v106 rfl rfl
  have e0 := (h2 177 main_cst_23 (by decide) rfl).trans (L_main_cst_23 V)
  unfold ReadP.val_main_v106
  rw [h1]; clear h1 h2 h3
  generalize ReadP.val_main_cst_23 (F := F) = a0 at e0 ⊢
  (rw [unary_result, e0]) <;> rfl

theorem L_main_v107 (V : Valuation τ sig (Elt F)) :
    after (ops (F := F)) V (Proc.devRef .tc main_v107) = ReadP.val_main_v107 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg24)) (V (Proc.devRef .tc main_arg25)) := by
  obtain ⟨W, h1, h2, h3⟩ := after_at (ops (F := F)) wr hwr hnd V 179 _ main_v107 rfl rfl
  have e0 := (h2 178 main_v106 (by decide) rfl).trans (L_main_v106 V)
  have e1 := (h2 176 main_v105 (by decide) rfl).trans (L_main_v105 V)
  unfold ReadP.val_main_v107
  rw [h1]; clear h1 h2 h3
  generalize ReadP.val_main_v106 (F := F) = a0 at e0 ⊢
  generalize ReadP.val_main_v105 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg24)) (V (Proc.devRef .tc main_arg25)) = a1 at e1 ⊢
  (rw [binary_result, e0, e1]) <;> rfl

end Cert.ReferenceIdeal.RefRun

end
-- ==== Proof.RefRun4.lean ====
/- The reference program read back one operation at a time, operations 180 … 269 of the line: at the end of the line the
   buffer an operation writes holds the operation's function of its operands' final contents, and those are, by the
   lemmas of the earlier operations, the operands' stage functions of @main's arguments — so the buffer holds its own
   stage function `ReadP.val_<buffer>` of the arguments (its definition is that function of the operands' stages). -/
import proofs.«180642_j50062138802934_2_alg».proof.Proof.RefRun3

noncomputable section

namespace Cert.ReferenceIdeal.RefRun

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

theorem L_main_v108 (V : Valuation τ sig (Elt F)) :
    after (ops (F := F)) V (Proc.devRef .tc main_v108) = ReadP.val_main_v108 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg24)) (V (Proc.devRef .tc main_arg25)) := by
  obtain ⟨W, h1, h2, h3⟩ := after_at (ops (F := F)) wr hwr hnd V 180 _ main_v108 rfl rfl
  have e0 := (h2 169 main_v99 (by decide) rfl).trans (L_main_v99 V)
  have e1 := (h2 179 main_v107 (by decide) rfl).trans (L_main_v107 V)
  unfold ReadP.val_main_v108
  rw [h1]; clear h1 h2 h3
  generalize ReadP.val_main_v99 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg24)) (V (Proc.devRef .tc main_arg25)) = a0 at e0 ⊢
  generalize ReadP.val_main_v107 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg24)) (V (Proc.devRef .tc main_arg25)) = a1 at e1 ⊢
  (rw [binary_result, e0, e1]) <;> rfl

theorem L_main_cst_24 (V : Valuation τ sig (Elt F)) :
    after (ops (F := F)) V (Proc.devRef .tc main_cst_24) = ReadP.val_main_cst_24 (F := F) := by
  obtain ⟨W, h1, h2, h3⟩ := after_at (ops (F := F)) wr hwr hnd V 181 _ main_cst_24 rfl rfl
  unfold ReadP.val_main_cst_24
  rw [h1]; clear h1 h2 h3
  (rw [nullary_result]) <;> rfl

theorem L_main_cst_25 (V : Valuation τ sig (Elt F)) :
    after (ops (F := F)) V (Proc.devRef .tc main_cst_25) = ReadP.val_main_cst_25 (F := F) := by
  obtain ⟨W, h1, h2, h3⟩ := after_at (ops (F := F)) wr hwr hnd V 182 _ main_cst_25 rfl rfl
  unfold ReadP.val_main_cst_25
  rw [h1]; clear h1 h2 h3
  (rw [nullary_result]) <;> rfl

theorem L_main_call6_v0 (V : Valuation τ sig (Elt F)) :
    after (ops (F := F)) V (Proc.devRef .tc main_call6_v0) = ReadP.val_main_call6_v0 (F := F) := by
  obtain ⟨W, h1, h2, h3⟩ := after_at (ops (F := F)) wr hwr hnd V 183 _ main_call6_v0 rfl rfl
  have e0 := (h2 181 main_cst_24 (by decide) rfl).trans (L_main_cst_24 V)
  have cy : ∀ v : (⟨S_, .f32⟩ : BufTy).Contents (Elt F), ((TRef.of (T := ⟨S_, .f32⟩) main_call6_v0) : TRef sig _).toBuf v = v := fun _ => rfl
  have cx0 : ∀ u, ((TRef.of (T := ⟨S_, .f32⟩) main_cst_24) : TRef sig _).ofBuf (Val := Elt F) u = u := fun _ => rfl
  unfold ReadP.val_main_call6_v0
  rw [h1]; clear h1 h2 h3
  generalize ReadP.val_main_cst_24 (F := F) = a0 at e0 ⊢
  (rw [unary_result, cy, cx0, e0]) <;> rfl

theorem L_main_call6_v1 (V : Valuation τ sig (Elt F)) :
    after (ops (F := F)) V (Proc.devRef .tc main_call6_v1) = ReadP.val_main_call6_v1 (F := F) := by
  obtain ⟨W, h1, h2, h3⟩ := after_at (ops (F := F)) wr hwr hnd V 184 _ main_call6_v1 rfl rfl
  have e0 := (h2 183 main_call6_v0 (by decide) rfl).trans (L_main_call6_v0 V)
  have cy : ∀ v : (⟨S65536x160, .f32⟩ : BufTy).Contents (Elt F), ((TRef.of (T := ⟨S65536x160, .f32⟩) main_call6_v1) : TRef sig _).toBuf v = v := fun _ => rfl
  have cx0 : ∀ u, ((TRef.of (T := ⟨S_, .f32⟩) main_call6_v0) : TRef sig _).ofBuf (Val := Elt F) u = u := fun _ => rfl
  unfold ReadP.val_main_call6_v1
  rw [h1]; clear h1 h2 h3
  generalize ReadP.val_main_call6_v0 (F := F) = a0 at e0 ⊢
  (rw [unary_result, cy, cx0, e0]) <;> rfl

theorem L_main_call6_v2 (V : Valuation τ sig (Elt F)) :
    after (ops (F := F)) V (Proc.devRef .tc main_call6_v2) = ReadP.val_main_call6_v2 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg24)) (V (Proc.devRef .tc main_arg25)) := by
  obtain ⟨W, h1, h2, h3⟩ := after_at (ops (F := F)) wr hwr hnd V 185 _ main_call6_v2 rfl rfl
  have e0 := (h2 184 main_call6_v1 (by decide) rfl).trans (L_main_call6_v1 V)
  have e1 := (h2 180 main_v108 (by decide) rfl).trans (L_main_v108 V)
  have cy : ∀ v : (⟨S65536x160, .f32⟩ : BufTy).Contents (Elt F), ((TRef.of (T := ⟨S65536x160, .f32⟩) main_call6_v2) : TRef sig _).toBuf v = v := fun _ => rfl
  have cx0 : ∀ u, ((TRef.of (T := ⟨S65536x160, .f32⟩) main_call6_v1) : TRef sig _).ofBuf (Val := Elt F) u = u := fun _ => rfl
  have cx1 : ∀ u, ((TRef.of (T := ⟨S65536x160, .f32⟩) main_v108) : TRef sig _).ofBuf (Val := Elt F) u = u := fun _ => rfl
  unfold ReadP.val_main_call6_v2
  rw [h1]; clear h1 h2 h3
  generalize ReadP.val_main_call6_v1 (F := F) = a0 at e0 ⊢
  generalize ReadP.val_main_v108 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg24)) (V (Proc.devRef .tc main_arg25)) = a1 at e1 ⊢
  (rw [binary_result, cy, cx0, cx1, e0, e1]) <;> rfl

theorem L_main_call6_v3 (V : Valuation τ sig (Elt F)) :
    after (ops (F := F)) V (Proc.devRef .tc main_call6_v3) = ReadP.val_main_call6_v3 (F := F) := by
  obtain ⟨W, h1, h2, h3⟩ := after_at (ops (F := F)) wr hwr hnd V 186 _ main_call6_v3 rfl rfl
  have e0 := (h2 182 main_cst_25 (by decide) rfl).trans (L_main_cst_25 V)
  have cy : ∀ v : (⟨S_, .f32⟩ : BufTy).Contents (Elt F), ((TRef.of (T := ⟨S_, .f32⟩) main_call6_v3) : TRef sig _).toBuf v = v := fun _ => rfl
  have cx0 : ∀ u, ((TRef.of (T := ⟨S_, .f32⟩) main_cst_25) : TRef sig _).ofBuf (Val := Elt F) u = u := fun _ => rfl
  unfold ReadP.val_main_call6_v3
  rw [h1]; clear h1 h2 h3
  generalize ReadP.val_main_cst_25 (F := F) = a0 at e0 ⊢
  (rw [unary_result, cy, cx0, e0]) <;> rfl

theorem L_main_call6_v4 (V : Valuation τ sig (Elt F)) :
    after (ops (F := F)) V (Proc.devRef .tc main_call6_v4) = ReadP.val_main_call6_v4 (F := F) := by
  obtain ⟨W, h1, h2, h3⟩ := after_at (ops (F := F)) wr hwr hnd V 187 _ main_call6_v4 rfl rfl
  have e0 := (h2 186 main_call6_v3 (by decide) rfl).trans (L_main_call6_v3 V)
  have cy : ∀ v : (⟨S65536x160, .f32⟩ : BufTy).Contents (Elt F), ((TRef.of (T := ⟨S65536x160, .f32⟩) main_call6_v4) : TRef sig _).toBuf v = v := fun _ => rfl
  have cx0 : ∀ u, ((TRef.of (T := ⟨S_, .f32⟩) main_call6_v3) : TRef sig _).ofBuf (Val := Elt F) u = u := fun _ => rfl
  unfold ReadP.val_main_call6_v4
  rw [h1]; clear h1 h2 h3
  generalize ReadP.val_main_call6_v3 (F := F) = a0 at e0 ⊢
  (rw [unary_result, cy, cx0, e0]) <;> rfl

theorem L_main_v109 (V : Valuation τ sig (Elt F)) :
    after (ops (F := F)) V (Proc.devRef .tc main_v109) = ReadP.val_main_v109 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg24)) (V (Proc.devRef .tc main_arg25)) := by
  obtain ⟨W, h1, h2, h3⟩ := after_at (ops (F := F)) wr hwr hnd V 188 _ main_v109 rfl rfl
  have e0 := (h2 187 main_call6_v4 (by decide) rfl).trans (L_main_call6_v4 V)
  have e1 := (h2 185 main_call6_v2 (by decide) rfl).trans (L_main_call6_v2 V)
  have cy : ∀ v : (⟨S65536x160, .f32⟩ : BufTy).Contents (Elt F), ((TRef.of (T := ⟨S65536x160, .f32⟩) main_v109) : TRef sig _).toBuf v = v := fun _ => rfl
  have cx0 : ∀ u, ((TRef.of (T := ⟨S65536x160, .f32⟩) main_call6_v4) : TRef sig _).ofBuf (Val := Elt F) u = u := fun _ => rfl
  have cx1 : ∀ u, ((TRef.of (T := ⟨S65536x160, .f32⟩) main_call6_v2) : TRef sig _).ofBuf (Val := Elt F) u = u := fun _ => rfl
  unfold ReadP.val_main_v109
  rw [h1]; clear h1 h2 h3
  generalize ReadP.val_main_call6_v4 (F := F) = a0 at e0 ⊢
  generalize ReadP.val_main_call6_v2 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg24)) (V (Proc.devRef .tc main_arg25)) = a1 at e1 ⊢
  (rw [binary_result, cy, cx0, cx1, e0, e1]) <;> rfl

theorem L_main_v110 (V : Valuation τ sig (Elt F)) :
    after (ops (F := F)) V (Proc.devRef .tc main_v110) = ReadP.val_main_v110 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) := by
  obtain ⟨W, h1, h2, h3⟩ := after_at (ops (F := F)) wr hwr hnd V 189 _ main_v110 rfl rfl
  have e0 := (h2 120 main_v62 (by decide) rfl).trans (L_main_v62 V)
  unfold ReadP.val_main_v110
  rw [h1]; clear h1 h2 h3
  generalize ReadP.val_main_v62 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) = a0 at e0 ⊢
  (rw [unary_result, e0]) <;> rfl

theorem L_main_v111 (V : Valuation τ sig (Elt F)) :
    after (ops (F := F)) V (Proc.devRef .tc main_v111) = ReadP.val_main_v111 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) := by
  obtain ⟨W, h1, h2, h3⟩ := after_at (ops (F := F)) wr hwr hnd V 190 _ main_v111 rfl rfl
  have e0 := (h2 189 main_v110 (by decide) rfl).trans (L_main_v110 V)
  unfold ReadP.val_main_v111
  rw [h1]; clear h1 h2 h3
  generalize ReadP.val_main_v110 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) = a0 at e0 ⊢
  (rw [unary_result, e0]) <;> rfl

theorem L_main_v112 (V : Valuation τ sig (Elt F)) :
    after (ops (F := F)) V (Proc.devRef .tc main_v112) = ReadP.val_main_v112 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) := by
  obtain ⟨W, h1, h2, h3⟩ := after_at (ops (F := F)) wr hwr hnd V 191 _ main_v112 rfl rfl
  have e0 := (h2 190 main_v111 (by decide) rfl).trans (L_main_v111 V)
  have e1 := (h2 84 main_v37 (by decide) rfl).trans (L_main_v37 V)
  unfold ReadP.val_main_v112
  rw [h1]; clear h1 h2 h3
  generalize ReadP.val_main_v111 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) = a0 at e0 ⊢
  generalize ReadP.val_main_v37 (F := F) (V (Proc.devRef .tc main_arg0)) (V (Proc.devRef .tc main_arg2)) (V (Proc.devRef .tc main_arg3)) (V (Proc.devRef .tc main_arg8)) (V (Proc.devRef .tc main_arg9)) = a1 at e1 ⊢
  (rw [binary_result, e0, e1]) <;> rfl

theorem L_main_v113 (V : Valuation τ sig (Elt F)) :
    after (ops (F := F)) V (Proc.devRef .tc main_v113) = ReadP.val_main_v113 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg24)) (V (Proc.devRef .tc main_arg25)) := by
  obtain ⟨W, h1, h2, h3⟩ := after_at (ops (F := F)) wr hwr hnd V 192 _ main_v113 rfl rfl
  have e0 := (h2 188 main_v109 (by decide) rfl).trans (L_main_v109 V)
  have e1 := (h2 191 main_v112 (by decide) rfl).trans (L_main_v112 V)
  have e2 := (h2 82 main_v35 (by decide) rfl).trans (L_main_v35 V)
  unfold ReadP.val_main_v113
  rw [h1]; clear h1 h2 h3
  generalize ReadP.val_main_v109 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg24)) (V (Proc.devRef .tc main_arg25)) = a0 at e0 ⊢
  generalize ReadP.val_main_v112 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) = a1 at e1 ⊢
  generalize ReadP.val_main_v35 (F := F) (V (Proc.devRef .tc main_arg0)) (V (Proc.devRef .tc main_arg2)) (V (Proc.devRef .tc main_arg8)) (V (Proc.devRef .tc main_arg9)) = a2 at e2 ⊢
  rw [nary_result]
  show concatenate S65536x240 1 [⟨S65536x160, W (Proc.devRef .tc main_v109)⟩, ⟨S65536x40, W (Proc.devRef .tc main_v112)⟩, ⟨S65536x40, W (Proc.devRef .tc main_v35)⟩] concatenates_S65536x160_S65536x40_S65536x40_S65536x240_d1 = _
  (rw [e0, e1, e2]) <;> rfl

theorem L_main_v114 (V : Valuation τ sig (Elt F)) :
    after (ops (F := F)) V (Proc.devRef .tc main_v114) = ReadP.val_main_v114 (F := F) (V (Proc.devRef .tc main_arg14)) := by
  obtain ⟨W, h1, h2, h3⟩ := after_at (ops (F := F)) wr hwr hnd V 193 _ main_v114 rfl rfl
  have e0 := h3 main_arg14 nm_main_arg14
  unfold ReadP.val_main_v114
  rw [h1]; clear h1 h2 h3
  generalize V (Proc.devRef .tc main_arg14) = a0 at e0 ⊢
  (rw [unary_result, e0]) <;> rfl

theorem L_main_v115 (V : Valuation τ sig (Elt F)) :
    after (ops (F := F)) V (Proc.devRef .tc main_v115) = ReadP.val_main_v115 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg18)) (V (Proc.devRef .tc main_arg24)) (V (Proc.devRef .tc main_arg25)) := by
  obtain ⟨W, h1, h2, h3⟩ := after_at (ops (F := F)) wr hwr hnd V 194 _ main_v115 rfl rfl
  have e0 := (h2 192 main_v113 (by decide) rfl).trans (L_main_v113 V)
  have e1 := (h2 193 main_v114 (by decide) rfl).trans (L_main_v114 V)
  unfold ReadP.val_main_v115
  rw [h1]; clear h1 h2 h3
  generalize ReadP.val_main_v113 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg24)) (V (Proc.devRef .tc main_arg25)) = a0 at e0 ⊢
  generalize ReadP.val_main_v114 (F := F) (V (Proc.devRef .tc main_arg14)) = a1 at e1 ⊢
  (rw [binary_result, e0, e1]) <;> rfl

theorem L_main_v116 (V : Valuation τ sig (Elt F)) :
    after (ops (F := F)) V (Proc.devRef .tc main_v116) = ReadP.val_main_v116 (F := F) (V (Proc.devRef .tc main_arg15)) := by
  obtain ⟨W, h1, h2, h3⟩ := after_at (ops (F := F)) wr hwr hnd V 195 _ main_v116 rfl rfl
  have e0 := h3 main_arg15 nm_main_arg15
  unfold ReadP.val_main_v116
  rw [h1]; clear h1 h2 h3
  generalize V (Proc.devRef .tc main_arg15) = a0 at e0 ⊢
  (rw [unary_result, e0]) <;> rfl

theorem L_main_v117 (V : Valuation τ sig (Elt F)) :
    after (ops (F := F)) V (Proc.devRef .tc main_v117) = ReadP.val_main_v117 (F := F) (V (Proc.devRef .tc main_arg5)) (V (Proc.devRef .tc main_arg15)) := by
  obtain ⟨W, h1, h2, h3⟩ := after_at (ops (F := F)) wr hwr hnd V 196 _ main_v117 rfl rfl
  have e0 := (h2 195 main_v116 (by decide) rfl).trans (L_main_v116 V)
  have e1 := h3 main_arg5 nm_main_arg5
  unfold ReadP.val_main_v117
  rw [h1]; clear h1 h2 h3
  generalize ReadP.val_main_v116 (F := F) (V (Proc.devRef .tc main_arg15)) = a0 at e0 ⊢
  generalize V (Proc.devRef .tc main_arg5) = a1 at e1 ⊢
  (rw [binary_result, e0, e1]) <;> rfl

theorem L_main_v118 (V : Valuation τ sig (Elt F)) :
    after (ops (F := F)) V (Proc.devRef .tc main_v118) = ReadP.val_main_v118 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg18)) (V (Proc.devRef .tc main_arg24)) (V (Proc.devRef .tc main_arg25)) := by
  obtain ⟨W, h1, h2, h3⟩ := after_at (ops (F := F)) wr hwr hnd V 197 _ main_v118 rfl rfl
  have e0 := (h2 194 main_v115 (by decide) rfl).trans (L_main_v115 V)
  unfold ReadP.val_main_v118
  rw [h1]; clear h1 h2 h3
  generalize ReadP.val_main_v115 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg18)) (V (Proc.devRef .tc main_arg24)) (V (Proc.devRef .tc main_arg25)) = a0 at e0 ⊢
  (rw [unary_result, e0]) <;> rfl

theorem L_main_v119 (V : Valuation τ sig (Elt F)) :
    after (ops (F := F)) V (Proc.devRef .tc main_v119) = ReadP.val_main_v119 (F := F) (V (Proc.devRef .tc main_arg5)) (V (Proc.devRef .tc main_arg15)) := by
  obtain ⟨W, h1, h2, h3⟩ := after_at (ops (F := F)) wr hwr hnd V 198 _ main_v119 rfl rfl
  have e0 := (h2 196 main_v117 (by decide) rfl).trans (L_main_v117 V)
  unfold ReadP.val_main_v119
  rw [h1]; clear h1 h2 h3
  generalize ReadP.val_main_v117 (F := F) (V (Proc.devRef .tc main_arg5)) (V (Proc.devRef .tc main_arg15)) = a0 at e0 ⊢
  (rw [unary_result, e0]) <;> rfl

theorem L_main_v120 (V : Valuation τ sig (Elt F)) :
    after (ops (F := F)) V (Proc.devRef .tc main_v120) = ReadP.val_main_v120 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) := by
  obtain ⟨W, h1, h2, h3⟩ := after_at (ops (F := F)) wr hwr hnd V 199 _ main_v120 rfl rfl
  have e0 := (h2 197 main_v118 (by decide) rfl).trans (L_main_v118 V)
  have e1 := (h2 198 main_v119 (by decide) rfl).trans (L_main_v119 V)
  unfold ReadP.val_main_v120
  rw [h1]; clear h1 h2 h3
  generalize ReadP.val_main_v118 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg18)) (V (Proc.devRef .tc main_arg24)) (V (Proc.devRef .tc main_arg25)) = a0 at e0 ⊢
  generalize ReadP.val_main_v119 (F := F) (V (Proc.devRef .tc main_arg5)) (V (Proc.devRef .tc main_arg15)) = a1 at e1 ⊢
  (rw [binary_result, e0, e1]) <;> rfl

theorem L_main_v121 (V : Valuation τ sig (Elt F)) :
    after (ops (F := F)) V (Proc.devRef .tc main_v121) = ReadP.val_main_v121 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) := by
  obtain ⟨W, h1, h2, h3⟩ := after_at (ops (F := F)) wr hwr hnd V 200 _ main_v121 rfl rfl
  have e0 := (h2 199 main_v120 (by decide) rfl).trans (L_main_v120 V)
  unfold ReadP.val_main_v121
  rw [h1]; clear h1 h2 h3
  generalize ReadP.val_main_v120 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) = a0 at e0 ⊢
  (rw [unary_result, e0]) <;> rfl

theorem L_main_v122 (V : Valuation τ sig (Elt F)) :
    after (ops (F := F)) V (Proc.devRef .tc main_v122) = ReadP.val_main_v122 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) := by
  obtain ⟨W, h1, h2, h3⟩ := after_at (ops (F := F)) wr hwr hnd V 201 _ main_v122 rfl rfl
  have e0 := (h2 200 main_v121 (by decide) rfl).trans (L_main_v121 V)
  unfold ReadP.val_main_v122
  rw [h1]; clear h1 h2 h3
  generalize ReadP.val_main_v121 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) = a0 at e0 ⊢
  (rw [unary_result, e0]) <;> rfl

theorem L_main_cst_26 (V : Valuation τ sig (Elt F)) :
    after (ops (F := F)) V (Proc.devRef .tc main_cst_26) = ReadP.val_main_cst_26 (F := F) := by
  obtain ⟨W, h1, h2, h3⟩ := after_at (ops (F := F)) wr hwr hnd V 202 _ main_cst_26 rfl rfl
  unfold ReadP.val_main_cst_26
  rw [h1]; clear h1 h2 h3
  (rw [nullary_result]) <;> rfl

theorem L_main_v123 (V : Valuation τ sig (Elt F)) :
    after (ops (F := F)) V (Proc.devRef .tc main_v123) = ReadP.val_main_v123 (F := F) := by
  obtain ⟨W, h1, h2, h3⟩ := after_at (ops (F := F)) wr hwr hnd V 203 _ main_v123 rfl rfl
  have e0 := (h2 202 main_cst_26 (by decide) rfl).trans (L_main_cst_26 V)
  unfold ReadP.val_main_v123
  rw [h1]; clear h1 h2 h3
  generalize ReadP.val_main_cst_26 (F := F) = a0 at e0 ⊢
  (rw [unary_result, e0]) <;> rfl

theorem L_main_v124 (V : Valuation τ sig (Elt F)) :
    after (ops (F := F)) V (Proc.devRef .tc main_v124) = ReadP.val_main_v124 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) := by
  obtain ⟨W, h1, h2, h3⟩ := after_at (ops (F := F)) wr hwr hnd V 204 _ main_v124 rfl rfl
  have e0 := (h2 203 main_v123 (by decide) rfl).trans (L_main_v123 V)
  have e1 := (h2 201 main_v122 (by decide) rfl).trans (L_main_v122 V)
  unfold ReadP.val_main_v124
  rw [h1]; clear h1 h2 h3
  generalize ReadP.val_main_v123 (F := F) = a0 at e0 ⊢
  generalize ReadP.val_main_v122 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) = a1 at e1 ⊢
  (rw [binary_result, e0, e1]) <;> rfl

theorem L_main_cst_27 (V : Valuation τ sig (Elt F)) :
    after (ops (F := F)) V (Proc.devRef .tc main_cst_27) = ReadP.val_main_cst_27 (F := F) := by
  obtain ⟨W, h1, h2, h3⟩ := after_at (ops (F := F)) wr hwr hnd V 205 _ main_cst_27 rfl rfl
  unfold ReadP.val_main_cst_27
  rw [h1]; clear h1 h2 h3
  (rw [nullary_result]) <;> rfl

theorem L_main_v125 (V : Valuation τ sig (Elt F)) :
    after (ops (F := F)) V (Proc.devRef .tc main_v125) = ReadP.val_main_v125 (F := F) := by
  obtain ⟨W, h1, h2, h3⟩ := after_at (ops (F := F)) wr hwr hnd V 206 _ main_v125 rfl rfl
  have e0 := (h2 205 main_cst_27 (by decide) rfl).trans (L_main_cst_27 V)
  unfold ReadP.val_main_v125
  rw [h1]; clear h1 h2 h3
  generalize ReadP.val_main_cst_27 (F := F) = a0 at e0 ⊢
  (rw [unary_result, e0]) <;> rfl

theorem L_main_v126 (V : Valuation τ sig (Elt F)) :
    after (ops (F := F)) V (Proc.devRef .tc main_v126) = ReadP.val_main_v126 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) := by
  obtain ⟨W, h1, h2, h3⟩ := after_at (ops (F := F)) wr hwr hnd V 207 _ main_v126 rfl rfl
  have e0 := (h2 206 main_v125 (by decide) rfl).trans (L_main_v125 V)
  have e1 := (h2 204 main_v124 (by decide) rfl).trans (L_main_v124 V)
  unfold ReadP.val_main_v126
  rw [h1]; clear h1 h2 h3
  generalize ReadP.val_main_v125 (F := F) = a0 at e0 ⊢
  generalize ReadP.val_main_v124 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) = a1 at e1 ⊢
  (rw [binary_result, e0, e1]) <;> rfl

theorem L_main_v127 (V : Valuation τ sig (Elt F)) :
    after (ops (F := F)) V (Proc.devRef .tc main_v127) = ReadP.val_main_v127 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg18)) (V (Proc.devRef .tc main_arg24)) (V (Proc.devRef .tc main_arg25)) := by
  obtain ⟨W, h1, h2, h3⟩ := after_at (ops (F := F)) wr hwr hnd V 208 _ main_v127 rfl rfl
  have e0 := (h2 194 main_v115 (by decide) rfl).trans (L_main_v115 V)
  unfold ReadP.val_main_v127
  rw [h1]; clear h1 h2 h3
  generalize ReadP.val_main_v115 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg18)) (V (Proc.devRef .tc main_arg24)) (V (Proc.devRef .tc main_arg25)) = a0 at e0 ⊢
  (rw [unary_result, e0]) <;> rfl

theorem L_main_v128 (V : Valuation τ sig (Elt F)) :
    after (ops (F := F)) V (Proc.devRef .tc main_v128) = ReadP.val_main_v128 (F := F) (V (Proc.devRef .tc main_arg5)) (V (Proc.devRef .tc main_arg15)) := by
  obtain ⟨W, h1, h2, h3⟩ := after_at (ops (F := F)) wr hwr hnd V 209 _ main_v128 rfl rfl
  have e0 := (h2 196 main_v117 (by decide) rfl).trans (L_main_v117 V)
  unfold ReadP.val_main_v128
  rw [h1]; clear h1 h2 h3
  generalize ReadP.val_main_v117 (F := F) (V (Proc.devRef .tc main_arg5)) (V (Proc.devRef .tc main_arg15)) = a0 at e0 ⊢
  (rw [unary_result, e0]) <;> rfl

theorem L_main_v129 (V : Valuation τ sig (Elt F)) :
    after (ops (F := F)) V (Proc.devRef .tc main_v129) = ReadP.val_main_v129 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) := by
  obtain ⟨W, h1, h2, h3⟩ := after_at (ops (F := F)) wr hwr hnd V 210 _ main_v129 rfl rfl
  have e0 := (h2 208 main_v127 (by decide) rfl).trans (L_main_v127 V)
  have e1 := (h2 209 main_v128 (by decide) rfl).trans (L_main_v128 V)
  unfold ReadP.val_main_v129
  rw [h1]; clear h1 h2 h3
  generalize ReadP.val_main_v127 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg18)) (V (Proc.devRef .tc main_arg24)) (V (Proc.devRef .tc main_arg25)) = a0 at e0 ⊢
  generalize ReadP.val_main_v128 (F := F) (V (Proc.devRef .tc main_arg5)) (V (Proc.devRef .tc main_arg15)) = a1 at e1 ⊢
  (rw [binary_result, e0, e1]) <;> rfl

theorem L_main_v130 (V : Valuation τ sig (Elt F)) :
    after (ops (F := F)) V (Proc.devRef .tc main_v130) = ReadP.val_main_v130 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) := by
  obtain ⟨W, h1, h2, h3⟩ := after_at (ops (F := F)) wr hwr hnd V 211 _ main_v130 rfl rfl
  have e0 := (h2 210 main_v129 (by decide) rfl).trans (L_main_v129 V)
  unfold ReadP.val_main_v130
  rw [h1]; clear h1 h2 h3
  generalize ReadP.val_main_v129 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) = a0 at e0 ⊢
  (rw [unary_result, e0]) <;> rfl

theorem L_main_v131 (V : Valuation τ sig (Elt F)) :
    after (ops (F := F)) V (Proc.devRef .tc main_v131) = ReadP.val_main_v131 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) := by
  obtain ⟨W, h1, h2, h3⟩ := after_at (ops (F := F)) wr hwr hnd V 212 _ main_v131 rfl rfl
  have e0 := (h2 211 main_v130 (by decide) rfl).trans (L_main_v130 V)
  unfold ReadP.val_main_v131
  rw [h1]; clear h1 h2 h3
  generalize ReadP.val_main_v130 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) = a0 at e0 ⊢
  (rw [unary_result, e0]) <;> rfl

theorem L_main_cst_28 (V : Valuation τ sig (Elt F)) :
    after (ops (F := F)) V (Proc.devRef .tc main_cst_28) = ReadP.val_main_cst_28 (F := F) := by
  obtain ⟨W, h1, h2, h3⟩ := after_at (ops (F := F)) wr hwr hnd V 213 _ main_cst_28 rfl rfl
  unfold ReadP.val_main_cst_28
  rw [h1]; clear h1 h2 h3
  (rw [nullary_result]) <;> rfl

theorem L_main_v132 (V : Valuation τ sig (Elt F)) :
    after (ops (F := F)) V (Proc.devRef .tc main_v132) = ReadP.val_main_v132 (F := F) := by
  obtain ⟨W, h1, h2, h3⟩ := after_at (ops (F := F)) wr hwr hnd V 214 _ main_v132 rfl rfl
  have e0 := (h2 213 main_cst_28 (by decide) rfl).trans (L_main_cst_28 V)
  unfold ReadP.val_main_v132
  rw [h1]; clear h1 h2 h3
  generalize ReadP.val_main_cst_28 (F := F) = a0 at e0 ⊢
  (rw [unary_result, e0]) <;> rfl

theorem L_main_v133 (V : Valuation τ sig (Elt F)) :
    after (ops (F := F)) V (Proc.devRef .tc main_v133) = ReadP.val_main_v133 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) := by
  obtain ⟨W, h1, h2, h3⟩ := after_at (ops (F := F)) wr hwr hnd V 215 _ main_v133 rfl rfl
  have e0 := (h2 214 main_v132 (by decide) rfl).trans (L_main_v132 V)
  have e1 := (h2 212 main_v131 (by decide) rfl).trans (L_main_v131 V)
  unfold ReadP.val_main_v133
  rw [h1]; clear h1 h2 h3
  generalize ReadP.val_main_v132 (F := F) = a0 at e0 ⊢
  generalize ReadP.val_main_v131 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) = a1 at e1 ⊢
  (rw [binary_result, e0, e1]) <;> rfl

theorem L_main_cst_29 (V : Valuation τ sig (Elt F)) :
    after (ops (F := F)) V (Proc.devRef .tc main_cst_29) = ReadP.val_main_cst_29 (F := F) := by
  obtain ⟨W, h1, h2, h3⟩ := after_at (ops (F := F)) wr hwr hnd V 216 _ main_cst_29 rfl rfl
  unfold ReadP.val_main_cst_29
  rw [h1]; clear h1 h2 h3
  (rw [nullary_result]) <;> rfl

theorem L_main_v134 (V : Valuation τ sig (Elt F)) :
    after (ops (F := F)) V (Proc.devRef .tc main_v134) = ReadP.val_main_v134 (F := F) := by
  obtain ⟨W, h1, h2, h3⟩ := after_at (ops (F := F)) wr hwr hnd V 217 _ main_v134 rfl rfl
  have e0 := (h2 216 main_cst_29 (by decide) rfl).trans (L_main_cst_29 V)
  unfold ReadP.val_main_v134
  rw [h1]; clear h1 h2 h3
  generalize ReadP.val_main_cst_29 (F := F) = a0 at e0 ⊢
  (rw [unary_result, e0]) <;> rfl

theorem L_main_v135 (V : Valuation τ sig (Elt F)) :
    after (ops (F := F)) V (Proc.devRef .tc main_v135) = ReadP.val_main_v135 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) := by
  obtain ⟨W, h1, h2, h3⟩ := after_at (ops (F := F)) wr hwr hnd V 218 _ main_v135 rfl rfl
  have e0 := (h2 217 main_v134 (by decide) rfl).trans (L_main_v134 V)
  have e1 := (h2 215 main_v133 (by decide) rfl).trans (L_main_v133 V)
  unfold ReadP.val_main_v135
  rw [h1]; clear h1 h2 h3
  generalize ReadP.val_main_v134 (F := F) = a0 at e0 ⊢
  generalize ReadP.val_main_v133 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) = a1 at e1 ⊢
  (rw [binary_result, e0, e1]) <;> rfl

theorem L_main_v136 (V : Valuation τ sig (Elt F)) :
    after (ops (F := F)) V (Proc.devRef .tc main_v136) = ReadP.val_main_v136 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg18)) (V (Proc.devRef .tc main_arg24)) (V (Proc.devRef .tc main_arg25)) := by
  obtain ⟨W, h1, h2, h3⟩ := after_at (ops (F := F)) wr hwr hnd V 219 _ main_v136 rfl rfl
  have e0 := (h2 194 main_v115 (by decide) rfl).trans (L_main_v115 V)
  unfold ReadP.val_main_v136
  rw [h1]; clear h1 h2 h3
  generalize ReadP.val_main_v115 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg18)) (V (Proc.devRef .tc main_arg24)) (V (Proc.devRef .tc main_arg25)) = a0 at e0 ⊢
  (rw [unary_result, e0]) <;> rfl

theorem L_main_v137 (V : Valuation τ sig (Elt F)) :
    after (ops (F := F)) V (Proc.devRef .tc main_v137) = ReadP.val_main_v137 (F := F) (V (Proc.devRef .tc main_arg5)) (V (Proc.devRef .tc main_arg15)) := by
  obtain ⟨W, h1, h2, h3⟩ := after_at (ops (F := F)) wr hwr hnd V 220 _ main_v137 rfl rfl
  have e0 := (h2 196 main_v117 (by decide) rfl).trans (L_main_v117 V)
  unfold ReadP.val_main_v137
  rw [h1]; clear h1 h2 h3
  generalize ReadP.val_main_v117 (F := F) (V (Proc.devRef .tc main_arg5)) (V (Proc.devRef .tc main_arg15)) = a0 at e0 ⊢
  (rw [unary_result, e0]) <;> rfl

theorem L_main_v138 (V : Valuation τ sig (Elt F)) :
    after (ops (F := F)) V (Proc.devRef .tc main_v138) = ReadP.val_main_v138 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) := by
  obtain ⟨W, h1, h2, h3⟩ := after_at (ops (F := F)) wr hwr hnd V 221 _ main_v138 rfl rfl
  have e0 := (h2 207 main_v126 (by decide) rfl).trans (L_main_v126 V)
  have e1 := (h2 220 main_v137 (by decide) rfl).trans (L_main_v137 V)
  unfold ReadP.val_main_v138
  rw [h1]; clear h1 h2 h3
  generalize ReadP.val_main_v126 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) = a0 at e0 ⊢
  generalize ReadP.val_main_v137 (F := F) (V (Proc.devRef .tc main_arg5)) (V (Proc.devRef .tc main_arg15)) = a1 at e1 ⊢
  (rw [binary_result, e0, e1]) <;> rfl

theorem L_main_v139 (V : Valuation τ sig (Elt F)) :
    after (ops (F := F)) V (Proc.devRef .tc main_v139) = ReadP.val_main_v139 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) := by
  obtain ⟨W, h1, h2, h3⟩ := after_at (ops (F := F)) wr hwr hnd V 222 _ main_v139 rfl rfl
  have e0 := (h2 219 main_v136 (by decide) rfl).trans (L_main_v136 V)
  have e1 := (h2 221 main_v138 (by decide) rfl).trans (L_main_v138 V)
  unfold ReadP.val_main_v139
  rw [h1]; clear h1 h2 h3
  generalize ReadP.val_main_v136 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg18)) (V (Proc.devRef .tc main_arg24)) (V (Proc.devRef .tc main_arg25)) = a0 at e0 ⊢
  generalize ReadP.val_main_v138 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) = a1 at e1 ⊢
  (rw [binary_result, e0, e1]) <;> rfl

theorem L_main_v140 (V : Valuation τ sig (Elt F)) :
    after (ops (F := F)) V (Proc.devRef .tc main_v140) = ReadP.val_main_v140 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) := by
  obtain ⟨W, h1, h2, h3⟩ := after_at (ops (F := F)) wr hwr hnd V 223 _ main_v140 rfl rfl
  have e0 := (h2 222 main_v139 (by decide) rfl).trans (L_main_v139 V)
  unfold ReadP.val_main_v140
  rw [h1]; clear h1 h2 h3
  generalize ReadP.val_main_v139 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) = a0 at e0 ⊢
  (rw [unary_result, e0]) <;> rfl

theorem L_main_cst_30 (V : Valuation τ sig (Elt F)) :
    after (ops (F := F)) V (Proc.devRef .tc main_cst_30) = ReadP.val_main_cst_30 (F := F) := by
  obtain ⟨W, h1, h2, h3⟩ := after_at (ops (F := F)) wr hwr hnd V 224 _ main_cst_30 rfl rfl
  unfold ReadP.val_main_cst_30
  rw [h1]; clear h1 h2 h3
  (rw [nullary_result]) <;> rfl

theorem L_main_v141 (V : Valuation τ sig (Elt F)) :
    after (ops (F := F)) V (Proc.devRef .tc main_v141) = ReadP.val_main_v141 (F := F) := by
  obtain ⟨W, h1, h2, h3⟩ := after_at (ops (F := F)) wr hwr hnd V 225 _ main_v141 rfl rfl
  have e0 := (h2 224 main_cst_30 (by decide) rfl).trans (L_main_cst_30 V)
  unfold ReadP.val_main_v141
  rw [h1]; clear h1 h2 h3
  generalize ReadP.val_main_cst_30 (F := F) = a0 at e0 ⊢
  (rw [unary_result, e0]) <;> rfl

theorem L_main_v142 (V : Valuation τ sig (Elt F)) :
    after (ops (F := F)) V (Proc.devRef .tc main_v142) = ReadP.val_main_v142 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) := by
  obtain ⟨W, h1, h2, h3⟩ := after_at (ops (F := F)) wr hwr hnd V 226 _ main_v142 rfl rfl
  have e0 := (h2 225 main_v141 (by decide) rfl).trans (L_main_v141 V)
  have e1 := (h2 218 main_v135 (by decide) rfl).trans (L_main_v135 V)
  unfold ReadP.val_main_v142
  rw [h1]; clear h1 h2 h3
  generalize ReadP.val_main_v141 (F := F) = a0 at e0 ⊢
  generalize ReadP.val_main_v135 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) = a1 at e1 ⊢
  (rw [binary_result, e0, e1]) <;> rfl

theorem L_main_v143 (V : Valuation τ sig (Elt F)) :
    after (ops (F := F)) V (Proc.devRef .tc main_v143) = ReadP.val_main_v143 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) := by
  obtain ⟨W, h1, h2, h3⟩ := after_at (ops (F := F)) wr hwr hnd V 227 _ main_v143 rfl rfl
  have e0 := (h2 226 main_v142 (by decide) rfl).trans (L_main_v142 V)
  have e1 := (h2 223 main_v140 (by decide) rfl).trans (L_main_v140 V)
  unfold ReadP.val_main_v143
  rw [h1]; clear h1 h2 h3
  generalize ReadP.val_main_v142 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) = a0 at e0 ⊢
  generalize ReadP.val_main_v140 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) = a1 at e1 ⊢
  (rw [binary_result, e0, e1]) <;> rfl

theorem L_main_v144 (V : Valuation τ sig (Elt F)) :
    after (ops (F := F)) V (Proc.devRef .tc main_v144) = ReadP.val_main_v144 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) := by
  obtain ⟨W, h1, h2, h3⟩ := after_at (ops (F := F)) wr hwr hnd V 228 _ main_v144 rfl rfl
  have e0 := (h2 218 main_v135 (by decide) rfl).trans (L_main_v135 V)
  have e1 := h3 main_arg5 nm_main_arg5
  unfold ReadP.val_main_v144
  rw [h1]; clear h1 h2 h3
  generalize ReadP.val_main_v135 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) = a0 at e0 ⊢
  generalize V (Proc.devRef .tc main_arg5) = a1 at e1 ⊢
  (rw [binary_result, e0, e1]) <;> rfl

theorem L_main_v145 (V : Valuation τ sig (Elt F)) :
    after (ops (F := F)) V (Proc.devRef .tc main_v145) = ReadP.val_main_v145 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) := by
  obtain ⟨W, h1, h2, h3⟩ := after_at (ops (F := F)) wr hwr hnd V 229 _ main_v145 rfl rfl
  have e0 := (h2 227 main_v143 (by decide) rfl).trans (L_main_v143 V)
  have e1 := (h2 228 main_v144 (by decide) rfl).trans (L_main_v144 V)
  unfold ReadP.val_main_v145
  rw [h1]; clear h1 h2 h3
  generalize ReadP.val_main_v143 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) = a0 at e0 ⊢
  generalize ReadP.val_main_v144 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) = a1 at e1 ⊢
  (rw [binary_result, e0, e1]) <;> rfl

theorem L_main_cst_31 (V : Valuation τ sig (Elt F)) :
    after (ops (F := F)) V (Proc.devRef .tc main_cst_31) = ReadP.val_main_cst_31 (F := F) := by
  obtain ⟨W, h1, h2, h3⟩ := after_at (ops (F := F)) wr hwr hnd V 230 _ main_cst_31 rfl rfl
  unfold ReadP.val_main_cst_31
  rw [h1]; clear h1 h2 h3
  (rw [nullary_result]) <;> rfl

theorem L_main_cst_32 (V : Valuation τ sig (Elt F)) :
    after (ops (F := F)) V (Proc.devRef .tc main_cst_32) = ReadP.val_main_cst_32 (F := F) := by
  obtain ⟨W, h1, h2, h3⟩ := after_at (ops (F := F)) wr hwr hnd V 231 _ main_cst_32 rfl rfl
  unfold ReadP.val_main_cst_32
  rw [h1]; clear h1 h2 h3
  (rw [nullary_result]) <;> rfl

theorem L_main_call7_v0 (V : Valuation τ sig (Elt F)) :
    after (ops (F := F)) V (Proc.devRef .tc main_call7_v0) = ReadP.val_main_call7_v0 (F := F) := by
  obtain ⟨W, h1, h2, h3⟩ := after_at (ops (F := F)) wr hwr hnd V 232 _ main_call7_v0 rfl rfl
  have e0 := (h2 230 main_cst_31 (by decide) rfl).trans (L_main_cst_31 V)
  have cy : ∀ v : (⟨S_, .f32⟩ : BufTy).Contents (Elt F), ((TRef.of (T := ⟨S_, .f32⟩) main_call7_v0) : TRef sig _).toBuf v = v := fun _ => rfl
  have cx0 : ∀ u, ((TRef.of (T := ⟨S_, .f32⟩) main_cst_31) : TRef sig _).ofBuf (Val := Elt F) u = u := fun _ => rfl
  unfold ReadP.val_main_call7_v0
  rw [h1]; clear h1 h2 h3
  generalize ReadP.val_main_cst_31 (F := F) = a0 at e0 ⊢
  (rw [unary_result, cy, cx0, e0]) <;> rfl

theorem L_main_call7_v1 (V : Valuation τ sig (Elt F)) :
    after (ops (F := F)) V (Proc.devRef .tc main_call7_v1) = ReadP.val_main_call7_v1 (F := F) := by
  obtain ⟨W, h1, h2, h3⟩ := after_at (ops (F := F)) wr hwr hnd V 233 _ main_call7_v1 rfl rfl
  have e0 := (h2 232 main_call7_v0 (by decide) rfl).trans (L_main_call7_v0 V)
  have cy : ∀ v : (⟨S65536x128, .f32⟩ : BufTy).Contents (Elt F), ((TRef.of (T := ⟨S65536x128, .f32⟩) main_call7_v1) : TRef sig _).toBuf v = v := fun _ => rfl
  have cx0 : ∀ u, ((TRef.of (T := ⟨S_, .f32⟩) main_call7_v0) : TRef sig _).ofBuf (Val := Elt F) u = u := fun _ => rfl
  unfold ReadP.val_main_call7_v1
  rw [h1]; clear h1 h2 h3
  generalize ReadP.val_main_call7_v0 (F := F) = a0 at e0 ⊢
  (rw [unary_result, cy, cx0, e0]) <;> rfl

theorem L_main_call7_v2 (V : Valuation τ sig (Elt F)) :
    after (ops (F := F)) V (Proc.devRef .tc main_call7_v2) = ReadP.val_main_call7_v2 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) := by
  obtain ⟨W, h1, h2, h3⟩ := after_at (ops (F := F)) wr hwr hnd V 234 _ main_call7_v2 rfl rfl
  have e0 := (h2 233 main_call7_v1 (by decide) rfl).trans (L_main_call7_v1 V)
  have e1 := (h2 229 main_v145 (by decide) rfl).trans (L_main_v145 V)
  have cy : ∀ v : (⟨S65536x128, .f32⟩ : BufTy).Contents (Elt F), ((TRef.of (T := ⟨S65536x128, .f32⟩) main_call7_v2) : TRef sig _).toBuf v = v := fun _ => rfl
  have cx0 : ∀ u, ((TRef.of (T := ⟨S65536x128, .f32⟩) main_call7_v1) : TRef sig _).ofBuf (Val := Elt F) u = u := fun _ => rfl
  have cx1 : ∀ u, ((TRef.of (T := ⟨S65536x128, .f32⟩) main_v145) : TRef sig _).ofBuf (Val := Elt F) u = u := fun _ => rfl
  unfold ReadP.val_main_call7_v2
  rw [h1]; clear h1 h2 h3
  generalize ReadP.val_main_call7_v1 (F := F) = a0 at e0 ⊢
  generalize ReadP.val_main_v145 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) = a1 at e1 ⊢
  (rw [binary_result, cy, cx0, cx1, e0, e1]) <;> rfl

theorem L_main_call7_v3 (V : Valuation τ sig (Elt F)) :
    after (ops (F := F)) V (Proc.devRef .tc main_call7_v3) = ReadP.val_main_call7_v3 (F := F) := by
  obtain ⟨W, h1, h2, h3⟩ := after_at (ops (F := F)) wr hwr hnd V 235 _ main_call7_v3 rfl rfl
  have e0 := (h2 231 main_cst_32 (by decide) rfl).trans (L_main_cst_32 V)
  have cy : ∀ v : (⟨S_, .f32⟩ : BufTy).Contents (Elt F), ((TRef.of (T := ⟨S_, .f32⟩) main_call7_v3) : TRef sig _).toBuf v = v := fun _ => rfl
  have cx0 : ∀ u, ((TRef.of (T := ⟨S_, .f32⟩) main_cst_32) : TRef sig _).ofBuf (Val := Elt F) u = u := fun _ => rfl
  unfold ReadP.val_main_call7_v3
  rw [h1]; clear h1 h2 h3
  generalize ReadP.val_main_cst_32 (F := F) = a0 at e0 ⊢
  (rw [unary_result, cy, cx0, e0]) <;> rfl

theorem L_main_call7_v4 (V : Valuation τ sig (Elt F)) :
    after (ops (F := F)) V (Proc.devRef .tc main_call7_v4) = ReadP.val_main_call7_v4 (F := F) := by
  obtain ⟨W, h1, h2, h3⟩ := after_at (ops (F := F)) wr hwr hnd V 236 _ main_call7_v4 rfl rfl
  have e0 := (h2 235 main_call7_v3 (by decide) rfl).trans (L_main_call7_v3 V)
  have cy : ∀ v : (⟨S65536x128, .f32⟩ : BufTy).Contents (Elt F), ((TRef.of (T := ⟨S65536x128, .f32⟩) main_call7_v4) : TRef sig _).toBuf v = v := fun _ => rfl
  have cx0 : ∀ u, ((TRef.of (T := ⟨S_, .f32⟩) main_call7_v3) : TRef sig _).ofBuf (Val := Elt F) u = u := fun _ => rfl
  unfold ReadP.val_main_call7_v4
  rw [h1]; clear h1 h2 h3
  generalize ReadP.val_main_call7_v3 (F := F) = a0 at e0 ⊢
  (rw [unary_result, cy, cx0, e0]) <;> rfl

theorem L_main_v146 (V : Valuation τ sig (Elt F)) :
    after (ops (F := F)) V (Proc.devRef .tc main_v146) = ReadP.val_main_v146 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) := by
  obtain ⟨W, h1, h2, h3⟩ := after_at (ops (F := F)) wr hwr hnd V 237 _ main_v146 rfl rfl
  have e0 := (h2 236 main_call7_v4 (by decide) rfl).trans (L_main_call7_v4 V)
  have e1 := (h2 234 main_call7_v2 (by decide) rfl).trans (L_main_call7_v2 V)
  have cy : ∀ v : (⟨S65536x128, .f32⟩ : BufTy).Contents (Elt F), ((TRef.of (T := ⟨S65536x128, .f32⟩) main_v146) : TRef sig _).toBuf v = v := fun _ => rfl
  have cx0 : ∀ u, ((TRef.of (T := ⟨S65536x128, .f32⟩) main_call7_v4) : TRef sig _).ofBuf (Val := Elt F) u = u := fun _ => rfl
  have cx1 : ∀ u, ((TRef.of (T := ⟨S65536x128, .f32⟩) main_call7_v2) : TRef sig _).ofBuf (Val := Elt F) u = u := fun _ => rfl
  unfold ReadP.val_main_v146
  rw [h1]; clear h1 h2 h3
  generalize ReadP.val_main_call7_v4 (F := F) = a0 at e0 ⊢
  generalize ReadP.val_main_call7_v2 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) = a1 at e1 ⊢
  (rw [binary_result, cy, cx0, cx1, e0, e1]) <;> rfl

theorem L_main_v147 (V : Valuation τ sig (Elt F)) :
    after (ops (F := F)) V (Proc.devRef .tc main_v147) = ReadP.val_main_v147 (F := F) (V (Proc.devRef .tc main_arg19)) := by
  obtain ⟨W, h1, h2, h3⟩ := after_at (ops (F := F)) wr hwr hnd V 238 _ main_v147 rfl rfl
  have e0 := h3 main_arg19 nm_main_arg19
  unfold ReadP.val_main_v147
  rw [h1]; clear h1 h2 h3
  generalize V (Proc.devRef .tc main_arg19) = a0 at e0 ⊢
  (rw [unary_result, e0]) <;> rfl

theorem L_main_v148 (V : Valuation τ sig (Elt F)) :
    after (ops (F := F)) V (Proc.devRef .tc main_v148) = ReadP.val_main_v148 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 239 _ main_v148 rfl rfl
  have e0 := (h2 237 main_v146 (by decide) rfl).trans (L_main_v146 V)
  have e1 := (h2 238 main_v147 (by decide) rfl).trans (L_main_v147 V)
  unfold ReadP.val_main_v148
  rw [h1]; clear h1 h2 h3
  generalize ReadP.val_main_v146 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) = a0 at e0 ⊢
  generalize ReadP.val_main_v147 (F := F) (V (Proc.devRef .tc main_arg19)) = a1 at e1 ⊢
  (rw [binary_result, e0, e1]) <;> rfl

theorem L_main_v149 (V : Valuation τ sig (Elt F)) :
    after (ops (F := F)) V (Proc.devRef .tc main_v149) = ReadP.val_main_v149 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 240 _ main_v149 rfl rfl
  have e0 := (h2 239 main_v148 (by decide) rfl).trans (L_main_v148 V)
  unfold ReadP.val_main_v149
  rw [h1]; clear h1 h2 h3
  generalize ReadP.val_main_v148 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg19)) (V (Proc.devRef .tc main_arg24)) (V (Proc.devRef .tc main_arg25)) = a0 at e0 ⊢
  (rw [unary_result, e0]) <;> rfl

theorem L_main_v150 (V : Valuation τ sig (Elt F)) :
    after (ops (F := F)) V (Proc.devRef .tc main_v150) = ReadP.val_main_v150 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 241 _ main_v150 rfl rfl
  have e0 := (h2 240 main_v149 (by decide) rfl).trans (L_main_v149 V)
  unfold ReadP.val_main_v150
  rw [h1]; clear h1 h2 h3
  generalize ReadP.val_main_v149 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg19)) (V (Proc.devRef .tc main_arg24)) (V (Proc.devRef .tc main_arg25)) = a0 at e0 ⊢
  (rw [unary_result, e0]) <;> rfl

theorem L_main_cst_33 (V : Valuation τ sig (Elt F)) :
    after (ops (F := F)) V (Proc.devRef .tc main_cst_33) = ReadP.val_main_cst_33 (F := F) := by
  obtain ⟨W, h1, h2, h3⟩ := after_at (ops (F := F)) wr hwr hnd V 242 _ main_cst_33 rfl rfl
  unfold ReadP.val_main_cst_33
  rw [h1]; clear h1 h2 h3
  (rw [nullary_result]) <;> rfl

theorem L_main_v151 (V : Valuation τ sig (Elt F)) :
    after (ops (F := F)) V (Proc.devRef .tc main_v151) = ReadP.val_main_v151 (F := F) := by
  obtain ⟨W, h1, h2, h3⟩ := after_at (ops (F := F)) wr hwr hnd V 243 _ main_v151 rfl rfl
  have e0 := (h2 242 main_cst_33 (by decide) rfl).trans (L_main_cst_33 V)
  unfold ReadP.val_main_v151
  rw [h1]; clear h1 h2 h3
  generalize ReadP.val_main_cst_33 (F := F) = a0 at e0 ⊢
  (rw [unary_result, e0]) <;> rfl

theorem L_main_v152 (V : Valuation τ sig (Elt F)) :
    after (ops (F := F)) V (Proc.devRef .tc main_v152) = ReadP.val_main_v152 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 244 _ main_v152 rfl rfl
  have e0 := (h2 243 main_v151 (by decide) rfl).trans (L_main_v151 V)
  have e1 := (h2 241 main_v150 (by decide) rfl).trans (L_main_v150 V)
  unfold ReadP.val_main_v152
  rw [h1]; clear h1 h2 h3
  generalize ReadP.val_main_v151 (F := F) = a0 at e0 ⊢
  generalize ReadP.val_main_v150 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg19)) (V (Proc.devRef .tc main_arg24)) (V (Proc.devRef .tc main_arg25)) = a1 at e1 ⊢
  (rw [binary_result, e0, e1]) <;> rfl

theorem L_main_cst_34 (V : Valuation τ sig (Elt F)) :
    after (ops (F := F)) V (Proc.devRef .tc main_cst_34) = ReadP.val_main_cst_34 (F := F) := by
  obtain ⟨W, h1, h2, h3⟩ := after_at (ops (F := F)) wr hwr hnd V 245 _ main_cst_34 rfl rfl
  unfold ReadP.val_main_cst_34
  rw [h1]; clear h1 h2 h3
  (rw [nullary_result]) <;> rfl

theorem L_main_v153 (V : Valuation τ sig (Elt F)) :
    after (ops (F := F)) V (Proc.devRef .tc main_v153) = ReadP.val_main_v153 (F := F) := by
  obtain ⟨W, h1, h2, h3⟩ := after_at (ops (F := F)) wr hwr hnd V 246 _ main_v153 rfl rfl
  have e0 := (h2 245 main_cst_34 (by decide) rfl).trans (L_main_cst_34 V)
  unfold ReadP.val_main_v153
  rw [h1]; clear h1 h2 h3
  generalize ReadP.val_main_cst_34 (F := F) = a0 at e0 ⊢
  (rw [unary_result, e0]) <;> rfl

theorem L_main_v154 (V : Valuation τ sig (Elt F)) :
    after (ops (F := F)) V (Proc.devRef .tc main_v154) = ReadP.val_main_v154 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 247 _ main_v154 rfl rfl
  have e0 := (h2 246 main_v153 (by decide) rfl).trans (L_main_v153 V)
  have e1 := (h2 244 main_v152 (by decide) rfl).trans (L_main_v152 V)
  unfold ReadP.val_main_v154
  rw [h1]; clear h1 h2 h3
  generalize ReadP.val_main_v153 (F := F) = a0 at e0 ⊢
  generalize ReadP.val_main_v152 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg19)) (V (Proc.devRef .tc main_arg24)) (V (Proc.devRef .tc main_arg25)) = a1 at e1 ⊢
  (rw [binary_result, e0, e1]) <;> rfl

theorem L_main_v155 (V : Valuation τ sig (Elt F)) :
    after (ops (F := F)) V (Proc.devRef .tc main_v155) = ReadP.val_main_v155 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 248 _ main_v155 rfl rfl
  have e0 := (h2 237 main_v146 (by decide) rfl).trans (L_main_v146 V)
  have e1 := (h2 247 main_v154 (by decide) rfl).trans (L_main_v154 V)
  unfold ReadP.val_main_v155
  rw [h1]; clear h1 h2 h3
  generalize ReadP.val_main_v146 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg24)) (V (Proc.devRef .tc main_arg25)) = a0 at e0 ⊢
  generalize ReadP.val_main_v154 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg19)) (V (Proc.devRef .tc main_arg24)) (V (Proc.devRef .tc main_arg25)) = a1 at e1 ⊢
  (rw [binary_result, e0, e1]) <;> rfl

theorem L_main_cst_35 (V : Valuation τ sig (Elt F)) :
    after (ops (F := F)) V (Proc.devRef .tc main_cst_35) = ReadP.val_main_cst_35 (F := F) := by
  obtain ⟨W, h1, h2, h3⟩ := after_at (ops (F := F)) wr hwr hnd V 249 _ main_cst_35 rfl rfl
  unfold ReadP.val_main_cst_35
  rw [h1]; clear h1 h2 h3
  (rw [nullary_result]) <;> rfl

theorem L_main_cst_36 (V : Valuation τ sig (Elt F)) :
    after (ops (F := F)) V (Proc.devRef .tc main_cst_36) = ReadP.val_main_cst_36 (F := F) := by
  obtain ⟨W, h1, h2, h3⟩ := after_at (ops (F := F)) wr hwr hnd V 250 _ main_cst_36 rfl rfl
  unfold ReadP.val_main_cst_36
  rw [h1]; clear h1 h2 h3
  (rw [nullary_result]) <;> rfl

theorem L_main_call8_v0 (V : Valuation τ sig (Elt F)) :
    after (ops (F := F)) V (Proc.devRef .tc main_call8_v0) = ReadP.val_main_call8_v0 (F := F) := by
  obtain ⟨W, h1, h2, h3⟩ := after_at (ops (F := F)) wr hwr hnd V 251 _ main_call8_v0 rfl rfl
  have e0 := (h2 249 main_cst_35 (by decide) rfl).trans (L_main_cst_35 V)
  have cy : ∀ v : (⟨S_, .f32⟩ : BufTy).Contents (Elt F), ((TRef.of (T := ⟨S_, .f32⟩) main_call8_v0) : TRef sig _).toBuf v = v := fun _ => rfl
  have cx0 : ∀ u, ((TRef.of (T := ⟨S_, .f32⟩) main_cst_35) : TRef sig _).ofBuf (Val := Elt F) u = u := fun _ => rfl
  unfold ReadP.val_main_call8_v0
  rw [h1]; clear h1 h2 h3
  generalize ReadP.val_main_cst_35 (F := F) = a0 at e0 ⊢
  (rw [unary_result, cy, cx0, e0]) <;> rfl

theorem L_main_call8_v1 (V : Valuation τ sig (Elt F)) :
    after (ops (F := F)) V (Proc.devRef .tc main_call8_v1) = ReadP.val_main_call8_v1 (F := F) := by
  obtain ⟨W, h1, h2, h3⟩ := after_at (ops (F := F)) wr hwr hnd V 252 _ main_call8_v1 rfl rfl
  have e0 := (h2 251 main_call8_v0 (by decide) rfl).trans (L_main_call8_v0 V)
  have cy : ∀ v : (⟨S65536x128, .f32⟩ : BufTy).Contents (Elt F), ((TRef.of (T := ⟨S65536x128, .f32⟩) main_call8_v1) : TRef sig _).toBuf v = v := fun _ => rfl
  have cx0 : ∀ u, ((TRef.of (T := ⟨S_, .f32⟩) main_call8_v0) : TRef sig _).ofBuf (Val := Elt F) u = u := fun _ => rfl
  unfold ReadP.val_main_call8_v1
  rw [h1]; clear h1 h2 h3
  generalize ReadP.val_main_call8_v0 (F := F) = a0 at e0 ⊢
  (rw [unary_result, cy, cx0, e0]) <;> rfl

theorem L_main_call8_v2 (V : Valuation τ sig (Elt F)) :
    after (ops (F := F)) V (Proc.devRef .tc main_call8_v2) = ReadP.val_main_call8_v2 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 253 _ main_call8_v2 rfl rfl
  have e0 := (h2 252 main_call8_v1 (by decide) rfl).trans (L_main_call8_v1 V)
  have e1 := (h2 248 main_v155 (by decide) rfl).trans (L_main_v155 V)
  have cy : ∀ v : (⟨S65536x128, .f32⟩ : BufTy).Contents (Elt F), ((TRef.of (T := ⟨S65536x128, .f32⟩) main_call8_v2) : TRef sig _).toBuf v = v := fun _ => rfl
  have cx0 : ∀ u, ((TRef.of (T := ⟨S65536x128, .f32⟩) main_call8_v1) : TRef sig _).ofBuf (Val := Elt F) u = u := fun _ => rfl
  have cx1 : ∀ u, ((TRef.of (T := ⟨S65536x128, .f32⟩) main_v155) : TRef sig _).ofBuf (Val := Elt F) u = u := fun _ => rfl
  unfold ReadP.val_main_call8_v2
  rw [h1]; clear h1 h2 h3
  generalize ReadP.val_main_call8_v1 (F := F) = a0 at e0 ⊢
  generalize ReadP.val_main_v155 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg19)) (V (Proc.devRef .tc main_arg24)) (V (Proc.devRef .tc main_arg25)) = a1 at e1 ⊢
  (rw [binary_result, cy, cx0, cx1, e0, e1]) <;> rfl

theorem L_main_call8_v3 (V : Valuation τ sig (Elt F)) :
    after (ops (F := F)) V (Proc.devRef .tc main_call8_v3) = ReadP.val_main_call8_v3 (F := F) := by
  obtain ⟨W, h1, h2, h3⟩ := after_at (ops (F := F)) wr hwr hnd V 254 _ main_call8_v3 rfl rfl
  have e0 := (h2 250 main_cst_36 (by decide) rfl).trans (L_main_cst_36 V)
  have cy : ∀ v : (⟨S_, .f32⟩ : BufTy).Contents (Elt F), ((TRef.of (T := ⟨S_, .f32⟩) main_call8_v3) : TRef sig _).toBuf v = v := fun _ => rfl
  have cx0 : ∀ u, ((TRef.of (T := ⟨S_, .f32⟩) main_cst_36) : TRef sig _).ofBuf (Val := Elt F) u = u := fun _ => rfl
  unfold ReadP.val_main_call8_v3
  rw [h1]; clear h1 h2 h3
  generalize ReadP.val_main_cst_36 (F := F) = a0 at e0 ⊢
  (rw [unary_result, cy, cx0, e0]) <;> rfl

theorem L_main_call8_v4 (V : Valuation τ sig (Elt F)) :
    after (ops (F := F)) V (Proc.devRef .tc main_call8_v4) = ReadP.val_main_call8_v4 (F := F) := by
  obtain ⟨W, h1, h2, h3⟩ := after_at (ops (F := F)) wr hwr hnd V 255 _ main_call8_v4 rfl rfl
  have e0 := (h2 254 main_call8_v3 (by decide) rfl).trans (L_main_call8_v3 V)
  have cy : ∀ v : (⟨S65536x128, .f32⟩ : BufTy).Contents (Elt F), ((TRef.of (T := ⟨S65536x128, .f32⟩) main_call8_v4) : TRef sig _).toBuf v = v := fun _ => rfl
  have cx0 : ∀ u, ((TRef.of (T := ⟨S_, .f32⟩) main_call8_v3) : TRef sig _).ofBuf (Val := Elt F) u = u := fun _ => rfl
  unfold ReadP.val_main_call8_v4
  rw [h1]; clear h1 h2 h3
  generalize ReadP.val_main_call8_v3 (F := F) = a0 at e0 ⊢
  (rw [unary_result, cy, cx0, e0]) <;> rfl

theorem L_main_v156 (V : Valuation τ sig (Elt F)) :
    after (ops (F := F)) V (Proc.devRef .tc main_v156) = ReadP.val_main_v156 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 256 _ main_v156 rfl rfl
  have e0 := (h2 255 main_call8_v4 (by decide) rfl).trans (L_main_call8_v4 V)
  have e1 := (h2 253 main_call8_v2 (by decide) rfl).trans (L_main_call8_v2 V)
  have cy : ∀ v : (⟨S65536x128, .f32⟩ : BufTy).Contents (Elt F), ((TRef.of (T := ⟨S65536x128, .f32⟩) main_v156) : TRef sig _).toBuf v = v := fun _ => rfl
  have cx0 : ∀ u, ((TRef.of (T := ⟨S65536x128, .f32⟩) main_call8_v4) : TRef sig _).ofBuf (Val := Elt F) u = u := fun _ => rfl
  have cx1 : ∀ u, ((TRef.of (T := ⟨S65536x128, .f32⟩) main_call8_v2) : TRef sig _).ofBuf (Val := Elt F) u = u := fun _ => rfl
  unfold ReadP.val_main_v156
  rw [h1]; clear h1 h2 h3
  generalize ReadP.val_main_call8_v4 (F := F) = a0 at e0 ⊢
  generalize ReadP.val_main_call8_v2 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg19)) (V (Proc.devRef .tc main_arg24)) (V (Proc.devRef .tc main_arg25)) = a1 at e1 ⊢
  (rw [binary_result, cy, cx0, cx1, e0, e1]) <;> rfl

theorem L_main_v157 (V : Valuation τ sig (Elt F)) :
    after (ops (F := F)) V (Proc.devRef .tc main_v157) = ReadP.val_main_v157 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) := by
  obtain ⟨W, h1, h2, h3⟩ := after_at (ops (F := F)) wr hwr hnd V 257 _ main_v157 rfl rfl
  have e0 := (h2 120 main_v62 (by decide) rfl).trans (L_main_v62 V)
  unfold ReadP.val_main_v157
  rw [h1]; clear h1 h2 h3
  generalize ReadP.val_main_v62 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) = a0 at e0 ⊢
  (rw [unary_result, e0]) <;> rfl

theorem L_main_v158 (V : Valuation τ sig (Elt F)) :
    after (ops (F := F)) V (Proc.devRef .tc main_v158) = ReadP.val_main_v158 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) := by
  obtain ⟨W, h1, h2, h3⟩ := after_at (ops (F := F)) wr hwr hnd V 258 _ main_v158 rfl rfl
  have e0 := (h2 257 main_v157 (by decide) rfl).trans (L_main_v157 V)
  unfold ReadP.val_main_v158
  rw [h1]; clear h1 h2 h3
  generalize ReadP.val_main_v157 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) = a0 at e0 ⊢
  (rw [unary_result, e0]) <;> rfl

theorem L_main_v159 (V : Valuation τ sig (Elt F)) :
    after (ops (F := F)) V (Proc.devRef .tc main_v159) = ReadP.val_main_v159 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) := by
  obtain ⟨W, h1, h2, h3⟩ := after_at (ops (F := F)) wr hwr hnd V 259 _ main_v159 rfl rfl
  have e0 := (h2 258 main_v158 (by decide) rfl).trans (L_main_v158 V)
  have e1 := (h2 84 main_v37 (by decide) rfl).trans (L_main_v37 V)
  unfold ReadP.val_main_v159
  rw [h1]; clear h1 h2 h3
  generalize ReadP.val_main_v158 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) = a0 at e0 ⊢
  generalize ReadP.val_main_v37 (F := F) (V (Proc.devRef .tc main_arg0)) (V (Proc.devRef .tc main_arg2)) (V (Proc.devRef .tc main_arg3)) (V (Proc.devRef .tc main_arg8)) (V (Proc.devRef .tc main_arg9)) = a1 at e1 ⊢
  (rw [binary_result, e0, e1]) <;> rfl

theorem L_main_v160 (V : Valuation τ sig (Elt F)) :
    after (ops (F := F)) V (Proc.devRef .tc main_v160) = ReadP.val_main_v160 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 260 _ main_v160 rfl rfl
  have e0 := (h2 256 main_v156 (by decide) rfl).trans (L_main_v156 V)
  have e1 := (h2 259 main_v159 (by decide) rfl).trans (L_main_v159 V)
  have e2 := (h2 82 main_v35 (by decide) rfl).trans (L_main_v35 V)
  unfold ReadP.val_main_v160
  rw [h1]; clear h1 h2 h3
  generalize ReadP.val_main_v156 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg19)) (V (Proc.devRef .tc main_arg24)) (V (Proc.devRef .tc main_arg25)) = a0 at e0 ⊢
  generalize ReadP.val_main_v159 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) = a1 at e1 ⊢
  generalize ReadP.val_main_v35 (F := F) (V (Proc.devRef .tc main_arg0)) (V (Proc.devRef .tc main_arg2)) (V (Proc.devRef .tc main_arg8)) (V (Proc.devRef .tc main_arg9)) = a2 at e2 ⊢
  rw [nary_result]
  show concatenate S65536x208 1 [⟨S65536x128, W (Proc.devRef .tc main_v156)⟩, ⟨S65536x40, W (Proc.devRef .tc main_v159)⟩, ⟨S65536x40, W (Proc.devRef .tc main_v35)⟩] concatenates_S65536x128_S65536x40_S65536x40_S65536x208_d1 = _
  (rw [e0, e1, e2]) <;> rfl

theorem L_main_v161 (V : Valuation τ sig (Elt F)) :
    after (ops (F := F)) V (Proc.devRef .tc main_v161) = ReadP.val_main_v161 (F := F) (V (Proc.devRef .tc main_arg16)) := by
  obtain ⟨W, h1, h2, h3⟩ := after_at (ops (F := F)) wr hwr hnd V 261 _ main_v161 rfl rfl
  have e0 := h3 main_arg16 nm_main_arg16
  unfold ReadP.val_main_v161
  rw [h1]; clear h1 h2 h3
  generalize V (Proc.devRef .tc main_arg16) = a0 at e0 ⊢
  (rw [unary_result, e0]) <;> rfl

theorem L_main_v162 (V : Valuation τ sig (Elt F)) :
    after (ops (F := F)) V (Proc.devRef .tc main_v162) = ReadP.val_main_v162 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 262 _ main_v162 rfl rfl
  have e0 := (h2 260 main_v160 (by decide) rfl).trans (L_main_v160 V)
  have e1 := (h2 261 main_v161 (by decide) rfl).trans (L_main_v161 V)
  unfold ReadP.val_main_v162
  rw [h1]; clear h1 h2 h3
  generalize ReadP.val_main_v160 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg19)) (V (Proc.devRef .tc main_arg24)) (V (Proc.devRef .tc main_arg25)) = a0 at e0 ⊢
  generalize ReadP.val_main_v161 (F := F) (V (Proc.devRef .tc main_arg16)) = a1 at e1 ⊢
  (rw [binary_result, e0, e1]) <;> rfl

theorem L_main_v163 (V : Valuation τ sig (Elt F)) :
    after (ops (F := F)) V (Proc.devRef .tc main_v163) = ReadP.val_main_v163 (F := F) (V (Proc.devRef .tc main_arg17)) := by
  obtain ⟨W, h1, h2, h3⟩ := after_at (ops (F := F)) wr hwr hnd V 263 _ main_v163 rfl rfl
  have e0 := h3 main_arg17 nm_main_arg17
  unfold ReadP.val_main_v163
  rw [h1]; clear h1 h2 h3
  generalize V (Proc.devRef .tc main_arg17) = a0 at e0 ⊢
  (rw [unary_result, e0]) <;> rfl

theorem L_main_v164 (V : Valuation τ sig (Elt F)) :
    after (ops (F := F)) V (Proc.devRef .tc main_v164) = ReadP.val_main_v164 (F := F) (V (Proc.devRef .tc main_arg6)) (V (Proc.devRef .tc main_arg17)) := by
  obtain ⟨W, h1, h2, h3⟩ := after_at (ops (F := F)) wr hwr hnd V 264 _ main_v164 rfl rfl
  have e0 := (h2 263 main_v163 (by decide) rfl).trans (L_main_v163 V)
  have e1 := h3 main_arg6 nm_main_arg6
  unfold ReadP.val_main_v164
  rw [h1]; clear h1 h2 h3
  generalize ReadP.val_main_v163 (F := F) (V (Proc.devRef .tc main_arg17)) = a0 at e0 ⊢
  generalize V (Proc.devRef .tc main_arg6) = a1 at e1 ⊢
  (rw [binary_result, e0, e1]) <;> rfl

theorem L_main_v165 (V : Valuation τ sig (Elt F)) :
    after (ops (F := F)) V (Proc.devRef .tc main_v165) = ReadP.val_main_v165 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 265 _ main_v165 rfl rfl
  have e0 := (h2 262 main_v162 (by decide) rfl).trans (L_main_v162 V)
  unfold ReadP.val_main_v165
  rw [h1]; clear h1 h2 h3
  generalize ReadP.val_main_v162 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg18)) (V (Proc.devRef .tc main_arg19)) (V (Proc.devRef .tc main_arg24)) (V (Proc.devRef .tc main_arg25)) = a0 at e0 ⊢
  (rw [unary_result, e0]) <;> rfl

theorem L_main_v166 (V : Valuation τ sig (Elt F)) :
    after (ops (F := F)) V (Proc.devRef .tc main_v166) = ReadP.val_main_v166 (F := F) (V (Proc.devRef .tc main_arg6)) (V (Proc.devRef .tc main_arg17)) := by
  obtain ⟨W, h1, h2, h3⟩ := after_at (ops (F := F)) wr hwr hnd V 266 _ main_v166 rfl rfl
  have e0 := (h2 264 main_v164 (by decide) rfl).trans (L_main_v164 V)
  unfold ReadP.val_main_v166
  rw [h1]; clear h1 h2 h3
  generalize ReadP.val_main_v164 (F := F) (V (Proc.devRef .tc main_arg6)) (V (Proc.devRef .tc main_arg17)) = a0 at e0 ⊢
  (rw [unary_result, e0]) <;> rfl

theorem L_main_v167 (V : Valuation τ sig (Elt F)) :
    after (ops (F := F)) V (Proc.devRef .tc main_v167) = ReadP.val_main_v167 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 267 _ main_v167 rfl rfl
  have e0 := (h2 265 main_v165 (by decide) rfl).trans (L_main_v165 V)
  have e1 := (h2 266 main_v166 (by decide) rfl).trans (L_main_v166 V)
  unfold ReadP.val_main_v167
  rw [h1]; clear h1 h2 h3
  generalize ReadP.val_main_v165 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg18)) (V (Proc.devRef .tc main_arg19)) (V (Proc.devRef .tc main_arg24)) (V (Proc.devRef .tc main_arg25)) = a0 at e0 ⊢
  generalize ReadP.val_main_v166 (F := F) (V (Proc.devRef .tc main_arg6)) (V (Proc.devRef .tc main_arg17)) = a1 at e1 ⊢
  (rw [binary_result, e0, e1]) <;> rfl

theorem L_main_v168 (V : Valuation τ sig (Elt F)) :
    after (ops (F := F)) V (Proc.devRef .tc main_v168) = ReadP.val_main_v168 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 268 _ main_v168 rfl rfl
  have e0 := (h2 267 main_v167 (by decide) rfl).trans (L_main_v167 V)
  unfold ReadP.val_main_v168
  rw [h1]; clear h1 h2 h3
  generalize ReadP.val_main_v167 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) = a0 at e0 ⊢
  (rw [unary_result, e0]) <;> rfl

theorem L_main_v169 (V : Valuation τ sig (Elt F)) :
    after (ops (F := F)) V (Proc.devRef .tc main_v169) = ReadP.val_main_v169 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 269 _ main_v169 rfl rfl
  have e0 := (h2 268 main_v168 (by decide) rfl).trans (L_main_v168 V)
  unfold ReadP.val_main_v169
  rw [h1]; clear h1 h2 h3
  generalize ReadP.val_main_v168 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) = a0 at e0 ⊢
  (rw [unary_result, e0]) <;> rfl

end Cert.ReferenceIdeal.RefRun

end
-- ==== Proof.RefRun5.lean ====
/- The reference program read back one operation at a time, operations 270 … 360 of the line: at the end of the line the
   buffer an operation writes holds the operation's function of its operands' final contents, and those are, by the
   lemmas of the earlier operations, the operands' stage functions of @main's arguments — so the buffer holds its own
   stage function `ReadP.val_<buffer>` of the arguments (its definition is that function of the operands' stages). -/
import proofs.«180642_j50062138802934_2_alg».proof.Proof.RefRun4

noncomputable section

namespace Cert.ReferenceIdeal.RefRun

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

theorem L_main_cst_37 (V : Valuation τ sig (Elt F)) :
    after (ops (F := F)) V (Proc.devRef .tc main_cst_37) = ReadP.val_main_cst_37 (F := F) := by
  obtain ⟨W, h1, h2, h3⟩ := after_at (ops (F := F)) wr hwr hnd V 270 _ main_cst_37 rfl rfl
  unfold ReadP.val_main_cst_37
  rw [h1]; clear h1 h2 h3
  (rw [nullary_result]) <;> rfl

theorem L_main_v170 (V : Valuation τ sig (Elt F)) :
    after (ops (F := F)) V (Proc.devRef .tc main_v170) = ReadP.val_main_v170 (F := F) := by
  obtain ⟨W, h1, h2, h3⟩ := after_at (ops (F := F)) wr hwr hnd V 271 _ main_v170 rfl rfl
  have e0 := (h2 270 main_cst_37 (by decide) rfl).trans (L_main_cst_37 V)
  unfold ReadP.val_main_v170
  rw [h1]; clear h1 h2 h3
  generalize ReadP.val_main_cst_37 (F := F) = a0 at e0 ⊢
  (rw [unary_result, e0]) <;> rfl

theorem L_main_v171 (V : Valuation τ sig (Elt F)) :
    after (ops (F := F)) V (Proc.devRef .tc main_v171) = ReadP.val_main_v171 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 272 _ main_v171 rfl rfl
  have e0 := (h2 271 main_v170 (by decide) rfl).trans (L_main_v170 V)
  have e1 := (h2 269 main_v169 (by decide) rfl).trans (L_main_v169 V)
  unfold ReadP.val_main_v171
  rw [h1]; clear h1 h2 h3
  generalize ReadP.val_main_v170 (F := F) = a0 at e0 ⊢
  generalize ReadP.val_main_v169 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) = a1 at e1 ⊢
  (rw [binary_result, e0, e1]) <;> rfl

theorem L_main_cst_38 (V : Valuation τ sig (Elt F)) :
    after (ops (F := F)) V (Proc.devRef .tc main_cst_38) = ReadP.val_main_cst_38 (F := F) := by
  obtain ⟨W, h1, h2, h3⟩ := after_at (ops (F := F)) wr hwr hnd V 273 _ main_cst_38 rfl rfl
  unfold ReadP.val_main_cst_38
  rw [h1]; clear h1 h2 h3
  (rw [nullary_result]) <;> rfl

theorem L_main_v172 (V : Valuation τ sig (Elt F)) :
    after (ops (F := F)) V (Proc.devRef .tc main_v172) = ReadP.val_main_v172 (F := F) := by
  obtain ⟨W, h1, h2, h3⟩ := after_at (ops (F := F)) wr hwr hnd V 274 _ main_v172 rfl rfl
  have e0 := (h2 273 main_cst_38 (by decide) rfl).trans (L_main_cst_38 V)
  unfold ReadP.val_main_v172
  rw [h1]; clear h1 h2 h3
  generalize ReadP.val_main_cst_38 (F := F) = a0 at e0 ⊢
  (rw [unary_result, e0]) <;> rfl

theorem L_main_v173 (V : Valuation τ sig (Elt F)) :
    after (ops (F := F)) V (Proc.devRef .tc main_v173) = ReadP.val_main_v173 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 275 _ main_v173 rfl rfl
  have e0 := (h2 274 main_v172 (by decide) rfl).trans (L_main_v172 V)
  have e1 := (h2 272 main_v171 (by decide) rfl).trans (L_main_v171 V)
  unfold ReadP.val_main_v173
  rw [h1]; clear h1 h2 h3
  generalize ReadP.val_main_v172 (F := F) = a0 at e0 ⊢
  generalize ReadP.val_main_v171 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) = a1 at e1 ⊢
  (rw [binary_result, e0, e1]) <;> rfl

theorem L_main_v174 (V : Valuation τ sig (Elt F)) :
    after (ops (F := F)) V (Proc.devRef .tc main_v174) = ReadP.val_main_v174 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 276 _ main_v174 rfl rfl
  have e0 := (h2 262 main_v162 (by decide) rfl).trans (L_main_v162 V)
  unfold ReadP.val_main_v174
  rw [h1]; clear h1 h2 h3
  generalize ReadP.val_main_v162 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg18)) (V (Proc.devRef .tc main_arg19)) (V (Proc.devRef .tc main_arg24)) (V (Proc.devRef .tc main_arg25)) = a0 at e0 ⊢
  (rw [unary_result, e0]) <;> rfl

theorem L_main_v175 (V : Valuation τ sig (Elt F)) :
    after (ops (F := F)) V (Proc.devRef .tc main_v175) = ReadP.val_main_v175 (F := F) (V (Proc.devRef .tc main_arg6)) (V (Proc.devRef .tc main_arg17)) := by
  obtain ⟨W, h1, h2, h3⟩ := after_at (ops (F := F)) wr hwr hnd V 277 _ main_v175 rfl rfl
  have e0 := (h2 264 main_v164 (by decide) rfl).trans (L_main_v164 V)
  unfold ReadP.val_main_v175
  rw [h1]; clear h1 h2 h3
  generalize ReadP.val_main_v164 (F := F) (V (Proc.devRef .tc main_arg6)) (V (Proc.devRef .tc main_arg17)) = a0 at e0 ⊢
  (rw [unary_result, e0]) <;> rfl

theorem L_main_v176 (V : Valuation τ sig (Elt F)) :
    after (ops (F := F)) V (Proc.devRef .tc main_v176) = ReadP.val_main_v176 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 278 _ main_v176 rfl rfl
  have e0 := (h2 276 main_v174 (by decide) rfl).trans (L_main_v174 V)
  have e1 := (h2 277 main_v175 (by decide) rfl).trans (L_main_v175 V)
  unfold ReadP.val_main_v176
  rw [h1]; clear h1 h2 h3
  generalize ReadP.val_main_v174 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg18)) (V (Proc.devRef .tc main_arg19)) (V (Proc.devRef .tc main_arg24)) (V (Proc.devRef .tc main_arg25)) = a0 at e0 ⊢
  generalize ReadP.val_main_v175 (F := F) (V (Proc.devRef .tc main_arg6)) (V (Proc.devRef .tc main_arg17)) = a1 at e1 ⊢
  (rw [binary_result, e0, e1]) <;> rfl

theorem L_main_v177 (V : Valuation τ sig (Elt F)) :
    after (ops (F := F)) V (Proc.devRef .tc main_v177) = ReadP.val_main_v177 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 279 _ main_v177 rfl rfl
  have e0 := (h2 278 main_v176 (by decide) rfl).trans (L_main_v176 V)
  unfold ReadP.val_main_v177
  rw [h1]; clear h1 h2 h3
  generalize ReadP.val_main_v176 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) = a0 at e0 ⊢
  (rw [unary_result, e0]) <;> rfl

theorem L_main_v178 (V : Valuation τ sig (Elt F)) :
    after (ops (F := F)) V (Proc.devRef .tc main_v178) = ReadP.val_main_v178 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 280 _ main_v178 rfl rfl
  have e0 := (h2 279 main_v177 (by decide) rfl).trans (L_main_v177 V)
  unfold ReadP.val_main_v178
  rw [h1]; clear h1 h2 h3
  generalize ReadP.val_main_v177 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) = a0 at e0 ⊢
  (rw [unary_result, e0]) <;> rfl

theorem L_main_cst_39 (V : Valuation τ sig (Elt F)) :
    after (ops (F := F)) V (Proc.devRef .tc main_cst_39) = ReadP.val_main_cst_39 (F := F) := by
  obtain ⟨W, h1, h2, h3⟩ := after_at (ops (F := F)) wr hwr hnd V 281 _ main_cst_39 rfl rfl
  unfold ReadP.val_main_cst_39
  rw [h1]; clear h1 h2 h3
  (rw [nullary_result]) <;> rfl

theorem L_main_v179 (V : Valuation τ sig (Elt F)) :
    after (ops (F := F)) V (Proc.devRef .tc main_v179) = ReadP.val_main_v179 (F := F) := by
  obtain ⟨W, h1, h2, h3⟩ := after_at (ops (F := F)) wr hwr hnd V 282 _ main_v179 rfl rfl
  have e0 := (h2 281 main_cst_39 (by decide) rfl).trans (L_main_cst_39 V)
  unfold ReadP.val_main_v179
  rw [h1]; clear h1 h2 h3
  generalize ReadP.val_main_cst_39 (F := F) = a0 at e0 ⊢
  (rw [unary_result, e0]) <;> rfl

theorem L_main_v180 (V : Valuation τ sig (Elt F)) :
    after (ops (F := F)) V (Proc.devRef .tc main_v180) = ReadP.val_main_v180 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 283 _ main_v180 rfl rfl
  have e0 := (h2 282 main_v179 (by decide) rfl).trans (L_main_v179 V)
  have e1 := (h2 280 main_v178 (by decide) rfl).trans (L_main_v178 V)
  unfold ReadP.val_main_v180
  rw [h1]; clear h1 h2 h3
  generalize ReadP.val_main_v179 (F := F) = a0 at e0 ⊢
  generalize ReadP.val_main_v178 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) = a1 at e1 ⊢
  (rw [binary_result, e0, e1]) <;> rfl

theorem L_main_cst_40 (V : Valuation τ sig (Elt F)) :
    after (ops (F := F)) V (Proc.devRef .tc main_cst_40) = ReadP.val_main_cst_40 (F := F) := by
  obtain ⟨W, h1, h2, h3⟩ := after_at (ops (F := F)) wr hwr hnd V 284 _ main_cst_40 rfl rfl
  unfold ReadP.val_main_cst_40
  rw [h1]; clear h1 h2 h3
  (rw [nullary_result]) <;> rfl

theorem L_main_v181 (V : Valuation τ sig (Elt F)) :
    after (ops (F := F)) V (Proc.devRef .tc main_v181) = ReadP.val_main_v181 (F := F) := by
  obtain ⟨W, h1, h2, h3⟩ := after_at (ops (F := F)) wr hwr hnd V 285 _ main_v181 rfl rfl
  have e0 := (h2 284 main_cst_40 (by decide) rfl).trans (L_main_cst_40 V)
  unfold ReadP.val_main_v181
  rw [h1]; clear h1 h2 h3
  generalize ReadP.val_main_cst_40 (F := F) = a0 at e0 ⊢
  (rw [unary_result, e0]) <;> rfl

theorem L_main_v182 (V : Valuation τ sig (Elt F)) :
    after (ops (F := F)) V (Proc.devRef .tc main_v182) = ReadP.val_main_v182 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 286 _ main_v182 rfl rfl
  have e0 := (h2 285 main_v181 (by decide) rfl).trans (L_main_v181 V)
  have e1 := (h2 283 main_v180 (by decide) rfl).trans (L_main_v180 V)
  unfold ReadP.val_main_v182
  rw [h1]; clear h1 h2 h3
  generalize ReadP.val_main_v181 (F := F) = a0 at e0 ⊢
  generalize ReadP.val_main_v180 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) = a1 at e1 ⊢
  (rw [binary_result, e0, e1]) <;> rfl

theorem L_main_v183 (V : Valuation τ sig (Elt F)) :
    after (ops (F := F)) V (Proc.devRef .tc main_v183) = ReadP.val_main_v183 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 287 _ main_v183 rfl rfl
  have e0 := (h2 262 main_v162 (by decide) rfl).trans (L_main_v162 V)
  unfold ReadP.val_main_v183
  rw [h1]; clear h1 h2 h3
  generalize ReadP.val_main_v162 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg18)) (V (Proc.devRef .tc main_arg19)) (V (Proc.devRef .tc main_arg24)) (V (Proc.devRef .tc main_arg25)) = a0 at e0 ⊢
  (rw [unary_result, e0]) <;> rfl

theorem L_main_v184 (V : Valuation τ sig (Elt F)) :
    after (ops (F := F)) V (Proc.devRef .tc main_v184) = ReadP.val_main_v184 (F := F) (V (Proc.devRef .tc main_arg6)) (V (Proc.devRef .tc main_arg17)) := by
  obtain ⟨W, h1, h2, h3⟩ := after_at (ops (F := F)) wr hwr hnd V 288 _ main_v184 rfl rfl
  have e0 := (h2 264 main_v164 (by decide) rfl).trans (L_main_v164 V)
  unfold ReadP.val_main_v184
  rw [h1]; clear h1 h2 h3
  generalize ReadP.val_main_v164 (F := F) (V (Proc.devRef .tc main_arg6)) (V (Proc.devRef .tc main_arg17)) = a0 at e0 ⊢
  (rw [unary_result, e0]) <;> rfl

theorem L_main_v185 (V : Valuation τ sig (Elt F)) :
    after (ops (F := F)) V (Proc.devRef .tc main_v185) = ReadP.val_main_v185 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 289 _ main_v185 rfl rfl
  have e0 := (h2 275 main_v173 (by decide) rfl).trans (L_main_v173 V)
  have e1 := (h2 288 main_v184 (by decide) rfl).trans (L_main_v184 V)
  unfold ReadP.val_main_v185
  rw [h1]; clear h1 h2 h3
  generalize ReadP.val_main_v173 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) = a0 at e0 ⊢
  generalize ReadP.val_main_v184 (F := F) (V (Proc.devRef .tc main_arg6)) (V (Proc.devRef .tc main_arg17)) = a1 at e1 ⊢
  (rw [binary_result, e0, e1]) <;> rfl

theorem L_main_v186 (V : Valuation τ sig (Elt F)) :
    after (ops (F := F)) V (Proc.devRef .tc main_v186) = ReadP.val_main_v186 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 290 _ main_v186 rfl rfl
  have e0 := (h2 287 main_v183 (by decide) rfl).trans (L_main_v183 V)
  have e1 := (h2 289 main_v185 (by decide) rfl).trans (L_main_v185 V)
  unfold ReadP.val_main_v186
  rw [h1]; clear h1 h2 h3
  generalize ReadP.val_main_v183 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg18)) (V (Proc.devRef .tc main_arg19)) (V (Proc.devRef .tc main_arg24)) (V (Proc.devRef .tc main_arg25)) = a0 at e0 ⊢
  generalize ReadP.val_main_v185 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) = a1 at e1 ⊢
  (rw [binary_result, e0, e1]) <;> rfl

theorem L_main_v187 (V : Valuation τ sig (Elt F)) :
    after (ops (F := F)) V (Proc.devRef .tc main_v187) = ReadP.val_main_v187 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 291 _ main_v187 rfl rfl
  have e0 := (h2 290 main_v186 (by decide) rfl).trans (L_main_v186 V)
  unfold ReadP.val_main_v187
  rw [h1]; clear h1 h2 h3
  generalize ReadP.val_main_v186 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) = a0 at e0 ⊢
  (rw [unary_result, e0]) <;> rfl

theorem L_main_cst_41 (V : Valuation τ sig (Elt F)) :
    after (ops (F := F)) V (Proc.devRef .tc main_cst_41) = ReadP.val_main_cst_41 (F := F) := by
  obtain ⟨W, h1, h2, h3⟩ := after_at (ops (F := F)) wr hwr hnd V 292 _ main_cst_41 rfl rfl
  unfold ReadP.val_main_cst_41
  rw [h1]; clear h1 h2 h3
  (rw [nullary_result]) <;> rfl

theorem L_main_v188 (V : Valuation τ sig (Elt F)) :
    after (ops (F := F)) V (Proc.devRef .tc main_v188) = ReadP.val_main_v188 (F := F) := by
  obtain ⟨W, h1, h2, h3⟩ := after_at (ops (F := F)) wr hwr hnd V 293 _ main_v188 rfl rfl
  have e0 := (h2 292 main_cst_41 (by decide) rfl).trans (L_main_cst_41 V)
  unfold ReadP.val_main_v188
  rw [h1]; clear h1 h2 h3
  generalize ReadP.val_main_cst_41 (F := F) = a0 at e0 ⊢
  (rw [unary_result, e0]) <;> rfl

theorem L_main_v189 (V : Valuation τ sig (Elt F)) :
    after (ops (F := F)) V (Proc.devRef .tc main_v189) = ReadP.val_main_v189 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 294 _ main_v189 rfl rfl
  have e0 := (h2 293 main_v188 (by decide) rfl).trans (L_main_v188 V)
  have e1 := (h2 286 main_v182 (by decide) rfl).trans (L_main_v182 V)
  unfold ReadP.val_main_v189
  rw [h1]; clear h1 h2 h3
  generalize ReadP.val_main_v188 (F := F) = a0 at e0 ⊢
  generalize ReadP.val_main_v182 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) = a1 at e1 ⊢
  (rw [binary_result, e0, e1]) <;> rfl

theorem L_main_v190 (V : Valuation τ sig (Elt F)) :
    after (ops (F := F)) V (Proc.devRef .tc main_v190) = ReadP.val_main_v190 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 295 _ main_v190 rfl rfl
  have e0 := (h2 294 main_v189 (by decide) rfl).trans (L_main_v189 V)
  have e1 := (h2 291 main_v187 (by decide) rfl).trans (L_main_v187 V)
  unfold ReadP.val_main_v190
  rw [h1]; clear h1 h2 h3
  generalize ReadP.val_main_v189 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) = a0 at e0 ⊢
  generalize ReadP.val_main_v187 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) = a1 at e1 ⊢
  (rw [binary_result, e0, e1]) <;> rfl

theorem L_main_v191 (V : Valuation τ sig (Elt F)) :
    after (ops (F := F)) V (Proc.devRef .tc main_v191) = ReadP.val_main_v191 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 296 _ main_v191 rfl rfl
  have e0 := (h2 286 main_v182 (by decide) rfl).trans (L_main_v182 V)
  have e1 := h3 main_arg6 nm_main_arg6
  unfold ReadP.val_main_v191
  rw [h1]; clear h1 h2 h3
  generalize ReadP.val_main_v182 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) = a0 at e0 ⊢
  generalize V (Proc.devRef .tc main_arg6) = a1 at e1 ⊢
  (rw [binary_result, e0, e1]) <;> rfl

theorem L_main_v192 (V : Valuation τ sig (Elt F)) :
    after (ops (F := F)) V (Proc.devRef .tc main_v192) = ReadP.val_main_v192 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 297 _ main_v192 rfl rfl
  have e0 := (h2 295 main_v190 (by decide) rfl).trans (L_main_v190 V)
  have e1 := (h2 296 main_v191 (by decide) rfl).trans (L_main_v191 V)
  unfold ReadP.val_main_v192
  rw [h1]; clear h1 h2 h3
  generalize ReadP.val_main_v190 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) = a0 at e0 ⊢
  generalize ReadP.val_main_v191 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) = a1 at e1 ⊢
  (rw [binary_result, e0, e1]) <;> rfl

theorem L_main_cst_42 (V : Valuation τ sig (Elt F)) :
    after (ops (F := F)) V (Proc.devRef .tc main_cst_42) = ReadP.val_main_cst_42 (F := F) := by
  obtain ⟨W, h1, h2, h3⟩ := after_at (ops (F := F)) wr hwr hnd V 298 _ main_cst_42 rfl rfl
  unfold ReadP.val_main_cst_42
  rw [h1]; clear h1 h2 h3
  (rw [nullary_result]) <;> rfl

theorem L_main_cst_43 (V : Valuation τ sig (Elt F)) :
    after (ops (F := F)) V (Proc.devRef .tc main_cst_43) = ReadP.val_main_cst_43 (F := F) := by
  obtain ⟨W, h1, h2, h3⟩ := after_at (ops (F := F)) wr hwr hnd V 299 _ main_cst_43 rfl rfl
  unfold ReadP.val_main_cst_43
  rw [h1]; clear h1 h2 h3
  (rw [nullary_result]) <;> rfl

theorem L_main_call9_v0 (V : Valuation τ sig (Elt F)) :
    after (ops (F := F)) V (Proc.devRef .tc main_call9_v0) = ReadP.val_main_call9_v0 (F := F) := by
  obtain ⟨W, h1, h2, h3⟩ := after_at (ops (F := F)) wr hwr hnd V 300 _ main_call9_v0 rfl rfl
  have e0 := (h2 298 main_cst_42 (by decide) rfl).trans (L_main_cst_42 V)
  have cy : ∀ v : (⟨S_, .f32⟩ : BufTy).Contents (Elt F), ((TRef.of (T := ⟨S_, .f32⟩) main_call9_v0) : TRef sig _).toBuf v = v := fun _ => rfl
  have cx0 : ∀ u, ((TRef.of (T := ⟨S_, .f32⟩) main_cst_42) : TRef sig _).ofBuf (Val := Elt F) u = u := fun _ => rfl
  unfold ReadP.val_main_call9_v0
  rw [h1]; clear h1 h2 h3
  generalize ReadP.val_main_cst_42 (F := F) = a0 at e0 ⊢
  (rw [unary_result, cy, cx0, e0]) <;> rfl

theorem L_main_call9_v1 (V : Valuation τ sig (Elt F)) :
    after (ops (F := F)) V (Proc.devRef .tc main_call9_v1) = ReadP.val_main_call9_v1 (F := F) := by
  obtain ⟨W, h1, h2, h3⟩ := after_at (ops (F := F)) wr hwr hnd V 301 _ main_call9_v1 rfl rfl
  have e0 := (h2 300 main_call9_v0 (by decide) rfl).trans (L_main_call9_v0 V)
  have cy : ∀ v : (⟨S65536x128, .f32⟩ : BufTy).Contents (Elt F), ((TRef.of (T := ⟨S65536x128, .f32⟩) main_call9_v1) : TRef sig _).toBuf v = v := fun _ => rfl
  have cx0 : ∀ u, ((TRef.of (T := ⟨S_, .f32⟩) main_call9_v0) : TRef sig _).ofBuf (Val := Elt F) u = u := fun _ => rfl
  unfold ReadP.val_main_call9_v1
  rw [h1]; clear h1 h2 h3
  generalize ReadP.val_main_call9_v0 (F := F) = a0 at e0 ⊢
  (rw [unary_result, cy, cx0, e0]) <;> rfl

theorem L_main_call9_v2 (V : Valuation τ sig (Elt F)) :
    after (ops (F := F)) V (Proc.devRef .tc main_call9_v2) = ReadP.val_main_call9_v2 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 302 _ main_call9_v2 rfl rfl
  have e0 := (h2 301 main_call9_v1 (by decide) rfl).trans (L_main_call9_v1 V)
  have e1 := (h2 297 main_v192 (by decide) rfl).trans (L_main_v192 V)
  have cy : ∀ v : (⟨S65536x128, .f32⟩ : BufTy).Contents (Elt F), ((TRef.of (T := ⟨S65536x128, .f32⟩) main_call9_v2) : TRef sig _).toBuf v = v := fun _ => rfl
  have cx0 : ∀ u, ((TRef.of (T := ⟨S65536x128, .f32⟩) main_call9_v1) : TRef sig _).ofBuf (Val := Elt F) u = u := fun _ => rfl
  have cx1 : ∀ u, ((TRef.of (T := ⟨S65536x128, .f32⟩) main_v192) : TRef sig _).ofBuf (Val := Elt F) u = u := fun _ => rfl
  unfold ReadP.val_main_call9_v2
  rw [h1]; clear h1 h2 h3
  generalize ReadP.val_main_call9_v1 (F := F) = a0 at e0 ⊢
  generalize ReadP.val_main_v192 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) = a1 at e1 ⊢
  (rw [binary_result, cy, cx0, cx1, e0, e1]) <;> rfl

theorem L_main_call9_v3 (V : Valuation τ sig (Elt F)) :
    after (ops (F := F)) V (Proc.devRef .tc main_call9_v3) = ReadP.val_main_call9_v3 (F := F) := by
  obtain ⟨W, h1, h2, h3⟩ := after_at (ops (F := F)) wr hwr hnd V 303 _ main_call9_v3 rfl rfl
  have e0 := (h2 299 main_cst_43 (by decide) rfl).trans (L_main_cst_43 V)
  have cy : ∀ v : (⟨S_, .f32⟩ : BufTy).Contents (Elt F), ((TRef.of (T := ⟨S_, .f32⟩) main_call9_v3) : TRef sig _).toBuf v = v := fun _ => rfl
  have cx0 : ∀ u, ((TRef.of (T := ⟨S_, .f32⟩) main_cst_43) : TRef sig _).ofBuf (Val := Elt F) u = u := fun _ => rfl
  unfold ReadP.val_main_call9_v3
  rw [h1]; clear h1 h2 h3
  generalize ReadP.val_main_cst_43 (F := F) = a0 at e0 ⊢
  (rw [unary_result, cy, cx0, e0]) <;> rfl

theorem L_main_call9_v4 (V : Valuation τ sig (Elt F)) :
    after (ops (F := F)) V (Proc.devRef .tc main_call9_v4) = ReadP.val_main_call9_v4 (F := F) := by
  obtain ⟨W, h1, h2, h3⟩ := after_at (ops (F := F)) wr hwr hnd V 304 _ main_call9_v4 rfl rfl
  have e0 := (h2 303 main_call9_v3 (by decide) rfl).trans (L_main_call9_v3 V)
  have cy : ∀ v : (⟨S65536x128, .f32⟩ : BufTy).Contents (Elt F), ((TRef.of (T := ⟨S65536x128, .f32⟩) main_call9_v4) : TRef sig _).toBuf v = v := fun _ => rfl
  have cx0 : ∀ u, ((TRef.of (T := ⟨S_, .f32⟩) main_call9_v3) : TRef sig _).ofBuf (Val := Elt F) u = u := fun _ => rfl
  unfold ReadP.val_main_call9_v4
  rw [h1]; clear h1 h2 h3
  generalize ReadP.val_main_call9_v3 (F := F) = a0 at e0 ⊢
  (rw [unary_result, cy, cx0, e0]) <;> rfl

theorem L_main_v193 (V : Valuation τ sig (Elt F)) :
    after (ops (F := F)) V (Proc.devRef .tc main_v193) = ReadP.val_main_v193 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) := by
  obtain ⟨W, h1, h2, h3⟩ := after_at (ops (F := F)) wr hwr hnd V 305 _ main_v193 rfl rfl
  have e0 := (h2 304 main_call9_v4 (by decide) rfl).trans (L_main_call9_v4 V)
  have e1 := (h2 302 main_call9_v2 (by decide) rfl).trans (L_main_call9_v2 V)
  have cy : ∀ v : (⟨S65536x128, .f32⟩ : BufTy).Contents (Elt F), ((TRef.of (T := ⟨S65536x128, .f32⟩) main_v193) : TRef sig _).toBuf v = v := fun _ => rfl
  have cx0 : ∀ u, ((TRef.of (T := ⟨S65536x128, .f32⟩) main_call9_v4) : TRef sig _).ofBuf (Val := Elt F) u = u := fun _ => rfl
  have cx1 : ∀ u, ((TRef.of (T := ⟨S65536x128, .f32⟩) main_call9_v2) : TRef sig _).ofBuf (Val := Elt F) u = u := fun _ => rfl
  unfold ReadP.val_main_v193
  rw [h1]; clear h1 h2 h3
  generalize ReadP.val_main_call9_v4 (F := F) = a0 at e0 ⊢
  generalize ReadP.val_main_call9_v2 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) = a1 at e1 ⊢
  (rw [binary_result, cy, cx0, cx1, e0, e1]) <;> rfl

theorem L_main_v194 (V : Valuation τ sig (Elt F)) :
    after (ops (F := F)) V (Proc.devRef .tc main_v194) = ReadP.val_main_v194 (F := F) (V (Proc.devRef .tc main_arg20)) := by
  obtain ⟨W, h1, h2, h3⟩ := after_at (ops (F := F)) wr hwr hnd V 306 _ main_v194 rfl rfl
  have e0 := h3 main_arg20 nm_main_arg20
  unfold ReadP.val_main_v194
  rw [h1]; clear h1 h2 h3
  generalize V (Proc.devRef .tc main_arg20) = a0 at e0 ⊢
  (rw [unary_result, e0]) <;> rfl

theorem L_main_v195 (V : Valuation τ sig (Elt F)) :
    after (ops (F := F)) V (Proc.devRef .tc main_v195) = ReadP.val_main_v195 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg24)) (V (Proc.devRef .tc main_arg25)) := by
  obtain ⟨W, h1, h2, h3⟩ := after_at (ops (F := F)) wr hwr hnd V 307 _ main_v195 rfl rfl
  have e0 := (h2 305 main_v193 (by decide) rfl).trans (L_main_v193 V)
  have e1 := (h2 306 main_v194 (by decide) rfl).trans (L_main_v194 V)
  unfold ReadP.val_main_v195
  rw [h1]; clear h1 h2 h3
  generalize ReadP.val_main_v193 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) = a0 at e0 ⊢
  generalize ReadP.val_main_v194 (F := F) (V (Proc.devRef .tc main_arg20)) = a1 at e1 ⊢
  (rw [binary_result, e0, e1]) <;> rfl

theorem L_main_v196 (V : Valuation τ sig (Elt F)) :
    after (ops (F := F)) V (Proc.devRef .tc main_v196) = ReadP.val_main_v196 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg24)) (V (Proc.devRef .tc main_arg25)) := by
  obtain ⟨W, h1, h2, h3⟩ := after_at (ops (F := F)) wr hwr hnd V 308 _ main_v196 rfl rfl
  have e0 := (h2 307 main_v195 (by decide) rfl).trans (L_main_v195 V)
  unfold ReadP.val_main_v196
  rw [h1]; clear h1 h2 h3
  generalize ReadP.val_main_v195 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg24)) (V (Proc.devRef .tc main_arg25)) = a0 at e0 ⊢
  (rw [unary_result, e0]) <;> rfl

theorem L_main_v197 (V : Valuation τ sig (Elt F)) :
    after (ops (F := F)) V (Proc.devRef .tc main_v197) = ReadP.val_main_v197 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg24)) (V (Proc.devRef .tc main_arg25)) := by
  obtain ⟨W, h1, h2, h3⟩ := after_at (ops (F := F)) wr hwr hnd V 309 _ main_v197 rfl rfl
  have e0 := (h2 308 main_v196 (by decide) rfl).trans (L_main_v196 V)
  unfold ReadP.val_main_v197
  rw [h1]; clear h1 h2 h3
  generalize ReadP.val_main_v196 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg24)) (V (Proc.devRef .tc main_arg25)) = a0 at e0 ⊢
  (rw [unary_result, e0]) <;> rfl

theorem L_main_cst_44 (V : Valuation τ sig (Elt F)) :
    after (ops (F := F)) V (Proc.devRef .tc main_cst_44) = ReadP.val_main_cst_44 (F := F) := by
  obtain ⟨W, h1, h2, h3⟩ := after_at (ops (F := F)) wr hwr hnd V 310 _ main_cst_44 rfl rfl
  unfold ReadP.val_main_cst_44
  rw [h1]; clear h1 h2 h3
  (rw [nullary_result]) <;> rfl

theorem L_main_v198 (V : Valuation τ sig (Elt F)) :
    after (ops (F := F)) V (Proc.devRef .tc main_v198) = ReadP.val_main_v198 (F := F) := by
  obtain ⟨W, h1, h2, h3⟩ := after_at (ops (F := F)) wr hwr hnd V 311 _ main_v198 rfl rfl
  have e0 := (h2 310 main_cst_44 (by decide) rfl).trans (L_main_cst_44 V)
  unfold ReadP.val_main_v198
  rw [h1]; clear h1 h2 h3
  generalize ReadP.val_main_cst_44 (F := F) = a0 at e0 ⊢
  (rw [unary_result, e0]) <;> rfl

theorem L_main_v199 (V : Valuation τ sig (Elt F)) :
    after (ops (F := F)) V (Proc.devRef .tc main_v199) = ReadP.val_main_v199 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg24)) (V (Proc.devRef .tc main_arg25)) := by
  obtain ⟨W, h1, h2, h3⟩ := after_at (ops (F := F)) wr hwr hnd V 312 _ main_v199 rfl rfl
  have e0 := (h2 311 main_v198 (by decide) rfl).trans (L_main_v198 V)
  have e1 := (h2 309 main_v197 (by decide) rfl).trans (L_main_v197 V)
  unfold ReadP.val_main_v199
  rw [h1]; clear h1 h2 h3
  generalize ReadP.val_main_v198 (F := F) = a0 at e0 ⊢
  generalize ReadP.val_main_v197 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg24)) (V (Proc.devRef .tc main_arg25)) = a1 at e1 ⊢
  (rw [binary_result, e0, e1]) <;> rfl

theorem L_main_cst_45 (V : Valuation τ sig (Elt F)) :
    after (ops (F := F)) V (Proc.devRef .tc main_cst_45) = ReadP.val_main_cst_45 (F := F) := by
  obtain ⟨W, h1, h2, h3⟩ := after_at (ops (F := F)) wr hwr hnd V 313 _ main_cst_45 rfl rfl
  unfold ReadP.val_main_cst_45
  rw [h1]; clear h1 h2 h3
  (rw [nullary_result]) <;> rfl

theorem L_main_v200 (V : Valuation τ sig (Elt F)) :
    after (ops (F := F)) V (Proc.devRef .tc main_v200) = ReadP.val_main_v200 (F := F) := by
  obtain ⟨W, h1, h2, h3⟩ := after_at (ops (F := F)) wr hwr hnd V 314 _ main_v200 rfl rfl
  have e0 := (h2 313 main_cst_45 (by decide) rfl).trans (L_main_cst_45 V)
  unfold ReadP.val_main_v200
  rw [h1]; clear h1 h2 h3
  generalize ReadP.val_main_cst_45 (F := F) = a0 at e0 ⊢
  (rw [unary_result, e0]) <;> rfl

theorem L_main_v201 (V : Valuation τ sig (Elt F)) :
    after (ops (F := F)) V (Proc.devRef .tc main_v201) = ReadP.val_main_v201 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg24)) (V (Proc.devRef .tc main_arg25)) := by
  obtain ⟨W, h1, h2, h3⟩ := after_at (ops (F := F)) wr hwr hnd V 315 _ main_v201 rfl rfl
  have e0 := (h2 314 main_v200 (by decide) rfl).trans (L_main_v200 V)
  have e1 := (h2 312 main_v199 (by decide) rfl).trans (L_main_v199 V)
  unfold ReadP.val_main_v201
  rw [h1]; clear h1 h2 h3
  generalize ReadP.val_main_v200 (F := F) = a0 at e0 ⊢
  generalize ReadP.val_main_v199 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg24)) (V (Proc.devRef .tc main_arg25)) = a1 at e1 ⊢
  (rw [binary_result, e0, e1]) <;> rfl

theorem L_main_v202 (V : Valuation τ sig (Elt F)) :
    after (ops (F := F)) V (Proc.devRef .tc main_v202) = ReadP.val_main_v202 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg24)) (V (Proc.devRef .tc main_arg25)) := by
  obtain ⟨W, h1, h2, h3⟩ := after_at (ops (F := F)) wr hwr hnd V 316 _ main_v202 rfl rfl
  have e0 := (h2 305 main_v193 (by decide) rfl).trans (L_main_v193 V)
  have e1 := (h2 315 main_v201 (by decide) rfl).trans (L_main_v201 V)
  unfold ReadP.val_main_v202
  rw [h1]; clear h1 h2 h3
  generalize ReadP.val_main_v193 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) = a0 at e0 ⊢
  generalize ReadP.val_main_v201 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg24)) (V (Proc.devRef .tc main_arg25)) = a1 at e1 ⊢
  (rw [binary_result, e0, e1]) <;> rfl

theorem L_main_cst_46 (V : Valuation τ sig (Elt F)) :
    after (ops (F := F)) V (Proc.devRef .tc main_cst_46) = ReadP.val_main_cst_46 (F := F) := by
  obtain ⟨W, h1, h2, h3⟩ := after_at (ops (F := F)) wr hwr hnd V 317 _ main_cst_46 rfl rfl
  unfold ReadP.val_main_cst_46
  rw [h1]; clear h1 h2 h3
  (rw [nullary_result]) <;> rfl

theorem L_main_cst_47 (V : Valuation τ sig (Elt F)) :
    after (ops (F := F)) V (Proc.devRef .tc main_cst_47) = ReadP.val_main_cst_47 (F := F) := by
  obtain ⟨W, h1, h2, h3⟩ := after_at (ops (F := F)) wr hwr hnd V 318 _ main_cst_47 rfl rfl
  unfold ReadP.val_main_cst_47
  rw [h1]; clear h1 h2 h3
  (rw [nullary_result]) <;> rfl

theorem L_main_call10_v0 (V : Valuation τ sig (Elt F)) :
    after (ops (F := F)) V (Proc.devRef .tc main_call10_v0) = ReadP.val_main_call10_v0 (F := F) := by
  obtain ⟨W, h1, h2, h3⟩ := after_at (ops (F := F)) wr hwr hnd V 319 _ main_call10_v0 rfl rfl
  have e0 := (h2 317 main_cst_46 (by decide) rfl).trans (L_main_cst_46 V)
  have cy : ∀ v : (⟨S_, .f32⟩ : BufTy).Contents (Elt F), ((TRef.of (T := ⟨S_, .f32⟩) main_call10_v0) : TRef sig _).toBuf v = v := fun _ => rfl
  have cx0 : ∀ u, ((TRef.of (T := ⟨S_, .f32⟩) main_cst_46) : TRef sig _).ofBuf (Val := Elt F) u = u := fun _ => rfl
  unfold ReadP.val_main_call10_v0
  rw [h1]; clear h1 h2 h3
  generalize ReadP.val_main_cst_46 (F := F) = a0 at e0 ⊢
  (rw [unary_result, cy, cx0, e0]) <;> rfl

theorem L_main_call10_v1 (V : Valuation τ sig (Elt F)) :
    after (ops (F := F)) V (Proc.devRef .tc main_call10_v1) = ReadP.val_main_call10_v1 (F := F) := by
  obtain ⟨W, h1, h2, h3⟩ := after_at (ops (F := F)) wr hwr hnd V 320 _ main_call10_v1 rfl rfl
  have e0 := (h2 319 main_call10_v0 (by decide) rfl).trans (L_main_call10_v0 V)
  have cy : ∀ v : (⟨S65536x128, .f32⟩ : BufTy).Contents (Elt F), ((TRef.of (T := ⟨S65536x128, .f32⟩) main_call10_v1) : TRef sig _).toBuf v = v := fun _ => rfl
  have cx0 : ∀ u, ((TRef.of (T := ⟨S_, .f32⟩) main_call10_v0) : TRef sig _).ofBuf (Val := Elt F) u = u := fun _ => rfl
  unfold ReadP.val_main_call10_v1
  rw [h1]; clear h1 h2 h3
  generalize ReadP.val_main_call10_v0 (F := F) = a0 at e0 ⊢
  (rw [unary_result, cy, cx0, e0]) <;> rfl

theorem L_main_call10_v2 (V : Valuation τ sig (Elt F)) :
    after (ops (F := F)) V (Proc.devRef .tc main_call10_v2) = ReadP.val_main_call10_v2 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg24)) (V (Proc.devRef .tc main_arg25)) := by
  obtain ⟨W, h1, h2, h3⟩ := after_at (ops (F := F)) wr hwr hnd V 321 _ main_call10_v2 rfl rfl
  have e0 := (h2 320 main_call10_v1 (by decide) rfl).trans (L_main_call10_v1 V)
  have e1 := (h2 316 main_v202 (by decide) rfl).trans (L_main_v202 V)
  have cy : ∀ v : (⟨S65536x128, .f32⟩ : BufTy).Contents (Elt F), ((TRef.of (T := ⟨S65536x128, .f32⟩) main_call10_v2) : TRef sig _).toBuf v = v := fun _ => rfl
  have cx0 : ∀ u, ((TRef.of (T := ⟨S65536x128, .f32⟩) main_call10_v1) : TRef sig _).ofBuf (Val := Elt F) u = u := fun _ => rfl
  have cx1 : ∀ u, ((TRef.of (T := ⟨S65536x128, .f32⟩) main_v202) : TRef sig _).ofBuf (Val := Elt F) u = u := fun _ => rfl
  unfold ReadP.val_main_call10_v2
  rw [h1]; clear h1 h2 h3
  generalize ReadP.val_main_call10_v1 (F := F) = a0 at e0 ⊢
  generalize ReadP.val_main_v202 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg24)) (V (Proc.devRef .tc main_arg25)) = a1 at e1 ⊢
  (rw [binary_result, cy, cx0, cx1, e0, e1]) <;> rfl

theorem L_main_call10_v3 (V : Valuation τ sig (Elt F)) :
    after (ops (F := F)) V (Proc.devRef .tc main_call10_v3) = ReadP.val_main_call10_v3 (F := F) := by
  obtain ⟨W, h1, h2, h3⟩ := after_at (ops (F := F)) wr hwr hnd V 322 _ main_call10_v3 rfl rfl
  have e0 := (h2 318 main_cst_47 (by decide) rfl).trans (L_main_cst_47 V)
  have cy : ∀ v : (⟨S_, .f32⟩ : BufTy).Contents (Elt F), ((TRef.of (T := ⟨S_, .f32⟩) main_call10_v3) : TRef sig _).toBuf v = v := fun _ => rfl
  have cx0 : ∀ u, ((TRef.of (T := ⟨S_, .f32⟩) main_cst_47) : TRef sig _).ofBuf (Val := Elt F) u = u := fun _ => rfl
  unfold ReadP.val_main_call10_v3
  rw [h1]; clear h1 h2 h3
  generalize ReadP.val_main_cst_47 (F := F) = a0 at e0 ⊢
  (rw [unary_result, cy, cx0, e0]) <;> rfl

theorem L_main_call10_v4 (V : Valuation τ sig (Elt F)) :
    after (ops (F := F)) V (Proc.devRef .tc main_call10_v4) = ReadP.val_main_call10_v4 (F := F) := by
  obtain ⟨W, h1, h2, h3⟩ := after_at (ops (F := F)) wr hwr hnd V 323 _ main_call10_v4 rfl rfl
  have e0 := (h2 322 main_call10_v3 (by decide) rfl).trans (L_main_call10_v3 V)
  have cy : ∀ v : (⟨S65536x128, .f32⟩ : BufTy).Contents (Elt F), ((TRef.of (T := ⟨S65536x128, .f32⟩) main_call10_v4) : TRef sig _).toBuf v = v := fun _ => rfl
  have cx0 : ∀ u, ((TRef.of (T := ⟨S_, .f32⟩) main_call10_v3) : TRef sig _).ofBuf (Val := Elt F) u = u := fun _ => rfl
  unfold ReadP.val_main_call10_v4
  rw [h1]; clear h1 h2 h3
  generalize ReadP.val_main_call10_v3 (F := F) = a0 at e0 ⊢
  (rw [unary_result, cy, cx0, e0]) <;> rfl

theorem L_main_v203 (V : Valuation τ sig (Elt F)) :
    after (ops (F := F)) V (Proc.devRef .tc main_v203) = ReadP.val_main_v203 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg24)) (V (Proc.devRef .tc main_arg25)) := by
  obtain ⟨W, h1, h2, h3⟩ := after_at (ops (F := F)) wr hwr hnd V 324 _ main_v203 rfl rfl
  have e0 := (h2 323 main_call10_v4 (by decide) rfl).trans (L_main_call10_v4 V)
  have e1 := (h2 321 main_call10_v2 (by decide) rfl).trans (L_main_call10_v2 V)
  have cy : ∀ v : (⟨S65536x128, .f32⟩ : BufTy).Contents (Elt F), ((TRef.of (T := ⟨S65536x128, .f32⟩) main_v203) : TRef sig _).toBuf v = v := fun _ => rfl
  have cx0 : ∀ u, ((TRef.of (T := ⟨S65536x128, .f32⟩) main_call10_v4) : TRef sig _).ofBuf (Val := Elt F) u = u := fun _ => rfl
  have cx1 : ∀ u, ((TRef.of (T := ⟨S65536x128, .f32⟩) main_call10_v2) : TRef sig _).ofBuf (Val := Elt F) u = u := fun _ => rfl
  unfold ReadP.val_main_v203
  rw [h1]; clear h1 h2 h3
  generalize ReadP.val_main_call10_v4 (F := F) = a0 at e0 ⊢
  generalize ReadP.val_main_call10_v2 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg24)) (V (Proc.devRef .tc main_arg25)) = a1 at e1 ⊢
  (rw [binary_result, cy, cx0, cx1, e0, e1]) <;> rfl

theorem L_main_v204 (V : Valuation τ sig (Elt F)) :
    after (ops (F := F)) V (Proc.devRef .tc main_v204) = ReadP.val_main_v204 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg24)) (V (Proc.devRef .tc main_arg25)) := by
  obtain ⟨W, h1, h2, h3⟩ := after_at (ops (F := F)) wr hwr hnd V 325 _ main_v204 rfl rfl
  have e0 := (h2 188 main_v109 (by decide) rfl).trans (L_main_v109 V)
  have e1 := (h2 256 main_v156 (by decide) rfl).trans (L_main_v156 V)
  have e2 := (h2 324 main_v203 (by decide) rfl).trans (L_main_v203 V)
  have e3 := (h2 107 main_v51 (by decide) rfl).trans (L_main_v51 V)
  unfold ReadP.val_main_v204
  rw [h1]; clear h1 h2 h3
  generalize ReadP.val_main_v109 (F := F) (V (Proc.devRef .tc main_arg0)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg18)) (V (Proc.devRef .tc main_arg24)) (V (Proc.devRef .tc main_arg25)) = a0 at e0 ⊢
  generalize ReadP.val_main_v156 (F := F) (V (Proc.devRef .tc main_arg0)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg18)) (V (Proc.devRef .tc main_arg19)) (V (Proc.devRef .tc main_arg24)) (V (Proc.devRef .tc main_arg25)) = a1 at e1 ⊢
  generalize ReadP.val_main_v203 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg24)) (V (Proc.devRef .tc main_arg25)) = a2 at e2 ⊢
  generalize ReadP.val_main_v51 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) = a3 at e3 ⊢
  rw [nary_result]
  show concatenate S65536x608 1 [⟨S65536x160, W (Proc.devRef .tc main_v109)⟩, ⟨S65536x128, W (Proc.devRef .tc main_v156)⟩, ⟨S65536x128, W (Proc.devRef .tc main_v203)⟩, ⟨S65536x192, W (Proc.devRef .tc main_v51)⟩] concatenates_S65536x160_S65536x128_S65536x128_S65536x192_S65536x608_d1 = _
  (rw [e0, e1, e2, e3]) <;> rfl

theorem L_main_v205 (V : Valuation τ sig (Elt F)) :
    after (ops (F := F)) V (Proc.devRef .tc main_v205) = ReadP.val_main_v205 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) := by
  obtain ⟨W, h1, h2, h3⟩ := after_at (ops (F := F)) wr hwr hnd V 326 _ main_v205 rfl rfl
  have e0 := (h2 120 main_v62 (by decide) rfl).trans (L_main_v62 V)
  unfold ReadP.val_main_v205
  rw [h1]; clear h1 h2 h3
  generalize ReadP.val_main_v62 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) = a0 at e0 ⊢
  (rw [unary_result, e0]) <;> rfl

theorem L_main_v206 (V : Valuation τ sig (Elt F)) :
    after (ops (F := F)) V (Proc.devRef .tc main_v206) = ReadP.val_main_v206 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) := by
  obtain ⟨W, h1, h2, h3⟩ := after_at (ops (F := F)) wr hwr hnd V 327 _ main_v206 rfl rfl
  have e0 := (h2 326 main_v205 (by decide) rfl).trans (L_main_v205 V)
  unfold ReadP.val_main_v206
  rw [h1]; clear h1 h2 h3
  generalize ReadP.val_main_v205 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) = a0 at e0 ⊢
  (rw [unary_result, e0]) <;> rfl

theorem L_main_v207 (V : Valuation τ sig (Elt F)) :
    after (ops (F := F)) V (Proc.devRef .tc main_v207) = ReadP.val_main_v207 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) := by
  obtain ⟨W, h1, h2, h3⟩ := after_at (ops (F := F)) wr hwr hnd V 328 _ main_v207 rfl rfl
  have e0 := (h2 327 main_v206 (by decide) rfl).trans (L_main_v206 V)
  have e1 := (h2 84 main_v37 (by decide) rfl).trans (L_main_v37 V)
  unfold ReadP.val_main_v207
  rw [h1]; clear h1 h2 h3
  generalize ReadP.val_main_v206 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) = a0 at e0 ⊢
  generalize ReadP.val_main_v37 (F := F) (V (Proc.devRef .tc main_arg0)) (V (Proc.devRef .tc main_arg2)) (V (Proc.devRef .tc main_arg3)) (V (Proc.devRef .tc main_arg8)) (V (Proc.devRef .tc main_arg9)) = a1 at e1 ⊢
  (rw [binary_result, e0, e1]) <;> rfl

theorem L_main_v208 (V : Valuation τ sig (Elt F)) :
    after (ops (F := F)) V (Proc.devRef .tc main_v208) = ReadP.val_main_v208 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg24)) (V (Proc.devRef .tc main_arg25)) := by
  obtain ⟨W, h1, h2, h3⟩ := after_at (ops (F := F)) wr hwr hnd V 329 _ main_v208 rfl rfl
  have e0 := (h2 325 main_v204 (by decide) rfl).trans (L_main_v204 V)
  have e1 := (h2 328 main_v207 (by decide) rfl).trans (L_main_v207 V)
  have e2 := (h2 82 main_v35 (by decide) rfl).trans (L_main_v35 V)
  unfold ReadP.val_main_v208
  rw [h1]; clear h1 h2 h3
  generalize ReadP.val_main_v204 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg24)) (V (Proc.devRef .tc main_arg25)) = a0 at e0 ⊢
  generalize ReadP.val_main_v207 (F := F) (V (Proc.devRef .tc main_arg0)) (V (Proc.devRef .tc main_arg2)) (V (Proc.devRef .tc main_arg3)) (V (Proc.devRef .tc main_arg7)) (V (Proc.devRef .tc main_arg8)) (V (Proc.devRef .tc main_arg9)) (V (Proc.devRef .tc main_arg10)) (V (Proc.devRef .tc main_arg11)) (V (Proc.devRef .tc main_arg24)) (V (Proc.devRef .tc main_arg25)) = a1 at e1 ⊢
  generalize ReadP.val_main_v35 (F := F) (V (Proc.devRef .tc main_arg0)) (V (Proc.devRef .tc main_arg2)) (V (Proc.devRef .tc main_arg8)) (V (Proc.devRef .tc main_arg9)) = a2 at e2 ⊢
  rw [nary_result]
  show concatenate S65536x688 1 [⟨S65536x608, W (Proc.devRef .tc main_v204)⟩, ⟨S65536x40, W (Proc.devRef .tc main_v207)⟩, ⟨S65536x40, W (Proc.devRef .tc main_v35)⟩] concatenates_S65536x608_S65536x40_S65536x40_S65536x688_d1 = _
  (rw [e0, e1, e2]) <;> rfl

theorem L_main_v209 (V : Valuation τ sig (Elt F)) :
    after (ops (F := F)) V (Proc.devRef .tc main_v209) = ReadP.val_main_v209 (F := F) (V (Proc.devRef .tc main_arg22)) := by
  obtain ⟨W, h1, h2, h3⟩ := after_at (ops (F := F)) wr hwr hnd V 330 _ main_v209 rfl rfl
  have e0 := h3 main_arg22 nm_main_arg22
  unfold ReadP.val_main_v209
  rw [h1]; clear h1 h2 h3
  generalize V (Proc.devRef .tc main_arg22) = a0 at e0 ⊢
  (rw [unary_result, e0]) <;> rfl

theorem L_main_v210 (V : Valuation τ sig (Elt F)) :
    after (ops (F := F)) V (Proc.devRef .tc main_v210) = ReadP.val_main_v210 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg22)) (V (Proc.devRef .tc main_arg24)) (V (Proc.devRef .tc main_arg25)) := by
  obtain ⟨W, h1, h2, h3⟩ := after_at (ops (F := F)) wr hwr hnd V 331 _ main_v210 rfl rfl
  have e0 := (h2 329 main_v208 (by decide) rfl).trans (L_main_v208 V)
  have e1 := (h2 330 main_v209 (by decide) rfl).trans (L_main_v209 V)
  unfold ReadP.val_main_v210
  rw [h1]; clear h1 h2 h3
  generalize ReadP.val_main_v208 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg24)) (V (Proc.devRef .tc main_arg25)) = a0 at e0 ⊢
  generalize ReadP.val_main_v209 (F := F) (V (Proc.devRef .tc main_arg22)) = a1 at e1 ⊢
  (rw [binary_result, e0, e1]) <;> rfl

theorem L_main_v211 (V : Valuation τ sig (Elt F)) :
    after (ops (F := F)) V (Proc.devRef .tc main_v211) = ReadP.val_main_v211 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg22)) (V (Proc.devRef .tc main_arg24)) (V (Proc.devRef .tc main_arg25)) := by
  obtain ⟨W, h1, h2, h3⟩ := after_at (ops (F := F)) wr hwr hnd V 332 _ main_v211 rfl rfl
  have e0 := (h2 331 main_v210 (by decide) rfl).trans (L_main_v210 V)
  unfold ReadP.val_main_v211
  rw [h1]; clear h1 h2 h3
  generalize ReadP.val_main_v210 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg22)) (V (Proc.devRef .tc main_arg24)) (V (Proc.devRef .tc main_arg25)) = a0 at e0 ⊢
  (rw [unary_result, e0]) <;> rfl

theorem L_main_cst_48 (V : Valuation τ sig (Elt F)) :
    after (ops (F := F)) V (Proc.devRef .tc main_cst_48) = ReadP.val_main_cst_48 (F := F) := by
  obtain ⟨W, h1, h2, h3⟩ := after_at (ops (F := F)) wr hwr hnd V 333 _ main_cst_48 rfl rfl
  unfold ReadP.val_main_cst_48
  rw [h1]; clear h1 h2 h3
  (rw [nullary_result]) <;> rfl

theorem L_main_cst_49 (V : Valuation τ sig (Elt F)) :
    after (ops (F := F)) V (Proc.devRef .tc main_cst_49) = ReadP.val_main_cst_49 (F := F) := by
  obtain ⟨W, h1, h2, h3⟩ := after_at (ops (F := F)) wr hwr hnd V 334 _ main_cst_49 rfl rfl
  unfold ReadP.val_main_cst_49
  rw [h1]; clear h1 h2 h3
  (rw [nullary_result]) <;> rfl

theorem L_main_call11_v0 (V : Valuation τ sig (Elt F)) :
    after (ops (F := F)) V (Proc.devRef .tc main_call11_v0) = ReadP.val_main_call11_v0 (F := F) := by
  obtain ⟨W, h1, h2, h3⟩ := after_at (ops (F := F)) wr hwr hnd V 335 _ main_call11_v0 rfl rfl
  have e0 := (h2 333 main_cst_48 (by decide) rfl).trans (L_main_cst_48 V)
  have cy : ∀ v : (⟨S_, .f32⟩ : BufTy).Contents (Elt F), ((TRef.of (T := ⟨S_, .f32⟩) main_call11_v0) : TRef sig _).toBuf v = v := fun _ => rfl
  have cx0 : ∀ u, ((TRef.of (T := ⟨S_, .f32⟩) main_cst_48) : TRef sig _).ofBuf (Val := Elt F) u = u := fun _ => rfl
  unfold ReadP.val_main_call11_v0
  rw [h1]; clear h1 h2 h3
  generalize ReadP.val_main_cst_48 (F := F) = a0 at e0 ⊢
  (rw [unary_result, cy, cx0, e0]) <;> rfl

theorem L_main_call11_v1 (V : Valuation τ sig (Elt F)) :
    after (ops (F := F)) V (Proc.devRef .tc main_call11_v1) = ReadP.val_main_call11_v1 (F := F) := by
  obtain ⟨W, h1, h2, h3⟩ := after_at (ops (F := F)) wr hwr hnd V 336 _ main_call11_v1 rfl rfl
  have e0 := (h2 335 main_call11_v0 (by decide) rfl).trans (L_main_call11_v0 V)
  have cy : ∀ v : (⟨S65536x128, .f32⟩ : BufTy).Contents (Elt F), ((TRef.of (T := ⟨S65536x128, .f32⟩) main_call11_v1) : TRef sig _).toBuf v = v := fun _ => rfl
  have cx0 : ∀ u, ((TRef.of (T := ⟨S_, .f32⟩) main_call11_v0) : TRef sig _).ofBuf (Val := Elt F) u = u := fun _ => rfl
  unfold ReadP.val_main_call11_v1
  rw [h1]; clear h1 h2 h3
  generalize ReadP.val_main_call11_v0 (F := F) = a0 at e0 ⊢
  (rw [unary_result, cy, cx0, e0]) <;> rfl

theorem L_main_call11_v2 (V : Valuation τ sig (Elt F)) :
    after (ops (F := F)) V (Proc.devRef .tc main_call11_v2) = ReadP.val_main_call11_v2 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg22)) (V (Proc.devRef .tc main_arg24)) (V (Proc.devRef .tc main_arg25)) := by
  obtain ⟨W, h1, h2, h3⟩ := after_at (ops (F := F)) wr hwr hnd V 337 _ main_call11_v2 rfl rfl
  have e0 := (h2 336 main_call11_v1 (by decide) rfl).trans (L_main_call11_v1 V)
  have e1 := (h2 332 main_v211 (by decide) rfl).trans (L_main_v211 V)
  have cy : ∀ v : (⟨S65536x128, .f32⟩ : BufTy).Contents (Elt F), ((TRef.of (T := ⟨S65536x128, .f32⟩) main_call11_v2) : TRef sig _).toBuf v = v := fun _ => rfl
  have cx0 : ∀ u, ((TRef.of (T := ⟨S65536x128, .f32⟩) main_call11_v1) : TRef sig _).ofBuf (Val := Elt F) u = u := fun _ => rfl
  have cx1 : ∀ u, ((TRef.of (T := ⟨S65536x128, .f32⟩) main_v211) : TRef sig _).ofBuf (Val := Elt F) u = u := fun _ => rfl
  unfold ReadP.val_main_call11_v2
  rw [h1]; clear h1 h2 h3
  generalize ReadP.val_main_call11_v1 (F := F) = a0 at e0 ⊢
  generalize ReadP.val_main_v211 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg22)) (V (Proc.devRef .tc main_arg24)) (V (Proc.devRef .tc main_arg25)) = a1 at e1 ⊢
  (rw [binary_result, cy, cx0, cx1, e0, e1]) <;> rfl

theorem L_main_call11_v3 (V : Valuation τ sig (Elt F)) :
    after (ops (F := F)) V (Proc.devRef .tc main_call11_v3) = ReadP.val_main_call11_v3 (F := F) := by
  obtain ⟨W, h1, h2, h3⟩ := after_at (ops (F := F)) wr hwr hnd V 338 _ main_call11_v3 rfl rfl
  have e0 := (h2 334 main_cst_49 (by decide) rfl).trans (L_main_cst_49 V)
  have cy : ∀ v : (⟨S_, .f32⟩ : BufTy).Contents (Elt F), ((TRef.of (T := ⟨S_, .f32⟩) main_call11_v3) : TRef sig _).toBuf v = v := fun _ => rfl
  have cx0 : ∀ u, ((TRef.of (T := ⟨S_, .f32⟩) main_cst_49) : TRef sig _).ofBuf (Val := Elt F) u = u := fun _ => rfl
  unfold ReadP.val_main_call11_v3
  rw [h1]; clear h1 h2 h3
  generalize ReadP.val_main_cst_49 (F := F) = a0 at e0 ⊢
  (rw [unary_result, cy, cx0, e0]) <;> rfl

theorem L_main_call11_v4 (V : Valuation τ sig (Elt F)) :
    after (ops (F := F)) V (Proc.devRef .tc main_call11_v4) = ReadP.val_main_call11_v4 (F := F) := by
  obtain ⟨W, h1, h2, h3⟩ := after_at (ops (F := F)) wr hwr hnd V 339 _ main_call11_v4 rfl rfl
  have e0 := (h2 338 main_call11_v3 (by decide) rfl).trans (L_main_call11_v3 V)
  have cy : ∀ v : (⟨S65536x128, .f32⟩ : BufTy).Contents (Elt F), ((TRef.of (T := ⟨S65536x128, .f32⟩) main_call11_v4) : TRef sig _).toBuf v = v := fun _ => rfl
  have cx0 : ∀ u, ((TRef.of (T := ⟨S_, .f32⟩) main_call11_v3) : TRef sig _).ofBuf (Val := Elt F) u = u := fun _ => rfl
  unfold ReadP.val_main_call11_v4
  rw [h1]; clear h1 h2 h3
  generalize ReadP.val_main_call11_v3 (F := F) = a0 at e0 ⊢
  (rw [unary_result, cy, cx0, e0]) <;> rfl

theorem L_main_v212 (V : Valuation τ sig (Elt F)) :
    after (ops (F := F)) V (Proc.devRef .tc main_v212) = ReadP.val_main_v212 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg22)) (V (Proc.devRef .tc main_arg24)) (V (Proc.devRef .tc main_arg25)) := by
  obtain ⟨W, h1, h2, h3⟩ := after_at (ops (F := F)) wr hwr hnd V 340 _ main_v212 rfl rfl
  have e0 := (h2 339 main_call11_v4 (by decide) rfl).trans (L_main_call11_v4 V)
  have e1 := (h2 337 main_call11_v2 (by decide) rfl).trans (L_main_call11_v2 V)
  have cy : ∀ v : (⟨S65536x128, .f32⟩ : BufTy).Contents (Elt F), ((TRef.of (T := ⟨S65536x128, .f32⟩) main_v212) : TRef sig _).toBuf v = v := fun _ => rfl
  have cx0 : ∀ u, ((TRef.of (T := ⟨S65536x128, .f32⟩) main_call11_v4) : TRef sig _).ofBuf (Val := Elt F) u = u := fun _ => rfl
  have cx1 : ∀ u, ((TRef.of (T := ⟨S65536x128, .f32⟩) main_call11_v2) : TRef sig _).ofBuf (Val := Elt F) u = u := fun _ => rfl
  unfold ReadP.val_main_v212
  rw [h1]; clear h1 h2 h3
  generalize ReadP.val_main_call11_v4 (F := F) = a0 at e0 ⊢
  generalize ReadP.val_main_call11_v2 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg22)) (V (Proc.devRef .tc main_arg24)) (V (Proc.devRef .tc main_arg25)) = a1 at e1 ⊢
  (rw [binary_result, cy, cx0, cx1, e0, e1]) <;> rfl

theorem L_main_v213 (V : Valuation τ sig (Elt F)) :
    after (ops (F := F)) V (Proc.devRef .tc main_v213) = ReadP.val_main_v213 (F := F) (V (Proc.devRef .tc main_arg21)) := by
  obtain ⟨W, h1, h2, h3⟩ := after_at (ops (F := F)) wr hwr hnd V 341 _ main_v213 rfl rfl
  have e0 := h3 main_arg21 nm_main_arg21
  unfold ReadP.val_main_v213
  rw [h1]; clear h1 h2 h3
  generalize V (Proc.devRef .tc main_arg21) = a0 at e0 ⊢
  (rw [unary_result, e0]) <;> rfl

theorem L_main_v214 (V : Valuation τ sig (Elt F)) :
    after (ops (F := F)) V (Proc.devRef .tc main_v214) = ReadP.val_main_v214 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg24)) (V (Proc.devRef .tc main_arg25)) := by
  obtain ⟨W, h1, h2, h3⟩ := after_at (ops (F := F)) wr hwr hnd V 342 _ main_v214 rfl rfl
  have e0 := (h2 340 main_v212 (by decide) rfl).trans (L_main_v212 V)
  have e1 := (h2 341 main_v213 (by decide) rfl).trans (L_main_v213 V)
  unfold ReadP.val_main_v214
  rw [h1]; clear h1 h2 h3
  generalize ReadP.val_main_v212 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg22)) (V (Proc.devRef .tc main_arg24)) (V (Proc.devRef .tc main_arg25)) = a0 at e0 ⊢
  generalize ReadP.val_main_v213 (F := F) (V (Proc.devRef .tc main_arg21)) = a1 at e1 ⊢
  (rw [binary_result, e0, e1]) <;> rfl

theorem L_main_v215 (V : Valuation τ sig (Elt F)) :
    after (ops (F := F)) V (Proc.devRef .tc main_v215) = ReadP.val_main_v215 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg24)) (V (Proc.devRef .tc main_arg25)) := by
  obtain ⟨W, h1, h2, h3⟩ := after_at (ops (F := F)) wr hwr hnd V 343 _ main_v215 rfl rfl
  have e0 := (h2 342 main_v214 (by decide) rfl).trans (L_main_v214 V)
  unfold ReadP.val_main_v215
  rw [h1]; clear h1 h2 h3
  generalize ReadP.val_main_v214 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg24)) (V (Proc.devRef .tc main_arg25)) = a0 at e0 ⊢
  (rw [unary_result, e0]) <;> rfl

theorem L_main_v216 (V : Valuation τ sig (Elt F)) :
    after (ops (F := F)) V (Proc.devRef .tc main_v216) = ReadP.val_main_v216 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg24)) (V (Proc.devRef .tc main_arg25)) := by
  obtain ⟨W, h1, h2, h3⟩ := after_at (ops (F := F)) wr hwr hnd V 344 _ main_v216 rfl rfl
  have e0 := (h2 343 main_v215 (by decide) rfl).trans (L_main_v215 V)
  unfold ReadP.val_main_v216
  rw [h1]; clear h1 h2 h3
  generalize ReadP.val_main_v215 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg24)) (V (Proc.devRef .tc main_arg25)) = a0 at e0 ⊢
  (rw [unary_result, e0]) <;> rfl

theorem L_main_cst_50 (V : Valuation τ sig (Elt F)) :
    after (ops (F := F)) V (Proc.devRef .tc main_cst_50) = ReadP.val_main_cst_50 (F := F) := by
  obtain ⟨W, h1, h2, h3⟩ := after_at (ops (F := F)) wr hwr hnd V 345 _ main_cst_50 rfl rfl
  unfold ReadP.val_main_cst_50
  rw [h1]; clear h1 h2 h3
  (rw [nullary_result]) <;> rfl

theorem L_main_v217 (V : Valuation τ sig (Elt F)) :
    after (ops (F := F)) V (Proc.devRef .tc main_v217) = ReadP.val_main_v217 (F := F) := by
  obtain ⟨W, h1, h2, h3⟩ := after_at (ops (F := F)) wr hwr hnd V 346 _ main_v217 rfl rfl
  have e0 := (h2 345 main_cst_50 (by decide) rfl).trans (L_main_cst_50 V)
  unfold ReadP.val_main_v217
  rw [h1]; clear h1 h2 h3
  generalize ReadP.val_main_cst_50 (F := F) = a0 at e0 ⊢
  (rw [unary_result, e0]) <;> rfl

theorem L_main_v218 (V : Valuation τ sig (Elt F)) :
    after (ops (F := F)) V (Proc.devRef .tc main_v218) = ReadP.val_main_v218 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg24)) (V (Proc.devRef .tc main_arg25)) := by
  obtain ⟨W, h1, h2, h3⟩ := after_at (ops (F := F)) wr hwr hnd V 347 _ main_v218 rfl rfl
  have e0 := (h2 346 main_v217 (by decide) rfl).trans (L_main_v217 V)
  have e1 := (h2 344 main_v216 (by decide) rfl).trans (L_main_v216 V)
  unfold ReadP.val_main_v218
  rw [h1]; clear h1 h2 h3
  generalize ReadP.val_main_v217 (F := F) = a0 at e0 ⊢
  generalize ReadP.val_main_v216 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg24)) (V (Proc.devRef .tc main_arg25)) = a1 at e1 ⊢
  (rw [binary_result, e0, e1]) <;> rfl

theorem L_main_cst_51 (V : Valuation τ sig (Elt F)) :
    after (ops (F := F)) V (Proc.devRef .tc main_cst_51) = ReadP.val_main_cst_51 (F := F) := by
  obtain ⟨W, h1, h2, h3⟩ := after_at (ops (F := F)) wr hwr hnd V 348 _ main_cst_51 rfl rfl
  unfold ReadP.val_main_cst_51
  rw [h1]; clear h1 h2 h3
  (rw [nullary_result]) <;> rfl

theorem L_main_v219 (V : Valuation τ sig (Elt F)) :
    after (ops (F := F)) V (Proc.devRef .tc main_v219) = ReadP.val_main_v219 (F := F) := by
  obtain ⟨W, h1, h2, h3⟩ := after_at (ops (F := F)) wr hwr hnd V 349 _ main_v219 rfl rfl
  have e0 := (h2 348 main_cst_51 (by decide) rfl).trans (L_main_cst_51 V)
  unfold ReadP.val_main_v219
  rw [h1]; clear h1 h2 h3
  generalize ReadP.val_main_cst_51 (F := F) = a0 at e0 ⊢
  (rw [unary_result, e0]) <;> rfl

theorem L_main_v220 (V : Valuation τ sig (Elt F)) :
    after (ops (F := F)) V (Proc.devRef .tc main_v220) = ReadP.val_main_v220 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg24)) (V (Proc.devRef .tc main_arg25)) := by
  obtain ⟨W, h1, h2, h3⟩ := after_at (ops (F := F)) wr hwr hnd V 350 _ main_v220 rfl rfl
  have e0 := (h2 349 main_v219 (by decide) rfl).trans (L_main_v219 V)
  have e1 := (h2 347 main_v218 (by decide) rfl).trans (L_main_v218 V)
  unfold ReadP.val_main_v220
  rw [h1]; clear h1 h2 h3
  generalize ReadP.val_main_v219 (F := F) = a0 at e0 ⊢
  generalize ReadP.val_main_v218 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg24)) (V (Proc.devRef .tc main_arg25)) = a1 at e1 ⊢
  (rw [binary_result, e0, e1]) <;> rfl

theorem L_main_v221 (V : Valuation τ sig (Elt F)) :
    after (ops (F := F)) V (Proc.devRef .tc main_v221) = ReadP.val_main_v221 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg24)) (V (Proc.devRef .tc main_arg25)) := by
  obtain ⟨W, h1, h2, h3⟩ := after_at (ops (F := F)) wr hwr hnd V 351 _ main_v221 rfl rfl
  have e0 := (h2 340 main_v212 (by decide) rfl).trans (L_main_v212 V)
  have e1 := (h2 350 main_v220 (by decide) rfl).trans (L_main_v220 V)
  unfold ReadP.val_main_v221
  rw [h1]; clear h1 h2 h3
  generalize ReadP.val_main_v212 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg22)) (V (Proc.devRef .tc main_arg24)) (V (Proc.devRef .tc main_arg25)) = a0 at e0 ⊢
  generalize ReadP.val_main_v220 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg24)) (V (Proc.devRef .tc main_arg25)) = a1 at e1 ⊢
  (rw [binary_result, e0, e1]) <;> rfl

theorem L_main_v222 (V : Valuation τ sig (Elt F)) :
    after (ops (F := F)) V (Proc.devRef .tc main_v222) = ReadP.val_main_v222 (F := F) (V (Proc.devRef .tc main_arg23)) := by
  obtain ⟨W, h1, h2, h3⟩ := after_at (ops (F := F)) wr hwr hnd V 352 _ main_v222 rfl rfl
  have e0 := h3 main_arg23 nm_main_arg23
  unfold ReadP.val_main_v222
  rw [h1]; clear h1 h2 h3
  generalize V (Proc.devRef .tc main_arg23) = a0 at e0 ⊢
  (rw [unary_result, e0]) <;> rfl

theorem L_main_v223 (V : Valuation τ sig (Elt F)) :
    after (ops (F := F)) V (Proc.devRef .tc main_v223) = ReadP.val_main_v223 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) := by
  obtain ⟨W, h1, h2, h3⟩ := after_at (ops (F := F)) wr hwr hnd V 353 _ main_v223 rfl rfl
  have e0 := (h2 351 main_v221 (by decide) rfl).trans (L_main_v221 V)
  have e1 := (h2 352 main_v222 (by decide) rfl).trans (L_main_v222 V)
  unfold ReadP.val_main_v223
  rw [h1]; clear h1 h2 h3
  generalize ReadP.val_main_v221 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg24)) (V (Proc.devRef .tc main_arg25)) = a0 at e0 ⊢
  generalize ReadP.val_main_v222 (F := F) (V (Proc.devRef .tc main_arg23)) = a1 at e1 ⊢
  (rw [binary_result, e0, e1]) <;> rfl

theorem L_main_v224 (V : Valuation τ sig (Elt F)) :
    after (ops (F := F)) V (Proc.devRef .tc main_v224) = ReadP.val_main_v224 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) := by
  obtain ⟨W, h1, h2, h3⟩ := after_at (ops (F := F)) wr hwr hnd V 354 _ main_v224 rfl rfl
  have e0 := (h2 353 main_v223 (by decide) rfl).trans (L_main_v223 V)
  unfold ReadP.val_main_v224
  rw [h1]; clear h1 h2 h3
  generalize ReadP.val_main_v223 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) = a0 at e0 ⊢
  (rw [unary_result, e0]) <;> rfl

theorem L_main_v225 (V : Valuation τ sig (Elt F)) :
    after (ops (F := F)) V (Proc.devRef .tc main_v225) = ReadP.val_main_v225 (F := F) (V (Proc.devRef .tc main_arg0)) (V (Proc.devRef .tc main_arg8)) (V (Proc.devRef .tc main_arg9)) := by
  obtain ⟨W, h1, h2, h3⟩ := after_at (ops (F := F)) wr hwr hnd V 355 _ main_v225 rfl rfl
  have e0 := (h2 13 main_v6 (by decide) rfl).trans (L_main_v6 V)
  unfold ReadP.val_main_v225
  rw [h1]; clear h1 h2 h3
  generalize ReadP.val_main_v6 (F := F) (V (Proc.devRef .tc main_arg0)) (V (Proc.devRef .tc main_arg8)) (V (Proc.devRef .tc main_arg9)) = a0 at e0 ⊢
  (rw [unary_result, e0]) <;> rfl

theorem L_main_v226 (V : Valuation τ sig (Elt F)) :
    after (ops (F := F)) V (Proc.devRef .tc main_v226) = ReadP.val_main_v226 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) := by
  obtain ⟨W, h1, h2, h3⟩ := after_at (ops (F := F)) wr hwr hnd V 356 _ main_v226 rfl rfl
  have e0 := (h2 354 main_v224 (by decide) rfl).trans (L_main_v224 V)
  have e1 := (h2 355 main_v225 (by decide) rfl).trans (L_main_v225 V)
  unfold ReadP.val_main_v226
  rw [h1]; clear h1 h2 h3
  generalize ReadP.val_main_v224 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) = a0 at e0 ⊢
  generalize ReadP.val_main_v225 (F := F) (V (Proc.devRef .tc main_arg0)) (V (Proc.devRef .tc main_arg8)) (V (Proc.devRef .tc main_arg9)) = a1 at e1 ⊢
  (rw [binary_result, e0, e1]) <;> rfl

theorem L_main_v227 (V : Valuation τ sig (Elt F)) :
    after (ops (F := F)) V (Proc.devRef .tc main_v227) = ReadP.val_main_v227 (F := F) (V (Proc.devRef .tc main_arg2)) := by
  obtain ⟨W, h1, h2, h3⟩ := after_at (ops (F := F)) wr hwr hnd V 357 _ main_v227 rfl rfl
  have e0 := h3 main_arg2 nm_main_arg2
  unfold ReadP.val_main_v227
  rw [h1]; clear h1 h2 h3
  generalize V (Proc.devRef .tc main_arg2) = a0 at e0 ⊢
  (rw [unary_result, e0]) <;> rfl

theorem L_main_v228 (V : Valuation τ sig (Elt F)) :
    after (ops (F := F)) V (Proc.devRef .tc main_v228) = ReadP.val_main_v228 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) := by
  obtain ⟨W, h1, h2, h3⟩ := after_at (ops (F := F)) wr hwr hnd V 358 _ main_v228 rfl rfl
  have e0 := (h2 357 main_v227 (by decide) rfl).trans (L_main_v227 V)
  have e1 := (h2 356 main_v226 (by decide) rfl).trans (L_main_v226 V)
  unfold ReadP.val_main_v228
  rw [h1]; clear h1 h2 h3
  generalize ReadP.val_main_v227 (F := F) (V (Proc.devRef .tc main_arg2)) = a0 at e0 ⊢
  generalize ReadP.val_main_v226 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) = a1 at e1 ⊢
  (rw [binary_result, e0, e1]) <;> rfl

theorem L_main_v229 (V : Valuation τ sig (Elt F)) :
    after (ops (F := F)) V (Proc.devRef .tc main_v229) = ReadP.val_main_v229 (F := F) (V (Proc.devRef .tc main_arg1)) := by
  obtain ⟨W, h1, h2, h3⟩ := after_at (ops (F := F)) wr hwr hnd V 359 _ main_v229 rfl rfl
  have e0 := h3 main_arg1 nm_main_arg1
  unfold ReadP.val_main_v229
  rw [h1]; clear h1 h2 h3
  generalize V (Proc.devRef .tc main_arg1) = a0 at e0 ⊢
  (rw [unary_result, e0]) <;> rfl

theorem L_main_v230 (V : Valuation τ sig (Elt F)) :
    after (ops (F := F)) V (Proc.devRef .tc main_v230) = ReadP.val_main_v230 (F := F) (V (Proc.devRef .tc main_arg0)) (V (Proc.devRef .tc main_arg1)) (V (Proc.devRef .tc main_arg2)) (V (Proc.devRef .tc main_arg3)) (V (Proc.devRef .tc main_arg8)) (V (Proc.devRef .tc main_arg9)) := by
  obtain ⟨W, h1, h2, h3⟩ := after_at (ops (F := F)) wr hwr hnd V 360 _ main_v230 rfl rfl
  have e0 := (h2 359 main_v229 (by decide) rfl).trans (L_main_v229 V)
  have e1 := (h2 84 main_v37 (by decide) rfl).trans (L_main_v37 V)
  unfold ReadP.val_main_v230
  rw [h1]; clear h1 h2 h3
  generalize ReadP.val_main_v229 (F := F) (V (Proc.devRef .tc main_arg1)) = a0 at e0 ⊢
  generalize ReadP.val_main_v37 (F := F) (V (Proc.devRef .tc main_arg0)) (V (Proc.devRef .tc main_arg2)) (V (Proc.devRef .tc main_arg3)) (V (Proc.devRef .tc main_arg8)) (V (Proc.devRef .tc main_arg9)) = a1 at e1 ⊢
  (rw [binary_result, e0, e1]) <;> rfl

end Cert.ReferenceIdeal.RefRun

end
-- ==== Proof.RefRun.lean ====
/-
  The reference program's run: a line of 361 host operations in single-assignment form, so every weakly fair execution
  terminates with each buffer at the fold of the operations over the launch contents; each result buffer's fold is its
  stage function of the argument arrays (one lemma per operation, in program order), and an argument, which no
  operation writes, keeps its launch contents.
-/
import proofs.«180642_j50062138802934_2_alg».proof.Proof.RefRun5
import proofs.«180642_j50062138802934_2_alg».proof.Proof.ReadP
import Idealize.ShloMosaic.Lib.StableHlo.Run

noncomputable section

namespace Cert.ReferenceIdeal.RefRun

open Cert.ReferenceIdeal Cert.ReferenceIdeal.Gen Cert.ReferenceIdeal.RunP Idealize.ShloMosaic Idealize.ShloMosaic.TcCoe Idealize.SL.Sem Idealize.ShloMosaic.StableHlo

set_option maxRecDepth 8192 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v226) = ReadP.val_main_v226 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_v228) = ReadP.val_main_v228 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_v230) = ReadP.val_main_v230 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9))
      ∧ r.2.mem ((c.tc : Thread nD τ).loc main_v98) = ReadP.val_main_v98 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg24)) (m ((c.tc : Thread nD τ).loc main_arg25))
      ∧ r.2.mem ((c.tc : Thread nD τ).loc main_v145) = ReadP.val_main_v145 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg18)) (m ((c.tc : Thread nD τ).loc main_arg24)) (m ((c.tc : Thread nD τ).loc main_arg25))
      ∧ r.2.mem ((c.tc : Thread nD τ).loc main_v192) = ReadP.val_main_v192 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg24)) (m ((c.tc : Thread nD τ).loc main_arg25))
      ∧ r.2.mem ((c.tc : Thread nD τ).loc main_v36) = ReadP.val_main_v36 (F := Ideal) (m ((c.tc : Thread nD τ).loc main_arg0)) (m ((c.tc : Thread nD τ).loc main_arg2)) (m ((c.tc : Thread nD τ).loc main_arg3)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨(h c main_v226).trans (L_main_v226 (launchContents m c)),
      (h c main_v228).trans (L_main_v228 (launchContents m c)),
      (h c main_v230).trans (L_main_v230 (launchContents m c)),
      (h c main_v98).trans (L_main_v98 (launchContents m c)),
      (h c main_v145).trans (L_main_v145 (launchContents m c)),
      (h c main_v192).trans (L_main_v192 (launchContents m c)),
      (h c main_v36).trans (L_main_v36 (launchContents m c)),
      (h c main_arg0).trans (after_of_not_mem (ops (F := Ideal)) wr hwr _ nm_main_arg0),
      (h c main_arg1).trans (after_of_not_mem (ops (F := Ideal)) wr hwr _ nm_main_arg1),
      (h c main_arg2).trans (after_of_not_mem (ops (F := Ideal)) wr hwr _ nm_main_arg2),
      (h c main_arg3).trans (after_of_not_mem (ops (F := Ideal)) wr hwr _ nm_main_arg3),
      (h c main_arg4).trans (after_of_not_mem (ops (F := Ideal)) wr hwr _ nm_main_arg4),
      (h c main_arg5).trans (after_of_not_mem (ops (F := Ideal)) wr hwr _ nm_main_arg5),
      (h c main_arg6).trans (after_of_not_mem (ops (F := Ideal)) wr hwr _ nm_main_arg6),
      (h c main_arg7).trans (after_of_not_mem (ops (F := Ideal)) wr hwr _ nm_main_arg7),
      (h c main_arg8).trans (after_of_not_mem (ops (F := Ideal)) wr hwr _ nm_main_arg8),
      (h c main_arg9).trans (after_of_not_mem (ops (F := Ideal)) wr hwr _ nm_main_arg9),
      (h c main_arg10).trans (after_of_not_mem (ops (F := Ideal)) wr hwr _ nm_main_arg10),
      (h c main_arg11).trans (after_of_not_mem (ops (F := Ideal)) wr hwr _ nm_main_arg11),
      (h c main_arg12).trans (after_of_not_mem (ops (F := Ideal)) wr hwr _ nm_main_arg12),
      (h c main_arg13).trans (after_of_not_mem (ops (F := Ideal)) wr hwr _ nm_main_arg13),
      (h c main_arg14).trans (after_of_not_mem (ops (F := Ideal)) wr hwr _ nm_main_arg14),
      (h c main_arg15).trans (after_of_not_mem (ops (F := Ideal)) wr hwr _ nm_main_arg15),
      (h c main_arg16).trans (after_of_not_mem (ops (F := Ideal)) wr hwr _ nm_main_arg16),
      (h c main_arg17).trans (after_of_not_mem (ops (F := Ideal)) wr hwr _ nm_main_arg17),
      (h c main_arg18).trans (after_of_not_mem (ops (F := Ideal)) wr hwr _ nm_main_arg18),
      (h c main_arg19).trans (after_of_not_mem (ops (F := Ideal)) wr hwr _ nm_main_arg19),
      (h c main_arg20).trans (after_of_not_mem (ops (F := Ideal)) wr hwr _ nm_main_arg20),
      (h c main_arg21).trans (after_of_not_mem (ops (F := Ideal)) wr hwr _ nm_main_arg21),
      (h c main_arg22).trans (after_of_not_mem (ops (F := Ideal)) wr hwr _ nm_main_arg22),
      (h c main_arg23).trans (after_of_not_mem (ops (F := Ideal)) wr hwr _ nm_main_arg23),
      (h c main_arg24).trans (after_of_not_mem (ops (F := Ideal)) wr hwr _ nm_main_arg24),
      (h c main_arg25).trans (after_of_not_mem (ops (F := Ideal)) wr hwr _ nm_main_arg25)⟩)
    (run_seq scopedRefs_eq scopedSems_eq defs main (fun _ => ops) main_eq (fun _ => ops_sub) m ρ
      (fun _ op hop => (List.forall_iff_forall_mem.mp hfresh) op hop))

end Cert.ReferenceIdeal.RefRun

end
-- ==== Proof.lean ====
/-
  The certificate of the sub-frame synthesis kernel against its jnp reference.

  Both programs compute, for each of the 65536 batch rows independently, one step of a small recurrent vocoder: a gain
  `g = exp (clip(cond) · w + b)`; the gain-normalised pitch prediction and previous excitation, clipped to [-1, 1]; a
  frame-wise convolution with a gated output; three recurrent cells, each followed by a gated, clipped projection; a skip
  layer; and the output signal `tanh (skip · W) · g`, which is appended to the excitation memory.  The kernel works on
  blocks of 512 rows with the weights transposed beforehand; the reference on all rows at once.  Over the extended reals the
  two agree row by row: every product with a weight matrix is the same sum, the kernel's `x · (1 / (ε + g))` is the
  reference's `x / (ε + g)` because `ε + g > 0`, and the kernel's logistic function is by definition the reference's
  `1 / (1 + exp (-x))`.  No finiteness of the inputs is used.

  The frames of the kernel and of its idealization are the generated frame proofs (in patched copies); the reference's
  frame is its run with the results dropped; the idealization rewrote nothing, so `preserves` is trivial; the algebraic
  claim puts the kernel's run (each result array a named function of the arguments) beside the reference's run (each
  result a stage of the arguments) and identifies the two, result by result.
-/
import proofs.«180642_j50062138802934_2_alg».proof.Defs
import proofs.«180642_j50062138802934_2_alg».proof.Proof.Gen.Kernel
import proofs.«180642_j50062138802934_2_alg».proof.Proof.Gen.KernelIdeal
import proofs.«180642_j50062138802934_2_alg».proof.Proof.Gen.ReferenceIdeal
import proofs.«180642_j50062138802934_2_alg».proof.Proof.Gen.Pre_finite_inputs
import proofs.«180642_j50062138802934_2_alg».proof.Proof.FrameKernelP
import proofs.«180642_j50062138802934_2_alg».proof.Proof.FrameKernelIdealP
import proofs.«180642_j50062138802934_2_alg».proof.Proof.KOut
import proofs.«180642_j50062138802934_2_alg».proof.Proof.Assemble
import proofs.«180642_j50062138802934_2_alg».proof.Proof.KIn4
import proofs.«180642_j50062138802934_2_alg».proof.Proof.RefRun

noncomputable section

namespace Cert.Proof

open Idealize.ShloMosaic Idealize.SL.Sem

/-- The word-level kernel's frame: the generated frame proof. -/
theorem frame_k : Cert.frame_Kernel := fun m ρ _ => Cert.Kernel.GenP.frame m ρ

/-- The idealized kernel's frame: the generated frame proof. -/
theorem frame_ki : Cert.frame_KernelIdeal := fun m ρ _ => Cert.KernelIdeal.GenP.frame m ρ

/-- The reference's frame: its run with the seven results dropped. -/
theorem frame_ri : Cert.frame_ReferenceIdeal := fun m ρ _ =>
  (θ_run Cert.ReferenceIdeal.defs _ _).mono (fun _ h c => (h c).2.2.2.2.2.2.2) (Cert.ReferenceIdeal.RefRun.run m ρ)

/-- The ideal pass rewrote nothing: the idealization is the kernel's own text read over the extended reals. -/
theorem preserves : Cert.preserves_Kernel_KernelIdeal := trivial

/-- The host gather that the kernel's wrapper performs before the launch is the reference's own gather of the same two
    arguments, so the rows of the gathered operand's blocks are rows of the reference's gather stage. -/
theorem gathered_rows (m : (ℓ : Loc Cert.KernelIdeal.nD Cert.KernelIdeal.τ Cert.KernelIdeal.sig) → Buf (Elt Ideal) ℓ)
    (c : Dev Cert.KernelIdeal.nD) (t : Fin Cert.KernelIdeal.cfg0.N) (r : Fin 512) (k : Fin 44) :
    (Cert.KernelIdeal.GenP.iblk m c 1 t : Vec Ideal Cert.KernelIdeal.S512x44 .f32) (ValueIdx.ix2 r k)
      = Cert.ReferenceIdeal.ReadP.val_main_v24 (F := Ideal) (Cert.Assemble.A2 m c) (Cert.Assemble.A3 m c)
          (ValueIdx.ix2 ⟨512 * t.val + r.val, Cert.KernelIdeal.KIn.row_lt t r⟩ k) :=
  Cert.KernelIdeal.KIn.blk_1 m c t r k

/-- Run from memories that agree on the arguments, the idealized kernel and the idealized reference end with equal
    results: the kernel's seven result arrays are the reference's stages of the kernel's arguments (row by row, block by
    block), the reference's are its stages of its own arguments, and the arguments agree. -/
theorem algebraic : Cert.algebraic_KernelIdeal_ReferenceIdeal := by
  intro m ρ m' ρ' _ hagree
  refine ⟨_, _, _, _, _, _, _, Cert.Assemble.run m ρ (gathered_rows m), ?_⟩
  refine (θ_run Cert.ReferenceIdeal.defs _ _).mono (fun _ h c => ?_) (Cert.ReferenceIdeal.RefRun.run m' ρ')
  obtain ⟨e0, e1, e2, e3, e4, e5, e6, e7, e8, e9, e10, e11, e12, e13, e14, e15, e16, e17, e18, e19, e20, e21, e22, e23, e24, e25⟩ := hagree c
  obtain ⟨h0, h1, h2, h3, h4, h5, h6, hargs⟩ := h c
  refine ⟨h0.trans ?_, h1.trans ?_, h2.trans ?_, h3.trans ?_, h4.trans ?_, h5.trans ?_, h6.trans ?_, hargs⟩ <;>
    (simp only [e0, e1, e2, e3, e4, e5, e6, e7, e8, e9, e10, e11, e12, e13, e14, e15, e16, e17, e18, e19, e20, e21, e22, e23, e24, e25] <;> rfl)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
